-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg8 : FVec F S3x128 .f32) (main_arg9 : FVec F S3x128 .f32) (main_arg10 : FVec F S3x128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  main_v48

def fn_part1 {F : FTy → Type} [FloatOps F] (main_arg5 : FVec F S3x128 .f32) (main_arg6 : FVec F S3x128 .f32) (main_arg7 : FVec F S3x128 .f32) (main_arg8 : FVec F S3x128 .f32) (main_arg9 : FVec F S3x128 .f32) (main_arg10 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x600000 32) (main_arg2 : FVec F S600000 .f32) (main_arg3 : FVec F S3x128x128 .f32) (main_arg4 : FVec F S3x128x128 .f32) (main_arg5 : FVec F S3x128 .f32) (main_arg6 : FVec F S3x128 .f32) (main_arg7 : FVec F S3x128 .f32) (main_arg8 : FVec F S3x128 .f32) (main_arg9 : FVec F S3x128 .f32) (main_arg10 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S3x128x128 : Shape := ⟨3, ![3, 128, 128]⟩
abbrev S3x128 : Shape := ⟨2, ![3, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 159
  | .vmem => 141
  | .smem => 0
  | _ => 0

abbrev hbmTy0_0 (i : Nat) : BufTy := match i % 128 with
  | 0 => ⟨S50000x128, .f32⟩
  | 1 => ⟨S2x600000, .i32⟩
  | 2 => ⟨S600000, .f32⟩
  | 3 => ⟨S3x128x128, .f32⟩
  | 4 => ⟨S3x128x128, .f32⟩
  | 5 => ⟨S3x128, .f32⟩
  | 6 => ⟨S3x128, .f32⟩
  | 7 => ⟨S3x128, .f32⟩
  | 8 => ⟨S3x128, .f32⟩
  | 9 => ⟨S3x128, .f32⟩
  | 10 => ⟨S3x128, .f32⟩
  | 11 => ⟨S1x600000, .i32⟩
  | 12 => ⟨S600000, .i32⟩
  | 13 => ⟨S1x600000, .i32⟩
  | 14 => ⟨S600000, .i32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000x128, .f32⟩
  | 24 => ⟨S600000x1, .f32⟩
  | 25 => ⟨S600000x128, .f32⟩
  | 26 => ⟨S600000x128, .f32⟩
  | 27 => ⟨S_, .f32⟩
  | 28 => ⟨S50000x128, .f32⟩
  | 29 => ⟨S600000x1, .i32⟩
  | 30 => ⟨S50000x128, .f32⟩
  | 31 => ⟨S50000x128, .f32⟩
  | 32 => ⟨S1x128x128, .f32⟩
  | 33 => ⟨S128x128, .f32⟩
  | 34 => ⟨S128x128, .bf16⟩
  | 35 => ⟨S1x128x128, .f32⟩
  | 36 => ⟨S128x128, .f32⟩
  | 37 => ⟨S128x128, .bf16⟩
  | 38 => ⟨S1x128, .f32⟩
  | 39 => ⟨S128, .f32⟩
  | 40 => ⟨S1x128, .f32⟩
  | 41 => ⟨S1x128, .f32⟩
  | 42 => ⟨S128, .f32⟩
  | 43 => ⟨S1x128, .f32⟩
  | 44 => ⟨S1x128, .f32⟩
  | 45 => ⟨S128, .f32⟩
  | 46 => ⟨S1x128, .f32⟩
  | 47 => ⟨S1x128, .f32⟩
  | 48 => ⟨S128, .f32⟩
  | 49 => ⟨S1x128, .f32⟩
  | 50 => ⟨S1x128, .f32⟩
  | 51 => ⟨S128, .f32⟩
  | 52 => ⟨S1x128, .f32⟩
  | 53 => ⟨S1x128, .f32⟩
  | 54 => ⟨S128, .f32⟩
  | 55 => ⟨S1x128, .f32⟩
  | 56 => ⟨S1x128, .f32⟩
  | 57 => ⟨S1x128, .f32⟩
  | 58 => ⟨S1x128, .f32⟩
  | 59 => ⟨S1x128, .f32⟩
  | 60 => ⟨S1x128, .f32⟩
  | 61 => ⟨S1x128, .f32⟩
  | 62 => ⟨S50000x128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S600000x1, .f32⟩
  | 73 => ⟨S600000x128, .f32⟩
  | 74 => ⟨S600000x128, .f32⟩
  | 75 => ⟨S_, .f32⟩
  | 76 => ⟨S50000x128, .f32⟩
  | 77 => ⟨S600000x1, .i32⟩
  | 78 => ⟨S50000x128, .f32⟩
  | 79 => ⟨S50000x128, .f32⟩
  | 80 => ⟨S1x128x128, .f32⟩
  | 81 => ⟨S128x128, .f32⟩
  | 82 => ⟨S128x128, .bf16⟩
  | 83 => ⟨S1x128x128, .f32⟩
  | 84 => ⟨S128x128, .f32⟩
  | 85 => ⟨S128x128, .bf16⟩
  | 86 => ⟨S1x128, .f32⟩
  | 87 => ⟨S128, .f32⟩
  | 88 => ⟨S1x128, .f32⟩
  | 89 => ⟨S1x128, .f32⟩
  | 90 => ⟨S128, .f32⟩
  | 91 => ⟨S1x128, .f32⟩
  | 92 => ⟨S1x128, .f32⟩
  | 93 => ⟨S128, .f32⟩
  | 94 => ⟨S1x128, .f32⟩
  | 95 => ⟨S1x128, .f32⟩
  | 96 => ⟨S128, .f32⟩
  | 97 => ⟨S1x128, .f32⟩
  | 98 => ⟨S1x128, .f32⟩
  | 99 => ⟨S128, .f32⟩
  | 100 => ⟨S1x128, .f32⟩
  | 101 => ⟨S1x128, .f32⟩
  | 102 => ⟨S128, .f32⟩
  | 103 => ⟨S1x128, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S1x128, .f32⟩
  | 110 => ⟨S50000x128, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x128, .f32⟩
  | 120 => ⟨S600000x1, .f32⟩
  | 121 => ⟨S600000x128, .f32⟩
  | 122 => ⟨S600000x128, .f32⟩
  | 123 => ⟨S_, .f32⟩
  | 124 => ⟨S50000x128, .f32⟩
  | 125 => ⟨S600000x1, .i32⟩
  | 126 => ⟨S50000x128, .f32⟩
  | 127 => ⟨S50000x128, .f32⟩
  | _ => ⟨S50000x128, .f32⟩

abbrev hbmTy0_1 (i : Nat) : BufTy := match i % 128 with
  | 0 => ⟨S1x128x128, .f32⟩
  | 1 => ⟨S128x128, .f32⟩
  | 2 => ⟨S128x128, .bf16⟩
  | 3 => ⟨S1x128x128, .f32⟩
  | 4 => ⟨S128x128, .f32⟩
  | 5 => ⟨S128x128, .bf16⟩
  | 6 => ⟨S1x128, .f32⟩
  | 7 => ⟨S128, .f32⟩
  | 8 => ⟨S1x128, .f32⟩
  | 9 => ⟨S1x128, .f32⟩
  | 10 => ⟨S128, .f32⟩
  | 11 => ⟨S1x128, .f32⟩
  | 12 => ⟨S1x128, .f32⟩
  | 13 => ⟨S128, .f32⟩
  | 14 => ⟨S1x128, .f32⟩
  | 15 => ⟨S1x128, .f32⟩
  | 16 => ⟨S128, .f32⟩
  | 17 => ⟨S1x128, .f32⟩
  | 18 => ⟨S1x128, .f32⟩
  | 19 => ⟨S128, .f32⟩
  | 20 => ⟨S1x128, .f32⟩
  | 21 => ⟨S1x128, .f32⟩
  | 22 => ⟨S128, .f32⟩
  | 23 => ⟨S1x128, .f32⟩
  | 24 => ⟨S1x128, .f32⟩
  | 25 => ⟨S1x128, .f32⟩
  | 26 => ⟨S1x128, .f32⟩
  | 27 => ⟨S1x128, .f32⟩
  | 28 => ⟨S1x128, .f32⟩
  | 29 => ⟨S1x128, .f32⟩
  | 30 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev vmemTy0_0 (i : Nat) : BufTy := match i % 128 with
  | 0 => ⟨S5000x128, .f32⟩
  | 1 => ⟨S5000x128, .f32⟩
  | 2 => ⟨S128x128, .bf16⟩
  | 3 => ⟨S1x128, .f32⟩
  | 4 => ⟨S1x128, .f32⟩
  | 5 => ⟨S1x128, .f32⟩
  | 6 => ⟨S1x128, .f32⟩
  | 7 => ⟨S1x128, .f32⟩
  | 8 => ⟨S1x128, .f32⟩
  | 9 => ⟨S5000x128, .f32⟩
  | 10 => ⟨S5000x128, .f32⟩
  | 11 => ⟨S128x128, .bf16⟩
  | 12 => ⟨S128x128, .bf16⟩
  | 13 => ⟨S1x128, .f32⟩
  | 14 => ⟨S1x128, .f32⟩
  | 15 => ⟨S1x128, .f32⟩
  | 16 => ⟨S1x128, .f32⟩
  | 17 => ⟨S1x128, .f32⟩
  | 18 => ⟨S1x128, .f32⟩
  | 19 => ⟨S1x128, .f32⟩
  | 20 => ⟨S1x128, .f32⟩
  | 21 => ⟨S5000x128, .f32⟩
  | 22 => ⟨S5000x128, .f32⟩
  | 23 => ⟨S128x128, .bf16⟩
  | 24 => ⟨S128x128, .bf16⟩
  | 25 => ⟨S1x128, .f32⟩
  | 26 => ⟨S1x128, .f32⟩
  | 27 => ⟨S1x128, .f32⟩
  | 28 => ⟨S1x128, .f32⟩
  | 29 => ⟨S1x128, .f32⟩
  | 30 => ⟨S1x128, .f32⟩
  | 31 => ⟨S1x128, .f32⟩
  | 32 => ⟨S1x128, .f32⟩
  | 33 => ⟨S1x128, .f32⟩
  | 34 => ⟨S1x128, .f32⟩
  | 35 => ⟨S5000x128, .f32⟩
  | 36 => ⟨S5000x128, .f32⟩
  | 37 => ⟨S128x128, .bf16⟩
  | 38 => ⟨S128x128, .bf16⟩
  | 39 => ⟨S1x128, .f32⟩
  | 40 => ⟨S1x128, .f32⟩
  | 41 => ⟨S1x128, .f32⟩
  | 42 => ⟨S1x128, .f32⟩
  | 43 => ⟨S1x128, .f32⟩
  | 44 => ⟨S1x128, .f32⟩
  | 45 => ⟨S5000x128, .f32⟩
  | 46 => ⟨S5000x128, .f32⟩
  | 47 => ⟨S5000x128, .f32⟩
  | 48 => ⟨S5000x128, .f32⟩
  | 49 => ⟨S128x128, .bf16⟩
  | 50 => ⟨S1x128, .f32⟩
  | 51 => ⟨S1x128, .f32⟩
  | 52 => ⟨S1x128, .f32⟩
  | 53 => ⟨S1x128, .f32⟩
  | 54 => ⟨S1x128, .f32⟩
  | 55 => ⟨S1x128, .f32⟩
  | 56 => ⟨S5000x128, .f32⟩
  | 57 => ⟨S5000x128, .f32⟩
  | 58 => ⟨S128x128, .bf16⟩
  | 59 => ⟨S128x128, .bf16⟩
  | 60 => ⟨S1x128, .f32⟩
  | 61 => ⟨S1x128, .f32⟩
  | 62 => ⟨S1x128, .f32⟩
  | 63 => ⟨S1x128, .f32⟩
  | 64 => ⟨S1x128, .f32⟩
  | 65 => ⟨S1x128, .f32⟩
  | 66 => ⟨S1x128, .f32⟩
  | 67 => ⟨S1x128, .f32⟩
  | 68 => ⟨S5000x128, .f32⟩
  | 69 => ⟨S5000x128, .f32⟩
  | 70 => ⟨S128x128, .bf16⟩
  | 71 => ⟨S128x128, .bf16⟩
  | 72 => ⟨S1x128, .f32⟩
  | 73 => ⟨S1x128, .f32⟩
  | 74 => ⟨S1x128, .f32⟩
  | 75 => ⟨S1x128, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S5000x128, .f32⟩
  | 83 => ⟨S5000x128, .f32⟩
  | 84 => ⟨S128x128, .bf16⟩
  | 85 => ⟨S128x128, .bf16⟩
  | 86 => ⟨S1x128, .f32⟩
  | 87 => ⟨S1x128, .f32⟩
  | 88 => ⟨S1x128, .f32⟩
  | 89 => ⟨S1x128, .f32⟩
  | 90 => ⟨S1x128, .f32⟩
  | 91 => ⟨S1x128, .f32⟩
  | 92 => ⟨S5000x128, .f32⟩
  | 93 => ⟨S5000x128, .f32⟩
  | 94 => ⟨S5000x128, .f32⟩
  | 95 => ⟨S5000x128, .f32⟩
  | 96 => ⟨S128x128, .bf16⟩
  | 97 => ⟨S1x128, .f32⟩
  | 98 => ⟨S1x128, .f32⟩
  | 99 => ⟨S1x128, .f32⟩
  | 100 => ⟨S1x128, .f32⟩
  | 101 => ⟨S1x128, .f32⟩
  | 102 => ⟨S1x128, .f32⟩
  | 103 => ⟨S5000x128, .f32⟩
  | 104 => ⟨S5000x128, .f32⟩
  | 105 => ⟨S128x128, .bf16⟩
  | 106 => ⟨S128x128, .bf16⟩
  | 107 => ⟨S1x128, .f32⟩
  | 108 => ⟨S1x128, .f32⟩
  | 109 => ⟨S1x128, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S5000x128, .f32⟩
  | 116 => ⟨S5000x128, .f32⟩
  | 117 => ⟨S128x128, .bf16⟩
  | 118 => ⟨S128x128, .bf16⟩
  | 119 => ⟨S1x128, .f32⟩
  | 120 => ⟨S1x128, .f32⟩
  | 121 => ⟨S1x128, .f32⟩
  | 122 => ⟨S1x128, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S50000x128, .f32⟩

abbrev vmemTy0_1 (i : Nat) : BufTy := match i % 128 with
  | 0 => ⟨S1x128, .f32⟩
  | 1 => ⟨S5000x128, .f32⟩
  | 2 => ⟨S5000x128, .f32⟩
  | 3 => ⟨S128x128, .bf16⟩
  | 4 => ⟨S128x128, .bf16⟩
  | 5 => ⟨S1x128, .f32⟩
  | 6 => ⟨S1x128, .f32⟩
  | 7 => ⟨S1x128, .f32⟩
  | 8 => ⟨S1x128, .f32⟩
  | 9 => ⟨S1x128, .f32⟩
  | 10 => ⟨S1x128, .f32⟩
  | 11 => ⟨S5000x128, .f32⟩
  | 12 => ⟨S5000x128, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 123 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | _ => false

abbrev sig : RefSig :=
  ofTc nBuf bufTy 0 123 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42_0 : Ref sig .tc := ⟨.hbm, 56, rfl⟩
abbrev main_v42_1 : Ref sig .tc := ⟨.hbm, 57, rfl⟩
abbrev main_v43_0 : Ref sig .tc := ⟨.hbm, 58, rfl⟩
abbrev main_v43_1 : Ref sig .tc := ⟨.hbm, 59, rfl⟩
abbrev main_v44_0 : Ref sig .tc := ⟨.hbm, 60, rfl⟩
abbrev main_v44_1 : Ref sig .tc := ⟨.hbm, 61, rfl⟩
abbrev main_v45 : Ref sig .tc := ⟨.hbm, 62, rfl⟩
abbrev main_c_1 : Ref sig .tc := ⟨.hbm, 63, rfl⟩
abbrev main_v46 : Ref sig .tc := ⟨.hbm, 64, rfl⟩
abbrev main_v47 : Ref sig .tc := ⟨.hbm, 65, rfl⟩
abbrev main_c_2 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_3 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84_0 : Ref sig .tc := ⟨.hbm, 104, rfl⟩
abbrev main_v84_1 : Ref sig .tc := ⟨.hbm, 105, rfl⟩
abbrev main_v85_0 : Ref sig .tc := ⟨.hbm, 106, rfl⟩
abbrev main_v85_1 : Ref sig .tc := ⟨.hbm, 107, rfl⟩
abbrev main_v86_0 : Ref sig .tc := ⟨.hbm, 108, rfl⟩
abbrev main_v86_1 : Ref sig .tc := ⟨.hbm, 109, rfl⟩
abbrev main_v87 : Ref sig .tc := ⟨.hbm, 110, rfl⟩
abbrev main_c_4 : Ref sig .tc := ⟨.hbm, 111, rfl⟩
abbrev main_v88 : Ref sig .tc := ⟨.hbm, 112, rfl⟩
abbrev main_v89 : Ref sig .tc := ⟨.hbm, 113, rfl⟩
abbrev main_c_5 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_6 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126_0 : Ref sig .tc := ⟨.hbm, 152, rfl⟩
abbrev main_v126_1 : Ref sig .tc := ⟨.hbm, 153, rfl⟩
abbrev main_v127_0 : Ref sig .tc := ⟨.hbm, 154, rfl⟩
abbrev main_v127_1 : Ref sig .tc := ⟨.hbm, 155, rfl⟩
abbrev main_v128_0 : Ref sig .tc := ⟨.hbm, 156, rfl⟩
abbrev main_v128_1 : Ref sig .tc := ⟨.hbm, 157, rfl⟩
abbrev main_v129 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_scratch0 : Ref sig .tc := ⟨.vmem, 19, rfl⟩
abbrev cc1_scratch1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_scratch0 : Ref sig .tc := ⟨.vmem, 33, rfl⟩
abbrev cc2_scratch1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg8_0 : Ref sig .tc := ⟨.vmem, 44, rfl⟩
abbrev cc3_stg9_0 : Ref sig .tc := ⟨.vmem, 45, rfl⟩
abbrev cc3_stg9_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_scratch0 : Ref sig .tc := ⟨.vmem, 54, rfl⟩
abbrev cc4_scratch1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg6_0 : Ref sig .tc := ⟨.vmem, 63, rfl⟩
abbrev cc5_stg7_0 : Ref sig .tc := ⟨.vmem, 64, rfl⟩
abbrev cc5_stg8_0 : Ref sig .tc := ⟨.vmem, 65, rfl⟩
abbrev cc5_scratch0 : Ref sig .tc := ⟨.vmem, 66, rfl⟩
abbrev cc5_scratch1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg2_0 : Ref sig .tc := ⟨.vmem, 71, rfl⟩
abbrev cc6_stg3_0 : Ref sig .tc := ⟨.vmem, 72, rfl⟩
abbrev cc6_stg4_0 : Ref sig .tc := ⟨.vmem, 73, rfl⟩
abbrev cc6_stg5_0 : Ref sig .tc := ⟨.vmem, 74, rfl⟩
abbrev cc6_stg6_0 : Ref sig .tc := ⟨.vmem, 75, rfl⟩
abbrev cc6_stg7_0 : Ref sig .tc := ⟨.vmem, 76, rfl⟩
abbrev cc6_stg8_0 : Ref sig .tc := ⟨.vmem, 77, rfl⟩
abbrev cc6_stg9_0 : Ref sig .tc := ⟨.vmem, 78, rfl⟩
abbrev cc6_stg10_0 : Ref sig .tc := ⟨.vmem, 79, rfl⟩
abbrev cc6_scratch0 : Ref sig .tc := ⟨.vmem, 80, rfl⟩
abbrev cc6_scratch1 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg2_0 : Ref sig .tc := ⟨.vmem, 85, rfl⟩
abbrev cc7_stg3_0 : Ref sig .tc := ⟨.vmem, 86, rfl⟩
abbrev cc7_stg4_0 : Ref sig .tc := ⟨.vmem, 87, rfl⟩
abbrev cc7_stg5_0 : Ref sig .tc := ⟨.vmem, 88, rfl⟩
abbrev cc7_stg6_0 : Ref sig .tc := ⟨.vmem, 89, rfl⟩
abbrev cc7_stg7_0 : Ref sig .tc := ⟨.vmem, 90, rfl⟩
abbrev cc7_stg8_0 : Ref sig .tc := ⟨.vmem, 91, rfl⟩
abbrev cc7_stg9_0 : Ref sig .tc := ⟨.vmem, 92, rfl⟩
abbrev cc7_stg9_1 : Ref sig .tc := ⟨.vmem, 93, rfl⟩
abbrev cc8_stg0_0 : Ref sig .tc := ⟨.vmem, 94, rfl⟩
abbrev cc8_stg0_1 : Ref sig .tc := ⟨.vmem, 95, rfl⟩
abbrev cc8_stg1_0 : Ref sig .tc := ⟨.vmem, 96, rfl⟩
abbrev cc8_stg2_0 : Ref sig .tc := ⟨.vmem, 97, rfl⟩
abbrev cc8_stg3_0 : Ref sig .tc := ⟨.vmem, 98, rfl⟩
abbrev cc8_stg4_0 : Ref sig .tc := ⟨.vmem, 99, rfl⟩
abbrev cc8_stg5_0 : Ref sig .tc := ⟨.vmem, 100, rfl⟩
abbrev cc8_scratch0 : Ref sig .tc := ⟨.vmem, 101, rfl⟩
abbrev cc8_scratch1 : Ref sig .tc := ⟨.vmem, 102, rfl⟩
abbrev cc9_stg0_0 : Ref sig .tc := ⟨.vmem, 103, rfl⟩
abbrev cc9_stg0_1 : Ref sig .tc := ⟨.vmem, 104, rfl⟩
abbrev cc9_stg1_0 : Ref sig .tc := ⟨.vmem, 105, rfl⟩
abbrev cc9_stg2_0 : Ref sig .tc := ⟨.vmem, 106, rfl⟩
abbrev cc9_stg3_0 : Ref sig .tc := ⟨.vmem, 107, rfl⟩
abbrev cc9_stg4_0 : Ref sig .tc := ⟨.vmem, 108, rfl⟩
abbrev cc9_stg5_0 : Ref sig .tc := ⟨.vmem, 109, rfl⟩
abbrev cc9_stg6_0 : Ref sig .tc := ⟨.vmem, 110, rfl⟩
abbrev cc9_stg7_0 : Ref sig .tc := ⟨.vmem, 111, rfl⟩
abbrev cc9_stg8_0 : Ref sig .tc := ⟨.vmem, 112, rfl⟩
abbrev cc9_scratch0 : Ref sig .tc := ⟨.vmem, 113, rfl⟩
abbrev cc9_scratch1 : Ref sig .tc := ⟨.vmem, 114, rfl⟩
abbrev cc10_stg0_0 : Ref sig .tc := ⟨.vmem, 115, rfl⟩
abbrev cc10_stg0_1 : Ref sig .tc := ⟨.vmem, 116, rfl⟩
abbrev cc10_stg1_0 : Ref sig .tc := ⟨.vmem, 117, rfl⟩
abbrev cc10_stg2_0 : Ref sig .tc := ⟨.vmem, 118, rfl⟩
abbrev cc10_stg3_0 : Ref sig .tc := ⟨.vmem, 119, rfl⟩
abbrev cc10_stg4_0 : Ref sig .tc := ⟨.vmem, 120, rfl⟩
abbrev cc10_stg5_0 : Ref sig .tc := ⟨.vmem, 121, rfl⟩
abbrev cc10_stg6_0 : Ref sig .tc := ⟨.vmem, 122, rfl⟩
abbrev cc10_stg7_0 : Ref sig .tc := ⟨.vmem, 123, rfl⟩
abbrev cc10_stg8_0 : Ref sig .tc := ⟨.vmem, 124, rfl⟩
abbrev cc10_stg9_0 : Ref sig .tc := ⟨.vmem, 125, rfl⟩
abbrev cc10_stg10_0 : Ref sig .tc := ⟨.vmem, 126, rfl⟩
abbrev cc10_scratch0 : Ref sig .tc := ⟨.vmem, 127, rfl⟩
abbrev cc10_scratch1 : Ref sig .tc := ⟨.vmem, 128, rfl⟩
abbrev cc11_stg0_0 : Ref sig .tc := ⟨.vmem, 129, rfl⟩
abbrev cc11_stg0_1 : Ref sig .tc := ⟨.vmem, 130, rfl⟩
abbrev cc11_stg1_0 : Ref sig .tc := ⟨.vmem, 131, rfl⟩
abbrev cc11_stg2_0 : Ref sig .tc := ⟨.vmem, 132, rfl⟩
abbrev cc11_stg3_0 : Ref sig .tc := ⟨.vmem, 133, rfl⟩
abbrev cc11_stg4_0 : Ref sig .tc := ⟨.vmem, 134, rfl⟩
abbrev cc11_stg5_0 : Ref sig .tc := ⟨.vmem, 135, rfl⟩
abbrev cc11_stg6_0 : Ref sig .tc := ⟨.vmem, 136, rfl⟩
abbrev cc11_stg7_0 : Ref sig .tc := ⟨.vmem, 137, rfl⟩
abbrev cc11_stg8_0 : Ref sig .tc := ⟨.vmem, 138, rfl⟩
abbrev cc11_stg9_0 : Ref sig .tc := ⟨.vmem, 139, rfl⟩
abbrev cc11_stg9_1 : Ref sig .tc := ⟨.vmem, 140, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem9_0 : DmaSem sig := 39
abbrev cc3_sem9_1 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem3_0 : DmaSem sig := 45
abbrev cc4_sem4_0 : DmaSem sig := 46
abbrev cc4_sem5_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem6_0 : DmaSem sig := 55
abbrev cc5_sem7_0 : DmaSem sig := 56
abbrev cc5_sem8_0 : DmaSem sig := 57
abbrev cc6_sem0_0 : DmaSem sig := 58
abbrev cc6_sem0_1 : DmaSem sig := 59
abbrev cc6_sem1_0 : DmaSem sig := 60
abbrev cc6_sem2_0 : DmaSem sig := 61
abbrev cc6_sem3_0 : DmaSem sig := 62
abbrev cc6_sem4_0 : DmaSem sig := 63
abbrev cc6_sem5_0 : DmaSem sig := 64
abbrev cc6_sem6_0 : DmaSem sig := 65
abbrev cc6_sem7_0 : DmaSem sig := 66
abbrev cc6_sem8_0 : DmaSem sig := 67
abbrev cc6_sem9_0 : DmaSem sig := 68
abbrev cc6_sem10_0 : DmaSem sig := 69
abbrev cc7_sem0_0 : DmaSem sig := 70
abbrev cc7_sem0_1 : DmaSem sig := 71
abbrev cc7_sem1_0 : DmaSem sig := 72
abbrev cc7_sem2_0 : DmaSem sig := 73
abbrev cc7_sem3_0 : DmaSem sig := 74
abbrev cc7_sem4_0 : DmaSem sig := 75
abbrev cc7_sem5_0 : DmaSem sig := 76
abbrev cc7_sem6_0 : DmaSem sig := 77
abbrev cc7_sem7_0 : DmaSem sig := 78
abbrev cc7_sem8_0 : DmaSem sig := 79
abbrev cc7_sem9_0 : DmaSem sig := 80
abbrev cc7_sem9_1 : DmaSem sig := 81
abbrev cc8_sem0_0 : DmaSem sig := 82
abbrev cc8_sem0_1 : DmaSem sig := 83
abbrev cc8_sem1_0 : DmaSem sig := 84
abbrev cc8_sem2_0 : DmaSem sig := 85
abbrev cc8_sem3_0 : DmaSem sig := 86
abbrev cc8_sem4_0 : DmaSem sig := 87
abbrev cc8_sem5_0 : DmaSem sig := 88
abbrev cc9_sem0_0 : DmaSem sig := 89
abbrev cc9_sem0_1 : DmaSem sig := 90
abbrev cc9_sem1_0 : DmaSem sig := 91
abbrev cc9_sem2_0 : DmaSem sig := 92
abbrev cc9_sem3_0 : DmaSem sig := 93
abbrev cc9_sem4_0 : DmaSem sig := 94
abbrev cc9_sem5_0 : DmaSem sig := 95
abbrev cc9_sem6_0 : DmaSem sig := 96
abbrev cc9_sem7_0 : DmaSem sig := 97
abbrev cc9_sem8_0 : DmaSem sig := 98
abbrev cc10_sem0_0 : DmaSem sig := 99
abbrev cc10_sem0_1 : DmaSem sig := 100
abbrev cc10_sem1_0 : DmaSem sig := 101
abbrev cc10_sem2_0 : DmaSem sig := 102
abbrev cc10_sem3_0 : DmaSem sig := 103
abbrev cc10_sem4_0 : DmaSem sig := 104
abbrev cc10_sem5_0 : DmaSem sig := 105
abbrev cc10_sem6_0 : DmaSem sig := 106
abbrev cc10_sem7_0 : DmaSem sig := 107
abbrev cc10_sem8_0 : DmaSem sig := 108
abbrev cc10_sem9_0 : DmaSem sig := 109
abbrev cc10_sem10_0 : DmaSem sig := 110
abbrev cc11_sem0_0 : DmaSem sig := 111
abbrev cc11_sem0_1 : DmaSem sig := 112
abbrev cc11_sem1_0 : DmaSem sig := 113
abbrev cc11_sem2_0 : DmaSem sig := 114
abbrev cc11_sem3_0 : DmaSem sig := 115
abbrev cc11_sem4_0 : DmaSem sig := 116
abbrev cc11_sem5_0 : DmaSem sig := 117
abbrev cc11_sem6_0 : DmaSem sig := 118
abbrev cc11_sem7_0 : DmaSem sig := 119
abbrev cc11_sem8_0 : DmaSem sig := 120
abbrev cc11_sem9_0 : DmaSem sig := 121
abbrev cc11_sem9_1 : DmaSem sig := 122

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v38 : BitVec 1 := Scalar.cmpi .eq arg0 c9_i32
  let v39 : BitVec 32 := Scalar.extui v38
  let c0_i32_22 : BitVec 32 := 0#32
  let v40 : BitVec 1 := Scalar.cmpi .ne v39 c0_i32_22
  v40

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v48 : BitVec 1 := Scalar.cmpi .eq arg0 c9_i32
  let v49 : BitVec 32 := Scalar.extui v48
  let c0_i32_27 : BitVec 32 := 0#32
  let v50 : BitVec 1 := Scalar.cmpi .ne v49 c0_i32_27
  v50

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_14 : BitVec 32 := 0#32
  let v26 : BitVec 1 := Scalar.cmpi .ne v25 c0_i32_14
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v38 : BitVec 1 := Scalar.cmpi .eq arg0 c9_i32
  let v39 : BitVec 32 := Scalar.extui v38
  let c0_i32_22 : BitVec 32 := 0#32
  let v40 : BitVec 1 := Scalar.cmpi .ne v39 c0_i32_22
  v40

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v48 : BitVec 1 := Scalar.cmpi .eq arg0 c9_i32
  let v49 : BitVec 32 := Scalar.extui v48
  let c0_i32_27 : BitVec 32 := 0#32
  let v50 : BitVec 1 := Scalar.cmpi .ne v49 c0_i32_27
  v50

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x128 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128x128 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S5000x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_14 : BitVec 32 := 0#32
  let v26 : BitVec 1 := Scalar.cmpi .ne v25 c0_i32_14
  v26

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev grid9 : Pipeline.Grid := ⟨1, ![10], ![false]⟩

def k9_cond2 (i : grid9.Coords) : BitVec 1 :=
  let arg0 : BitVec 32 := BitVec.ofNat 32 (i 0).val
  let c9_i32 : BitVec 32 := 9#32
  let v38 : BitVec 1 := Scalar.cmpi .eq arg0 c9_i32
  let v39 : BitVec 32 := Scalar.extui v38
  let c0_i32_22 : BitVec 32 := 0#32
  let v40 : BitVec 1 := Scalar.cmpi .ne v39 c0_i32_22
  v40

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S128x128 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x128 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev grid10 : Pipeline.Grid := ⟨1, ![10], ![false]⟩

def k10_cond2 (i : grid10.Coords) : BitVec 1 :=
  let arg0 : BitVec 32 := BitVec.ofNat 32 (i 0).val
  let c9_i32 : BitVec 32 := 9#32
  let v48 : BitVec 1 := Scalar.cmpi .eq arg0 c9_i32
  let v49 : BitVec 32 := Scalar.extui v48
  let c0_i32_27 : BitVec 32 := 0#32
  let v50 : BitVec 1 := Scalar.cmpi .ne v49 c0_i32_27
  v50

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_10 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S128x128 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S1x128 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev stage10_10 : Fin 1 → Memref sig .tc .vmem S1x128 .f32 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))
abbrev reads10_10 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_9 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S128x128 .bf16 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S1x128 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 1 → Memref sig .tc .vmem S1x128 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 2 → Memref sig .tc .vmem S5000x128 .f32 := fun | 0 => Memref.whole cc11_stg9_0 | 1 => Memref.whole cc11_stg9_1 | ⟨_ + 2, h⟩ => absurd h (Nat.not_lt.2 (Nat.le_add_left _ _))
abbrev sem11_9 : Fin 2 → DmaSem sig := fun | 0 => cc11_sem9_0 | 1 => cc11_sem9_1 | ⟨_ + 2, h⟩ => absurd h (Nat.not_lt.2 (Nat.le_add_left _ _))
abbrev reads11_9 : Fin grid11.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  bitsLt_bf16_f32 : FTy.bits .bf16 < FTy.bits .f32
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S5000x128_S128 : S5000x128.Reduces [0] S128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S50000x128.size a
  hwx3_9 : ∀ i : grid3.Coords, EltTy.bits .f32 = 32 ∨ (Rect.block (s := S50000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .bf16 = 32 ∨ (Rect.block (s := S128x128) S128x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .bf16 = 32 ∨ (Rect.block (s := S128x128) S128x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .bf16 = 32 ∨ (Rect.block (s := S128x128) S128x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .bf16 = 32 ∨ (Rect.block (s := S128x128) S128x128.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x128.size a ≤ S1x128.size a
  hwx6_9 : ∀ i : grid6.Coords, EltTy.bits .f32 = 32 ∨ (Rect.block (s := S1x128) S1x128.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x128.size a ≤ S1x128.size a
  hwx6_10 : ∀ i : grid6.Coords, EltTy.bits .f32 = 32 ∨ (Rect.block (s := S1x128) S1x128.size (cc6_transform_10 i) (hinb6_10 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .bf16 = 32 ∨ (Rect.block (s := S128x128) S128x128.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .bf16 = 32 ∨ (Rect.block (s := S128x128) S128x128.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S5000x128.size a ≤ S50000x128.size a
  hwx7_9 : ∀ i : grid7.Coords, EltTy.bits .f32 = 32 ∨ (Rect.block (s := S50000x128) S5000x128.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .bf16 = 32 ∨ (Rect.block (s := S128x128) S128x128.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .bf16 = 32 ∨ (Rect.block (s := S128x128) S128x128.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .bf16 = 32 ∨ (Rect.block (s := S128x128) S128x128.size (cc9_transform_2 i) (hinb9_2 i)).WholeWords (EltTy.packing .bf16)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x128.size a ≤ S1x128.size a
  hwx9_7 : ∀ i : grid9.Coords, EltTy.bits .f32 = 32 ∨ (Rect.block (s := S1x128) S1x128.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x128.size a ≤ S1x128.size a
  hwx9_8 : ∀ i : grid9.Coords, EltTy.bits .f32 = 32 ∨ (Rect.block (s := S1x128) S1x128.size (cc9_transform_8 i) (hinb9_8 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .bf16 = 32 ∨ (Rect.block (s := S128x128) S128x128.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .bf16 = 32 ∨ (Rect.block (s := S128x128) S128x128.size (cc10_transform_2 i) (hinb10_2 i)).WholeWords (EltTy.packing .bf16)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x128.size a ≤ S1x128.size a
  hwx10_7 : ∀ i : grid10.Coords, EltTy.bits .f32 = 32 ∨ (Rect.block (s := S1x128) S1x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x128.size a ≤ S1x128.size a
  hwx10_8 : ∀ i : grid10.Coords, EltTy.bits .f32 = 32 ∨ (Rect.block (s := S1x128) S1x128.size (cc10_transform_8 i) (hinb10_8 i)).WholeWords (EltTy.packing .f32)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S1x128.size a ≤ S1x128.size a
  hwx10_9 : ∀ i : grid10.Coords, EltTy.bits .f32 = 32 ∨ (Rect.block (s := S1x128) S1x128.size (cc10_transform_9 i) (hinb10_9 i)).WholeWords (EltTy.packing .f32)
  hstage10_10 : ∀ j, (stage10_10 j).IsWhole
  nbuf10_10 : grid10.bufCount reads10_10 true = 1
  hreads10_10 : ∀ i i' : grid10.Coords, (∀ a, reads10_10 a = true → i a = i' a) → cc10_transform_10 i = cc10_transform_10 i'
  hinb10_10 : ∀ (i : grid10.Coords) a, (cc10_transform_10 i a + 1) * S1x128.size a ≤ S1x128.size a
  hwx10_10 : ∀ i : grid10.Coords, EltTy.bits .f32 = 32 ∨ (Rect.block (s := S1x128) S1x128.size (cc10_transform_10 i) (hinb10_10 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .bf16 = 32 ∨ (Rect.block (s := S128x128) S128x128.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .bf16 = 32 ∨ (Rect.block (s := S128x128) S128x128.size (cc11_transform_2 i) (hinb11_2 i)).WholeWords (EltTy.packing .bf16)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x128.size a ≤ S1x128.size a
  hwx11_6 : ∀ i : grid11.Coords, EltTy.bits .f32 = 32 ∨ (Rect.block (s := S1x128) S1x128.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S1x128.size a ≤ S1x128.size a
  hwx11_7 : ∀ i : grid11.Coords, EltTy.bits .f32 = 32 ∨ (Rect.block (s := S1x128) S1x128.size (cc11_transform_7 i) (hinb11_7 i)).WholeWords (EltTy.packing .f32)
  hstage11_8 : ∀ j, (stage11_8 j).IsWhole
  nbuf11_8 : grid11.bufCount reads11_8 true = 1
  hreads11_8 : ∀ i i' : grid11.Coords, (∀ a, reads11_8 a = true → i a = i' a) → cc11_transform_8 i = cc11_transform_8 i'
  hinb11_8 : ∀ (i : grid11.Coords) a, (cc11_transform_8 i a + 1) * S1x128.size a ≤ S1x128.size a
  hwx11_8 : ∀ i : grid11.Coords, EltTy.bits .f32 = 32 ∨ (Rect.block (s := S1x128) S1x128.size (cc11_transform_8 i) (hinb11_8 i)).WholeWords (EltTy.packing .f32)
  hstage11_9 : ∀ j, (stage11_9 j).IsWhole
  nbuf11_9 : grid11.bufCount reads11_9 false = 2
  hreads11_9 : ∀ i i' : grid11.Coords, (∀ a, reads11_9 a = true → i a = i' a) → cc11_transform_9 i = cc11_transform_9 i'
  hinb11_9 : ∀ (i : grid11.Coords) a, (cc11_transform_9 i a + 1) * S5000x128.size a ≤ S50000x128.size a
  hwx11_9 : ∀ i : grid11.Coords, EltTy.bits .f32 = 32 ∨ (Rect.block (s := S50000x128) S5000x128.size (cc11_transform_9 i) (hinb11_9 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42_0) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42_1) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42_0) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42_1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43_0) S1x128.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43_1) S1x128.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v17) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42_0) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42_1) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43_0) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43_1) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v38) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v41) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v44_0) S1x128.size cc2_transform_9 reads2_9 true true 1 stage2_9 sem2_9
    hrank2 hreads2_9 hinb2_9 nbuf2_9 (Memref.isWhole_whole _) hwx2_9 hstage2_9

abbrev win2_10 : Pipeline.Window sig grid2 :=
  Pipeline.Window.ofSpec (Memref.whole main_v44_1) S1x128.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev idle2 : Fin 11 → grid2.Coords → Bool := fun | 0 => fun _ => false | 1 => fun _ => false | 2 => fun _ => false | 3 => fun _ => false | 4 => fun _ => false | 5 => fun _ => false | 6 => fun _ => false | 7 => fun _ => false | 8 => fun _ => false | 9 => fun i => !(k2_cond2 i == 1#1) | 10 => fun i => !(k2_cond2 i == 1#1) | ⟨_ + 11, h⟩ => absurd h (Nat.not_lt.2 (Nat.le_add_left _ _))

abbrev win3_0 : Pipeline.Window sig grid3 :=
  Pipeline.Window.ofSpec (Memref.whole main_v17) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v23) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42_0) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42_1) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43_0) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v43_1) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v44_0) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v44_1) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v45) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84_0) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84_1) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun i => !(k4_cond2 i == 1#1) | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v59) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84_0) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84_1) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v74) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v77) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v85_0) S1x128.size cc5_transform_7 reads5_7 true true 1 stage5_7 sem5_7
    hrank5 hreads5_7 hinb5_7 nbuf5_7 (Memref.isWhole_whole _) hwx5_7 hstage5_7

abbrev win5_8 : Pipeline.Window sig grid5 :=
  Pipeline.Window.ofSpec (Memref.whole main_v85_1) S1x128.size cc5_transform_8 reads5_8 true true 1 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev idle5 : Fin 9 → grid5.Coords → Bool := fun | 0 => fun _ => false | 1 => fun _ => false | 2 => fun _ => false | 3 => fun _ => false | 4 => fun _ => false | 5 => fun _ => false | 6 => fun _ => false | 7 => fun i => !(k5_cond2 i == 1#1) | 8 => fun i => !(k5_cond2 i == 1#1) | ⟨_ + 9, h⟩ => absurd h (Nat.not_lt.2 (Nat.le_add_left _ _))

abbrev win6_0 : Pipeline.Window sig grid6 :=
  Pipeline.Window.ofSpec (Memref.whole main_v59) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v62) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v65) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v84_0) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v84_1) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v85_0) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v85_1) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v80) S1x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v83) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v86_0) S1x128.size cc6_transform_9 reads6_9 true true 1 stage6_9 sem6_9
    hrank6 hreads6_9 hinb6_9 nbuf6_9 (Memref.isWhole_whole _) hwx6_9 hstage6_9

abbrev win6_10 : Pipeline.Window sig grid6 :=
  Pipeline.Window.ofSpec (Memref.whole main_v86_1) S1x128.size cc6_transform_10 reads6_10 true true 1 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

abbrev idle6 : Fin 11 → grid6.Coords → Bool := fun | 0 => fun _ => false | 1 => fun _ => false | 2 => fun _ => false | 3 => fun _ => false | 4 => fun _ => false | 5 => fun _ => false | 6 => fun _ => false | 7 => fun _ => false | 8 => fun _ => false | 9 => fun i => !(k6_cond2 i == 1#1) | 10 => fun i => !(k6_cond2 i == 1#1) | ⟨_ + 11, h⟩ => absurd h (Nat.not_lt.2 (Nat.le_add_left _ _))

abbrev win7_0 : Pipeline.Window sig grid7 :=
  Pipeline.Window.ofSpec (Memref.whole main_v59) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v62) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v65) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v84_0) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v84_1) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v85_0) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v85_1) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v86_0) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v86_1) S1x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v87) S5000x128.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v101) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v104) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v110) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v113) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v126_0) S1x128.size cc8_transform_4 reads8_4 true true 1 stage8_4 sem8_4
    hrank8 hreads8_4 hinb8_4 nbuf8_4 (Memref.isWhole_whole _) hwx8_4 hstage8_4

abbrev win8_5 : Pipeline.Window sig grid8 :=
  Pipeline.Window.ofSpec (Memref.whole main_v126_1) S1x128.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev idle8 : Fin 6 → grid8.Coords → Bool := fun | 0 => fun _ => false | 1 => fun _ => false | 2 => fun _ => false | 3 => fun _ => false | 4 => fun i => !(k8_cond2 i == 1#1) | 5 => fun i => !(k8_cond2 i == 1#1) | ⟨_ + 6, h⟩ => absurd h (Nat.not_lt.2 (Nat.le_add_left _ _))

abbrev win9_0 : Pipeline.Window sig grid9 :=
  Pipeline.Window.ofSpec (Memref.whole main_v101) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v104) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v107) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v126_0) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v126_1) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v116) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v119) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v127_0) S1x128.size cc9_transform_7 reads9_7 true true 1 stage9_7 sem9_7
    hrank9 hreads9_7 hinb9_7 nbuf9_7 (Memref.isWhole_whole _) hwx9_7 hstage9_7

abbrev win9_8 : Pipeline.Window sig grid9 :=
  Pipeline.Window.ofSpec (Memref.whole main_v127_1) S1x128.size cc9_transform_8 reads9_8 true true 1 stage9_8 sem9_8
    hrank9 hreads9_8 hinb9_8 nbuf9_8 (Memref.isWhole_whole _) hwx9_8 hstage9_8

abbrev win9 : Fin 9 → Pipeline.Window sig grid9 := fun | 0 => win9_0 | 1 => win9_1 | 2 => win9_2 | 3 => win9_3 | 4 => win9_4 | 5 => win9_5 | 6 => win9_6 | 7 => win9_7 | 8 => win9_8 | ⟨_ + 9, h⟩ => absurd h (Nat.not_lt.2 (Nat.le_add_left _ _))
abbrev spec9 : Fin 9 → Pipeline.WinSpec sig grid9.rank := fun w => (win9 w).toWinSpec

abbrev idle9 : Fin 9 → grid9.Coords → Bool := fun | 0 => fun _ => false | 1 => fun _ => false | 2 => fun _ => false | 3 => fun _ => false | 4 => fun _ => false | 5 => fun _ => false | 6 => fun _ => false | 7 => fun i => !(k9_cond2 i == 1#1) | 8 => fun i => !(k9_cond2 i == 1#1) | ⟨_ + 9, h⟩ => absurd h (Nat.not_lt.2 (Nat.le_add_left _ _))

abbrev win10_0 : Pipeline.Window sig grid10 :=
  Pipeline.Window.ofSpec (Memref.whole main_v101) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v104) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v107) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v126_0) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v126_1) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v127_0) S1x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v127_1) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v122) S1x128.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v125) S1x128.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_v128_0) S1x128.size cc10_transform_9 reads10_9 true true 1 stage10_9 sem10_9
    hrank10 hreads10_9 hinb10_9 nbuf10_9 (Memref.isWhole_whole _) hwx10_9 hstage10_9

abbrev win10_10 : Pipeline.Window sig grid10 :=
  Pipeline.Window.ofSpec (Memref.whole main_v128_1) S1x128.size cc10_transform_10 reads10_10 true true 1 stage10_10 sem10_10
    hrank10 hreads10_10 hinb10_10 nbuf10_10 (Memref.isWhole_whole _) hwx10_10 hstage10_10

abbrev win10 : Fin 11 → Pipeline.Window sig grid10 := fun | 0 => win10_0 | 1 => win10_1 | 2 => win10_2 | 3 => win10_3 | 4 => win10_4 | 5 => win10_5 | 6 => win10_6 | 7 => win10_7 | 8 => win10_8 | 9 => win10_9 | 10 => win10_10 | ⟨_ + 11, h⟩ => absurd h (Nat.not_lt.2 (Nat.le_add_left _ _))
abbrev spec10 : Fin 11 → Pipeline.WinSpec sig grid10.rank := fun w => (win10 w).toWinSpec

abbrev idle10 : Fin 11 → grid10.Coords → Bool := fun | 0 => fun _ => false | 1 => fun _ => false | 2 => fun _ => false | 3 => fun _ => false | 4 => fun _ => false | 5 => fun _ => false | 6 => fun _ => false | 7 => fun _ => false | 8 => fun _ => false | 9 => fun i => !(k10_cond2 i == 1#1) | 10 => fun i => !(k10_cond2 i == 1#1) | ⟨_ + 11, h⟩ => absurd h (Nat.not_lt.2 (Nat.le_add_left _ _))

abbrev win11_0 : Pipeline.Window sig grid11 :=
  Pipeline.Window.ofSpec (Memref.whole main_v101) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v104) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v107) S128x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v126_0) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v126_1) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v127_0) S1x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v127_1) S1x128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v128_0) S1x128.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_v128_1) S1x128.size cc11_transform_8 reads11_8 false true 1 stage11_8 sem11_8
    hrank11 hreads11_8 hinb11_8 nbuf11_8 (Memref.isWhole_whole _) hwx11_8 hstage11_8

abbrev win11_9 : Pipeline.Window sig grid11 :=
  Pipeline.Window.ofSpec (Memref.whole main_v129) S5000x128.size cc11_transform_9 reads11_9 true false 2 stage11_9 sem11_9
    hrank11 hreads11_9 hinb11_9 nbuf11_9 (Memref.isWhole_whole _) hwx11_9 hstage11_9

abbrev win11 : Fin 10 → Pipeline.Window sig grid11 := fun | 0 => win11_0 | 1 => win11_1 | 2 => win11_2 | 3 => win11_3 | 4 => win11_4 | 5 => win11_5 | 6 => win11_6 | 7 => win11_7 | 8 => win11_8 | 9 => win11_9 | ⟨_ + 10, h⟩ => absurd h (Nat.not_lt.2 (Nat.le_add_left _ _))
abbrev spec11 : Fin 10 → Pipeline.WinSpec sig grid11.rank := fun w => (win11 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S3x128x128 : Shape := ⟨3, ![3, 128, 128]⟩
abbrev S3x128 : Shape := ⟨2, ![3, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 540
  | .vmem => 0
  | .smem => 0
  | _ => 0

abbrev hbmTy0_0 (i : Nat) : BufTy := match i % 128 with
  | 0 => ⟨S50000x128, .f32⟩
  | 1 => ⟨S2x600000, .i32⟩
  | 2 => ⟨S600000, .f32⟩
  | 3 => ⟨S3x128x128, .f32⟩
  | 4 => ⟨S3x128x128, .f32⟩
  | 5 => ⟨S3x128, .f32⟩
  | 6 => ⟨S3x128, .f32⟩
  | 7 => ⟨S3x128, .f32⟩
  | 8 => ⟨S3x128, .f32⟩
  | 9 => ⟨S3x128, .f32⟩
  | 10 => ⟨S3x128, .f32⟩
  | 11 => ⟨S1x600000, .i32⟩
  | 12 => ⟨S600000, .i32⟩
  | 13 => ⟨S1x600000, .i32⟩
  | 14 => ⟨S600000, .i32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000x128, .f32⟩
  | 24 => ⟨S600000x1, .f32⟩
  | 25 => ⟨S600000x128, .f32⟩
  | 26 => ⟨S600000x128, .f32⟩
  | 27 => ⟨S_, .f32⟩
  | 28 => ⟨S50000x128, .f32⟩
  | 29 => ⟨S600000x1, .i32⟩
  | 30 => ⟨S50000x128, .f32⟩
  | 31 => ⟨S50000x128, .f32⟩
  | 32 => ⟨S1x128x128, .f32⟩
  | 33 => ⟨S128x128, .f32⟩
  | 34 => ⟨S50000x128, .f32⟩
  | 35 => ⟨S1x128, .f32⟩
  | 36 => ⟨S128, .f32⟩
  | 37 => ⟨S1x128, .f32⟩
  | 38 => ⟨S128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S50000x128, .f32⟩
  | 52 => ⟨S50000x128, .f32⟩
  | 53 => ⟨S50000x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S1x128x128, .f32⟩
  | 87 => ⟨S128x128, .f32⟩
  | 88 => ⟨S50000x128, .f32⟩
  | 89 => ⟨S1x128, .f32⟩
  | 90 => ⟨S128, .f32⟩
  | 91 => ⟨S1x128, .f32⟩
  | 92 => ⟨S128, .f32⟩
  | 93 => ⟨S_, .f32⟩
  | 94 => ⟨S128, .f32⟩
  | 95 => ⟨S_, .f32⟩
  | 96 => ⟨S128, .f32⟩
  | 97 => ⟨S128, .f32⟩
  | 98 => ⟨S_, .i32⟩
  | 99 => ⟨S_, .f32⟩
  | 100 => ⟨S128, .f32⟩
  | 101 => ⟨S1x128, .f32⟩
  | 102 => ⟨S_, .f32⟩
  | 103 => ⟨S1x128, .f32⟩
  | 104 => ⟨S1x128, .f32⟩
  | 105 => ⟨S50000x128, .f32⟩
  | 106 => ⟨S50000x128, .f32⟩
  | 107 => ⟨S50000x128, .f32⟩
  | 108 => ⟨S_, .f32⟩
  | 109 => ⟨S_, .f32⟩
  | 110 => ⟨S_, .f32⟩
  | 111 => ⟨S_, .f32⟩
  | 112 => ⟨S128, .f32⟩
  | 113 => ⟨S128, .f32⟩
  | 114 => ⟨S128, .f32⟩
  | 115 => ⟨S_, .f32⟩
  | 116 => ⟨S_, .i1⟩
  | 117 => ⟨S_, .f32⟩
  | 118 => ⟨S_, .f32⟩
  | 119 => ⟨S128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S128, .f32⟩
  | 126 => ⟨S128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S1x128, .f32⟩
  | 13 => ⟨S128, .f32⟩
  | 14 => ⟨S1x128, .f32⟩
  | 15 => ⟨S128, .f32⟩
  | 16 => ⟨S_, .f32⟩
  | 17 => ⟨S128, .f32⟩
  | 18 => ⟨S_, .f32⟩
  | 19 => ⟨S128, .f32⟩
  | 20 => ⟨S128, .f32⟩
  | 21 => ⟨S_, .i32⟩
  | 22 => ⟨S_, .f32⟩
  | 23 => ⟨S128, .f32⟩
  | 24 => ⟨S1x128, .f32⟩
  | 25 => ⟨S_, .f32⟩
  | 26 => ⟨S1x128, .f32⟩
  | 27 => ⟨S1x128, .f32⟩
  | 28 => ⟨S50000x128, .f32⟩
  | 29 => ⟨S50000x128, .f32⟩
  | 30 => ⟨S50000x128, .f32⟩
  | 31 => ⟨S_, .f32⟩
  | 32 => ⟨S_, .f32⟩
  | 33 => ⟨S_, .f32⟩
  | 34 => ⟨S_, .f32⟩
  | 35 => ⟨S128, .f32⟩
  | 36 => ⟨S128, .f32⟩
  | 37 => ⟨S128, .f32⟩
  | 38 => ⟨S_, .f32⟩
  | 39 => ⟨S_, .i1⟩
  | 40 => ⟨S_, .f32⟩
  | 41 => ⟨S_, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S_, .f32⟩
  | 48 => ⟨S128, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S600000x1, .f32⟩
  | 73 => ⟨S600000x128, .f32⟩
  | 74 => ⟨S600000x128, .f32⟩
  | 75 => ⟨S_, .f32⟩
  | 76 => ⟨S50000x128, .f32⟩
  | 77 => ⟨S600000x1, .i32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S1x128, .f32⟩
  | 84 => ⟨S128, .f32⟩
  | 85 => ⟨S1x128, .f32⟩
  | 86 => ⟨S128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S50000x128, .f32⟩
  | 100 => ⟨S50000x128, .f32⟩
  | 101 => ⟨S50000x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S_, .f32⟩
  | 119 => ⟨S128, .f32⟩
  | 120 => ⟨S128, .f32⟩
  | 121 => ⟨S128, .f32⟩
  | 122 => ⟨S1x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_2 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S1x128x128, .f32⟩
  | 7 => ⟨S128x128, .f32⟩
  | 8 => ⟨S50000x128, .f32⟩
  | 9 => ⟨S1x128, .f32⟩
  | 10 => ⟨S128, .f32⟩
  | 11 => ⟨S1x128, .f32⟩
  | 12 => ⟨S128, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S50000x128, .f32⟩
  | 26 => ⟨S50000x128, .f32⟩
  | 27 => ⟨S50000x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S_, .f32⟩
  | 45 => ⟨S128, .f32⟩
  | 46 => ⟨S128, .f32⟩
  | 47 => ⟨S128, .f32⟩
  | 48 => ⟨S1x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S1x128, .f32⟩
  | 61 => ⟨S128, .f32⟩
  | 62 => ⟨S1x128, .f32⟩
  | 63 => ⟨S128, .f32⟩
  | 64 => ⟨S_, .f32⟩
  | 65 => ⟨S128, .f32⟩
  | 66 => ⟨S_, .f32⟩
  | 67 => ⟨S128, .f32⟩
  | 68 => ⟨S128, .f32⟩
  | 69 => ⟨S_, .i32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S50000x128, .f32⟩
  | 77 => ⟨S50000x128, .f32⟩
  | 78 => ⟨S50000x128, .f32⟩
  | 79 => ⟨S_, .f32⟩
  | 80 => ⟨S_, .f32⟩
  | 81 => ⟨S_, .f32⟩
  | 82 => ⟨S_, .f32⟩
  | 83 => ⟨S128, .f32⟩
  | 84 => ⟨S128, .f32⟩
  | 85 => ⟨S128, .f32⟩
  | 86 => ⟨S_, .f32⟩
  | 87 => ⟨S_, .i1⟩
  | 88 => ⟨S_, .f32⟩
  | 89 => ⟨S_, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S_, .f32⟩
  | 96 => ⟨S128, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x128, .f32⟩
  | 120 => ⟨S600000x1, .f32⟩
  | 121 => ⟨S600000x128, .f32⟩
  | 122 => ⟨S600000x128, .f32⟩
  | 123 => ⟨S_, .f32⟩
  | 124 => ⟨S50000x128, .f32⟩
  | 125 => ⟨S600000x1, .i32⟩
  | 126 => ⟨S50000x128, .f32⟩
  | 127 => ⟨S50000x128, .f32⟩
  | _ => ⟨S50000x128, .f32⟩

abbrev hbmTy0_3 (i : Nat) : BufTy := match i % 128 with
  | 0 => ⟨S1x128x128, .f32⟩
  | 1 => ⟨S128x128, .f32⟩
  | 2 => ⟨S50000x128, .f32⟩
  | 3 => ⟨S1x128, .f32⟩
  | 4 => ⟨S128, .f32⟩
  | 5 => ⟨S1x128, .f32⟩
  | 6 => ⟨S128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S50000x128, .f32⟩
  | 20 => ⟨S50000x128, .f32⟩
  | 21 => ⟨S50000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S50000x128, .f32⟩
  | 37 => ⟨S50000x128, .f32⟩
  | 38 => ⟨S_, .f32⟩
  | 39 => ⟨S128, .f32⟩
  | 40 => ⟨S128, .f32⟩
  | 41 => ⟨S128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S1x128x128, .f32⟩
  | 55 => ⟨S128x128, .f32⟩
  | 56 => ⟨S50000x128, .f32⟩
  | 57 => ⟨S1x128, .f32⟩
  | 58 => ⟨S128, .f32⟩
  | 59 => ⟨S1x128, .f32⟩
  | 60 => ⟨S128, .f32⟩
  | 61 => ⟨S_, .f32⟩
  | 62 => ⟨S128, .f32⟩
  | 63 => ⟨S_, .f32⟩
  | 64 => ⟨S128, .f32⟩
  | 65 => ⟨S128, .f32⟩
  | 66 => ⟨S_, .i32⟩
  | 67 => ⟨S_, .f32⟩
  | 68 => ⟨S128, .f32⟩
  | 69 => ⟨S1x128, .f32⟩
  | 70 => ⟨S_, .f32⟩
  | 71 => ⟨S1x128, .f32⟩
  | 72 => ⟨S1x128, .f32⟩
  | 73 => ⟨S50000x128, .f32⟩
  | 74 => ⟨S50000x128, .f32⟩
  | 75 => ⟨S50000x128, .f32⟩
  | 76 => ⟨S_, .f32⟩
  | 77 => ⟨S_, .f32⟩
  | 78 => ⟨S_, .f32⟩
  | 79 => ⟨S_, .f32⟩
  | 80 => ⟨S128, .f32⟩
  | 81 => ⟨S128, .f32⟩
  | 82 => ⟨S128, .f32⟩
  | 83 => ⟨S_, .f32⟩
  | 84 => ⟨S_, .i1⟩
  | 85 => ⟨S_, .f32⟩
  | 86 => ⟨S_, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S1x128, .f32⟩
  | 109 => ⟨S128, .f32⟩
  | 110 => ⟨S1x128, .f32⟩
  | 111 => ⟨S128, .f32⟩
  | 112 => ⟨S_, .f32⟩
  | 113 => ⟨S128, .f32⟩
  | 114 => ⟨S_, .f32⟩
  | 115 => ⟨S128, .f32⟩
  | 116 => ⟨S128, .f32⟩
  | 117 => ⟨S_, .i32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_4 (i : Nat) : BufTy := match i % 128 with
  | 0 => ⟨S_, .f32⟩
  | 1 => ⟨S_, .f32⟩
  | 2 => ⟨S_, .f32⟩
  | 3 => ⟨S128, .f32⟩
  | 4 => ⟨S128, .f32⟩
  | 5 => ⟨S128, .f32⟩
  | 6 => ⟨S_, .f32⟩
  | 7 => ⟨S_, .i1⟩
  | 8 => ⟨S_, .f32⟩
  | 9 => ⟨S_, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S128, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_cst_3 : Ref sig .tc := ⟨.hbm, 61, rfl⟩
abbrev main_call0_v12 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_4 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_call1_cst : Ref sig .tc := ⟨.hbm, 83, rfl⟩
abbrev main_call1_v0 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_5 : Ref sig .tc := ⟨.hbm, 93, rfl⟩
abbrev main_v52 : Ref sig .tc := ⟨.hbm, 94, rfl⟩
abbrev main_cst_6 : Ref sig .tc := ⟨.hbm, 95, rfl⟩
abbrev main_v53 : Ref sig .tc := ⟨.hbm, 96, rfl⟩
abbrev main_v54 : Ref sig .tc := ⟨.hbm, 97, rfl⟩
abbrev main_c_7 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_cst_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_cst_1 : Ref sig .tc := ⟨.hbm, 109, rfl⟩
abbrev main_call2_v8 : Ref sig .tc := ⟨.hbm, 110, rfl⟩
abbrev main_call2_cst_2 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_cst_3 : Ref sig .tc := ⟨.hbm, 115, rfl⟩
abbrev main_call2_v12 : Ref sig .tc := ⟨.hbm, 116, rfl⟩
abbrev main_call2_cst_4 : Ref sig .tc := ⟨.hbm, 117, rfl⟩
abbrev main_call2_call0_v0 : Ref sig .tc := ⟨.hbm, 118, rfl⟩
abbrev main_call2_call0_v1 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_cst_8 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_call3_cst : Ref sig .tc := ⟨.hbm, 137, rfl⟩
abbrev main_call3_v0 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_cst_9 : Ref sig .tc := ⟨.hbm, 144, rfl⟩
abbrev main_v76 : Ref sig .tc := ⟨.hbm, 145, rfl⟩
abbrev main_cst_10 : Ref sig .tc := ⟨.hbm, 146, rfl⟩
abbrev main_v77 : Ref sig .tc := ⟨.hbm, 147, rfl⟩
abbrev main_v78 : Ref sig .tc := ⟨.hbm, 148, rfl⟩
abbrev main_c_11 : Ref sig .tc := ⟨.hbm, 149, rfl⟩
abbrev main_call4_cst : Ref sig .tc := ⟨.hbm, 150, rfl⟩
abbrev main_call4_v0 : Ref sig .tc := ⟨.hbm, 151, rfl⟩
abbrev main_call4_v1 : Ref sig .tc := ⟨.hbm, 152, rfl⟩
abbrev main_call4_cst_0 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_call4_v5 : Ref sig .tc := ⟨.hbm, 157, rfl⟩
abbrev main_call4_v6 : Ref sig .tc := ⟨.hbm, 158, rfl⟩
abbrev main_call4_v7 : Ref sig .tc := ⟨.hbm, 159, rfl⟩
abbrev main_call4_cst_1 : Ref sig .tc := ⟨.hbm, 160, rfl⟩
abbrev main_call4_v8 : Ref sig .tc := ⟨.hbm, 161, rfl⟩
abbrev main_call4_cst_2 : Ref sig .tc := ⟨.hbm, 162, rfl⟩
abbrev main_call4_v9 : Ref sig .tc := ⟨.hbm, 163, rfl⟩
abbrev main_call4_v10 : Ref sig .tc := ⟨.hbm, 164, rfl⟩
abbrev main_call4_v11 : Ref sig .tc := ⟨.hbm, 165, rfl⟩
abbrev main_call4_cst_3 : Ref sig .tc := ⟨.hbm, 166, rfl⟩
abbrev main_call4_v12 : Ref sig .tc := ⟨.hbm, 167, rfl⟩
abbrev main_call4_cst_4 : Ref sig .tc := ⟨.hbm, 168, rfl⟩
abbrev main_call4_call0_v0 : Ref sig .tc := ⟨.hbm, 169, rfl⟩
abbrev main_call4_call0_v1 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_cst_12 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_call5_cst : Ref sig .tc := ⟨.hbm, 188, rfl⟩
abbrev main_call5_v0 : Ref sig .tc := ⟨.hbm, 189, rfl⟩
abbrev main_v95 : Ref sig .tc := ⟨.hbm, 190, rfl⟩
abbrev main_c_13 : Ref sig .tc := ⟨.hbm, 191, rfl⟩
abbrev main_v96 : Ref sig .tc := ⟨.hbm, 192, rfl⟩
abbrev main_v97 : Ref sig .tc := ⟨.hbm, 193, rfl⟩
abbrev main_c_14 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_cst_15 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_cst_16 : Ref sig .tc := ⟨.hbm, 215, rfl⟩
abbrev main_v117 : Ref sig .tc := ⟨.hbm, 216, rfl⟩
abbrev main_cst_17 : Ref sig .tc := ⟨.hbm, 217, rfl⟩
abbrev main_v118 : Ref sig .tc := ⟨.hbm, 218, rfl⟩
abbrev main_v119 : Ref sig .tc := ⟨.hbm, 219, rfl⟩
abbrev main_c_18 : Ref sig .tc := ⟨.hbm, 220, rfl⟩
abbrev main_call6_cst : Ref sig .tc := ⟨.hbm, 221, rfl⟩
abbrev main_call6_v0 : Ref sig .tc := ⟨.hbm, 222, rfl⟩
abbrev main_call6_v1 : Ref sig .tc := ⟨.hbm, 223, rfl⟩
abbrev main_call6_cst_0 : Ref sig .tc := ⟨.hbm, 224, rfl⟩
abbrev main_call6_v2 : Ref sig .tc := ⟨.hbm, 225, rfl⟩
abbrev main_call6_v3 : Ref sig .tc := ⟨.hbm, 226, rfl⟩
abbrev main_call6_v4 : Ref sig .tc := ⟨.hbm, 227, rfl⟩
abbrev main_call6_v5 : Ref sig .tc := ⟨.hbm, 228, rfl⟩
abbrev main_call6_v6 : Ref sig .tc := ⟨.hbm, 229, rfl⟩
abbrev main_call6_v7 : Ref sig .tc := ⟨.hbm, 230, rfl⟩
abbrev main_call6_cst_1 : Ref sig .tc := ⟨.hbm, 231, rfl⟩
abbrev main_call6_v8 : Ref sig .tc := ⟨.hbm, 232, rfl⟩
abbrev main_call6_cst_2 : Ref sig .tc := ⟨.hbm, 233, rfl⟩
abbrev main_call6_v9 : Ref sig .tc := ⟨.hbm, 234, rfl⟩
abbrev main_call6_v10 : Ref sig .tc := ⟨.hbm, 235, rfl⟩
abbrev main_call6_v11 : Ref sig .tc := ⟨.hbm, 236, rfl⟩
abbrev main_call6_cst_3 : Ref sig .tc := ⟨.hbm, 237, rfl⟩
abbrev main_call6_v12 : Ref sig .tc := ⟨.hbm, 238, rfl⟩
abbrev main_call6_cst_4 : Ref sig .tc := ⟨.hbm, 239, rfl⟩
abbrev main_call6_call0_v0 : Ref sig .tc := ⟨.hbm, 240, rfl⟩
abbrev main_call6_call0_v1 : Ref sig .tc := ⟨.hbm, 241, rfl⟩
abbrev main_v120 : Ref sig .tc := ⟨.hbm, 242, rfl⟩
abbrev main_v121 : Ref sig .tc := ⟨.hbm, 243, rfl⟩
abbrev main_v122 : Ref sig .tc := ⟨.hbm, 244, rfl⟩
abbrev main_v123 : Ref sig .tc := ⟨.hbm, 245, rfl⟩
abbrev main_cst_19 : Ref sig .tc := ⟨.hbm, 246, rfl⟩
abbrev main_v124 : Ref sig .tc := ⟨.hbm, 247, rfl⟩
abbrev main_v125 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev main_v129 : Ref sig .tc := ⟨.hbm, 252, rfl⟩
abbrev main_v130 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_call7_cst : Ref sig .tc := ⟨.hbm, 259, rfl⟩
abbrev main_call7_v0 : Ref sig .tc := ⟨.hbm, 260, rfl⟩
abbrev main_v136 : Ref sig .tc := ⟨.hbm, 261, rfl⟩
abbrev main_v137 : Ref sig .tc := ⟨.hbm, 262, rfl⟩
abbrev main_v138 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_v142 : Ref sig .tc := ⟨.hbm, 267, rfl⟩
abbrev main_v143 : Ref sig .tc := ⟨.hbm, 268, rfl⟩
abbrev main_cst_20 : Ref sig .tc := ⟨.hbm, 269, rfl⟩
abbrev main_v144 : Ref sig .tc := ⟨.hbm, 270, rfl⟩
abbrev main_cst_21 : Ref sig .tc := ⟨.hbm, 271, rfl⟩
abbrev main_v145 : Ref sig .tc := ⟨.hbm, 272, rfl⟩
abbrev main_v146 : Ref sig .tc := ⟨.hbm, 273, rfl⟩
abbrev main_c_22 : Ref sig .tc := ⟨.hbm, 274, rfl⟩
abbrev main_call8_cst : Ref sig .tc := ⟨.hbm, 275, rfl⟩
abbrev main_call8_v0 : Ref sig .tc := ⟨.hbm, 276, rfl⟩
abbrev main_call8_v1 : Ref sig .tc := ⟨.hbm, 277, rfl⟩
abbrev main_call8_cst_0 : Ref sig .tc := ⟨.hbm, 278, rfl⟩
abbrev main_call8_v2 : Ref sig .tc := ⟨.hbm, 279, rfl⟩
abbrev main_call8_v3 : Ref sig .tc := ⟨.hbm, 280, rfl⟩
abbrev main_call8_v4 : Ref sig .tc := ⟨.hbm, 281, rfl⟩
abbrev main_call8_v5 : Ref sig .tc := ⟨.hbm, 282, rfl⟩
abbrev main_call8_v6 : Ref sig .tc := ⟨.hbm, 283, rfl⟩
abbrev main_call8_v7 : Ref sig .tc := ⟨.hbm, 284, rfl⟩
abbrev main_call8_cst_1 : Ref sig .tc := ⟨.hbm, 285, rfl⟩
abbrev main_call8_v8 : Ref sig .tc := ⟨.hbm, 286, rfl⟩
abbrev main_call8_cst_2 : Ref sig .tc := ⟨.hbm, 287, rfl⟩
abbrev main_call8_v9 : Ref sig .tc := ⟨.hbm, 288, rfl⟩
abbrev main_call8_v10 : Ref sig .tc := ⟨.hbm, 289, rfl⟩
abbrev main_call8_v11 : Ref sig .tc := ⟨.hbm, 290, rfl⟩
abbrev main_call8_cst_3 : Ref sig .tc := ⟨.hbm, 291, rfl⟩
abbrev main_call8_v12 : Ref sig .tc := ⟨.hbm, 292, rfl⟩
abbrev main_call8_cst_4 : Ref sig .tc := ⟨.hbm, 293, rfl⟩
abbrev main_call8_call0_v0 : Ref sig .tc := ⟨.hbm, 294, rfl⟩
abbrev main_call8_call0_v1 : Ref sig .tc := ⟨.hbm, 295, rfl⟩
abbrev main_v147 : Ref sig .tc := ⟨.hbm, 296, rfl⟩
abbrev main_v148 : Ref sig .tc := ⟨.hbm, 297, rfl⟩
abbrev main_v149 : Ref sig .tc := ⟨.hbm, 298, rfl⟩
abbrev main_v150 : Ref sig .tc := ⟨.hbm, 299, rfl⟩
abbrev main_cst_23 : Ref sig .tc := ⟨.hbm, 300, rfl⟩
abbrev main_v151 : Ref sig .tc := ⟨.hbm, 301, rfl⟩
abbrev main_v152 : Ref sig .tc := ⟨.hbm, 302, rfl⟩
abbrev main_v153 : Ref sig .tc := ⟨.hbm, 303, rfl⟩
abbrev main_v154 : Ref sig .tc := ⟨.hbm, 304, rfl⟩
abbrev main_v155 : Ref sig .tc := ⟨.hbm, 305, rfl⟩
abbrev main_v156 : Ref sig .tc := ⟨.hbm, 306, rfl⟩
abbrev main_v157 : Ref sig .tc := ⟨.hbm, 307, rfl⟩
abbrev main_v158 : Ref sig .tc := ⟨.hbm, 308, rfl⟩
abbrev main_v159 : Ref sig .tc := ⟨.hbm, 309, rfl⟩
abbrev main_v160 : Ref sig .tc := ⟨.hbm, 310, rfl⟩
abbrev main_v161 : Ref sig .tc := ⟨.hbm, 311, rfl⟩
abbrev main_v162 : Ref sig .tc := ⟨.hbm, 312, rfl⟩
abbrev main_call9_cst : Ref sig .tc := ⟨.hbm, 313, rfl⟩
abbrev main_call9_v0 : Ref sig .tc := ⟨.hbm, 314, rfl⟩
abbrev main_v163 : Ref sig .tc := ⟨.hbm, 315, rfl⟩
abbrev main_v164 : Ref sig .tc := ⟨.hbm, 316, rfl⟩
abbrev main_v165 : Ref sig .tc := ⟨.hbm, 317, rfl⟩
abbrev main_v166 : Ref sig .tc := ⟨.hbm, 318, rfl⟩
abbrev main_v167 : Ref sig .tc := ⟨.hbm, 319, rfl⟩
abbrev main_cst_24 : Ref sig .tc := ⟨.hbm, 320, rfl⟩
abbrev main_v168 : Ref sig .tc := ⟨.hbm, 321, rfl⟩
abbrev main_cst_25 : Ref sig .tc := ⟨.hbm, 322, rfl⟩
abbrev main_v169 : Ref sig .tc := ⟨.hbm, 323, rfl⟩
abbrev main_v170 : Ref sig .tc := ⟨.hbm, 324, rfl⟩
abbrev main_c_26 : Ref sig .tc := ⟨.hbm, 325, rfl⟩
abbrev main_call10_cst : Ref sig .tc := ⟨.hbm, 326, rfl⟩
abbrev main_call10_v0 : Ref sig .tc := ⟨.hbm, 327, rfl⟩
abbrev main_call10_v1 : Ref sig .tc := ⟨.hbm, 328, rfl⟩
abbrev main_call10_cst_0 : Ref sig .tc := ⟨.hbm, 329, rfl⟩
abbrev main_call10_v2 : Ref sig .tc := ⟨.hbm, 330, rfl⟩
abbrev main_call10_v3 : Ref sig .tc := ⟨.hbm, 331, rfl⟩
abbrev main_call10_v4 : Ref sig .tc := ⟨.hbm, 332, rfl⟩
abbrev main_call10_v5 : Ref sig .tc := ⟨.hbm, 333, rfl⟩
abbrev main_call10_v6 : Ref sig .tc := ⟨.hbm, 334, rfl⟩
abbrev main_call10_v7 : Ref sig .tc := ⟨.hbm, 335, rfl⟩
abbrev main_call10_cst_1 : Ref sig .tc := ⟨.hbm, 336, rfl⟩
abbrev main_call10_v8 : Ref sig .tc := ⟨.hbm, 337, rfl⟩
abbrev main_call10_cst_2 : Ref sig .tc := ⟨.hbm, 338, rfl⟩
abbrev main_call10_v9 : Ref sig .tc := ⟨.hbm, 339, rfl⟩
abbrev main_call10_v10 : Ref sig .tc := ⟨.hbm, 340, rfl⟩
abbrev main_call10_v11 : Ref sig .tc := ⟨.hbm, 341, rfl⟩
abbrev main_call10_cst_3 : Ref sig .tc := ⟨.hbm, 342, rfl⟩
abbrev main_call10_v12 : Ref sig .tc := ⟨.hbm, 343, rfl⟩
abbrev main_call10_cst_4 : Ref sig .tc := ⟨.hbm, 344, rfl⟩
abbrev main_call10_call0_v0 : Ref sig .tc := ⟨.hbm, 345, rfl⟩
abbrev main_call10_call0_v1 : Ref sig .tc := ⟨.hbm, 346, rfl⟩
abbrev main_v171 : Ref sig .tc := ⟨.hbm, 347, rfl⟩
abbrev main_v172 : Ref sig .tc := ⟨.hbm, 348, rfl⟩
abbrev main_v173 : Ref sig .tc := ⟨.hbm, 349, rfl⟩
abbrev main_v174 : Ref sig .tc := ⟨.hbm, 350, rfl⟩
abbrev main_cst_27 : Ref sig .tc := ⟨.hbm, 351, rfl⟩
abbrev main_v175 : Ref sig .tc := ⟨.hbm, 352, rfl⟩
abbrev main_v176 : Ref sig .tc := ⟨.hbm, 353, rfl⟩
abbrev main_v177 : Ref sig .tc := ⟨.hbm, 354, rfl⟩
abbrev main_v178 : Ref sig .tc := ⟨.hbm, 355, rfl⟩
abbrev main_v179 : Ref sig .tc := ⟨.hbm, 356, rfl⟩
abbrev main_v180 : Ref sig .tc := ⟨.hbm, 357, rfl⟩
abbrev main_v181 : Ref sig .tc := ⟨.hbm, 358, rfl⟩
abbrev main_v182 : Ref sig .tc := ⟨.hbm, 359, rfl⟩
abbrev main_v183 : Ref sig .tc := ⟨.hbm, 360, rfl⟩
abbrev main_v184 : Ref sig .tc := ⟨.hbm, 361, rfl⟩
abbrev main_v185 : Ref sig .tc := ⟨.hbm, 362, rfl⟩
abbrev main_v186 : Ref sig .tc := ⟨.hbm, 363, rfl⟩
abbrev main_call11_cst : Ref sig .tc := ⟨.hbm, 364, rfl⟩
abbrev main_call11_v0 : Ref sig .tc := ⟨.hbm, 365, rfl⟩
abbrev main_v187 : Ref sig .tc := ⟨.hbm, 366, rfl⟩
abbrev main_c_28 : Ref sig .tc := ⟨.hbm, 367, rfl⟩
abbrev main_v188 : Ref sig .tc := ⟨.hbm, 368, rfl⟩
abbrev main_v189 : Ref sig .tc := ⟨.hbm, 369, rfl⟩
abbrev main_c_29 : Ref sig .tc := ⟨.hbm, 370, rfl⟩
abbrev main_v190 : Ref sig .tc := ⟨.hbm, 371, rfl⟩
abbrev main_v191 : Ref sig .tc := ⟨.hbm, 372, rfl⟩
abbrev main_v192 : Ref sig .tc := ⟨.hbm, 373, rfl⟩
abbrev main_v193 : Ref sig .tc := ⟨.hbm, 374, rfl⟩
abbrev main_v194 : Ref sig .tc := ⟨.hbm, 375, rfl⟩
abbrev main_v195 : Ref sig .tc := ⟨.hbm, 376, rfl⟩
abbrev main_v196 : Ref sig .tc := ⟨.hbm, 377, rfl⟩
abbrev main_v197 : Ref sig .tc := ⟨.hbm, 378, rfl⟩
abbrev main_cst_30 : Ref sig .tc := ⟨.hbm, 379, rfl⟩
abbrev main_v198 : Ref sig .tc := ⟨.hbm, 380, rfl⟩
abbrev main_v199 : Ref sig .tc := ⟨.hbm, 381, rfl⟩
abbrev main_v200 : Ref sig .tc := ⟨.hbm, 382, rfl⟩
abbrev main_v201 : Ref sig .tc := ⟨.hbm, 383, rfl⟩
abbrev main_v202 : Ref sig .tc := ⟨.hbm, 384, rfl⟩
abbrev main_v203 : Ref sig .tc := ⟨.hbm, 385, rfl⟩
abbrev main_v204 : Ref sig .tc := ⟨.hbm, 386, rfl⟩
abbrev main_v205 : Ref sig .tc := ⟨.hbm, 387, rfl⟩
abbrev main_v206 : Ref sig .tc := ⟨.hbm, 388, rfl⟩
abbrev main_v207 : Ref sig .tc := ⟨.hbm, 389, rfl⟩
abbrev main_v208 : Ref sig .tc := ⟨.hbm, 390, rfl⟩
abbrev main_cst_31 : Ref sig .tc := ⟨.hbm, 391, rfl⟩
abbrev main_v209 : Ref sig .tc := ⟨.hbm, 392, rfl⟩
abbrev main_cst_32 : Ref sig .tc := ⟨.hbm, 393, rfl⟩
abbrev main_v210 : Ref sig .tc := ⟨.hbm, 394, rfl⟩
abbrev main_v211 : Ref sig .tc := ⟨.hbm, 395, rfl⟩
abbrev main_c_33 : Ref sig .tc := ⟨.hbm, 396, rfl⟩
abbrev main_call12_cst : Ref sig .tc := ⟨.hbm, 397, rfl⟩
abbrev main_call12_v0 : Ref sig .tc := ⟨.hbm, 398, rfl⟩
abbrev main_call12_v1 : Ref sig .tc := ⟨.hbm, 399, rfl⟩
abbrev main_call12_cst_0 : Ref sig .tc := ⟨.hbm, 400, rfl⟩
abbrev main_call12_v2 : Ref sig .tc := ⟨.hbm, 401, rfl⟩
abbrev main_call12_v3 : Ref sig .tc := ⟨.hbm, 402, rfl⟩
abbrev main_call12_v4 : Ref sig .tc := ⟨.hbm, 403, rfl⟩
abbrev main_call12_v5 : Ref sig .tc := ⟨.hbm, 404, rfl⟩
abbrev main_call12_v6 : Ref sig .tc := ⟨.hbm, 405, rfl⟩
abbrev main_call12_v7 : Ref sig .tc := ⟨.hbm, 406, rfl⟩
abbrev main_call12_cst_1 : Ref sig .tc := ⟨.hbm, 407, rfl⟩
abbrev main_call12_v8 : Ref sig .tc := ⟨.hbm, 408, rfl⟩
abbrev main_call12_cst_2 : Ref sig .tc := ⟨.hbm, 409, rfl⟩
abbrev main_call12_v9 : Ref sig .tc := ⟨.hbm, 410, rfl⟩
abbrev main_call12_v10 : Ref sig .tc := ⟨.hbm, 411, rfl⟩
abbrev main_call12_v11 : Ref sig .tc := ⟨.hbm, 412, rfl⟩
abbrev main_call12_cst_3 : Ref sig .tc := ⟨.hbm, 413, rfl⟩
abbrev main_call12_v12 : Ref sig .tc := ⟨.hbm, 414, rfl⟩
abbrev main_call12_cst_4 : Ref sig .tc := ⟨.hbm, 415, rfl⟩
abbrev main_call12_call0_v0 : Ref sig .tc := ⟨.hbm, 416, rfl⟩
abbrev main_call12_call0_v1 : Ref sig .tc := ⟨.hbm, 417, rfl⟩
abbrev main_v212 : Ref sig .tc := ⟨.hbm, 418, rfl⟩
abbrev main_v213 : Ref sig .tc := ⟨.hbm, 419, rfl⟩
abbrev main_v214 : Ref sig .tc := ⟨.hbm, 420, rfl⟩
abbrev main_v215 : Ref sig .tc := ⟨.hbm, 421, rfl⟩
abbrev main_cst_34 : Ref sig .tc := ⟨.hbm, 422, rfl⟩
abbrev main_v216 : Ref sig .tc := ⟨.hbm, 423, rfl⟩
abbrev main_v217 : Ref sig .tc := ⟨.hbm, 424, rfl⟩
abbrev main_v218 : Ref sig .tc := ⟨.hbm, 425, rfl⟩
abbrev main_v219 : Ref sig .tc := ⟨.hbm, 426, rfl⟩
abbrev main_v220 : Ref sig .tc := ⟨.hbm, 427, rfl⟩
abbrev main_v221 : Ref sig .tc := ⟨.hbm, 428, rfl⟩
abbrev main_v222 : Ref sig .tc := ⟨.hbm, 429, rfl⟩
abbrev main_v223 : Ref sig .tc := ⟨.hbm, 430, rfl⟩
abbrev main_v224 : Ref sig .tc := ⟨.hbm, 431, rfl⟩
abbrev main_v225 : Ref sig .tc := ⟨.hbm, 432, rfl⟩
abbrev main_v226 : Ref sig .tc := ⟨.hbm, 433, rfl⟩
abbrev main_v227 : Ref sig .tc := ⟨.hbm, 434, rfl⟩
abbrev main_call13_cst : Ref sig .tc := ⟨.hbm, 435, rfl⟩
abbrev main_call13_v0 : Ref sig .tc := ⟨.hbm, 436, rfl⟩
abbrev main_v228 : Ref sig .tc := ⟨.hbm, 437, rfl⟩
abbrev main_v229 : Ref sig .tc := ⟨.hbm, 438, rfl⟩
abbrev main_v230 : Ref sig .tc := ⟨.hbm, 439, rfl⟩
abbrev main_v231 : Ref sig .tc := ⟨.hbm, 440, rfl⟩
abbrev main_v232 : Ref sig .tc := ⟨.hbm, 441, rfl⟩
abbrev main_v233 : Ref sig .tc := ⟨.hbm, 442, rfl⟩
abbrev main_v234 : Ref sig .tc := ⟨.hbm, 443, rfl⟩
abbrev main_v235 : Ref sig .tc := ⟨.hbm, 444, rfl⟩
abbrev main_cst_35 : Ref sig .tc := ⟨.hbm, 445, rfl⟩
abbrev main_v236 : Ref sig .tc := ⟨.hbm, 446, rfl⟩
abbrev main_cst_36 : Ref sig .tc := ⟨.hbm, 447, rfl⟩
abbrev main_v237 : Ref sig .tc := ⟨.hbm, 448, rfl⟩
abbrev main_v238 : Ref sig .tc := ⟨.hbm, 449, rfl⟩
abbrev main_c_37 : Ref sig .tc := ⟨.hbm, 450, rfl⟩
abbrev main_call14_cst : Ref sig .tc := ⟨.hbm, 451, rfl⟩
abbrev main_call14_v0 : Ref sig .tc := ⟨.hbm, 452, rfl⟩
abbrev main_call14_v1 : Ref sig .tc := ⟨.hbm, 453, rfl⟩
abbrev main_call14_cst_0 : Ref sig .tc := ⟨.hbm, 454, rfl⟩
abbrev main_call14_v2 : Ref sig .tc := ⟨.hbm, 455, rfl⟩
abbrev main_call14_v3 : Ref sig .tc := ⟨.hbm, 456, rfl⟩
abbrev main_call14_v4 : Ref sig .tc := ⟨.hbm, 457, rfl⟩
abbrev main_call14_v5 : Ref sig .tc := ⟨.hbm, 458, rfl⟩
abbrev main_call14_v6 : Ref sig .tc := ⟨.hbm, 459, rfl⟩
abbrev main_call14_v7 : Ref sig .tc := ⟨.hbm, 460, rfl⟩
abbrev main_call14_cst_1 : Ref sig .tc := ⟨.hbm, 461, rfl⟩
abbrev main_call14_v8 : Ref sig .tc := ⟨.hbm, 462, rfl⟩
abbrev main_call14_cst_2 : Ref sig .tc := ⟨.hbm, 463, rfl⟩
abbrev main_call14_v9 : Ref sig .tc := ⟨.hbm, 464, rfl⟩
abbrev main_call14_v10 : Ref sig .tc := ⟨.hbm, 465, rfl⟩
abbrev main_call14_v11 : Ref sig .tc := ⟨.hbm, 466, rfl⟩
abbrev main_call14_cst_3 : Ref sig .tc := ⟨.hbm, 467, rfl⟩
abbrev main_call14_v12 : Ref sig .tc := ⟨.hbm, 468, rfl⟩
abbrev main_call14_cst_4 : Ref sig .tc := ⟨.hbm, 469, rfl⟩
abbrev main_call14_call0_v0 : Ref sig .tc := ⟨.hbm, 470, rfl⟩
abbrev main_call14_call0_v1 : Ref sig .tc := ⟨.hbm, 471, rfl⟩
abbrev main_v239 : Ref sig .tc := ⟨.hbm, 472, rfl⟩
abbrev main_v240 : Ref sig .tc := ⟨.hbm, 473, rfl⟩
abbrev main_v241 : Ref sig .tc := ⟨.hbm, 474, rfl⟩
abbrev main_v242 : Ref sig .tc := ⟨.hbm, 475, rfl⟩
abbrev main_cst_38 : Ref sig .tc := ⟨.hbm, 476, rfl⟩
abbrev main_v243 : Ref sig .tc := ⟨.hbm, 477, rfl⟩
abbrev main_v244 : Ref sig .tc := ⟨.hbm, 478, rfl⟩
abbrev main_v245 : Ref sig .tc := ⟨.hbm, 479, rfl⟩
abbrev main_v246 : Ref sig .tc := ⟨.hbm, 480, rfl⟩
abbrev main_v247 : Ref sig .tc := ⟨.hbm, 481, rfl⟩
abbrev main_v248 : Ref sig .tc := ⟨.hbm, 482, rfl⟩
abbrev main_v249 : Ref sig .tc := ⟨.hbm, 483, rfl⟩
abbrev main_v250 : Ref sig .tc := ⟨.hbm, 484, rfl⟩
abbrev main_v251 : Ref sig .tc := ⟨.hbm, 485, rfl⟩
abbrev main_v252 : Ref sig .tc := ⟨.hbm, 486, rfl⟩
abbrev main_v253 : Ref sig .tc := ⟨.hbm, 487, rfl⟩
abbrev main_v254 : Ref sig .tc := ⟨.hbm, 488, rfl⟩
abbrev main_call15_cst : Ref sig .tc := ⟨.hbm, 489, rfl⟩
abbrev main_call15_v0 : Ref sig .tc := ⟨.hbm, 490, rfl⟩
abbrev main_v255 : Ref sig .tc := ⟨.hbm, 491, rfl⟩
abbrev main_v256 : Ref sig .tc := ⟨.hbm, 492, rfl⟩
abbrev main_v257 : Ref sig .tc := ⟨.hbm, 493, rfl⟩
abbrev main_v258 : Ref sig .tc := ⟨.hbm, 494, rfl⟩
abbrev main_v259 : Ref sig .tc := ⟨.hbm, 495, rfl⟩
abbrev main_cst_39 : Ref sig .tc := ⟨.hbm, 496, rfl⟩
abbrev main_v260 : Ref sig .tc := ⟨.hbm, 497, rfl⟩
abbrev main_cst_40 : Ref sig .tc := ⟨.hbm, 498, rfl⟩
abbrev main_v261 : Ref sig .tc := ⟨.hbm, 499, rfl⟩
abbrev main_v262 : Ref sig .tc := ⟨.hbm, 500, rfl⟩
abbrev main_c_41 : Ref sig .tc := ⟨.hbm, 501, rfl⟩
abbrev main_call16_cst : Ref sig .tc := ⟨.hbm, 502, rfl⟩
abbrev main_call16_v0 : Ref sig .tc := ⟨.hbm, 503, rfl⟩
abbrev main_call16_v1 : Ref sig .tc := ⟨.hbm, 504, rfl⟩
abbrev main_call16_cst_0 : Ref sig .tc := ⟨.hbm, 505, rfl⟩
abbrev main_call16_v2 : Ref sig .tc := ⟨.hbm, 506, rfl⟩
abbrev main_call16_v3 : Ref sig .tc := ⟨.hbm, 507, rfl⟩
abbrev main_call16_v4 : Ref sig .tc := ⟨.hbm, 508, rfl⟩
abbrev main_call16_v5 : Ref sig .tc := ⟨.hbm, 509, rfl⟩
abbrev main_call16_v6 : Ref sig .tc := ⟨.hbm, 510, rfl⟩
abbrev main_call16_v7 : Ref sig .tc := ⟨.hbm, 511, rfl⟩
abbrev main_call16_cst_1 : Ref sig .tc := ⟨.hbm, 512, rfl⟩
abbrev main_call16_v8 : Ref sig .tc := ⟨.hbm, 513, rfl⟩
abbrev main_call16_cst_2 : Ref sig .tc := ⟨.hbm, 514, rfl⟩
abbrev main_call16_v9 : Ref sig .tc := ⟨.hbm, 515, rfl⟩
abbrev main_call16_v10 : Ref sig .tc := ⟨.hbm, 516, rfl⟩
abbrev main_call16_v11 : Ref sig .tc := ⟨.hbm, 517, rfl⟩
abbrev main_call16_cst_3 : Ref sig .tc := ⟨.hbm, 518, rfl⟩
abbrev main_call16_v12 : Ref sig .tc := ⟨.hbm, 519, rfl⟩
abbrev main_call16_cst_4 : Ref sig .tc := ⟨.hbm, 520, rfl⟩
abbrev main_call16_call0_v0 : Ref sig .tc := ⟨.hbm, 521, rfl⟩
abbrev main_call16_call0_v1 : Ref sig .tc := ⟨.hbm, 522, rfl⟩
abbrev main_v263 : Ref sig .tc := ⟨.hbm, 523, rfl⟩
abbrev main_v264 : Ref sig .tc := ⟨.hbm, 524, rfl⟩
abbrev main_v265 : Ref sig .tc := ⟨.hbm, 525, rfl⟩
abbrev main_v266 : Ref sig .tc := ⟨.hbm, 526, rfl⟩
abbrev main_cst_42 : Ref sig .tc := ⟨.hbm, 527, rfl⟩
abbrev main_v267 : Ref sig .tc := ⟨.hbm, 528, rfl⟩
abbrev main_v268 : Ref sig .tc := ⟨.hbm, 529, rfl⟩
abbrev main_v269 : Ref sig .tc := ⟨.hbm, 530, rfl⟩
abbrev main_v270 : Ref sig .tc := ⟨.hbm, 531, rfl⟩
abbrev main_v271 : Ref sig .tc := ⟨.hbm, 532, rfl⟩
abbrev main_v272 : Ref sig .tc := ⟨.hbm, 533, rfl⟩
abbrev main_v273 : Ref sig .tc := ⟨.hbm, 534, rfl⟩
abbrev main_v274 : Ref sig .tc := ⟨.hbm, 535, rfl⟩
abbrev main_v275 : Ref sig .tc := ⟨.hbm, 536, rfl⟩
abbrev main_v276 : Ref sig .tc := ⟨.hbm, 537, rfl⟩
abbrev main_v277 : Ref sig .tc := ⟨.hbm, 538, rfl⟩
abbrev main_v278 : Ref sig .tc := ⟨.hbm, 539, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Ledger.lean ====
/-
  The ledger of the idealization.  The kernel's batch-norm finalisers multiply a column total by the
  f32 literal nearest to 1/50000 (the source's `1.0 / float(N)`, N = 50000 rows); the idealized kernel
  reads that literal, under the name "inv_50000", as the exact rational 1/50000.  The rule fired at
  eighteen sites: in each of the three layers, in each of the three statistics kernels, once for the mean
  and once for the mean of squares.  Every entry is the same statement: the certificate's table gives the
  name the value 1/50000, so the named constant denotes that real on the extended reals.
-/
import proofs.«180905_j29583734735286_1_alg».proof.Defs

noncomputable section

open Idealize.ShloMosaic

namespace Cert.Proof.Ledger

/-- One ledger entry: the table's value for "inv_50000" is the rational 1/50000. -/
theorem entry :
    IdealRules.named_const.Statement Cert.KernelIdeal.κ "inv_50000" .f32 0x37A7C5AC#32 ((1 / 50000 : ℝ) : EReal) :=
  IdealRules.named_const.statement Cert.KernelIdeal.κ "inv_50000" .f32 0x37A7C5AC#32 ((1 / 50000 : ℝ) : EReal) rfl

/-- All eighteen entries. -/
theorem preserves : Cert.preserves_Kernel_KernelIdeal :=
  ⟨entry, entry, entry, entry, entry, entry, entry, entry, entry,
   entry, entry, entry, entry, entry, entry, entry, entry, entry⟩

end Cert.Proof.Ledger

end
-- ==== Proof.R0A.lean ====
/-
  Pipeline 0 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev scM0_0 : Memref sig .tc .vmem S1x128 .f32 := Memref.whole cc0_scratch0
abbrev scM0_1 : Memref sig .tc .vmem S1x128 .f32 := Memref.whole cc0_scratch1

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

set_option maxHeartbeats 2000000 in
noncomputable def kernelRun0_A (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .bf16) (x2 : Vec F S1x128 .f32) (x3 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stage1_kernel i arg1 harg1 arg2 harg2 arg3 harg3 arg4 harg4 arg5 harg5 arg6 harg6 arg7 harg7 arg8 harg8) K } := by
  refine ⟨?_, ?_, fun xi1 xi2 E K => ?run⟩
  case run =>
    simp only [cc0__stage1_kernel_eq_skeleton]; unfold cc0__stage1_kernel_skel
    unfold owns
    iintro ⟨⟨%f0, %hf0, H0⟩, ⟨%f1, %hf1, H1⟩, ⟨%f2, %hf2, H2⟩, ⟨%f3, %hf3, H3⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hfo1; obtain rfl := harg6.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]
    · iexists _; isplitr; · ipureintro; exact harg5.read_unread _
      iexact HO1
    isplitl [HO2]
    · iexists _; isplitr; · ipureintro; exact harg6.read_unread _
      iexact HO2
    isplitl [HS0]; · iexists _; iexact HS0
    iexists _; iexact HS1

set_option maxHeartbeats 2000000 in
noncomputable def kernelRun0_B (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .bf16) (x2 : Vec F S1x128 .f32) (x3 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stage1_kernel i arg1 harg1 arg2 harg2 arg3 harg3 arg4 harg4 arg5 harg5 arg6 harg6 arg7 harg7 arg8 harg8) K } := by
  refine ⟨?_, ?_, fun xi1 xi2 E K => ?run⟩
  case run =>
    simp only [cc0__stage1_kernel_eq_skeleton]; unfold cc0__stage1_kernel_skel
    unfold owns
    iintro ⟨⟨%f0, %hf0, H0⟩, ⟨%f1, %hf1, H1⟩, ⟨%f2, %hf2, H2⟩, ⟨%f3, %hf3, H3⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfo1; obtain rfl := harg6.eq_unread hfo2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]
    · iexists _; isplitr; · ipureintro; exact harg5.read_unread _
      iexact HO1
    isplitl [HO2]
    · iexists _; isplitr; · ipureintro; exact harg6.read_unread _
      iexact HO2
    isplitl [HS0]; · iexists _; iexact HS0
    iexists _; iexact HS1

set_option maxHeartbeats 2000000 in
noncomputable def kernelRun0_C (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .bf16) (x2 : Vec F S1x128 .f32) (x3 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L1) ∗ (∃ f, arg6.view.loc (c : Thread nD τ) ↦[arg6.view.set]{fullShare} arg6.view.writes (Elt F) f L2) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stage1_kernel i arg1 harg1 arg2 harg2 arg3 harg3 arg4 harg4 arg5 harg5 arg6 harg6 arg7 harg7 arg8 harg8) K } := by
  refine ⟨?_, ?_, ?_, ?_, fun E K => ?run⟩
  case run =>
    simp only [cc0__stage1_kernel_eq_skeleton]; unfold cc0__stage1_kernel_skel
    unfold owns
    iintro ⟨⟨%f0, %hf0, H0⟩, ⟨%f1, %hf1, H1⟩, ⟨%f2, %hf2, H2⟩, ⟨%f3, %hf3, H3⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]; · iexists _; iexact HO1
    isplitl [HO2]; · iexists _; iexact HO2
    isplitl [HS0]; · iexists _; iexact HS0
    iexists _; iexact HS1

end Cert.KernelIdeal.Hand

end
-- ==== Proof.R0B.lean ====
/-
  Pipeline 0 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R0A
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev VW0 : View sig .tc .vmem S1x128 .f32 := scM0_0.view
def rd0 (L : List (View.Piece (Elt F) S1x128 .f32)) : Vec F S1x128 .f32 := VW0.read (Elt F) (VW0.writes (Elt F) VW0.junk L)

theorem scoverA0_0 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .bf16) (x2 : Vec F S1x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S1x128.size (by sl_kernel_rfl) y
theorem scoverA0_1 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .bf16) (x2 : Vec F S1x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S1x128.size (by sl_kernel_rfl) y
theorem scoverB0_0 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).1 S1x128.size (by sl_kernel_rfl) y
theorem scoverB0_1 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.1 S1x128.size (by sl_kernel_rfl) y
theorem coverC0_1 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S1x128.size (by sl_kernel_rfl) y
theorem coverC0_2 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S1x128.size (by sl_kernel_rfl) y
theorem scoverC0_0 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S1x128.size (by sl_kernel_rfl) y
theorem scoverC0_1 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S1x128.size (by sl_kernel_rfl) y

theorem c0_zero0 (hn : 0 < cfg0.N) : cond0_0 (grid0.coords ⟨0, hn⟩) := (hcond0_0 ⟨0, hn⟩).mpr (Nat.zero_mod _)
theorem nc1_zero0 (hn : 0 < cfg0.N) : ¬cond0_1 (grid0.coords ⟨0, hn⟩) :=
  fun h => by have := (hcond0_1 ⟨0, hn⟩).mp h; (try dsimp only at this); omega
theorem nc0_succ0 (n : ℕ) (hn : n + 1 < cfg0.N) : ¬cond0_0 (grid0.coords ⟨n + 1, hn⟩) := fun h => by
  have hN : n + 1 < 10 := lt_of_lt_of_eq hn (show cfg0.N = 10 from N_0)
  have := (hcond0_0 ⟨n + 1, hn⟩).mp h; (try dsimp only at this); omega

def outsAt0 (c : Dev nD) : (n : ℕ) → n < cfg0.N → Vec F S1x128 .f32 × Vec F S1x128 .f32 × Vec F S1x128 .f32 × Vec F S1x128 .f32
  | 0, hn => (rd0 [], rd0 [], rd0 (kernelRun0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) (c0_zero0 hn) (nc1_zero0 hn) (iblk0 V c 0 ⟨0, hn⟩) (iblk0 V c 1 ⟨0, hn⟩) (iblk0 V c 2 ⟨0, hn⟩) (iblk0 V c 3 ⟨0, hn⟩)).1, rd0 (kernelRun0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) (c0_zero0 hn) (nc1_zero0 hn) (iblk0 V c 0 ⟨0, hn⟩) (iblk0 V c 1 ⟨0, hn⟩) (iblk0 V c 2 ⟨0, hn⟩) (iblk0 V c 3 ⟨0, hn⟩)).2.1)
  | n + 1, hn =>
    if h1 : (n + 1) % 10 = 9 then
      (rd0 (kernelRun0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (nc0_succ0 n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2).1, rd0 (kernelRun0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (nc0_succ0 n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2).2.1, rd0 (kernelRun0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (nc0_succ0 n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2).2.2.1, rd0 (kernelRun0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (nc0_succ0 n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2).2.2.2.1)
    else
      (rd0 [], rd0 [], rd0 (kernelRun0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (nc0_succ0 n hn) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2).1, rd0 (kernelRun0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (nc0_succ0 n hn) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2).2.1)

theorem outsAt0_A (c : Dev nD) (t : Fin cfg0.N) (hz : t.val = 0) (hc0 : cond0_0 (grid0.coords t)) (hc1 : ¬cond0_1 (grid0.coords t)) :
    outsAt0 V c t.val t.isLt = (rd0 [], rd0 [], rd0 (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t)).1, rd0 (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t)).2.1) := by
  obtain ⟨n, hn⟩ := t
  cases n with
  | zero => rfl
  | succ n => exact absurd hz (Nat.succ_ne_zero n)
theorem outsAt0_B (c : Dev nD) (t : Fin cfg0.N) (hz : t.val ≠ 0) (h1 : ¬t.val % 10 = 9) (hc0 : ¬cond0_0 (grid0.coords t)) (hc1 : ¬cond0_1 (grid0.coords t)) :
    outsAt0 V c t.val t.isLt = (rd0 [], rd0 [], rd0 (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2).1, rd0 (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt0_C (c : Dev nD) (t : Fin cfg0.N) (hz : t.val ≠ 0) (h1 : t.val % 10 = 9) (hc0 : ¬cond0_0 (grid0.coords t)) (hc1 : cond0_1 (grid0.coords t)) :
    outsAt0 V c t.val t.isLt = (rd0 (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2).1, rd0 (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2).2.1, rd0 (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2).2.2.1, rd0 (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest0 (c : Dev nD) : sProp 𝕄 :=
  Pipeline.scopedRestBut (Ix := Unit) (Name := ℕ) (U := UR sig nD τ) (Lvl := ℕ) (Val := Elt F) spec0 c [cc0_scratch0, cc0_scratch1]

def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ rest0 c) ∗ (∃ r, prngReg c r))
theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ rest0 c) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ rest0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases hz : t.val = 0
  · have hc0 : cond0_0 (grid0.coords t) := (hcond0_0 t).mpr (by omega)
    have hc1 : ¬cond0_1 (grid0.coords t) := fun h => by have := (hcond0_1 t).mp h; omega
    rw [Dat.leavesExact_idle (dat0 V c) 4 t (idleAt0_4 t hc1) (noFlush0_4 t hc1),
      Dat.leavesExact_idle (dat0 V c) 5 t (idleAt0_5 t hc1) (noFlush0_5 t hc1)]
    rw [outsAt0_A V c t hz hc0 hc1]
    (try dsimp only)
    rw [PhiS0_castSucc V c t, PhiS0_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ hc0 hc1 (iblk0 V c 0 t) (iblk0 V c 1 t) (iblk0 V c 2 t) (iblk0 V c 3 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA0_0 c _ _ _ _ _ _ _ _ _ _ _ _ _ _ _ _ _ hc0 hc1 _ _ _ _)
          · unfold owns; iexists _; isplitr
            swap; · iexact HS1
            ipureintro; exact View.read_writes_of_cover _ _ _ _ _ (scoverA0_1 c _ _ _ _ _ _ _ _ _ _ _ _ _ _ _ _ _ hc0 hc1 _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hc0 : ¬cond0_0 (grid0.coords t) := fun h => by have := (hcond0_0 t).mp h; omega
    rw [PhiS0_castSucc V c t, PhiS0_pos V c _ _ hz]
    by_cases h1 : t.val % 10 = 9
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [outsAt0_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ hc0 hc1 (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e1, H4⟩, ⟨%e2, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC0_0 c _ _ _ _ _ _ _ _ _ _ _ _ _ _ _ _ _ hc0 hc1 _ _ _ _ _ _)
            · unfold owns; iexists _; isplitr
              swap; · iexact HS1
              ipureintro; exact View.read_writes_of_cover _ _ _ _ _ (scoverC0_1 c _ _ _ _ _ _ _ _ _ _ _ _ _ _ _ _ _ hc0 hc1 _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC0_1 c _ _ _ _ _ _ _ _ _ _ _ _ _ _ _ _ _ hc0 hc1 _ _ _ _ _ _)
      unfold owns; iexists _; isplitr
      swap; · iexact H5
      ipureintro; exact View.read_writes_of_cover _ _ _ _ _ (coverC0_2 c _ _ _ _ _ _ _ _ _ _ _ _ _ _ _ _ _ hc0 hc1 _ _ _ _ _ _)
    · have hc1 : ¬cond0_1 (grid0.coords t) := fun h => h1 ((hcond0_1 t).mp h)
      rw [Dat.leavesExact_idle (dat0 V c) 4 t (idleAt0_4 t hc1) (noFlush0_4 t hc1),
        Dat.leavesExact_idle (dat0 V c) 5 t (idleAt0_5 t hc1) (noFlush0_5 t hc1)]
      rw [outsAt0_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hc0 hc1 (iblk0 V c 0 t) (iblk0 V c 1 t) (iblk0 V c 2 t) (iblk0 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB0_0 c _ _ _ _ _ _ _ _ _ _ _ _ _ _ _ _ _ hc0 hc1 _ _ _ _ _ _)
            · unfold owns; iexists _; isplitr
              swap; · iexact HS1
              ipureintro; exact View.read_writes_of_cover _ _ _ _ _ (scoverB0_1 c _ _ _ _ _ _ _ _ _ _ _ _ _ _ _ _ _ hc0 hc1 _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 10 := N_0; omega), PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.KernelIdeal.Hand

end
-- ==== Proof.R1A.lean ====
/-
  Pipeline 1 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev scM1_0 : Memref sig .tc .vmem S1x128 .f32 := Memref.whole cc1_scratch0
abbrev scM1_1 : Memref sig .tc .vmem S1x128 .f32 := Memref.whole cc1_scratch1

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

set_option maxHeartbeats 2000000 in
noncomputable def kernelRun1_A (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11) K } := by
  refine ⟨?_, ?_, fun xi1 xi2 E K => ?run⟩
  case run =>
    simp only [cc1__stage2_kernel_eq_skeleton]; unfold cc1__stage2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfo1; obtain rfl := harg9.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]
    · iexists _; isplitr; · ipureintro; exact harg8.read_unread _
      iexact HO1
    isplitl [HO2]
    · iexists _; isplitr; · ipureintro; exact harg9.read_unread _
      iexact HO2
    isplitl [HS0]; · iexists _; iexact HS0
    iexists _; iexact HS1

set_option maxHeartbeats 2000000 in
noncomputable def kernelRun1_B (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11) K } := by
  refine ⟨?_, ?_, fun xi1 xi2 E K => ?run⟩
  case run =>
    simp only [cc1__stage2_kernel_eq_skeleton]; unfold cc1__stage2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfo1; obtain rfl := harg9.eq_unread hfo2; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]
    · iexists _; isplitr; · ipureintro; exact harg8.read_unread _
      iexact HO1
    isplitl [HO2]
    · iexists _; isplitr; · ipureintro; exact harg9.read_unread _
      iexact HO2
    isplitl [HS0]; · iexists _; iexact HS0
    iexists _; iexact HS1

set_option maxHeartbeats 2000000 in
noncomputable def kernelRun1_C (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__stage2_kernel_eq_skeleton]; unfold cc1__stage2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]; · iexists _; iexact HO1
    isplitl [HO2]; · iexists _; iexact HO2
    isplitl [HS0]; · iexists _; iexact HS0
    iexists _; iexact HS1

end Cert.KernelIdeal.Hand

end
-- ==== Proof.R1B.lean ====
/-
  Pipeline 1 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R1A
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev VW1 : View sig .tc .vmem S1x128 .f32 := scM1_0.view
def rd1 (L : List (View.Piece (Elt F) S1x128 .f32)) : Vec F S1x128 .f32 := VW1.read (Elt F) (VW1.writes (Elt F) VW1.junk L)

theorem scoverA1_0 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6).1 S1x128.size (by sl_kernel_rfl) y
theorem scoverA1_1 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6).2.1 S1x128.size (by sl_kernel_rfl) y
theorem scoverB1_0 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 S1x128.size (by sl_kernel_rfl) y
theorem scoverB1_1 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 S1x128.size (by sl_kernel_rfl) y
theorem coverC1_1 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 S1x128.size (by sl_kernel_rfl) y
theorem coverC1_2 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 S1x128.size (by sl_kernel_rfl) y
theorem scoverC1_0 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.1 S1x128.size (by sl_kernel_rfl) y
theorem scoverC1_1 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.2.1 S1x128.size (by sl_kernel_rfl) y

theorem c0_zero1 (hn : 0 < cfg1.N) : cond1_0 (grid1.coords ⟨0, hn⟩) := (hcond1_0 ⟨0, hn⟩).mpr (Nat.zero_mod _)
theorem nc1_zero1 (hn : 0 < cfg1.N) : ¬cond1_1 (grid1.coords ⟨0, hn⟩) :=
  fun h => by have := (hcond1_1 ⟨0, hn⟩).mp h; (try dsimp only at this); omega
theorem nc0_succ1 (n : ℕ) (hn : n + 1 < cfg1.N) : ¬cond1_0 (grid1.coords ⟨n + 1, hn⟩) := fun h => by
  have hN : n + 1 < 10 := lt_of_lt_of_eq hn (show cfg1.N = 10 from N_1)
  have := (hcond1_0 ⟨n + 1, hn⟩).mp h; (try dsimp only at this); omega

def outsAt1 (c : Dev nD) : (n : ℕ) → n < cfg1.N → Vec F S1x128 .f32 × Vec F S1x128 .f32 × Vec F S1x128 .f32 × Vec F S1x128 .f32
  | 0, hn => (rd1 [], rd1 [], rd1 (kernelRun1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) (c0_zero1 hn) (nc1_zero1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)).1, rd1 (kernelRun1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) (c0_zero1 hn) (nc1_zero1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)).2.1)
  | n + 1, hn =>
    if h1 : (n + 1) % 10 = 9 then
      (rd1 (kernelRun1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (nc0_succ1 n hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2).1, rd1 (kernelRun1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (nc0_succ1 n hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2).2.1, rd1 (kernelRun1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (nc0_succ1 n hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2).2.2.1, rd1 (kernelRun1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (nc0_succ1 n hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2).2.2.2.1)
    else
      (rd1 [], rd1 [], rd1 (kernelRun1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (nc0_succ1 n hn) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2).1, rd1 (kernelRun1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (nc0_succ1 n hn) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2).2.1)

theorem outsAt1_A (c : Dev nD) (t : Fin cfg1.N) (hz : t.val = 0) (hc0 : cond1_0 (grid1.coords t)) (hc1 : ¬cond1_1 (grid1.coords t)) :
    outsAt1 V c t.val t.isLt = (rd1 [], rd1 [], rd1 (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t)).1, rd1 (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t)).2.1) := by
  obtain ⟨n, hn⟩ := t
  cases n with
  | zero => rfl
  | succ n => exact absurd hz (Nat.succ_ne_zero n)
theorem outsAt1_B (c : Dev nD) (t : Fin cfg1.N) (hz : t.val ≠ 0) (h1 : ¬t.val % 10 = 9) (hc0 : ¬cond1_0 (grid1.coords t)) (hc1 : ¬cond1_1 (grid1.coords t)) :
    outsAt1 V c t.val t.isLt = (rd1 [], rd1 [], rd1 (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).1, rd1 (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt1_C (c : Dev nD) (t : Fin cfg1.N) (hz : t.val ≠ 0) (h1 : t.val % 10 = 9) (hc0 : ¬cond1_0 (grid1.coords t)) (hc1 : cond1_1 (grid1.coords t)) :
    outsAt1 V c t.val t.isLt = (rd1 (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).1, rd1 (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).2.1, rd1 (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).2.2.1, rd1 (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest1 (c : Dev nD) : sProp 𝕄 :=
  Pipeline.scopedRestBut (Ix := Unit) (Name := ℕ) (U := UR sig nD τ) (Lvl := ℕ) (Val := Elt F) spec1 c [cc1_scratch0, cc1_scratch1]

def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases hz : t.val = 0
  · have hc0 : cond1_0 (grid1.coords t) := (hcond1_0 t).mpr (by omega)
    have hc1 : ¬cond1_1 (grid1.coords t) := fun h => by have := (hcond1_1 t).mp h; omega
    rw [Dat.leavesExact_idle (dat1 V c) 7 t (idleAt1_7 t hc1) (noFlush1_7 t hc1),
      Dat.leavesExact_idle (dat1 V c) 8 t (idleAt1_8 t hc1) (noFlush1_8 t hc1)]
    rw [outsAt1_A V c t hz hc0 hc1]
    (try dsimp only)
    rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A c (grid1.coords t) _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA1_0 c _ _ _ _ _ _ _ _ _ _ _ _ _ _ _ _ _ _ _ _ _ _ _ hc0 hc1 _ _ _ _ _ _ _)
          · unfold owns; iexists _; isplitr
            swap; · iexact HS1
            ipureintro; exact View.read_writes_of_cover _ _ _ _ _ (scoverA1_1 c _ _ _ _ _ _ _ _ _ _ _ _ _ _ _ _ _ _ _ _ _ _ _ hc0 hc1 _ _ _ _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · have hc0 : ¬cond1_0 (grid1.coords t) := fun h => by have := (hcond1_0 t).mp h; omega
    rw [PhiS1_castSucc V c t, PhiS1_pos V c _ _ hz]
    by_cases h1 : t.val % 10 = 9
    · have hc1 : cond1_1 (grid1.coords t) := (hcond1_1 t).mpr h1
      rw [show (dat1 V c).leavesExact 7 t = owns (c : Thread nD τ) (ms1_7 t) fullShare ((dat1 V c).after 7 t) from by
        unfold Dat.leavesExact; rw [liveAt1_7 t hc1], after1_7]
      rw [show (dat1 V c).leavesExact 8 t = owns (c : Thread nD τ) (ms1_8 t) fullShare ((dat1 V c).after 8 t) from by
        unfold Dat.leavesExact; rw [liveAt1_8 t hc1], after1_8]
      rw [outsAt1_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, ⟨%e1, H7⟩, ⟨%e2, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC1_0 c _ _ _ _ _ _ _ _ _ _ _ _ _ _ _ _ _ _ _ _ _ _ _ hc0 hc1 _ _ _ _ _ _ _ _ _)
            · unfold owns; iexists _; isplitr
              swap; · iexact HS1
              ipureintro; exact View.read_writes_of_cover _ _ _ _ _ (scoverC1_1 c _ _ _ _ _ _ _ _ _ _ _ _ _ _ _ _ _ _ _ _ _ _ _ hc0 hc1 _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverC1_1 c _ _ _ _ _ _ _ _ _ _ _ _ _ _ _ _ _ _ _ _ _ _ _ hc0 hc1 _ _ _ _ _ _ _ _ _)
      unfold owns; iexists _; isplitr
      swap; · iexact H8
      ipureintro; exact View.read_writes_of_cover _ _ _ _ _ (coverC1_2 c _ _ _ _ _ _ _ _ _ _ _ _ _ _ _ _ _ _ _ _ _ _ _ hc0 hc1 _ _ _ _ _ _ _ _ _)
    · have hc1 : ¬cond1_1 (grid1.coords t) := fun h => h1 ((hcond1_1 t).mp h)
      rw [Dat.leavesExact_idle (dat1 V c) 7 t (idleAt1_7 t hc1) (noFlush1_7 t hc1),
        Dat.leavesExact_idle (dat1 V c) 8 t (idleAt1_8 t hc1) (noFlush1_8 t hc1)]
      rw [outsAt1_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB1_0 c _ _ _ _ _ _ _ _ _ _ _ _ _ _ _ _ _ _ _ _ _ _ _ hc0 hc1 _ _ _ _ _ _ _ _ _)
            · unfold owns; iexists _; isplitr
              swap; · iexact HS1
              ipureintro; exact View.read_writes_of_cover _ _ _ _ _ (scoverB1_1 c _ _ _ _ _ _ _ _ _ _ _ _ _ _ _ _ _ _ _ _ _ _ _ hc0 hc1 _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega), PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.KernelIdeal.Hand

end
-- ==== Proof.R2A.lean ====
/-
  Pipeline 2 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel
theorem idleAt2_9 : ∀ t : Fin cfg2.N, ¬cond2_1 (grid2.coords t) → cfg2.idle 9 (grid2.coords t) = true := by decide +kernel
theorem noFlush2_9 : ∀ t : Fin cfg2.N, ¬cond2_1 (grid2.coords t) → (cfg2.win 9).flush t = false := by decide +kernel
theorem liveAt2_9 : ∀ t : Fin cfg2.N, cond2_1 (grid2.coords t) → cfg2.idle 9 (grid2.coords t) = false := by decide +kernel
theorem idleAt2_10 : ∀ t : Fin cfg2.N, ¬cond2_1 (grid2.coords t) → cfg2.idle 10 (grid2.coords t) = true := by decide +kernel
theorem noFlush2_10 : ∀ t : Fin cfg2.N, ¬cond2_1 (grid2.coords t) → (cfg2.win 10).flush t = false := by decide +kernel
theorem liveAt2_10 : ∀ t : Fin cfg2.N, cond2_1 (grid2.coords t) → cfg2.idle 10 (grid2.coords t) = false := by decide +kernel
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x128 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x128 .f32 := win2_10.stage (cfg2.slots t 10)
abbrev hs2_10 (t : Fin cfg2.N) : (ms2_10 t).IsWhole := hstage2_10 ((cfg2.slots t 10).cast nbuf2_10)
abbrev scM2_0 : Memref sig .tc .vmem S1x128 .f32 := Memref.whole cc2_scratch0
abbrev scM2_1 : Memref sig .tc .vmem S1x128 .f32 := Memref.whole cc2_scratch1

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

set_option maxHeartbeats 2000000 in
noncomputable def kernelRun2_A (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond2_0 i) (hc1 : ¬cond2_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi1 xi2 E K => ?run⟩
  case run =>
    simp only [cc2__stage3_kernel_eq_skeleton]; unfold cc2__stage3_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg10.eq_unread hfo1; obtain rfl := harg11.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]
    · iexists _; isplitr; · ipureintro; exact harg10.read_unread _
      iexact HO1
    isplitl [HO2]
    · iexists _; isplitr; · ipureintro; exact harg11.read_unread _
      iexact HO2
    isplitl [HS0]; · iexists _; iexact HS0
    iexists _; iexact HS1

set_option maxHeartbeats 2000000 in
noncomputable def kernelRun2_B (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : ¬cond2_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi1 xi2 E K => ?run⟩
  case run =>
    simp only [cc2__stage3_kernel_eq_skeleton]; unfold cc2__stage3_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg10.eq_unread hfo1; obtain rfl := harg11.eq_unread hfo2; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]
    · iexists _; isplitr; · ipureintro; exact harg10.read_unread _
      iexact HO1
    isplitl [HO2]
    · iexists _; isplitr; · ipureintro; exact harg11.read_unread _
      iexact HO2
    isplitl [HS0]; · iexists _; iexact HS0
    iexists _; iexact HS1

set_option maxHeartbeats 2000000 in
noncomputable def kernelRun2_C (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : cond2_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc2__stage3_kernel_eq_skeleton]; unfold cc2__stage3_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]; · iexists _; iexact HO1
    isplitl [HO2]; · iexists _; iexact HO2
    isplitl [HS0]; · iexists _; iexact HS0
    iexists _; iexact HS1

end Cert.KernelIdeal.Hand

end
-- ==== Proof.R2B.lean ====
/-
  Pipeline 2 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R2A
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev VW2 : View sig .tc .vmem S1x128 .f32 := scM2_0.view
def rd2 (L : List (View.Piece (Elt F) S1x128 .f32)) : Vec F S1x128 .f32 := VW2.read (Elt F) (VW2.writes (Elt F) VW2.junk L)

theorem scoverA2_0 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond2_0 i) (hc1 : ¬cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 S1x128.size (by sl_kernel_rfl) y
theorem scoverA2_1 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond2_0 i) (hc1 : ¬cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 S1x128.size (by sl_kernel_rfl) y
theorem scoverB2_0 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : ¬cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 S1x128.size (by sl_kernel_rfl) y
theorem scoverB2_1 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : ¬cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 S1x128.size (by sl_kernel_rfl) y
theorem coverC2_1 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 S1x128.size (by sl_kernel_rfl) y
theorem coverC2_2 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 S1x128.size (by sl_kernel_rfl) y
theorem scoverC2_0 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1 S1x128.size (by sl_kernel_rfl) y
theorem scoverC2_1 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1 S1x128.size (by sl_kernel_rfl) y

theorem c0_zero2 (hn : 0 < cfg2.N) : cond2_0 (grid2.coords ⟨0, hn⟩) := (hcond2_0 ⟨0, hn⟩).mpr (Nat.zero_mod _)
theorem nc1_zero2 (hn : 0 < cfg2.N) : ¬cond2_1 (grid2.coords ⟨0, hn⟩) :=
  fun h => by have := (hcond2_1 ⟨0, hn⟩).mp h; (try dsimp only at this); omega
theorem nc0_succ2 (n : ℕ) (hn : n + 1 < cfg2.N) : ¬cond2_0 (grid2.coords ⟨n + 1, hn⟩) := fun h => by
  have hN : n + 1 < 10 := lt_of_lt_of_eq hn (show cfg2.N = 10 from N_2)
  have := (hcond2_0 ⟨n + 1, hn⟩).mp h; (try dsimp only at this); omega

def outsAt2 (c : Dev nD) : (n : ℕ) → n < cfg2.N → Vec F S1x128 .f32 × Vec F S1x128 .f32 × Vec F S1x128 .f32 × Vec F S1x128 .f32
  | 0, hn => (rd2 [], rd2 [], rd2 (kernelRun2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2_0 (Memref.isWhole_whole _) scM2_1 (Memref.isWhole_whole _) (c0_zero2 hn) (nc1_zero2 hn) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩)).1, rd2 (kernelRun2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2_0 (Memref.isWhole_whole _) scM2_1 (Memref.isWhole_whole _) (c0_zero2 hn) (nc1_zero2 hn) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩)).2.1)
  | n + 1, hn =>
    if h1 : (n + 1) % 10 = 9 then
      (rd2 (kernelRun2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) scM2_1 (Memref.isWhole_whole _) (nc0_succ2 n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.1 (outsAt2 c n (Nat.lt_of_succ_lt hn)).2.2.2).1, rd2 (kernelRun2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) scM2_1 (Memref.isWhole_whole _) (nc0_succ2 n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.1 (outsAt2 c n (Nat.lt_of_succ_lt hn)).2.2.2).2.1, rd2 (kernelRun2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) scM2_1 (Memref.isWhole_whole _) (nc0_succ2 n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.1 (outsAt2 c n (Nat.lt_of_succ_lt hn)).2.2.2).2.2.1, rd2 (kernelRun2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) scM2_1 (Memref.isWhole_whole _) (nc0_succ2 n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.1 (outsAt2 c n (Nat.lt_of_succ_lt hn)).2.2.2).2.2.2.1)
    else
      (rd2 [], rd2 [], rd2 (kernelRun2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) scM2_1 (Memref.isWhole_whole _) (nc0_succ2 n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.1 (outsAt2 c n (Nat.lt_of_succ_lt hn)).2.2.2).1, rd2 (kernelRun2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) scM2_1 (Memref.isWhole_whole _) (nc0_succ2 n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.1 (outsAt2 c n (Nat.lt_of_succ_lt hn)).2.2.2).2.1)

theorem outsAt2_A (c : Dev nD) (t : Fin cfg2.N) (hz : t.val = 0) (hc0 : cond2_0 (grid2.coords t)) (hc1 : ¬cond2_1 (grid2.coords t)) :
    outsAt2 V c t.val t.isLt = (rd2 [], rd2 [], rd2 (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t)).1, rd2 (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t)).2.1) := by
  obtain ⟨n, hn⟩ := t
  cases n with
  | zero => rfl
  | succ n => exact absurd hz (Nat.succ_ne_zero n)
theorem outsAt2_B (c : Dev nD) (t : Fin cfg2.N) (hz : t.val ≠ 0) (h1 : ¬t.val % 10 = 9) (hc0 : ¬cond2_0 (grid2.coords t)) (hc1 : ¬cond2_1 (grid2.coords t)) :
    outsAt2 V c t.val t.isLt = (rd2 [], rd2 [], rd2 (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.1 (outsAt2 V c (t.val - 1) (Nat.lt_of_le_of_lt (Nat.sub_le _ _) t.isLt)).2.2.2).1, rd2 (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.1 (outsAt2 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt2_C (c : Dev nD) (t : Fin cfg2.N) (hz : t.val ≠ 0) (h1 : t.val % 10 = 9) (hc0 : ¬cond2_0 (grid2.coords t)) (hc1 : cond2_1 (grid2.coords t)) :
    outsAt2 V c t.val t.isLt = (rd2 (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.1 (outsAt2 V c (t.val - 1) (Nat.lt_of_le_of_lt (Nat.sub_le _ _) t.isLt)).2.2.2).1, rd2 (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.1 (outsAt2 V c (t.val - 1) (Nat.lt_of_le_of_lt (Nat.sub_le _ _) t.isLt)).2.2.2).2.1, rd2 (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.1 (outsAt2 V c (t.val - 1) (Nat.lt_of_le_of_lt (Nat.sub_le _ _) t.isLt)).2.2.2).2.2.1, rd2 (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.1 (outsAt2 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest2 (c : Dev nD) : sProp 𝕄 :=
  Pipeline.scopedRestBut (Ix := Unit) (Name := ℕ) (U := UR sig nD τ) (Lvl := ℕ) (Val := Elt F) spec2 c [cc2_scratch0, cc2_scratch1]

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ rest2 c) ∗ (∃ r, prngReg c r))
theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ rest2 c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t.val t.isLt).1
    | ⟨10, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = (outsAt2 V c t.val t.isLt).1 := by dsimp only [dat2]
theorem after2_10 (c : Dev nD) (t : Fin cfg2.N) : (dat2 V c).after 10 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  by_cases hz : t.val = 0
  · have hc0 : cond2_0 (grid2.coords t) := (hcond2_0 t).mpr (by omega)
    have hc1 : ¬cond2_1 (grid2.coords t) := fun h => by have := (hcond2_1 t).mp h; omega
    rw [Dat.leavesExact_idle (dat2 V c) 9 t (idleAt2_9 t hc1) (noFlush2_9 t hc1),
      Dat.leavesExact_idle (dat2 V c) 10 t (idleAt2_10 t hc1) (noFlush2_10 t hc1)]
    rw [outsAt2_A V c t hz hc0 hc1]
    (try dsimp only)
    rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun2_A c (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA2_0 c _ _ _ _ _ _ _ _ _ _ _ _ _ _ _ _ _ _ _ _ _ _ _ _ _ _ _ hc0 hc1 _ _ _ _ _ _ _ _ _)
          · unfold owns; iexists _; isplitr
            swap; · iexact HS1
            ipureintro; exact View.read_writes_of_cover _ _ _ _ _ (scoverA2_1 c _ _ _ _ _ _ _ _ _ _ _ _ _ _ _ _ _ _ _ _ _ _ _ _ _ _ _ hc0 hc1 _ _ _ _ _ _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have hc0 : ¬cond2_0 (grid2.coords t) := fun h => by have := (hcond2_0 t).mp h; omega
    rw [PhiS2_castSucc V c t, PhiS2_pos V c _ _ hz]
    by_cases h1 : t.val % 10 = 9
    · have hc1 : cond2_1 (grid2.coords t) := (hcond2_1 t).mpr h1
      rw [show (dat2 V c).leavesExact 9 t = owns (c : Thread nD τ) (ms2_9 t) fullShare ((dat2 V c).after 9 t) from by
        unfold Dat.leavesExact; rw [liveAt2_9 t hc1], after2_9]
      rw [show (dat2 V c).leavesExact 10 t = owns (c : Thread nD τ) (ms2_10 t) fullShare ((dat2 V c).after 10 t) from by
        unfold Dat.leavesExact; rw [liveAt2_10 t hc1], after2_10]
      rw [outsAt2_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun2_C c (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, ⟨%e1, H9⟩, ⟨%e2, H10⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC2_0 c _ _ _ _ _ _ _ _ _ _ _ _ _ _ _ _ _ _ _ _ _ _ _ _ _ _ _ hc0 hc1 _ _ _ _ _ _ _ _ _ _ _)
            · unfold owns; iexists _; isplitr
              swap; · iexact HS1
              ipureintro; exact View.read_writes_of_cover _ _ _ _ _ (scoverC2_1 c _ _ _ _ _ _ _ _ _ _ _ _ _ _ _ _ _ _ _ _ _ _ _ _ _ _ _ hc0 hc1 _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverC2_1 c _ _ _ _ _ _ _ _ _ _ _ _ _ _ _ _ _ _ _ _ _ _ _ _ _ _ _ hc0 hc1 _ _ _ _ _ _ _ _ _ _ _)
      unfold owns; iexists _; isplitr
      swap; · iexact H10
      ipureintro; exact View.read_writes_of_cover _ _ _ _ _ (coverC2_2 c _ _ _ _ _ _ _ _ _ _ _ _ _ _ _ _ _ _ _ _ _ _ _ _ _ _ _ hc0 hc1 _ _ _ _ _ _ _ _ _ _ _)
    · have hc1 : ¬cond2_1 (grid2.coords t) := fun h => h1 ((hcond2_1 t).mp h)
      rw [Dat.leavesExact_idle (dat2 V c) 9 t (idleAt2_9 t hc1) (noFlush2_9 t hc1),
        Dat.leavesExact_idle (dat2 V c) 10 t (idleAt2_10 t hc1) (noFlush2_10 t hc1)]
      rw [outsAt2_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun2_B c (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB2_0 c _ _ _ _ _ _ _ _ _ _ _ _ _ _ _ _ _ _ _ _ _ _ _ _ _ _ _ hc0 hc1 _ _ _ _ _ _ _ _ _ _ _)
            · unfold owns; iexists _; isplitr
              swap; · iexact HS1
              ipureintro; exact View.read_writes_of_cover _ _ _ _ _ (scoverB2_1 c _ _ _ _ _ _ _ _ _ _ _ _ _ _ _ _ _ _ _ _ _ _ _ _ _ _ _ hc0 hc1 _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega), PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.KernelIdeal.Hand

end
-- ==== Proof.R4A.lean ====
/-
  Pipeline 4 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5 : ∀ t : Fin cfg4.N, cond4_1 (grid4.coords t) → cfg4.idle 5 (grid4.coords t) = false := by decide +kernel
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev scM4_0 : Memref sig .tc .vmem S1x128 .f32 := Memref.whole cc4_scratch0
abbrev scM4_1 : Memref sig .tc .vmem S1x128 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

set_option maxHeartbeats 2000000 in
noncomputable def kernelRun4_A (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .bf16) (x2 : Vec F S1x128 .f32) (x3 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__stage1_kernel i arg1 harg1 arg2 harg2 arg3 harg3 arg4 harg4 arg5 harg5 arg6 harg6 arg7 harg7 arg8 harg8) K } := by
  refine ⟨?_, ?_, fun xi1 xi2 E K => ?run⟩
  case run =>
    simp only [cc4__stage1_kernel_eq_skeleton]; unfold cc4__stage1_kernel_skel
    unfold owns
    iintro ⟨⟨%f0, %hf0, H0⟩, ⟨%f1, %hf1, H1⟩, ⟨%f2, %hf2, H2⟩, ⟨%f3, %hf3, H3⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hfo1; obtain rfl := harg6.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]
    · iexists _; isplitr; · ipureintro; exact harg5.read_unread _
      iexact HO1
    isplitl [HO2]
    · iexists _; isplitr; · ipureintro; exact harg6.read_unread _
      iexact HO2
    isplitl [HS0]; · iexists _; iexact HS0
    iexists _; iexact HS1

set_option maxHeartbeats 2000000 in
noncomputable def kernelRun4_B (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .bf16) (x2 : Vec F S1x128 .f32) (x3 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__stage1_kernel i arg1 harg1 arg2 harg2 arg3 harg3 arg4 harg4 arg5 harg5 arg6 harg6 arg7 harg7 arg8 harg8) K } := by
  refine ⟨?_, ?_, fun xi1 xi2 E K => ?run⟩
  case run =>
    simp only [cc4__stage1_kernel_eq_skeleton]; unfold cc4__stage1_kernel_skel
    unfold owns
    iintro ⟨⟨%f0, %hf0, H0⟩, ⟨%f1, %hf1, H1⟩, ⟨%f2, %hf2, H2⟩, ⟨%f3, %hf3, H3⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfo1; obtain rfl := harg6.eq_unread hfo2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]
    · iexists _; isplitr; · ipureintro; exact harg5.read_unread _
      iexact HO1
    isplitl [HO2]
    · iexists _; isplitr; · ipureintro; exact harg6.read_unread _
      iexact HO2
    isplitl [HS0]; · iexists _; iexact HS0
    iexists _; iexact HS1

set_option maxHeartbeats 2000000 in
noncomputable def kernelRun4_C (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .bf16) (x2 : Vec F S1x128 .f32) (x3 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L1) ∗ (∃ f, arg6.view.loc (c : Thread nD τ) ↦[arg6.view.set]{fullShare} arg6.view.writes (Elt F) f L2) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__stage1_kernel i arg1 harg1 arg2 harg2 arg3 harg3 arg4 harg4 arg5 harg5 arg6 harg6 arg7 harg7 arg8 harg8) K } := by
  refine ⟨?_, ?_, ?_, ?_, fun E K => ?run⟩
  case run =>
    simp only [cc4__stage1_kernel_eq_skeleton]; unfold cc4__stage1_kernel_skel
    unfold owns
    iintro ⟨⟨%f0, %hf0, H0⟩, ⟨%f1, %hf1, H1⟩, ⟨%f2, %hf2, H2⟩, ⟨%f3, %hf3, H3⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]; · iexists _; iexact HO1
    isplitl [HO2]; · iexists _; iexact HO2
    isplitl [HS0]; · iexists _; iexact HS0
    iexists _; iexact HS1

end Cert.KernelIdeal.Hand

end
-- ==== Proof.R4B.lean ====
/-
  Pipeline 4 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R4A
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev VW4 : View sig .tc .vmem S1x128 .f32 := scM4_0.view
def rd4 (L : List (View.Piece (Elt F) S1x128 .f32)) : Vec F S1x128 .f32 := VW4.read (Elt F) (VW4.writes (Elt F) VW4.junk L)

theorem scoverA4_0 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i) (x0 : Vec F S5000x128 .f32) (x1 : Vec F S128x128 .bf16) (x2 : Vec F S1x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 hc0 hc1 x0 x1 x2 x3).1, y ∈ pc.1.set :=
  View.cover_of_tiledL (kernelRun4_A c i arg1 harg1 arg2 harg2 arg3 harg3 arg4 harg4 arg5 harg5 arg6 harg6 arg7 harg7 arg8 harg8 hc0 hc1 x0 x1 x2 x3).1 S1x128.size (by sl_kernel_rfl) y
theorem scoverA4_1 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i) (x0 : Vec F S5000x128 .f32) (x1 : Vec F S128x128 .bf16) (x2 : Vec F S1x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 hc0 hc1 x0 x1 x2 x3).2.1, y ∈ pc.1.set :=
  View.cover_of_tiledL (kernelRun4_A c i arg1 harg1 arg2 harg2 arg3 harg3 arg4 harg4 arg5 harg5 arg6 harg6 arg7 harg7 arg8 harg8 hc0 hc1 x0 x1 x2 x3).2.1 S1x128.size (by sl_kernel_rfl) y
theorem scoverB4_0 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun4_B c i arg1 harg1 arg2 harg2 arg3 harg3 arg4 harg4 arg5 harg5 arg6 harg6 arg7 harg7 arg8 harg8 hc0 hc1 x0 x1 x2 x3 xs0 xs1).1 S1x128.size (by sl_kernel_rfl) y
theorem scoverB4_1 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun4_B c i arg1 harg1 arg2 harg2 arg3 harg3 arg4 harg4 arg5 harg5 arg6 harg6 arg7 harg7 arg8 harg8 hc0 hc1 x0 x1 x2 x3 xs0 xs1).2.1 S1x128.size (by sl_kernel_rfl) y
theorem coverC4_1 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).1 S1x128.size (by sl_kernel_rfl) y
theorem coverC4_2 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).2.1 S1x128.size (by sl_kernel_rfl) y
theorem scoverC4_0 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).2.2.1 S1x128.size (by sl_kernel_rfl) y
theorem scoverC4_1 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).2.2.2.1 S1x128.size (by sl_kernel_rfl) y

theorem c0_zero4 (hn : 0 < cfg4.N) : cond4_0 (grid4.coords ⟨0, hn⟩) := (hcond4_0 ⟨0, hn⟩).mpr (Nat.zero_mod _)
theorem nc1_zero4 (hn : 0 < cfg4.N) : ¬cond4_1 (grid4.coords ⟨0, hn⟩) :=
  fun h => by have := (hcond4_1 ⟨0, hn⟩).mp h; (try dsimp only at this); omega
theorem nc0_succ4 (n : ℕ) (hn : n + 1 < cfg4.N) : ¬cond4_0 (grid4.coords ⟨n + 1, hn⟩) := fun h => by
  have hN : n + 1 < 10 := lt_of_lt_of_eq hn (show cfg4.N = 10 from N_4)
  have := (hcond4_0 ⟨n + 1, hn⟩).mp h; (try dsimp only at this); omega

def outsAt4 (c : Dev nD) : (n : ℕ) → n < cfg4.N → Vec F S1x128 .f32 × Vec F S1x128 .f32 × Vec F S1x128 .f32 × Vec F S1x128 .f32
  | 0, hn => (rd4 [], rd4 [], rd4 (kernelRun4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) (c0_zero4 hn) (nc1_zero4 hn) (iblk4 V c 0 ⟨0, hn⟩) (iblk4 V c 1 ⟨0, hn⟩) (iblk4 V c 2 ⟨0, hn⟩) (iblk4 V c 3 ⟨0, hn⟩)).1, rd4 (kernelRun4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) (c0_zero4 hn) (nc1_zero4 hn) (iblk4 V c 0 ⟨0, hn⟩) (iblk4 V c 1 ⟨0, hn⟩) (iblk4 V c 2 ⟨0, hn⟩) (iblk4 V c 3 ⟨0, hn⟩)).2.1)
  | n + 1, hn =>
    if h1 : (n + 1) % 10 = 9 then
      (rd4 (kernelRun4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (nc0_succ4 n hn) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2).1, rd4 (kernelRun4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (nc0_succ4 n hn) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2).2.1, rd4 (kernelRun4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (nc0_succ4 n hn) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2).2.2.1, rd4 (kernelRun4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (nc0_succ4 n hn) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2).2.2.2.1)
    else
      (rd4 [], rd4 [], rd4 (kernelRun4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (nc0_succ4 n hn) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2).1, rd4 (kernelRun4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (nc0_succ4 n hn) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2).2.1)

theorem outsAt4_A (c : Dev nD) (t : Fin cfg4.N) (hz : t.val = 0) (hc0 : cond4_0 (grid4.coords t)) (hc1 : ¬cond4_1 (grid4.coords t)) :
    outsAt4 V c t.val t.isLt = (rd4 [], rd4 [], rd4 (kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t)).1, rd4 (kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t)).2.1) := by
  obtain ⟨n, hn⟩ := t
  cases n with
  | zero => rfl
  | succ n => exact absurd hz (Nat.succ_ne_zero n)
theorem outsAt4_B (c : Dev nD) (t : Fin cfg4.N) (hz : t.val ≠ 0) (h1 : ¬t.val % 10 = 9) (hc0 : ¬cond4_0 (grid4.coords t)) (hc1 : ¬cond4_1 (grid4.coords t)) :
    outsAt4 V c t.val t.isLt = (rd4 [], rd4 [], rd4 (kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2).1, rd4 (kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt4_C (c : Dev nD) (t : Fin cfg4.N) (hz : t.val ≠ 0) (h1 : t.val % 10 = 9) (hc0 : ¬cond4_0 (grid4.coords t)) (hc1 : cond4_1 (grid4.coords t)) :
    outsAt4 V c t.val t.isLt = (rd4 (kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2).1, rd4 (kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2).2.1, rd4 (kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2).2.2.1, rd4 (kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest4 (c : Dev nD) : sProp 𝕄 :=
  Pipeline.scopedRestBut (Ix := Unit) (Name := ℕ) (U := UR sig nD τ) (Lvl := ℕ) (Val := Elt F) spec4 c [cc4_scratch0, cc4_scratch1]

def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2)) ∗ rest4 c) ∗ (∃ r, prngReg c r))
theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2)) ∗ rest4 c) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2)) ∗ rest4 c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  by_cases hz : t.val = 0
  · have hc0 : cond4_0 (grid4.coords t) := (hcond4_0 t).mpr (by omega)
    have hc1 : ¬cond4_1 (grid4.coords t) := fun h => by have := (hcond4_1 t).mp h; omega
    rw [Dat.leavesExact_idle (dat4 V c) 4 t (idleAt4_4 t hc1) (noFlush4_4 t hc1),
      Dat.leavesExact_idle (dat4 V c) 5 t (idleAt4_5 t hc1) (noFlush4_5 t hc1)]
    rw [outsAt4_A V c t hz hc0 hc1]
    (try dsimp only)
    rw [PhiS4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun4_A c (grid4.coords t) _ _ _ _ _ _ _ _ _ _ _ _ _ _ _ _ hc0 hc1 (iblk4 V c 0 t) (iblk4 V c 1 t) (iblk4 V c 2 t) (iblk4 V c 3 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA4_0 c _ _ _ _ _ _ _ _ _ _ _ _ _ _ _ _ _ hc0 hc1 _ _ _ _)
          · unfold owns; iexists _; isplitr
            swap; · iexact HS1
            ipureintro; exact View.read_writes_of_cover _ _ _ _ _ (scoverA4_1 c _ _ _ _ _ _ _ _ _ _ _ _ _ _ _ _ _ hc0 hc1 _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hc0 : ¬cond4_0 (grid4.coords t) := fun h => by have := (hcond4_0 t).mp h; omega
    rw [PhiS4_castSucc V c t, PhiS4_pos V c _ _ hz]
    by_cases h1 : t.val % 10 = 9
    · have hc1 : cond4_1 (grid4.coords t) := (hcond4_1 t).mpr h1
      rw [show (dat4 V c).leavesExact 4 t = owns (c : Thread nD τ) (ms4_4 t) fullShare ((dat4 V c).after 4 t) from by
        unfold Dat.leavesExact; rw [liveAt4_4 t hc1], after4_4]
      rw [show (dat4 V c).leavesExact 5 t = owns (c : Thread nD τ) (ms4_5 t) fullShare ((dat4 V c).after 5 t) from by
        unfold Dat.leavesExact; rw [liveAt4_5 t hc1], after4_5]
      rw [outsAt4_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun4_C c (grid4.coords t) _ _ _ _ _ _ _ _ _ _ _ _ _ _ _ _ hc0 hc1 (iblk4 V c 0 t) (iblk4 V c 1 t) (iblk4 V c 2 t) (iblk4 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e1, H4⟩, ⟨%e2, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC4_0 c _ _ _ _ _ _ _ _ _ _ _ _ _ _ _ _ _ hc0 hc1 _ _ _ _ _ _)
            · unfold owns; iexists _; isplitr
              swap; · iexact HS1
              ipureintro; exact View.read_writes_of_cover _ _ _ _ _ (scoverC4_1 c _ _ _ _ _ _ _ _ _ _ _ _ _ _ _ _ _ hc0 hc1 _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC4_1 c _ _ _ _ _ _ _ _ _ _ _ _ _ _ _ _ _ hc0 hc1 _ _ _ _ _ _)
      unfold owns; iexists _; isplitr
      swap; · iexact H5
      ipureintro; exact View.read_writes_of_cover _ _ _ _ _ (coverC4_2 c _ _ _ _ _ _ _ _ _ _ _ _ _ _ _ _ _ hc0 hc1 _ _ _ _ _ _)
    · have hc1 : ¬cond4_1 (grid4.coords t) := fun h => h1 ((hcond4_1 t).mp h)
      rw [Dat.leavesExact_idle (dat4 V c) 4 t (idleAt4_4 t hc1) (noFlush4_4 t hc1),
        Dat.leavesExact_idle (dat4 V c) 5 t (idleAt4_5 t hc1) (noFlush4_5 t hc1)]
      rw [outsAt4_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun4_B c (grid4.coords t) _ _ _ _ _ _ _ _ _ _ _ _ _ _ _ _ hc0 hc1 (iblk4 V c 0 t) (iblk4 V c 1 t) (iblk4 V c 2 t) (iblk4 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB4_0 c _ _ _ _ _ _ _ _ _ _ _ _ _ _ _ _ _ hc0 hc1 _ _ _ _ _ _)
            · unfold owns; iexists _; isplitr
              swap; · iexact HS1
              ipureintro; exact View.read_writes_of_cover _ _ _ _ _ (scoverB4_1 c _ _ _ _ _ _ _ _ _ _ _ _ _ _ _ _ _ hc0 hc1 _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.KernelIdeal.Hand

end
-- ==== Proof.R5A.lean ====
/-
  Pipeline 5 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val % 10 = 0 :=
  (by decide +kernel : ∀ t : Fin grid5.N, cond5_0 (grid5.coords t) ↔ t.val % 10 = 0)
abbrev cond5_1 (i : grid5.Coords) : Prop := k5_cond2 i = 1#1
theorem hcond5_1 : ∀ t : Fin cfg5.N, cond5_1 (grid5.coords t) ↔ t.val % 10 = 9 :=
  (by decide +kernel : ∀ t : Fin grid5.N, cond5_1 (grid5.coords t) ↔ t.val % 10 = 9)
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel
theorem liveAt5_5 : ∀ t : Fin cfg5.N, cfg5.idle 5 (grid5.coords t) = false := by decide +kernel
theorem liveAt5_6 : ∀ t : Fin cfg5.N, cfg5.idle 6 (grid5.coords t) = false := by decide +kernel
theorem idleAt5_7 : ∀ t : Fin cfg5.N, ¬cond5_1 (grid5.coords t) → cfg5.idle 7 (grid5.coords t) = true := by decide +kernel
theorem noFlush5_7 : ∀ t : Fin cfg5.N, ¬cond5_1 (grid5.coords t) → (cfg5.win 7).flush t = false := by decide +kernel
theorem liveAt5_7 : ∀ t : Fin cfg5.N, cond5_1 (grid5.coords t) → cfg5.idle 7 (grid5.coords t) = false := by decide +kernel
theorem idleAt5_8 : ∀ t : Fin cfg5.N, ¬cond5_1 (grid5.coords t) → cfg5.idle 8 (grid5.coords t) = true := by decide +kernel
theorem noFlush5_8 : ∀ t : Fin cfg5.N, ¬cond5_1 (grid5.coords t) → (cfg5.win 8).flush t = false := by decide +kernel
theorem liveAt5_8 : ∀ t : Fin cfg5.N, cond5_1 (grid5.coords t) → cfg5.idle 8 (grid5.coords t) = false := by decide +kernel
abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S128x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x128 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S1x128 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S1x128 .f32 := win5_8.stage (cfg5.slots t 8)
abbrev hs5_8 (t : Fin cfg5.N) : (ms5_8 t).IsWhole := hstage5_8 ((cfg5.slots t 8).cast nbuf5_8)
abbrev scM5_0 : Memref sig .tc .vmem S1x128 .f32 := Memref.whole cc5_scratch0
abbrev scM5_1 : Memref sig .tc .vmem S1x128 .f32 := Memref.whole cc5_scratch1

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

set_option maxHeartbeats 2000000 in
noncomputable def kernelRun5_A (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond5_0 i) (hc1 : ¬cond5_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc5__stage2_kernel i arg1 harg1 arg2 harg2 arg3 harg3 arg4 harg4 arg5 harg5 arg6 harg6 arg7 harg7 arg8 harg8 arg9 harg9 arg10 harg10 arg11 harg11) K } := by
  refine ⟨?_, ?_, fun xi1 xi2 E K => ?run⟩
  case run =>
    simp only [cc5__stage2_kernel_eq_skeleton]; unfold cc5__stage2_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfo1; obtain rfl := harg9.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]
    · iexists _; isplitr; · ipureintro; exact harg8.read_unread _
      iexact HO1
    isplitl [HO2]
    · iexists _; isplitr; · ipureintro; exact harg9.read_unread _
      iexact HO2
    isplitl [HS0]; · iexists _; iexact HS0
    iexists _; iexact HS1

set_option maxHeartbeats 2000000 in
noncomputable def kernelRun5_B (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : ¬cond5_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc5__stage2_kernel i arg1 harg1 arg2 harg2 arg3 harg3 arg4 harg4 arg5 harg5 arg6 harg6 arg7 harg7 arg8 harg8 arg9 harg9 arg10 harg10 arg11 harg11) K } := by
  refine ⟨?_, ?_, fun xi1 xi2 E K => ?run⟩
  case run =>
    simp only [cc5__stage2_kernel_eq_skeleton]; unfold cc5__stage2_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfo1; obtain rfl := harg9.eq_unread hfo2; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]
    · iexists _; isplitr; · ipureintro; exact harg8.read_unread _
      iexact HO1
    isplitl [HO2]
    · iexists _; isplitr; · ipureintro; exact harg9.read_unread _
      iexact HO2
    isplitl [HS0]; · iexists _; iexact HS0
    iexists _; iexact HS1

set_option maxHeartbeats 2000000 in
noncomputable def kernelRun5_C (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : cond5_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc5__stage2_kernel i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc5__stage2_kernel_eq_skeleton]; unfold cc5__stage2_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]; · iexists _; iexact HO1
    isplitl [HO2]; · iexists _; iexact HO2
    isplitl [HS0]; · iexists _; iexact HS0
    iexists _; iexact HS1

end Cert.KernelIdeal.Hand

end
-- ==== Proof.R5B.lean ====
/-
  Pipeline 5 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R5A
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev VW5 : View sig .tc .vmem S1x128 .f32 := scM5_0.view
def rd5 (L : List (View.Piece (Elt F) S1x128 .f32)) : Vec F S1x128 .f32 := VW5.read (Elt F) (VW5.writes (Elt F) VW5.junk L)

theorem scoverA5_0 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond5_0 i) (hc1 : ¬cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (y : S1x128.Idx) :
    ∃ pc ∈ (kernelRun5_A c i arg1 harg1 arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 hc0 hc1 x0 x1 x2 x3 x4 x5 x6).1 S1x128.size (by sl_kernel_rfl) y
theorem scoverA5_1 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond5_0 i) (hc1 : ¬cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (y : S1x128.Idx) :
    ∃ pc ∈ (kernelRun5_A c i arg1 harg1 arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 hc0 hc1 x0 x1 x2 x3 x4 x5 x6).2.1 S1x128.size (by sl_kernel_rfl) y
theorem scoverB5_0 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : ¬cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun5_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 S1x128.size (by sl_kernel_rfl) y
theorem scoverB5_1 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : ¬cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun5_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 S1x128.size (by sl_kernel_rfl) y
theorem coverC5_1 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 S1x128.size (by sl_kernel_rfl) y
theorem coverC5_2 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 S1x128.size (by sl_kernel_rfl) y
theorem scoverC5_0 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.1 S1x128.size (by sl_kernel_rfl) y
theorem scoverC5_1 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.2.1 S1x128.size (by sl_kernel_rfl) y

theorem c0_zero5 (hn : 0 < cfg5.N) : cond5_0 (grid5.coords ⟨0, hn⟩) := (hcond5_0 ⟨0, hn⟩).mpr (Nat.zero_mod _)
theorem nc1_zero5 (hn : 0 < cfg5.N) : ¬cond5_1 (grid5.coords ⟨0, hn⟩) :=
  fun h => by have := (hcond5_1 ⟨0, hn⟩).mp h; (try dsimp only at this); omega
theorem nc0_succ5 (n : ℕ) (hn : n + 1 < cfg5.N) : ¬cond5_0 (grid5.coords ⟨n + 1, hn⟩) := fun h => by
  have hN : n + 1 < 10 := lt_of_lt_of_eq hn (show cfg5.N = 10 from N_5)
  have := (hcond5_0 ⟨n + 1, hn⟩).mp h; (try dsimp only at this); omega

def outsAt5 (c : Dev nD) : (n : ℕ) → n < cfg5.N → Vec F S1x128 .f32 × Vec F S1x128 .f32 × Vec F S1x128 .f32 × Vec F S1x128 .f32
  | 0, hn => (rd5 [], rd5 [], rd5 (kernelRun5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) scM5_0 (Memref.isWhole_whole _) scM5_1 (Memref.isWhole_whole _) (c0_zero5 hn) (nc1_zero5 hn) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩)).1, rd5 (kernelRun5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) scM5_0 (Memref.isWhole_whole _) scM5_1 (Memref.isWhole_whole _) (c0_zero5 hn) (nc1_zero5 hn) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩)).2.1)
  | n + 1, hn =>
    if h1 : (n + 1) % 10 = 9 then
      (rd5 (kernelRun5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) scM5_0 (Memref.isWhole_whole _) scM5_1 (Memref.isWhole_whole _) (nc0_succ5 n hn) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.2.1 (outsAt5 c n (Nat.lt_of_succ_lt hn)).2.2.2).1, rd5 (kernelRun5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) scM5_0 (Memref.isWhole_whole _) scM5_1 (Memref.isWhole_whole _) (nc0_succ5 n hn) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.2.1 (outsAt5 c n (Nat.lt_of_succ_lt hn)).2.2.2).2.1, rd5 (kernelRun5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) scM5_0 (Memref.isWhole_whole _) scM5_1 (Memref.isWhole_whole _) (nc0_succ5 n hn) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.2.1 (outsAt5 c n (Nat.lt_of_succ_lt hn)).2.2.2).2.2.1, rd5 (kernelRun5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) scM5_0 (Memref.isWhole_whole _) scM5_1 (Memref.isWhole_whole _) (nc0_succ5 n hn) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.2.1 (outsAt5 c n (Nat.lt_of_succ_lt hn)).2.2.2).2.2.2.1)
    else
      (rd5 [], rd5 [], rd5 (kernelRun5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) scM5_0 (Memref.isWhole_whole _) scM5_1 (Memref.isWhole_whole _) (nc0_succ5 n hn) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.2.1 (outsAt5 c n (Nat.lt_of_succ_lt hn)).2.2.2).1, rd5 (kernelRun5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) scM5_0 (Memref.isWhole_whole _) scM5_1 (Memref.isWhole_whole _) (nc0_succ5 n hn) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.2.1 (outsAt5 c n (Nat.lt_of_succ_lt hn)).2.2.2).2.1)

theorem outsAt5_A (c : Dev nD) (t : Fin cfg5.N) (hz : t.val = 0) (hc0 : cond5_0 (grid5.coords t)) (hc1 : ¬cond5_1 (grid5.coords t)) :
    outsAt5 V c t.val t.isLt = (rd5 [], rd5 [], rd5 (kernelRun5_A c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t)).1, rd5 (kernelRun5_A c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t)).2.1) := by
  obtain ⟨n, hn⟩ := t
  cases n with
  | zero => rfl
  | succ n => exact absurd hz (Nat.succ_ne_zero n)
theorem outsAt5_B (c : Dev nD) (t : Fin cfg5.N) (hz : t.val ≠ 0) (h1 : ¬t.val % 10 = 9) (hc0 : ¬cond5_0 (grid5.coords t)) (hc1 : ¬cond5_1 (grid5.coords t)) :
    outsAt5 V c t.val t.isLt = (rd5 [], rd5 [], rd5 (kernelRun5_B c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.2.1 (outsAt5 V c (t.val - 1) (Nat.lt_of_le_of_lt (Nat.sub_le _ _) t.isLt)).2.2.2).1, rd5 (kernelRun5_B c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.2.1 (outsAt5 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt5_C (c : Dev nD) (t : Fin cfg5.N) (hz : t.val ≠ 0) (h1 : t.val % 10 = 9) (hc0 : ¬cond5_0 (grid5.coords t)) (hc1 : cond5_1 (grid5.coords t)) :
    outsAt5 V c t.val t.isLt = (rd5 (kernelRun5_C c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.2.1 (outsAt5 V c (t.val - 1) (Nat.lt_of_le_of_lt (Nat.sub_le _ _) t.isLt)).2.2.2).1, rd5 (kernelRun5_C c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.2.1 (outsAt5 V c (t.val - 1) (Nat.lt_of_le_of_lt (Nat.sub_le _ _) t.isLt)).2.2.2).2.1, rd5 (kernelRun5_C c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.2.1 (outsAt5 V c (t.val - 1) (Nat.lt_of_le_of_lt (Nat.sub_le _ _) t.isLt)).2.2.2).2.2.1, rd5 (kernelRun5_C c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.2.1 (outsAt5 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest5 (c : Dev nD) : sProp 𝕄 :=
  Pipeline.scopedRestBut (Ix := Unit) (Name := ℕ) (U := UR sig nD τ) (Lvl := ℕ) (Val := Elt F) spec5 c [cc5_scratch0, cc5_scratch1]

def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2.1) ∗ owns (c : Thread nD τ) scM5_1 fullShare ((outsAt5 V c n hn).2.2.2)) ∗ rest5 c) ∗ (∃ r, prngReg c r))
theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(iprop(owns (c : Thread nD τ) scM5_0 fullShare ((outsAt5 V c n hn).2.2.1) ∗ owns (c : Thread nD τ) scM5_1 fullShare ((outsAt5 V c n hn).2.2.2)) ∗ rest5 c) ∗ (∃ r, prngReg c r)) := rfl
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.2.1) ∗ owns (c : Thread nD τ) scM5_1 fullShare ((outsAt5 V c (n - 1) (by omega)).2.2.2)) ∗ rest5 c) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => (outsAt5 V c t.val t.isLt).1
    | ⟨8, _⟩ => (outsAt5 V c t.val t.isLt).2.1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = (outsAt5 V c t.val t.isLt).1 := by dsimp only [dat5]
theorem after5_8 (c : Dev nD) (t : Fin cfg5.N) : (dat5 V c).after 8 t = (outsAt5 V c t.val t.isLt).2.1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t)

set_option maxHeartbeats 8000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [show (dat5 V c).leavesExact 5 t = owns (c : Thread nD τ) (ms5_5 t) fullShare ((dat5 V c).after 5 t) from by
    unfold Dat.leavesExact; rw [liveAt5_5 t], after5_5]
  rw [show (dat5 V c).leavesExact 6 t = owns (c : Thread nD τ) (ms5_6 t) fullShare ((dat5 V c).after 6 t) from by
    unfold Dat.leavesExact; rw [liveAt5_6 t], after5_6]
  by_cases hz : t.val = 0
  · have hc0 : cond5_0 (grid5.coords t) := (hcond5_0 t).mpr (by omega)
    have hc1 : ¬cond5_1 (grid5.coords t) := fun h => by have := (hcond5_1 t).mp h; omega
    rw [Dat.leavesExact_idle (dat5 V c) 7 t (idleAt5_7 t hc1) (noFlush5_7 t hc1),
      Dat.leavesExact_idle (dat5 V c) 8 t (idleAt5_8 t hc1) (noFlush5_8 t hc1)]
    rw [outsAt5_A V c t hz hc0 hc1]
    (try dsimp only)
    rw [PhiS5_castSucc V c t, PhiS5_zero V c _ _ hz, PhiA5_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun5_A c (grid5.coords t) _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA5_0 c _ _ _ _ _ _ _ _ _ _ _ _ _ _ _ _ _ _ _ _ _ _ _ hc0 hc1 _ _ _ _ _ _ _)
          · unfold owns; iexists _; isplitr
            swap; · iexact HS1
            ipureintro; exact View.read_writes_of_cover _ _ _ _ _ (scoverA5_1 c _ _ _ _ _ _ _ _ _ _ _ _ _ _ _ _ _ _ _ _ _ _ _ hc0 hc1 _ _ _ _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · have hc0 : ¬cond5_0 (grid5.coords t) := fun h => by have := (hcond5_0 t).mp h; omega
    rw [PhiS5_castSucc V c t, PhiS5_pos V c _ _ hz]
    by_cases h1 : t.val % 10 = 9
    · have hc1 : cond5_1 (grid5.coords t) := (hcond5_1 t).mpr h1
      rw [show (dat5 V c).leavesExact 7 t = owns (c : Thread nD τ) (ms5_7 t) fullShare ((dat5 V c).after 7 t) from by
        unfold Dat.leavesExact; rw [liveAt5_7 t hc1], after5_7]
      rw [show (dat5 V c).leavesExact 8 t = owns (c : Thread nD τ) (ms5_8 t) fullShare ((dat5 V c).after 8 t) from by
        unfold Dat.leavesExact; rw [liveAt5_8 t hc1], after5_8]
      rw [outsAt5_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun5_C c (grid5.coords t) _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, ⟨%e1, H7⟩, ⟨%e2, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC5_0 c _ _ _ _ _ _ _ _ _ _ _ _ _ _ _ _ _ _ _ _ _ _ _ hc0 hc1 _ _ _ _ _ _ _ _ _)
            · unfold owns; iexists _; isplitr
              swap; · iexact HS1
              ipureintro; exact View.read_writes_of_cover _ _ _ _ _ (scoverC5_1 c _ _ _ _ _ _ _ _ _ _ _ _ _ _ _ _ _ _ _ _ _ _ _ hc0 hc1 _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverC5_1 c _ _ _ _ _ _ _ _ _ _ _ _ _ _ _ _ _ _ _ _ _ _ _ hc0 hc1 _ _ _ _ _ _ _ _ _)
      unfold owns; iexists _; isplitr
      swap; · iexact H8
      ipureintro; exact View.read_writes_of_cover _ _ _ _ _ (coverC5_2 c _ _ _ _ _ _ _ _ _ _ _ _ _ _ _ _ _ _ _ _ _ _ _ hc0 hc1 _ _ _ _ _ _ _ _ _)
    · have hc1 : ¬cond5_1 (grid5.coords t) := fun h => h1 ((hcond5_1 t).mp h)
      rw [Dat.leavesExact_idle (dat5 V c) 7 t (idleAt5_7 t hc1) (noFlush5_7 t hc1),
        Dat.leavesExact_idle (dat5 V c) 8 t (idleAt5_8 t hc1) (noFlush5_8 t hc1)]
      rw [outsAt5_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun5_B c (grid5.coords t) _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB5_0 c _ _ _ _ _ _ _ _ _ _ _ _ _ _ _ _ _ _ _ _ _ _ _ hc0 hc1 _ _ _ _ _ _ _ _ _)
            · unfold owns; iexists _; isplitr
              swap; · iexact HS1
              ipureintro; exact View.read_writes_of_cover _ _ _ _ _ (scoverB5_1 c _ _ _ _ _ _ _ _ _ _ _ _ _ _ _ _ _ _ _ _ _ _ _ hc0 hc1 _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 10 := N_5; omega), PhiA5_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.KernelIdeal.Hand

end
-- ==== Proof.R6A.lean ====
/-
  Pipeline 6 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 10 = 0 :=
  (by decide +kernel : ∀ t : Fin grid6.N, cond6_0 (grid6.coords t) ↔ t.val % 10 = 0)
abbrev cond6_1 (i : grid6.Coords) : Prop := k6_cond2 i = 1#1
theorem hcond6_1 : ∀ t : Fin cfg6.N, cond6_1 (grid6.coords t) ↔ t.val % 10 = 9 :=
  (by decide +kernel : ∀ t : Fin grid6.N, cond6_1 (grid6.coords t) ↔ t.val % 10 = 9)
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem liveAt6_5 : ∀ t : Fin cfg6.N, cfg6.idle 5 (grid6.coords t) = false := by decide +kernel
theorem liveAt6_6 : ∀ t : Fin cfg6.N, cfg6.idle 6 (grid6.coords t) = false := by decide +kernel
theorem liveAt6_7 : ∀ t : Fin cfg6.N, cfg6.idle 7 (grid6.coords t) = false := by decide +kernel
theorem liveAt6_8 : ∀ t : Fin cfg6.N, cfg6.idle 8 (grid6.coords t) = false := by decide +kernel
theorem idleAt6_9 : ∀ t : Fin cfg6.N, ¬cond6_1 (grid6.coords t) → cfg6.idle 9 (grid6.coords t) = true := by decide +kernel
theorem noFlush6_9 : ∀ t : Fin cfg6.N, ¬cond6_1 (grid6.coords t) → (cfg6.win 9).flush t = false := by decide +kernel
theorem liveAt6_9 : ∀ t : Fin cfg6.N, cond6_1 (grid6.coords t) → cfg6.idle 9 (grid6.coords t) = false := by decide +kernel
theorem idleAt6_10 : ∀ t : Fin cfg6.N, ¬cond6_1 (grid6.coords t) → cfg6.idle 10 (grid6.coords t) = true := by decide +kernel
theorem noFlush6_10 : ∀ t : Fin cfg6.N, ¬cond6_1 (grid6.coords t) → (cfg6.win 10).flush t = false := by decide +kernel
theorem liveAt6_10 : ∀ t : Fin cfg6.N, cond6_1 (grid6.coords t) → cfg6.idle 10 (grid6.coords t) = false := by decide +kernel
abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x128 .bf16 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1x128 .f32 := win6_8.stage (cfg6.slots t 8)
abbrev hs6_8 (t : Fin cfg6.N) : (ms6_8 t).IsWhole := hstage6_8 ((cfg6.slots t 8).cast nbuf6_8)
abbrev ms6_9 (t : Fin cfg6.N) : Memref sig .tc .vmem S1x128 .f32 := win6_9.stage (cfg6.slots t 9)
abbrev hs6_9 (t : Fin cfg6.N) : (ms6_9 t).IsWhole := hstage6_9 ((cfg6.slots t 9).cast nbuf6_9)
abbrev ms6_10 (t : Fin cfg6.N) : Memref sig .tc .vmem S1x128 .f32 := win6_10.stage (cfg6.slots t 10)
abbrev hs6_10 (t : Fin cfg6.N) : (ms6_10 t).IsWhole := hstage6_10 ((cfg6.slots t 10).cast nbuf6_10)
abbrev scM6_0 : Memref sig .tc .vmem S1x128 .f32 := Memref.whole cc6_scratch0
abbrev scM6_1 : Memref sig .tc .vmem S1x128 .f32 := Memref.whole cc6_scratch1

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

set_option maxHeartbeats 2000000 in
noncomputable def kernelRun6_A (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond6_0 i) (hc1 : ¬cond6_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc6__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi1 xi2 E K => ?run⟩
  case run =>
    simp only [cc6__stage3_kernel_eq_skeleton]; unfold cc6__stage3_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg10.eq_unread hfo1; obtain rfl := harg11.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]
    · iexists _; isplitr; · ipureintro; exact harg10.read_unread _
      iexact HO1
    isplitl [HO2]
    · iexists _; isplitr; · ipureintro; exact harg11.read_unread _
      iexact HO2
    isplitl [HS0]; · iexists _; iexact HS0
    iexists _; iexact HS1

set_option maxHeartbeats 2000000 in
noncomputable def kernelRun6_B (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : ¬cond6_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc6__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi1 xi2 E K => ?run⟩
  case run =>
    simp only [cc6__stage3_kernel_eq_skeleton]; unfold cc6__stage3_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg10.eq_unread hfo1; obtain rfl := harg11.eq_unread hfo2; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]
    · iexists _; isplitr; · ipureintro; exact harg10.read_unread _
      iexact HO1
    isplitl [HO2]
    · iexists _; isplitr; · ipureintro; exact harg11.read_unread _
      iexact HO2
    isplitl [HS0]; · iexists _; iexact HS0
    iexists _; iexact HS1

set_option maxHeartbeats 2000000 in
noncomputable def kernelRun6_C (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : cond6_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc6__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc6__stage3_kernel_eq_skeleton]; unfold cc6__stage3_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]; · iexists _; iexact HO1
    isplitl [HO2]; · iexists _; iexact HO2
    isplitl [HS0]; · iexists _; iexact HS0
    iexists _; iexact HS1

end Cert.KernelIdeal.Hand

end
-- ==== Proof.R6B.lean ====
/-
  Pipeline 6 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R6A
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev VW6 : View sig .tc .vmem S1x128 .f32 := scM6_0.view
def rd6 (L : List (View.Piece (Elt F) S1x128 .f32)) : Vec F S1x128 .f32 := VW6.read (Elt F) (VW6.writes (Elt F) VW6.junk L)

theorem scoverA6_0 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond6_0 i) (hc1 : ¬cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 S1x128.size (by sl_kernel_rfl) y
theorem scoverA6_1 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond6_0 i) (hc1 : ¬cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 S1x128.size (by sl_kernel_rfl) y
theorem scoverB6_0 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : ¬cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 S1x128.size (by sl_kernel_rfl) y
theorem scoverB6_1 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : ¬cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 S1x128.size (by sl_kernel_rfl) y
theorem coverC6_1 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 S1x128.size (by sl_kernel_rfl) y
theorem coverC6_2 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 S1x128.size (by sl_kernel_rfl) y
theorem scoverC6_0 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1 S1x128.size (by sl_kernel_rfl) y
theorem scoverC6_1 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1 S1x128.size (by sl_kernel_rfl) y

theorem c0_zero6 (hn : 0 < cfg6.N) : cond6_0 (grid6.coords ⟨0, hn⟩) := (hcond6_0 ⟨0, hn⟩).mpr (Nat.zero_mod _)
theorem nc1_zero6 (hn : 0 < cfg6.N) : ¬cond6_1 (grid6.coords ⟨0, hn⟩) :=
  fun h => by have := (hcond6_1 ⟨0, hn⟩).mp h; (try dsimp only at this); omega
theorem nc0_succ6 (n : ℕ) (hn : n + 1 < cfg6.N) : ¬cond6_0 (grid6.coords ⟨n + 1, hn⟩) := fun h => by
  have hN : n + 1 < 10 := lt_of_lt_of_eq hn (show cfg6.N = 10 from N_6)
  have := (hcond6_0 ⟨n + 1, hn⟩).mp h; (try dsimp only at this); omega

def outsAt6 (c : Dev nD) : (n : ℕ) → n < cfg6.N → Vec F S1x128 .f32 × Vec F S1x128 .f32 × Vec F S1x128 .f32 × Vec F S1x128 .f32
  | 0, hn => (rd6 [], rd6 [], rd6 (kernelRun6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) (ms6_9 ⟨0, hn⟩) (hs6_9 ⟨0, hn⟩) (ms6_10 ⟨0, hn⟩) (hs6_10 ⟨0, hn⟩) scM6_0 (Memref.isWhole_whole _) scM6_1 (Memref.isWhole_whole _) (c0_zero6 hn) (nc1_zero6 hn) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (iblk6 V c 6 ⟨0, hn⟩) (iblk6 V c 7 ⟨0, hn⟩) (iblk6 V c 8 ⟨0, hn⟩)).1, rd6 (kernelRun6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) (ms6_9 ⟨0, hn⟩) (hs6_9 ⟨0, hn⟩) (ms6_10 ⟨0, hn⟩) (hs6_10 ⟨0, hn⟩) scM6_0 (Memref.isWhole_whole _) scM6_1 (Memref.isWhole_whole _) (c0_zero6 hn) (nc1_zero6 hn) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (iblk6 V c 6 ⟨0, hn⟩) (iblk6 V c 7 ⟨0, hn⟩) (iblk6 V c 8 ⟨0, hn⟩)).2.1)
  | n + 1, hn =>
    if h1 : (n + 1) % 10 = 9 then
      (rd6 (kernelRun6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6_0 (Memref.isWhole_whole _) scM6_1 (Memref.isWhole_whole _) (nc0_succ6 n hn) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (outsAt6 c n (Nat.lt_of_succ_lt hn)).2.2.1 (outsAt6 c n (Nat.lt_of_succ_lt hn)).2.2.2).1, rd6 (kernelRun6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6_0 (Memref.isWhole_whole _) scM6_1 (Memref.isWhole_whole _) (nc0_succ6 n hn) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (outsAt6 c n (Nat.lt_of_succ_lt hn)).2.2.1 (outsAt6 c n (Nat.lt_of_succ_lt hn)).2.2.2).2.1, rd6 (kernelRun6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6_0 (Memref.isWhole_whole _) scM6_1 (Memref.isWhole_whole _) (nc0_succ6 n hn) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (outsAt6 c n (Nat.lt_of_succ_lt hn)).2.2.1 (outsAt6 c n (Nat.lt_of_succ_lt hn)).2.2.2).2.2.1, rd6 (kernelRun6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6_0 (Memref.isWhole_whole _) scM6_1 (Memref.isWhole_whole _) (nc0_succ6 n hn) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (outsAt6 c n (Nat.lt_of_succ_lt hn)).2.2.1 (outsAt6 c n (Nat.lt_of_succ_lt hn)).2.2.2).2.2.2.1)
    else
      (rd6 [], rd6 [], rd6 (kernelRun6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6_0 (Memref.isWhole_whole _) scM6_1 (Memref.isWhole_whole _) (nc0_succ6 n hn) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (outsAt6 c n (Nat.lt_of_succ_lt hn)).2.2.1 (outsAt6 c n (Nat.lt_of_succ_lt hn)).2.2.2).1, rd6 (kernelRun6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6_0 (Memref.isWhole_whole _) scM6_1 (Memref.isWhole_whole _) (nc0_succ6 n hn) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (outsAt6 c n (Nat.lt_of_succ_lt hn)).2.2.1 (outsAt6 c n (Nat.lt_of_succ_lt hn)).2.2.2).2.1)

theorem outsAt6_A (c : Dev nD) (t : Fin cfg6.N) (hz : t.val = 0) (hc0 : cond6_0 (grid6.coords t)) (hc1 : ¬cond6_1 (grid6.coords t)) :
    outsAt6 V c t.val t.isLt = (rd6 [], rd6 [], rd6 (kernelRun6_A c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t)).1, rd6 (kernelRun6_A c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t)).2.1) := by
  obtain ⟨n, hn⟩ := t
  cases n with
  | zero => rfl
  | succ n => exact absurd hz (Nat.succ_ne_zero n)
theorem outsAt6_B (c : Dev nD) (t : Fin cfg6.N) (hz : t.val ≠ 0) (h1 : ¬t.val % 10 = 9) (hc0 : ¬cond6_0 (grid6.coords t)) (hc1 : ¬cond6_1 (grid6.coords t)) :
    outsAt6 V c t.val t.isLt = (rd6 [], rd6 [], rd6 (kernelRun6_B c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (outsAt6 V c (t.val - 1) (Nat.lt_of_le_of_lt (Nat.sub_le _ _) t.isLt)).2.2.1 (outsAt6 V c (t.val - 1) (Nat.lt_of_le_of_lt (Nat.sub_le _ _) t.isLt)).2.2.2).1, rd6 (kernelRun6_B c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (outsAt6 V c (t.val - 1) (Nat.lt_of_le_of_lt (Nat.sub_le _ _) t.isLt)).2.2.1 (outsAt6 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt6_C (c : Dev nD) (t : Fin cfg6.N) (hz : t.val ≠ 0) (h1 : t.val % 10 = 9) (hc0 : ¬cond6_0 (grid6.coords t)) (hc1 : cond6_1 (grid6.coords t)) :
    outsAt6 V c t.val t.isLt = (rd6 (kernelRun6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (outsAt6 V c (t.val - 1) (Nat.lt_of_le_of_lt (Nat.sub_le _ _) t.isLt)).2.2.1 (outsAt6 V c (t.val - 1) (Nat.lt_of_le_of_lt (Nat.sub_le _ _) t.isLt)).2.2.2).1, rd6 (kernelRun6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (outsAt6 V c (t.val - 1) (Nat.lt_of_le_of_lt (Nat.sub_le _ _) t.isLt)).2.2.1 (outsAt6 V c (t.val - 1) (Nat.lt_of_le_of_lt (Nat.sub_le _ _) t.isLt)).2.2.2).2.1, rd6 (kernelRun6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (outsAt6 V c (t.val - 1) (Nat.lt_of_le_of_lt (Nat.sub_le _ _) t.isLt)).2.2.1 (outsAt6 V c (t.val - 1) (Nat.lt_of_le_of_lt (Nat.sub_le _ _) t.isLt)).2.2.2).2.2.1, rd6 (kernelRun6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (outsAt6 V c (t.val - 1) (Nat.lt_of_le_of_lt (Nat.sub_le _ _) t.isLt)).2.2.1 (outsAt6 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest6 (c : Dev nD) : sProp 𝕄 :=
  Pipeline.scopedRestBut (Ix := Unit) (Name := ℕ) (U := UR sig nD τ) (Lvl := ℕ) (Val := Elt F) spec6 c [cc6_scratch0, cc6_scratch1]

def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.1) ∗ owns (c : Thread nD τ) scM6_1 fullShare ((outsAt6 V c n hn).2.2.2)) ∗ rest6 c) ∗ (∃ r, prngReg c r))
theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(iprop(owns (c : Thread nD τ) scM6_0 fullShare ((outsAt6 V c n hn).2.2.1) ∗ owns (c : Thread nD τ) scM6_1 fullShare ((outsAt6 V c n hn).2.2.2)) ∗ rest6 c) ∗ (∃ r, prngReg c r)) := rfl
theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.1) ∗ owns (c : Thread nD τ) scM6_1 fullShare ((outsAt6 V c (n - 1) (by omega)).2.2.2)) ∗ rest6 c) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => (outsAt6 V c t.val t.isLt).1
    | ⟨10, _⟩ => (outsAt6 V c t.val t.isLt).2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = (outsAt6 V c t.val t.isLt).1 := by dsimp only [dat6]
theorem after6_10 (c : Dev nD) (t : Fin cfg6.N) : (dat6 V c).after 10 t = (outsAt6 V c t.val t.isLt).2.1 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d))
    ∗ (∃ d, owns (c : Thread nD τ) (ms6_9 t) fullShare ((dat6 V c).before 9 t d))
    ∗ (∃ d, owns (c : Thread nD τ) (ms6_10 t) fullShare ((dat6 V c).before 10 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t
    ∗ (dat6 V c).leavesExact 9 t
    ∗ (dat6 V c).leavesExact 10 t)

set_option maxHeartbeats 8000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  rw [show (dat6 V c).leavesExact 4 t = owns (c : Thread nD τ) (ms6_4 t) fullShare ((dat6 V c).after 4 t) from by
    unfold Dat.leavesExact; rw [liveAt6_4 t], after6_4]
  rw [show (dat6 V c).leavesExact 5 t = owns (c : Thread nD τ) (ms6_5 t) fullShare ((dat6 V c).after 5 t) from by
    unfold Dat.leavesExact; rw [liveAt6_5 t], after6_5]
  rw [show (dat6 V c).leavesExact 6 t = owns (c : Thread nD τ) (ms6_6 t) fullShare ((dat6 V c).after 6 t) from by
    unfold Dat.leavesExact; rw [liveAt6_6 t], after6_6]
  rw [show (dat6 V c).leavesExact 7 t = owns (c : Thread nD τ) (ms6_7 t) fullShare ((dat6 V c).after 7 t) from by
    unfold Dat.leavesExact; rw [liveAt6_7 t], after6_7]
  rw [show (dat6 V c).leavesExact 8 t = owns (c : Thread nD τ) (ms6_8 t) fullShare ((dat6 V c).after 8 t) from by
    unfold Dat.leavesExact; rw [liveAt6_8 t], after6_8]
  by_cases hz : t.val = 0
  · have hc0 : cond6_0 (grid6.coords t) := (hcond6_0 t).mpr (by omega)
    have hc1 : ¬cond6_1 (grid6.coords t) := fun h => by have := (hcond6_1 t).mp h; omega
    rw [Dat.leavesExact_idle (dat6 V c) 9 t (idleAt6_9 t hc1) (noFlush6_9 t hc1),
      Dat.leavesExact_idle (dat6 V c) 10 t (idleAt6_10 t hc1) (noFlush6_10 t hc1)]
    rw [outsAt6_A V c t hz hc0 hc1]
    (try dsimp only)
    rw [PhiS6_castSucc V c t, PhiS6_zero V c _ _ hz, PhiA6_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun6_A c (grid6.coords t) _ _ _ _ _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) (iblk6 V c 6 t) (iblk6 V c 7 t) (iblk6 V c 8 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA6_0 c _ _ _ _ _ _ _ _ _ _ _ _ _ _ _ _ _ _ _ _ _ _ _ _ _ _ _ hc0 hc1 _ _ _ _ _ _ _ _ _)
          · unfold owns; iexists _; isplitr
            swap; · iexact HS1
            ipureintro; exact View.read_writes_of_cover _ _ _ _ _ (scoverA6_1 c _ _ _ _ _ _ _ _ _ _ _ _ _ _ _ _ _ _ _ _ _ _ _ _ _ _ _ hc0 hc1 _ _ _ _ _ _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have hc0 : ¬cond6_0 (grid6.coords t) := fun h => by have := (hcond6_0 t).mp h; omega
    rw [PhiS6_castSucc V c t, PhiS6_pos V c _ _ hz]
    by_cases h1 : t.val % 10 = 9
    · have hc1 : cond6_1 (grid6.coords t) := (hcond6_1 t).mpr h1
      rw [show (dat6 V c).leavesExact 9 t = owns (c : Thread nD τ) (ms6_9 t) fullShare ((dat6 V c).after 9 t) from by
        unfold Dat.leavesExact; rw [liveAt6_9 t hc1], after6_9]
      rw [show (dat6 V c).leavesExact 10 t = owns (c : Thread nD τ) (ms6_10 t) fullShare ((dat6 V c).after 10 t) from by
        unfold Dat.leavesExact; rw [liveAt6_10 t hc1], after6_10]
      rw [outsAt6_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun6_C c (grid6.coords t) _ _ _ _ _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, ⟨%e1, H9⟩, ⟨%e2, H10⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC6_0 c _ _ _ _ _ _ _ _ _ _ _ _ _ _ _ _ _ _ _ _ _ _ _ _ _ _ _ hc0 hc1 _ _ _ _ _ _ _ _ _ _ _)
            · unfold owns; iexists _; isplitr
              swap; · iexact HS1
              ipureintro; exact View.read_writes_of_cover _ _ _ _ _ (scoverC6_1 c _ _ _ _ _ _ _ _ _ _ _ _ _ _ _ _ _ _ _ _ _ _ _ _ _ _ _ hc0 hc1 _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverC6_1 c _ _ _ _ _ _ _ _ _ _ _ _ _ _ _ _ _ _ _ _ _ _ _ _ _ _ _ hc0 hc1 _ _ _ _ _ _ _ _ _ _ _)
      unfold owns; iexists _; isplitr
      swap; · iexact H10
      ipureintro; exact View.read_writes_of_cover _ _ _ _ _ (coverC6_2 c _ _ _ _ _ _ _ _ _ _ _ _ _ _ _ _ _ _ _ _ _ _ _ _ _ _ _ hc0 hc1 _ _ _ _ _ _ _ _ _ _ _)
    · have hc1 : ¬cond6_1 (grid6.coords t) := fun h => h1 ((hcond6_1 t).mp h)
      rw [Dat.leavesExact_idle (dat6 V c) 9 t (idleAt6_9 t hc1) (noFlush6_9 t hc1),
        Dat.leavesExact_idle (dat6 V c) 10 t (idleAt6_10 t hc1) (noFlush6_10 t hc1)]
      rw [outsAt6_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun6_B c (grid6.coords t) _ _ _ _ _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB6_0 c _ _ _ _ _ _ _ _ _ _ _ _ _ _ _ _ _ _ _ _ _ _ _ _ _ _ _ hc0 hc1 _ _ _ _ _ _ _ _ _ _ _)
            · unfold owns; iexists _; isplitr
              swap; · iexact HS1
              ipureintro; exact View.read_writes_of_cover _ _ _ _ _ (scoverB6_1 c _ _ _ _ _ _ _ _ _ _ _ _ _ _ _ _ _ _ _ _ _ _ _ _ _ _ _ hc0 hc1 _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), PhiA6_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.KernelIdeal.Hand

end
-- ==== Proof.R8A.lean ====
/-
  Pipeline 8 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

abbrev cond8_0 (i : grid8.Coords) : Prop := (Scalar.cmpi .ne (Scalar.extui (Scalar.cmpi .eq (BitVec.ofNat 32 (i 0).val) 0#32)) 0#32) = 1#1
theorem hcond8_0 : ∀ t : Fin cfg8.N, cond8_0 (grid8.coords t) ↔ t.val % 10 = 0 :=
  (by decide +kernel : ∀ t : Fin grid8.N, cond8_0 (grid8.coords t) ↔ t.val % 10 = 0)
abbrev cond8_1 (i : grid8.Coords) : Prop := k8_cond2 i = 1#1
theorem hcond8_1 : ∀ t : Fin cfg8.N, cond8_1 (grid8.coords t) ↔ t.val % 10 = 9 :=
  (by decide +kernel : ∀ t : Fin grid8.N, cond8_1 (grid8.coords t) ↔ t.val % 10 = 9)
theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel
theorem idleAt8_4 : ∀ t : Fin cfg8.N, ¬cond8_1 (grid8.coords t) → cfg8.idle 4 (grid8.coords t) = true := by decide +kernel
theorem noFlush8_4 : ∀ t : Fin cfg8.N, ¬cond8_1 (grid8.coords t) → (cfg8.win 4).flush t = false := by decide +kernel
theorem liveAt8_4 : ∀ t : Fin cfg8.N, cond8_1 (grid8.coords t) → cfg8.idle 4 (grid8.coords t) = false := by decide +kernel
theorem idleAt8_5 : ∀ t : Fin cfg8.N, ¬cond8_1 (grid8.coords t) → cfg8.idle 5 (grid8.coords t) = true := by decide +kernel
theorem noFlush8_5 : ∀ t : Fin cfg8.N, ¬cond8_1 (grid8.coords t) → (cfg8.win 5).flush t = false := by decide +kernel
theorem liveAt8_5 : ∀ t : Fin cfg8.N, cond8_1 (grid8.coords t) → cfg8.idle 5 (grid8.coords t) = false := by decide +kernel
abbrev ms8_0 (t : Fin cfg8.N) : Memref sig .tc .vmem S5000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S128x128 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x128 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S1x128 .f32 := win8_5.stage (cfg8.slots t 5)
abbrev hs8_5 (t : Fin cfg8.N) : (ms8_5 t).IsWhole := hstage8_5 ((cfg8.slots t 5).cast nbuf8_5)
abbrev scM8_0 : Memref sig .tc .vmem S1x128 .f32 := Memref.whole cc8_scratch0
abbrev scM8_1 : Memref sig .tc .vmem S1x128 .f32 := Memref.whole cc8_scratch1

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM8_0, scM8_1, owns_whole]; try rfl

set_option maxHeartbeats 2000000 in
noncomputable def kernelRun8_A (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond8_0 i) (hc1 : ¬cond8_1 i)
    (x0 : Vec F S5000x128 .f32) (x1 : Vec F S128x128 .bf16) (x2 : Vec F S1x128 .f32) (x3 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc8__stage1_kernel i arg1 harg1 arg2 harg2 arg3 harg3 arg4 harg4 arg5 harg5 arg6 harg6 arg7 harg7 arg8 harg8) K } := by
  refine ⟨?_, ?_, fun xi1 xi2 E K => ?run⟩
  case run =>
    simp only [cc8__stage1_kernel_eq_skeleton]; unfold cc8__stage1_kernel_skel
    unfold owns
    iintro ⟨⟨%f0, %hf0, H0⟩, ⟨%f1, %hf1, H1⟩, ⟨%f2, %hf2, H2⟩, ⟨%f3, %hf3, H3⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hfo1; obtain rfl := harg6.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]
    · iexists _; isplitr; · ipureintro; exact harg5.read_unread _
      iexact HO1
    isplitl [HO2]
    · iexists _; isplitr; · ipureintro; exact harg6.read_unread _
      iexact HO2
    isplitl [HS0]; · iexists _; iexact HS0
    iexists _; iexact HS1

set_option maxHeartbeats 2000000 in
noncomputable def kernelRun8_B (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : ¬cond8_1 i)
    (x0 : Vec F S5000x128 .f32) (x1 : Vec F S128x128 .bf16) (x2 : Vec F S1x128 .f32) (x3 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc8__stage1_kernel i arg1 harg1 arg2 harg2 arg3 harg3 arg4 harg4 arg5 harg5 arg6 harg6 arg7 harg7 arg8 harg8) K } := by
  refine ⟨?_, ?_, fun xi1 xi2 E K => ?run⟩
  case run =>
    simp only [cc8__stage1_kernel_eq_skeleton]; unfold cc8__stage1_kernel_skel
    unfold owns
    iintro ⟨⟨%f0, %hf0, H0⟩, ⟨%f1, %hf1, H1⟩, ⟨%f2, %hf2, H2⟩, ⟨%f3, %hf3, H3⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfo1; obtain rfl := harg6.eq_unread hfo2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]
    · iexists _; isplitr; · ipureintro; exact harg5.read_unread _
      iexact HO1
    isplitl [HO2]
    · iexists _; isplitr; · ipureintro; exact harg6.read_unread _
      iexact HO2
    isplitl [HS0]; · iexists _; iexact HS0
    iexists _; iexact HS1

set_option maxHeartbeats 2000000 in
noncomputable def kernelRun8_C (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : cond8_1 i)
    (x0 : Vec F S5000x128 .f32) (x1 : Vec F S128x128 .bf16) (x2 : Vec F S1x128 .f32) (x3 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L1) ∗ (∃ f, arg6.view.loc (c : Thread nD τ) ↦[arg6.view.set]{fullShare} arg6.view.writes (Elt F) f L2) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc8__stage1_kernel i arg1 harg1 arg2 harg2 arg3 harg3 arg4 harg4 arg5 harg5 arg6 harg6 arg7 harg7 arg8 harg8) K } := by
  refine ⟨?_, ?_, ?_, ?_, fun E K => ?run⟩
  case run =>
    simp only [cc8__stage1_kernel_eq_skeleton]; unfold cc8__stage1_kernel_skel
    unfold owns
    iintro ⟨⟨%f0, %hf0, H0⟩, ⟨%f1, %hf1, H1⟩, ⟨%f2, %hf2, H2⟩, ⟨%f3, %hf3, H3⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]; · iexists _; iexact HO1
    isplitl [HO2]; · iexists _; iexact HO2
    isplitl [HS0]; · iexists _; iexact HS0
    iexists _; iexact HS1

end Cert.KernelIdeal.Hand

end
-- ==== Proof.R8B.lean ====
/-
  Pipeline 8 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R8A
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev VW8 : View sig .tc .vmem S1x128 .f32 := scM8_0.view
def rd8 (L : List (View.Piece (Elt F) S1x128 .f32)) : Vec F S1x128 .f32 := VW8.read (Elt F) (VW8.writes (Elt F) VW8.junk L)

theorem scoverA8_0 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond8_0 i) (hc1 : ¬cond8_1 i) (x0 : Vec F S5000x128 .f32) (x1 : Vec F S128x128 .bf16) (x2 : Vec F S1x128 .f32) (x3 : Vec F S1x128 .f32) (y : S1x128.Idx) :
    ∃ pc ∈ (kernelRun8_A c i arg1 harg1 arg2 harg2 arg3 harg3 arg4 harg4 arg5 harg5 arg6 harg6 arg7 harg7 arg8 harg8 hc0 hc1 x0 x1 x2 x3).1, y ∈ pc.1.set :=
  View.cover_of_tiledL (kernelRun8_A c i arg1 harg1 arg2 harg2 arg3 harg3 arg4 harg4 arg5 harg5 arg6 harg6 arg7 harg7 arg8 harg8 hc0 hc1 x0 x1 x2 x3).1 S1x128.size (by sl_kernel_rfl) y
theorem scoverA8_1 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond8_0 i) (hc1 : ¬cond8_1 i) (x0 : Vec F S5000x128 .f32) (x1 : Vec F S128x128 .bf16) (x2 : Vec F S1x128 .f32) (x3 : Vec F S1x128 .f32) (y : S1x128.Idx) :
    ∃ pc ∈ (kernelRun8_A c i arg1 harg1 arg2 harg2 arg3 harg3 arg4 harg4 arg5 harg5 arg6 harg6 arg7 harg7 arg8 harg8 hc0 hc1 x0 x1 x2 x3).2.1, y ∈ pc.1.set :=
  View.cover_of_tiledL (kernelRun8_A c i arg1 harg1 arg2 harg2 arg3 harg3 arg4 harg4 arg5 harg5 arg6 harg6 arg7 harg7 arg8 harg8 hc0 hc1 x0 x1 x2 x3).2.1 S1x128.size (by sl_kernel_rfl) y
theorem scoverB8_0 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : ¬cond8_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun8_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun8_B c i arg1 harg1 arg2 harg2 arg3 harg3 arg4 harg4 arg5 harg5 arg6 harg6 arg7 harg7 arg8 harg8 hc0 hc1 x0 x1 x2 x3 xs0 xs1).1 S1x128.size (by sl_kernel_rfl) y
theorem scoverB8_1 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : ¬cond8_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun8_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun8_B c i arg1 harg1 arg2 harg2 arg3 harg3 arg4 harg4 arg5 harg5 arg6 harg6 arg7 harg7 arg8 harg8 hc0 hc1 x0 x1 x2 x3 xs0 xs1).2.1 S1x128.size (by sl_kernel_rfl) y
theorem coverC8_1 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : cond8_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun8_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun8_C c i arg1 harg1 arg2 harg2 arg3 harg3 arg4 harg4 arg5 harg5 arg6 harg6 arg7 harg7 arg8 harg8 hc0 hc1 x0 x1 x2 x3 xs0 xs1).1 S1x128.size (by sl_kernel_rfl) y
theorem coverC8_2 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : cond8_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun8_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun8_C c i arg1 harg1 arg2 harg2 arg3 harg3 arg4 harg4 arg5 harg5 arg6 harg6 arg7 harg7 arg8 harg8 hc0 hc1 x0 x1 x2 x3 xs0 xs1).2.1 S1x128.size (by sl_kernel_rfl) y
theorem scoverC8_0 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : cond8_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun8_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun8_C c i arg1 harg1 arg2 harg2 arg3 harg3 arg4 harg4 arg5 harg5 arg6 harg6 arg7 harg7 arg8 harg8 hc0 hc1 x0 x1 x2 x3 xs0 xs1).2.2.1 S1x128.size (by sl_kernel_rfl) y
theorem scoverC8_1 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : cond8_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun8_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun8_C c i arg1 harg1 arg2 harg2 arg3 harg3 arg4 harg4 arg5 harg5 arg6 harg6 arg7 harg7 arg8 harg8 hc0 hc1 x0 x1 x2 x3 xs0 xs1).2.2.2.1 S1x128.size (by sl_kernel_rfl) y

theorem c0_zero8 (hn : 0 < cfg8.N) : cond8_0 (grid8.coords ⟨0, hn⟩) := (hcond8_0 ⟨0, hn⟩).mpr (Nat.zero_mod _)
theorem nc1_zero8 (hn : 0 < cfg8.N) : ¬cond8_1 (grid8.coords ⟨0, hn⟩) :=
  fun h => by have := (hcond8_1 ⟨0, hn⟩).mp h; (try dsimp only at this); omega
theorem nc0_succ8 (n : ℕ) (hn : n + 1 < cfg8.N) : ¬cond8_0 (grid8.coords ⟨n + 1, hn⟩) := fun h => by
  have hN : n + 1 < 10 := lt_of_lt_of_eq hn (show cfg8.N = 10 from N_8)
  have := (hcond8_0 ⟨n + 1, hn⟩).mp h; (try dsimp only at this); omega

def outsAt8 (c : Dev nD) : (n : ℕ) → n < cfg8.N → Vec F S1x128 .f32 × Vec F S1x128 .f32 × Vec F S1x128 .f32 × Vec F S1x128 .f32
  | 0, hn => (rd8 [], rd8 [], rd8 (kernelRun8_A c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) scM8_0 (Memref.isWhole_whole _) scM8_1 (Memref.isWhole_whole _) (c0_zero8 hn) (nc1_zero8 hn) (iblk8 V c 0 ⟨0, hn⟩) (iblk8 V c 1 ⟨0, hn⟩) (iblk8 V c 2 ⟨0, hn⟩) (iblk8 V c 3 ⟨0, hn⟩)).1, rd8 (kernelRun8_A c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) scM8_0 (Memref.isWhole_whole _) scM8_1 (Memref.isWhole_whole _) (c0_zero8 hn) (nc1_zero8 hn) (iblk8 V c 0 ⟨0, hn⟩) (iblk8 V c 1 ⟨0, hn⟩) (iblk8 V c 2 ⟨0, hn⟩) (iblk8 V c 3 ⟨0, hn⟩)).2.1)
  | n + 1, hn =>
    if h1 : (n + 1) % 10 = 9 then
      (rd8 (kernelRun8_C c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) scM8_0 (Memref.isWhole_whole _) scM8_1 (Memref.isWhole_whole _) (nc0_succ8 n hn) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.2.1 (outsAt8 c n (Nat.lt_of_succ_lt hn)).2.2.2).1, rd8 (kernelRun8_C c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) scM8_0 (Memref.isWhole_whole _) scM8_1 (Memref.isWhole_whole _) (nc0_succ8 n hn) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.2.1 (outsAt8 c n (Nat.lt_of_succ_lt hn)).2.2.2).2.1, rd8 (kernelRun8_C c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) scM8_0 (Memref.isWhole_whole _) scM8_1 (Memref.isWhole_whole _) (nc0_succ8 n hn) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.2.1 (outsAt8 c n (Nat.lt_of_succ_lt hn)).2.2.2).2.2.1, rd8 (kernelRun8_C c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) scM8_0 (Memref.isWhole_whole _) scM8_1 (Memref.isWhole_whole _) (nc0_succ8 n hn) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.2.1 (outsAt8 c n (Nat.lt_of_succ_lt hn)).2.2.2).2.2.2.1)
    else
      (rd8 [], rd8 [], rd8 (kernelRun8_B c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) scM8_0 (Memref.isWhole_whole _) scM8_1 (Memref.isWhole_whole _) (nc0_succ8 n hn) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.2.1 (outsAt8 c n (Nat.lt_of_succ_lt hn)).2.2.2).1, rd8 (kernelRun8_B c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) scM8_0 (Memref.isWhole_whole _) scM8_1 (Memref.isWhole_whole _) (nc0_succ8 n hn) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.2.1 (outsAt8 c n (Nat.lt_of_succ_lt hn)).2.2.2).2.1)

theorem outsAt8_A (c : Dev nD) (t : Fin cfg8.N) (hz : t.val = 0) (hc0 : cond8_0 (grid8.coords t)) (hc1 : ¬cond8_1 (grid8.coords t)) :
    outsAt8 V c t.val t.isLt = (rd8 [], rd8 [], rd8 (kernelRun8_A c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t)).1, rd8 (kernelRun8_A c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t)).2.1) := by
  obtain ⟨n, hn⟩ := t
  cases n with
  | zero => rfl
  | succ n => exact absurd hz (Nat.succ_ne_zero n)
theorem outsAt8_B (c : Dev nD) (t : Fin cfg8.N) (hz : t.val ≠ 0) (h1 : ¬t.val % 10 = 9) (hc0 : ¬cond8_0 (grid8.coords t)) (hc1 : ¬cond8_1 (grid8.coords t)) :
    outsAt8 V c t.val t.isLt = (rd8 [], rd8 [], rd8 (kernelRun8_B c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (outsAt8 V c (t.val - 1) (Nat.lt_of_le_of_lt (Nat.sub_le _ _) t.isLt)).2.2.1 (outsAt8 V c (t.val - 1) (Nat.lt_of_le_of_lt (Nat.sub_le _ _) t.isLt)).2.2.2).1, rd8 (kernelRun8_B c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (outsAt8 V c (t.val - 1) (Nat.lt_of_le_of_lt (Nat.sub_le _ _) t.isLt)).2.2.1 (outsAt8 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt8_C (c : Dev nD) (t : Fin cfg8.N) (hz : t.val ≠ 0) (h1 : t.val % 10 = 9) (hc0 : ¬cond8_0 (grid8.coords t)) (hc1 : cond8_1 (grid8.coords t)) :
    outsAt8 V c t.val t.isLt = (rd8 (kernelRun8_C c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (outsAt8 V c (t.val - 1) (Nat.lt_of_le_of_lt (Nat.sub_le _ _) t.isLt)).2.2.1 (outsAt8 V c (t.val - 1) (Nat.lt_of_le_of_lt (Nat.sub_le _ _) t.isLt)).2.2.2).1, rd8 (kernelRun8_C c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (outsAt8 V c (t.val - 1) (Nat.lt_of_le_of_lt (Nat.sub_le _ _) t.isLt)).2.2.1 (outsAt8 V c (t.val - 1) (Nat.lt_of_le_of_lt (Nat.sub_le _ _) t.isLt)).2.2.2).2.1, rd8 (kernelRun8_C c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (outsAt8 V c (t.val - 1) (Nat.lt_of_le_of_lt (Nat.sub_le _ _) t.isLt)).2.2.1 (outsAt8 V c (t.val - 1) (Nat.lt_of_le_of_lt (Nat.sub_le _ _) t.isLt)).2.2.2).2.2.1, rd8 (kernelRun8_C c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (outsAt8 V c (t.val - 1) (Nat.lt_of_le_of_lt (Nat.sub_le _ _) t.isLt)).2.2.1 (outsAt8 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest8 (c : Dev nD) : sProp 𝕄 :=
  Pipeline.scopedRestBut (Ix := Unit) (Name := ℕ) (U := UR sig nD τ) (Lvl := ℕ) (Val := Elt F) spec8 c [cc8_scratch0, cc8_scratch1]

def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2.2.1) ∗ owns (c : Thread nD τ) scM8_1 fullShare ((outsAt8 V c n hn).2.2.2)) ∗ rest8 c) ∗ (∃ r, prngReg c r))
theorem PhiS8_zero (c : Dev nD) (n : ℕ) (h : n ≤ cfg8.N) (hz : n = 0) : PhiS8 V c n h = Pipeline.ΦA spec8 c := by
  subst hz; rfl
theorem PhiS8_succ (c : Dev nD) (n : ℕ) (hn : n < cfg8.N) :
    PhiS8 V c (n + 1) hn = iprop(iprop(iprop(owns (c : Thread nD τ) scM8_0 fullShare ((outsAt8 V c n hn).2.2.1) ∗ owns (c : Thread nD τ) scM8_1 fullShare ((outsAt8 V c n hn).2.2.2)) ∗ rest8 c) ∗ (∃ r, prngReg c r)) := rfl
theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2.2.1) ∗ owns (c : Thread nD τ) scM8_1 fullShare ((outsAt8 V c (n - 1) (by omega)).2.2.2)) ∗ rest8 c) ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => (outsAt8 V c t.val t.isLt).1
    | ⟨5, _⟩ => (outsAt8 V c t.val t.isLt).2.1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem PhiS8_castSucc (c : Dev nD) (t : Fin cfg8.N) :
    (dat8 V c).Φ t.castSucc = PhiS8 V c t.val (Nat.le_of_lt t.isLt) := by
  dsimp only [dat8]; simp only [Fin.coe_castSucc]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = (outsAt8 V c t.val t.isLt).1 := by dsimp only [dat8]
theorem after8_5 (c : Dev nD) (t : Fin cfg8.N) : (dat8 V c).after 5 t = (outsAt8 V c t.val t.isLt).2.1 := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t)

set_option maxHeartbeats 8000000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).owesAt () t.succ = (dat8 V c).owesAt () t.castSucc from rfl]
  rw [show (dat8 V c).Φ t.succ = PhiS8 V c (t.val + 1) t.isLt from rfl, PhiS8_succ]
  have hN : t.val < 10 := lt_of_lt_of_eq t.isLt (show cfg8.N = 10 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  by_cases hz : t.val = 0
  · have hc0 : cond8_0 (grid8.coords t) := (hcond8_0 t).mpr (by omega)
    have hc1 : ¬cond8_1 (grid8.coords t) := fun h => by have := (hcond8_1 t).mp h; omega
    rw [Dat.leavesExact_idle (dat8 V c) 4 t (idleAt8_4 t hc1) (noFlush8_4 t hc1),
      Dat.leavesExact_idle (dat8 V c) 5 t (idleAt8_5 t hc1) (noFlush8_5 t hc1)]
    rw [outsAt8_A V c t hz hc0 hc1]
    (try dsimp only)
    rw [PhiS8_castSucc V c t, PhiS8_zero V c _ _ hz, PhiA8_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun8_A c (grid8.coords t) _ _ _ _ _ _ _ _ _ _ _ _ _ _ _ _ hc0 hc1 (iblk8 V c 0 t) (iblk8 V c 1 t) (iblk8 V c 2 t) (iblk8 V c 3 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA8_0 c _ _ _ _ _ _ _ _ _ _ _ _ _ _ _ _ _ hc0 hc1 _ _ _ _)
          · unfold owns; iexists _; isplitr
            swap; · iexact HS1
            ipureintro; exact View.read_writes_of_cover _ _ _ _ _ (scoverA8_1 c _ _ _ _ _ _ _ _ _ _ _ _ _ _ _ _ _ hc0 hc1 _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hc0 : ¬cond8_0 (grid8.coords t) := fun h => by have := (hcond8_0 t).mp h; omega
    rw [PhiS8_castSucc V c t, PhiS8_pos V c _ _ hz]
    by_cases h1 : t.val % 10 = 9
    · have hc1 : cond8_1 (grid8.coords t) := (hcond8_1 t).mpr h1
      rw [show (dat8 V c).leavesExact 4 t = owns (c : Thread nD τ) (ms8_4 t) fullShare ((dat8 V c).after 4 t) from by
        unfold Dat.leavesExact; rw [liveAt8_4 t hc1], after8_4]
      rw [show (dat8 V c).leavesExact 5 t = owns (c : Thread nD τ) (ms8_5 t) fullShare ((dat8 V c).after 5 t) from by
        unfold Dat.leavesExact; rw [liveAt8_5 t hc1], after8_5]
      rw [outsAt8_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun8_C c (grid8.coords t) _ _ _ _ _ _ _ _ _ _ _ _ _ _ _ _ hc0 hc1 (iblk8 V c 0 t) (iblk8 V c 1 t) (iblk8 V c 2 t) (iblk8 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e1, H4⟩, ⟨%e2, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC8_0 c _ _ _ _ _ _ _ _ _ _ _ _ _ _ _ _ _ hc0 hc1 _ _ _ _ _ _)
            · unfold owns; iexists _; isplitr
              swap; · iexact HS1
              ipureintro; exact View.read_writes_of_cover _ _ _ _ _ (scoverC8_1 c _ _ _ _ _ _ _ _ _ _ _ _ _ _ _ _ _ hc0 hc1 _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC8_1 c _ _ _ _ _ _ _ _ _ _ _ _ _ _ _ _ _ hc0 hc1 _ _ _ _ _ _)
      unfold owns; iexists _; isplitr
      swap; · iexact H5
      ipureintro; exact View.read_writes_of_cover _ _ _ _ _ (coverC8_2 c _ _ _ _ _ _ _ _ _ _ _ _ _ _ _ _ _ hc0 hc1 _ _ _ _ _ _)
    · have hc1 : ¬cond8_1 (grid8.coords t) := fun h => h1 ((hcond8_1 t).mp h)
      rw [Dat.leavesExact_idle (dat8 V c) 4 t (idleAt8_4 t hc1) (noFlush8_4 t hc1),
        Dat.leavesExact_idle (dat8 V c) 5 t (idleAt8_5 t hc1) (noFlush8_5 t hc1)]
      rw [outsAt8_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun8_B c (grid8.coords t) _ _ _ _ _ _ _ _ _ _ _ _ _ _ _ _ hc0 hc1 (iblk8 V c 0 t) (iblk8 V c 1 t) (iblk8 V c 2 t) (iblk8 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB8_0 c _ _ _ _ _ _ _ _ _ _ _ _ _ _ _ _ _ hc0 hc1 _ _ _ _ _ _)
            · unfold owns; iexists _; isplitr
              swap; · iexact HS1
              ipureintro; exact View.read_writes_of_cover _ _ _ _ _ (scoverB8_1 c _ _ _ _ _ _ _ _ _ _ _ _ _ _ _ _ _ hc0 hc1 _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

theorem hout8 (c : Dev nD) : (dat8 V c).Φ (Fin.last cfg8.N) ⊢ Pipeline.ΦA spec8 c := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 10 := N_8; omega), PhiA8_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.KernelIdeal.Hand

end
-- ==== Proof.R9A.lean ====
/-
  Pipeline 9 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

abbrev cond9_0 (i : grid9.Coords) : Prop := (Scalar.cmpi .ne (Scalar.extui (Scalar.cmpi .eq (BitVec.ofNat 32 (i 0).val) 0#32)) 0#32) = 1#1
theorem hcond9_0 : ∀ t : Fin cfg9.N, cond9_0 (grid9.coords t) ↔ t.val % 10 = 0 :=
  (by decide +kernel : ∀ t : Fin grid9.N, cond9_0 (grid9.coords t) ↔ t.val % 10 = 0)
abbrev cond9_1 (i : grid9.Coords) : Prop := k9_cond2 i = 1#1
theorem hcond9_1 : ∀ t : Fin cfg9.N, cond9_1 (grid9.coords t) ↔ t.val % 10 = 9 :=
  (by decide +kernel : ∀ t : Fin grid9.N, cond9_1 (grid9.coords t) ↔ t.val % 10 = 9)
theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem liveAt9_3 : ∀ t : Fin cfg9.N, cfg9.idle 3 (grid9.coords t) = false := by decide +kernel
theorem liveAt9_4 : ∀ t : Fin cfg9.N, cfg9.idle 4 (grid9.coords t) = false := by decide +kernel
theorem liveAt9_5 : ∀ t : Fin cfg9.N, cfg9.idle 5 (grid9.coords t) = false := by decide +kernel
theorem liveAt9_6 : ∀ t : Fin cfg9.N, cfg9.idle 6 (grid9.coords t) = false := by decide +kernel
theorem idleAt9_7 : ∀ t : Fin cfg9.N, ¬cond9_1 (grid9.coords t) → cfg9.idle 7 (grid9.coords t) = true := by decide +kernel
theorem noFlush9_7 : ∀ t : Fin cfg9.N, ¬cond9_1 (grid9.coords t) → (cfg9.win 7).flush t = false := by decide +kernel
theorem liveAt9_7 : ∀ t : Fin cfg9.N, cond9_1 (grid9.coords t) → cfg9.idle 7 (grid9.coords t) = false := by decide +kernel
theorem idleAt9_8 : ∀ t : Fin cfg9.N, ¬cond9_1 (grid9.coords t) → cfg9.idle 8 (grid9.coords t) = true := by decide +kernel
theorem noFlush9_8 : ∀ t : Fin cfg9.N, ¬cond9_1 (grid9.coords t) → (cfg9.win 8).flush t = false := by decide +kernel
theorem liveAt9_8 : ∀ t : Fin cfg9.N, cond9_1 (grid9.coords t) → cfg9.idle 8 (grid9.coords t) = false := by decide +kernel
abbrev ms9_0 (t : Fin cfg9.N) : Memref sig .tc .vmem S5000x128 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S128x128 .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S128x128 .bf16 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1x128 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S1x128 .f32 := win9_4.stage (cfg9.slots t 4)
abbrev hs9_4 (t : Fin cfg9.N) : (ms9_4 t).IsWhole := hstage9_4 ((cfg9.slots t 4).cast nbuf9_4)
abbrev ms9_5 (t : Fin cfg9.N) : Memref sig .tc .vmem S1x128 .f32 := win9_5.stage (cfg9.slots t 5)
abbrev hs9_5 (t : Fin cfg9.N) : (ms9_5 t).IsWhole := hstage9_5 ((cfg9.slots t 5).cast nbuf9_5)
abbrev ms9_6 (t : Fin cfg9.N) : Memref sig .tc .vmem S1x128 .f32 := win9_6.stage (cfg9.slots t 6)
abbrev hs9_6 (t : Fin cfg9.N) : (ms9_6 t).IsWhole := hstage9_6 ((cfg9.slots t 6).cast nbuf9_6)
abbrev ms9_7 (t : Fin cfg9.N) : Memref sig .tc .vmem S1x128 .f32 := win9_7.stage (cfg9.slots t 7)
abbrev hs9_7 (t : Fin cfg9.N) : (ms9_7 t).IsWhole := hstage9_7 ((cfg9.slots t 7).cast nbuf9_7)
abbrev ms9_8 (t : Fin cfg9.N) : Memref sig .tc .vmem S1x128 .f32 := win9_8.stage (cfg9.slots t 8)
abbrev hs9_8 (t : Fin cfg9.N) : (ms9_8 t).IsWhole := hstage9_8 ((cfg9.slots t 8).cast nbuf9_8)
abbrev scM9_0 : Memref sig .tc .vmem S1x128 .f32 := Memref.whole cc9_scratch0
abbrev scM9_1 : Memref sig .tc .vmem S1x128 .f32 := Memref.whole cc9_scratch1

theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d))
          ∗ Pipeline.scopedRestBut (Ix := Unit) (Name := ℕ) (U := UR sig nD τ) (Lvl := ℕ) (Val := Elt F) spec9 c [cc9_scratch0, cc9_scratch1]) ∗ (∃ r, prngReg c r)) := by
  unfold Pipeline.ΦA; rw [scopedRest9_split]; simp only [scM9_0, scM9_1, owns_whole]; try rfl

set_option maxHeartbeats 2000000 in
noncomputable def kernelRun9_A (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond9_0 i) (hc1 : ¬cond9_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc9__stage2_kernel i arg1 harg1 arg2 harg2 arg3 harg3 arg4 harg4 arg5 harg5 arg6 harg6 arg7 harg7 arg8 harg8 arg9 harg9 arg10 harg10 arg11 harg11) K } := by
  refine ⟨?_, ?_, fun xi1 xi2 E K => ?run⟩
  case run =>
    simp only [cc9__stage2_kernel_eq_skeleton]; unfold cc9__stage2_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfo1; obtain rfl := harg9.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]
    · iexists _; isplitr; · ipureintro; exact harg8.read_unread _
      iexact HO1
    isplitl [HO2]
    · iexists _; isplitr; · ipureintro; exact harg9.read_unread _
      iexact HO2
    isplitl [HS0]; · iexists _; iexact HS0
    iexists _; iexact HS1

set_option maxHeartbeats 2000000 in
noncomputable def kernelRun9_B (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : ¬cond9_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc9__stage2_kernel i arg1 harg1 arg2 harg2 arg3 harg3 arg4 harg4 arg5 harg5 arg6 harg6 arg7 harg7 arg8 harg8 arg9 harg9 arg10 harg10 arg11 harg11) K } := by
  refine ⟨?_, ?_, fun xi1 xi2 E K => ?run⟩
  case run =>
    simp only [cc9__stage2_kernel_eq_skeleton]; unfold cc9__stage2_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfo1; obtain rfl := harg9.eq_unread hfo2; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]
    · iexists _; isplitr; · ipureintro; exact harg8.read_unread _
      iexact HO1
    isplitl [HO2]
    · iexists _; isplitr; · ipureintro; exact harg9.read_unread _
      iexact HO2
    isplitl [HS0]; · iexists _; iexact HS0
    iexists _; iexact HS1

set_option maxHeartbeats 2000000 in
noncomputable def kernelRun9_C (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : cond9_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc9__stage2_kernel i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc9__stage2_kernel_eq_skeleton]; unfold cc9__stage2_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]; · iexists _; iexact HO1
    isplitl [HO2]; · iexists _; iexact HO2
    isplitl [HS0]; · iexists _; iexact HS0
    iexists _; iexact HS1

end Cert.KernelIdeal.Hand

end
-- ==== Proof.R9B.lean ====
/-
  Pipeline 9 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R9A
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev VW9 : View sig .tc .vmem S1x128 .f32 := scM9_0.view
def rd9 (L : List (View.Piece (Elt F) S1x128 .f32)) : Vec F S1x128 .f32 := VW9.read (Elt F) (VW9.writes (Elt F) VW9.junk L)

theorem scoverA9_0 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond9_0 i) (hc1 : ¬cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (y : S1x128.Idx) :
    ∃ pc ∈ (kernelRun9_A c i arg1 harg1 arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun9_A c i arg1 harg1 arg2 harg2 arg3 harg3 arg4 harg4 arg5 harg5 arg6 harg6 arg7 harg7 arg8 harg8 arg9 harg9 arg10 harg10 arg11 harg11 hc0 hc1 x0 x1 x2 x3 x4 x5 x6).1 S1x128.size (by sl_kernel_rfl) y
theorem scoverA9_1 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond9_0 i) (hc1 : ¬cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (y : S1x128.Idx) :
    ∃ pc ∈ (kernelRun9_A c i arg1 harg1 arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun9_A c i arg1 harg1 arg2 harg2 arg3 harg3 arg4 harg4 arg5 harg5 arg6 harg6 arg7 harg7 arg8 harg8 arg9 harg9 arg10 harg10 arg11 harg11 hc0 hc1 x0 x1 x2 x3 x4 x5 x6).2.1 S1x128.size (by sl_kernel_rfl) y
theorem scoverB9_0 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : ¬cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun9_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun9_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 S1x128.size (by sl_kernel_rfl) y
theorem scoverB9_1 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : ¬cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun9_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun9_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 S1x128.size (by sl_kernel_rfl) y
theorem coverC9_1 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 S1x128.size (by sl_kernel_rfl) y
theorem coverC9_2 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 S1x128.size (by sl_kernel_rfl) y
theorem scoverC9_0 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.1, y ∈ pc.1.set :=
  View.cover_of_tiledL (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.1 S1x128.size (by sl_kernel_rfl) y
theorem scoverC9_1 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.2.1, y ∈ pc.1.set :=
  View.cover_of_tiledL (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.2.1 S1x128.size (by sl_kernel_rfl) y

theorem c0_zero9 (hn : 0 < cfg9.N) : cond9_0 (grid9.coords ⟨0, hn⟩) := (hcond9_0 ⟨0, hn⟩).mpr (Nat.zero_mod _)
theorem nc1_zero9 (hn : 0 < cfg9.N) : ¬cond9_1 (grid9.coords ⟨0, hn⟩) :=
  fun h => by have := (hcond9_1 ⟨0, hn⟩).mp h; (try dsimp only at this); omega
theorem nc0_succ9 (n : ℕ) (hn : n + 1 < cfg9.N) : ¬cond9_0 (grid9.coords ⟨n + 1, hn⟩) := fun h => by
  have hN : n + 1 < 10 := lt_of_lt_of_eq hn (show cfg9.N = 10 from N_9)
  have := (hcond9_0 ⟨n + 1, hn⟩).mp h; (try dsimp only at this); omega

def outsAt9 (c : Dev nD) : (n : ℕ) → n < cfg9.N → Vec F S1x128 .f32 × Vec F S1x128 .f32 × Vec F S1x128 .f32 × Vec F S1x128 .f32
  | 0, hn => (rd9 [], rd9 [], rd9 (kernelRun9_A c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) (ms9_7 ⟨0, hn⟩) (hs9_7 ⟨0, hn⟩) (ms9_8 ⟨0, hn⟩) (hs9_8 ⟨0, hn⟩) scM9_0 (Memref.isWhole_whole _) scM9_1 (Memref.isWhole_whole _) (c0_zero9 hn) (nc1_zero9 hn) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩) (iblk9 V c 6 ⟨0, hn⟩)).1, rd9 (kernelRun9_A c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) (ms9_7 ⟨0, hn⟩) (hs9_7 ⟨0, hn⟩) (ms9_8 ⟨0, hn⟩) (hs9_8 ⟨0, hn⟩) scM9_0 (Memref.isWhole_whole _) scM9_1 (Memref.isWhole_whole _) (c0_zero9 hn) (nc1_zero9 hn) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩) (iblk9 V c 6 ⟨0, hn⟩)).2.1)
  | n + 1, hn =>
    if h1 : (n + 1) % 10 = 9 then
      (rd9 (kernelRun9_C c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (ms9_7 ⟨n + 1, hn⟩) (hs9_7 ⟨n + 1, hn⟩) (ms9_8 ⟨n + 1, hn⟩) (hs9_8 ⟨n + 1, hn⟩) scM9_0 (Memref.isWhole_whole _) scM9_1 (Memref.isWhole_whole _) (nc0_succ9 n hn) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (outsAt9 c n (Nat.lt_of_succ_lt hn)).2.2.1 (outsAt9 c n (Nat.lt_of_succ_lt hn)).2.2.2).1, rd9 (kernelRun9_C c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (ms9_7 ⟨n + 1, hn⟩) (hs9_7 ⟨n + 1, hn⟩) (ms9_8 ⟨n + 1, hn⟩) (hs9_8 ⟨n + 1, hn⟩) scM9_0 (Memref.isWhole_whole _) scM9_1 (Memref.isWhole_whole _) (nc0_succ9 n hn) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (outsAt9 c n (Nat.lt_of_succ_lt hn)).2.2.1 (outsAt9 c n (Nat.lt_of_succ_lt hn)).2.2.2).2.1, rd9 (kernelRun9_C c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (ms9_7 ⟨n + 1, hn⟩) (hs9_7 ⟨n + 1, hn⟩) (ms9_8 ⟨n + 1, hn⟩) (hs9_8 ⟨n + 1, hn⟩) scM9_0 (Memref.isWhole_whole _) scM9_1 (Memref.isWhole_whole _) (nc0_succ9 n hn) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (outsAt9 c n (Nat.lt_of_succ_lt hn)).2.2.1 (outsAt9 c n (Nat.lt_of_succ_lt hn)).2.2.2).2.2.1, rd9 (kernelRun9_C c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (ms9_7 ⟨n + 1, hn⟩) (hs9_7 ⟨n + 1, hn⟩) (ms9_8 ⟨n + 1, hn⟩) (hs9_8 ⟨n + 1, hn⟩) scM9_0 (Memref.isWhole_whole _) scM9_1 (Memref.isWhole_whole _) (nc0_succ9 n hn) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (outsAt9 c n (Nat.lt_of_succ_lt hn)).2.2.1 (outsAt9 c n (Nat.lt_of_succ_lt hn)).2.2.2).2.2.2.1)
    else
      (rd9 [], rd9 [], rd9 (kernelRun9_B c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (ms9_7 ⟨n + 1, hn⟩) (hs9_7 ⟨n + 1, hn⟩) (ms9_8 ⟨n + 1, hn⟩) (hs9_8 ⟨n + 1, hn⟩) scM9_0 (Memref.isWhole_whole _) scM9_1 (Memref.isWhole_whole _) (nc0_succ9 n hn) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (outsAt9 c n (Nat.lt_of_succ_lt hn)).2.2.1 (outsAt9 c n (Nat.lt_of_succ_lt hn)).2.2.2).1, rd9 (kernelRun9_B c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (ms9_7 ⟨n + 1, hn⟩) (hs9_7 ⟨n + 1, hn⟩) (ms9_8 ⟨n + 1, hn⟩) (hs9_8 ⟨n + 1, hn⟩) scM9_0 (Memref.isWhole_whole _) scM9_1 (Memref.isWhole_whole _) (nc0_succ9 n hn) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (outsAt9 c n (Nat.lt_of_succ_lt hn)).2.2.1 (outsAt9 c n (Nat.lt_of_succ_lt hn)).2.2.2).2.1)

theorem outsAt9_A (c : Dev nD) (t : Fin cfg9.N) (hz : t.val = 0) (hc0 : cond9_0 (grid9.coords t)) (hc1 : ¬cond9_1 (grid9.coords t)) :
    outsAt9 V c t.val t.isLt = (rd9 [], rd9 [], rd9 (kernelRun9_A c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t)).1, rd9 (kernelRun9_A c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t)).2.1) := by
  obtain ⟨n, hn⟩ := t
  cases n with
  | zero => rfl
  | succ n => exact absurd hz (Nat.succ_ne_zero n)
theorem outsAt9_B (c : Dev nD) (t : Fin cfg9.N) (hz : t.val ≠ 0) (h1 : ¬t.val % 10 = 9) (hc0 : ¬cond9_0 (grid9.coords t)) (hc1 : ¬cond9_1 (grid9.coords t)) :
    outsAt9 V c t.val t.isLt = (rd9 [], rd9 [], rd9 (kernelRun9_B c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (outsAt9 V c (t.val - 1) (Nat.lt_of_le_of_lt (Nat.sub_le _ _) t.isLt)).2.2.1 (outsAt9 V c (t.val - 1) (Nat.lt_of_le_of_lt (Nat.sub_le _ _) t.isLt)).2.2.2).1, rd9 (kernelRun9_B c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (outsAt9 V c (t.val - 1) (Nat.lt_of_le_of_lt (Nat.sub_le _ _) t.isLt)).2.2.1 (outsAt9 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt9_C (c : Dev nD) (t : Fin cfg9.N) (hz : t.val ≠ 0) (h1 : t.val % 10 = 9) (hc0 : ¬cond9_0 (grid9.coords t)) (hc1 : cond9_1 (grid9.coords t)) :
    outsAt9 V c t.val t.isLt = (rd9 (kernelRun9_C c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (outsAt9 V c (t.val - 1) (Nat.lt_of_le_of_lt (Nat.sub_le _ _) t.isLt)).2.2.1 (outsAt9 V c (t.val - 1) (Nat.lt_of_le_of_lt (Nat.sub_le _ _) t.isLt)).2.2.2).1, rd9 (kernelRun9_C c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (outsAt9 V c (t.val - 1) (Nat.lt_of_le_of_lt (Nat.sub_le _ _) t.isLt)).2.2.1 (outsAt9 V c (t.val - 1) (Nat.lt_of_le_of_lt (Nat.sub_le _ _) t.isLt)).2.2.2).2.1, rd9 (kernelRun9_C c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (outsAt9 V c (t.val - 1) (Nat.lt_of_le_of_lt (Nat.sub_le _ _) t.isLt)).2.2.1 (outsAt9 V c (t.val - 1) (Nat.lt_of_le_of_lt (Nat.sub_le _ _) t.isLt)).2.2.2).2.2.1, rd9 (kernelRun9_C c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (outsAt9 V c (t.val - 1) (Nat.lt_of_le_of_lt (Nat.sub_le _ _) t.isLt)).2.2.1 (outsAt9 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest9 (c : Dev nD) : sProp 𝕄 :=
  Pipeline.scopedRestBut (Ix := Unit) (Name := ℕ) (U := UR sig nD τ) (Lvl := ℕ) (Val := Elt F) spec9 c [cc9_scratch0, cc9_scratch1]

def PhiS9 (c : Dev nD) : (n : ℕ) → n ≤ cfg9.N → sProp 𝕄
  | 0, _ => Pipeline.ΦA spec9 c
  | n + 1, hn => iprop(iprop(iprop(owns (c : Thread nD τ) scM9_0 fullShare ((outsAt9 V c n hn).2.2.1) ∗ owns (c : Thread nD τ) scM9_1 fullShare ((outsAt9 V c n hn).2.2.2)) ∗ rest9 c) ∗ (∃ r, prngReg c r))
theorem PhiS9_zero (c : Dev nD) (n : ℕ) (h : n ≤ cfg9.N) (hz : n = 0) : PhiS9 V c n h = Pipeline.ΦA spec9 c := by
  subst hz; rfl
theorem PhiS9_succ (c : Dev nD) (n : ℕ) (hn : n < cfg9.N) :
    PhiS9 V c (n + 1) hn = iprop(iprop(iprop(owns (c : Thread nD τ) scM9_0 fullShare ((outsAt9 V c n hn).2.2.1) ∗ owns (c : Thread nD τ) scM9_1 fullShare ((outsAt9 V c n hn).2.2.2)) ∗ rest9 c) ∗ (∃ r, prngReg c r)) := rfl
theorem PhiS9_pos (c : Dev nD) (n : ℕ) (h : n ≤ cfg9.N) (hz : n ≠ 0) :
    PhiS9 V c n h = iprop(iprop(iprop(owns (c : Thread nD τ) scM9_0 fullShare ((outsAt9 V c (n - 1) (by omega)).2.2.1) ∗ owns (c : Thread nD τ) scM9_1 fullShare ((outsAt9 V c (n - 1) (by omega)).2.2.2)) ∗ rest9 c) ∗ (∃ r, prngReg c r)) := by
  cases n with
  | zero => exact absurd rfl hz
  | succ n => rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => (outsAt9 V c t.val t.isLt).1
    | ⟨8, _⟩ => (outsAt9 V c t.val t.isLt).2.1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem PhiS9_castSucc (c : Dev nD) (t : Fin cfg9.N) :
    (dat9 V c).Φ t.castSucc = PhiS9 V c t.val (Nat.le_of_lt t.isLt) := by
  dsimp only [dat9]; simp only [Fin.coe_castSucc]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = (outsAt9 V c t.val t.isLt).1 := by dsimp only [dat9]
theorem after9_8 (c : Dev nD) (t : Fin cfg9.N) : (dat9 V c).after 8 t = (outsAt9 V c t.val t.isLt).2.1 := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d))
    ∗ (∃ d, owns (c : Thread nD τ) (ms9_6 t) fullShare ((dat9 V c).before 6 t d))
    ∗ (∃ d, owns (c : Thread nD τ) (ms9_7 t) fullShare ((dat9 V c).before 7 t d))
    ∗ (∃ d, owns (c : Thread nD τ) (ms9_8 t) fullShare ((dat9 V c).before 8 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t
    ∗ (dat9 V c).leavesExact 5 t
    ∗ (dat9 V c).leavesExact 6 t
    ∗ (dat9 V c).leavesExact 7 t
    ∗ (dat9 V c).leavesExact 8 t)

set_option maxHeartbeats 8000000 in
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).owesAt () t.succ = (dat9 V c).owesAt () t.castSucc from rfl]
  rw [show (dat9 V c).Φ t.succ = PhiS9 V c (t.val + 1) t.isLt from rfl, PhiS9_succ]
  have hN : t.val < 10 := lt_of_lt_of_eq t.isLt (show cfg9.N = 10 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  rw [show (dat9 V c).leavesExact 3 t = owns (c : Thread nD τ) (ms9_3 t) fullShare ((dat9 V c).after 3 t) from by
    unfold Dat.leavesExact; rw [liveAt9_3 t], after9_3]
  rw [show (dat9 V c).leavesExact 4 t = owns (c : Thread nD τ) (ms9_4 t) fullShare ((dat9 V c).after 4 t) from by
    unfold Dat.leavesExact; rw [liveAt9_4 t], after9_4]
  rw [show (dat9 V c).leavesExact 5 t = owns (c : Thread nD τ) (ms9_5 t) fullShare ((dat9 V c).after 5 t) from by
    unfold Dat.leavesExact; rw [liveAt9_5 t], after9_5]
  rw [show (dat9 V c).leavesExact 6 t = owns (c : Thread nD τ) (ms9_6 t) fullShare ((dat9 V c).after 6 t) from by
    unfold Dat.leavesExact; rw [liveAt9_6 t], after9_6]
  by_cases hz : t.val = 0
  · have hc0 : cond9_0 (grid9.coords t) := (hcond9_0 t).mpr (by omega)
    have hc1 : ¬cond9_1 (grid9.coords t) := fun h => by have := (hcond9_1 t).mp h; omega
    rw [Dat.leavesExact_idle (dat9 V c) 7 t (idleAt9_7 t hc1) (noFlush9_7 t hc1),
      Dat.leavesExact_idle (dat9 V c) 8 t (idleAt9_8 t hc1) (noFlush9_8 t hc1)]
    rw [outsAt9_A V c t hz hc0 hc1]
    (try dsimp only)
    rw [PhiS9_castSucc V c t, PhiS9_zero V c _ _ hz, PhiA9_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun9_A c (grid9.coords t) _ _ _ _ _ _ _ _ _ _ _ _ _ _ _ _ _ _ _ _ _ _ hc0 hc1 (iblk9 V c 0 t) (iblk9 V c 1 t) (iblk9 V c 2 t) (iblk9 V c 3 t) (iblk9 V c 4 t) (iblk9 V c 5 t) (iblk9 V c 6 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA9_0 c _ _ _ _ _ _ _ _ _ _ _ _ _ _ _ _ _ _ _ _ _ _ _ hc0 hc1 _ _ _ _ _ _ _)
          · unfold owns; iexists _; isplitr
            swap; · iexact HS1
            ipureintro; exact View.read_writes_of_cover _ _ _ _ _ (scoverA9_1 c _ _ _ _ _ _ _ _ _ _ _ _ _ _ _ _ _ _ _ _ _ _ _ hc0 hc1 _ _ _ _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · have hc0 : ¬cond9_0 (grid9.coords t) := fun h => by have := (hcond9_0 t).mp h; omega
    rw [PhiS9_castSucc V c t, PhiS9_pos V c _ _ hz]
    by_cases h1 : t.val % 10 = 9
    · have hc1 : cond9_1 (grid9.coords t) := (hcond9_1 t).mpr h1
      rw [show (dat9 V c).leavesExact 7 t = owns (c : Thread nD τ) (ms9_7 t) fullShare ((dat9 V c).after 7 t) from by
        unfold Dat.leavesExact; rw [liveAt9_7 t hc1], after9_7]
      rw [show (dat9 V c).leavesExact 8 t = owns (c : Thread nD τ) (ms9_8 t) fullShare ((dat9 V c).after 8 t) from by
        unfold Dat.leavesExact; rw [liveAt9_8 t hc1], after9_8]
      rw [outsAt9_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun9_C c (grid9.coords t) _ _ _ _ _ _ _ _ _ _ _ _ _ _ _ _ _ _ _ _ _ _ hc0 hc1 (iblk9 V c 0 t) (iblk9 V c 1 t) (iblk9 V c 2 t) (iblk9 V c 3 t) (iblk9 V c 4 t) (iblk9 V c 5 t) (iblk9 V c 6 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, ⟨%e1, H7⟩, ⟨%e2, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC9_0 c _ _ _ _ _ _ _ _ _ _ _ _ _ _ _ _ _ _ _ _ _ _ _ hc0 hc1 _ _ _ _ _ _ _ _ _)
            · unfold owns; iexists _; isplitr
              swap; · iexact HS1
              ipureintro; exact View.read_writes_of_cover _ _ _ _ _ (scoverC9_1 c _ _ _ _ _ _ _ _ _ _ _ _ _ _ _ _ _ _ _ _ _ _ _ hc0 hc1 _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverC9_1 c _ _ _ _ _ _ _ _ _ _ _ _ _ _ _ _ _ _ _ _ _ _ _ hc0 hc1 _ _ _ _ _ _ _ _ _)
      unfold owns; iexists _; isplitr
      swap; · iexact H8
      ipureintro; exact View.read_writes_of_cover _ _ _ _ _ (coverC9_2 c _ _ _ _ _ _ _ _ _ _ _ _ _ _ _ _ _ _ _ _ _ _ _ hc0 hc1 _ _ _ _ _ _ _ _ _)
    · have hc1 : ¬cond9_1 (grid9.coords t) := fun h => h1 ((hcond9_1 t).mp h)
      rw [Dat.leavesExact_idle (dat9 V c) 7 t (idleAt9_7 t hc1) (noFlush9_7 t hc1),
        Dat.leavesExact_idle (dat9 V c) 8 t (idleAt9_8 t hc1) (noFlush9_8 t hc1)]
      rw [outsAt9_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun9_B c (grid9.coords t) _ _ _ _ _ _ _ _ _ _ _ _ _ _ _ _ _ _ _ _ _ _ hc0 hc1 (iblk9 V c 0 t) (iblk9 V c 1 t) (iblk9 V c 2 t) (iblk9 V c 3 t) (iblk9 V c 4 t) (iblk9 V c 5 t) (iblk9 V c 6 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB9_0 c _ _ _ _ _ _ _ _ _ _ _ _ _ _ _ _ _ _ _ _ _ _ _ hc0 hc1 _ _ _ _ _ _ _ _ _)
            · unfold owns; iexists _; isplitr
              swap; · iexact HS1
              ipureintro; exact View.read_writes_of_cover _ _ _ _ _ (scoverB9_1 c _ _ _ _ _ _ _ _ _ _ _ _ _ _ _ _ _ _ _ _ _ _ _ hc0 hc1 _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

theorem body_obligation9 (c : Dev nD) : BodyObligation (dat9 (F := F) V c) (defs₀ (F := F)) Variants.none () Set.univ := fun t => by
  rw [bigSep_W9, bigSep_W9]
  exact sound_body9 V c t

theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

theorem hout9 (c : Dev nD) : (dat9 V c).Φ (Fin.last cfg9.N) ⊢ Pipeline.ΦA spec9 c := by
  rw [show (dat9 V c).Φ (Fin.last cfg9.N) = PhiS9 V c (Fin.last cfg9.N).val (Nat.le_of_lt_succ (Fin.last cfg9.N).isLt) from rfl,
    PhiS9_pos V c _ _ (by rw [Fin.val_last]; have : cfg9.N = 10 := N_9; omega), PhiA9_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.KernelIdeal.Hand

end
-- ==== Proof.R10A.lean ====
/-
  Pipeline 10 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)
theorem before10_8_of {c : Dev nD} (dat : Dat τ (Elt F) Unit ℕ (UR sig nD τ) ℕ cfg10 c) (hA : dat.A 8 = V c (Pipeline.arrRef spec10 8))
    (hafter : ∀ t, dat.after 8 t = iblk10 V c 8 t) (t : Fin cfg10.N) (d) : dat.before 8 t d = iblk10 V c 8 t :=
  (dat.before_in_eq_fetched 8 rfl (fun _ => rfl) (fun _ _ _ => rfl) (fun t => by rw [hafter]; unfold Dat.blockOf iblk10; rw [hA]; try rfl) t d).trans
    (by unfold Dat.fetched Dat.blockOf iblk10; rw [hA]; try rfl)

abbrev cond10_0 (i : grid10.Coords) : Prop := (Scalar.cmpi .ne (Scalar.extui (Scalar.cmpi .eq (BitVec.ofNat 32 (i 0).val) 0#32)) 0#32) = 1#1
theorem hcond10_0 : ∀ t : Fin cfg10.N, cond10_0 (grid10.coords t) ↔ t.val % 10 = 0 :=
  (by decide +kernel : ∀ t : Fin grid10.N, cond10_0 (grid10.coords t) ↔ t.val % 10 = 0)
abbrev cond10_1 (i : grid10.Coords) : Prop := k10_cond2 i = 1#1
theorem hcond10_1 : ∀ t : Fin cfg10.N, cond10_1 (grid10.coords t) ↔ t.val % 10 = 9 :=
  (by decide +kernel : ∀ t : Fin grid10.N, cond10_1 (grid10.coords t) ↔ t.val % 10 = 9)
theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem liveAt10_3 : ∀ t : Fin cfg10.N, cfg10.idle 3 (grid10.coords t) = false := by decide +kernel
theorem liveAt10_4 : ∀ t : Fin cfg10.N, cfg10.idle 4 (grid10.coords t) = false := by decide +kernel
theorem liveAt10_5 : ∀ t : Fin cfg10.N, cfg10.idle 5 (grid10.coords t) = false := by decide +kernel
theorem liveAt10_6 : ∀ t : Fin cfg10.N, cfg10.idle 6 (grid10.coords t) = false := by decide +kernel
theorem liveAt10_7 : ∀ t : Fin cfg10.N, cfg10.idle 7 (grid10.coords t) = false := by decide +kernel
theorem liveAt10_8 : ∀ t : Fin cfg10.N, cfg10.idle 8 (grid10.coords t) = false := by decide +kernel
theorem idleAt10_9 : ∀ t : Fin cfg10.N, ¬cond10_1 (grid10.coords t) → cfg10.idle 9 (grid10.coords t) = true := by decide +kernel
theorem noFlush10_9 : ∀ t : Fin cfg10.N, ¬cond10_1 (grid10.coords t) → (cfg10.win 9).flush t = false := by decide +kernel
theorem liveAt10_9 : ∀ t : Fin cfg10.N, cond10_1 (grid10.coords t) → cfg10.idle 9 (grid10.coords t) = false := by decide +kernel
theorem idleAt10_10 : ∀ t : Fin cfg10.N, ¬cond10_1 (grid10.coords t) → cfg10.idle 10 (grid10.coords t) = true := by decide +kernel
theorem noFlush10_10 : ∀ t : Fin cfg10.N, ¬cond10_1 (grid10.coords t) → (cfg10.win 10).flush t = false := by decide +kernel
theorem liveAt10_10 : ∀ t : Fin cfg10.N, cond10_1 (grid10.coords t) → cfg10.idle 10 (grid10.coords t) = false := by decide +kernel
abbrev ms10_0 (t : Fin cfg10.N) : Memref sig .tc .vmem S5000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S128x128 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S128x128 .bf16 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x128 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S1x128 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S1x128 .f32 := win10_5.stage (cfg10.slots t 5)
abbrev hs10_5 (t : Fin cfg10.N) : (ms10_5 t).IsWhole := hstage10_5 ((cfg10.slots t 5).cast nbuf10_5)
abbrev ms10_6 (t : Fin cfg10.N) : Memref sig .tc .vmem S1x128 .f32 := win10_6.stage (cfg10.slots t 6)
abbrev hs10_6 (t : Fin cfg10.N) : (ms10_6 t).IsWhole := hstage10_6 ((cfg10.slots t 6).cast nbuf10_6)
abbrev ms10_7 (t : Fin cfg10.N) : Memref sig .tc .vmem S1x128 .f32 := win10_7.stage (cfg10.slots t 7)
abbrev hs10_7 (t : Fin cfg10.N) : (ms10_7 t).IsWhole := hstage10_7 ((cfg10.slots t 7).cast nbuf10_7)
abbrev ms10_8 (t : Fin cfg10.N) : Memref sig .tc .vmem S1x128 .f32 := win10_8.stage (cfg10.slots t 8)
abbrev hs10_8 (t : Fin cfg10.N) : (ms10_8 t).IsWhole := hstage10_8 ((cfg10.slots t 8).cast nbuf10_8)
abbrev ms10_9 (t : Fin cfg10.N) : Memref sig .tc .vmem S1x128 .f32 := win10_9.stage (cfg10.slots t 9)
abbrev hs10_9 (t : Fin cfg10.N) : (ms10_9 t).IsWhole := hstage10_9 ((cfg10.slots t 9).cast nbuf10_9)
abbrev ms10_10 (t : Fin cfg10.N) : Memref sig .tc .vmem S1x128 .f32 := win10_10.stage (cfg10.slots t 10)
abbrev hs10_10 (t : Fin cfg10.N) : (ms10_10 t).IsWhole := hstage10_10 ((cfg10.slots t 10).cast nbuf10_10)
abbrev scM10_0 : Memref sig .tc .vmem S1x128 .f32 := Memref.whole cc10_scratch0
abbrev scM10_1 : Memref sig .tc .vmem S1x128 .f32 := Memref.whole cc10_scratch1

theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d))
          ∗ Pipeline.scopedRestBut (Ix := Unit) (Name := ℕ) (U := UR sig nD τ) (Lvl := ℕ) (Val := Elt F) spec10 c [cc10_scratch0, cc10_scratch1]) ∗ (∃ r, prngReg c r)) := by
  unfold Pipeline.ΦA; rw [scopedRest10_split]; simp only [scM10_0, scM10_1, owns_whole]; try rfl

set_option maxHeartbeats 2000000 in
noncomputable def kernelRun10_A (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond10_0 i) (hc1 : ¬cond10_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc10__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi1 xi2 E K => ?run⟩
  case run =>
    simp only [cc10__stage3_kernel_eq_skeleton]; unfold cc10__stage3_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg10.eq_unread hfo1; obtain rfl := harg11.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]
    · iexists _; isplitr; · ipureintro; exact harg10.read_unread _
      iexact HO1
    isplitl [HO2]
    · iexists _; isplitr; · ipureintro; exact harg11.read_unread _
      iexact HO2
    isplitl [HS0]; · iexists _; iexact HS0
    iexists _; iexact HS1

set_option maxHeartbeats 2000000 in
noncomputable def kernelRun10_B (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : ¬cond10_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc10__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi1 xi2 E K => ?run⟩
  case run =>
    simp only [cc10__stage3_kernel_eq_skeleton]; unfold cc10__stage3_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg10.eq_unread hfo1; obtain rfl := harg11.eq_unread hfo2; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]
    · iexists _; isplitr; · ipureintro; exact harg10.read_unread _
      iexact HO1
    isplitl [HO2]
    · iexists _; isplitr; · ipureintro; exact harg11.read_unread _
      iexact HO2
    isplitl [HS0]; · iexists _; iexact HS0
    iexists _; iexact HS1

set_option maxHeartbeats 2000000 in
noncomputable def kernelRun10_C (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : cond10_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc10__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc10__stage3_kernel_eq_skeleton]; unfold cc10__stage3_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]; · iexists _; iexact HO1
    isplitl [HO2]; · iexists _; iexact HO2
    isplitl [HS0]; · iexists _; iexact HS0
    iexists _; iexact HS1

end Cert.KernelIdeal.Hand

end
-- ==== Proof.R10B.lean ====
/-
  Pipeline 10 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R10A
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev VW10 : View sig .tc .vmem S1x128 .f32 := scM10_0.view
def rd10 (L : List (View.Piece (Elt F) S1x128 .f32)) : Vec F S1x128 .f32 := VW10.read (Elt F) (VW10.writes (Elt F) VW10.junk L)

theorem scoverA10_0 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond10_0 i) (hc1 : ¬cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S1x128.Idx) :
    ∃ pc ∈ (kernelRun10_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1, y ∈ pc.1.set :=
  View.cover_of_tiledL (kernelRun10_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 S1x128.size (by sl_kernel_rfl) y
theorem scoverA10_1 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond10_0 i) (hc1 : ¬cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S1x128.Idx) :
    ∃ pc ∈ (kernelRun10_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1, y ∈ pc.1.set :=
  View.cover_of_tiledL (kernelRun10_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 S1x128.size (by sl_kernel_rfl) y
theorem scoverB10_0 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : ¬cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun10_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1, y ∈ pc.1.set :=
  View.cover_of_tiledL (kernelRun10_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 S1x128.size (by sl_kernel_rfl) y
theorem scoverB10_1 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : ¬cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun10_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1, y ∈ pc.1.set :=
  View.cover_of_tiledL (kernelRun10_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 S1x128.size (by sl_kernel_rfl) y
theorem coverC10_1 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1, y ∈ pc.1.set :=
  View.cover_of_tiledL (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 S1x128.size (by sl_kernel_rfl) y
theorem coverC10_2 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1, y ∈ pc.1.set :=
  View.cover_of_tiledL (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 S1x128.size (by sl_kernel_rfl) y
theorem scoverC10_0 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1, y ∈ pc.1.set :=
  View.cover_of_tiledL (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1 S1x128.size (by sl_kernel_rfl) y
theorem scoverC10_1 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1, y ∈ pc.1.set :=
  View.cover_of_tiledL (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1 S1x128.size (by sl_kernel_rfl) y

theorem c0_zero10 (hn : 0 < cfg10.N) : cond10_0 (grid10.coords ⟨0, hn⟩) := (hcond10_0 ⟨0, hn⟩).mpr (Nat.zero_mod _)
theorem nc1_zero10 (hn : 0 < cfg10.N) : ¬cond10_1 (grid10.coords ⟨0, hn⟩) :=
  fun h => by have := (hcond10_1 ⟨0, hn⟩).mp h; (try dsimp only at this); omega
theorem nc0_succ10 (n : ℕ) (hn : n + 1 < cfg10.N) : ¬cond10_0 (grid10.coords ⟨n + 1, hn⟩) := fun h => by
  have hN : n + 1 < 10 := lt_of_lt_of_eq hn (show cfg10.N = 10 from N_10)
  have := (hcond10_0 ⟨n + 1, hn⟩).mp h; (try dsimp only at this); omega

def outsAt10 (c : Dev nD) : (n : ℕ) → n < cfg10.N → Vec F S1x128 .f32 × Vec F S1x128 .f32 × Vec F S1x128 .f32 × Vec F S1x128 .f32
  | 0, hn => (rd10 [], rd10 [], rd10 (kernelRun10_A c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) (ms10_8 ⟨0, hn⟩) (hs10_8 ⟨0, hn⟩) (ms10_9 ⟨0, hn⟩) (hs10_9 ⟨0, hn⟩) (ms10_10 ⟨0, hn⟩) (hs10_10 ⟨0, hn⟩) scM10_0 (Memref.isWhole_whole _) scM10_1 (Memref.isWhole_whole _) (c0_zero10 hn) (nc1_zero10 hn) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩) (iblk10 V c 7 ⟨0, hn⟩) (iblk10 V c 8 ⟨0, hn⟩)).1, rd10 (kernelRun10_A c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) (ms10_8 ⟨0, hn⟩) (hs10_8 ⟨0, hn⟩) (ms10_9 ⟨0, hn⟩) (hs10_9 ⟨0, hn⟩) (ms10_10 ⟨0, hn⟩) (hs10_10 ⟨0, hn⟩) scM10_0 (Memref.isWhole_whole _) scM10_1 (Memref.isWhole_whole _) (c0_zero10 hn) (nc1_zero10 hn) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩) (iblk10 V c 7 ⟨0, hn⟩) (iblk10 V c 8 ⟨0, hn⟩)).2.1)
  | n + 1, hn =>
    if h1 : (n + 1) % 10 = 9 then
      (rd10 (kernelRun10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (ms10_10 ⟨n + 1, hn⟩) (hs10_10 ⟨n + 1, hn⟩) scM10_0 (Memref.isWhole_whole _) scM10_1 (Memref.isWhole_whole _) (nc0_succ10 n hn) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.1 (outsAt10 c n (Nat.lt_of_succ_lt hn)).2.2.2).1, rd10 (kernelRun10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (ms10_10 ⟨n + 1, hn⟩) (hs10_10 ⟨n + 1, hn⟩) scM10_0 (Memref.isWhole_whole _) scM10_1 (Memref.isWhole_whole _) (nc0_succ10 n hn) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.1 (outsAt10 c n (Nat.lt_of_succ_lt hn)).2.2.2).2.1, rd10 (kernelRun10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (ms10_10 ⟨n + 1, hn⟩) (hs10_10 ⟨n + 1, hn⟩) scM10_0 (Memref.isWhole_whole _) scM10_1 (Memref.isWhole_whole _) (nc0_succ10 n hn) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.1 (outsAt10 c n (Nat.lt_of_succ_lt hn)).2.2.2).2.2.1, rd10 (kernelRun10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (ms10_10 ⟨n + 1, hn⟩) (hs10_10 ⟨n + 1, hn⟩) scM10_0 (Memref.isWhole_whole _) scM10_1 (Memref.isWhole_whole _) (nc0_succ10 n hn) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.1 (outsAt10 c n (Nat.lt_of_succ_lt hn)).2.2.2).2.2.2.1)
    else
      (rd10 [], rd10 [], rd10 (kernelRun10_B c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (ms10_10 ⟨n + 1, hn⟩) (hs10_10 ⟨n + 1, hn⟩) scM10_0 (Memref.isWhole_whole _) scM10_1 (Memref.isWhole_whole _) (nc0_succ10 n hn) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.1 (outsAt10 c n (Nat.lt_of_succ_lt hn)).2.2.2).1, rd10 (kernelRun10_B c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (ms10_10 ⟨n + 1, hn⟩) (hs10_10 ⟨n + 1, hn⟩) scM10_0 (Memref.isWhole_whole _) scM10_1 (Memref.isWhole_whole _) (nc0_succ10 n hn) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.1 (outsAt10 c n (Nat.lt_of_succ_lt hn)).2.2.2).2.1)

theorem outsAt10_A (c : Dev nD) (t : Fin cfg10.N) (hz : t.val = 0) (hc0 : cond10_0 (grid10.coords t)) (hc1 : ¬cond10_1 (grid10.coords t)) :
    outsAt10 V c t.val t.isLt = (rd10 [], rd10 [], rd10 (kernelRun10_A c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t)).1, rd10 (kernelRun10_A c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t)).2.1) := by
  obtain ⟨n, hn⟩ := t
  cases n with
  | zero => rfl
  | succ n => exact absurd hz (Nat.succ_ne_zero n)
theorem outsAt10_B (c : Dev nD) (t : Fin cfg10.N) (hz : t.val ≠ 0) (h1 : ¬t.val % 10 = 9) (hc0 : ¬cond10_0 (grid10.coords t)) (hc1 : ¬cond10_1 (grid10.coords t)) :
    outsAt10 V c t.val t.isLt = (rd10 [], rd10 [], rd10 (kernelRun10_B c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.1 (outsAt10 V c (t.val - 1) (Nat.lt_of_le_of_lt (Nat.sub_le _ _) t.isLt)).2.2.2).1, rd10 (kernelRun10_B c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.1 (outsAt10 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt10_C (c : Dev nD) (t : Fin cfg10.N) (hz : t.val ≠ 0) (h1 : t.val % 10 = 9) (hc0 : ¬cond10_0 (grid10.coords t)) (hc1 : cond10_1 (grid10.coords t)) :
    outsAt10 V c t.val t.isLt = (rd10 (kernelRun10_C c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.1 (outsAt10 V c (t.val - 1) (Nat.lt_of_le_of_lt (Nat.sub_le _ _) t.isLt)).2.2.2).1, rd10 (kernelRun10_C c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.1 (outsAt10 V c (t.val - 1) (Nat.lt_of_le_of_lt (Nat.sub_le _ _) t.isLt)).2.2.2).2.1, rd10 (kernelRun10_C c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.1 (outsAt10 V c (t.val - 1) (Nat.lt_of_le_of_lt (Nat.sub_le _ _) t.isLt)).2.2.2).2.2.1, rd10 (kernelRun10_C c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.1 (outsAt10 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest10 (c : Dev nD) : sProp 𝕄 :=
  Pipeline.scopedRestBut (Ix := Unit) (Name := ℕ) (U := UR sig nD τ) (Lvl := ℕ) (Val := Elt F) spec10 c [cc10_scratch0, cc10_scratch1]

def PhiS10 (c : Dev nD) : (n : ℕ) → n ≤ cfg10.N → sProp 𝕄
  | 0, _ => Pipeline.ΦA spec10 c
  | n + 1, hn => iprop(iprop(iprop(owns (c : Thread nD τ) scM10_0 fullShare ((outsAt10 V c n hn).2.2.1) ∗ owns (c : Thread nD τ) scM10_1 fullShare ((outsAt10 V c n hn).2.2.2)) ∗ rest10 c) ∗ (∃ r, prngReg c r))
theorem PhiS10_zero (c : Dev nD) (n : ℕ) (h : n ≤ cfg10.N) (hz : n = 0) : PhiS10 V c n h = Pipeline.ΦA spec10 c := by
  subst hz; rfl
theorem PhiS10_succ (c : Dev nD) (n : ℕ) (hn : n < cfg10.N) :
    PhiS10 V c (n + 1) hn = iprop(iprop(iprop(owns (c : Thread nD τ) scM10_0 fullShare ((outsAt10 V c n hn).2.2.1) ∗ owns (c : Thread nD τ) scM10_1 fullShare ((outsAt10 V c n hn).2.2.2)) ∗ rest10 c) ∗ (∃ r, prngReg c r)) := rfl
theorem PhiS10_pos (c : Dev nD) (n : ℕ) (h : n ≤ cfg10.N) (hz : n ≠ 0) :
    PhiS10 V c n h = iprop(iprop(iprop(owns (c : Thread nD τ) scM10_0 fullShare ((outsAt10 V c (n - 1) (by omega)).2.2.1) ∗ owns (c : Thread nD τ) scM10_1 fullShare ((outsAt10 V c (n - 1) (by omega)).2.2.2)) ∗ rest10 c) ∗ (∃ r, prngReg c r)) := by
  cases n with
  | zero => exact absurd rfl hz
  | succ n => rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => iblk10 V c 8 t
    | ⟨9, _⟩ => (outsAt10 V c t.val t.isLt).1
    | ⟨10, _⟩ => (outsAt10 V c t.val t.isLt).2.1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]
theorem PhiS10_castSucc (c : Dev nD) (t : Fin cfg10.N) :
    (dat10 V c).Φ t.castSucc = PhiS10 V c t.val (Nat.le_of_lt t.isLt) := by
  dsimp only [dat10]; simp only [Fin.coe_castSucc]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = iblk10 V c 8 t := by dsimp only [dat10]
theorem after10_9 (c : Dev nD) (t : Fin cfg10.N) : (dat10 V c).after 9 t = (outsAt10 V c t.val t.isLt).1 := by dsimp only [dat10]
theorem after10_10 (c : Dev nD) (t : Fin cfg10.N) : (dat10 V c).after 10 t = (outsAt10 V c t.val t.isLt).2.1 := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
theorem before10_7 (c : Dev nD) (t : Fin cfg10.N) (d) : (dat10 V c).before 7 t d = iblk10 V c 7 t :=
  before10_7_of V (dat10 V c) (A_eq10 V c 7) (after10_7 V c) t d
theorem before10_8 (c : Dev nD) (t : Fin cfg10.N) (d) : (dat10 V c).before 8 t d = iblk10 V c 8 t :=
  before10_8_of V (dat10 V c) (A_eq10 V c 8) (after10_8 V c) t d

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d))
    ∗ (∃ d, owns (c : Thread nD τ) (ms10_6 t) fullShare ((dat10 V c).before 6 t d))
    ∗ (∃ d, owns (c : Thread nD τ) (ms10_7 t) fullShare ((dat10 V c).before 7 t d))
    ∗ (∃ d, owns (c : Thread nD τ) (ms10_8 t) fullShare ((dat10 V c).before 8 t d))
    ∗ (∃ d, owns (c : Thread nD τ) (ms10_9 t) fullShare ((dat10 V c).before 9 t d))
    ∗ (∃ d, owns (c : Thread nD τ) (ms10_10 t) fullShare ((dat10 V c).before 10 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t
    ∗ (dat10 V c).leavesExact 7 t
    ∗ (dat10 V c).leavesExact 8 t
    ∗ (dat10 V c).leavesExact 9 t
    ∗ (dat10 V c).leavesExact 10 t)

set_option maxHeartbeats 8000000 in
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6, before10_7, before10_8]
  rw [show (dat10 V c).owesAt () t.succ = (dat10 V c).owesAt () t.castSucc from rfl]
  rw [show (dat10 V c).Φ t.succ = PhiS10 V c (t.val + 1) t.isLt from rfl, PhiS10_succ]
  have hN : t.val < 10 := lt_of_lt_of_eq t.isLt (show cfg10.N = 10 from N_10)
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  rw [show (dat10 V c).leavesExact 2 t = owns (c : Thread nD τ) (ms10_2 t) fullShare ((dat10 V c).after 2 t) from by
    unfold Dat.leavesExact; rw [liveAt10_2 t], after10_2]
  rw [show (dat10 V c).leavesExact 3 t = owns (c : Thread nD τ) (ms10_3 t) fullShare ((dat10 V c).after 3 t) from by
    unfold Dat.leavesExact; rw [liveAt10_3 t], after10_3]
  rw [show (dat10 V c).leavesExact 4 t = owns (c : Thread nD τ) (ms10_4 t) fullShare ((dat10 V c).after 4 t) from by
    unfold Dat.leavesExact; rw [liveAt10_4 t], after10_4]
  rw [show (dat10 V c).leavesExact 5 t = owns (c : Thread nD τ) (ms10_5 t) fullShare ((dat10 V c).after 5 t) from by
    unfold Dat.leavesExact; rw [liveAt10_5 t], after10_5]
  rw [show (dat10 V c).leavesExact 6 t = owns (c : Thread nD τ) (ms10_6 t) fullShare ((dat10 V c).after 6 t) from by
    unfold Dat.leavesExact; rw [liveAt10_6 t], after10_6]
  rw [show (dat10 V c).leavesExact 7 t = owns (c : Thread nD τ) (ms10_7 t) fullShare ((dat10 V c).after 7 t) from by
    unfold Dat.leavesExact; rw [liveAt10_7 t], after10_7]
  rw [show (dat10 V c).leavesExact 8 t = owns (c : Thread nD τ) (ms10_8 t) fullShare ((dat10 V c).after 8 t) from by
    unfold Dat.leavesExact; rw [liveAt10_8 t], after10_8]
  by_cases hz : t.val = 0
  · have hc0 : cond10_0 (grid10.coords t) := (hcond10_0 t).mpr (by omega)
    have hc1 : ¬cond10_1 (grid10.coords t) := fun h => by have := (hcond10_1 t).mp h; omega
    rw [Dat.leavesExact_idle (dat10 V c) 9 t (idleAt10_9 t hc1) (noFlush10_9 t hc1),
      Dat.leavesExact_idle (dat10 V c) 10 t (idleAt10_10 t hc1) (noFlush10_10 t hc1)]
    rw [outsAt10_A V c t hz hc0 hc1]
    (try dsimp only)
    rw [PhiS10_castSucc V c t, PhiS10_zero V c _ _ hz, PhiA10_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun10_A c (grid10.coords t) _ _ _ _ _ _ _ _ _ _ _ _ _ _ _ _ _ _ _ _ _ _ _ _ _ _ hc0 hc1 (iblk10 V c 0 t) (iblk10 V c 1 t) (iblk10 V c 2 t) (iblk10 V c 3 t) (iblk10 V c 4 t) (iblk10 V c 5 t) (iblk10 V c 6 t) (iblk10 V c 7 t) (iblk10 V c 8 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA10_0 c _ _ _ _ _ _ _ _ _ _ _ _ _ _ _ _ _ _ _ _ _ _ _ _ _ _ _ hc0 hc1 _ _ _ _ _ _ _ _ _)
          · unfold owns; iexists _; isplitr
            swap; · iexact HS1
            ipureintro; exact View.read_writes_of_cover _ _ _ _ _ (scoverA10_1 c _ _ _ _ _ _ _ _ _ _ _ _ _ _ _ _ _ _ _ _ _ _ _ _ _ _ _ hc0 hc1 _ _ _ _ _ _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have hc0 : ¬cond10_0 (grid10.coords t) := fun h => by have := (hcond10_0 t).mp h; omega
    rw [PhiS10_castSucc V c t, PhiS10_pos V c _ _ hz]
    by_cases h1 : t.val % 10 = 9
    · have hc1 : cond10_1 (grid10.coords t) := (hcond10_1 t).mpr h1
      rw [show (dat10 V c).leavesExact 9 t = owns (c : Thread nD τ) (ms10_9 t) fullShare ((dat10 V c).after 9 t) from by
        unfold Dat.leavesExact; rw [liveAt10_9 t hc1], after10_9]
      rw [show (dat10 V c).leavesExact 10 t = owns (c : Thread nD τ) (ms10_10 t) fullShare ((dat10 V c).after 10 t) from by
        unfold Dat.leavesExact; rw [liveAt10_10 t hc1], after10_10]
      rw [outsAt10_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun10_C c (grid10.coords t) _ _ _ _ _ _ _ _ _ _ _ _ _ _ _ _ _ _ _ _ _ _ _ _ _ _ hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, ⟨%e1, H9⟩, ⟨%e2, H10⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC10_0 c _ _ _ _ _ _ _ _ _ _ _ _ _ _ _ _ _ _ _ _ _ _ _ _ _ _ _ hc0 hc1 _ _ _ _ _ _ _ _ _ _ _)
            · unfold owns; iexists _; isplitr
              swap; · iexact HS1
              ipureintro; exact View.read_writes_of_cover _ _ _ _ _ (scoverC10_1 c _ _ _ _ _ _ _ _ _ _ _ _ _ _ _ _ _ _ _ _ _ _ _ _ _ _ _ hc0 hc1 _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverC10_1 c _ _ _ _ _ _ _ _ _ _ _ _ _ _ _ _ _ _ _ _ _ _ _ _ _ _ _ hc0 hc1 _ _ _ _ _ _ _ _ _ _ _)
      unfold owns; iexists _; isplitr
      swap; · iexact H10
      ipureintro; exact View.read_writes_of_cover _ _ _ _ _ (coverC10_2 c _ _ _ _ _ _ _ _ _ _ _ _ _ _ _ _ _ _ _ _ _ _ _ _ _ _ _ hc0 hc1 _ _ _ _ _ _ _ _ _ _ _)
    · have hc1 : ¬cond10_1 (grid10.coords t) := fun h => h1 ((hcond10_1 t).mp h)
      rw [Dat.leavesExact_idle (dat10 V c) 9 t (idleAt10_9 t hc1) (noFlush10_9 t hc1),
        Dat.leavesExact_idle (dat10 V c) 10 t (idleAt10_10 t hc1) (noFlush10_10 t hc1)]
      rw [outsAt10_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun10_B c (grid10.coords t) _ _ _ _ _ _ _ _ _ _ _ _ _ _ _ _ _ _ _ _ _ _ _ _ _ _ hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB10_0 c _ _ _ _ _ _ _ _ _ _ _ _ _ _ _ _ _ _ _ _ _ _ _ _ _ _ _ hc0 hc1 _ _ _ _ _ _ _ _ _ _ _)
            · unfold owns; iexists _; isplitr
              swap; · iexact HS1
              ipureintro; exact View.read_writes_of_cover _ _ _ _ _ (scoverB10_1 c _ _ _ _ _ _ _ _ _ _ _ _ _ _ _ _ _ _ _ _ _ _ _ _ _ _ _ hc0 hc1 _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

theorem body_obligation10 (c : Dev nD) : BodyObligation (dat10 (F := F) V c) (defs₀ (F := F)) Variants.none () Set.univ := fun t => by
  rw [bigSep_W10, bigSep_W10]
  exact sound_body10 V c t

theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

theorem hout10 (c : Dev nD) : (dat10 V c).Φ (Fin.last cfg10.N) ⊢ Pipeline.ΦA spec10 c := by
  rw [show (dat10 V c).Φ (Fin.last cfg10.N) = PhiS10 V c (Fin.last cfg10.N).val (Nat.le_of_lt_succ (Fin.last cfg10.N).isLt) from rfl,
    PhiS10_pos V c _ _ (by rw [Fin.val_last]; have : cfg10.N = 10 := N_10; omega), PhiA10_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.KernelIdeal.Hand

end
-- ==== Proof.R3.lean ====
/-
  Pipeline 3 (the kernel that writes a layer's output). At each of the ten grid points the body recomputes, for
  its tile of 5000 rows, lin1 = x · W0, the first batch norm and rectifier, lin2 = (·) · W1, the second batch norm
  and rectifier and the third batch norm (with a rectifier except in the last layer), and stores the [5000, 128]
  result into the output window's block; it keeps nothing between points. Here: a window's block at a point,
  each input's staging buffer at that block whether fetched or not, the body's run on whole staging memrefs
  (what the output buffer ends with found as the list of its stores), the proof data and the body obligation.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S128x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x128 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x128 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S5000x128 .f32 := win3_9.stage (cfg3.slots t 9)
abbrev hs3_9 (t : Fin cfg3.N) : (ms3_9 t).IsWhole := hstage3_9 ((cfg3.slots t 9).cast nbuf3_9)

set_option maxHeartbeats 2000000 in
noncomputable def kernelRun3 (c : Dev nD) (i : grid3.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    { L : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do1, %fo1, -, HO⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact HO

abbrev VB3 : View sig .tc .vmem S5000x128 .f32 := (ms3_9 t3_0).view
def rd3 (L : List (View.Piece (Elt F) S5000x128 .f32)) : Vec F S5000x128 .f32 := VB3.read (Elt F) (VB3.writes (Elt F) VB3.junk L)

theorem cover3 (c : Dev nD) (i : grid3.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S5000x128.Idx) :
    ∃ pc ∈ (kernelRun3 c i arg1 harg1 arg2 harg2 arg3 harg3 arg4 harg4 arg5 harg5 arg6 harg6 arg7 harg7 arg8 harg8 arg9 harg9 arg10 harg10 x0 x1 x2 x3 x4 x5 x6 x7 x8).1, y ∈ pc.1.set :=
  View.cover_of_tiledL (kernelRun3 c i arg1 harg1 arg2 harg2 arg3 harg3 arg4 harg4 arg5 harg5 arg6 harg6 arg7 harg7 arg8 harg8 arg9 harg9 arg10 harg10 x0 x1 x2 x3 x4 x5 x6 x7 x8).1 S5000x128.size (by sl_kernel_rfl) y

def out3 (c : Dev nD) (t : Fin cfg3.N) : Vec F S5000x128 .f32 :=
  rd3 (kernelRun3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (iblk3 V c 0 t) (iblk3 V c 1 t) (iblk3 V c 2 t) (iblk3 V c 3 t) (iblk3 V c 4 t) (iblk3 V c 5 t) (iblk3 V c 6 t) (iblk3 V c 7 t) (iblk3 V c 8 t)).1

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3 V c t
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t)
    ∗ owns (c : Thread nD τ) (ms3_7 t) fullShare ((dat3 V c).after 7 t)
    ∗ owns (c : Thread nD τ) (ms3_8 t) fullShare ((dat3 V c).after 8 t)
    ∗ owns (c : Thread nD τ) (ms3_9 t) fullShare ((dat3 V c).after 9 t))

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  unfold out3
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun3 c (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover3 c _ _ _ _ _ _ _ _ _ _ _ _ _ _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.R7.lean ====
/-
  Pipeline 7 (the kernel that writes a layer's output). At each of the ten grid points the body recomputes, for
  its tile of 5000 rows, lin1 = x · W0, the first batch norm and rectifier, lin2 = (·) · W1, the second batch norm
  and rectifier and the third batch norm (with a rectifier except in the last layer), and stores the [5000, 128]
  result into the output window's block; it keeps nothing between points. Here: a window's block at a point,
  each input's staging buffer at that block whether fetched or not, the body's run on whole staging memrefs
  (what the output buffer ends with found as the list of its stores), the proof data and the body obligation.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S128x128 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S128x128 .bf16 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x128 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x128 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S1x128 .f32 := win7_7.stage (cfg7.slots t 7)
abbrev hs7_7 (t : Fin cfg7.N) : (ms7_7 t).IsWhole := hstage7_7 ((cfg7.slots t 7).cast nbuf7_7)
abbrev ms7_8 (t : Fin cfg7.N) : Memref sig .tc .vmem S1x128 .f32 := win7_8.stage (cfg7.slots t 8)
abbrev hs7_8 (t : Fin cfg7.N) : (ms7_8 t).IsWhole := hstage7_8 ((cfg7.slots t 8).cast nbuf7_8)
abbrev ms7_9 (t : Fin cfg7.N) : Memref sig .tc .vmem S5000x128 .f32 := win7_9.stage (cfg7.slots t 9)
abbrev hs7_9 (t : Fin cfg7.N) : (ms7_9 t).IsWhole := hstage7_9 ((cfg7.slots t 9).cast nbuf7_9)

set_option maxHeartbeats 2000000 in
noncomputable def kernelRun7 (c : Dev nD) (i : grid7.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    { L : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc7_kernel_eq_skeleton]; unfold cc7_kernel_skel
    simp only [k7_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do1, %fo1, -, HO⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact HO

abbrev VB7 : View sig .tc .vmem S5000x128 .f32 := (ms7_9 t7_0).view
def rd7 (L : List (View.Piece (Elt F) S5000x128 .f32)) : Vec F S5000x128 .f32 := VB7.read (Elt F) (VB7.writes (Elt F) VB7.junk L)

theorem cover7 (c : Dev nD) (i : grid7.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S5000x128.Idx) :
    ∃ pc ∈ (kernelRun7 c i arg1 harg1 arg2 harg2 arg3 harg3 arg4 harg4 arg5 harg5 arg6 harg6 arg7 harg7 arg8 harg8 arg9 harg9 arg10 harg10 x0 x1 x2 x3 x4 x5 x6 x7 x8).1, y ∈ pc.1.set :=
  View.cover_of_tiledL (kernelRun7 c i arg1 harg1 arg2 harg2 arg3 harg3 arg4 harg4 arg5 harg5 arg6 harg6 arg7 harg7 arg8 harg8 arg9 harg9 arg10 harg10 x0 x1 x2 x3 x4 x5 x6 x7 x8).1 S5000x128.size (by sl_kernel_rfl) y

def out7 (c : Dev nD) (t : Fin cfg7.N) : Vec F S5000x128 .f32 :=
  rd7 (kernelRun7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (iblk7 V c 0 t) (iblk7 V c 1 t) (iblk7 V c 2 t) (iblk7 V c 3 t) (iblk7 V c 4 t) (iblk7 V c 5 t) (iblk7 V c 6 t) (iblk7 V c 7 t) (iblk7 V c 8 t)).1

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7 V c t
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = out7 V c t := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d))
    ∗ (∃ d, owns (c : Thread nD τ) (ms7_8 t) fullShare ((dat7 V c).before 8 t d))
    ∗ (∃ d, owns (c : Thread nD τ) (ms7_9 t) fullShare ((dat7 V c).before 9 t d)))

def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t)
    ∗ owns (c : Thread nD τ) (ms7_6 t) fullShare ((dat7 V c).after 6 t)
    ∗ owns (c : Thread nD τ) (ms7_7 t) fullShare ((dat7 V c).after 7 t)
    ∗ owns (c : Thread nD τ) (ms7_8 t) fullShare ((dat7 V c).after 8 t)
    ∗ owns (c : Thread nD τ) (ms7_9 t) fullShare ((dat7 V c).after 9 t))

set_option maxHeartbeats 4000000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9]
  unfold out7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun7 c (grid7.coords t) _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover7 c _ _ _ _ _ _ _ _ _ _ _ _ _ _ _ _ _ _ _ _ _ _ _ _ _ _ _ _ _ _)

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.R11.lean ====
/-
  Pipeline 11 (the kernel that writes a layer's output). At each of the ten grid points the body recomputes, for
  its tile of 5000 rows, lin1 = x · W0, the first batch norm and rectifier, lin2 = (·) · W1, the second batch norm
  and rectifier and the third batch norm (with a rectifier except in the last layer), and stores the [5000, 128]
  result into the output window's block; it keeps nothing between points. Here: a window's block at a point,
  each input's staging buffer at that block whether fetched or not, the body's run on whole staging memrefs
  (what the output buffer ends with found as the list of its stores), the proof data and the body obligation.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)
theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)
theorem before11_7_of {c : Dev nD} (dat : Dat τ (Elt F) Unit ℕ (UR sig nD τ) ℕ cfg11 c) (hA : dat.A 7 = V c (Pipeline.arrRef spec11 7))
    (hafter : ∀ t, dat.after 7 t = iblk11 V c 7 t) (t : Fin cfg11.N) (d) : dat.before 7 t d = iblk11 V c 7 t :=
  (dat.before_in_eq_fetched 7 rfl (fun _ => rfl) (fun _ _ _ => rfl) (fun t => by rw [hafter]; unfold Dat.blockOf iblk11; rw [hA]; try rfl) t d).trans
    (by unfold Dat.fetched Dat.blockOf iblk11; rw [hA]; try rfl)
theorem before11_8_of {c : Dev nD} (dat : Dat τ (Elt F) Unit ℕ (UR sig nD τ) ℕ cfg11 c) (hA : dat.A 8 = V c (Pipeline.arrRef spec11 8))
    (hafter : ∀ t, dat.after 8 t = iblk11 V c 8 t) (t : Fin cfg11.N) (d) : dat.before 8 t d = iblk11 V c 8 t :=
  (dat.before_in_eq_fetched 8 rfl (fun _ => rfl) (fun _ _ _ => rfl) (fun t => by rw [hafter]; unfold Dat.blockOf iblk11; rw [hA]; try rfl) t d).trans
    (by unfold Dat.fetched Dat.blockOf iblk11; rw [hA]; try rfl)

abbrev ms11_0 (t : Fin cfg11.N) : Memref sig .tc .vmem S5000x128 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S128x128 .bf16 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S128x128 .bf16 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S1x128 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S1x128 .f32 := win11_4.stage (cfg11.slots t 4)
abbrev hs11_4 (t : Fin cfg11.N) : (ms11_4 t).IsWhole := hstage11_4 ((cfg11.slots t 4).cast nbuf11_4)
abbrev ms11_5 (t : Fin cfg11.N) : Memref sig .tc .vmem S1x128 .f32 := win11_5.stage (cfg11.slots t 5)
abbrev hs11_5 (t : Fin cfg11.N) : (ms11_5 t).IsWhole := hstage11_5 ((cfg11.slots t 5).cast nbuf11_5)
abbrev ms11_6 (t : Fin cfg11.N) : Memref sig .tc .vmem S1x128 .f32 := win11_6.stage (cfg11.slots t 6)
abbrev hs11_6 (t : Fin cfg11.N) : (ms11_6 t).IsWhole := hstage11_6 ((cfg11.slots t 6).cast nbuf11_6)
abbrev ms11_7 (t : Fin cfg11.N) : Memref sig .tc .vmem S1x128 .f32 := win11_7.stage (cfg11.slots t 7)
abbrev hs11_7 (t : Fin cfg11.N) : (ms11_7 t).IsWhole := hstage11_7 ((cfg11.slots t 7).cast nbuf11_7)
abbrev ms11_8 (t : Fin cfg11.N) : Memref sig .tc .vmem S1x128 .f32 := win11_8.stage (cfg11.slots t 8)
abbrev hs11_8 (t : Fin cfg11.N) : (ms11_8 t).IsWhole := hstage11_8 ((cfg11.slots t 8).cast nbuf11_8)
abbrev ms11_9 (t : Fin cfg11.N) : Memref sig .tc .vmem S5000x128 .f32 := win11_9.stage (cfg11.slots t 9)
abbrev hs11_9 (t : Fin cfg11.N) : (ms11_9 t).IsWhole := hstage11_9 ((cfg11.slots t 9).cast nbuf11_9)

set_option maxHeartbeats 2000000 in
noncomputable def kernelRun11 (c : Dev nD) (i : grid11.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    { L : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L)) -∗ K ⟨⟩))
          ⊢ wp frame (wpE (defs₀ (F := F)) Variants.none c none) E (cc11_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc11_kernel_eq_skeleton]; unfold cc11_kernel_skel
    simp only [k11_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do1, %fo1, -, HO⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact HO

abbrev VB11 : View sig .tc .vmem S5000x128 .f32 := (ms11_9 t11_0).view
def rd11 (L : List (View.Piece (Elt F) S5000x128 .f32)) : Vec F S5000x128 .f32 := VB11.read (Elt F) (VB11.writes (Elt F) VB11.junk L)

theorem cover11 (c : Dev nD) (i : grid11.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S5000x128.Idx) :
    ∃ pc ∈ (kernelRun11 c i arg1 harg1 arg2 harg2 arg3 harg3 arg4 harg4 arg5 harg5 arg6 harg6 arg7 harg7 arg8 harg8 arg9 harg9 arg10 harg10 x0 x1 x2 x3 x4 x5 x6 x7 x8).1, y ∈ pc.1.set :=
  View.cover_of_tiledL (kernelRun11 c i arg1 harg1 arg2 harg2 arg3 harg3 arg4 harg4 arg5 harg5 arg6 harg6 arg7 harg7 arg8 harg8 arg9 harg9 arg10 harg10 x0 x1 x2 x3 x4 x5 x6 x7 x8).1 S5000x128.size (by sl_kernel_rfl) y

def out11 (c : Dev nD) (t : Fin cfg11.N) : Vec F S5000x128 .f32 :=
  rd11 (kernelRun11 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (iblk11 V c 0 t) (iblk11 V c 1 t) (iblk11 V c 2 t) (iblk11 V c 3 t) (iblk11 V c 4 t) (iblk11 V c 5 t) (iblk11 V c 6 t) (iblk11 V c 7 t) (iblk11 V c 8 t)).1

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => iblk11 V c 8 t
    | ⟨9, _⟩ => out11 V c t
  Φ _ := Pipeline.ΦA spec11 c
  q _ := fullShare
  owed _ := 0

theorem A_eq11 (c : Dev nD) (w : Fin cfg11.W) : (dat11 V c).A w = V c (Pipeline.arrRef spec11 w) := by
  dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t = iblk11 V c 7 t := by dsimp only [dat11]
theorem after11_8 (c : Dev nD) (t : Fin cfg11.N) : (dat11 V c).after 8 t = iblk11 V c 8 t := by dsimp only [dat11]
theorem after11_9 (c : Dev nD) (t : Fin cfg11.N) : (dat11 V c).after 9 t = out11 V c t := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d
theorem before11_7 (c : Dev nD) (t : Fin cfg11.N) (d) : (dat11 V c).before 7 t d = iblk11 V c 7 t :=
  before11_7_of V (dat11 V c) (A_eq11 V c 7) (after11_7 V c) t d
theorem before11_8 (c : Dev nD) (t : Fin cfg11.N) (d) : (dat11 V c).before 8 t d = iblk11 V c 8 t :=
  before11_8_of V (dat11 V c) (A_eq11 V c 8) (after11_8 V c) t d

def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d))
    ∗ (∃ d, owns (c : Thread nD τ) (ms11_5 t) fullShare ((dat11 V c).before 5 t d))
    ∗ (∃ d, owns (c : Thread nD τ) (ms11_6 t) fullShare ((dat11 V c).before 6 t d))
    ∗ (∃ d, owns (c : Thread nD τ) (ms11_7 t) fullShare ((dat11 V c).before 7 t d))
    ∗ (∃ d, owns (c : Thread nD τ) (ms11_8 t) fullShare ((dat11 V c).before 8 t d))
    ∗ (∃ d, owns (c : Thread nD τ) (ms11_9 t) fullShare ((dat11 V c).before 9 t d)))

def bodyPost11 (c : Dev nD) (t : Fin cfg11.N) : sProp 𝕄 :=
  iprop((dat11 V c).Φ t.succ ∗ (dat11 V c).owesAt () t.succ
    ∗ owns (c : Thread nD τ) (ms11_0 t) fullShare ((dat11 V c).after 0 t)
    ∗ owns (c : Thread nD τ) (ms11_1 t) fullShare ((dat11 V c).after 1 t)
    ∗ owns (c : Thread nD τ) (ms11_2 t) fullShare ((dat11 V c).after 2 t)
    ∗ owns (c : Thread nD τ) (ms11_3 t) fullShare ((dat11 V c).after 3 t)
    ∗ owns (c : Thread nD τ) (ms11_4 t) fullShare ((dat11 V c).after 4 t)
    ∗ owns (c : Thread nD τ) (ms11_5 t) fullShare ((dat11 V c).after 5 t)
    ∗ owns (c : Thread nD τ) (ms11_6 t) fullShare ((dat11 V c).after 6 t)
    ∗ owns (c : Thread nD τ) (ms11_7 t) fullShare ((dat11 V c).after 7 t)
    ∗ owns (c : Thread nD τ) (ms11_8 t) fullShare ((dat11 V c).after 8 t)
    ∗ owns (c : Thread nD τ) (ms11_9 t) fullShare ((dat11 V c).after 9 t))

set_option maxHeartbeats 4000000 in
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6, before11_7, before11_8]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7, after11_8, after11_9]
  unfold out11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun11 c (grid11.coords t) _ _ _ _ _ _ _ _ _ _ _ _ _ _ _ _ _ _ _ _ (iblk11 V c 0 t) (iblk11 V c 1 t) (iblk11 V c 2 t) (iblk11 V c 3 t) (iblk11 V c 4 t) (iblk11 V c 5 t) (iblk11 V c 6 t) (iblk11 V c 7 t) (iblk11 V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover11 c _ _ _ _ _ _ _ _ _ _ _ _ _ _ _ _ _ _ _ _ _ _ _ _ _ _ _ _ _ _)

theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.Run.lean ====
/-
  The whole program as a run: the host stretches and the twelve kernel regions in order, each region entered from
  what the segment before it left. Between two items every unscoped buffer of a core is held at a named valuation:
  the launch memory, then each host stretch's operations applied, then, after a region, the region's arrays at what
  its write-backs leave and every other buffer as entered. No host operation and no region writes an argument
  array, so the last valuation holds every argument as launched; and it holds the result array at what the last
  region's write-backs leave.
-/
import proofs.«180905_j29583734735286_1_alg».proof.Proof.Gen.KernelIdeal.Regions
import proofs.«180905_j29583734735286_1_alg».proof.Proof.R0B
import proofs.«180905_j29583734735286_1_alg».proof.Proof.R1B
import proofs.«180905_j29583734735286_1_alg».proof.Proof.R2B
import proofs.«180905_j29583734735286_1_alg».proof.Proof.R4B
import proofs.«180905_j29583734735286_1_alg».proof.Proof.R5B
import proofs.«180905_j29583734735286_1_alg».proof.Proof.R6B
import proofs.«180905_j29583734735286_1_alg».proof.Proof.R8B
import proofs.«180905_j29583734735286_1_alg».proof.Proof.R9B
import proofs.«180905_j29583734735286_1_alg».proof.Proof.R10B
import proofs.«180905_j29583734735286_1_alg».proof.Proof.R3
import proofs.«180905_j29583734735286_1_alg».proof.Proof.R7
import proofs.«180905_j29583734735286_1_alg».proof.Proof.R11

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)
abbrev W6 : Dev nD → Valuation τ sig (Elt F) := fun c => StableHlo.after hostOps4 (W5 m ρ c)
abbrev V6 : (c : Dev nD) → (b : Ref sig .tc) → Buf (Elt F) ((c : Thread nD τ).loc b) := fun c b => W6 m ρ c b
theorem W6_keep (c : Dev nD) (r : Ref sig .tc) (h : r ∉ hostOps4_W) : W6 m ρ c (Proc.devRef .tc r) = W5 m ρ c (Proc.devRef .tc r) :=
  StableHlo.after_of_writes_sub hostOps4 _ hostOps4_writes h
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
abbrev V7 : (c : Dev nD) → (b : Ref sig .tc) → Buf (Elt F) ((c : Thread nD τ).loc b) := fun c b => W7 m ρ c b
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)
def W8 (c : Dev nD) : Valuation τ sig (Elt F) :=
  Pipeline.withArrays spec5 c (W7 m ρ c) fun w => (dat5 (V7 m ρ) c).arrAt w cfg5.N
theorem W8_arr (c : Dev nD) (w : Fin cfg5.W) :
    W8 m ρ c (Proc.devRef .tc (Pipeline.arrRef spec5 w)) = (dat5 (V7 m ρ) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m ρ c (Proc.devRef .tc b) = W7 m ρ c (Proc.devRef .tc b) := by
  unfold W8; exact Pipeline.withArrays_of_ne spec5 c _ _ b hb
abbrev V8 : (c : Dev nD) → (b : Ref sig .tc) → Buf (Elt F) ((c : Thread nD τ).loc b) := fun c b => W8 m ρ c b
theorem hF5 (c : Dev nD) (w : Fin cfg5.W) : (dat5 (V7 m ρ) c).arrAt w cfg5.N = V8 m ρ c (Pipeline.arrRef spec5 w) :=
  (W8_arr m ρ c w).symm
theorem hrest5 (c : Dev nD) : ∀ b, b ∉ Finset.univ.image (Pipeline.arrRef spec5) → V8 m ρ c b = V7 m ρ c b :=
  fun b hb => W8_of_ne m ρ c b fun w e => hb (Finset.mem_image.mpr ⟨w, Finset.mem_univ _, e⟩)
def W9 (c : Dev nD) : Valuation τ sig (Elt F) :=
  Pipeline.withArrays spec6 c (W8 m ρ c) fun w => (dat6 (V8 m ρ) c).arrAt w cfg6.N
theorem W9_arr (c : Dev nD) (w : Fin cfg6.W) :
    W9 m ρ c (Proc.devRef .tc (Pipeline.arrRef spec6 w)) = (dat6 (V8 m ρ) c).arrAt w cfg6.N := by
  unfold W9; exact Pipeline.withArrays_arr spec6 launch6.win.arr_inj c _ _ w
theorem W9_of_ne (c : Dev nD) (b : Ref sig .tc) (hb : ∀ w, Pipeline.arrRef spec6 w ≠ b) :
    W9 m ρ c (Proc.devRef .tc b) = W8 m ρ c (Proc.devRef .tc b) := by
  unfold W9; exact Pipeline.withArrays_of_ne spec6 c _ _ b hb
abbrev V9 : (c : Dev nD) → (b : Ref sig .tc) → Buf (Elt F) ((c : Thread nD τ).loc b) := fun c b => W9 m ρ c b
theorem hF6 (c : Dev nD) (w : Fin cfg6.W) : (dat6 (V8 m ρ) c).arrAt w cfg6.N = V9 m ρ c (Pipeline.arrRef spec6 w) :=
  (W9_arr m ρ c w).symm
theorem hrest6 (c : Dev nD) : ∀ b, b ∉ Finset.univ.image (Pipeline.arrRef spec6) → V9 m ρ c b = V8 m ρ c b :=
  fun b hb => W9_of_ne m ρ c b fun w e => hb (Finset.mem_image.mpr ⟨w, Finset.mem_univ _, e⟩)
def W10 (c : Dev nD) : Valuation τ sig (Elt F) :=
  Pipeline.withArrays spec7 c (W9 m ρ c) fun w => (dat7 (V9 m ρ) c).arrAt w cfg7.N
theorem W10_arr (c : Dev nD) (w : Fin cfg7.W) :
    W10 m ρ c (Proc.devRef .tc (Pipeline.arrRef spec7 w)) = (dat7 (V9 m ρ) c).arrAt w cfg7.N := by
  unfold W10; exact Pipeline.withArrays_arr spec7 launch7.win.arr_inj c _ _ w
theorem W10_of_ne (c : Dev nD) (b : Ref sig .tc) (hb : ∀ w, Pipeline.arrRef spec7 w ≠ b) :
    W10 m ρ c (Proc.devRef .tc b) = W9 m ρ c (Proc.devRef .tc b) := by
  unfold W10; exact Pipeline.withArrays_of_ne spec7 c _ _ b hb
abbrev V10 : (c : Dev nD) → (b : Ref sig .tc) → Buf (Elt F) ((c : Thread nD τ).loc b) := fun c b => W10 m ρ c b
theorem hF7 (c : Dev nD) (w : Fin cfg7.W) : (dat7 (V9 m ρ) c).arrAt w cfg7.N = V10 m ρ c (Pipeline.arrRef spec7 w) :=
  (W10_arr m ρ c w).symm
theorem hrest7 (c : Dev nD) : ∀ b, b ∉ Finset.univ.image (Pipeline.arrRef spec7) → V10 m ρ c b = V9 m ρ c b :=
  fun b hb => W10_of_ne m ρ c b fun w e => hb (Finset.mem_image.mpr ⟨w, Finset.mem_univ _, e⟩)
abbrev W11 : Dev nD → Valuation τ sig (Elt F) := fun c => StableHlo.after hostOps8 (W10 m ρ c)
abbrev V11 : (c : Dev nD) → (b : Ref sig .tc) → Buf (Elt F) ((c : Thread nD τ).loc b) := fun c b => W11 m ρ c b
theorem W11_keep (c : Dev nD) (r : Ref sig .tc) (h : r ∉ hostOps8_W) : W11 m ρ c (Proc.devRef .tc r) = W10 m ρ c (Proc.devRef .tc r) :=
  StableHlo.after_of_writes_sub hostOps8 _ hostOps8_writes h
def W12 (c : Dev nD) : Valuation τ sig (Elt F) :=
  Pipeline.withArrays spec8 c (W11 m ρ c) fun w => (dat8 (V11 m ρ) c).arrAt w cfg8.N
theorem W12_arr (c : Dev nD) (w : Fin cfg8.W) :
    W12 m ρ c (Proc.devRef .tc (Pipeline.arrRef spec8 w)) = (dat8 (V11 m ρ) c).arrAt w cfg8.N := by
  unfold W12; exact Pipeline.withArrays_arr spec8 launch8.win.arr_inj c _ _ w
theorem W12_of_ne (c : Dev nD) (b : Ref sig .tc) (hb : ∀ w, Pipeline.arrRef spec8 w ≠ b) :
    W12 m ρ c (Proc.devRef .tc b) = W11 m ρ c (Proc.devRef .tc b) := by
  unfold W12; exact Pipeline.withArrays_of_ne spec8 c _ _ b hb
abbrev V12 : (c : Dev nD) → (b : Ref sig .tc) → Buf (Elt F) ((c : Thread nD τ).loc b) := fun c b => W12 m ρ c b
theorem hF8 (c : Dev nD) (w : Fin cfg8.W) : (dat8 (V11 m ρ) c).arrAt w cfg8.N = V12 m ρ c (Pipeline.arrRef spec8 w) :=
  (W12_arr m ρ c w).symm
theorem hrest8 (c : Dev nD) : ∀ b, b ∉ Finset.univ.image (Pipeline.arrRef spec8) → V12 m ρ c b = V11 m ρ c b :=
  fun b hb => W12_of_ne m ρ c b fun w e => hb (Finset.mem_image.mpr ⟨w, Finset.mem_univ _, e⟩)
def W13 (c : Dev nD) : Valuation τ sig (Elt F) :=
  Pipeline.withArrays spec9 c (W12 m ρ c) fun w => (dat9 (V12 m ρ) c).arrAt w cfg9.N
theorem W13_arr (c : Dev nD) (w : Fin cfg9.W) :
    W13 m ρ c (Proc.devRef .tc (Pipeline.arrRef spec9 w)) = (dat9 (V12 m ρ) c).arrAt w cfg9.N := by
  unfold W13; exact Pipeline.withArrays_arr spec9 launch9.win.arr_inj c _ _ w
theorem W13_of_ne (c : Dev nD) (b : Ref sig .tc) (hb : ∀ w, Pipeline.arrRef spec9 w ≠ b) :
    W13 m ρ c (Proc.devRef .tc b) = W12 m ρ c (Proc.devRef .tc b) := by
  unfold W13; exact Pipeline.withArrays_of_ne spec9 c _ _ b hb
abbrev V13 : (c : Dev nD) → (b : Ref sig .tc) → Buf (Elt F) ((c : Thread nD τ).loc b) := fun c b => W13 m ρ c b
theorem hF9 (c : Dev nD) (w : Fin cfg9.W) : (dat9 (V12 m ρ) c).arrAt w cfg9.N = V13 m ρ c (Pipeline.arrRef spec9 w) :=
  (W13_arr m ρ c w).symm
theorem hrest9 (c : Dev nD) : ∀ b, b ∉ Finset.univ.image (Pipeline.arrRef spec9) → V13 m ρ c b = V12 m ρ c b :=
  fun b hb => W13_of_ne m ρ c b fun w e => hb (Finset.mem_image.mpr ⟨w, Finset.mem_univ _, e⟩)
def W14 (c : Dev nD) : Valuation τ sig (Elt F) :=
  Pipeline.withArrays spec10 c (W13 m ρ c) fun w => (dat10 (V13 m ρ) c).arrAt w cfg10.N
theorem W14_arr (c : Dev nD) (w : Fin cfg10.W) :
    W14 m ρ c (Proc.devRef .tc (Pipeline.arrRef spec10 w)) = (dat10 (V13 m ρ) c).arrAt w cfg10.N := by
  unfold W14; exact Pipeline.withArrays_arr spec10 launch10.win.arr_inj c _ _ w
theorem W14_of_ne (c : Dev nD) (b : Ref sig .tc) (hb : ∀ w, Pipeline.arrRef spec10 w ≠ b) :
    W14 m ρ c (Proc.devRef .tc b) = W13 m ρ c (Proc.devRef .tc b) := by
  unfold W14; exact Pipeline.withArrays_of_ne spec10 c _ _ b hb
abbrev V14 : (c : Dev nD) → (b : Ref sig .tc) → Buf (Elt F) ((c : Thread nD τ).loc b) := fun c b => W14 m ρ c b
theorem hF10 (c : Dev nD) (w : Fin cfg10.W) : (dat10 (V13 m ρ) c).arrAt w cfg10.N = V14 m ρ c (Pipeline.arrRef spec10 w) :=
  (W14_arr m ρ c w).symm
theorem hrest10 (c : Dev nD) : ∀ b, b ∉ Finset.univ.image (Pipeline.arrRef spec10) → V14 m ρ c b = V13 m ρ c b :=
  fun b hb => W14_of_ne m ρ c b fun w e => hb (Finset.mem_image.mpr ⟨w, Finset.mem_univ _, e⟩)
def W15 (c : Dev nD) : Valuation τ sig (Elt F) :=
  Pipeline.withArrays spec11 c (W14 m ρ c) fun w => (dat11 (V14 m ρ) c).arrAt w cfg11.N
theorem W15_arr (c : Dev nD) (w : Fin cfg11.W) :
    W15 m ρ c (Proc.devRef .tc (Pipeline.arrRef spec11 w)) = (dat11 (V14 m ρ) c).arrAt w cfg11.N := by
  unfold W15; exact Pipeline.withArrays_arr spec11 launch11.win.arr_inj c _ _ w
theorem W15_of_ne (c : Dev nD) (b : Ref sig .tc) (hb : ∀ w, Pipeline.arrRef spec11 w ≠ b) :
    W15 m ρ c (Proc.devRef .tc b) = W14 m ρ c (Proc.devRef .tc b) := by
  unfold W15; exact Pipeline.withArrays_of_ne spec11 c _ _ b hb
abbrev V15 : (c : Dev nD) → (b : Ref sig .tc) → Buf (Elt F) ((c : Thread nD τ).loc b) := fun c b => W15 m ρ c b
theorem hF11 (c : Dev nD) (w : Fin cfg11.W) : (dat11 (V14 m ρ) c).arrAt w cfg11.N = V15 m ρ c (Pipeline.arrRef spec11 w) :=
  (W15_arr m ρ c w).symm
theorem hrest11 (c : Dev nD) : ∀ b, b ∉ Finset.univ.image (Pipeline.arrRef spec11) → V15 m ρ c b = V14 m ρ c b :=
  fun b hb => W15_of_ne m ρ c b fun w e => hb (Finset.mem_image.mpr ⟨w, Finset.mem_univ _, e⟩)
theorem W15_main_arg0 (c : Dev nD) : W15 m ρ c (Proc.devRef .tc main_arg0) = m ((c : Thread nD τ).loc main_arg0) :=
  (W15_of_ne m ρ c main_arg0 (by decide)).trans <| (W14_of_ne m ρ c main_arg0 (by decide)).trans <| (W13_of_ne m ρ c main_arg0 (by decide)).trans <| (W12_of_ne m ρ c main_arg0 (by decide)).trans <| (W11_keep m ρ c main_arg0 (by decide)).trans <| (W10_of_ne m ρ c main_arg0 (by decide)).trans <| (W9_of_ne m ρ c main_arg0 (by decide)).trans <| (W8_of_ne m ρ c main_arg0 (by decide)).trans <| (W7_of_ne m ρ c main_arg0 (by decide)).trans <| (W6_keep m ρ c main_arg0 (by decide)).trans <| (W5_of_ne m ρ c main_arg0 (by decide)).trans <| (W4_of_ne m ρ c main_arg0 (by decide)).trans <| (W3_of_ne m ρ c main_arg0 (by decide)).trans <| (W2_of_ne m ρ c main_arg0 (by decide)).trans <| (W1_keep m ρ c main_arg0 (by decide)).trans <| rfl
theorem W15_main_arg1 (c : Dev nD) : W15 m ρ c (Proc.devRef .tc main_arg1) = m ((c : Thread nD τ).loc main_arg1) :=
  (W15_of_ne m ρ c main_arg1 (by decide)).trans <| (W14_of_ne m ρ c main_arg1 (by decide)).trans <| (W13_of_ne m ρ c main_arg1 (by decide)).trans <| (W12_of_ne m ρ c main_arg1 (by decide)).trans <| (W11_keep m ρ c main_arg1 (by decide)).trans <| (W10_of_ne m ρ c main_arg1 (by decide)).trans <| (W9_of_ne m ρ c main_arg1 (by decide)).trans <| (W8_of_ne m ρ c main_arg1 (by decide)).trans <| (W7_of_ne m ρ c main_arg1 (by decide)).trans <| (W6_keep m ρ c main_arg1 (by decide)).trans <| (W5_of_ne m ρ c main_arg1 (by decide)).trans <| (W4_of_ne m ρ c main_arg1 (by decide)).trans <| (W3_of_ne m ρ c main_arg1 (by decide)).trans <| (W2_of_ne m ρ c main_arg1 (by decide)).trans <| (W1_keep m ρ c main_arg1 (by decide)).trans <| rfl
theorem W15_main_arg2 (c : Dev nD) : W15 m ρ c (Proc.devRef .tc main_arg2) = m ((c : Thread nD τ).loc main_arg2) :=
  (W15_of_ne m ρ c main_arg2 (by decide)).trans <| (W14_of_ne m ρ c main_arg2 (by decide)).trans <| (W13_of_ne m ρ c main_arg2 (by decide)).trans <| (W12_of_ne m ρ c main_arg2 (by decide)).trans <| (W11_keep m ρ c main_arg2 (by decide)).trans <| (W10_of_ne m ρ c main_arg2 (by decide)).trans <| (W9_of_ne m ρ c main_arg2 (by decide)).trans <| (W8_of_ne m ρ c main_arg2 (by decide)).trans <| (W7_of_ne m ρ c main_arg2 (by decide)).trans <| (W6_keep m ρ c main_arg2 (by decide)).trans <| (W5_of_ne m ρ c main_arg2 (by decide)).trans <| (W4_of_ne m ρ c main_arg2 (by decide)).trans <| (W3_of_ne m ρ c main_arg2 (by decide)).trans <| (W2_of_ne m ρ c main_arg2 (by decide)).trans <| (W1_keep m ρ c main_arg2 (by decide)).trans <| rfl
theorem W15_main_arg3 (c : Dev nD) : W15 m ρ c (Proc.devRef .tc main_arg3) = m ((c : Thread nD τ).loc main_arg3) :=
  (W15_of_ne m ρ c main_arg3 (by decide)).trans <| (W14_of_ne m ρ c main_arg3 (by decide)).trans <| (W13_of_ne m ρ c main_arg3 (by decide)).trans <| (W12_of_ne m ρ c main_arg3 (by decide)).trans <| (W11_keep m ρ c main_arg3 (by decide)).trans <| (W10_of_ne m ρ c main_arg3 (by decide)).trans <| (W9_of_ne m ρ c main_arg3 (by decide)).trans <| (W8_of_ne m ρ c main_arg3 (by decide)).trans <| (W7_of_ne m ρ c main_arg3 (by decide)).trans <| (W6_keep m ρ c main_arg3 (by decide)).trans <| (W5_of_ne m ρ c main_arg3 (by decide)).trans <| (W4_of_ne m ρ c main_arg3 (by decide)).trans <| (W3_of_ne m ρ c main_arg3 (by decide)).trans <| (W2_of_ne m ρ c main_arg3 (by decide)).trans <| (W1_keep m ρ c main_arg3 (by decide)).trans <| rfl
theorem W15_main_arg4 (c : Dev nD) : W15 m ρ c (Proc.devRef .tc main_arg4) = m ((c : Thread nD τ).loc main_arg4) :=
  (W15_of_ne m ρ c main_arg4 (by decide)).trans <| (W14_of_ne m ρ c main_arg4 (by decide)).trans <| (W13_of_ne m ρ c main_arg4 (by decide)).trans <| (W12_of_ne m ρ c main_arg4 (by decide)).trans <| (W11_keep m ρ c main_arg4 (by decide)).trans <| (W10_of_ne m ρ c main_arg4 (by decide)).trans <| (W9_of_ne m ρ c main_arg4 (by decide)).trans <| (W8_of_ne m ρ c main_arg4 (by decide)).trans <| (W7_of_ne m ρ c main_arg4 (by decide)).trans <| (W6_keep m ρ c main_arg4 (by decide)).trans <| (W5_of_ne m ρ c main_arg4 (by decide)).trans <| (W4_of_ne m ρ c main_arg4 (by decide)).trans <| (W3_of_ne m ρ c main_arg4 (by decide)).trans <| (W2_of_ne m ρ c main_arg4 (by decide)).trans <| (W1_keep m ρ c main_arg4 (by decide)).trans <| rfl
theorem W15_main_arg5 (c : Dev nD) : W15 m ρ c (Proc.devRef .tc main_arg5) = m ((c : Thread nD τ).loc main_arg5) :=
  (W15_of_ne m ρ c main_arg5 (by decide)).trans <| (W14_of_ne m ρ c main_arg5 (by decide)).trans <| (W13_of_ne m ρ c main_arg5 (by decide)).trans <| (W12_of_ne m ρ c main_arg5 (by decide)).trans <| (W11_keep m ρ c main_arg5 (by decide)).trans <| (W10_of_ne m ρ c main_arg5 (by decide)).trans <| (W9_of_ne m ρ c main_arg5 (by decide)).trans <| (W8_of_ne m ρ c main_arg5 (by decide)).trans <| (W7_of_ne m ρ c main_arg5 (by decide)).trans <| (W6_keep m ρ c main_arg5 (by decide)).trans <| (W5_of_ne m ρ c main_arg5 (by decide)).trans <| (W4_of_ne m ρ c main_arg5 (by decide)).trans <| (W3_of_ne m ρ c main_arg5 (by decide)).trans <| (W2_of_ne m ρ c main_arg5 (by decide)).trans <| (W1_keep m ρ c main_arg5 (by decide)).trans <| rfl
theorem W15_main_arg6 (c : Dev nD) : W15 m ρ c (Proc.devRef .tc main_arg6) = m ((c : Thread nD τ).loc main_arg6) :=
  (W15_of_ne m ρ c main_arg6 (by decide)).trans <| (W14_of_ne m ρ c main_arg6 (by decide)).trans <| (W13_of_ne m ρ c main_arg6 (by decide)).trans <| (W12_of_ne m ρ c main_arg6 (by decide)).trans <| (W11_keep m ρ c main_arg6 (by decide)).trans <| (W10_of_ne m ρ c main_arg6 (by decide)).trans <| (W9_of_ne m ρ c main_arg6 (by decide)).trans <| (W8_of_ne m ρ c main_arg6 (by decide)).trans <| (W7_of_ne m ρ c main_arg6 (by decide)).trans <| (W6_keep m ρ c main_arg6 (by decide)).trans <| (W5_of_ne m ρ c main_arg6 (by decide)).trans <| (W4_of_ne m ρ c main_arg6 (by decide)).trans <| (W3_of_ne m ρ c main_arg6 (by decide)).trans <| (W2_of_ne m ρ c main_arg6 (by decide)).trans <| (W1_keep m ρ c main_arg6 (by decide)).trans <| rfl
theorem W15_main_arg7 (c : Dev nD) : W15 m ρ c (Proc.devRef .tc main_arg7) = m ((c : Thread nD τ).loc main_arg7) :=
  (W15_of_ne m ρ c main_arg7 (by decide)).trans <| (W14_of_ne m ρ c main_arg7 (by decide)).trans <| (W13_of_ne m ρ c main_arg7 (by decide)).trans <| (W12_of_ne m ρ c main_arg7 (by decide)).trans <| (W11_keep m ρ c main_arg7 (by decide)).trans <| (W10_of_ne m ρ c main_arg7 (by decide)).trans <| (W9_of_ne m ρ c main_arg7 (by decide)).trans <| (W8_of_ne m ρ c main_arg7 (by decide)).trans <| (W7_of_ne m ρ c main_arg7 (by decide)).trans <| (W6_keep m ρ c main_arg7 (by decide)).trans <| (W5_of_ne m ρ c main_arg7 (by decide)).trans <| (W4_of_ne m ρ c main_arg7 (by decide)).trans <| (W3_of_ne m ρ c main_arg7 (by decide)).trans <| (W2_of_ne m ρ c main_arg7 (by decide)).trans <| (W1_keep m ρ c main_arg7 (by decide)).trans <| rfl
theorem W15_main_arg8 (c : Dev nD) : W15 m ρ c (Proc.devRef .tc main_arg8) = m ((c : Thread nD τ).loc main_arg8) :=
  (W15_of_ne m ρ c main_arg8 (by decide)).trans <| (W14_of_ne m ρ c main_arg8 (by decide)).trans <| (W13_of_ne m ρ c main_arg8 (by decide)).trans <| (W12_of_ne m ρ c main_arg8 (by decide)).trans <| (W11_keep m ρ c main_arg8 (by decide)).trans <| (W10_of_ne m ρ c main_arg8 (by decide)).trans <| (W9_of_ne m ρ c main_arg8 (by decide)).trans <| (W8_of_ne m ρ c main_arg8 (by decide)).trans <| (W7_of_ne m ρ c main_arg8 (by decide)).trans <| (W6_keep m ρ c main_arg8 (by decide)).trans <| (W5_of_ne m ρ c main_arg8 (by decide)).trans <| (W4_of_ne m ρ c main_arg8 (by decide)).trans <| (W3_of_ne m ρ c main_arg8 (by decide)).trans <| (W2_of_ne m ρ c main_arg8 (by decide)).trans <| (W1_keep m ρ c main_arg8 (by decide)).trans <| rfl
theorem W15_main_arg9 (c : Dev nD) : W15 m ρ c (Proc.devRef .tc main_arg9) = m ((c : Thread nD τ).loc main_arg9) :=
  (W15_of_ne m ρ c main_arg9 (by decide)).trans <| (W14_of_ne m ρ c main_arg9 (by decide)).trans <| (W13_of_ne m ρ c main_arg9 (by decide)).trans <| (W12_of_ne m ρ c main_arg9 (by decide)).trans <| (W11_keep m ρ c main_arg9 (by decide)).trans <| (W10_of_ne m ρ c main_arg9 (by decide)).trans <| (W9_of_ne m ρ c main_arg9 (by decide)).trans <| (W8_of_ne m ρ c main_arg9 (by decide)).trans <| (W7_of_ne m ρ c main_arg9 (by decide)).trans <| (W6_keep m ρ c main_arg9 (by decide)).trans <| (W5_of_ne m ρ c main_arg9 (by decide)).trans <| (W4_of_ne m ρ c main_arg9 (by decide)).trans <| (W3_of_ne m ρ c main_arg9 (by decide)).trans <| (W2_of_ne m ρ c main_arg9 (by decide)).trans <| (W1_keep m ρ c main_arg9 (by decide)).trans <| rfl
theorem W15_main_arg10 (c : Dev nD) : W15 m ρ c (Proc.devRef .tc main_arg10) = m ((c : Thread nD τ).loc main_arg10) :=
  (W15_of_ne m ρ c main_arg10 (by decide)).trans <| (W14_of_ne m ρ c main_arg10 (by decide)).trans <| (W13_of_ne m ρ c main_arg10 (by decide)).trans <| (W12_of_ne m ρ c main_arg10 (by decide)).trans <| (W11_keep m ρ c main_arg10 (by decide)).trans <| (W10_of_ne m ρ c main_arg10 (by decide)).trans <| (W9_of_ne m ρ c main_arg10 (by decide)).trans <| (W8_of_ne m ρ c main_arg10 (by decide)).trans <| (W7_of_ne m ρ c main_arg10 (by decide)).trans <| (W6_keep m ρ c main_arg10 (by decide)).trans <| (W5_of_ne m ρ c main_arg10 (by decide)).trans <| (W4_of_ne m ρ c main_arg10 (by decide)).trans <| (W3_of_ne m ρ c main_arg10 (by decide)).trans <| (W2_of_ne m ρ c main_arg10 (by decide)).trans <| (W1_keep m ρ c main_arg10 (by decide)).trans <| rfl

abbrev adm : (p : Fin 12) → (pcfgs (F := F) p).Adm := fun p => (cfgs p).toPCfg_adm
def pdats : (p : Fin 12) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V6 m ρ) c
  | ⟨5, _⟩ => fun c => dat5 (V7 m ρ) c
  | ⟨6, _⟩ => fun c => dat6 (V8 m ρ) c
  | ⟨7, _⟩ => fun c => dat7 (V9 m ρ) c
  | ⟨8, _⟩ => fun c => dat8 (V11 m ρ) c
  | ⟨9, _⟩ => fun c => dat9 (V12 m ρ) c
  | ⟨10, _⟩ => fun c => dat10 (V13 m ρ) c
  | ⟨11, _⟩ => fun c => dat11 (V14 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W15 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ (Pipeline.ΦA spec2 c : sProp 𝕄) from hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m ρ 4 c).Φ (Fin.last _) ⊢ (Pipeline.ΦA spec4 c : sProp 𝕄) from hout4 (V6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V7 m ρ) c).loose
  hwaits := Pipeline.hwaits_of_owed_zero _ _ _ _ L lv 5 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec5 c (V7 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (show (pdats m ρ 5 c).Φ (Fin.last _) ⊢ (Pipeline.ΦA spec5 c : sProp 𝕄) from hout5 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V7 m ρ c) (V8 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V8 m ρ) c).loose
  hwaits := Pipeline.hwaits_of_owed_zero _ _ _ _ L lv 6 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec6 c (V8 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none]
    refine (show (pdats m ρ 6 c).Φ (Fin.last _) ⊢ (Pipeline.ΦA spec6 c : sProp 𝕄) from hout6 (V8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V8 m ρ c) (V9 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V9 m ρ) c).loose
  hwaits := Pipeline.hwaits_of_owed_zero _ _ _ _ L lv 7 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec7 c (V9 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V9 m ρ c) (V10 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V11 m ρ) c).loose
  hwaits := Pipeline.hwaits_of_owed_zero _ _ _ _ L lv 8 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec8 c (V11 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none]
    refine (show (pdats m ρ 8 c).Φ (Fin.last _) ⊢ (Pipeline.ΦA spec8 c : sProp 𝕄) from hout8 (V11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V11 m ρ c) (V12 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V12 m ρ) c).loose
  hwaits := Pipeline.hwaits_of_owed_zero _ _ _ _ L lv 9 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec9 c (V12 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none]
    refine (show (pdats m ρ 9 c).Φ (Fin.last _) ⊢ (Pipeline.ΦA spec9 c : sProp 𝕄) from hout9 (V12 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V12 m ρ c) (V13 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V13 m ρ) c).loose
  hwaits := Pipeline.hwaits_of_owed_zero _ _ _ _ L lv 10 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec10 c (V13 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none]
    refine (show (pdats m ρ 10 c).Φ (Fin.last _) ⊢ (Pipeline.ΦA spec10 c : sProp 𝕄) from hout10 (V13 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V13 m ρ c) (V14 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V14 m ρ) c).loose
  hwaits := Pipeline.hwaits_of_owed_zero _ _ _ _ L lv 11 fun _ _ => rfl
  pre c := iprop(StableHlo.held (c : Thread nD τ) (Pipeline.ucRefs τ sig) (W14 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec11 c (V14 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V14 m ρ c) (V15 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .host (hseg hostOps4 hostOps4_sub hostOps4_fresh (W5 m ρ)),
    .region (reg4 m ρ),
    .region (reg5 m ρ),
    .region (reg6 m ρ),
    .region (reg7 m ρ),
    .host (hseg hostOps8 hostOps8_sub hostOps8_fresh (W10 m ρ)),
    .region (reg8 m ρ),
    .region (reg9 m ρ),
    .region (reg10 m ρ),
    .region (reg11 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c)⟩) (run_all m ρ)

end Cert.KernelIdeal.Hand

end
-- ==== Proof.KR0A.lean ====
/-
  Pipeline 0 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev scM0_0 : Memref sig .tc .vmem S1x128 .f32 := Memref.whole cc0_scratch0
abbrev scM0_1 : Memref sig .tc .vmem S1x128 .f32 := Memref.whole cc0_scratch1

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

set_option maxHeartbeats 2000000 in
noncomputable def kernelRun0_A (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .bf16) (x2 : Vec F S1x128 .f32) (x3 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stage1_kernel i arg1 harg1 arg2 harg2 arg3 harg3 arg4 harg4 arg5 harg5 arg6 harg6 arg7 harg7 arg8 harg8) K } := by
  refine ⟨?_, ?_, fun xi1 xi2 E K => ?run⟩
  case run =>
    simp only [cc0__stage1_kernel_eq_skeleton]; unfold cc0__stage1_kernel_skel
    unfold owns
    iintro ⟨⟨%f0, %hf0, H0⟩, ⟨%f1, %hf1, H1⟩, ⟨%f2, %hf2, H2⟩, ⟨%f3, %hf3, H3⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hfo1; obtain rfl := harg6.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]
    · iexists _; isplitr; · ipureintro; exact harg5.read_unread _
      iexact HO1
    isplitl [HO2]
    · iexists _; isplitr; · ipureintro; exact harg6.read_unread _
      iexact HO2
    isplitl [HS0]; · iexists _; iexact HS0
    iexists _; iexact HS1

set_option maxHeartbeats 2000000 in
noncomputable def kernelRun0_B (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .bf16) (x2 : Vec F S1x128 .f32) (x3 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stage1_kernel i arg1 harg1 arg2 harg2 arg3 harg3 arg4 harg4 arg5 harg5 arg6 harg6 arg7 harg7 arg8 harg8) K } := by
  refine ⟨?_, ?_, fun xi1 xi2 E K => ?run⟩
  case run =>
    simp only [cc0__stage1_kernel_eq_skeleton]; unfold cc0__stage1_kernel_skel
    unfold owns
    iintro ⟨⟨%f0, %hf0, H0⟩, ⟨%f1, %hf1, H1⟩, ⟨%f2, %hf2, H2⟩, ⟨%f3, %hf3, H3⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfo1; obtain rfl := harg6.eq_unread hfo2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]
    · iexists _; isplitr; · ipureintro; exact harg5.read_unread _
      iexact HO1
    isplitl [HO2]
    · iexists _; isplitr; · ipureintro; exact harg6.read_unread _
      iexact HO2
    isplitl [HS0]; · iexists _; iexact HS0
    iexists _; iexact HS1

set_option maxHeartbeats 2000000 in
noncomputable def kernelRun0_C (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .bf16) (x2 : Vec F S1x128 .f32) (x3 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L1) ∗ (∃ f, arg6.view.loc (c : Thread nD τ) ↦[arg6.view.set]{fullShare} arg6.view.writes (Elt F) f L2) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stage1_kernel i arg1 harg1 arg2 harg2 arg3 harg3 arg4 harg4 arg5 harg5 arg6 harg6 arg7 harg7 arg8 harg8) K } := by
  refine ⟨?_, ?_, ?_, ?_, fun E K => ?run⟩
  case run =>
    simp only [cc0__stage1_kernel_eq_skeleton]; unfold cc0__stage1_kernel_skel
    unfold owns
    iintro ⟨⟨%f0, %hf0, H0⟩, ⟨%f1, %hf1, H1⟩, ⟨%f2, %hf2, H2⟩, ⟨%f3, %hf3, H3⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]; · iexists _; iexact HO1
    isplitl [HO2]; · iexists _; iexact HO2
    isplitl [HS0]; · iexists _; iexact HS0
    iexists _; iexact HS1

end Cert.Kernel.Hand

end
-- ==== Proof.KR0B.lean ====
/-
  Pipeline 0 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.KR0A
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VW0 : View sig .tc .vmem S1x128 .f32 := scM0_0.view
def rd0 (L : List (View.Piece (Elt F) S1x128 .f32)) : Vec F S1x128 .f32 := VW0.read (Elt F) (VW0.writes (Elt F) VW0.junk L)

theorem scoverA0_0 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .bf16) (x2 : Vec F S1x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S1x128.size (by sl_kernel_rfl) y
theorem scoverA0_1 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .bf16) (x2 : Vec F S1x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S1x128.size (by sl_kernel_rfl) y
theorem scoverB0_0 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).1 S1x128.size (by sl_kernel_rfl) y
theorem scoverB0_1 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.1 S1x128.size (by sl_kernel_rfl) y
theorem coverC0_1 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S1x128.size (by sl_kernel_rfl) y
theorem coverC0_2 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S1x128.size (by sl_kernel_rfl) y
theorem scoverC0_0 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S1x128.size (by sl_kernel_rfl) y
theorem scoverC0_1 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S1x128.size (by sl_kernel_rfl) y

theorem c0_zero0 (hn : 0 < cfg0.N) : cond0_0 (grid0.coords ⟨0, hn⟩) := (hcond0_0 ⟨0, hn⟩).mpr (Nat.zero_mod _)
theorem nc1_zero0 (hn : 0 < cfg0.N) : ¬cond0_1 (grid0.coords ⟨0, hn⟩) :=
  fun h => by have := (hcond0_1 ⟨0, hn⟩).mp h; (try dsimp only at this); omega
theorem nc0_succ0 (n : ℕ) (hn : n + 1 < cfg0.N) : ¬cond0_0 (grid0.coords ⟨n + 1, hn⟩) := fun h => by
  have hN : n + 1 < 10 := lt_of_lt_of_eq hn (show cfg0.N = 10 from N_0)
  have := (hcond0_0 ⟨n + 1, hn⟩).mp h; (try dsimp only at this); omega

def outsAt0 (c : Dev nD) : (n : ℕ) → n < cfg0.N → Vec F S1x128 .f32 × Vec F S1x128 .f32 × Vec F S1x128 .f32 × Vec F S1x128 .f32
  | 0, hn => (rd0 [], rd0 [], rd0 (kernelRun0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) (c0_zero0 hn) (nc1_zero0 hn) (iblk0 V c 0 ⟨0, hn⟩) (iblk0 V c 1 ⟨0, hn⟩) (iblk0 V c 2 ⟨0, hn⟩) (iblk0 V c 3 ⟨0, hn⟩)).1, rd0 (kernelRun0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) (c0_zero0 hn) (nc1_zero0 hn) (iblk0 V c 0 ⟨0, hn⟩) (iblk0 V c 1 ⟨0, hn⟩) (iblk0 V c 2 ⟨0, hn⟩) (iblk0 V c 3 ⟨0, hn⟩)).2.1)
  | n + 1, hn =>
    if h1 : (n + 1) % 10 = 9 then
      (rd0 (kernelRun0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (nc0_succ0 n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2).1, rd0 (kernelRun0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (nc0_succ0 n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2).2.1, rd0 (kernelRun0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (nc0_succ0 n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2).2.2.1, rd0 (kernelRun0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (nc0_succ0 n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2).2.2.2.1)
    else
      (rd0 [], rd0 [], rd0 (kernelRun0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (nc0_succ0 n hn) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2).1, rd0 (kernelRun0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (nc0_succ0 n hn) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2).2.1)

theorem outsAt0_A (c : Dev nD) (t : Fin cfg0.N) (hz : t.val = 0) (hc0 : cond0_0 (grid0.coords t)) (hc1 : ¬cond0_1 (grid0.coords t)) :
    outsAt0 V c t.val t.isLt = (rd0 [], rd0 [], rd0 (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t)).1, rd0 (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t)).2.1) := by
  obtain ⟨n, hn⟩ := t
  cases n with
  | zero => rfl
  | succ n => exact absurd hz (Nat.succ_ne_zero n)
theorem outsAt0_B (c : Dev nD) (t : Fin cfg0.N) (hz : t.val ≠ 0) (h1 : ¬t.val % 10 = 9) (hc0 : ¬cond0_0 (grid0.coords t)) (hc1 : ¬cond0_1 (grid0.coords t)) :
    outsAt0 V c t.val t.isLt = (rd0 [], rd0 [], rd0 (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2).1, rd0 (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt0_C (c : Dev nD) (t : Fin cfg0.N) (hz : t.val ≠ 0) (h1 : t.val % 10 = 9) (hc0 : ¬cond0_0 (grid0.coords t)) (hc1 : cond0_1 (grid0.coords t)) :
    outsAt0 V c t.val t.isLt = (rd0 (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2).1, rd0 (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2).2.1, rd0 (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2).2.2.1, rd0 (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest0 (c : Dev nD) : sProp 𝕄 :=
  Pipeline.scopedRestBut (Ix := Unit) (Name := ℕ) (U := UR sig nD τ) (Lvl := ℕ) (Val := Elt F) spec0 c [cc0_scratch0, cc0_scratch1]

def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ rest0 c) ∗ (∃ r, prngReg c r))
theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ rest0 c) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ rest0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases hz : t.val = 0
  · have hc0 : cond0_0 (grid0.coords t) := (hcond0_0 t).mpr (by omega)
    have hc1 : ¬cond0_1 (grid0.coords t) := fun h => by have := (hcond0_1 t).mp h; omega
    rw [Dat.leavesExact_idle (dat0 V c) 4 t (idleAt0_4 t hc1) (noFlush0_4 t hc1),
      Dat.leavesExact_idle (dat0 V c) 5 t (idleAt0_5 t hc1) (noFlush0_5 t hc1)]
    rw [outsAt0_A V c t hz hc0 hc1]
    (try dsimp only)
    rw [PhiS0_castSucc V c t, PhiS0_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ hc0 hc1 (iblk0 V c 0 t) (iblk0 V c 1 t) (iblk0 V c 2 t) (iblk0 V c 3 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA0_0 c _ _ _ _ _ _ _ _ _ _ _ _ _ _ _ _ _ hc0 hc1 _ _ _ _)
          · unfold owns; iexists _; isplitr
            swap; · iexact HS1
            ipureintro; exact View.read_writes_of_cover _ _ _ _ _ (scoverA0_1 c _ _ _ _ _ _ _ _ _ _ _ _ _ _ _ _ _ hc0 hc1 _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hc0 : ¬cond0_0 (grid0.coords t) := fun h => by have := (hcond0_0 t).mp h; omega
    rw [PhiS0_castSucc V c t, PhiS0_pos V c _ _ hz]
    by_cases h1 : t.val % 10 = 9
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [outsAt0_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ hc0 hc1 (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e1, H4⟩, ⟨%e2, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC0_0 c _ _ _ _ _ _ _ _ _ _ _ _ _ _ _ _ _ hc0 hc1 _ _ _ _ _ _)
            · unfold owns; iexists _; isplitr
              swap; · iexact HS1
              ipureintro; exact View.read_writes_of_cover _ _ _ _ _ (scoverC0_1 c _ _ _ _ _ _ _ _ _ _ _ _ _ _ _ _ _ hc0 hc1 _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC0_1 c _ _ _ _ _ _ _ _ _ _ _ _ _ _ _ _ _ hc0 hc1 _ _ _ _ _ _)
      unfold owns; iexists _; isplitr
      swap; · iexact H5
      ipureintro; exact View.read_writes_of_cover _ _ _ _ _ (coverC0_2 c _ _ _ _ _ _ _ _ _ _ _ _ _ _ _ _ _ hc0 hc1 _ _ _ _ _ _)
    · have hc1 : ¬cond0_1 (grid0.coords t) := fun h => h1 ((hcond0_1 t).mp h)
      rw [Dat.leavesExact_idle (dat0 V c) 4 t (idleAt0_4 t hc1) (noFlush0_4 t hc1),
        Dat.leavesExact_idle (dat0 V c) 5 t (idleAt0_5 t hc1) (noFlush0_5 t hc1)]
      rw [outsAt0_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hc0 hc1 (iblk0 V c 0 t) (iblk0 V c 1 t) (iblk0 V c 2 t) (iblk0 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB0_0 c _ _ _ _ _ _ _ _ _ _ _ _ _ _ _ _ _ hc0 hc1 _ _ _ _ _ _)
            · unfold owns; iexists _; isplitr
              swap; · iexact HS1
              ipureintro; exact View.read_writes_of_cover _ _ _ _ _ (scoverB0_1 c _ _ _ _ _ _ _ _ _ _ _ _ _ _ _ _ _ hc0 hc1 _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 10 := N_0; omega), PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.Kernel.Hand

end
-- ==== Proof.KR1A.lean ====
/-
  Pipeline 1 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev scM1_0 : Memref sig .tc .vmem S1x128 .f32 := Memref.whole cc1_scratch0
abbrev scM1_1 : Memref sig .tc .vmem S1x128 .f32 := Memref.whole cc1_scratch1

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

set_option maxHeartbeats 2000000 in
noncomputable def kernelRun1_A (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11) K } := by
  refine ⟨?_, ?_, fun xi1 xi2 E K => ?run⟩
  case run =>
    simp only [cc1__stage2_kernel_eq_skeleton]; unfold cc1__stage2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfo1; obtain rfl := harg9.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]
    · iexists _; isplitr; · ipureintro; exact harg8.read_unread _
      iexact HO1
    isplitl [HO2]
    · iexists _; isplitr; · ipureintro; exact harg9.read_unread _
      iexact HO2
    isplitl [HS0]; · iexists _; iexact HS0
    iexists _; iexact HS1

set_option maxHeartbeats 2000000 in
noncomputable def kernelRun1_B (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11) K } := by
  refine ⟨?_, ?_, fun xi1 xi2 E K => ?run⟩
  case run =>
    simp only [cc1__stage2_kernel_eq_skeleton]; unfold cc1__stage2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfo1; obtain rfl := harg9.eq_unread hfo2; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]
    · iexists _; isplitr; · ipureintro; exact harg8.read_unread _
      iexact HO1
    isplitl [HO2]
    · iexists _; isplitr; · ipureintro; exact harg9.read_unread _
      iexact HO2
    isplitl [HS0]; · iexists _; iexact HS0
    iexists _; iexact HS1

set_option maxHeartbeats 2000000 in
noncomputable def kernelRun1_C (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__stage2_kernel_eq_skeleton]; unfold cc1__stage2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]; · iexists _; iexact HO1
    isplitl [HO2]; · iexists _; iexact HO2
    isplitl [HS0]; · iexists _; iexact HS0
    iexists _; iexact HS1

end Cert.Kernel.Hand

end
-- ==== Proof.KR1B.lean ====
/-
  Pipeline 1 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.KR1A
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VW1 : View sig .tc .vmem S1x128 .f32 := scM1_0.view
def rd1 (L : List (View.Piece (Elt F) S1x128 .f32)) : Vec F S1x128 .f32 := VW1.read (Elt F) (VW1.writes (Elt F) VW1.junk L)

theorem scoverA1_0 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6).1 S1x128.size (by sl_kernel_rfl) y
theorem scoverA1_1 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6).2.1 S1x128.size (by sl_kernel_rfl) y
theorem scoverB1_0 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 S1x128.size (by sl_kernel_rfl) y
theorem scoverB1_1 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 S1x128.size (by sl_kernel_rfl) y
theorem coverC1_1 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 S1x128.size (by sl_kernel_rfl) y
theorem coverC1_2 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 S1x128.size (by sl_kernel_rfl) y
theorem scoverC1_0 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.1 S1x128.size (by sl_kernel_rfl) y
theorem scoverC1_1 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.2.1 S1x128.size (by sl_kernel_rfl) y

theorem c0_zero1 (hn : 0 < cfg1.N) : cond1_0 (grid1.coords ⟨0, hn⟩) := (hcond1_0 ⟨0, hn⟩).mpr (Nat.zero_mod _)
theorem nc1_zero1 (hn : 0 < cfg1.N) : ¬cond1_1 (grid1.coords ⟨0, hn⟩) :=
  fun h => by have := (hcond1_1 ⟨0, hn⟩).mp h; (try dsimp only at this); omega
theorem nc0_succ1 (n : ℕ) (hn : n + 1 < cfg1.N) : ¬cond1_0 (grid1.coords ⟨n + 1, hn⟩) := fun h => by
  have hN : n + 1 < 10 := lt_of_lt_of_eq hn (show cfg1.N = 10 from N_1)
  have := (hcond1_0 ⟨n + 1, hn⟩).mp h; (try dsimp only at this); omega

def outsAt1 (c : Dev nD) : (n : ℕ) → n < cfg1.N → Vec F S1x128 .f32 × Vec F S1x128 .f32 × Vec F S1x128 .f32 × Vec F S1x128 .f32
  | 0, hn => (rd1 [], rd1 [], rd1 (kernelRun1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) (c0_zero1 hn) (nc1_zero1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)).1, rd1 (kernelRun1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) (c0_zero1 hn) (nc1_zero1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)).2.1)
  | n + 1, hn =>
    if h1 : (n + 1) % 10 = 9 then
      (rd1 (kernelRun1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (nc0_succ1 n hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2).1, rd1 (kernelRun1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (nc0_succ1 n hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2).2.1, rd1 (kernelRun1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (nc0_succ1 n hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2).2.2.1, rd1 (kernelRun1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (nc0_succ1 n hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2).2.2.2.1)
    else
      (rd1 [], rd1 [], rd1 (kernelRun1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (nc0_succ1 n hn) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2).1, rd1 (kernelRun1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (nc0_succ1 n hn) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2).2.1)

theorem outsAt1_A (c : Dev nD) (t : Fin cfg1.N) (hz : t.val = 0) (hc0 : cond1_0 (grid1.coords t)) (hc1 : ¬cond1_1 (grid1.coords t)) :
    outsAt1 V c t.val t.isLt = (rd1 [], rd1 [], rd1 (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t)).1, rd1 (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t)).2.1) := by
  obtain ⟨n, hn⟩ := t
  cases n with
  | zero => rfl
  | succ n => exact absurd hz (Nat.succ_ne_zero n)
theorem outsAt1_B (c : Dev nD) (t : Fin cfg1.N) (hz : t.val ≠ 0) (h1 : ¬t.val % 10 = 9) (hc0 : ¬cond1_0 (grid1.coords t)) (hc1 : ¬cond1_1 (grid1.coords t)) :
    outsAt1 V c t.val t.isLt = (rd1 [], rd1 [], rd1 (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).1, rd1 (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt1_C (c : Dev nD) (t : Fin cfg1.N) (hz : t.val ≠ 0) (h1 : t.val % 10 = 9) (hc0 : ¬cond1_0 (grid1.coords t)) (hc1 : cond1_1 (grid1.coords t)) :
    outsAt1 V c t.val t.isLt = (rd1 (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).1, rd1 (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).2.1, rd1 (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).2.2.1, rd1 (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest1 (c : Dev nD) : sProp 𝕄 :=
  Pipeline.scopedRestBut (Ix := Unit) (Name := ℕ) (U := UR sig nD τ) (Lvl := ℕ) (Val := Elt F) spec1 c [cc1_scratch0, cc1_scratch1]

def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases hz : t.val = 0
  · have hc0 : cond1_0 (grid1.coords t) := (hcond1_0 t).mpr (by omega)
    have hc1 : ¬cond1_1 (grid1.coords t) := fun h => by have := (hcond1_1 t).mp h; omega
    rw [Dat.leavesExact_idle (dat1 V c) 7 t (idleAt1_7 t hc1) (noFlush1_7 t hc1),
      Dat.leavesExact_idle (dat1 V c) 8 t (idleAt1_8 t hc1) (noFlush1_8 t hc1)]
    rw [outsAt1_A V c t hz hc0 hc1]
    (try dsimp only)
    rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A c (grid1.coords t) _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA1_0 c _ _ _ _ _ _ _ _ _ _ _ _ _ _ _ _ _ _ _ _ _ _ _ hc0 hc1 _ _ _ _ _ _ _)
          · unfold owns; iexists _; isplitr
            swap; · iexact HS1
            ipureintro; exact View.read_writes_of_cover _ _ _ _ _ (scoverA1_1 c _ _ _ _ _ _ _ _ _ _ _ _ _ _ _ _ _ _ _ _ _ _ _ hc0 hc1 _ _ _ _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · have hc0 : ¬cond1_0 (grid1.coords t) := fun h => by have := (hcond1_0 t).mp h; omega
    rw [PhiS1_castSucc V c t, PhiS1_pos V c _ _ hz]
    by_cases h1 : t.val % 10 = 9
    · have hc1 : cond1_1 (grid1.coords t) := (hcond1_1 t).mpr h1
      rw [show (dat1 V c).leavesExact 7 t = owns (c : Thread nD τ) (ms1_7 t) fullShare ((dat1 V c).after 7 t) from by
        unfold Dat.leavesExact; rw [liveAt1_7 t hc1], after1_7]
      rw [show (dat1 V c).leavesExact 8 t = owns (c : Thread nD τ) (ms1_8 t) fullShare ((dat1 V c).after 8 t) from by
        unfold Dat.leavesExact; rw [liveAt1_8 t hc1], after1_8]
      rw [outsAt1_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, ⟨%e1, H7⟩, ⟨%e2, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC1_0 c _ _ _ _ _ _ _ _ _ _ _ _ _ _ _ _ _ _ _ _ _ _ _ hc0 hc1 _ _ _ _ _ _ _ _ _)
            · unfold owns; iexists _; isplitr
              swap; · iexact HS1
              ipureintro; exact View.read_writes_of_cover _ _ _ _ _ (scoverC1_1 c _ _ _ _ _ _ _ _ _ _ _ _ _ _ _ _ _ _ _ _ _ _ _ hc0 hc1 _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverC1_1 c _ _ _ _ _ _ _ _ _ _ _ _ _ _ _ _ _ _ _ _ _ _ _ hc0 hc1 _ _ _ _ _ _ _ _ _)
      unfold owns; iexists _; isplitr
      swap; · iexact H8
      ipureintro; exact View.read_writes_of_cover _ _ _ _ _ (coverC1_2 c _ _ _ _ _ _ _ _ _ _ _ _ _ _ _ _ _ _ _ _ _ _ _ hc0 hc1 _ _ _ _ _ _ _ _ _)
    · have hc1 : ¬cond1_1 (grid1.coords t) := fun h => h1 ((hcond1_1 t).mp h)
      rw [Dat.leavesExact_idle (dat1 V c) 7 t (idleAt1_7 t hc1) (noFlush1_7 t hc1),
        Dat.leavesExact_idle (dat1 V c) 8 t (idleAt1_8 t hc1) (noFlush1_8 t hc1)]
      rw [outsAt1_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB1_0 c _ _ _ _ _ _ _ _ _ _ _ _ _ _ _ _ _ _ _ _ _ _ _ hc0 hc1 _ _ _ _ _ _ _ _ _)
            · unfold owns; iexists _; isplitr
              swap; · iexact HS1
              ipureintro; exact View.read_writes_of_cover _ _ _ _ _ (scoverB1_1 c _ _ _ _ _ _ _ _ _ _ _ _ _ _ _ _ _ _ _ _ _ _ _ hc0 hc1 _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega), PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.Kernel.Hand

end
-- ==== Proof.KR2A.lean ====
/-
  Pipeline 2 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel
theorem idleAt2_9 : ∀ t : Fin cfg2.N, ¬cond2_1 (grid2.coords t) → cfg2.idle 9 (grid2.coords t) = true := by decide +kernel
theorem noFlush2_9 : ∀ t : Fin cfg2.N, ¬cond2_1 (grid2.coords t) → (cfg2.win 9).flush t = false := by decide +kernel
theorem liveAt2_9 : ∀ t : Fin cfg2.N, cond2_1 (grid2.coords t) → cfg2.idle 9 (grid2.coords t) = false := by decide +kernel
theorem idleAt2_10 : ∀ t : Fin cfg2.N, ¬cond2_1 (grid2.coords t) → cfg2.idle 10 (grid2.coords t) = true := by decide +kernel
theorem noFlush2_10 : ∀ t : Fin cfg2.N, ¬cond2_1 (grid2.coords t) → (cfg2.win 10).flush t = false := by decide +kernel
theorem liveAt2_10 : ∀ t : Fin cfg2.N, cond2_1 (grid2.coords t) → cfg2.idle 10 (grid2.coords t) = false := by decide +kernel
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x128 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x128 .f32 := win2_10.stage (cfg2.slots t 10)
abbrev hs2_10 (t : Fin cfg2.N) : (ms2_10 t).IsWhole := hstage2_10 ((cfg2.slots t 10).cast nbuf2_10)
abbrev scM2_0 : Memref sig .tc .vmem S1x128 .f32 := Memref.whole cc2_scratch0
abbrev scM2_1 : Memref sig .tc .vmem S1x128 .f32 := Memref.whole cc2_scratch1

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

set_option maxHeartbeats 2000000 in
noncomputable def kernelRun2_A (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond2_0 i) (hc1 : ¬cond2_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi1 xi2 E K => ?run⟩
  case run =>
    simp only [cc2__stage3_kernel_eq_skeleton]; unfold cc2__stage3_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg10.eq_unread hfo1; obtain rfl := harg11.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]
    · iexists _; isplitr; · ipureintro; exact harg10.read_unread _
      iexact HO1
    isplitl [HO2]
    · iexists _; isplitr; · ipureintro; exact harg11.read_unread _
      iexact HO2
    isplitl [HS0]; · iexists _; iexact HS0
    iexists _; iexact HS1

set_option maxHeartbeats 2000000 in
noncomputable def kernelRun2_B (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : ¬cond2_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi1 xi2 E K => ?run⟩
  case run =>
    simp only [cc2__stage3_kernel_eq_skeleton]; unfold cc2__stage3_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg10.eq_unread hfo1; obtain rfl := harg11.eq_unread hfo2; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]
    · iexists _; isplitr; · ipureintro; exact harg10.read_unread _
      iexact HO1
    isplitl [HO2]
    · iexists _; isplitr; · ipureintro; exact harg11.read_unread _
      iexact HO2
    isplitl [HS0]; · iexists _; iexact HS0
    iexists _; iexact HS1

set_option maxHeartbeats 2000000 in
noncomputable def kernelRun2_C (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : cond2_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc2__stage3_kernel_eq_skeleton]; unfold cc2__stage3_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]; · iexists _; iexact HO1
    isplitl [HO2]; · iexists _; iexact HO2
    isplitl [HS0]; · iexists _; iexact HS0
    iexists _; iexact HS1

end Cert.Kernel.Hand

end
-- ==== Proof.KR2B.lean ====
/-
  Pipeline 2 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.KR2A
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VW2 : View sig .tc .vmem S1x128 .f32 := scM2_0.view
def rd2 (L : List (View.Piece (Elt F) S1x128 .f32)) : Vec F S1x128 .f32 := VW2.read (Elt F) (VW2.writes (Elt F) VW2.junk L)

theorem scoverA2_0 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond2_0 i) (hc1 : ¬cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 S1x128.size (by sl_kernel_rfl) y
theorem scoverA2_1 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond2_0 i) (hc1 : ¬cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 S1x128.size (by sl_kernel_rfl) y
theorem scoverB2_0 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : ¬cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 S1x128.size (by sl_kernel_rfl) y
theorem scoverB2_1 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : ¬cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 S1x128.size (by sl_kernel_rfl) y
theorem coverC2_1 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 S1x128.size (by sl_kernel_rfl) y
theorem coverC2_2 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 S1x128.size (by sl_kernel_rfl) y
theorem scoverC2_0 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1 S1x128.size (by sl_kernel_rfl) y
theorem scoverC2_1 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1 S1x128.size (by sl_kernel_rfl) y

theorem c0_zero2 (hn : 0 < cfg2.N) : cond2_0 (grid2.coords ⟨0, hn⟩) := (hcond2_0 ⟨0, hn⟩).mpr (Nat.zero_mod _)
theorem nc1_zero2 (hn : 0 < cfg2.N) : ¬cond2_1 (grid2.coords ⟨0, hn⟩) :=
  fun h => by have := (hcond2_1 ⟨0, hn⟩).mp h; (try dsimp only at this); omega
theorem nc0_succ2 (n : ℕ) (hn : n + 1 < cfg2.N) : ¬cond2_0 (grid2.coords ⟨n + 1, hn⟩) := fun h => by
  have hN : n + 1 < 10 := lt_of_lt_of_eq hn (show cfg2.N = 10 from N_2)
  have := (hcond2_0 ⟨n + 1, hn⟩).mp h; (try dsimp only at this); omega

def outsAt2 (c : Dev nD) : (n : ℕ) → n < cfg2.N → Vec F S1x128 .f32 × Vec F S1x128 .f32 × Vec F S1x128 .f32 × Vec F S1x128 .f32
  | 0, hn => (rd2 [], rd2 [], rd2 (kernelRun2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2_0 (Memref.isWhole_whole _) scM2_1 (Memref.isWhole_whole _) (c0_zero2 hn) (nc1_zero2 hn) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩)).1, rd2 (kernelRun2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2_0 (Memref.isWhole_whole _) scM2_1 (Memref.isWhole_whole _) (c0_zero2 hn) (nc1_zero2 hn) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩)).2.1)
  | n + 1, hn =>
    if h1 : (n + 1) % 10 = 9 then
      (rd2 (kernelRun2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) scM2_1 (Memref.isWhole_whole _) (nc0_succ2 n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.1 (outsAt2 c n (Nat.lt_of_succ_lt hn)).2.2.2).1, rd2 (kernelRun2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) scM2_1 (Memref.isWhole_whole _) (nc0_succ2 n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.1 (outsAt2 c n (Nat.lt_of_succ_lt hn)).2.2.2).2.1, rd2 (kernelRun2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) scM2_1 (Memref.isWhole_whole _) (nc0_succ2 n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.1 (outsAt2 c n (Nat.lt_of_succ_lt hn)).2.2.2).2.2.1, rd2 (kernelRun2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) scM2_1 (Memref.isWhole_whole _) (nc0_succ2 n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.1 (outsAt2 c n (Nat.lt_of_succ_lt hn)).2.2.2).2.2.2.1)
    else
      (rd2 [], rd2 [], rd2 (kernelRun2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) scM2_1 (Memref.isWhole_whole _) (nc0_succ2 n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.1 (outsAt2 c n (Nat.lt_of_succ_lt hn)).2.2.2).1, rd2 (kernelRun2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2_0 (Memref.isWhole_whole _) scM2_1 (Memref.isWhole_whole _) (nc0_succ2 n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.1 (outsAt2 c n (Nat.lt_of_succ_lt hn)).2.2.2).2.1)

theorem outsAt2_A (c : Dev nD) (t : Fin cfg2.N) (hz : t.val = 0) (hc0 : cond2_0 (grid2.coords t)) (hc1 : ¬cond2_1 (grid2.coords t)) :
    outsAt2 V c t.val t.isLt = (rd2 [], rd2 [], rd2 (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t)).1, rd2 (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t)).2.1) := by
  obtain ⟨n, hn⟩ := t
  cases n with
  | zero => rfl
  | succ n => exact absurd hz (Nat.succ_ne_zero n)
theorem outsAt2_B (c : Dev nD) (t : Fin cfg2.N) (hz : t.val ≠ 0) (h1 : ¬t.val % 10 = 9) (hc0 : ¬cond2_0 (grid2.coords t)) (hc1 : ¬cond2_1 (grid2.coords t)) :
    outsAt2 V c t.val t.isLt = (rd2 [], rd2 [], rd2 (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.1 (outsAt2 V c (t.val - 1) (Nat.lt_of_le_of_lt (Nat.sub_le _ _) t.isLt)).2.2.2).1, rd2 (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.1 (outsAt2 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt2_C (c : Dev nD) (t : Fin cfg2.N) (hz : t.val ≠ 0) (h1 : t.val % 10 = 9) (hc0 : ¬cond2_0 (grid2.coords t)) (hc1 : cond2_1 (grid2.coords t)) :
    outsAt2 V c t.val t.isLt = (rd2 (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.1 (outsAt2 V c (t.val - 1) (Nat.lt_of_le_of_lt (Nat.sub_le _ _) t.isLt)).2.2.2).1, rd2 (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.1 (outsAt2 V c (t.val - 1) (Nat.lt_of_le_of_lt (Nat.sub_le _ _) t.isLt)).2.2.2).2.1, rd2 (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.1 (outsAt2 V c (t.val - 1) (Nat.lt_of_le_of_lt (Nat.sub_le _ _) t.isLt)).2.2.2).2.2.1, rd2 (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.1 (outsAt2 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest2 (c : Dev nD) : sProp 𝕄 :=
  Pipeline.scopedRestBut (Ix := Unit) (Name := ℕ) (U := UR sig nD τ) (Lvl := ℕ) (Val := Elt F) spec2 c [cc2_scratch0, cc2_scratch1]

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ rest2 c) ∗ (∃ r, prngReg c r))
theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ rest2 c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t.val t.isLt).1
    | ⟨10, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = (outsAt2 V c t.val t.isLt).1 := by dsimp only [dat2]
theorem after2_10 (c : Dev nD) (t : Fin cfg2.N) : (dat2 V c).after 10 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  by_cases hz : t.val = 0
  · have hc0 : cond2_0 (grid2.coords t) := (hcond2_0 t).mpr (by omega)
    have hc1 : ¬cond2_1 (grid2.coords t) := fun h => by have := (hcond2_1 t).mp h; omega
    rw [Dat.leavesExact_idle (dat2 V c) 9 t (idleAt2_9 t hc1) (noFlush2_9 t hc1),
      Dat.leavesExact_idle (dat2 V c) 10 t (idleAt2_10 t hc1) (noFlush2_10 t hc1)]
    rw [outsAt2_A V c t hz hc0 hc1]
    (try dsimp only)
    rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun2_A c (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA2_0 c _ _ _ _ _ _ _ _ _ _ _ _ _ _ _ _ _ _ _ _ _ _ _ _ _ _ _ hc0 hc1 _ _ _ _ _ _ _ _ _)
          · unfold owns; iexists _; isplitr
            swap; · iexact HS1
            ipureintro; exact View.read_writes_of_cover _ _ _ _ _ (scoverA2_1 c _ _ _ _ _ _ _ _ _ _ _ _ _ _ _ _ _ _ _ _ _ _ _ _ _ _ _ hc0 hc1 _ _ _ _ _ _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have hc0 : ¬cond2_0 (grid2.coords t) := fun h => by have := (hcond2_0 t).mp h; omega
    rw [PhiS2_castSucc V c t, PhiS2_pos V c _ _ hz]
    by_cases h1 : t.val % 10 = 9
    · have hc1 : cond2_1 (grid2.coords t) := (hcond2_1 t).mpr h1
      rw [show (dat2 V c).leavesExact 9 t = owns (c : Thread nD τ) (ms2_9 t) fullShare ((dat2 V c).after 9 t) from by
        unfold Dat.leavesExact; rw [liveAt2_9 t hc1], after2_9]
      rw [show (dat2 V c).leavesExact 10 t = owns (c : Thread nD τ) (ms2_10 t) fullShare ((dat2 V c).after 10 t) from by
        unfold Dat.leavesExact; rw [liveAt2_10 t hc1], after2_10]
      rw [outsAt2_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun2_C c (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, ⟨%e1, H9⟩, ⟨%e2, H10⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC2_0 c _ _ _ _ _ _ _ _ _ _ _ _ _ _ _ _ _ _ _ _ _ _ _ _ _ _ _ hc0 hc1 _ _ _ _ _ _ _ _ _ _ _)
            · unfold owns; iexists _; isplitr
              swap; · iexact HS1
              ipureintro; exact View.read_writes_of_cover _ _ _ _ _ (scoverC2_1 c _ _ _ _ _ _ _ _ _ _ _ _ _ _ _ _ _ _ _ _ _ _ _ _ _ _ _ hc0 hc1 _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverC2_1 c _ _ _ _ _ _ _ _ _ _ _ _ _ _ _ _ _ _ _ _ _ _ _ _ _ _ _ hc0 hc1 _ _ _ _ _ _ _ _ _ _ _)
      unfold owns; iexists _; isplitr
      swap; · iexact H10
      ipureintro; exact View.read_writes_of_cover _ _ _ _ _ (coverC2_2 c _ _ _ _ _ _ _ _ _ _ _ _ _ _ _ _ _ _ _ _ _ _ _ _ _ _ _ hc0 hc1 _ _ _ _ _ _ _ _ _ _ _)
    · have hc1 : ¬cond2_1 (grid2.coords t) := fun h => h1 ((hcond2_1 t).mp h)
      rw [Dat.leavesExact_idle (dat2 V c) 9 t (idleAt2_9 t hc1) (noFlush2_9 t hc1),
        Dat.leavesExact_idle (dat2 V c) 10 t (idleAt2_10 t hc1) (noFlush2_10 t hc1)]
      rw [outsAt2_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun2_B c (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB2_0 c _ _ _ _ _ _ _ _ _ _ _ _ _ _ _ _ _ _ _ _ _ _ _ _ _ _ _ hc0 hc1 _ _ _ _ _ _ _ _ _ _ _)
            · unfold owns; iexists _; isplitr
              swap; · iexact HS1
              ipureintro; exact View.read_writes_of_cover _ _ _ _ _ (scoverB2_1 c _ _ _ _ _ _ _ _ _ _ _ _ _ _ _ _ _ _ _ _ _ _ _ _ _ _ _ hc0 hc1 _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega), PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.Kernel.Hand

end
-- ==== Proof.KR4A.lean ====
/-
  Pipeline 4 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5 : ∀ t : Fin cfg4.N, cond4_1 (grid4.coords t) → cfg4.idle 5 (grid4.coords t) = false := by decide +kernel
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev scM4_0 : Memref sig .tc .vmem S1x128 .f32 := Memref.whole cc4_scratch0
abbrev scM4_1 : Memref sig .tc .vmem S1x128 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

set_option maxHeartbeats 2000000 in
noncomputable def kernelRun4_A (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .bf16) (x2 : Vec F S1x128 .f32) (x3 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__stage1_kernel i arg1 harg1 arg2 harg2 arg3 harg3 arg4 harg4 arg5 harg5 arg6 harg6 arg7 harg7 arg8 harg8) K } := by
  refine ⟨?_, ?_, fun xi1 xi2 E K => ?run⟩
  case run =>
    simp only [cc4__stage1_kernel_eq_skeleton]; unfold cc4__stage1_kernel_skel
    unfold owns
    iintro ⟨⟨%f0, %hf0, H0⟩, ⟨%f1, %hf1, H1⟩, ⟨%f2, %hf2, H2⟩, ⟨%f3, %hf3, H3⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hfo1; obtain rfl := harg6.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]
    · iexists _; isplitr; · ipureintro; exact harg5.read_unread _
      iexact HO1
    isplitl [HO2]
    · iexists _; isplitr; · ipureintro; exact harg6.read_unread _
      iexact HO2
    isplitl [HS0]; · iexists _; iexact HS0
    iexists _; iexact HS1

set_option maxHeartbeats 2000000 in
noncomputable def kernelRun4_B (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .bf16) (x2 : Vec F S1x128 .f32) (x3 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__stage1_kernel i arg1 harg1 arg2 harg2 arg3 harg3 arg4 harg4 arg5 harg5 arg6 harg6 arg7 harg7 arg8 harg8) K } := by
  refine ⟨?_, ?_, fun xi1 xi2 E K => ?run⟩
  case run =>
    simp only [cc4__stage1_kernel_eq_skeleton]; unfold cc4__stage1_kernel_skel
    unfold owns
    iintro ⟨⟨%f0, %hf0, H0⟩, ⟨%f1, %hf1, H1⟩, ⟨%f2, %hf2, H2⟩, ⟨%f3, %hf3, H3⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfo1; obtain rfl := harg6.eq_unread hfo2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]
    · iexists _; isplitr; · ipureintro; exact harg5.read_unread _
      iexact HO1
    isplitl [HO2]
    · iexists _; isplitr; · ipureintro; exact harg6.read_unread _
      iexact HO2
    isplitl [HS0]; · iexists _; iexact HS0
    iexists _; iexact HS1

set_option maxHeartbeats 2000000 in
noncomputable def kernelRun4_C (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .bf16) (x2 : Vec F S1x128 .f32) (x3 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L1) ∗ (∃ f, arg6.view.loc (c : Thread nD τ) ↦[arg6.view.set]{fullShare} arg6.view.writes (Elt F) f L2) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__stage1_kernel i arg1 harg1 arg2 harg2 arg3 harg3 arg4 harg4 arg5 harg5 arg6 harg6 arg7 harg7 arg8 harg8) K } := by
  refine ⟨?_, ?_, ?_, ?_, fun E K => ?run⟩
  case run =>
    simp only [cc4__stage1_kernel_eq_skeleton]; unfold cc4__stage1_kernel_skel
    unfold owns
    iintro ⟨⟨%f0, %hf0, H0⟩, ⟨%f1, %hf1, H1⟩, ⟨%f2, %hf2, H2⟩, ⟨%f3, %hf3, H3⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]; · iexists _; iexact HO1
    isplitl [HO2]; · iexists _; iexact HO2
    isplitl [HS0]; · iexists _; iexact HS0
    iexists _; iexact HS1

end Cert.Kernel.Hand

end
-- ==== Proof.KR4B.lean ====
/-
  Pipeline 4 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.KR4A
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VW4 : View sig .tc .vmem S1x128 .f32 := scM4_0.view
def rd4 (L : List (View.Piece (Elt F) S1x128 .f32)) : Vec F S1x128 .f32 := VW4.read (Elt F) (VW4.writes (Elt F) VW4.junk L)

theorem scoverA4_0 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i) (x0 : Vec F S5000x128 .f32) (x1 : Vec F S128x128 .bf16) (x2 : Vec F S1x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 hc0 hc1 x0 x1 x2 x3).1, y ∈ pc.1.set :=
  View.cover_of_tiledL (kernelRun4_A c i arg1 harg1 arg2 harg2 arg3 harg3 arg4 harg4 arg5 harg5 arg6 harg6 arg7 harg7 arg8 harg8 hc0 hc1 x0 x1 x2 x3).1 S1x128.size (by sl_kernel_rfl) y
theorem scoverA4_1 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i) (x0 : Vec F S5000x128 .f32) (x1 : Vec F S128x128 .bf16) (x2 : Vec F S1x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 hc0 hc1 x0 x1 x2 x3).2.1, y ∈ pc.1.set :=
  View.cover_of_tiledL (kernelRun4_A c i arg1 harg1 arg2 harg2 arg3 harg3 arg4 harg4 arg5 harg5 arg6 harg6 arg7 harg7 arg8 harg8 hc0 hc1 x0 x1 x2 x3).2.1 S1x128.size (by sl_kernel_rfl) y
theorem scoverB4_0 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun4_B c i arg1 harg1 arg2 harg2 arg3 harg3 arg4 harg4 arg5 harg5 arg6 harg6 arg7 harg7 arg8 harg8 hc0 hc1 x0 x1 x2 x3 xs0 xs1).1 S1x128.size (by sl_kernel_rfl) y
theorem scoverB4_1 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun4_B c i arg1 harg1 arg2 harg2 arg3 harg3 arg4 harg4 arg5 harg5 arg6 harg6 arg7 harg7 arg8 harg8 hc0 hc1 x0 x1 x2 x3 xs0 xs1).2.1 S1x128.size (by sl_kernel_rfl) y
theorem coverC4_1 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).1 S1x128.size (by sl_kernel_rfl) y
theorem coverC4_2 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).2.1 S1x128.size (by sl_kernel_rfl) y
theorem scoverC4_0 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).2.2.1 S1x128.size (by sl_kernel_rfl) y
theorem scoverC4_1 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).2.2.2.1 S1x128.size (by sl_kernel_rfl) y

theorem c0_zero4 (hn : 0 < cfg4.N) : cond4_0 (grid4.coords ⟨0, hn⟩) := (hcond4_0 ⟨0, hn⟩).mpr (Nat.zero_mod _)
theorem nc1_zero4 (hn : 0 < cfg4.N) : ¬cond4_1 (grid4.coords ⟨0, hn⟩) :=
  fun h => by have := (hcond4_1 ⟨0, hn⟩).mp h; (try dsimp only at this); omega
theorem nc0_succ4 (n : ℕ) (hn : n + 1 < cfg4.N) : ¬cond4_0 (grid4.coords ⟨n + 1, hn⟩) := fun h => by
  have hN : n + 1 < 10 := lt_of_lt_of_eq hn (show cfg4.N = 10 from N_4)
  have := (hcond4_0 ⟨n + 1, hn⟩).mp h; (try dsimp only at this); omega

def outsAt4 (c : Dev nD) : (n : ℕ) → n < cfg4.N → Vec F S1x128 .f32 × Vec F S1x128 .f32 × Vec F S1x128 .f32 × Vec F S1x128 .f32
  | 0, hn => (rd4 [], rd4 [], rd4 (kernelRun4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) (c0_zero4 hn) (nc1_zero4 hn) (iblk4 V c 0 ⟨0, hn⟩) (iblk4 V c 1 ⟨0, hn⟩) (iblk4 V c 2 ⟨0, hn⟩) (iblk4 V c 3 ⟨0, hn⟩)).1, rd4 (kernelRun4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) (c0_zero4 hn) (nc1_zero4 hn) (iblk4 V c 0 ⟨0, hn⟩) (iblk4 V c 1 ⟨0, hn⟩) (iblk4 V c 2 ⟨0, hn⟩) (iblk4 V c 3 ⟨0, hn⟩)).2.1)
  | n + 1, hn =>
    if h1 : (n + 1) % 10 = 9 then
      (rd4 (kernelRun4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (nc0_succ4 n hn) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2).1, rd4 (kernelRun4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (nc0_succ4 n hn) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2).2.1, rd4 (kernelRun4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (nc0_succ4 n hn) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2).2.2.1, rd4 (kernelRun4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (nc0_succ4 n hn) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2).2.2.2.1)
    else
      (rd4 [], rd4 [], rd4 (kernelRun4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (nc0_succ4 n hn) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2).1, rd4 (kernelRun4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (nc0_succ4 n hn) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2).2.1)

theorem outsAt4_A (c : Dev nD) (t : Fin cfg4.N) (hz : t.val = 0) (hc0 : cond4_0 (grid4.coords t)) (hc1 : ¬cond4_1 (grid4.coords t)) :
    outsAt4 V c t.val t.isLt = (rd4 [], rd4 [], rd4 (kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t)).1, rd4 (kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t)).2.1) := by
  obtain ⟨n, hn⟩ := t
  cases n with
  | zero => rfl
  | succ n => exact absurd hz (Nat.succ_ne_zero n)
theorem outsAt4_B (c : Dev nD) (t : Fin cfg4.N) (hz : t.val ≠ 0) (h1 : ¬t.val % 10 = 9) (hc0 : ¬cond4_0 (grid4.coords t)) (hc1 : ¬cond4_1 (grid4.coords t)) :
    outsAt4 V c t.val t.isLt = (rd4 [], rd4 [], rd4 (kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2).1, rd4 (kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt4_C (c : Dev nD) (t : Fin cfg4.N) (hz : t.val ≠ 0) (h1 : t.val % 10 = 9) (hc0 : ¬cond4_0 (grid4.coords t)) (hc1 : cond4_1 (grid4.coords t)) :
    outsAt4 V c t.val t.isLt = (rd4 (kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2).1, rd4 (kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2).2.1, rd4 (kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2).2.2.1, rd4 (kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest4 (c : Dev nD) : sProp 𝕄 :=
  Pipeline.scopedRestBut (Ix := Unit) (Name := ℕ) (U := UR sig nD τ) (Lvl := ℕ) (Val := Elt F) spec4 c [cc4_scratch0, cc4_scratch1]

def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2)) ∗ rest4 c) ∗ (∃ r, prngReg c r))
theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2)) ∗ rest4 c) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2)) ∗ rest4 c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  by_cases hz : t.val = 0
  · have hc0 : cond4_0 (grid4.coords t) := (hcond4_0 t).mpr (by omega)
    have hc1 : ¬cond4_1 (grid4.coords t) := fun h => by have := (hcond4_1 t).mp h; omega
    rw [Dat.leavesExact_idle (dat4 V c) 4 t (idleAt4_4 t hc1) (noFlush4_4 t hc1),
      Dat.leavesExact_idle (dat4 V c) 5 t (idleAt4_5 t hc1) (noFlush4_5 t hc1)]
    rw [outsAt4_A V c t hz hc0 hc1]
    (try dsimp only)
    rw [PhiS4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun4_A c (grid4.coords t) _ _ _ _ _ _ _ _ _ _ _ _ _ _ _ _ hc0 hc1 (iblk4 V c 0 t) (iblk4 V c 1 t) (iblk4 V c 2 t) (iblk4 V c 3 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA4_0 c _ _ _ _ _ _ _ _ _ _ _ _ _ _ _ _ _ hc0 hc1 _ _ _ _)
          · unfold owns; iexists _; isplitr
            swap; · iexact HS1
            ipureintro; exact View.read_writes_of_cover _ _ _ _ _ (scoverA4_1 c _ _ _ _ _ _ _ _ _ _ _ _ _ _ _ _ _ hc0 hc1 _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hc0 : ¬cond4_0 (grid4.coords t) := fun h => by have := (hcond4_0 t).mp h; omega
    rw [PhiS4_castSucc V c t, PhiS4_pos V c _ _ hz]
    by_cases h1 : t.val % 10 = 9
    · have hc1 : cond4_1 (grid4.coords t) := (hcond4_1 t).mpr h1
      rw [show (dat4 V c).leavesExact 4 t = owns (c : Thread nD τ) (ms4_4 t) fullShare ((dat4 V c).after 4 t) from by
        unfold Dat.leavesExact; rw [liveAt4_4 t hc1], after4_4]
      rw [show (dat4 V c).leavesExact 5 t = owns (c : Thread nD τ) (ms4_5 t) fullShare ((dat4 V c).after 5 t) from by
        unfold Dat.leavesExact; rw [liveAt4_5 t hc1], after4_5]
      rw [outsAt4_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun4_C c (grid4.coords t) _ _ _ _ _ _ _ _ _ _ _ _ _ _ _ _ hc0 hc1 (iblk4 V c 0 t) (iblk4 V c 1 t) (iblk4 V c 2 t) (iblk4 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e1, H4⟩, ⟨%e2, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC4_0 c _ _ _ _ _ _ _ _ _ _ _ _ _ _ _ _ _ hc0 hc1 _ _ _ _ _ _)
            · unfold owns; iexists _; isplitr
              swap; · iexact HS1
              ipureintro; exact View.read_writes_of_cover _ _ _ _ _ (scoverC4_1 c _ _ _ _ _ _ _ _ _ _ _ _ _ _ _ _ _ hc0 hc1 _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC4_1 c _ _ _ _ _ _ _ _ _ _ _ _ _ _ _ _ _ hc0 hc1 _ _ _ _ _ _)
      unfold owns; iexists _; isplitr
      swap; · iexact H5
      ipureintro; exact View.read_writes_of_cover _ _ _ _ _ (coverC4_2 c _ _ _ _ _ _ _ _ _ _ _ _ _ _ _ _ _ hc0 hc1 _ _ _ _ _ _)
    · have hc1 : ¬cond4_1 (grid4.coords t) := fun h => h1 ((hcond4_1 t).mp h)
      rw [Dat.leavesExact_idle (dat4 V c) 4 t (idleAt4_4 t hc1) (noFlush4_4 t hc1),
        Dat.leavesExact_idle (dat4 V c) 5 t (idleAt4_5 t hc1) (noFlush4_5 t hc1)]
      rw [outsAt4_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun4_B c (grid4.coords t) _ _ _ _ _ _ _ _ _ _ _ _ _ _ _ _ hc0 hc1 (iblk4 V c 0 t) (iblk4 V c 1 t) (iblk4 V c 2 t) (iblk4 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB4_0 c _ _ _ _ _ _ _ _ _ _ _ _ _ _ _ _ _ hc0 hc1 _ _ _ _ _ _)
            · unfold owns; iexists _; isplitr
              swap; · iexact HS1
              ipureintro; exact View.read_writes_of_cover _ _ _ _ _ (scoverB4_1 c _ _ _ _ _ _ _ _ _ _ _ _ _ _ _ _ _ hc0 hc1 _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.Kernel.Hand

end
-- ==== Proof.KR5A.lean ====
/-
  Pipeline 5 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val % 10 = 0 :=
  (by decide +kernel : ∀ t : Fin grid5.N, cond5_0 (grid5.coords t) ↔ t.val % 10 = 0)
abbrev cond5_1 (i : grid5.Coords) : Prop := k5_cond2 i = 1#1
theorem hcond5_1 : ∀ t : Fin cfg5.N, cond5_1 (grid5.coords t) ↔ t.val % 10 = 9 :=
  (by decide +kernel : ∀ t : Fin grid5.N, cond5_1 (grid5.coords t) ↔ t.val % 10 = 9)
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel
theorem liveAt5_5 : ∀ t : Fin cfg5.N, cfg5.idle 5 (grid5.coords t) = false := by decide +kernel
theorem liveAt5_6 : ∀ t : Fin cfg5.N, cfg5.idle 6 (grid5.coords t) = false := by decide +kernel
theorem idleAt5_7 : ∀ t : Fin cfg5.N, ¬cond5_1 (grid5.coords t) → cfg5.idle 7 (grid5.coords t) = true := by decide +kernel
theorem noFlush5_7 : ∀ t : Fin cfg5.N, ¬cond5_1 (grid5.coords t) → (cfg5.win 7).flush t = false := by decide +kernel
theorem liveAt5_7 : ∀ t : Fin cfg5.N, cond5_1 (grid5.coords t) → cfg5.idle 7 (grid5.coords t) = false := by decide +kernel
theorem idleAt5_8 : ∀ t : Fin cfg5.N, ¬cond5_1 (grid5.coords t) → cfg5.idle 8 (grid5.coords t) = true := by decide +kernel
theorem noFlush5_8 : ∀ t : Fin cfg5.N, ¬cond5_1 (grid5.coords t) → (cfg5.win 8).flush t = false := by decide +kernel
theorem liveAt5_8 : ∀ t : Fin cfg5.N, cond5_1 (grid5.coords t) → cfg5.idle 8 (grid5.coords t) = false := by decide +kernel
abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S128x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x128 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S1x128 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S1x128 .f32 := win5_8.stage (cfg5.slots t 8)
abbrev hs5_8 (t : Fin cfg5.N) : (ms5_8 t).IsWhole := hstage5_8 ((cfg5.slots t 8).cast nbuf5_8)
abbrev scM5_0 : Memref sig .tc .vmem S1x128 .f32 := Memref.whole cc5_scratch0
abbrev scM5_1 : Memref sig .tc .vmem S1x128 .f32 := Memref.whole cc5_scratch1

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

set_option maxHeartbeats 2000000 in
noncomputable def kernelRun5_A (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond5_0 i) (hc1 : ¬cond5_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc5__stage2_kernel i arg1 harg1 arg2 harg2 arg3 harg3 arg4 harg4 arg5 harg5 arg6 harg6 arg7 harg7 arg8 harg8 arg9 harg9 arg10 harg10 arg11 harg11) K } := by
  refine ⟨?_, ?_, fun xi1 xi2 E K => ?run⟩
  case run =>
    simp only [cc5__stage2_kernel_eq_skeleton]; unfold cc5__stage2_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfo1; obtain rfl := harg9.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]
    · iexists _; isplitr; · ipureintro; exact harg8.read_unread _
      iexact HO1
    isplitl [HO2]
    · iexists _; isplitr; · ipureintro; exact harg9.read_unread _
      iexact HO2
    isplitl [HS0]; · iexists _; iexact HS0
    iexists _; iexact HS1

set_option maxHeartbeats 2000000 in
noncomputable def kernelRun5_B (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : ¬cond5_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc5__stage2_kernel i arg1 harg1 arg2 harg2 arg3 harg3 arg4 harg4 arg5 harg5 arg6 harg6 arg7 harg7 arg8 harg8 arg9 harg9 arg10 harg10 arg11 harg11) K } := by
  refine ⟨?_, ?_, fun xi1 xi2 E K => ?run⟩
  case run =>
    simp only [cc5__stage2_kernel_eq_skeleton]; unfold cc5__stage2_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfo1; obtain rfl := harg9.eq_unread hfo2; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]
    · iexists _; isplitr; · ipureintro; exact harg8.read_unread _
      iexact HO1
    isplitl [HO2]
    · iexists _; isplitr; · ipureintro; exact harg9.read_unread _
      iexact HO2
    isplitl [HS0]; · iexists _; iexact HS0
    iexists _; iexact HS1

set_option maxHeartbeats 2000000 in
noncomputable def kernelRun5_C (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : cond5_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc5__stage2_kernel i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc5__stage2_kernel_eq_skeleton]; unfold cc5__stage2_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]; · iexists _; iexact HO1
    isplitl [HO2]; · iexists _; iexact HO2
    isplitl [HS0]; · iexists _; iexact HS0
    iexists _; iexact HS1

end Cert.Kernel.Hand

end
-- ==== Proof.KR5B.lean ====
/-
  Pipeline 5 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.KR5A
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VW5 : View sig .tc .vmem S1x128 .f32 := scM5_0.view
def rd5 (L : List (View.Piece (Elt F) S1x128 .f32)) : Vec F S1x128 .f32 := VW5.read (Elt F) (VW5.writes (Elt F) VW5.junk L)

theorem scoverA5_0 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond5_0 i) (hc1 : ¬cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (y : S1x128.Idx) :
    ∃ pc ∈ (kernelRun5_A c i arg1 harg1 arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 hc0 hc1 x0 x1 x2 x3 x4 x5 x6).1 S1x128.size (by sl_kernel_rfl) y
theorem scoverA5_1 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond5_0 i) (hc1 : ¬cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (y : S1x128.Idx) :
    ∃ pc ∈ (kernelRun5_A c i arg1 harg1 arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 hc0 hc1 x0 x1 x2 x3 x4 x5 x6).2.1 S1x128.size (by sl_kernel_rfl) y
theorem scoverB5_0 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : ¬cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun5_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 S1x128.size (by sl_kernel_rfl) y
theorem scoverB5_1 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : ¬cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun5_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 S1x128.size (by sl_kernel_rfl) y
theorem coverC5_1 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 S1x128.size (by sl_kernel_rfl) y
theorem coverC5_2 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 S1x128.size (by sl_kernel_rfl) y
theorem scoverC5_0 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.1 S1x128.size (by sl_kernel_rfl) y
theorem scoverC5_1 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.2.1 S1x128.size (by sl_kernel_rfl) y

theorem c0_zero5 (hn : 0 < cfg5.N) : cond5_0 (grid5.coords ⟨0, hn⟩) := (hcond5_0 ⟨0, hn⟩).mpr (Nat.zero_mod _)
theorem nc1_zero5 (hn : 0 < cfg5.N) : ¬cond5_1 (grid5.coords ⟨0, hn⟩) :=
  fun h => by have := (hcond5_1 ⟨0, hn⟩).mp h; (try dsimp only at this); omega
theorem nc0_succ5 (n : ℕ) (hn : n + 1 < cfg5.N) : ¬cond5_0 (grid5.coords ⟨n + 1, hn⟩) := fun h => by
  have hN : n + 1 < 10 := lt_of_lt_of_eq hn (show cfg5.N = 10 from N_5)
  have := (hcond5_0 ⟨n + 1, hn⟩).mp h; (try dsimp only at this); omega

def outsAt5 (c : Dev nD) : (n : ℕ) → n < cfg5.N → Vec F S1x128 .f32 × Vec F S1x128 .f32 × Vec F S1x128 .f32 × Vec F S1x128 .f32
  | 0, hn => (rd5 [], rd5 [], rd5 (kernelRun5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) scM5_0 (Memref.isWhole_whole _) scM5_1 (Memref.isWhole_whole _) (c0_zero5 hn) (nc1_zero5 hn) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩)).1, rd5 (kernelRun5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) scM5_0 (Memref.isWhole_whole _) scM5_1 (Memref.isWhole_whole _) (c0_zero5 hn) (nc1_zero5 hn) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩)).2.1)
  | n + 1, hn =>
    if h1 : (n + 1) % 10 = 9 then
      (rd5 (kernelRun5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) scM5_0 (Memref.isWhole_whole _) scM5_1 (Memref.isWhole_whole _) (nc0_succ5 n hn) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.2.1 (outsAt5 c n (Nat.lt_of_succ_lt hn)).2.2.2).1, rd5 (kernelRun5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) scM5_0 (Memref.isWhole_whole _) scM5_1 (Memref.isWhole_whole _) (nc0_succ5 n hn) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.2.1 (outsAt5 c n (Nat.lt_of_succ_lt hn)).2.2.2).2.1, rd5 (kernelRun5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) scM5_0 (Memref.isWhole_whole _) scM5_1 (Memref.isWhole_whole _) (nc0_succ5 n hn) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.2.1 (outsAt5 c n (Nat.lt_of_succ_lt hn)).2.2.2).2.2.1, rd5 (kernelRun5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) scM5_0 (Memref.isWhole_whole _) scM5_1 (Memref.isWhole_whole _) (nc0_succ5 n hn) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.2.1 (outsAt5 c n (Nat.lt_of_succ_lt hn)).2.2.2).2.2.2.1)
    else
      (rd5 [], rd5 [], rd5 (kernelRun5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) scM5_0 (Memref.isWhole_whole _) scM5_1 (Memref.isWhole_whole _) (nc0_succ5 n hn) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.2.1 (outsAt5 c n (Nat.lt_of_succ_lt hn)).2.2.2).1, rd5 (kernelRun5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) scM5_0 (Memref.isWhole_whole _) scM5_1 (Memref.isWhole_whole _) (nc0_succ5 n hn) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.2.1 (outsAt5 c n (Nat.lt_of_succ_lt hn)).2.2.2).2.1)

theorem outsAt5_A (c : Dev nD) (t : Fin cfg5.N) (hz : t.val = 0) (hc0 : cond5_0 (grid5.coords t)) (hc1 : ¬cond5_1 (grid5.coords t)) :
    outsAt5 V c t.val t.isLt = (rd5 [], rd5 [], rd5 (kernelRun5_A c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t)).1, rd5 (kernelRun5_A c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t)).2.1) := by
  obtain ⟨n, hn⟩ := t
  cases n with
  | zero => rfl
  | succ n => exact absurd hz (Nat.succ_ne_zero n)
theorem outsAt5_B (c : Dev nD) (t : Fin cfg5.N) (hz : t.val ≠ 0) (h1 : ¬t.val % 10 = 9) (hc0 : ¬cond5_0 (grid5.coords t)) (hc1 : ¬cond5_1 (grid5.coords t)) :
    outsAt5 V c t.val t.isLt = (rd5 [], rd5 [], rd5 (kernelRun5_B c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.2.1 (outsAt5 V c (t.val - 1) (Nat.lt_of_le_of_lt (Nat.sub_le _ _) t.isLt)).2.2.2).1, rd5 (kernelRun5_B c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.2.1 (outsAt5 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt5_C (c : Dev nD) (t : Fin cfg5.N) (hz : t.val ≠ 0) (h1 : t.val % 10 = 9) (hc0 : ¬cond5_0 (grid5.coords t)) (hc1 : cond5_1 (grid5.coords t)) :
    outsAt5 V c t.val t.isLt = (rd5 (kernelRun5_C c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.2.1 (outsAt5 V c (t.val - 1) (Nat.lt_of_le_of_lt (Nat.sub_le _ _) t.isLt)).2.2.2).1, rd5 (kernelRun5_C c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.2.1 (outsAt5 V c (t.val - 1) (Nat.lt_of_le_of_lt (Nat.sub_le _ _) t.isLt)).2.2.2).2.1, rd5 (kernelRun5_C c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.2.1 (outsAt5 V c (t.val - 1) (Nat.lt_of_le_of_lt (Nat.sub_le _ _) t.isLt)).2.2.2).2.2.1, rd5 (kernelRun5_C c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.2.1 (outsAt5 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest5 (c : Dev nD) : sProp 𝕄 :=
  Pipeline.scopedRestBut (Ix := Unit) (Name := ℕ) (U := UR sig nD τ) (Lvl := ℕ) (Val := Elt F) spec5 c [cc5_scratch0, cc5_scratch1]

def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2.1) ∗ owns (c : Thread nD τ) scM5_1 fullShare ((outsAt5 V c n hn).2.2.2)) ∗ rest5 c) ∗ (∃ r, prngReg c r))
theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(iprop(owns (c : Thread nD τ) scM5_0 fullShare ((outsAt5 V c n hn).2.2.1) ∗ owns (c : Thread nD τ) scM5_1 fullShare ((outsAt5 V c n hn).2.2.2)) ∗ rest5 c) ∗ (∃ r, prngReg c r)) := rfl
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.2.1) ∗ owns (c : Thread nD τ) scM5_1 fullShare ((outsAt5 V c (n - 1) (by omega)).2.2.2)) ∗ rest5 c) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => (outsAt5 V c t.val t.isLt).1
    | ⟨8, _⟩ => (outsAt5 V c t.val t.isLt).2.1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = (outsAt5 V c t.val t.isLt).1 := by dsimp only [dat5]
theorem after5_8 (c : Dev nD) (t : Fin cfg5.N) : (dat5 V c).after 8 t = (outsAt5 V c t.val t.isLt).2.1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t)

set_option maxHeartbeats 8000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [show (dat5 V c).leavesExact 5 t = owns (c : Thread nD τ) (ms5_5 t) fullShare ((dat5 V c).after 5 t) from by
    unfold Dat.leavesExact; rw [liveAt5_5 t], after5_5]
  rw [show (dat5 V c).leavesExact 6 t = owns (c : Thread nD τ) (ms5_6 t) fullShare ((dat5 V c).after 6 t) from by
    unfold Dat.leavesExact; rw [liveAt5_6 t], after5_6]
  by_cases hz : t.val = 0
  · have hc0 : cond5_0 (grid5.coords t) := (hcond5_0 t).mpr (by omega)
    have hc1 : ¬cond5_1 (grid5.coords t) := fun h => by have := (hcond5_1 t).mp h; omega
    rw [Dat.leavesExact_idle (dat5 V c) 7 t (idleAt5_7 t hc1) (noFlush5_7 t hc1),
      Dat.leavesExact_idle (dat5 V c) 8 t (idleAt5_8 t hc1) (noFlush5_8 t hc1)]
    rw [outsAt5_A V c t hz hc0 hc1]
    (try dsimp only)
    rw [PhiS5_castSucc V c t, PhiS5_zero V c _ _ hz, PhiA5_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun5_A c (grid5.coords t) _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA5_0 c _ _ _ _ _ _ _ _ _ _ _ _ _ _ _ _ _ _ _ _ _ _ _ hc0 hc1 _ _ _ _ _ _ _)
          · unfold owns; iexists _; isplitr
            swap; · iexact HS1
            ipureintro; exact View.read_writes_of_cover _ _ _ _ _ (scoverA5_1 c _ _ _ _ _ _ _ _ _ _ _ _ _ _ _ _ _ _ _ _ _ _ _ hc0 hc1 _ _ _ _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · have hc0 : ¬cond5_0 (grid5.coords t) := fun h => by have := (hcond5_0 t).mp h; omega
    rw [PhiS5_castSucc V c t, PhiS5_pos V c _ _ hz]
    by_cases h1 : t.val % 10 = 9
    · have hc1 : cond5_1 (grid5.coords t) := (hcond5_1 t).mpr h1
      rw [show (dat5 V c).leavesExact 7 t = owns (c : Thread nD τ) (ms5_7 t) fullShare ((dat5 V c).after 7 t) from by
        unfold Dat.leavesExact; rw [liveAt5_7 t hc1], after5_7]
      rw [show (dat5 V c).leavesExact 8 t = owns (c : Thread nD τ) (ms5_8 t) fullShare ((dat5 V c).after 8 t) from by
        unfold Dat.leavesExact; rw [liveAt5_8 t hc1], after5_8]
      rw [outsAt5_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun5_C c (grid5.coords t) _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, ⟨%e1, H7⟩, ⟨%e2, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC5_0 c _ _ _ _ _ _ _ _ _ _ _ _ _ _ _ _ _ _ _ _ _ _ _ hc0 hc1 _ _ _ _ _ _ _ _ _)
            · unfold owns; iexists _; isplitr
              swap; · iexact HS1
              ipureintro; exact View.read_writes_of_cover _ _ _ _ _ (scoverC5_1 c _ _ _ _ _ _ _ _ _ _ _ _ _ _ _ _ _ _ _ _ _ _ _ hc0 hc1 _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverC5_1 c _ _ _ _ _ _ _ _ _ _ _ _ _ _ _ _ _ _ _ _ _ _ _ hc0 hc1 _ _ _ _ _ _ _ _ _)
      unfold owns; iexists _; isplitr
      swap; · iexact H8
      ipureintro; exact View.read_writes_of_cover _ _ _ _ _ (coverC5_2 c _ _ _ _ _ _ _ _ _ _ _ _ _ _ _ _ _ _ _ _ _ _ _ hc0 hc1 _ _ _ _ _ _ _ _ _)
    · have hc1 : ¬cond5_1 (grid5.coords t) := fun h => h1 ((hcond5_1 t).mp h)
      rw [Dat.leavesExact_idle (dat5 V c) 7 t (idleAt5_7 t hc1) (noFlush5_7 t hc1),
        Dat.leavesExact_idle (dat5 V c) 8 t (idleAt5_8 t hc1) (noFlush5_8 t hc1)]
      rw [outsAt5_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun5_B c (grid5.coords t) _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB5_0 c _ _ _ _ _ _ _ _ _ _ _ _ _ _ _ _ _ _ _ _ _ _ _ hc0 hc1 _ _ _ _ _ _ _ _ _)
            · unfold owns; iexists _; isplitr
              swap; · iexact HS1
              ipureintro; exact View.read_writes_of_cover _ _ _ _ _ (scoverB5_1 c _ _ _ _ _ _ _ _ _ _ _ _ _ _ _ _ _ _ _ _ _ _ _ hc0 hc1 _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 10 := N_5; omega), PhiA5_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.Kernel.Hand

end
-- ==== Proof.KR6A.lean ====
/-
  Pipeline 6 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 10 = 0 :=
  (by decide +kernel : ∀ t : Fin grid6.N, cond6_0 (grid6.coords t) ↔ t.val % 10 = 0)
abbrev cond6_1 (i : grid6.Coords) : Prop := k6_cond2 i = 1#1
theorem hcond6_1 : ∀ t : Fin cfg6.N, cond6_1 (grid6.coords t) ↔ t.val % 10 = 9 :=
  (by decide +kernel : ∀ t : Fin grid6.N, cond6_1 (grid6.coords t) ↔ t.val % 10 = 9)
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem liveAt6_5 : ∀ t : Fin cfg6.N, cfg6.idle 5 (grid6.coords t) = false := by decide +kernel
theorem liveAt6_6 : ∀ t : Fin cfg6.N, cfg6.idle 6 (grid6.coords t) = false := by decide +kernel
theorem liveAt6_7 : ∀ t : Fin cfg6.N, cfg6.idle 7 (grid6.coords t) = false := by decide +kernel
theorem liveAt6_8 : ∀ t : Fin cfg6.N, cfg6.idle 8 (grid6.coords t) = false := by decide +kernel
theorem idleAt6_9 : ∀ t : Fin cfg6.N, ¬cond6_1 (grid6.coords t) → cfg6.idle 9 (grid6.coords t) = true := by decide +kernel
theorem noFlush6_9 : ∀ t : Fin cfg6.N, ¬cond6_1 (grid6.coords t) → (cfg6.win 9).flush t = false := by decide +kernel
theorem liveAt6_9 : ∀ t : Fin cfg6.N, cond6_1 (grid6.coords t) → cfg6.idle 9 (grid6.coords t) = false := by decide +kernel
theorem idleAt6_10 : ∀ t : Fin cfg6.N, ¬cond6_1 (grid6.coords t) → cfg6.idle 10 (grid6.coords t) = true := by decide +kernel
theorem noFlush6_10 : ∀ t : Fin cfg6.N, ¬cond6_1 (grid6.coords t) → (cfg6.win 10).flush t = false := by decide +kernel
theorem liveAt6_10 : ∀ t : Fin cfg6.N, cond6_1 (grid6.coords t) → cfg6.idle 10 (grid6.coords t) = false := by decide +kernel
abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x128 .bf16 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1x128 .f32 := win6_8.stage (cfg6.slots t 8)
abbrev hs6_8 (t : Fin cfg6.N) : (ms6_8 t).IsWhole := hstage6_8 ((cfg6.slots t 8).cast nbuf6_8)
abbrev ms6_9 (t : Fin cfg6.N) : Memref sig .tc .vmem S1x128 .f32 := win6_9.stage (cfg6.slots t 9)
abbrev hs6_9 (t : Fin cfg6.N) : (ms6_9 t).IsWhole := hstage6_9 ((cfg6.slots t 9).cast nbuf6_9)
abbrev ms6_10 (t : Fin cfg6.N) : Memref sig .tc .vmem S1x128 .f32 := win6_10.stage (cfg6.slots t 10)
abbrev hs6_10 (t : Fin cfg6.N) : (ms6_10 t).IsWhole := hstage6_10 ((cfg6.slots t 10).cast nbuf6_10)
abbrev scM6_0 : Memref sig .tc .vmem S1x128 .f32 := Memref.whole cc6_scratch0
abbrev scM6_1 : Memref sig .tc .vmem S1x128 .f32 := Memref.whole cc6_scratch1

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

set_option maxHeartbeats 2000000 in
noncomputable def kernelRun6_A (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond6_0 i) (hc1 : ¬cond6_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc6__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi1 xi2 E K => ?run⟩
  case run =>
    simp only [cc6__stage3_kernel_eq_skeleton]; unfold cc6__stage3_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg10.eq_unread hfo1; obtain rfl := harg11.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]
    · iexists _; isplitr; · ipureintro; exact harg10.read_unread _
      iexact HO1
    isplitl [HO2]
    · iexists _; isplitr; · ipureintro; exact harg11.read_unread _
      iexact HO2
    isplitl [HS0]; · iexists _; iexact HS0
    iexists _; iexact HS1

set_option maxHeartbeats 2000000 in
noncomputable def kernelRun6_B (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : ¬cond6_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc6__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi1 xi2 E K => ?run⟩
  case run =>
    simp only [cc6__stage3_kernel_eq_skeleton]; unfold cc6__stage3_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg10.eq_unread hfo1; obtain rfl := harg11.eq_unread hfo2; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]
    · iexists _; isplitr; · ipureintro; exact harg10.read_unread _
      iexact HO1
    isplitl [HO2]
    · iexists _; isplitr; · ipureintro; exact harg11.read_unread _
      iexact HO2
    isplitl [HS0]; · iexists _; iexact HS0
    iexists _; iexact HS1

set_option maxHeartbeats 2000000 in
noncomputable def kernelRun6_C (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : cond6_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc6__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc6__stage3_kernel_eq_skeleton]; unfold cc6__stage3_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]; · iexists _; iexact HO1
    isplitl [HO2]; · iexists _; iexact HO2
    isplitl [HS0]; · iexists _; iexact HS0
    iexists _; iexact HS1

end Cert.Kernel.Hand

end
-- ==== Proof.KR6B.lean ====
/-
  Pipeline 6 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.KR6A
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VW6 : View sig .tc .vmem S1x128 .f32 := scM6_0.view
def rd6 (L : List (View.Piece (Elt F) S1x128 .f32)) : Vec F S1x128 .f32 := VW6.read (Elt F) (VW6.writes (Elt F) VW6.junk L)

theorem scoverA6_0 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond6_0 i) (hc1 : ¬cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 S1x128.size (by sl_kernel_rfl) y
theorem scoverA6_1 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond6_0 i) (hc1 : ¬cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 S1x128.size (by sl_kernel_rfl) y
theorem scoverB6_0 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : ¬cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 S1x128.size (by sl_kernel_rfl) y
theorem scoverB6_1 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : ¬cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 S1x128.size (by sl_kernel_rfl) y
theorem coverC6_1 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 S1x128.size (by sl_kernel_rfl) y
theorem coverC6_2 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 S1x128.size (by sl_kernel_rfl) y
theorem scoverC6_0 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1 S1x128.size (by sl_kernel_rfl) y
theorem scoverC6_1 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1 S1x128.size (by sl_kernel_rfl) y

theorem c0_zero6 (hn : 0 < cfg6.N) : cond6_0 (grid6.coords ⟨0, hn⟩) := (hcond6_0 ⟨0, hn⟩).mpr (Nat.zero_mod _)
theorem nc1_zero6 (hn : 0 < cfg6.N) : ¬cond6_1 (grid6.coords ⟨0, hn⟩) :=
  fun h => by have := (hcond6_1 ⟨0, hn⟩).mp h; (try dsimp only at this); omega
theorem nc0_succ6 (n : ℕ) (hn : n + 1 < cfg6.N) : ¬cond6_0 (grid6.coords ⟨n + 1, hn⟩) := fun h => by
  have hN : n + 1 < 10 := lt_of_lt_of_eq hn (show cfg6.N = 10 from N_6)
  have := (hcond6_0 ⟨n + 1, hn⟩).mp h; (try dsimp only at this); omega

def outsAt6 (c : Dev nD) : (n : ℕ) → n < cfg6.N → Vec F S1x128 .f32 × Vec F S1x128 .f32 × Vec F S1x128 .f32 × Vec F S1x128 .f32
  | 0, hn => (rd6 [], rd6 [], rd6 (kernelRun6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) (ms6_9 ⟨0, hn⟩) (hs6_9 ⟨0, hn⟩) (ms6_10 ⟨0, hn⟩) (hs6_10 ⟨0, hn⟩) scM6_0 (Memref.isWhole_whole _) scM6_1 (Memref.isWhole_whole _) (c0_zero6 hn) (nc1_zero6 hn) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (iblk6 V c 6 ⟨0, hn⟩) (iblk6 V c 7 ⟨0, hn⟩) (iblk6 V c 8 ⟨0, hn⟩)).1, rd6 (kernelRun6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) (ms6_9 ⟨0, hn⟩) (hs6_9 ⟨0, hn⟩) (ms6_10 ⟨0, hn⟩) (hs6_10 ⟨0, hn⟩) scM6_0 (Memref.isWhole_whole _) scM6_1 (Memref.isWhole_whole _) (c0_zero6 hn) (nc1_zero6 hn) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (iblk6 V c 6 ⟨0, hn⟩) (iblk6 V c 7 ⟨0, hn⟩) (iblk6 V c 8 ⟨0, hn⟩)).2.1)
  | n + 1, hn =>
    if h1 : (n + 1) % 10 = 9 then
      (rd6 (kernelRun6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6_0 (Memref.isWhole_whole _) scM6_1 (Memref.isWhole_whole _) (nc0_succ6 n hn) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (outsAt6 c n (Nat.lt_of_succ_lt hn)).2.2.1 (outsAt6 c n (Nat.lt_of_succ_lt hn)).2.2.2).1, rd6 (kernelRun6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6_0 (Memref.isWhole_whole _) scM6_1 (Memref.isWhole_whole _) (nc0_succ6 n hn) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (outsAt6 c n (Nat.lt_of_succ_lt hn)).2.2.1 (outsAt6 c n (Nat.lt_of_succ_lt hn)).2.2.2).2.1, rd6 (kernelRun6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6_0 (Memref.isWhole_whole _) scM6_1 (Memref.isWhole_whole _) (nc0_succ6 n hn) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (outsAt6 c n (Nat.lt_of_succ_lt hn)).2.2.1 (outsAt6 c n (Nat.lt_of_succ_lt hn)).2.2.2).2.2.1, rd6 (kernelRun6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6_0 (Memref.isWhole_whole _) scM6_1 (Memref.isWhole_whole _) (nc0_succ6 n hn) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (outsAt6 c n (Nat.lt_of_succ_lt hn)).2.2.1 (outsAt6 c n (Nat.lt_of_succ_lt hn)).2.2.2).2.2.2.1)
    else
      (rd6 [], rd6 [], rd6 (kernelRun6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6_0 (Memref.isWhole_whole _) scM6_1 (Memref.isWhole_whole _) (nc0_succ6 n hn) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (outsAt6 c n (Nat.lt_of_succ_lt hn)).2.2.1 (outsAt6 c n (Nat.lt_of_succ_lt hn)).2.2.2).1, rd6 (kernelRun6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6_0 (Memref.isWhole_whole _) scM6_1 (Memref.isWhole_whole _) (nc0_succ6 n hn) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (outsAt6 c n (Nat.lt_of_succ_lt hn)).2.2.1 (outsAt6 c n (Nat.lt_of_succ_lt hn)).2.2.2).2.1)

theorem outsAt6_A (c : Dev nD) (t : Fin cfg6.N) (hz : t.val = 0) (hc0 : cond6_0 (grid6.coords t)) (hc1 : ¬cond6_1 (grid6.coords t)) :
    outsAt6 V c t.val t.isLt = (rd6 [], rd6 [], rd6 (kernelRun6_A c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t)).1, rd6 (kernelRun6_A c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t)).2.1) := by
  obtain ⟨n, hn⟩ := t
  cases n with
  | zero => rfl
  | succ n => exact absurd hz (Nat.succ_ne_zero n)
theorem outsAt6_B (c : Dev nD) (t : Fin cfg6.N) (hz : t.val ≠ 0) (h1 : ¬t.val % 10 = 9) (hc0 : ¬cond6_0 (grid6.coords t)) (hc1 : ¬cond6_1 (grid6.coords t)) :
    outsAt6 V c t.val t.isLt = (rd6 [], rd6 [], rd6 (kernelRun6_B c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (outsAt6 V c (t.val - 1) (Nat.lt_of_le_of_lt (Nat.sub_le _ _) t.isLt)).2.2.1 (outsAt6 V c (t.val - 1) (Nat.lt_of_le_of_lt (Nat.sub_le _ _) t.isLt)).2.2.2).1, rd6 (kernelRun6_B c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (outsAt6 V c (t.val - 1) (Nat.lt_of_le_of_lt (Nat.sub_le _ _) t.isLt)).2.2.1 (outsAt6 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt6_C (c : Dev nD) (t : Fin cfg6.N) (hz : t.val ≠ 0) (h1 : t.val % 10 = 9) (hc0 : ¬cond6_0 (grid6.coords t)) (hc1 : cond6_1 (grid6.coords t)) :
    outsAt6 V c t.val t.isLt = (rd6 (kernelRun6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (outsAt6 V c (t.val - 1) (Nat.lt_of_le_of_lt (Nat.sub_le _ _) t.isLt)).2.2.1 (outsAt6 V c (t.val - 1) (Nat.lt_of_le_of_lt (Nat.sub_le _ _) t.isLt)).2.2.2).1, rd6 (kernelRun6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (outsAt6 V c (t.val - 1) (Nat.lt_of_le_of_lt (Nat.sub_le _ _) t.isLt)).2.2.1 (outsAt6 V c (t.val - 1) (Nat.lt_of_le_of_lt (Nat.sub_le _ _) t.isLt)).2.2.2).2.1, rd6 (kernelRun6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (outsAt6 V c (t.val - 1) (Nat.lt_of_le_of_lt (Nat.sub_le _ _) t.isLt)).2.2.1 (outsAt6 V c (t.val - 1) (Nat.lt_of_le_of_lt (Nat.sub_le _ _) t.isLt)).2.2.2).2.2.1, rd6 (kernelRun6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (outsAt6 V c (t.val - 1) (Nat.lt_of_le_of_lt (Nat.sub_le _ _) t.isLt)).2.2.1 (outsAt6 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest6 (c : Dev nD) : sProp 𝕄 :=
  Pipeline.scopedRestBut (Ix := Unit) (Name := ℕ) (U := UR sig nD τ) (Lvl := ℕ) (Val := Elt F) spec6 c [cc6_scratch0, cc6_scratch1]

def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.1) ∗ owns (c : Thread nD τ) scM6_1 fullShare ((outsAt6 V c n hn).2.2.2)) ∗ rest6 c) ∗ (∃ r, prngReg c r))
theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(iprop(owns (c : Thread nD τ) scM6_0 fullShare ((outsAt6 V c n hn).2.2.1) ∗ owns (c : Thread nD τ) scM6_1 fullShare ((outsAt6 V c n hn).2.2.2)) ∗ rest6 c) ∗ (∃ r, prngReg c r)) := rfl
theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.1) ∗ owns (c : Thread nD τ) scM6_1 fullShare ((outsAt6 V c (n - 1) (by omega)).2.2.2)) ∗ rest6 c) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => (outsAt6 V c t.val t.isLt).1
    | ⟨10, _⟩ => (outsAt6 V c t.val t.isLt).2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = (outsAt6 V c t.val t.isLt).1 := by dsimp only [dat6]
theorem after6_10 (c : Dev nD) (t : Fin cfg6.N) : (dat6 V c).after 10 t = (outsAt6 V c t.val t.isLt).2.1 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d))
    ∗ (∃ d, owns (c : Thread nD τ) (ms6_9 t) fullShare ((dat6 V c).before 9 t d))
    ∗ (∃ d, owns (c : Thread nD τ) (ms6_10 t) fullShare ((dat6 V c).before 10 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t
    ∗ (dat6 V c).leavesExact 9 t
    ∗ (dat6 V c).leavesExact 10 t)

set_option maxHeartbeats 8000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  rw [show (dat6 V c).leavesExact 4 t = owns (c : Thread nD τ) (ms6_4 t) fullShare ((dat6 V c).after 4 t) from by
    unfold Dat.leavesExact; rw [liveAt6_4 t], after6_4]
  rw [show (dat6 V c).leavesExact 5 t = owns (c : Thread nD τ) (ms6_5 t) fullShare ((dat6 V c).after 5 t) from by
    unfold Dat.leavesExact; rw [liveAt6_5 t], after6_5]
  rw [show (dat6 V c).leavesExact 6 t = owns (c : Thread nD τ) (ms6_6 t) fullShare ((dat6 V c).after 6 t) from by
    unfold Dat.leavesExact; rw [liveAt6_6 t], after6_6]
  rw [show (dat6 V c).leavesExact 7 t = owns (c : Thread nD τ) (ms6_7 t) fullShare ((dat6 V c).after 7 t) from by
    unfold Dat.leavesExact; rw [liveAt6_7 t], after6_7]
  rw [show (dat6 V c).leavesExact 8 t = owns (c : Thread nD τ) (ms6_8 t) fullShare ((dat6 V c).after 8 t) from by
    unfold Dat.leavesExact; rw [liveAt6_8 t], after6_8]
  by_cases hz : t.val = 0
  · have hc0 : cond6_0 (grid6.coords t) := (hcond6_0 t).mpr (by omega)
    have hc1 : ¬cond6_1 (grid6.coords t) := fun h => by have := (hcond6_1 t).mp h; omega
    rw [Dat.leavesExact_idle (dat6 V c) 9 t (idleAt6_9 t hc1) (noFlush6_9 t hc1),
      Dat.leavesExact_idle (dat6 V c) 10 t (idleAt6_10 t hc1) (noFlush6_10 t hc1)]
    rw [outsAt6_A V c t hz hc0 hc1]
    (try dsimp only)
    rw [PhiS6_castSucc V c t, PhiS6_zero V c _ _ hz, PhiA6_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun6_A c (grid6.coords t) _ _ _ _ _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) (iblk6 V c 6 t) (iblk6 V c 7 t) (iblk6 V c 8 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA6_0 c _ _ _ _ _ _ _ _ _ _ _ _ _ _ _ _ _ _ _ _ _ _ _ _ _ _ _ hc0 hc1 _ _ _ _ _ _ _ _ _)
          · unfold owns; iexists _; isplitr
            swap; · iexact HS1
            ipureintro; exact View.read_writes_of_cover _ _ _ _ _ (scoverA6_1 c _ _ _ _ _ _ _ _ _ _ _ _ _ _ _ _ _ _ _ _ _ _ _ _ _ _ _ hc0 hc1 _ _ _ _ _ _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have hc0 : ¬cond6_0 (grid6.coords t) := fun h => by have := (hcond6_0 t).mp h; omega
    rw [PhiS6_castSucc V c t, PhiS6_pos V c _ _ hz]
    by_cases h1 : t.val % 10 = 9
    · have hc1 : cond6_1 (grid6.coords t) := (hcond6_1 t).mpr h1
      rw [show (dat6 V c).leavesExact 9 t = owns (c : Thread nD τ) (ms6_9 t) fullShare ((dat6 V c).after 9 t) from by
        unfold Dat.leavesExact; rw [liveAt6_9 t hc1], after6_9]
      rw [show (dat6 V c).leavesExact 10 t = owns (c : Thread nD τ) (ms6_10 t) fullShare ((dat6 V c).after 10 t) from by
        unfold Dat.leavesExact; rw [liveAt6_10 t hc1], after6_10]
      rw [outsAt6_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun6_C c (grid6.coords t) _ _ _ _ _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, ⟨%e1, H9⟩, ⟨%e2, H10⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC6_0 c _ _ _ _ _ _ _ _ _ _ _ _ _ _ _ _ _ _ _ _ _ _ _ _ _ _ _ hc0 hc1 _ _ _ _ _ _ _ _ _ _ _)
            · unfold owns; iexists _; isplitr
              swap; · iexact HS1
              ipureintro; exact View.read_writes_of_cover _ _ _ _ _ (scoverC6_1 c _ _ _ _ _ _ _ _ _ _ _ _ _ _ _ _ _ _ _ _ _ _ _ _ _ _ _ hc0 hc1 _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverC6_1 c _ _ _ _ _ _ _ _ _ _ _ _ _ _ _ _ _ _ _ _ _ _ _ _ _ _ _ hc0 hc1 _ _ _ _ _ _ _ _ _ _ _)
      unfold owns; iexists _; isplitr
      swap; · iexact H10
      ipureintro; exact View.read_writes_of_cover _ _ _ _ _ (coverC6_2 c _ _ _ _ _ _ _ _ _ _ _ _ _ _ _ _ _ _ _ _ _ _ _ _ _ _ _ hc0 hc1 _ _ _ _ _ _ _ _ _ _ _)
    · have hc1 : ¬cond6_1 (grid6.coords t) := fun h => h1 ((hcond6_1 t).mp h)
      rw [Dat.leavesExact_idle (dat6 V c) 9 t (idleAt6_9 t hc1) (noFlush6_9 t hc1),
        Dat.leavesExact_idle (dat6 V c) 10 t (idleAt6_10 t hc1) (noFlush6_10 t hc1)]
      rw [outsAt6_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun6_B c (grid6.coords t) _ _ _ _ _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB6_0 c _ _ _ _ _ _ _ _ _ _ _ _ _ _ _ _ _ _ _ _ _ _ _ _ _ _ _ hc0 hc1 _ _ _ _ _ _ _ _ _ _ _)
            · unfold owns; iexists _; isplitr
              swap; · iexact HS1
              ipureintro; exact View.read_writes_of_cover _ _ _ _ _ (scoverB6_1 c _ _ _ _ _ _ _ _ _ _ _ _ _ _ _ _ _ _ _ _ _ _ _ _ _ _ _ hc0 hc1 _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), PhiA6_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.Kernel.Hand

end
-- ==== Proof.KR8A.lean ====
/-
  Pipeline 8 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

abbrev cond8_0 (i : grid8.Coords) : Prop := (Scalar.cmpi .ne (Scalar.extui (Scalar.cmpi .eq (BitVec.ofNat 32 (i 0).val) 0#32)) 0#32) = 1#1
theorem hcond8_0 : ∀ t : Fin cfg8.N, cond8_0 (grid8.coords t) ↔ t.val % 10 = 0 :=
  (by decide +kernel : ∀ t : Fin grid8.N, cond8_0 (grid8.coords t) ↔ t.val % 10 = 0)
abbrev cond8_1 (i : grid8.Coords) : Prop := k8_cond2 i = 1#1
theorem hcond8_1 : ∀ t : Fin cfg8.N, cond8_1 (grid8.coords t) ↔ t.val % 10 = 9 :=
  (by decide +kernel : ∀ t : Fin grid8.N, cond8_1 (grid8.coords t) ↔ t.val % 10 = 9)
theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel
theorem idleAt8_4 : ∀ t : Fin cfg8.N, ¬cond8_1 (grid8.coords t) → cfg8.idle 4 (grid8.coords t) = true := by decide +kernel
theorem noFlush8_4 : ∀ t : Fin cfg8.N, ¬cond8_1 (grid8.coords t) → (cfg8.win 4).flush t = false := by decide +kernel
theorem liveAt8_4 : ∀ t : Fin cfg8.N, cond8_1 (grid8.coords t) → cfg8.idle 4 (grid8.coords t) = false := by decide +kernel
theorem idleAt8_5 : ∀ t : Fin cfg8.N, ¬cond8_1 (grid8.coords t) → cfg8.idle 5 (grid8.coords t) = true := by decide +kernel
theorem noFlush8_5 : ∀ t : Fin cfg8.N, ¬cond8_1 (grid8.coords t) → (cfg8.win 5).flush t = false := by decide +kernel
theorem liveAt8_5 : ∀ t : Fin cfg8.N, cond8_1 (grid8.coords t) → cfg8.idle 5 (grid8.coords t) = false := by decide +kernel
abbrev ms8_0 (t : Fin cfg8.N) : Memref sig .tc .vmem S5000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S128x128 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x128 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S1x128 .f32 := win8_5.stage (cfg8.slots t 5)
abbrev hs8_5 (t : Fin cfg8.N) : (ms8_5 t).IsWhole := hstage8_5 ((cfg8.slots t 5).cast nbuf8_5)
abbrev scM8_0 : Memref sig .tc .vmem S1x128 .f32 := Memref.whole cc8_scratch0
abbrev scM8_1 : Memref sig .tc .vmem S1x128 .f32 := Memref.whole cc8_scratch1

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM8_0, scM8_1, owns_whole]; try rfl

set_option maxHeartbeats 2000000 in
noncomputable def kernelRun8_A (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond8_0 i) (hc1 : ¬cond8_1 i)
    (x0 : Vec F S5000x128 .f32) (x1 : Vec F S128x128 .bf16) (x2 : Vec F S1x128 .f32) (x3 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc8__stage1_kernel i arg1 harg1 arg2 harg2 arg3 harg3 arg4 harg4 arg5 harg5 arg6 harg6 arg7 harg7 arg8 harg8) K } := by
  refine ⟨?_, ?_, fun xi1 xi2 E K => ?run⟩
  case run =>
    simp only [cc8__stage1_kernel_eq_skeleton]; unfold cc8__stage1_kernel_skel
    unfold owns
    iintro ⟨⟨%f0, %hf0, H0⟩, ⟨%f1, %hf1, H1⟩, ⟨%f2, %hf2, H2⟩, ⟨%f3, %hf3, H3⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hfo1; obtain rfl := harg6.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]
    · iexists _; isplitr; · ipureintro; exact harg5.read_unread _
      iexact HO1
    isplitl [HO2]
    · iexists _; isplitr; · ipureintro; exact harg6.read_unread _
      iexact HO2
    isplitl [HS0]; · iexists _; iexact HS0
    iexists _; iexact HS1

set_option maxHeartbeats 2000000 in
noncomputable def kernelRun8_B (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : ¬cond8_1 i)
    (x0 : Vec F S5000x128 .f32) (x1 : Vec F S128x128 .bf16) (x2 : Vec F S1x128 .f32) (x3 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi1 ∗ owns (c : Thread nD τ) arg6 fullShare xi2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc8__stage1_kernel i arg1 harg1 arg2 harg2 arg3 harg3 arg4 harg4 arg5 harg5 arg6 harg6 arg7 harg7 arg8 harg8) K } := by
  refine ⟨?_, ?_, fun xi1 xi2 E K => ?run⟩
  case run =>
    simp only [cc8__stage1_kernel_eq_skeleton]; unfold cc8__stage1_kernel_skel
    unfold owns
    iintro ⟨⟨%f0, %hf0, H0⟩, ⟨%f1, %hf1, H1⟩, ⟨%f2, %hf2, H2⟩, ⟨%f3, %hf3, H3⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfo1; obtain rfl := harg6.eq_unread hfo2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]
    · iexists _; isplitr; · ipureintro; exact harg5.read_unread _
      iexact HO1
    isplitl [HO2]
    · iexists _; isplitr; · ipureintro; exact harg6.read_unread _
      iexact HO2
    isplitl [HS0]; · iexists _; iexact HS0
    iexists _; iexact HS1

set_option maxHeartbeats 2000000 in
noncomputable def kernelRun8_C (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : cond8_1 i)
    (x0 : Vec F S5000x128 .f32) (x1 : Vec F S128x128 .bf16) (x2 : Vec F S1x128 .f32) (x3 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L1) ∗ (∃ f, arg6.view.loc (c : Thread nD τ) ↦[arg6.view.set]{fullShare} arg6.view.writes (Elt F) f L2) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc8__stage1_kernel i arg1 harg1 arg2 harg2 arg3 harg3 arg4 harg4 arg5 harg5 arg6 harg6 arg7 harg7 arg8 harg8) K } := by
  refine ⟨?_, ?_, ?_, ?_, fun E K => ?run⟩
  case run =>
    simp only [cc8__stage1_kernel_eq_skeleton]; unfold cc8__stage1_kernel_skel
    unfold owns
    iintro ⟨⟨%f0, %hf0, H0⟩, ⟨%f1, %hf1, H1⟩, ⟨%f2, %hf2, H2⟩, ⟨%f3, %hf3, H3⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO1]; · iexists _; iexact HO1
    isplitl [HO2]; · iexists _; iexact HO2
    isplitl [HS0]; · iexists _; iexact HS0
    iexists _; iexact HS1

end Cert.Kernel.Hand

end
-- ==== Proof.KR8B.lean ====
/-
  Pipeline 8 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.KR8A
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VW8 : View sig .tc .vmem S1x128 .f32 := scM8_0.view
def rd8 (L : List (View.Piece (Elt F) S1x128 .f32)) : Vec F S1x128 .f32 := VW8.read (Elt F) (VW8.writes (Elt F) VW8.junk L)

theorem scoverA8_0 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond8_0 i) (hc1 : ¬cond8_1 i) (x0 : Vec F S5000x128 .f32) (x1 : Vec F S128x128 .bf16) (x2 : Vec F S1x128 .f32) (x3 : Vec F S1x128 .f32) (y : S1x128.Idx) :
    ∃ pc ∈ (kernelRun8_A c i arg1 harg1 arg2 harg2 arg3 harg3 arg4 harg4 arg5 harg5 arg6 harg6 arg7 harg7 arg8 harg8 hc0 hc1 x0 x1 x2 x3).1, y ∈ pc.1.set :=
  View.cover_of_tiledL (kernelRun8_A c i arg1 harg1 arg2 harg2 arg3 harg3 arg4 harg4 arg5 harg5 arg6 harg6 arg7 harg7 arg8 harg8 hc0 hc1 x0 x1 x2 x3).1 S1x128.size (by sl_kernel_rfl) y
theorem scoverA8_1 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond8_0 i) (hc1 : ¬cond8_1 i) (x0 : Vec F S5000x128 .f32) (x1 : Vec F S128x128 .bf16) (x2 : Vec F S1x128 .f32) (x3 : Vec F S1x128 .f32) (y : S1x128.Idx) :
    ∃ pc ∈ (kernelRun8_A c i arg1 harg1 arg2 harg2 arg3 harg3 arg4 harg4 arg5 harg5 arg6 harg6 arg7 harg7 arg8 harg8 hc0 hc1 x0 x1 x2 x3).2.1, y ∈ pc.1.set :=
  View.cover_of_tiledL (kernelRun8_A c i arg1 harg1 arg2 harg2 arg3 harg3 arg4 harg4 arg5 harg5 arg6 harg6 arg7 harg7 arg8 harg8 hc0 hc1 x0 x1 x2 x3).2.1 S1x128.size (by sl_kernel_rfl) y
theorem scoverB8_0 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : ¬cond8_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun8_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun8_B c i arg1 harg1 arg2 harg2 arg3 harg3 arg4 harg4 arg5 harg5 arg6 harg6 arg7 harg7 arg8 harg8 hc0 hc1 x0 x1 x2 x3 xs0 xs1).1 S1x128.size (by sl_kernel_rfl) y
theorem scoverB8_1 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : ¬cond8_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun8_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun8_B c i arg1 harg1 arg2 harg2 arg3 harg3 arg4 harg4 arg5 harg5 arg6 harg6 arg7 harg7 arg8 harg8 hc0 hc1 x0 x1 x2 x3 xs0 xs1).2.1 S1x128.size (by sl_kernel_rfl) y
theorem coverC8_1 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : cond8_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun8_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun8_C c i arg1 harg1 arg2 harg2 arg3 harg3 arg4 harg4 arg5 harg5 arg6 harg6 arg7 harg7 arg8 harg8 hc0 hc1 x0 x1 x2 x3 xs0 xs1).1 S1x128.size (by sl_kernel_rfl) y
theorem coverC8_2 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : cond8_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun8_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun8_C c i arg1 harg1 arg2 harg2 arg3 harg3 arg4 harg4 arg5 harg5 arg6 harg6 arg7 harg7 arg8 harg8 hc0 hc1 x0 x1 x2 x3 xs0 xs1).2.1 S1x128.size (by sl_kernel_rfl) y
theorem scoverC8_0 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : cond8_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun8_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun8_C c i arg1 harg1 arg2 harg2 arg3 harg3 arg4 harg4 arg5 harg5 arg6 harg6 arg7 harg7 arg8 harg8 hc0 hc1 x0 x1 x2 x3 xs0 xs1).2.2.1 S1x128.size (by sl_kernel_rfl) y
theorem scoverC8_1 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : cond8_1 i) (x0 : Vec F S5000x128 .f32) (x1 : Vec F S128x128 .bf16) (x2 : Vec F S1x128 .f32) (x3 : Vec F S1x128 .f32) (xs0 xs1 : Vec F S1x128 .f32) (y : S1x128.Idx) :
    ∃ pc ∈ (kernelRun8_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun8_C c i arg1 harg1 arg2 harg2 arg3 harg3 arg4 harg4 arg5 harg5 arg6 harg6 arg7 harg7 arg8 harg8 hc0 hc1 x0 x1 x2 x3 xs0 xs1).2.2.2.1 S1x128.size (by sl_kernel_rfl) y

theorem c0_zero8 (hn : 0 < cfg8.N) : cond8_0 (grid8.coords ⟨0, hn⟩) := (hcond8_0 ⟨0, hn⟩).mpr (Nat.zero_mod _)
theorem nc1_zero8 (hn : 0 < cfg8.N) : ¬cond8_1 (grid8.coords ⟨0, hn⟩) :=
  fun h => by have := (hcond8_1 ⟨0, hn⟩).mp h; (try dsimp only at this); omega
theorem nc0_succ8 (n : ℕ) (hn : n + 1 < cfg8.N) : ¬cond8_0 (grid8.coords ⟨n + 1, hn⟩) := fun h => by
  have hN : n + 1 < 10 := lt_of_lt_of_eq hn (show cfg8.N = 10 from N_8)
  have := (hcond8_0 ⟨n + 1, hn⟩).mp h; (try dsimp only at this); omega

def outsAt8 (c : Dev nD) : (n : ℕ) → n < cfg8.N → Vec F S1x128 .f32 × Vec F S1x128 .f32 × Vec F S1x128 .f32 × Vec F S1x128 .f32
  | 0, hn => (rd8 [], rd8 [], rd8 (kernelRun8_A c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) scM8_0 (Memref.isWhole_whole _) scM8_1 (Memref.isWhole_whole _) (c0_zero8 hn) (nc1_zero8 hn) (iblk8 V c 0 ⟨0, hn⟩) (iblk8 V c 1 ⟨0, hn⟩) (iblk8 V c 2 ⟨0, hn⟩) (iblk8 V c 3 ⟨0, hn⟩)).1, rd8 (kernelRun8_A c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) scM8_0 (Memref.isWhole_whole _) scM8_1 (Memref.isWhole_whole _) (c0_zero8 hn) (nc1_zero8 hn) (iblk8 V c 0 ⟨0, hn⟩) (iblk8 V c 1 ⟨0, hn⟩) (iblk8 V c 2 ⟨0, hn⟩) (iblk8 V c 3 ⟨0, hn⟩)).2.1)
  | n + 1, hn =>
    if h1 : (n + 1) % 10 = 9 then
      (rd8 (kernelRun8_C c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) scM8_0 (Memref.isWhole_whole _) scM8_1 (Memref.isWhole_whole _) (nc0_succ8 n hn) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.2.1 (outsAt8 c n (Nat.lt_of_succ_lt hn)).2.2.2).1, rd8 (kernelRun8_C c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) scM8_0 (Memref.isWhole_whole _) scM8_1 (Memref.isWhole_whole _) (nc0_succ8 n hn) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.2.1 (outsAt8 c n (Nat.lt_of_succ_lt hn)).2.2.2).2.1, rd8 (kernelRun8_C c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) scM8_0 (Memref.isWhole_whole _) scM8_1 (Memref.isWhole_whole _) (nc0_succ8 n hn) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.2.1 (outsAt8 c n (Nat.lt_of_succ_lt hn)).2.2.2).2.2.1, rd8 (kernelRun8_C c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) scM8_0 (Memref.isWhole_whole _) scM8_1 (Memref.isWhole_whole _) (nc0_succ8 n hn) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.2.1 (outsAt8 c n (Nat.lt_of_succ_lt hn)).2.2.2).2.2.2.1)
    else
      (rd8 [], rd8 [], rd8 (kernelRun8_B c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) scM8_0 (Memref.isWhole_whole _) scM8_1 (Memref.isWhole_whole _) (nc0_succ8 n hn) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.2.1 (outsAt8 c n (Nat.lt_of_succ_lt hn)).2.2.2).1, rd8 (kernelRun8_B c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) scM8_0 (Memref.isWhole_whole _) scM8_1 (Memref.isWhole_whole _) (nc0_succ8 n hn) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.2.1 (outsAt8 c n (Nat.lt_of_succ_lt hn)).2.2.2).2.1)

theorem outsAt8_A (c : Dev nD) (t : Fin cfg8.N) (hz : t.val = 0) (hc0 : cond8_0 (grid8.coords t)) (hc1 : ¬cond8_1 (grid8.coords t)) :
    outsAt8 V c t.val t.isLt = (rd8 [], rd8 [], rd8 (kernelRun8_A c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t)).1, rd8 (kernelRun8_A c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t)).2.1) := by
  obtain ⟨n, hn⟩ := t
  cases n with
  | zero => rfl
  | succ n => exact absurd hz (Nat.succ_ne_zero n)
theorem outsAt8_B (c : Dev nD) (t : Fin cfg8.N) (hz : t.val ≠ 0) (h1 : ¬t.val % 10 = 9) (hc0 : ¬cond8_0 (grid8.coords t)) (hc1 : ¬cond8_1 (grid8.coords t)) :
    outsAt8 V c t.val t.isLt = (rd8 [], rd8 [], rd8 (kernelRun8_B c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (outsAt8 V c (t.val - 1) (Nat.lt_of_le_of_lt (Nat.sub_le _ _) t.isLt)).2.2.1 (outsAt8 V c (t.val - 1) (Nat.lt_of_le_of_lt (Nat.sub_le _ _) t.isLt)).2.2.2).1, rd8 (kernelRun8_B c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (outsAt8 V c (t.val - 1) (Nat.lt_of_le_of_lt (Nat.sub_le _ _) t.isLt)).2.2.1 (outsAt8 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt8_C (c : Dev nD) (t : Fin cfg8.N) (hz : t.val ≠ 0) (h1 : t.val % 10 = 9) (hc0 : ¬cond8_0 (grid8.coords t)) (hc1 : cond8_1 (grid8.coords t)) :
    outsAt8 V c t.val t.isLt = (rd8 (kernelRun8_C c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (outsAt8 V c (t.val - 1) (Nat.lt_of_le_of_lt (Nat.sub_le _ _) t.isLt)).2.2.1 (outsAt8 V c (t.val - 1) (Nat.lt_of_le_of_lt (Nat.sub_le _ _) t.isLt)).2.2.2).1, rd8 (kernelRun8_C c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (outsAt8 V c (t.val - 1) (Nat.lt_of_le_of_lt (Nat.sub_le _ _) t.isLt)).2.2.1 (outsAt8 V c (t.val - 1) (Nat.lt_of_le_of_lt (Nat.sub_le _ _) t.isLt)).2.2.2).2.1, rd8 (kernelRun8_C c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (outsAt8 V c (t.val - 1) (Nat.lt_of_le_of_lt (Nat.sub_le _ _) t.isLt)).2.2.1 (outsAt8 V c (t.val - 1) (Nat.lt_of_le_of_lt (Nat.sub_le _ _) t.isLt)).2.2.2).2.2.1, rd8 (kernelRun8_C c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (outsAt8 V c (t.val - 1) (Nat.lt_of_le_of_lt (Nat.sub_le _ _) t.isLt)).2.2.1 (outsAt8 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest8 (c : Dev nD) : sProp 𝕄 :=
  Pipeline.scopedRestBut (Ix := Unit) (Name := ℕ) (U := UR sig nD τ) (Lvl := ℕ) (Val := Elt F) spec8 c [cc8_scratch0, cc8_scratch1]

def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2.2.1) ∗ owns (c : Thread nD τ) scM8_1 fullShare ((outsAt8 V c n hn).2.2.2)) ∗ rest8 c) ∗ (∃ r, prngReg c r))
theorem PhiS8_zero (c : Dev nD) (n : ℕ) (h : n ≤ cfg8.N) (hz : n = 0) : PhiS8 V c n h = Pipeline.ΦA spec8 c := by
  subst hz; rfl
theorem PhiS8_succ (c : Dev nD) (n : ℕ) (hn : n < cfg8.N) :
    PhiS8 V c (n + 1) hn = iprop(iprop(iprop(owns (c : Thread nD τ) scM8_0 fullShare ((outsAt8 V c n hn).2.2.1) ∗ owns (c : Thread nD τ) scM8_1 fullShare ((outsAt8 V c n hn).2.2.2)) ∗ rest8 c) ∗ (∃ r, prngReg c r)) := rfl
theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2.2.1) ∗ owns (c : Thread nD τ) scM8_1 fullShare ((outsAt8 V c (n - 1) (by omega)).2.2.2)) ∗ rest8 c) ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => (outsAt8 V c t.val t.isLt).1
    | ⟨5, _⟩ => (outsAt8 V c t.val t.isLt).2.1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem PhiS8_castSucc (c : Dev nD) (t : Fin cfg8.N) :
    (dat8 V c).Φ t.castSucc = PhiS8 V c t.val (Nat.le_of_lt t.isLt) := by
  dsimp only [dat8]; simp only [Fin.coe_castSucc]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = (outsAt8 V c t.val t.isLt).1 := by dsimp only [dat8]
theorem after8_5 (c : Dev nD) (t : Fin cfg8.N) : (dat8 V c).after 5 t = (outsAt8 V c t.val t.isLt).2.1 := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t)

set_option maxHeartbeats 8000000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).owesAt () t.succ = (dat8 V c).owesAt () t.castSucc from rfl]
  rw [show (dat8 V c).Φ t.succ = PhiS8 V c (t.val + 1) t.isLt from rfl, PhiS8_succ]
  have hN : t.val < 10 := lt_of_lt_of_eq t.isLt (show cfg8.N = 10 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  by_cases hz : t.val = 0
  · have hc0 : cond8_0 (grid8.coords t) := (hcond8_0 t).mpr (by omega)
    have hc1 : ¬cond8_1 (grid8.coords t) := fun h => by have := (hcond8_1 t).mp h; omega
    rw [Dat.leavesExact_idle (dat8 V c) 4 t (idleAt8_4 t hc1) (noFlush8_4 t hc1),
      Dat.leavesExact_idle (dat8 V c) 5 t (idleAt8_5 t hc1) (noFlush8_5 t hc1)]
    rw [outsAt8_A V c t hz hc0 hc1]
    (try dsimp only)
    rw [PhiS8_castSucc V c t, PhiS8_zero V c _ _ hz, PhiA8_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun8_A c (grid8.coords t) _ _ _ _ _ _ _ _ _ _ _ _ _ _ _ _ hc0 hc1 (iblk8 V c 0 t) (iblk8 V c 1 t) (iblk8 V c 2 t) (iblk8 V c 3 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA8_0 c _ _ _ _ _ _ _ _ _ _ _ _ _ _ _ _ _ hc0 hc1 _ _ _ _)
          · unfold owns; iexists _; isplitr
            swap; · iexact HS1
            ipureintro; exact View.read_writes_of_cover _ _ _ _ _ (scoverA8_1 c _ _ _ _ _ _ _ _ _ _ _ _ _ _ _ _ _ hc0 hc1 _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hc0 : ¬cond8_0 (grid8.coords t) := fun h => by have := (hcond8_0 t).mp h; omega
    rw [PhiS8_castSucc V c t, PhiS8_pos V c _ _ hz]
    by_cases h1 : t.val % 10 = 9
    · have hc1 : cond8_1 (grid8.coords t) := (hcond8_1 t).mpr h1
      rw [show (dat8 V c).leavesExact 4 t = owns (c : Thread nD τ) (ms8_4 t) fullShare ((dat8 V c).after 4 t) from by
        unfold Dat.leavesExact; rw [liveAt8_4 t hc1], after8_4]
      rw [show (dat8 V c).leavesExact 5 t = owns (c : Thread nD τ) (ms8_5 t) fullShare ((dat8 V c).after 5 t) from by
        unfold Dat.leavesExact; rw [liveAt8_5 t hc1], after8_5]
      rw [outsAt8_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun8_C c (grid8.coords t) _ _ _ _ _ _ _ _ _ _ _ _ _ _ _ _ hc0 hc1 (iblk8 V c 0 t) (iblk8 V c 1 t) (iblk8 V c 2 t) (iblk8 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e1, H4⟩, ⟨%e2, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC8_0 c _ _ _ _ _ _ _ _ _ _ _ _ _ _ _ _ _ hc0 hc1 _ _ _ _ _ _)
            · unfold owns; iexists _; isplitr
              swap; · iexact HS1
              ipureintro; exact View.read_writes_of_cover _ _ _ _ _ (scoverC8_1 c _ _ _ _ _ _ _ _ _ _ _ _ _ _ _ _ _ hc0 hc1 _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC8_1 c _ _ _ _ _ _ _ _ _ _ _ _ _ _ _ _ _ hc0 hc1 _ _ _ _ _ _)
      unfold owns; iexists _; isplitr
      swap; · iexact H5
      ipureintro; exact View.read_writes_of_cover _ _ _ _ _ (coverC8_2 c _ _ _ _ _ _ _ _ _ _ _ _ _ _ _ _ _ hc0 hc1 _ _ _ _ _ _)
    · have hc1 : ¬cond8_1 (grid8.coords t) := fun h => h1 ((hcond8_1 t).mp h)
      rw [Dat.leavesExact_idle (dat8 V c) 4 t (idleAt8_4 t hc1) (noFlush8_4 t hc1),
        Dat.leavesExact_idle (dat8 V c) 5 t (idleAt8_5 t hc1) (noFlush8_5 t hc1)]
      rw [outsAt8_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun8_B c (grid8.coords t) _ _ _ _ _ _ _ _ _ _ _ _ _ _ _ _ hc0 hc1 (iblk8 V c 0 t) (iblk8 V c 1 t) (iblk8 V c 2 t) (iblk8 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB8_0 c _ _ _ _ _ _ _ _ _ _ _ _ _ _ _ _ _ hc0 hc1 _ _ _ _ _ _)
            · unfold owns; iexists _; isplitr
              swap; · iexact HS1
              ipureintro; exact View.read_writes_of_cover _ _ _ _ _ (scoverB8_1 c _ _ _ _ _ _ _ _ _ _ _ _ _ _ _ _ _ hc0 hc1 _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

theorem hout8 (c : Dev nD) : (dat8 V c).Φ (Fin.last cfg8.N) ⊢ Pipeline.ΦA spec8 c := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 10 := N_8; omega), PhiA8_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.Kernel.Hand

end
-- ==== Proof.KR9A.lean ====
/-
  Pipeline 9 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

abbrev cond9_0 (i : grid9.Coords) : Prop := (Scalar.cmpi .ne (Scalar.extui (Scalar.cmpi .eq (BitVec.ofNat 32 (i 0).val) 0#32)) 0#32) = 1#1
theorem hcond9_0 : ∀ t : Fin cfg9.N, cond9_0 (grid9.coords t) ↔ t.val % 10 = 0 :=
  (by decide +kernel : ∀ t : Fin grid9.N, cond9_0 (grid9.coords t) ↔ t.val % 10 = 0)
abbrev cond9_1 (i : grid9.Coords) : Prop := k9_cond2 i = 1#1
theorem hcond9_1 : ∀ t : Fin cfg9.N, cond9_1 (grid9.coords t) ↔ t.val % 10 = 9 :=
  (by decide +kernel : ∀ t : Fin grid9.N, cond9_1 (grid9.coords t) ↔ t.val % 10 = 9)
theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem liveAt9_3 : ∀ t : Fin cfg9.N, cfg9.idle 3 (grid9.coords t) = false := by decide +kernel
theorem liveAt9_4 : ∀ t : Fin cfg9.N, cfg9.idle 4 (grid9.coords t) = false := by decide +kernel
theorem liveAt9_5 : ∀ t : Fin cfg9.N, cfg9.idle 5 (grid9.coords t) = false := by decide +kernel
theorem liveAt9_6 : ∀ t : Fin cfg9.N, cfg9.idle 6 (grid9.coords t) = false := by decide +kernel
theorem idleAt9_7 : ∀ t : Fin cfg9.N, ¬cond9_1 (grid9.coords t) → cfg9.idle 7 (grid9.coords t) = true := by decide +kernel
theorem noFlush9_7 : ∀ t : Fin cfg9.N, ¬cond9_1 (grid9.coords t) → (cfg9.win 7).flush t = false := by decide +kernel
theorem liveAt9_7 : ∀ t : Fin cfg9.N, cond9_1 (grid9.coords t) → cfg9.idle 7 (grid9.coords t) = false := by decide +kernel
theorem idleAt9_8 : ∀ t : Fin cfg9.N, ¬cond9_1 (grid9.coords t) → cfg9.idle 8 (grid9.coords t) = true := by decide +kernel
theorem noFlush9_8 : ∀ t : Fin cfg9.N, ¬cond9_1 (grid9.coords t) → (cfg9.win 8).flush t = false := by decide +kernel
theorem liveAt9_8 : ∀ t : Fin cfg9.N, cond9_1 (grid9.coords t) → cfg9.idle 8 (grid9.coords t) = false := by decide +kernel
abbrev ms9_0 (t : Fin cfg9.N) : Memref sig .tc .vmem S5000x128 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S128x128 .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S128x128 .bf16 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1x128 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S1x128 .f32 := win9_4.stage (cfg9.slots t 4)
abbrev hs9_4 (t : Fin cfg9.N) : (ms9_4 t).IsWhole := hstage9_4 ((cfg9.slots t 4).cast nbuf9_4)
abbrev ms9_5 (t : Fin cfg9.N) : Memref sig .tc .vmem S1x128 .f32 := win9_5.stage (cfg9.slots t 5)
abbrev hs9_5 (t : Fin cfg9.N) : (ms9_5 t).IsWhole := hstage9_5 ((cfg9.slots t 5).cast nbuf9_5)
abbrev ms9_6 (t : Fin cfg9.N) : Memref sig .tc .vmem S1x128 .f32 := win9_6.stage (cfg9.slots t 6)
abbrev hs9_6 (t : Fin cfg9.N) : (ms9_6 t).IsWhole := hstage9_6 ((cfg9.slots t 6).cast nbuf9_6)
abbrev ms9_7 (t : Fin cfg9.N) : Memref sig .tc .vmem S1x128 .f32 := win9_7.stage (cfg9.slots t 7)
abbrev hs9_7 (t : Fin cfg9.N) : (ms9_7 t).IsWhole := hstage9_7 ((cfg9.slots t 7).cast nbuf9_7)
abbrev ms9_8 (t : Fin cfg9.N) : Memref sig .tc .vmem S1x128 .f32 := win9_8.stage (cfg9.slots t 8)
abbrev hs9_8 (t : Fin cfg9.N) : (ms9_8 t).IsWhole := hstage9_8 ((cfg9.slots t 8).cast nbuf9_8)
abbrev scM9_0 : Memref sig .tc .vmem S1x128 .f32 := Memref.whole cc9_scratch0
abbrev scM9_1 : Memref sig .tc .vmem S1x128 .f32 := Memref.whole cc9_scratch1

theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d))
          ∗ Pipeline.scopedRestBut (Ix := Unit) (Name := ℕ) (U := UR sig nD τ) (Lvl := ℕ) (Val := Elt F) spec9 c [cc9_scratch0, cc9_scratch1]) ∗ (∃ r, prngReg c r)) := by
  unfold Pipeline.ΦA; rw [scopedRest9_split]; simp only [scM9_0, scM9_1, owns_whole]; try rfl

set_option maxHeartbeats 2000000 in
noncomputable def kernelRun9_A (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond9_0 i) (hc1 : ¬cond9_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc9__stage2_kernel i arg1 harg1 arg2 harg2 arg3 harg3 arg4 harg4 arg5 harg5 arg6 harg6 arg7 harg7 arg8 harg8 arg9 harg9 arg10 harg10 arg11 harg11) K } := by
  refine ⟨?_, ?_, fun xi1 xi2 E K => ?run⟩
  case run =>
    simp only [cc9__stage2_kernel_eq_skeleton]; unfold cc9__stage2_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfo1; obtain rfl := harg9.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]
    · iexists _; isplitr; · ipureintro; exact harg8.read_unread _
      iexact HO1
    isplitl [HO2]
    · iexists _; isplitr; · ipureintro; exact harg9.read_unread _
      iexact HO2
    isplitl [HS0]; · iexists _; iexact HS0
    iexists _; iexact HS1

set_option maxHeartbeats 2000000 in
noncomputable def kernelRun9_B (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : ¬cond9_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi1 ∗ owns (c : Thread nD τ) arg9 fullShare xi2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc9__stage2_kernel i arg1 harg1 arg2 harg2 arg3 harg3 arg4 harg4 arg5 harg5 arg6 harg6 arg7 harg7 arg8 harg8 arg9 harg9 arg10 harg10 arg11 harg11) K } := by
  refine ⟨?_, ?_, fun xi1 xi2 E K => ?run⟩
  case run =>
    simp only [cc9__stage2_kernel_eq_skeleton]; unfold cc9__stage2_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hfo1; obtain rfl := harg9.eq_unread hfo2; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]
    · iexists _; isplitr; · ipureintro; exact harg8.read_unread _
      iexact HO1
    isplitl [HO2]
    · iexists _; isplitr; · ipureintro; exact harg9.read_unread _
      iexact HO2
    isplitl [HS0]; · iexists _; iexact HS0
    iexists _; iexact HS1

set_option maxHeartbeats 2000000 in
noncomputable def kernelRun9_C (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : cond9_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc9__stage2_kernel i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc9__stage2_kernel_eq_skeleton]; unfold cc9__stage2_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO1]; · iexists _; iexact HO1
    isplitl [HO2]; · iexists _; iexact HO2
    isplitl [HS0]; · iexists _; iexact HS0
    iexists _; iexact HS1

end Cert.Kernel.Hand

end
-- ==== Proof.KR9B.lean ====
/-
  Pipeline 9 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.KR9A
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VW9 : View sig .tc .vmem S1x128 .f32 := scM9_0.view
def rd9 (L : List (View.Piece (Elt F) S1x128 .f32)) : Vec F S1x128 .f32 := VW9.read (Elt F) (VW9.writes (Elt F) VW9.junk L)

theorem scoverA9_0 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond9_0 i) (hc1 : ¬cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (y : S1x128.Idx) :
    ∃ pc ∈ (kernelRun9_A c i arg1 harg1 arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun9_A c i arg1 harg1 arg2 harg2 arg3 harg3 arg4 harg4 arg5 harg5 arg6 harg6 arg7 harg7 arg8 harg8 arg9 harg9 arg10 harg10 arg11 harg11 hc0 hc1 x0 x1 x2 x3 x4 x5 x6).1 S1x128.size (by sl_kernel_rfl) y
theorem scoverA9_1 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond9_0 i) (hc1 : ¬cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (y : S1x128.Idx) :
    ∃ pc ∈ (kernelRun9_A c i arg1 harg1 arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun9_A c i arg1 harg1 arg2 harg2 arg3 harg3 arg4 harg4 arg5 harg5 arg6 harg6 arg7 harg7 arg8 harg8 arg9 harg9 arg10 harg10 arg11 harg11 hc0 hc1 x0 x1 x2 x3 x4 x5 x6).2.1 S1x128.size (by sl_kernel_rfl) y
theorem scoverB9_0 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : ¬cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun9_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun9_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 S1x128.size (by sl_kernel_rfl) y
theorem scoverB9_1 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : ¬cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun9_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun9_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 S1x128.size (by sl_kernel_rfl) y
theorem coverC9_1 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 S1x128.size (by sl_kernel_rfl) y
theorem coverC9_2 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 S1x128.size (by sl_kernel_rfl) y
theorem scoverC9_0 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.1, y ∈ pc.1.set :=
  View.cover_of_tiledL (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.1 S1x128.size (by sl_kernel_rfl) y
theorem scoverC9_1 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) (y : S1x128.Idx) :
    ∃ pc ∈ (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.2.1, y ∈ pc.1.set :=
  View.cover_of_tiledL (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.2.1 S1x128.size (by sl_kernel_rfl) y

theorem c0_zero9 (hn : 0 < cfg9.N) : cond9_0 (grid9.coords ⟨0, hn⟩) := (hcond9_0 ⟨0, hn⟩).mpr (Nat.zero_mod _)
theorem nc1_zero9 (hn : 0 < cfg9.N) : ¬cond9_1 (grid9.coords ⟨0, hn⟩) :=
  fun h => by have := (hcond9_1 ⟨0, hn⟩).mp h; (try dsimp only at this); omega
theorem nc0_succ9 (n : ℕ) (hn : n + 1 < cfg9.N) : ¬cond9_0 (grid9.coords ⟨n + 1, hn⟩) := fun h => by
  have hN : n + 1 < 10 := lt_of_lt_of_eq hn (show cfg9.N = 10 from N_9)
  have := (hcond9_0 ⟨n + 1, hn⟩).mp h; (try dsimp only at this); omega

def outsAt9 (c : Dev nD) : (n : ℕ) → n < cfg9.N → Vec F S1x128 .f32 × Vec F S1x128 .f32 × Vec F S1x128 .f32 × Vec F S1x128 .f32
  | 0, hn => (rd9 [], rd9 [], rd9 (kernelRun9_A c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) (ms9_7 ⟨0, hn⟩) (hs9_7 ⟨0, hn⟩) (ms9_8 ⟨0, hn⟩) (hs9_8 ⟨0, hn⟩) scM9_0 (Memref.isWhole_whole _) scM9_1 (Memref.isWhole_whole _) (c0_zero9 hn) (nc1_zero9 hn) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩) (iblk9 V c 6 ⟨0, hn⟩)).1, rd9 (kernelRun9_A c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) (ms9_7 ⟨0, hn⟩) (hs9_7 ⟨0, hn⟩) (ms9_8 ⟨0, hn⟩) (hs9_8 ⟨0, hn⟩) scM9_0 (Memref.isWhole_whole _) scM9_1 (Memref.isWhole_whole _) (c0_zero9 hn) (nc1_zero9 hn) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩) (iblk9 V c 6 ⟨0, hn⟩)).2.1)
  | n + 1, hn =>
    if h1 : (n + 1) % 10 = 9 then
      (rd9 (kernelRun9_C c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (ms9_7 ⟨n + 1, hn⟩) (hs9_7 ⟨n + 1, hn⟩) (ms9_8 ⟨n + 1, hn⟩) (hs9_8 ⟨n + 1, hn⟩) scM9_0 (Memref.isWhole_whole _) scM9_1 (Memref.isWhole_whole _) (nc0_succ9 n hn) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (outsAt9 c n (Nat.lt_of_succ_lt hn)).2.2.1 (outsAt9 c n (Nat.lt_of_succ_lt hn)).2.2.2).1, rd9 (kernelRun9_C c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (ms9_7 ⟨n + 1, hn⟩) (hs9_7 ⟨n + 1, hn⟩) (ms9_8 ⟨n + 1, hn⟩) (hs9_8 ⟨n + 1, hn⟩) scM9_0 (Memref.isWhole_whole _) scM9_1 (Memref.isWhole_whole _) (nc0_succ9 n hn) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (outsAt9 c n (Nat.lt_of_succ_lt hn)).2.2.1 (outsAt9 c n (Nat.lt_of_succ_lt hn)).2.2.2).2.1, rd9 (kernelRun9_C c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (ms9_7 ⟨n + 1, hn⟩) (hs9_7 ⟨n + 1, hn⟩) (ms9_8 ⟨n + 1, hn⟩) (hs9_8 ⟨n + 1, hn⟩) scM9_0 (Memref.isWhole_whole _) scM9_1 (Memref.isWhole_whole _) (nc0_succ9 n hn) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (outsAt9 c n (Nat.lt_of_succ_lt hn)).2.2.1 (outsAt9 c n (Nat.lt_of_succ_lt hn)).2.2.2).2.2.1, rd9 (kernelRun9_C c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (ms9_7 ⟨n + 1, hn⟩) (hs9_7 ⟨n + 1, hn⟩) (ms9_8 ⟨n + 1, hn⟩) (hs9_8 ⟨n + 1, hn⟩) scM9_0 (Memref.isWhole_whole _) scM9_1 (Memref.isWhole_whole _) (nc0_succ9 n hn) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (outsAt9 c n (Nat.lt_of_succ_lt hn)).2.2.1 (outsAt9 c n (Nat.lt_of_succ_lt hn)).2.2.2).2.2.2.1)
    else
      (rd9 [], rd9 [], rd9 (kernelRun9_B c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (ms9_7 ⟨n + 1, hn⟩) (hs9_7 ⟨n + 1, hn⟩) (ms9_8 ⟨n + 1, hn⟩) (hs9_8 ⟨n + 1, hn⟩) scM9_0 (Memref.isWhole_whole _) scM9_1 (Memref.isWhole_whole _) (nc0_succ9 n hn) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (outsAt9 c n (Nat.lt_of_succ_lt hn)).2.2.1 (outsAt9 c n (Nat.lt_of_succ_lt hn)).2.2.2).1, rd9 (kernelRun9_B c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (ms9_7 ⟨n + 1, hn⟩) (hs9_7 ⟨n + 1, hn⟩) (ms9_8 ⟨n + 1, hn⟩) (hs9_8 ⟨n + 1, hn⟩) scM9_0 (Memref.isWhole_whole _) scM9_1 (Memref.isWhole_whole _) (nc0_succ9 n hn) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (outsAt9 c n (Nat.lt_of_succ_lt hn)).2.2.1 (outsAt9 c n (Nat.lt_of_succ_lt hn)).2.2.2).2.1)

theorem outsAt9_A (c : Dev nD) (t : Fin cfg9.N) (hz : t.val = 0) (hc0 : cond9_0 (grid9.coords t)) (hc1 : ¬cond9_1 (grid9.coords t)) :
    outsAt9 V c t.val t.isLt = (rd9 [], rd9 [], rd9 (kernelRun9_A c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t)).1, rd9 (kernelRun9_A c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t)).2.1) := by
  obtain ⟨n, hn⟩ := t
  cases n with
  | zero => rfl
  | succ n => exact absurd hz (Nat.succ_ne_zero n)
theorem outsAt9_B (c : Dev nD) (t : Fin cfg9.N) (hz : t.val ≠ 0) (h1 : ¬t.val % 10 = 9) (hc0 : ¬cond9_0 (grid9.coords t)) (hc1 : ¬cond9_1 (grid9.coords t)) :
    outsAt9 V c t.val t.isLt = (rd9 [], rd9 [], rd9 (kernelRun9_B c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (outsAt9 V c (t.val - 1) (Nat.lt_of_le_of_lt (Nat.sub_le _ _) t.isLt)).2.2.1 (outsAt9 V c (t.val - 1) (Nat.lt_of_le_of_lt (Nat.sub_le _ _) t.isLt)).2.2.2).1, rd9 (kernelRun9_B c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (outsAt9 V c (t.val - 1) (Nat.lt_of_le_of_lt (Nat.sub_le _ _) t.isLt)).2.2.1 (outsAt9 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt9_C (c : Dev nD) (t : Fin cfg9.N) (hz : t.val ≠ 0) (h1 : t.val % 10 = 9) (hc0 : ¬cond9_0 (grid9.coords t)) (hc1 : cond9_1 (grid9.coords t)) :
    outsAt9 V c t.val t.isLt = (rd9 (kernelRun9_C c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (outsAt9 V c (t.val - 1) (Nat.lt_of_le_of_lt (Nat.sub_le _ _) t.isLt)).2.2.1 (outsAt9 V c (t.val - 1) (Nat.lt_of_le_of_lt (Nat.sub_le _ _) t.isLt)).2.2.2).1, rd9 (kernelRun9_C c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (outsAt9 V c (t.val - 1) (Nat.lt_of_le_of_lt (Nat.sub_le _ _) t.isLt)).2.2.1 (outsAt9 V c (t.val - 1) (Nat.lt_of_le_of_lt (Nat.sub_le _ _) t.isLt)).2.2.2).2.1, rd9 (kernelRun9_C c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (outsAt9 V c (t.val - 1) (Nat.lt_of_le_of_lt (Nat.sub_le _ _) t.isLt)).2.2.1 (outsAt9 V c (t.val - 1) (Nat.lt_of_le_of_lt (Nat.sub_le _ _) t.isLt)).2.2.2).2.2.1, rd9 (kernelRun9_C c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (outsAt9 V c (t.val - 1) (Nat.lt_of_le_of_lt (Nat.sub_le _ _) t.isLt)).2.2.1 (outsAt9 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest9 (c : Dev nD) : sProp 𝕄 :=
  Pipeline.scopedRestBut (Ix := Unit) (Name := ℕ) (U := UR sig nD τ) (Lvl := ℕ) (Val := Elt F) spec9 c [cc9_scratch0, cc9_scratch1]

def PhiS9 (c : Dev nD) : (n : ℕ) → n ≤ cfg9.N → sProp 𝕄
  | 0, _ => Pipeline.ΦA spec9 c
  | n + 1, hn => iprop(iprop(iprop(owns (c : Thread nD τ) scM9_0 fullShare ((outsAt9 V c n hn).2.2.1) ∗ owns (c : Thread nD τ) scM9_1 fullShare ((outsAt9 V c n hn).2.2.2)) ∗ rest9 c) ∗ (∃ r, prngReg c r))
theorem PhiS9_zero (c : Dev nD) (n : ℕ) (h : n ≤ cfg9.N) (hz : n = 0) : PhiS9 V c n h = Pipeline.ΦA spec9 c := by
  subst hz; rfl
theorem PhiS9_succ (c : Dev nD) (n : ℕ) (hn : n < cfg9.N) :
    PhiS9 V c (n + 1) hn = iprop(iprop(iprop(owns (c : Thread nD τ) scM9_0 fullShare ((outsAt9 V c n hn).2.2.1) ∗ owns (c : Thread nD τ) scM9_1 fullShare ((outsAt9 V c n hn).2.2.2)) ∗ rest9 c) ∗ (∃ r, prngReg c r)) := rfl
theorem PhiS9_pos (c : Dev nD) (n : ℕ) (h : n ≤ cfg9.N) (hz : n ≠ 0) :
    PhiS9 V c n h = iprop(iprop(iprop(owns (c : Thread nD τ) scM9_0 fullShare ((outsAt9 V c (n - 1) (by omega)).2.2.1) ∗ owns (c : Thread nD τ) scM9_1 fullShare ((outsAt9 V c (n - 1) (by omega)).2.2.2)) ∗ rest9 c) ∗ (∃ r, prngReg c r)) := by
  cases n with
  | zero => exact absurd rfl hz
  | succ n => rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => (outsAt9 V c t.val t.isLt).1
    | ⟨8, _⟩ => (outsAt9 V c t.val t.isLt).2.1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem PhiS9_castSucc (c : Dev nD) (t : Fin cfg9.N) :
    (dat9 V c).Φ t.castSucc = PhiS9 V c t.val (Nat.le_of_lt t.isLt) := by
  dsimp only [dat9]; simp only [Fin.coe_castSucc]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = (outsAt9 V c t.val t.isLt).1 := by dsimp only [dat9]
theorem after9_8 (c : Dev nD) (t : Fin cfg9.N) : (dat9 V c).after 8 t = (outsAt9 V c t.val t.isLt).2.1 := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d))
    ∗ (∃ d, owns (c : Thread nD τ) (ms9_6 t) fullShare ((dat9 V c).before 6 t d))
    ∗ (∃ d, owns (c : Thread nD τ) (ms9_7 t) fullShare ((dat9 V c).before 7 t d))
    ∗ (∃ d, owns (c : Thread nD τ) (ms9_8 t) fullShare ((dat9 V c).before 8 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t
    ∗ (dat9 V c).leavesExact 5 t
    ∗ (dat9 V c).leavesExact 6 t
    ∗ (dat9 V c).leavesExact 7 t
    ∗ (dat9 V c).leavesExact 8 t)

set_option maxHeartbeats 8000000 in
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).owesAt () t.succ = (dat9 V c).owesAt () t.castSucc from rfl]
  rw [show (dat9 V c).Φ t.succ = PhiS9 V c (t.val + 1) t.isLt from rfl, PhiS9_succ]
  have hN : t.val < 10 := lt_of_lt_of_eq t.isLt (show cfg9.N = 10 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  rw [show (dat9 V c).leavesExact 3 t = owns (c : Thread nD τ) (ms9_3 t) fullShare ((dat9 V c).after 3 t) from by
    unfold Dat.leavesExact; rw [liveAt9_3 t], after9_3]
  rw [show (dat9 V c).leavesExact 4 t = owns (c : Thread nD τ) (ms9_4 t) fullShare ((dat9 V c).after 4 t) from by
    unfold Dat.leavesExact; rw [liveAt9_4 t], after9_4]
  rw [show (dat9 V c).leavesExact 5 t = owns (c : Thread nD τ) (ms9_5 t) fullShare ((dat9 V c).after 5 t) from by
    unfold Dat.leavesExact; rw [liveAt9_5 t], after9_5]
  rw [show (dat9 V c).leavesExact 6 t = owns (c : Thread nD τ) (ms9_6 t) fullShare ((dat9 V c).after 6 t) from by
    unfold Dat.leavesExact; rw [liveAt9_6 t], after9_6]
  by_cases hz : t.val = 0
  · have hc0 : cond9_0 (grid9.coords t) := (hcond9_0 t).mpr (by omega)
    have hc1 : ¬cond9_1 (grid9.coords t) := fun h => by have := (hcond9_1 t).mp h; omega
    rw [Dat.leavesExact_idle (dat9 V c) 7 t (idleAt9_7 t hc1) (noFlush9_7 t hc1),
      Dat.leavesExact_idle (dat9 V c) 8 t (idleAt9_8 t hc1) (noFlush9_8 t hc1)]
    rw [outsAt9_A V c t hz hc0 hc1]
    (try dsimp only)
    rw [PhiS9_castSucc V c t, PhiS9_zero V c _ _ hz, PhiA9_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun9_A c (grid9.coords t) _ _ _ _ _ _ _ _ _ _ _ _ _ _ _ _ _ _ _ _ _ _ hc0 hc1 (iblk9 V c 0 t) (iblk9 V c 1 t) (iblk9 V c 2 t) (iblk9 V c 3 t) (iblk9 V c 4 t) (iblk9 V c 5 t) (iblk9 V c 6 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA9_0 c _ _ _ _ _ _ _ _ _ _ _ _ _ _ _ _ _ _ _ _ _ _ _ hc0 hc1 _ _ _ _ _ _ _)
          · unfold owns; iexists _; isplitr
            swap; · iexact HS1
            ipureintro; exact View.read_writes_of_cover _ _ _ _ _ (scoverA9_1 c _ _ _ _ _ _ _ _ _ _ _ _ _ _ _ _ _ _ _ _ _ _ _ hc0 hc1 _ _ _ _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · have hc0 : ¬cond9_0 (grid9.coords t) := fun h => by have := (hcond9_0 t).mp h; omega
    rw [PhiS9_castSucc V c t, PhiS9_pos V c _ _ hz]
    by_cases h1 : t.val % 10 = 9
    · have hc1 : cond9_1 (grid9.coords t) := (hcond9_1 t).mpr h1
      rw [show (dat9 V c).leavesExact 7 t = owns (c : Thread nD τ) (ms9_7 t) fullShare ((dat9 V c).after 7 t) from by
        unfold Dat.leavesExact; rw [liveAt9_7 t hc1], after9_7]
      rw [show (dat9 V c).leavesExact 8 t = owns (c : Thread nD τ) (ms9_8 t) fullShare ((dat9 V c).after 8 t) from by
        unfold Dat.leavesExact; rw [liveAt9_8 t hc1], after9_8]
      rw [outsAt9_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun9_C c (grid9.coords t) _ _ _ _ _ _ _ _ _ _ _ _ _ _ _ _ _ _ _ _ _ _ hc0 hc1 (iblk9 V c 0 t) (iblk9 V c 1 t) (iblk9 V c 2 t) (iblk9 V c 3 t) (iblk9 V c 4 t) (iblk9 V c 5 t) (iblk9 V c 6 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, ⟨%e1, H7⟩, ⟨%e2, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC9_0 c _ _ _ _ _ _ _ _ _ _ _ _ _ _ _ _ _ _ _ _ _ _ _ hc0 hc1 _ _ _ _ _ _ _ _ _)
            · unfold owns; iexists _; isplitr
              swap; · iexact HS1
              ipureintro; exact View.read_writes_of_cover _ _ _ _ _ (scoverC9_1 c _ _ _ _ _ _ _ _ _ _ _ _ _ _ _ _ _ _ _ _ _ _ _ hc0 hc1 _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverC9_1 c _ _ _ _ _ _ _ _ _ _ _ _ _ _ _ _ _ _ _ _ _ _ _ hc0 hc1 _ _ _ _ _ _ _ _ _)
      unfold owns; iexists _; isplitr
      swap; · iexact H8
      ipureintro; exact View.read_writes_of_cover _ _ _ _ _ (coverC9_2 c _ _ _ _ _ _ _ _ _ _ _ _ _ _ _ _ _ _ _ _ _ _ _ hc0 hc1 _ _ _ _ _ _ _ _ _)
    · have hc1 : ¬cond9_1 (grid9.coords t) := fun h => h1 ((hcond9_1 t).mp h)
      rw [Dat.leavesExact_idle (dat9 V c) 7 t (idleAt9_7 t hc1) (noFlush9_7 t hc1),
        Dat.leavesExact_idle (dat9 V c) 8 t (idleAt9_8 t hc1) (noFlush9_8 t hc1)]
      rw [outsAt9_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun9_B c (grid9.coords t) _ _ _ _ _ _ _ _ _ _ _ _ _ _ _ _ _ _ _ _ _ _ hc0 hc1 (iblk9 V c 0 t) (iblk9 V c 1 t) (iblk9 V c 2 t) (iblk9 V c 3 t) (iblk9 V c 4 t) (iblk9 V c 5 t) (iblk9 V c 6 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB9_0 c _ _ _ _ _ _ _ _ _ _ _ _ _ _ _ _ _ _ _ _ _ _ _ hc0 hc1 _ _ _ _ _ _ _ _ _)
            · unfold owns; iexists _; isplitr
              swap; · iexact HS1
              ipureintro; exact View.read_writes_of_cover _ _ _ _ _ (scoverB9_1 c _ _ _ _ _ _ _ _ _ _ _ _ _ _ _ _ _ _ _ _ _ _ _ hc0 hc1 _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

theorem body_obligation9 (c : Dev nD) : BodyObligation (dat9 (F := F) V c) (defs₀ (F := F)) Variants.none () Set.univ := fun t => by
  rw [bigSep_W9, bigSep_W9]
  exact sound_body9 V c t

theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

theorem hout9 (c : Dev nD) : (dat9 V c).Φ (Fin.last cfg9.N) ⊢ Pipeline.ΦA spec9 c := by
  rw [show (dat9 V c).Φ (Fin.last cfg9.N) = PhiS9 V c (Fin.last cfg9.N).val (Nat.le_of_lt_succ (Fin.last cfg9.N).isLt) from rfl,
    PhiS9_pos V c _ _ (by rw [Fin.val_last]; have : cfg9.N = 10 := N_9; omega), PhiA9_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.Kernel.Hand

end
-- ==== Proof.KR10A.lean ====
/-
  Pipeline 10 (a statistics kernel), first half. A window's block at a grid point read off the array the
  region finds, and that each input's staging buffer holds that block whether the point fetches it or not; the
  two branch conditions of the body in closed form over the ten points (the accumulators are reset at the first
  point, the scale and the shift are stored at the last) and where the two output windows are idle; then the
  body run once per case — A the first point, B a middle point, C the last —, on whole staging memrefs, what
  each stored buffer ends with found by the run as the list of its stores (last first).
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)
theorem before10_8_of {c : Dev nD} (dat : Dat τ (Elt F) Unit ℕ (UR sig nD τ) ℕ cfg10 c) (hA : dat.A 8 = V c (Pipeline.arrRef spec10 8))
    (hafter : ∀ t, dat.after 8 t = iblk10 V c 8 t) (t : Fin cfg10.N) (d) : dat.before 8 t d = iblk10 V c 8 t :=
  (dat.before_in_eq_fetched 8 rfl (fun _ => rfl) (fun _ _ _ => rfl) (fun t => by rw [hafter]; unfold Dat.blockOf iblk10; rw [hA]; try rfl) t d).trans
    (by unfold Dat.fetched Dat.blockOf iblk10; rw [hA]; try rfl)

abbrev cond10_0 (i : grid10.Coords) : Prop := (Scalar.cmpi .ne (Scalar.extui (Scalar.cmpi .eq (BitVec.ofNat 32 (i 0).val) 0#32)) 0#32) = 1#1
theorem hcond10_0 : ∀ t : Fin cfg10.N, cond10_0 (grid10.coords t) ↔ t.val % 10 = 0 :=
  (by decide +kernel : ∀ t : Fin grid10.N, cond10_0 (grid10.coords t) ↔ t.val % 10 = 0)
abbrev cond10_1 (i : grid10.Coords) : Prop := k10_cond2 i = 1#1
theorem hcond10_1 : ∀ t : Fin cfg10.N, cond10_1 (grid10.coords t) ↔ t.val % 10 = 9 :=
  (by decide +kernel : ∀ t : Fin grid10.N, cond10_1 (grid10.coords t) ↔ t.val % 10 = 9)
theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem liveAt10_3 : ∀ t : Fin cfg10.N, cfg10.idle 3 (grid10.coords t) = false := by decide +kernel
theorem liveAt10_4 : ∀ t : Fin cfg10.N, cfg10.idle 4 (grid10.coords t) = false := by decide +kernel
theorem liveAt10_5 : ∀ t : Fin cfg10.N, cfg10.idle 5 (grid10.coords t) = false := by decide +kernel
theorem liveAt10_6 : ∀ t : Fin cfg10.N, cfg10.idle 6 (grid10.coords t) = false := by decide +kernel
theorem liveAt10_7 : ∀ t : Fin cfg10.N, cfg10.idle 7 (grid10.coords t) = false := by decide +kernel
theorem liveAt10_8 : ∀ t : Fin cfg10.N, cfg10.idle 8 (grid10.coords t) = false := by decide +kernel
theorem idleAt10_9 : ∀ t : Fin cfg10.N, ¬cond10_1 (grid10.coords t) → cfg10.idle 9 (grid10.coords t) = true := by decide +kernel
theorem noFlush10_9 : ∀ t : Fin cfg10.N, ¬cond10_1 (grid10.coords t) → (cfg10.win 9).flush t = false := by decide +kernel
theorem liveAt10_9 : ∀ t : Fin cfg10.N, cond10_1 (grid10.coords t) → cfg10.idle 9 (grid10.coords t) = false := by decide +kernel
theorem idleAt10_10 : ∀ t : Fin cfg10.N, ¬cond10_1 (grid10.coords t) → cfg10.idle 10 (grid10.coords t) = true := by decide +kernel
theorem noFlush10_10 : ∀ t : Fin cfg10.N, ¬cond10_1 (grid10.coords t) → (cfg10.win 10).flush t = false := by decide +kernel
theorem liveAt10_10 : ∀ t : Fin cfg10.N, cond10_1 (grid10.coords t) → cfg10.idle 10 (grid10.coords t) = false := by decide +kernel
abbrev ms10_0 (t : Fin cfg10.N) : Memref sig .tc .vmem S5000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S128x128 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S128x128 .bf16 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x128 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S1x128 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S1x128 .f32 := win10_5.stage (cfg10.slots t 5)
abbrev hs10_5 (t : Fin cfg10.N) : (ms10_5 t).IsWhole := hstage10_5 ((cfg10.slots t 5).cast nbuf10_5)
abbrev ms10_6 (t : Fin cfg10.N) : Memref sig .tc .vmem S1x128 .f32 := win10_6.stage (cfg10.slots t 6)
abbrev hs10_6 (t : Fin cfg10.N) : (ms10_6 t).IsWhole := hstage10_6 ((cfg10.slots t 6).cast nbuf10_6)
abbrev ms10_7 (t : Fin cfg10.N) : Memref sig .tc .vmem S1x128 .f32 := win10_7.stage (cfg10.slots t 7)
abbrev hs10_7 (t : Fin cfg10.N) : (ms10_7 t).IsWhole := hstage10_7 ((cfg10.slots t 7).cast nbuf10_7)
abbrev ms10_8 (t : Fin cfg10.N) : Memref sig .tc .vmem S1x128 .f32 := win10_8.stage (cfg10.slots t 8)
abbrev hs10_8 (t : Fin cfg10.N) : (ms10_8 t).IsWhole := hstage10_8 ((cfg10.slots t 8).cast nbuf10_8)
abbrev ms10_9 (t : Fin cfg10.N) : Memref sig .tc .vmem S1x128 .f32 := win10_9.stage (cfg10.slots t 9)
abbrev hs10_9 (t : Fin cfg10.N) : (ms10_9 t).IsWhole := hstage10_9 ((cfg10.slots t 9).cast nbuf10_9)
abbrev ms10_10 (t : Fin cfg10.N) : Memref sig .tc .vmem S1x128 .f32 := win10_10.stage (cfg10.slots t 10)
abbrev hs10_10 (t : Fin cfg10.N) : (ms10_10 t).IsWhole := hstage10_10 ((cfg10.slots t 10).cast nbuf10_10)
abbrev scM10_0 : Memref sig .tc .vmem S1x128 .f32 := Memref.whole cc10_scratch0
abbrev scM10_1 : Memref sig .tc .vmem S1x128 .f32 := Memref.whole cc10_scratch1

theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d))
          ∗ Pipeline.scopedRestBut (Ix := Unit) (Name := ℕ) (U := UR sig nD τ) (Lvl := ℕ) (Val := Elt F) spec10 c [cc10_scratch0, cc10_scratch1]) ∗ (∃ r, prngReg c r)) := by
  unfold Pipeline.ΦA; rw [scopedRest10_split]; simp only [scM10_0, scM10_1, owns_whole]; try rfl

set_option maxHeartbeats 2000000 in
noncomputable def kernelRun10_A (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond10_0 i) (hc1 : ¬cond10_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc10__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi1 xi2 E K => ?run⟩
  case run =>
    simp only [cc10__stage3_kernel_eq_skeleton]; unfold cc10__stage3_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo1, %hfo1, HO1⟩, ⟨%fo2, %hfo2, HO2⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg10.eq_unread hfo1; obtain rfl := harg11.eq_unread hfo2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]
    · iexists _; isplitr; · ipureintro; exact harg10.read_unread _
      iexact HO1
    isplitl [HO2]
    · iexists _; isplitr; · ipureintro; exact harg11.read_unread _
      iexact HO2
    isplitl [HS0]; · iexists _; iexact HS0
    iexists _; iexact HS1

set_option maxHeartbeats 2000000 in
noncomputable def kernelRun10_B (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : ¬cond10_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi1 ∗ owns (c : Thread nD τ) arg11 fullShare xi2 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc10__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi1 xi2 E K => ?run⟩
  case run =>
    simp only [cc10__stage3_kernel_eq_skeleton]; unfold cc10__stage3_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo1, %hfo1, HO1⟩, ⟨%fo2, %hfo2, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg10.eq_unread hfo1; obtain rfl := harg11.eq_unread hfo2; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]
    · iexists _; isplitr; · ipureintro; exact harg10.read_unread _
      iexact HO1
    isplitl [HO2]
    · iexists _; isplitr; · ipureintro; exact harg11.read_unread _
      iexact HO2
    isplitl [HS0]; · iexists _; iexact HS0
    iexists _; iexact HS1

set_option maxHeartbeats 2000000 in
noncomputable def kernelRun10_C (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : cond10_1 i)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc10__stage3_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc10__stage3_kernel_eq_skeleton]; unfold cc10__stage3_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do1, %fo1, -, HO1⟩, ⟨%do2, %fo2, -, HO2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO1]; · iexists _; iexact HO1
    isplitl [HO2]; · iexists _; iexact HO2
    isplitl [HS0]; · iexists _; iexact HS0
    iexists _; iexact HS1

end Cert.Kernel.Hand

end
-- ==== Proof.KR10B.lean ====
/-
  Pipeline 10 (a statistics kernel), second half: what its buffers hold point by point, and the body obligation.
  After the body at position n the two accumulators hold the column totals, and the totals of squares, over the
  tiles 0 … n (the first point resets them before adding); the two output windows are idle until the last point,
  where the scale and the shift computed from the accumulators are stored. The contents are the stores each case's
  run found, read back; the recursion over the points threads the accumulators. Between points the region's
  invariant is the class invariant with the two accumulators named. The point's position decides the case.
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.KR10A
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VW10 : View sig .tc .vmem S1x128 .f32 := scM10_0.view
def rd10 (L : List (View.Piece (Elt F) S1x128 .f32)) : Vec F S1x128 .f32 := VW10.read (Elt F) (VW10.writes (Elt F) VW10.junk L)

theorem scoverA10_0 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond10_0 i) (hc1 : ¬cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S1x128.Idx) :
    ∃ pc ∈ (kernelRun10_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1, y ∈ pc.1.set :=
  View.cover_of_tiledL (kernelRun10_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 S1x128.size (by sl_kernel_rfl) y
theorem scoverA10_1 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond10_0 i) (hc1 : ¬cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S1x128.Idx) :
    ∃ pc ∈ (kernelRun10_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1, y ∈ pc.1.set :=
  View.cover_of_tiledL (kernelRun10_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 S1x128.size (by sl_kernel_rfl) y
theorem scoverB10_0 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : ¬cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun10_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1, y ∈ pc.1.set :=
  View.cover_of_tiledL (kernelRun10_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 S1x128.size (by sl_kernel_rfl) y
theorem scoverB10_1 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : ¬cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun10_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1, y ∈ pc.1.set :=
  View.cover_of_tiledL (kernelRun10_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 S1x128.size (by sl_kernel_rfl) y
theorem coverC10_1 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1, y ∈ pc.1.set :=
  View.cover_of_tiledL (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 S1x128.size (by sl_kernel_rfl) y
theorem coverC10_2 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1, y ∈ pc.1.set :=
  View.cover_of_tiledL (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 S1x128.size (by sl_kernel_rfl) y
theorem scoverC10_0 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1, y ∈ pc.1.set :=
  View.cover_of_tiledL (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1 S1x128.size (by sl_kernel_rfl) y
theorem scoverC10_1 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) (y : S1x128.Idx) :
    ∃ pc ∈ (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1, y ∈ pc.1.set :=
  View.cover_of_tiledL (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1 S1x128.size (by sl_kernel_rfl) y

theorem c0_zero10 (hn : 0 < cfg10.N) : cond10_0 (grid10.coords ⟨0, hn⟩) := (hcond10_0 ⟨0, hn⟩).mpr (Nat.zero_mod _)
theorem nc1_zero10 (hn : 0 < cfg10.N) : ¬cond10_1 (grid10.coords ⟨0, hn⟩) :=
  fun h => by have := (hcond10_1 ⟨0, hn⟩).mp h; (try dsimp only at this); omega
theorem nc0_succ10 (n : ℕ) (hn : n + 1 < cfg10.N) : ¬cond10_0 (grid10.coords ⟨n + 1, hn⟩) := fun h => by
  have hN : n + 1 < 10 := lt_of_lt_of_eq hn (show cfg10.N = 10 from N_10)
  have := (hcond10_0 ⟨n + 1, hn⟩).mp h; (try dsimp only at this); omega

def outsAt10 (c : Dev nD) : (n : ℕ) → n < cfg10.N → Vec F S1x128 .f32 × Vec F S1x128 .f32 × Vec F S1x128 .f32 × Vec F S1x128 .f32
  | 0, hn => (rd10 [], rd10 [], rd10 (kernelRun10_A c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) (ms10_8 ⟨0, hn⟩) (hs10_8 ⟨0, hn⟩) (ms10_9 ⟨0, hn⟩) (hs10_9 ⟨0, hn⟩) (ms10_10 ⟨0, hn⟩) (hs10_10 ⟨0, hn⟩) scM10_0 (Memref.isWhole_whole _) scM10_1 (Memref.isWhole_whole _) (c0_zero10 hn) (nc1_zero10 hn) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩) (iblk10 V c 7 ⟨0, hn⟩) (iblk10 V c 8 ⟨0, hn⟩)).1, rd10 (kernelRun10_A c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) (ms10_8 ⟨0, hn⟩) (hs10_8 ⟨0, hn⟩) (ms10_9 ⟨0, hn⟩) (hs10_9 ⟨0, hn⟩) (ms10_10 ⟨0, hn⟩) (hs10_10 ⟨0, hn⟩) scM10_0 (Memref.isWhole_whole _) scM10_1 (Memref.isWhole_whole _) (c0_zero10 hn) (nc1_zero10 hn) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩) (iblk10 V c 7 ⟨0, hn⟩) (iblk10 V c 8 ⟨0, hn⟩)).2.1)
  | n + 1, hn =>
    if h1 : (n + 1) % 10 = 9 then
      (rd10 (kernelRun10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (ms10_10 ⟨n + 1, hn⟩) (hs10_10 ⟨n + 1, hn⟩) scM10_0 (Memref.isWhole_whole _) scM10_1 (Memref.isWhole_whole _) (nc0_succ10 n hn) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.1 (outsAt10 c n (Nat.lt_of_succ_lt hn)).2.2.2).1, rd10 (kernelRun10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (ms10_10 ⟨n + 1, hn⟩) (hs10_10 ⟨n + 1, hn⟩) scM10_0 (Memref.isWhole_whole _) scM10_1 (Memref.isWhole_whole _) (nc0_succ10 n hn) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.1 (outsAt10 c n (Nat.lt_of_succ_lt hn)).2.2.2).2.1, rd10 (kernelRun10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (ms10_10 ⟨n + 1, hn⟩) (hs10_10 ⟨n + 1, hn⟩) scM10_0 (Memref.isWhole_whole _) scM10_1 (Memref.isWhole_whole _) (nc0_succ10 n hn) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.1 (outsAt10 c n (Nat.lt_of_succ_lt hn)).2.2.2).2.2.1, rd10 (kernelRun10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (ms10_10 ⟨n + 1, hn⟩) (hs10_10 ⟨n + 1, hn⟩) scM10_0 (Memref.isWhole_whole _) scM10_1 (Memref.isWhole_whole _) (nc0_succ10 n hn) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.1 (outsAt10 c n (Nat.lt_of_succ_lt hn)).2.2.2).2.2.2.1)
    else
      (rd10 [], rd10 [], rd10 (kernelRun10_B c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (ms10_10 ⟨n + 1, hn⟩) (hs10_10 ⟨n + 1, hn⟩) scM10_0 (Memref.isWhole_whole _) scM10_1 (Memref.isWhole_whole _) (nc0_succ10 n hn) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.1 (outsAt10 c n (Nat.lt_of_succ_lt hn)).2.2.2).1, rd10 (kernelRun10_B c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (ms10_10 ⟨n + 1, hn⟩) (hs10_10 ⟨n + 1, hn⟩) scM10_0 (Memref.isWhole_whole _) scM10_1 (Memref.isWhole_whole _) (nc0_succ10 n hn) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.1 (outsAt10 c n (Nat.lt_of_succ_lt hn)).2.2.2).2.1)

theorem outsAt10_A (c : Dev nD) (t : Fin cfg10.N) (hz : t.val = 0) (hc0 : cond10_0 (grid10.coords t)) (hc1 : ¬cond10_1 (grid10.coords t)) :
    outsAt10 V c t.val t.isLt = (rd10 [], rd10 [], rd10 (kernelRun10_A c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t)).1, rd10 (kernelRun10_A c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t)).2.1) := by
  obtain ⟨n, hn⟩ := t
  cases n with
  | zero => rfl
  | succ n => exact absurd hz (Nat.succ_ne_zero n)
theorem outsAt10_B (c : Dev nD) (t : Fin cfg10.N) (hz : t.val ≠ 0) (h1 : ¬t.val % 10 = 9) (hc0 : ¬cond10_0 (grid10.coords t)) (hc1 : ¬cond10_1 (grid10.coords t)) :
    outsAt10 V c t.val t.isLt = (rd10 [], rd10 [], rd10 (kernelRun10_B c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.1 (outsAt10 V c (t.val - 1) (Nat.lt_of_le_of_lt (Nat.sub_le _ _) t.isLt)).2.2.2).1, rd10 (kernelRun10_B c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.1 (outsAt10 V c (t.val - 1) (Nat.lt_of_le_of_lt (Nat.sub_le _ _) t.isLt)).2.2.2).2.1) := by
  obtain ⟨n, hn⟩ := t
  cases n with
  | zero => exact absurd rfl hz
  | succ n => exact (dif_neg h1).trans rfl
theorem outsAt10_C (c : Dev nD) (t : Fin cfg10.N) (hz : t.val ≠ 0) (h1 : t.val % 10 = 9) (hc0 : ¬cond10_0 (grid10.coords t)) (hc1 : cond10_1 (grid10.coords t)) :
    outsAt10 V c t.val t.isLt = (rd10 (kernelRun10_C c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.1 (outsAt10 V c (t.val - 1) (Nat.lt_of_le_of_lt (Nat.sub_le _ _) t.isLt)).2.2.2).1, rd10 (kernelRun10_C c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.1 (outsAt10 V c (t.val - 1) (Nat.lt_of_le_of_lt (Nat.sub_le _ _) t.isLt)).2.2.2).2.1, rd10 (kernelRun10_C c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.1 (outsAt10 V c (t.val - 1) (Nat.lt_of_le_of_lt (Nat.sub_le _ _) t.isLt)).2.2.2).2.2.1, rd10 (kernelRun10_C c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.1 (outsAt10 V c (t.val - 1) (Nat.lt_of_le_of_lt (Nat.sub_le _ _) t.isLt)).2.2.2).2.2.2.1) := by
  obtain ⟨n, hn⟩ := t
  cases n with
  | zero => exact absurd rfl hz
  | succ n => exact (dif_pos h1).trans rfl

abbrev rest10 (c : Dev nD) : sProp 𝕄 :=
  Pipeline.scopedRestBut (Ix := Unit) (Name := ℕ) (U := UR sig nD τ) (Lvl := ℕ) (Val := Elt F) spec10 c [cc10_scratch0, cc10_scratch1]

def PhiS10 (c : Dev nD) : (n : ℕ) → n ≤ cfg10.N → sProp 𝕄
  | 0, _ => Pipeline.ΦA spec10 c
  | n + 1, hn => iprop(iprop(iprop(owns (c : Thread nD τ) scM10_0 fullShare ((outsAt10 V c n hn).2.2.1) ∗ owns (c : Thread nD τ) scM10_1 fullShare ((outsAt10 V c n hn).2.2.2)) ∗ rest10 c) ∗ (∃ r, prngReg c r))
theorem PhiS10_zero (c : Dev nD) (n : ℕ) (h : n ≤ cfg10.N) (hz : n = 0) : PhiS10 V c n h = Pipeline.ΦA spec10 c := by
  subst hz; rfl
theorem PhiS10_succ (c : Dev nD) (n : ℕ) (hn : n < cfg10.N) :
    PhiS10 V c (n + 1) hn = iprop(iprop(iprop(owns (c : Thread nD τ) scM10_0 fullShare ((outsAt10 V c n hn).2.2.1) ∗ owns (c : Thread nD τ) scM10_1 fullShare ((outsAt10 V c n hn).2.2.2)) ∗ rest10 c) ∗ (∃ r, prngReg c r)) := rfl
theorem PhiS10_pos (c : Dev nD) (n : ℕ) (h : n ≤ cfg10.N) (hz : n ≠ 0) :
    PhiS10 V c n h = iprop(iprop(iprop(owns (c : Thread nD τ) scM10_0 fullShare ((outsAt10 V c (n - 1) (by omega)).2.2.1) ∗ owns (c : Thread nD τ) scM10_1 fullShare ((outsAt10 V c (n - 1) (by omega)).2.2.2)) ∗ rest10 c) ∗ (∃ r, prngReg c r)) := by
  cases n with
  | zero => exact absurd rfl hz
  | succ n => rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => iblk10 V c 8 t
    | ⟨9, _⟩ => (outsAt10 V c t.val t.isLt).1
    | ⟨10, _⟩ => (outsAt10 V c t.val t.isLt).2.1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]
theorem PhiS10_castSucc (c : Dev nD) (t : Fin cfg10.N) :
    (dat10 V c).Φ t.castSucc = PhiS10 V c t.val (Nat.le_of_lt t.isLt) := by
  dsimp only [dat10]; simp only [Fin.coe_castSucc]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = iblk10 V c 8 t := by dsimp only [dat10]
theorem after10_9 (c : Dev nD) (t : Fin cfg10.N) : (dat10 V c).after 9 t = (outsAt10 V c t.val t.isLt).1 := by dsimp only [dat10]
theorem after10_10 (c : Dev nD) (t : Fin cfg10.N) : (dat10 V c).after 10 t = (outsAt10 V c t.val t.isLt).2.1 := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
theorem before10_7 (c : Dev nD) (t : Fin cfg10.N) (d) : (dat10 V c).before 7 t d = iblk10 V c 7 t :=
  before10_7_of V (dat10 V c) (A_eq10 V c 7) (after10_7 V c) t d
theorem before10_8 (c : Dev nD) (t : Fin cfg10.N) (d) : (dat10 V c).before 8 t d = iblk10 V c 8 t :=
  before10_8_of V (dat10 V c) (A_eq10 V c 8) (after10_8 V c) t d

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d))
    ∗ (∃ d, owns (c : Thread nD τ) (ms10_6 t) fullShare ((dat10 V c).before 6 t d))
    ∗ (∃ d, owns (c : Thread nD τ) (ms10_7 t) fullShare ((dat10 V c).before 7 t d))
    ∗ (∃ d, owns (c : Thread nD τ) (ms10_8 t) fullShare ((dat10 V c).before 8 t d))
    ∗ (∃ d, owns (c : Thread nD τ) (ms10_9 t) fullShare ((dat10 V c).before 9 t d))
    ∗ (∃ d, owns (c : Thread nD τ) (ms10_10 t) fullShare ((dat10 V c).before 10 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t
    ∗ (dat10 V c).leavesExact 7 t
    ∗ (dat10 V c).leavesExact 8 t
    ∗ (dat10 V c).leavesExact 9 t
    ∗ (dat10 V c).leavesExact 10 t)

set_option maxHeartbeats 8000000 in
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6, before10_7, before10_8]
  rw [show (dat10 V c).owesAt () t.succ = (dat10 V c).owesAt () t.castSucc from rfl]
  rw [show (dat10 V c).Φ t.succ = PhiS10 V c (t.val + 1) t.isLt from rfl, PhiS10_succ]
  have hN : t.val < 10 := lt_of_lt_of_eq t.isLt (show cfg10.N = 10 from N_10)
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  rw [show (dat10 V c).leavesExact 2 t = owns (c : Thread nD τ) (ms10_2 t) fullShare ((dat10 V c).after 2 t) from by
    unfold Dat.leavesExact; rw [liveAt10_2 t], after10_2]
  rw [show (dat10 V c).leavesExact 3 t = owns (c : Thread nD τ) (ms10_3 t) fullShare ((dat10 V c).after 3 t) from by
    unfold Dat.leavesExact; rw [liveAt10_3 t], after10_3]
  rw [show (dat10 V c).leavesExact 4 t = owns (c : Thread nD τ) (ms10_4 t) fullShare ((dat10 V c).after 4 t) from by
    unfold Dat.leavesExact; rw [liveAt10_4 t], after10_4]
  rw [show (dat10 V c).leavesExact 5 t = owns (c : Thread nD τ) (ms10_5 t) fullShare ((dat10 V c).after 5 t) from by
    unfold Dat.leavesExact; rw [liveAt10_5 t], after10_5]
  rw [show (dat10 V c).leavesExact 6 t = owns (c : Thread nD τ) (ms10_6 t) fullShare ((dat10 V c).after 6 t) from by
    unfold Dat.leavesExact; rw [liveAt10_6 t], after10_6]
  rw [show (dat10 V c).leavesExact 7 t = owns (c : Thread nD τ) (ms10_7 t) fullShare ((dat10 V c).after 7 t) from by
    unfold Dat.leavesExact; rw [liveAt10_7 t], after10_7]
  rw [show (dat10 V c).leavesExact 8 t = owns (c : Thread nD τ) (ms10_8 t) fullShare ((dat10 V c).after 8 t) from by
    unfold Dat.leavesExact; rw [liveAt10_8 t], after10_8]
  by_cases hz : t.val = 0
  · have hc0 : cond10_0 (grid10.coords t) := (hcond10_0 t).mpr (by omega)
    have hc1 : ¬cond10_1 (grid10.coords t) := fun h => by have := (hcond10_1 t).mp h; omega
    rw [Dat.leavesExact_idle (dat10 V c) 9 t (idleAt10_9 t hc1) (noFlush10_9 t hc1),
      Dat.leavesExact_idle (dat10 V c) 10 t (idleAt10_10 t hc1) (noFlush10_10 t hc1)]
    rw [outsAt10_A V c t hz hc0 hc1]
    (try dsimp only)
    rw [PhiS10_castSucc V c t, PhiS10_zero V c _ _ hz, PhiA10_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun10_A c (grid10.coords t) _ _ _ _ _ _ _ _ _ _ _ _ _ _ _ _ _ _ _ _ _ _ _ _ _ _ hc0 hc1 (iblk10 V c 0 t) (iblk10 V c 1 t) (iblk10 V c 2 t) (iblk10 V c 3 t) (iblk10 V c 4 t) (iblk10 V c 5 t) (iblk10 V c 6 t) (iblk10 V c 7 t) (iblk10 V c 8 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA10_0 c _ _ _ _ _ _ _ _ _ _ _ _ _ _ _ _ _ _ _ _ _ _ _ _ _ _ _ hc0 hc1 _ _ _ _ _ _ _ _ _)
          · unfold owns; iexists _; isplitr
            swap; · iexact HS1
            ipureintro; exact View.read_writes_of_cover _ _ _ _ _ (scoverA10_1 c _ _ _ _ _ _ _ _ _ _ _ _ _ _ _ _ _ _ _ _ _ _ _ _ _ _ _ hc0 hc1 _ _ _ _ _ _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have hc0 : ¬cond10_0 (grid10.coords t) := fun h => by have := (hcond10_0 t).mp h; omega
    rw [PhiS10_castSucc V c t, PhiS10_pos V c _ _ hz]
    by_cases h1 : t.val % 10 = 9
    · have hc1 : cond10_1 (grid10.coords t) := (hcond10_1 t).mpr h1
      rw [show (dat10 V c).leavesExact 9 t = owns (c : Thread nD τ) (ms10_9 t) fullShare ((dat10 V c).after 9 t) from by
        unfold Dat.leavesExact; rw [liveAt10_9 t hc1], after10_9]
      rw [show (dat10 V c).leavesExact 10 t = owns (c : Thread nD τ) (ms10_10 t) fullShare ((dat10 V c).after 10 t) from by
        unfold Dat.leavesExact; rw [liveAt10_10 t hc1], after10_10]
      rw [outsAt10_C V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun10_C c (grid10.coords t) _ _ _ _ _ _ _ _ _ _ _ _ _ _ _ _ _ _ _ _ _ _ _ _ _ _ hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, ⟨%e1, H9⟩, ⟨%e2, H10⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC10_0 c _ _ _ _ _ _ _ _ _ _ _ _ _ _ _ _ _ _ _ _ _ _ _ _ _ _ _ hc0 hc1 _ _ _ _ _ _ _ _ _ _ _)
            · unfold owns; iexists _; isplitr
              swap; · iexact HS1
              ipureintro; exact View.read_writes_of_cover _ _ _ _ _ (scoverC10_1 c _ _ _ _ _ _ _ _ _ _ _ _ _ _ _ _ _ _ _ _ _ _ _ _ _ _ _ hc0 hc1 _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverC10_1 c _ _ _ _ _ _ _ _ _ _ _ _ _ _ _ _ _ _ _ _ _ _ _ _ _ _ _ hc0 hc1 _ _ _ _ _ _ _ _ _ _ _)
      unfold owns; iexists _; isplitr
      swap; · iexact H10
      ipureintro; exact View.read_writes_of_cover _ _ _ _ _ (coverC10_2 c _ _ _ _ _ _ _ _ _ _ _ _ _ _ _ _ _ _ _ _ _ _ _ _ _ _ _ hc0 hc1 _ _ _ _ _ _ _ _ _ _ _)
    · have hc1 : ¬cond10_1 (grid10.coords t) := fun h => h1 ((hcond10_1 t).mp h)
      rw [Dat.leavesExact_idle (dat10 V c) 9 t (idleAt10_9 t hc1) (noFlush10_9 t hc1),
        Dat.leavesExact_idle (dat10 V c) 10 t (idleAt10_10 t hc1) (noFlush10_10 t hc1)]
      rw [outsAt10_B V c t hz h1 hc0 hc1]
      (try dsimp only)
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun10_B c (grid10.coords t) _ _ _ _ _ _ _ _ _ _ _ _ _ _ _ _ _ _ _ _ _ _ _ _ _ _ hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB10_0 c _ _ _ _ _ _ _ _ _ _ _ _ _ _ _ _ _ _ _ _ _ _ _ _ _ _ _ hc0 hc1 _ _ _ _ _ _ _ _ _ _ _)
            · unfold owns; iexists _; isplitr
              swap; · iexact HS1
              ipureintro; exact View.read_writes_of_cover _ _ _ _ _ (scoverB10_1 c _ _ _ _ _ _ _ _ _ _ _ _ _ _ _ _ _ _ _ _ _ _ _ _ _ _ _ hc0 hc1 _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

theorem body_obligation10 (c : Dev nD) : BodyObligation (dat10 (F := F) V c) (defs₀ (F := F)) Variants.none () Set.univ := fun t => by
  rw [bigSep_W10, bigSep_W10]
  exact sound_body10 V c t

theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

theorem hout10 (c : Dev nD) : (dat10 V c).Φ (Fin.last cfg10.N) ⊢ Pipeline.ΦA spec10 c := by
  rw [show (dat10 V c).Φ (Fin.last cfg10.N) = PhiS10 V c (Fin.last cfg10.N).val (Nat.le_of_lt_succ (Fin.last cfg10.N).isLt) from rfl,
    PhiS10_pos V c _ _ (by rw [Fin.val_last]; have : cfg10.N = 10 := N_10; omega), PhiA10_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

end Cert.Kernel.Hand

end
-- ==== Proof.KR3.lean ====
/-
  Pipeline 3 (the kernel that writes a layer's output). At each of the ten grid points the body recomputes, for
  its tile of 5000 rows, lin1 = x · W0, the first batch norm and rectifier, lin2 = (·) · W1, the second batch norm
  and rectifier and the third batch norm (with a rectifier except in the last layer), and stores the [5000, 128]
  result into the output window's block; it keeps nothing between points. Here: a window's block at a point,
  each input's staging buffer at that block whether fetched or not, the body's run on whole staging memrefs
  (what the output buffer ends with found as the list of its stores), the proof data and the body obligation.
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S128x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x128 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x128 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S5000x128 .f32 := win3_9.stage (cfg3.slots t 9)
abbrev hs3_9 (t : Fin cfg3.N) : (ms3_9 t).IsWhole := hstage3_9 ((cfg3.slots t 9).cast nbuf3_9)

set_option maxHeartbeats 2000000 in
noncomputable def kernelRun3 (c : Dev nD) (i : grid3.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    { L : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do1, %fo1, -, HO⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact HO

abbrev VB3 : View sig .tc .vmem S5000x128 .f32 := (ms3_9 t3_0).view
def rd3 (L : List (View.Piece (Elt F) S5000x128 .f32)) : Vec F S5000x128 .f32 := VB3.read (Elt F) (VB3.writes (Elt F) VB3.junk L)

theorem cover3 (c : Dev nD) (i : grid3.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S5000x128.Idx) :
    ∃ pc ∈ (kernelRun3 c i arg1 harg1 arg2 harg2 arg3 harg3 arg4 harg4 arg5 harg5 arg6 harg6 arg7 harg7 arg8 harg8 arg9 harg9 arg10 harg10 x0 x1 x2 x3 x4 x5 x6 x7 x8).1, y ∈ pc.1.set :=
  View.cover_of_tiledL (kernelRun3 c i arg1 harg1 arg2 harg2 arg3 harg3 arg4 harg4 arg5 harg5 arg6 harg6 arg7 harg7 arg8 harg8 arg9 harg9 arg10 harg10 x0 x1 x2 x3 x4 x5 x6 x7 x8).1 S5000x128.size (by sl_kernel_rfl) y

def out3 (c : Dev nD) (t : Fin cfg3.N) : Vec F S5000x128 .f32 :=
  rd3 (kernelRun3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (iblk3 V c 0 t) (iblk3 V c 1 t) (iblk3 V c 2 t) (iblk3 V c 3 t) (iblk3 V c 4 t) (iblk3 V c 5 t) (iblk3 V c 6 t) (iblk3 V c 7 t) (iblk3 V c 8 t)).1

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3 V c t
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t)
    ∗ owns (c : Thread nD τ) (ms3_7 t) fullShare ((dat3 V c).after 7 t)
    ∗ owns (c : Thread nD τ) (ms3_8 t) fullShare ((dat3 V c).after 8 t)
    ∗ owns (c : Thread nD τ) (ms3_9 t) fullShare ((dat3 V c).after 9 t))

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  unfold out3
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun3 c (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover3 c _ _ _ _ _ _ _ _ _ _ _ _ _ _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KR7.lean ====
/-
  Pipeline 7 (the kernel that writes a layer's output). At each of the ten grid points the body recomputes, for
  its tile of 5000 rows, lin1 = x · W0, the first batch norm and rectifier, lin2 = (·) · W1, the second batch norm
  and rectifier and the third batch norm (with a rectifier except in the last layer), and stores the [5000, 128]
  result into the output window's block; it keeps nothing between points. Here: a window's block at a point,
  each input's staging buffer at that block whether fetched or not, the body's run on whole staging memrefs
  (what the output buffer ends with found as the list of its stores), the proof data and the body obligation.
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S128x128 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S128x128 .bf16 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x128 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x128 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S1x128 .f32 := win7_7.stage (cfg7.slots t 7)
abbrev hs7_7 (t : Fin cfg7.N) : (ms7_7 t).IsWhole := hstage7_7 ((cfg7.slots t 7).cast nbuf7_7)
abbrev ms7_8 (t : Fin cfg7.N) : Memref sig .tc .vmem S1x128 .f32 := win7_8.stage (cfg7.slots t 8)
abbrev hs7_8 (t : Fin cfg7.N) : (ms7_8 t).IsWhole := hstage7_8 ((cfg7.slots t 8).cast nbuf7_8)
abbrev ms7_9 (t : Fin cfg7.N) : Memref sig .tc .vmem S5000x128 .f32 := win7_9.stage (cfg7.slots t 9)
abbrev hs7_9 (t : Fin cfg7.N) : (ms7_9 t).IsWhole := hstage7_9 ((cfg7.slots t 9).cast nbuf7_9)

set_option maxHeartbeats 2000000 in
noncomputable def kernelRun7 (c : Dev nD) (i : grid7.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    { L : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc7_kernel_eq_skeleton]; unfold cc7_kernel_skel
    simp only [k7_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do1, %fo1, -, HO⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact HO

abbrev VB7 : View sig .tc .vmem S5000x128 .f32 := (ms7_9 t7_0).view
def rd7 (L : List (View.Piece (Elt F) S5000x128 .f32)) : Vec F S5000x128 .f32 := VB7.read (Elt F) (VB7.writes (Elt F) VB7.junk L)

theorem cover7 (c : Dev nD) (i : grid7.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S5000x128.Idx) :
    ∃ pc ∈ (kernelRun7 c i arg1 harg1 arg2 harg2 arg3 harg3 arg4 harg4 arg5 harg5 arg6 harg6 arg7 harg7 arg8 harg8 arg9 harg9 arg10 harg10 x0 x1 x2 x3 x4 x5 x6 x7 x8).1, y ∈ pc.1.set :=
  View.cover_of_tiledL (kernelRun7 c i arg1 harg1 arg2 harg2 arg3 harg3 arg4 harg4 arg5 harg5 arg6 harg6 arg7 harg7 arg8 harg8 arg9 harg9 arg10 harg10 x0 x1 x2 x3 x4 x5 x6 x7 x8).1 S5000x128.size (by sl_kernel_rfl) y

def out7 (c : Dev nD) (t : Fin cfg7.N) : Vec F S5000x128 .f32 :=
  rd7 (kernelRun7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (iblk7 V c 0 t) (iblk7 V c 1 t) (iblk7 V c 2 t) (iblk7 V c 3 t) (iblk7 V c 4 t) (iblk7 V c 5 t) (iblk7 V c 6 t) (iblk7 V c 7 t) (iblk7 V c 8 t)).1

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7 V c t
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = out7 V c t := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d))
    ∗ (∃ d, owns (c : Thread nD τ) (ms7_8 t) fullShare ((dat7 V c).before 8 t d))
    ∗ (∃ d, owns (c : Thread nD τ) (ms7_9 t) fullShare ((dat7 V c).before 9 t d)))

def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t)
    ∗ owns (c : Thread nD τ) (ms7_6 t) fullShare ((dat7 V c).after 6 t)
    ∗ owns (c : Thread nD τ) (ms7_7 t) fullShare ((dat7 V c).after 7 t)
    ∗ owns (c : Thread nD τ) (ms7_8 t) fullShare ((dat7 V c).after 8 t)
    ∗ owns (c : Thread nD τ) (ms7_9 t) fullShare ((dat7 V c).after 9 t))

set_option maxHeartbeats 4000000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9]
  unfold out7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun7 c (grid7.coords t) _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover7 c _ _ _ _ _ _ _ _ _ _ _ _ _ _ _ _ _ _ _ _ _ _ _ _ _ _ _ _ _ _)

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KR11.lean ====
/-
  Pipeline 11 (the kernel that writes a layer's output). At each of the ten grid points the body recomputes, for
  its tile of 5000 rows, lin1 = x · W0, the first batch norm and rectifier, lin2 = (·) · W1, the second batch norm
  and rectifier and the third batch norm (with a rectifier except in the last layer), and stores the [5000, 128]
  result into the output window's block; it keeps nothing between points. Here: a window's block at a point,
  each input's staging buffer at that block whether fetched or not, the body's run on whole staging memrefs
  (what the output buffer ends with found as the list of its stores), the proof data and the body obligation.
-/
import proofs.«180905_j29583734735286_1_alg».proof.Proof.Gen.Kernel.Launch
import proofs.«180905_j29583734735286_1_alg».proof.Proof.Gen.Kernel.Skeleton
import proofs.«180905_j29583734735286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)
theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)
theorem before11_7_of {c : Dev nD} (dat : Dat τ (Elt F) Unit ℕ (UR sig nD τ) ℕ cfg11 c) (hA : dat.A 7 = V c (Pipeline.arrRef spec11 7))
    (hafter : ∀ t, dat.after 7 t = iblk11 V c 7 t) (t : Fin cfg11.N) (d) : dat.before 7 t d = iblk11 V c 7 t :=
  (dat.before_in_eq_fetched 7 rfl (fun _ => rfl) (fun _ _ _ => rfl) (fun t => by rw [hafter]; unfold Dat.blockOf iblk11; rw [hA]; try rfl) t d).trans
    (by unfold Dat.fetched Dat.blockOf iblk11; rw [hA]; try rfl)
theorem before11_8_of {c : Dev nD} (dat : Dat τ (Elt F) Unit ℕ (UR sig nD τ) ℕ cfg11 c) (hA : dat.A 8 = V c (Pipeline.arrRef spec11 8))
    (hafter : ∀ t, dat.after 8 t = iblk11 V c 8 t) (t : Fin cfg11.N) (d) : dat.before 8 t d = iblk11 V c 8 t :=
  (dat.before_in_eq_fetched 8 rfl (fun _ => rfl) (fun _ _ _ => rfl) (fun t => by rw [hafter]; unfold Dat.blockOf iblk11; rw [hA]; try rfl) t d).trans
    (by unfold Dat.fetched Dat.blockOf iblk11; rw [hA]; try rfl)

abbrev ms11_0 (t : Fin cfg11.N) : Memref sig .tc .vmem S5000x128 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S128x128 .bf16 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S128x128 .bf16 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S1x128 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S1x128 .f32 := win11_4.stage (cfg11.slots t 4)
abbrev hs11_4 (t : Fin cfg11.N) : (ms11_4 t).IsWhole := hstage11_4 ((cfg11.slots t 4).cast nbuf11_4)
abbrev ms11_5 (t : Fin cfg11.N) : Memref sig .tc .vmem S1x128 .f32 := win11_5.stage (cfg11.slots t 5)
abbrev hs11_5 (t : Fin cfg11.N) : (ms11_5 t).IsWhole := hstage11_5 ((cfg11.slots t 5).cast nbuf11_5)
abbrev ms11_6 (t : Fin cfg11.N) : Memref sig .tc .vmem S1x128 .f32 := win11_6.stage (cfg11.slots t 6)
abbrev hs11_6 (t : Fin cfg11.N) : (ms11_6 t).IsWhole := hstage11_6 ((cfg11.slots t 6).cast nbuf11_6)
abbrev ms11_7 (t : Fin cfg11.N) : Memref sig .tc .vmem S1x128 .f32 := win11_7.stage (cfg11.slots t 7)
abbrev hs11_7 (t : Fin cfg11.N) : (ms11_7 t).IsWhole := hstage11_7 ((cfg11.slots t 7).cast nbuf11_7)
abbrev ms11_8 (t : Fin cfg11.N) : Memref sig .tc .vmem S1x128 .f32 := win11_8.stage (cfg11.slots t 8)
abbrev hs11_8 (t : Fin cfg11.N) : (ms11_8 t).IsWhole := hstage11_8 ((cfg11.slots t 8).cast nbuf11_8)
abbrev ms11_9 (t : Fin cfg11.N) : Memref sig .tc .vmem S5000x128 .f32 := win11_9.stage (cfg11.slots t 9)
abbrev hs11_9 (t : Fin cfg11.N) : (ms11_9 t).IsWhole := hstage11_9 ((cfg11.slots t 9).cast nbuf11_9)

set_option maxHeartbeats 2000000 in
noncomputable def kernelRun11 (c : Dev nD) (i : grid11.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    { L : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L)) -∗ K ⟨⟩))
          ⊢ wp frame (wpE (defs₀ (F := F)) Variants.none c none) E (cc11_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc11_kernel_eq_skeleton]; unfold cc11_kernel_skel
    simp only [k11_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do1, %fo1, -, HO⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact HO

abbrev VB11 : View sig .tc .vmem S5000x128 .f32 := (ms11_9 t11_0).view
def rd11 (L : List (View.Piece (Elt F) S5000x128 .f32)) : Vec F S5000x128 .f32 := VB11.read (Elt F) (VB11.writes (Elt F) VB11.junk L)

theorem cover11 (c : Dev nD) (i : grid11.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (y : S5000x128.Idx) :
    ∃ pc ∈ (kernelRun11 c i arg1 harg1 arg2 harg2 arg3 harg3 arg4 harg4 arg5 harg5 arg6 harg6 arg7 harg7 arg8 harg8 arg9 harg9 arg10 harg10 x0 x1 x2 x3 x4 x5 x6 x7 x8).1, y ∈ pc.1.set :=
  View.cover_of_tiledL (kernelRun11 c i arg1 harg1 arg2 harg2 arg3 harg3 arg4 harg4 arg5 harg5 arg6 harg6 arg7 harg7 arg8 harg8 arg9 harg9 arg10 harg10 x0 x1 x2 x3 x4 x5 x6 x7 x8).1 S5000x128.size (by sl_kernel_rfl) y

def out11 (c : Dev nD) (t : Fin cfg11.N) : Vec F S5000x128 .f32 :=
  rd11 (kernelRun11 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (iblk11 V c 0 t) (iblk11 V c 1 t) (iblk11 V c 2 t) (iblk11 V c 3 t) (iblk11 V c 4 t) (iblk11 V c 5 t) (iblk11 V c 6 t) (iblk11 V c 7 t) (iblk11 V c 8 t)).1

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => iblk11 V c 8 t
    | ⟨9, _⟩ => out11 V c t
  Φ _ := Pipeline.ΦA spec11 c
  q _ := fullShare
  owed _ := 0

theorem A_eq11 (c : Dev nD) (w : Fin cfg11.W) : (dat11 V c).A w = V c (Pipeline.arrRef spec11 w) := by
  dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t = iblk11 V c 7 t := by dsimp only [dat11]
theorem after11_8 (c : Dev nD) (t : Fin cfg11.N) : (dat11 V c).after 8 t = iblk11 V c 8 t := by dsimp only [dat11]
theorem after11_9 (c : Dev nD) (t : Fin cfg11.N) : (dat11 V c).after 9 t = out11 V c t := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d
theorem before11_7 (c : Dev nD) (t : Fin cfg11.N) (d) : (dat11 V c).before 7 t d = iblk11 V c 7 t :=
  before11_7_of V (dat11 V c) (A_eq11 V c 7) (after11_7 V c) t d
theorem before11_8 (c : Dev nD) (t : Fin cfg11.N) (d) : (dat11 V c).before 8 t d = iblk11 V c 8 t :=
  before11_8_of V (dat11 V c) (A_eq11 V c 8) (after11_8 V c) t d

def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d))
    ∗ (∃ d, owns (c : Thread nD τ) (ms11_5 t) fullShare ((dat11 V c).before 5 t d))
    ∗ (∃ d, owns (c : Thread nD τ) (ms11_6 t) fullShare ((dat11 V c).before 6 t d))
    ∗ (∃ d, owns (c : Thread nD τ) (ms11_7 t) fullShare ((dat11 V c).before 7 t d))
    ∗ (∃ d, owns (c : Thread nD τ) (ms11_8 t) fullShare ((dat11 V c).before 8 t d))
    ∗ (∃ d, owns (c : Thread nD τ) (ms11_9 t) fullShare ((dat11 V c).before 9 t d)))

def bodyPost11 (c : Dev nD) (t : Fin cfg11.N) : sProp 𝕄 :=
  iprop((dat11 V c).Φ t.succ ∗ (dat11 V c).owesAt () t.succ
    ∗ owns (c : Thread nD τ) (ms11_0 t) fullShare ((dat11 V c).after 0 t)
    ∗ owns (c : Thread nD τ) (ms11_1 t) fullShare ((dat11 V c).after 1 t)
    ∗ owns (c : Thread nD τ) (ms11_2 t) fullShare ((dat11 V c).after 2 t)
    ∗ owns (c : Thread nD τ) (ms11_3 t) fullShare ((dat11 V c).after 3 t)
    ∗ owns (c : Thread nD τ) (ms11_4 t) fullShare ((dat11 V c).after 4 t)
    ∗ owns (c : Thread nD τ) (ms11_5 t) fullShare ((dat11 V c).after 5 t)
    ∗ owns (c : Thread nD τ) (ms11_6 t) fullShare ((dat11 V c).after 6 t)
    ∗ owns (c : Thread nD τ) (ms11_7 t) fullShare ((dat11 V c).after 7 t)
    ∗ owns (c : Thread nD τ) (ms11_8 t) fullShare ((dat11 V c).after 8 t)
    ∗ owns (c : Thread nD τ) (ms11_9 t) fullShare ((dat11 V c).after 9 t))

set_option maxHeartbeats 4000000 in
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6, before11_7, before11_8]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7, after11_8, after11_9]
  unfold out11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun11 c (grid11.coords t) _ _ _ _ _ _ _ _ _ _ _ _ _ _ _ _ _ _ _ _ (iblk11 V c 0 t) (iblk11 V c 1 t) (iblk11 V c 2 t) (iblk11 V c 3 t) (iblk11 V c 4 t) (iblk11 V c 5 t) (iblk11 V c 6 t) (iblk11 V c 7 t) (iblk11 V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover11 c _ _ _ _ _ _ _ _ _ _ _ _ _ _ _ _ _ _ _ _ _ _ _ _ _ _ _ _ _ _)

theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.KRun.lean ====
/-
  The whole program as a run: the host stretches and the twelve kernel regions in order, each region entered from
  what the segment before it left. Between two items every unscoped buffer of a core is held at a named valuation:
  the launch memory, then each host stretch's operations applied, then, after a region, the region's arrays at what
  its write-backs leave and every other buffer as entered. No host operation and no region writes an argument
  array, so the last valuation holds every argument as launched; and it holds the result array at what the last
  region's write-backs leave.
-/
import proofs.«180905_j29583734735286_1_alg».proof.Proof.Gen.Kernel.Regions
import proofs.«180905_j29583734735286_1_alg».proof.Proof.KR0B
import proofs.«180905_j29583734735286_1_alg».proof.Proof.KR1B
import proofs.«180905_j29583734735286_1_alg».proof.Proof.KR2B
import proofs.«180905_j29583734735286_1_alg».proof.Proof.KR4B
import proofs.«180905_j29583734735286_1_alg».proof.Proof.KR5B
import proofs.«180905_j29583734735286_1_alg».proof.Proof.KR6B
import proofs.«180905_j29583734735286_1_alg».proof.Proof.KR8B
import proofs.«180905_j29583734735286_1_alg».proof.Proof.KR9B
import proofs.«180905_j29583734735286_1_alg».proof.Proof.KR10B
import proofs.«180905_j29583734735286_1_alg».proof.Proof.KR3
import proofs.«180905_j29583734735286_1_alg».proof.Proof.KR7
import proofs.«180905_j29583734735286_1_alg».proof.Proof.KR11

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)
abbrev W6 : Dev nD → Valuation τ sig (Elt F) := fun c => StableHlo.after hostOps4 (W5 m ρ c)
abbrev V6 : (c : Dev nD) → (b : Ref sig .tc) → Buf (Elt F) ((c : Thread nD τ).loc b) := fun c b => W6 m ρ c b
theorem W6_keep (c : Dev nD) (r : Ref sig .tc) (h : r ∉ hostOps4_W) : W6 m ρ c (Proc.devRef .tc r) = W5 m ρ c (Proc.devRef .tc r) :=
  StableHlo.after_of_writes_sub hostOps4 _ hostOps4_writes h
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
abbrev V7 : (c : Dev nD) → (b : Ref sig .tc) → Buf (Elt F) ((c : Thread nD τ).loc b) := fun c b => W7 m ρ c b
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)
def W8 (c : Dev nD) : Valuation τ sig (Elt F) :=
  Pipeline.withArrays spec5 c (W7 m ρ c) fun w => (dat5 (V7 m ρ) c).arrAt w cfg5.N
theorem W8_arr (c : Dev nD) (w : Fin cfg5.W) :
    W8 m ρ c (Proc.devRef .tc (Pipeline.arrRef spec5 w)) = (dat5 (V7 m ρ) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m ρ c (Proc.devRef .tc b) = W7 m ρ c (Proc.devRef .tc b) := by
  unfold W8; exact Pipeline.withArrays_of_ne spec5 c _ _ b hb
abbrev V8 : (c : Dev nD) → (b : Ref sig .tc) → Buf (Elt F) ((c : Thread nD τ).loc b) := fun c b => W8 m ρ c b
theorem hF5 (c : Dev nD) (w : Fin cfg5.W) : (dat5 (V7 m ρ) c).arrAt w cfg5.N = V8 m ρ c (Pipeline.arrRef spec5 w) :=
  (W8_arr m ρ c w).symm
theorem hrest5 (c : Dev nD) : ∀ b, b ∉ Finset.univ.image (Pipeline.arrRef spec5) → V8 m ρ c b = V7 m ρ c b :=
  fun b hb => W8_of_ne m ρ c b fun w e => hb (Finset.mem_image.mpr ⟨w, Finset.mem_univ _, e⟩)
def W9 (c : Dev nD) : Valuation τ sig (Elt F) :=
  Pipeline.withArrays spec6 c (W8 m ρ c) fun w => (dat6 (V8 m ρ) c).arrAt w cfg6.N
theorem W9_arr (c : Dev nD) (w : Fin cfg6.W) :
    W9 m ρ c (Proc.devRef .tc (Pipeline.arrRef spec6 w)) = (dat6 (V8 m ρ) c).arrAt w cfg6.N := by
  unfold W9; exact Pipeline.withArrays_arr spec6 launch6.win.arr_inj c _ _ w
theorem W9_of_ne (c : Dev nD) (b : Ref sig .tc) (hb : ∀ w, Pipeline.arrRef spec6 w ≠ b) :
    W9 m ρ c (Proc.devRef .tc b) = W8 m ρ c (Proc.devRef .tc b) := by
  unfold W9; exact Pipeline.withArrays_of_ne spec6 c _ _ b hb
abbrev V9 : (c : Dev nD) → (b : Ref sig .tc) → Buf (Elt F) ((c : Thread nD τ).loc b) := fun c b => W9 m ρ c b
theorem hF6 (c : Dev nD) (w : Fin cfg6.W) : (dat6 (V8 m ρ) c).arrAt w cfg6.N = V9 m ρ c (Pipeline.arrRef spec6 w) :=
  (W9_arr m ρ c w).symm
theorem hrest6 (c : Dev nD) : ∀ b, b ∉ Finset.univ.image (Pipeline.arrRef spec6) → V9 m ρ c b = V8 m ρ c b :=
  fun b hb => W9_of_ne m ρ c b fun w e => hb (Finset.mem_image.mpr ⟨w, Finset.mem_univ _, e⟩)
def W10 (c : Dev nD) : Valuation τ sig (Elt F) :=
  Pipeline.withArrays spec7 c (W9 m ρ c) fun w => (dat7 (V9 m ρ) c).arrAt w cfg7.N
theorem W10_arr (c : Dev nD) (w : Fin cfg7.W) :
    W10 m ρ c (Proc.devRef .tc (Pipeline.arrRef spec7 w)) = (dat7 (V9 m ρ) c).arrAt w cfg7.N := by
  unfold W10; exact Pipeline.withArrays_arr spec7 launch7.win.arr_inj c _ _ w
theorem W10_of_ne (c : Dev nD) (b : Ref sig .tc) (hb : ∀ w, Pipeline.arrRef spec7 w ≠ b) :
    W10 m ρ c (Proc.devRef .tc b) = W9 m ρ c (Proc.devRef .tc b) := by
  unfold W10; exact Pipeline.withArrays_of_ne spec7 c _ _ b hb
abbrev V10 : (c : Dev nD) → (b : Ref sig .tc) → Buf (Elt F) ((c : Thread nD τ).loc b) := fun c b => W10 m ρ c b
theorem hF7 (c : Dev nD) (w : Fin cfg7.W) : (dat7 (V9 m ρ) c).arrAt w cfg7.N = V10 m ρ c (Pipeline.arrRef spec7 w) :=
  (W10_arr m ρ c w).symm
theorem hrest7 (c : Dev nD) : ∀ b, b ∉ Finset.univ.image (Pipeline.arrRef spec7) → V10 m ρ c b = V9 m ρ c b :=
  fun b hb => W10_of_ne m ρ c b fun w e => hb (Finset.mem_image.mpr ⟨w, Finset.mem_univ _, e⟩)
abbrev W11 : Dev nD → Valuation τ sig (Elt F) := fun c => StableHlo.after hostOps8 (W10 m ρ c)
abbrev V11 : (c : Dev nD) → (b : Ref sig .tc) → Buf (Elt F) ((c : Thread nD τ).loc b) := fun c b => W11 m ρ c b
theorem W11_keep (c : Dev nD) (r : Ref sig .tc) (h : r ∉ hostOps8_W) : W11 m ρ c (Proc.devRef .tc r) = W10 m ρ c (Proc.devRef .tc r) :=
  StableHlo.after_of_writes_sub hostOps8 _ hostOps8_writes h
def W12 (c : Dev nD) : Valuation τ sig (Elt F) :=
  Pipeline.withArrays spec8 c (W11 m ρ c) fun w => (dat8 (V11 m ρ) c).arrAt w cfg8.N
theorem W12_arr (c : Dev nD) (w : Fin cfg8.W) :
    W12 m ρ c (Proc.devRef .tc (Pipeline.arrRef spec8 w)) = (dat8 (V11 m ρ) c).arrAt w cfg8.N := by
  unfold W12; exact Pipeline.withArrays_arr spec8 launch8.win.arr_inj c _ _ w
theorem W12_of_ne (c : Dev nD) (b : Ref sig .tc) (hb : ∀ w, Pipeline.arrRef spec8 w ≠ b) :
    W12 m ρ c (Proc.devRef .tc b) = W11 m ρ c (Proc.devRef .tc b) := by
  unfold W12; exact Pipeline.withArrays_of_ne spec8 c _ _ b hb
abbrev V12 : (c : Dev nD) → (b : Ref sig .tc) → Buf (Elt F) ((c : Thread nD τ).loc b) := fun c b => W12 m ρ c b
theorem hF8 (c : Dev nD) (w : Fin cfg8.W) : (dat8 (V11 m ρ) c).arrAt w cfg8.N = V12 m ρ c (Pipeline.arrRef spec8 w) :=
  (W12_arr m ρ c w).symm
theorem hrest8 (c : Dev nD) : ∀ b, b ∉ Finset.univ.image (Pipeline.arrRef spec8) → V12 m ρ c b = V11 m ρ c b :=
  fun b hb => W12_of_ne m ρ c b fun w e => hb (Finset.mem_image.mpr ⟨w, Finset.mem_univ _, e⟩)
def W13 (c : Dev nD) : Valuation τ sig (Elt F) :=
  Pipeline.withArrays spec9 c (W12 m ρ c) fun w => (dat9 (V12 m ρ) c).arrAt w cfg9.N
theorem W13_arr (c : Dev nD) (w : Fin cfg9.W) :
    W13 m ρ c (Proc.devRef .tc (Pipeline.arrRef spec9 w)) = (dat9 (V12 m ρ) c).arrAt w cfg9.N := by
  unfold W13; exact Pipeline.withArrays_arr spec9 launch9.win.arr_inj c _ _ w
theorem W13_of_ne (c : Dev nD) (b : Ref sig .tc) (hb : ∀ w, Pipeline.arrRef spec9 w ≠ b) :
    W13 m ρ c (Proc.devRef .tc b) = W12 m ρ c (Proc.devRef .tc b) := by
  unfold W13; exact Pipeline.withArrays_of_ne spec9 c _ _ b hb
abbrev V13 : (c : Dev nD) → (b : Ref sig .tc) → Buf (Elt F) ((c : Thread nD τ).loc b) := fun c b => W13 m ρ c b
theorem hF9 (c : Dev nD) (w : Fin cfg9.W) : (dat9 (V12 m ρ) c).arrAt w cfg9.N = V13 m ρ c (Pipeline.arrRef spec9 w) :=
  (W13_arr m ρ c w).symm
theorem hrest9 (c : Dev nD) : ∀ b, b ∉ Finset.univ.image (Pipeline.arrRef spec9) → V13 m ρ c b = V12 m ρ c b :=
  fun b hb => W13_of_ne m ρ c b fun w e => hb (Finset.mem_image.mpr ⟨w, Finset.mem_univ _, e⟩)
def W14 (c : Dev nD) : Valuation τ sig (Elt F) :=
  Pipeline.withArrays spec10 c (W13 m ρ c) fun w => (dat10 (V13 m ρ) c).arrAt w cfg10.N
theorem W14_arr (c : Dev nD) (w : Fin cfg10.W) :
    W14 m ρ c (Proc.devRef .tc (Pipeline.arrRef spec10 w)) = (dat10 (V13 m ρ) c).arrAt w cfg10.N := by
  unfold W14; exact Pipeline.withArrays_arr spec10 launch10.win.arr_inj c _ _ w
theorem W14_of_ne (c : Dev nD) (b : Ref sig .tc) (hb : ∀ w, Pipeline.arrRef spec10 w ≠ b) :
    W14 m ρ c (Proc.devRef .tc b) = W13 m ρ c (Proc.devRef .tc b) := by
  unfold W14; exact Pipeline.withArrays_of_ne spec10 c _ _ b hb
abbrev V14 : (c : Dev nD) → (b : Ref sig .tc) → Buf (Elt F) ((c : Thread nD τ).loc b) := fun c b => W14 m ρ c b
theorem hF10 (c : Dev nD) (w : Fin cfg10.W) : (dat10 (V13 m ρ) c).arrAt w cfg10.N = V14 m ρ c (Pipeline.arrRef spec10 w) :=
  (W14_arr m ρ c w).symm
theorem hrest10 (c : Dev nD) : ∀ b, b ∉ Finset.univ.image (Pipeline.arrRef spec10) → V14 m ρ c b = V13 m ρ c b :=
  fun b hb => W14_of_ne m ρ c b fun w e => hb (Finset.mem_image.mpr ⟨w, Finset.mem_univ _, e⟩)
def W15 (c : Dev nD) : Valuation τ sig (Elt F) :=
  Pipeline.withArrays spec11 c (W14 m ρ c) fun w => (dat11 (V14 m ρ) c).arrAt w cfg11.N
theorem W15_arr (c : Dev nD) (w : Fin cfg11.W) :
    W15 m ρ c (Proc.devRef .tc (Pipeline.arrRef spec11 w)) = (dat11 (V14 m ρ) c).arrAt w cfg11.N := by
  unfold W15; exact Pipeline.withArrays_arr spec11 launch11.win.arr_inj c _ _ w
theorem W15_of_ne (c : Dev nD) (b : Ref sig .tc) (hb : ∀ w, Pipeline.arrRef spec11 w ≠ b) :
    W15 m ρ c (Proc.devRef .tc b) = W14 m ρ c (Proc.devRef .tc b) := by
  unfold W15; exact Pipeline.withArrays_of_ne spec11 c _ _ b hb
abbrev V15 : (c : Dev nD) → (b : Ref sig .tc) → Buf (Elt F) ((c : Thread nD τ).loc b) := fun c b => W15 m ρ c b
theorem hF11 (c : Dev nD) (w : Fin cfg11.W) : (dat11 (V14 m ρ) c).arrAt w cfg11.N = V15 m ρ c (Pipeline.arrRef spec11 w) :=
  (W15_arr m ρ c w).symm
theorem hrest11 (c : Dev nD) : ∀ b, b ∉ Finset.univ.image (Pipeline.arrRef spec11) → V15 m ρ c b = V14 m ρ c b :=
  fun b hb => W15_of_ne m ρ c b fun w e => hb (Finset.mem_image.mpr ⟨w, Finset.mem_univ _, e⟩)
theorem W15_main_arg0 (c : Dev nD) : W15 m ρ c (Proc.devRef .tc main_arg0) = m ((c : Thread nD τ).loc main_arg0) :=
  (W15_of_ne m ρ c main_arg0 (by decide)).trans <| (W14_of_ne m ρ c main_arg0 (by decide)).trans <| (W13_of_ne m ρ c main_arg0 (by decide)).trans <| (W12_of_ne m ρ c main_arg0 (by decide)).trans <| (W11_keep m ρ c main_arg0 (by decide)).trans <| (W10_of_ne m ρ c main_arg0 (by decide)).trans <| (W9_of_ne m ρ c main_arg0 (by decide)).trans <| (W8_of_ne m ρ c main_arg0 (by decide)).trans <| (W7_of_ne m ρ c main_arg0 (by decide)).trans <| (W6_keep m ρ c main_arg0 (by decide)).trans <| (W5_of_ne m ρ c main_arg0 (by decide)).trans <| (W4_of_ne m ρ c main_arg0 (by decide)).trans <| (W3_of_ne m ρ c main_arg0 (by decide)).trans <| (W2_of_ne m ρ c main_arg0 (by decide)).trans <| (W1_keep m ρ c main_arg0 (by decide)).trans <| rfl
theorem W15_main_arg1 (c : Dev nD) : W15 m ρ c (Proc.devRef .tc main_arg1) = m ((c : Thread nD τ).loc main_arg1) :=
  (W15_of_ne m ρ c main_arg1 (by decide)).trans <| (W14_of_ne m ρ c main_arg1 (by decide)).trans <| (W13_of_ne m ρ c main_arg1 (by decide)).trans <| (W12_of_ne m ρ c main_arg1 (by decide)).trans <| (W11_keep m ρ c main_arg1 (by decide)).trans <| (W10_of_ne m ρ c main_arg1 (by decide)).trans <| (W9_of_ne m ρ c main_arg1 (by decide)).trans <| (W8_of_ne m ρ c main_arg1 (by decide)).trans <| (W7_of_ne m ρ c main_arg1 (by decide)).trans <| (W6_keep m ρ c main_arg1 (by decide)).trans <| (W5_of_ne m ρ c main_arg1 (by decide)).trans <| (W4_of_ne m ρ c main_arg1 (by decide)).trans <| (W3_of_ne m ρ c main_arg1 (by decide)).trans <| (W2_of_ne m ρ c main_arg1 (by decide)).trans <| (W1_keep m ρ c main_arg1 (by decide)).trans <| rfl
theorem W15_main_arg2 (c : Dev nD) : W15 m ρ c (Proc.devRef .tc main_arg2) = m ((c : Thread nD τ).loc main_arg2) :=
  (W15_of_ne m ρ c main_arg2 (by decide)).trans <| (W14_of_ne m ρ c main_arg2 (by decide)).trans <| (W13_of_ne m ρ c main_arg2 (by decide)).trans <| (W12_of_ne m ρ c main_arg2 (by decide)).trans <| (W11_keep m ρ c main_arg2 (by decide)).trans <| (W10_of_ne m ρ c main_arg2 (by decide)).trans <| (W9_of_ne m ρ c main_arg2 (by decide)).trans <| (W8_of_ne m ρ c main_arg2 (by decide)).trans <| (W7_of_ne m ρ c main_arg2 (by decide)).trans <| (W6_keep m ρ c main_arg2 (by decide)).trans <| (W5_of_ne m ρ c main_arg2 (by decide)).trans <| (W4_of_ne m ρ c main_arg2 (by decide)).trans <| (W3_of_ne m ρ c main_arg2 (by decide)).trans <| (W2_of_ne m ρ c main_arg2 (by decide)).trans <| (W1_keep m ρ c main_arg2 (by decide)).trans <| rfl
theorem W15_main_arg3 (c : Dev nD) : W15 m ρ c (Proc.devRef .tc main_arg3) = m ((c : Thread nD τ).loc main_arg3) :=
  (W15_of_ne m ρ c main_arg3 (by decide)).trans <| (W14_of_ne m ρ c main_arg3 (by decide)).trans <| (W13_of_ne m ρ c main_arg3 (by decide)).trans <| (W12_of_ne m ρ c main_arg3 (by decide)).trans <| (W11_keep m ρ c main_arg3 (by decide)).trans <| (W10_of_ne m ρ c main_arg3 (by decide)).trans <| (W9_of_ne m ρ c main_arg3 (by decide)).trans <| (W8_of_ne m ρ c main_arg3 (by decide)).trans <| (W7_of_ne m ρ c main_arg3 (by decide)).trans <| (W6_keep m ρ c main_arg3 (by decide)).trans <| (W5_of_ne m ρ c main_arg3 (by decide)).trans <| (W4_of_ne m ρ c main_arg3 (by decide)).trans <| (W3_of_ne m ρ c main_arg3 (by decide)).trans <| (W2_of_ne m ρ c main_arg3 (by decide)).trans <| (W1_keep m ρ c main_arg3 (by decide)).trans <| rfl
theorem W15_main_arg4 (c : Dev nD) : W15 m ρ c (Proc.devRef .tc main_arg4) = m ((c : Thread nD τ).loc main_arg4) :=
  (W15_of_ne m ρ c main_arg4 (by decide)).trans <| (W14_of_ne m ρ c main_arg4 (by decide)).trans <| (W13_of_ne m ρ c main_arg4 (by decide)).trans <| (W12_of_ne m ρ c main_arg4 (by decide)).trans <| (W11_keep m ρ c main_arg4 (by decide)).trans <| (W10_of_ne m ρ c main_arg4 (by decide)).trans <| (W9_of_ne m ρ c main_arg4 (by decide)).trans <| (W8_of_ne m ρ c main_arg4 (by decide)).trans <| (W7_of_ne m ρ c main_arg4 (by decide)).trans <| (W6_keep m ρ c main_arg4 (by decide)).trans <| (W5_of_ne m ρ c main_arg4 (by decide)).trans <| (W4_of_ne m ρ c main_arg4 (by decide)).trans <| (W3_of_ne m ρ c main_arg4 (by decide)).trans <| (W2_of_ne m ρ c main_arg4 (by decide)).trans <| (W1_keep m ρ c main_arg4 (by decide)).trans <| rfl
theorem W15_main_arg5 (c : Dev nD) : W15 m ρ c (Proc.devRef .tc main_arg5) = m ((c : Thread nD τ).loc main_arg5) :=
  (W15_of_ne m ρ c main_arg5 (by decide)).trans <| (W14_of_ne m ρ c main_arg5 (by decide)).trans <| (W13_of_ne m ρ c main_arg5 (by decide)).trans <| (W12_of_ne m ρ c main_arg5 (by decide)).trans <| (W11_keep m ρ c main_arg5 (by decide)).trans <| (W10_of_ne m ρ c main_arg5 (by decide)).trans <| (W9_of_ne m ρ c main_arg5 (by decide)).trans <| (W8_of_ne m ρ c main_arg5 (by decide)).trans <| (W7_of_ne m ρ c main_arg5 (by decide)).trans <| (W6_keep m ρ c main_arg5 (by decide)).trans <| (W5_of_ne m ρ c main_arg5 (by decide)).trans <| (W4_of_ne m ρ c main_arg5 (by decide)).trans <| (W3_of_ne m ρ c main_arg5 (by decide)).trans <| (W2_of_ne m ρ c main_arg5 (by decide)).trans <| (W1_keep m ρ c main_arg5 (by decide)).trans <| rfl
theorem W15_main_arg6 (c : Dev nD) : W15 m ρ c (Proc.devRef .tc main_arg6) = m ((c : Thread nD τ).loc main_arg6) :=
  (W15_of_ne m ρ c main_arg6 (by decide)).trans <| (W14_of_ne m ρ c main_arg6 (by decide)).trans <| (W13_of_ne m ρ c main_arg6 (by decide)).trans <| (W12_of_ne m ρ c main_arg6 (by decide)).trans <| (W11_keep m ρ c main_arg6 (by decide)).trans <| (W10_of_ne m ρ c main_arg6 (by decide)).trans <| (W9_of_ne m ρ c main_arg6 (by decide)).trans <| (W8_of_ne m ρ c main_arg6 (by decide)).trans <| (W7_of_ne m ρ c main_arg6 (by decide)).trans <| (W6_keep m ρ c main_arg6 (by decide)).trans <| (W5_of_ne m ρ c main_arg6 (by decide)).trans <| (W4_of_ne m ρ c main_arg6 (by decide)).trans <| (W3_of_ne m ρ c main_arg6 (by decide)).trans <| (W2_of_ne m ρ c main_arg6 (by decide)).trans <| (W1_keep m ρ c main_arg6 (by decide)).trans <| rfl
theorem W15_main_arg7 (c : Dev nD) : W15 m ρ c (Proc.devRef .tc main_arg7) = m ((c : Thread nD τ).loc main_arg7) :=
  (W15_of_ne m ρ c main_arg7 (by decide)).trans <| (W14_of_ne m ρ c main_arg7 (by decide)).trans <| (W13_of_ne m ρ c main_arg7 (by decide)).trans <| (W12_of_ne m ρ c main_arg7 (by decide)).trans <| (W11_keep m ρ c main_arg7 (by decide)).trans <| (W10_of_ne m ρ c main_arg7 (by decide)).trans <| (W9_of_ne m ρ c main_arg7 (by decide)).trans <| (W8_of_ne m ρ c main_arg7 (by decide)).trans <| (W7_of_ne m ρ c main_arg7 (by decide)).trans <| (W6_keep m ρ c main_arg7 (by decide)).trans <| (W5_of_ne m ρ c main_arg7 (by decide)).trans <| (W4_of_ne m ρ c main_arg7 (by decide)).trans <| (W3_of_ne m ρ c main_arg7 (by decide)).trans <| (W2_of_ne m ρ c main_arg7 (by decide)).trans <| (W1_keep m ρ c main_arg7 (by decide)).trans <| rfl
theorem W15_main_arg8 (c : Dev nD) : W15 m ρ c (Proc.devRef .tc main_arg8) = m ((c : Thread nD τ).loc main_arg8) :=
  (W15_of_ne m ρ c main_arg8 (by decide)).trans <| (W14_of_ne m ρ c main_arg8 (by decide)).trans <| (W13_of_ne m ρ c main_arg8 (by decide)).trans <| (W12_of_ne m ρ c main_arg8 (by decide)).trans <| (W11_keep m ρ c main_arg8 (by decide)).trans <| (W10_of_ne m ρ c main_arg8 (by decide)).trans <| (W9_of_ne m ρ c main_arg8 (by decide)).trans <| (W8_of_ne m ρ c main_arg8 (by decide)).trans <| (W7_of_ne m ρ c main_arg8 (by decide)).trans <| (W6_keep m ρ c main_arg8 (by decide)).trans <| (W5_of_ne m ρ c main_arg8 (by decide)).trans <| (W4_of_ne m ρ c main_arg8 (by decide)).trans <| (W3_of_ne m ρ c main_arg8 (by decide)).trans <| (W2_of_ne m ρ c main_arg8 (by decide)).trans <| (W1_keep m ρ c main_arg8 (by decide)).trans <| rfl
theorem W15_main_arg9 (c : Dev nD) : W15 m ρ c (Proc.devRef .tc main_arg9) = m ((c : Thread nD τ).loc main_arg9) :=
  (W15_of_ne m ρ c main_arg9 (by decide)).trans <| (W14_of_ne m ρ c main_arg9 (by decide)).trans <| (W13_of_ne m ρ c main_arg9 (by decide)).trans <| (W12_of_ne m ρ c main_arg9 (by decide)).trans <| (W11_keep m ρ c main_arg9 (by decide)).trans <| (W10_of_ne m ρ c main_arg9 (by decide)).trans <| (W9_of_ne m ρ c main_arg9 (by decide)).trans <| (W8_of_ne m ρ c main_arg9 (by decide)).trans <| (W7_of_ne m ρ c main_arg9 (by decide)).trans <| (W6_keep m ρ c main_arg9 (by decide)).trans <| (W5_of_ne m ρ c main_arg9 (by decide)).trans <| (W4_of_ne m ρ c main_arg9 (by decide)).trans <| (W3_of_ne m ρ c main_arg9 (by decide)).trans <| (W2_of_ne m ρ c main_arg9 (by decide)).trans <| (W1_keep m ρ c main_arg9 (by decide)).trans <| rfl
theorem W15_main_arg10 (c : Dev nD) : W15 m ρ c (Proc.devRef .tc main_arg10) = m ((c : Thread nD τ).loc main_arg10) :=
  (W15_of_ne m ρ c main_arg10 (by decide)).trans <| (W14_of_ne m ρ c main_arg10 (by decide)).trans <| (W13_of_ne m ρ c main_arg10 (by decide)).trans <| (W12_of_ne m ρ c main_arg10 (by decide)).trans <| (W11_keep m ρ c main_arg10 (by decide)).trans <| (W10_of_ne m ρ c main_arg10 (by decide)).trans <| (W9_of_ne m ρ c main_arg10 (by decide)).trans <| (W8_of_ne m ρ c main_arg10 (by decide)).trans <| (W7_of_ne m ρ c main_arg10 (by decide)).trans <| (W6_keep m ρ c main_arg10 (by decide)).trans <| (W5_of_ne m ρ c main_arg10 (by decide)).trans <| (W4_of_ne m ρ c main_arg10 (by decide)).trans <| (W3_of_ne m ρ c main_arg10 (by decide)).trans <| (W2_of_ne m ρ c main_arg10 (by decide)).trans <| (W1_keep m ρ c main_arg10 (by decide)).trans <| rfl

abbrev adm : (p : Fin 12) → (pcfgs (F := F) p).Adm := fun p => (cfgs p).toPCfg_adm
def pdats : (p : Fin 12) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V6 m ρ) c
  | ⟨5, _⟩ => fun c => dat5 (V7 m ρ) c
  | ⟨6, _⟩ => fun c => dat6 (V8 m ρ) c
  | ⟨7, _⟩ => fun c => dat7 (V9 m ρ) c
  | ⟨8, _⟩ => fun c => dat8 (V11 m ρ) c
  | ⟨9, _⟩ => fun c => dat9 (V12 m ρ) c
  | ⟨10, _⟩ => fun c => dat10 (V13 m ρ) c
  | ⟨11, _⟩ => fun c => dat11 (V14 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W15 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ (Pipeline.ΦA spec2 c : sProp 𝕄) from hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m ρ 4 c).Φ (Fin.last _) ⊢ (Pipeline.ΦA spec4 c : sProp 𝕄) from hout4 (V6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V7 m ρ) c).loose
  hwaits := Pipeline.hwaits_of_owed_zero _ _ _ _ L lv 5 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec5 c (V7 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (show (pdats m ρ 5 c).Φ (Fin.last _) ⊢ (Pipeline.ΦA spec5 c : sProp 𝕄) from hout5 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V7 m ρ c) (V8 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V8 m ρ) c).loose
  hwaits := Pipeline.hwaits_of_owed_zero _ _ _ _ L lv 6 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec6 c (V8 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none]
    refine (show (pdats m ρ 6 c).Φ (Fin.last _) ⊢ (Pipeline.ΦA spec6 c : sProp 𝕄) from hout6 (V8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V8 m ρ c) (V9 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V9 m ρ) c).loose
  hwaits := Pipeline.hwaits_of_owed_zero _ _ _ _ L lv 7 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec7 c (V9 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V9 m ρ c) (V10 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V11 m ρ) c).loose
  hwaits := Pipeline.hwaits_of_owed_zero _ _ _ _ L lv 8 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec8 c (V11 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none]
    refine (show (pdats m ρ 8 c).Φ (Fin.last _) ⊢ (Pipeline.ΦA spec8 c : sProp 𝕄) from hout8 (V11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V11 m ρ c) (V12 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V12 m ρ) c).loose
  hwaits := Pipeline.hwaits_of_owed_zero _ _ _ _ L lv 9 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec9 c (V12 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none]
    refine (show (pdats m ρ 9 c).Φ (Fin.last _) ⊢ (Pipeline.ΦA spec9 c : sProp 𝕄) from hout9 (V12 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V12 m ρ c) (V13 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V13 m ρ) c).loose
  hwaits := Pipeline.hwaits_of_owed_zero _ _ _ _ L lv 10 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec10 c (V13 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none]
    refine (show (pdats m ρ 10 c).Φ (Fin.last _) ⊢ (Pipeline.ΦA spec10 c : sProp 𝕄) from hout10 (V13 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V13 m ρ c) (V14 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V14 m ρ) c).loose
  hwaits := Pipeline.hwaits_of_owed_zero _ _ _ _ L lv 11 fun _ _ => rfl
  pre c := iprop(StableHlo.held (c : Thread nD τ) (Pipeline.ucRefs τ sig) (W14 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec11 c (V14 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V14 m ρ c) (V15 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .host (hseg hostOps4 hostOps4_sub hostOps4_fresh (W5 m ρ)),
    .region (reg4 m ρ),
    .region (reg5 m ρ),
    .region (reg6 m ρ),
    .region (reg7 m ρ),
    .host (hseg hostOps8 hostOps8_sub hostOps8_fresh (W10 m ρ)),
    .region (reg8 m ρ),
    .region (reg9 m ρ),
    .region (reg10 m ρ),
    .region (reg11 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c)⟩) (run_all m ρ)

end Cert.Kernel.Hand

end
-- ==== Proof.RefRun.lean ====
/-
  The reference's program as a straight line of host operations and its run.

  The reference is three layers of: a gather of the source rows of h, their product with the edge weights, a
  scatter-add into the destination rows, x = h + that; lin1 = x · W0; the column mean and the two-pass variance of
  lin1 (the variance is an outlined function whose guard N − ddof > 0 picks the quotient), the centred batch norm
  and a rectifier; lin2 = (·) · W1, the same again; a third batch norm, and a rectifier except in the last layer.
  Here the calls are written out at their call sites over each call's own buffers, the program is shown to be the
  run of that one list, and so every weakly fair execution ends with every buffer at the list's fold over the launch
  contents; no operation writes an argument.
-/
import proofs.«180905_j29583734735286_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg2 main_v11 (broadcastInDim S600000x1 ![0] bcast_S600000_S600000x1_0 : (⟨S600000, .f32⟩ : BufTy).Contents (Elt F) → (⟨S600000x1, .f32⟩ : BufTy).Contents (Elt F)),
    StableHlo.unary main_v11 main_v12 (broadcastInDim S600000x128 ![0, 1] bcast_S600000x1_S600000x128_0_1 : (⟨S600000x1, .f32⟩ : BufTy).Contents (Elt F) → (⟨S600000x128, .f32⟩ : BufTy).Contents (Elt F)),
    StableHlo.binary main_v10 main_v12 main_v13 (mulf : (⟨S600000x128, .f32⟩ : BufTy).Contents (Elt F) → (⟨S600000x128, .f32⟩ : BufTy).Contents (Elt F) → (⟨S600000x128, .f32⟩ : BufTy).Contents (Elt F)),
    StableHlo.nullary main_cst (constant S_ .f32 0x00000000#32),
    StableHlo.unary main_cst main_v14 (broadcastInDim S50000x128 ![] bcast_S_S50000x128 : (⟨S_, .f32⟩ : BufTy).Contents (Elt F) → (⟨S50000x128, .f32⟩ : BufTy).Contents (Elt F)),
    StableHlo.unary main_v3 main_v15 (broadcastInDim S600000x1 ![0] bcast_S600000_S600000x1_0 : (⟨S600000, .i32⟩ : BufTy).Contents (Elt F) → (⟨S600000x1, .i32⟩ : BufTy).Contents (Elt F)),
    StableHlo.ternary main_v14 main_v15 main_v13 main_v16 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v16 main_v17 (addf : (⟨S50000x128, .f32⟩ : BufTy).Contents (Elt F) → (⟨S50000x128, .f32⟩ : BufTy).Contents (Elt F) → (⟨S50000x128, .f32⟩ : BufTy).Contents (Elt F)),
    StableHlo.unary main_arg3 main_v18 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v18 main_v19 rfl shapeCasts_S1x128x128_S128x128,
    StableHlo.binary main_v17 main_v19 main_v20 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v21 ((extractStridedSlice S1x128 ![0, 0] · slices_S3x128_S1x128_0_0) : (⟨S3x128, .f32⟩ : BufTy).Contents (Elt F) → (⟨S1x128, .f32⟩ : BufTy).Contents (Elt F)),
    StableHlo.reshape main_v21 main_v22 rfl shapeCasts_S1x128_S128,
    StableHlo.unary main_arg6 main_v23 ((extractStridedSlice S1x128 ![0, 0] · slices_S3x128_S1x128_0_0) : (⟨S3x128, .f32⟩ : BufTy).Contents (Elt F) → (⟨S1x128, .f32⟩ : BufTy).Contents (Elt F)),
    StableHlo.reshape main_v23 main_v24 rfl shapeCasts_S1x128_S128,
    StableHlo.nullary main_cst_1 (constant S_ .f32 0x00000000#32),
    StableHlo.binary main_v20 main_cst_1 main_v25 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v20) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v20) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v27 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v20 main_v30 main_v31 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v32 (broadcastInDim S128 ![] bcast_S_S128 : (⟨S_, .f32⟩ : BufTy).Contents (Elt F) → (⟨S128, .f32⟩ : BufTy).Contents (Elt F)),
    StableHlo.binary main_v28 main_v32 main_v33 (addf : (⟨S128, .f32⟩ : BufTy).Contents (Elt F) → (⟨S128, .f32⟩ : BufTy).Contents (Elt F) → (⟨S128, .f32⟩ : BufTy).Contents (Elt F)),
    StableHlo.unary main_v33 main_v34 (Host.rsqrt : (⟨S128, .f32⟩ : BufTy).Contents (Elt F) → (⟨S128, .f32⟩ : BufTy).Contents (Elt F)),
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v36 main_v37 (mulf : (⟨S50000x128, .f32⟩ : BufTy).Contents (Elt F) → (⟨S50000x128, .f32⟩ : BufTy).Contents (Elt F) → (⟨S50000x128, .f32⟩ : BufTy).Contents (Elt F)),
    StableHlo.unary main_v22 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v39 main_v40 (mulf : (⟨S50000x128, .f32⟩ : BufTy).Contents (Elt F) → (⟨S50000x128, .f32⟩ : BufTy).Contents (Elt F) → (⟨S50000x128, .f32⟩ : BufTy).Contents (Elt F)),
    StableHlo.unary main_v24 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v43) main_call1.v0 main_call1.v1 maximumf,
    StableHlo.unary main_arg4 main_v45 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v45 main_v46 rfl shapeCasts_S1x128x128_S128x128,
    StableHlo.binary main_v44 main_v46 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v48 ((extractStridedSlice S1x128 ![0, 0] · slices_S3x128_S1x128_0_0) : (⟨S3x128, .f32⟩ : BufTy).Contents (Elt F) → (⟨S1x128, .f32⟩ : BufTy).Contents (Elt F)),
    StableHlo.reshape main_v48 main_v49 rfl shapeCasts_S1x128_S128,
    StableHlo.unary main_arg8 main_v50 ((extractStridedSlice S1x128 ![0, 0] · slices_S3x128_S1x128_0_0) : (⟨S3x128, .f32⟩ : BufTy).Contents (Elt F) → (⟨S1x128, .f32⟩ : BufTy).Contents (Elt F)),
    StableHlo.reshape main_v50 main_v51 rfl shapeCasts_S1x128_S128,
    StableHlo.nullary main_cst_5 (constant S_ .f32 0x00000000#32) ]

set_option maxRecDepth 16384 in
set_option maxHeartbeats 4000000 in
theorem part0_eq (d : Dev nD) : main_part0 (F := F) d = seq ops0 := by
  simp only [main_part0, fn_var.body, fn_where.body, fn_relu.body, seq, bind_assoc, pure_bind]
  all_goals rfl

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., reshape_bufs_sub .., nullary_bufs_sub ..⟩

abbrev ops1 : List (HloOp τ sig (Elt F)) :=
  [ StableHlo.binary main_v47 main_cst_5 main_v52 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v53 (broadcastInDim S128 ![] bcast_S_S128 : (⟨S_, .f32⟩ : BufTy).Contents (Elt F) → (⟨S128, .f32⟩ : BufTy).Contents (Elt F)),
    StableHlo.binary main_v52 main_v53 main_v54 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (.of main_v47) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v47) main_call2.v4 main_call2.v5 subf,
    StableHlo.TRef.binary main_call2.v5 main_call2.v5 main_call2.v6 mulf,
    StableHlo.TRef.unary (.of main_c_7) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v54 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v57 main_v58 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v59 (broadcastInDim S128 ![] bcast_S_S128 : (⟨S_, .f32⟩ : BufTy).Contents (Elt F) → (⟨S128, .f32⟩ : BufTy).Contents (Elt F)),
    StableHlo.binary main_v55 main_v59 main_v60 (addf : (⟨S128, .f32⟩ : BufTy).Contents (Elt F) → (⟨S128, .f32⟩ : BufTy).Contents (Elt F) → (⟨S128, .f32⟩ : BufTy).Contents (Elt F)),
    StableHlo.unary main_v60 main_v61 (Host.rsqrt : (⟨S128, .f32⟩ : BufTy).Contents (Elt F) → (⟨S128, .f32⟩ : BufTy).Contents (Elt F)),
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v63 main_v64 (mulf : (⟨S50000x128, .f32⟩ : BufTy).Contents (Elt F) → (⟨S50000x128, .f32⟩ : BufTy).Contents (Elt F) → (⟨S50000x128, .f32⟩ : BufTy).Contents (Elt F)),
    StableHlo.unary main_v49 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (mulf : (⟨S50000x128, .f32⟩ : BufTy).Contents (Elt F) → (⟨S50000x128, .f32⟩ : BufTy).Contents (Elt F) → (⟨S50000x128, .f32⟩ : BufTy).Contents (Elt F)),
    StableHlo.unary main_v51 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v69 main_v70 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v70) main_call3.v0 main_call3.v1 maximumf,
    StableHlo.unary main_arg9 main_v72 ((extractStridedSlice S1x128 ![0, 0] · slices_S3x128_S1x128_0_0) : (⟨S3x128, .f32⟩ : BufTy).Contents (Elt F) → (⟨S1x128, .f32⟩ : BufTy).Contents (Elt F)),
    StableHlo.reshape main_v72 main_v73 rfl shapeCasts_S1x128_S128,
    StableHlo.unary main_arg10 main_v74 ((extractStridedSlice S1x128 ![0, 0] · slices_S3x128_S1x128_0_0) : (⟨S3x128, .f32⟩ : BufTy).Contents (Elt F) → (⟨S1x128, .f32⟩ : BufTy).Contents (Elt F)),
    StableHlo.reshape main_v74 main_v75 rfl shapeCasts_S1x128_S128,
    StableHlo.nullary main_cst_9 (constant S_ .f32 0x00000000#32),
    StableHlo.binary main_v71 main_cst_9 main_v76 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v77 (broadcastInDim S128 ![] bcast_S_S128 : (⟨S_, .f32⟩ : BufTy).Contents (Elt F) → (⟨S128, .f32⟩ : BufTy).Contents (Elt F)),
    StableHlo.binary main_v76 main_v77 main_v78 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call4.cst (constant S_ .f32 0x00000000#32),
    StableHlo.TRef.binary (.of main_v71) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v71) main_call4.v4 main_call4.v5 subf,
    StableHlo.TRef.binary main_call4.v5 main_call4.v5 main_call4.v6 mulf,
    StableHlo.TRef.unary (.of main_c_11) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v78 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v81 main_v82 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v83 (broadcastInDim S128 ![] bcast_S_S128 : (⟨S_, .f32⟩ : BufTy).Contents (Elt F) → (⟨S128, .f32⟩ : BufTy).Contents (Elt F)),
    StableHlo.binary main_v79 main_v83 main_v84 (addf : (⟨S128, .f32⟩ : BufTy).Contents (Elt F) → (⟨S128, .f32⟩ : BufTy).Contents (Elt F) → (⟨S128, .f32⟩ : BufTy).Contents (Elt F)),
    StableHlo.unary main_v84 main_v85 (Host.rsqrt : (⟨S128, .f32⟩ : BufTy).Contents (Elt F) → (⟨S128, .f32⟩ : BufTy).Contents (Elt F)),
    StableHlo.unary main_v85 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v87 main_v88 (mulf : (⟨S50000x128, .f32⟩ : BufTy).Contents (Elt F) → (⟨S50000x128, .f32⟩ : BufTy).Contents (Elt F) → (⟨S50000x128, .f32⟩ : BufTy).Contents (Elt F)),
    StableHlo.unary main_v73 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v90 main_v91 (mulf : (⟨S50000x128, .f32⟩ : BufTy).Contents (Elt F) → (⟨S50000x128, .f32⟩ : BufTy).Contents (Elt F) → (⟨S50000x128, .f32⟩ : BufTy).Contents (Elt F)),
    StableHlo.unary main_v75 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v91 main_v93 main_v94 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v94) main_call5.v0 main_call5.v1 maximumf,
    StableHlo.nullary main_c_13 (constantI S_ 32 0#32),
    StableHlo.unary main_c_13 main_v96 (broadcastInDim S600000 ![] bcast_S_S600000 : (⟨S_, .i32⟩ : BufTy).Contents (Elt F) → (⟨S600000, .i32⟩ : BufTy).Contents (Elt F)),
    StableHlo.binary main_v1 main_v96 main_v97 (cmpi .slt : (⟨S600000, .i32⟩ : BufTy).Contents (Elt F) → (⟨S600000, .i32⟩ : BufTy).Contents (Elt F) → (⟨S600000, .i1⟩ : BufTy).Contents (Elt F)),
    StableHlo.nullary main_c_14 (constantI S_ 32 50000#32),
    StableHlo.unary main_c_14 main_v98 (broadcastInDim S600000 ![] bcast_S_S600000 : (⟨S_, .i32⟩ : BufTy).Contents (Elt F) → (⟨S600000, .i32⟩ : BufTy).Contents (Elt F)),
    StableHlo.binary main_v1 main_v98 main_v99 (addi : (⟨S600000, .i32⟩ : BufTy).Contents (Elt F) → (⟨S600000, .i32⟩ : BufTy).Contents (Elt F) → (⟨S600000, .i32⟩ : BufTy).Contents (Elt F)),
    StableHlo.ternary main_v97 main_v99 main_v1 main_v100 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v100 main_v101 (broadcastInDim S600000x1 ![0] bcast_S600000_S600000x1_0 : (⟨S600000, .i32⟩ : BufTy).Contents (Elt F) → (⟨S600000x1, .i32⟩ : BufTy).Contents (Elt F)),
    StableHlo.binary main_v95 main_v101 main_v102 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]

set_option maxRecDepth 16384 in
set_option maxHeartbeats 4000000 in
theorem part1_eq (d : Dev nD) : main_part1 (F := F) d = seq ops1 := by
  simp only [main_part1, fn_var.body, fn_where.body, fn_relu.body, seq, bind_assoc, pure_bind]
  all_goals rfl

theorem ops1_sub : (ops1 : List (HloOp τ sig (Elt F))).Forall fun op => op.bufs ⊆ tcRefs τ sig :=
  ⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

abbrev ops2 : List (HloOp τ sig (Elt F)) :=
  [ StableHlo.unary main_arg2 main_v103 (broadcastInDim S600000x1 ![0] bcast_S600000_S600000x1_0 : (⟨S600000, .f32⟩ : BufTy).Contents (Elt F) → (⟨S600000x1, .f32⟩ : BufTy).Contents (Elt F)),
    StableHlo.unary main_v103 main_v104 (broadcastInDim S600000x128 ![0, 1] bcast_S600000x1_S600000x128_0_1 : (⟨S600000x1, .f32⟩ : BufTy).Contents (Elt F) → (⟨S600000x128, .f32⟩ : BufTy).Contents (Elt F)),
    StableHlo.binary main_v102 main_v104 main_v105 (mulf : (⟨S600000x128, .f32⟩ : BufTy).Contents (Elt F) → (⟨S600000x128, .f32⟩ : BufTy).Contents (Elt F) → (⟨S600000x128, .f32⟩ : BufTy).Contents (Elt F)),
    StableHlo.nullary main_cst_15 (constant S_ .f32 0x00000000#32),
    StableHlo.unary main_cst_15 main_v106 (broadcastInDim S50000x128 ![] bcast_S_S50000x128 : (⟨S_, .f32⟩ : BufTy).Contents (Elt F) → (⟨S50000x128, .f32⟩ : BufTy).Contents (Elt F)),
    StableHlo.unary main_v3 main_v107 (broadcastInDim S600000x1 ![0] bcast_S600000_S600000x1_0 : (⟨S600000, .i32⟩ : BufTy).Contents (Elt F) → (⟨S600000x1, .i32⟩ : BufTy).Contents (Elt F)),
    StableHlo.ternary main_v106 main_v107 main_v105 main_v108 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v95 main_v108 main_v109 (addf : (⟨S50000x128, .f32⟩ : BufTy).Contents (Elt F) → (⟨S50000x128, .f32⟩ : BufTy).Contents (Elt F) → (⟨S50000x128, .f32⟩ : BufTy).Contents (Elt F)),
    StableHlo.unary main_arg3 main_v110 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v110 main_v111 rfl shapeCasts_S1x128x128_S128x128,
    StableHlo.binary main_v109 main_v111 main_v112 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v113 ((extractStridedSlice S1x128 ![1, 0] · slices_S3x128_S1x128_1_0) : (⟨S3x128, .f32⟩ : BufTy).Contents (Elt F) → (⟨S1x128, .f32⟩ : BufTy).Contents (Elt F)),
    StableHlo.reshape main_v113 main_v114 rfl shapeCasts_S1x128_S128,
    StableHlo.unary main_arg6 main_v115 ((extractStridedSlice S1x128 ![1, 0] · slices_S3x128_S1x128_1_0) : (⟨S3x128, .f32⟩ : BufTy).Contents (Elt F) → (⟨S1x128, .f32⟩ : BufTy).Contents (Elt F)),
    StableHlo.reshape main_v115 main_v116 rfl shapeCasts_S1x128_S128,
    StableHlo.nullary main_cst_16 (constant S_ .f32 0x00000000#32),
    StableHlo.binary main_v112 main_cst_16 main_v117 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v118 (broadcastInDim S128 ![] bcast_S_S128 : (⟨S_, .f32⟩ : BufTy).Contents (Elt F) → (⟨S128, .f32⟩ : BufTy).Contents (Elt F)),
    StableHlo.binary main_v117 main_v118 main_v119 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call6.cst (constant S_ .f32 0x00000000#32),
    StableHlo.TRef.binary (.of main_v112) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v112) main_call6.v4 main_call6.v5 subf,
    StableHlo.TRef.binary main_call6.v5 main_call6.v5 main_call6.v6 mulf,
    StableHlo.TRef.unary (.of main_c_18) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v119 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S50000x128 ![0, 1] bcast_S1x128_S50000x128_0_1 : (⟨S1x128, .f32⟩ : BufTy).Contents (Elt F) → (⟨S50000x128, .f32⟩ : BufTy).Contents (Elt F)),
    StableHlo.binary main_v112 main_v122 main_v123 (subf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v124 (broadcastInDim S128 ![] bcast_S_S128 : (⟨S_, .f32⟩ : BufTy).Contents (Elt F) → (⟨S128, .f32⟩ : BufTy).Contents (Elt F)),
    StableHlo.binary main_v120 main_v124 main_v125 (addf : (⟨S128, .f32⟩ : BufTy).Contents (Elt F) → (⟨S128, .f32⟩ : BufTy).Contents (Elt F) → (⟨S128, .f32⟩ : BufTy).Contents (Elt F)),
    StableHlo.unary main_v125 main_v126 (Host.rsqrt : (⟨S128, .f32⟩ : BufTy).Contents (Elt F) → (⟨S128, .f32⟩ : BufTy).Contents (Elt F)),
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v128 main_v129 (mulf : (⟨S50000x128, .f32⟩ : BufTy).Contents (Elt F) → (⟨S50000x128, .f32⟩ : BufTy).Contents (Elt F) → (⟨S50000x128, .f32⟩ : BufTy).Contents (Elt F)),
    StableHlo.unary main_v114 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v131 main_v132 (mulf : (⟨S50000x128, .f32⟩ : BufTy).Contents (Elt F) → (⟨S50000x128, .f32⟩ : BufTy).Contents (Elt F) → (⟨S50000x128, .f32⟩ : BufTy).Contents (Elt F)),
    StableHlo.unary main_v116 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v132 main_v134 main_v135 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v135) main_call7.v0 main_call7.v1 maximumf,
    StableHlo.unary main_arg4 main_v137 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v137 main_v138 rfl shapeCasts_S1x128x128_S128x128,
    StableHlo.binary main_v136 main_v138 main_v139 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v140 ((extractStridedSlice S1x128 ![1, 0] · slices_S3x128_S1x128_1_0) : (⟨S3x128, .f32⟩ : BufTy).Contents (Elt F) → (⟨S1x128, .f32⟩ : BufTy).Contents (Elt F)),
    StableHlo.reshape main_v140 main_v141 rfl shapeCasts_S1x128_S128,
    StableHlo.unary main_arg8 main_v142 ((extractStridedSlice S1x128 ![1, 0] · slices_S3x128_S1x128_1_0) : (⟨S3x128, .f32⟩ : BufTy).Contents (Elt F) → (⟨S1x128, .f32⟩ : BufTy).Contents (Elt F)),
    StableHlo.reshape main_v142 main_v143 rfl shapeCasts_S1x128_S128,
    StableHlo.nullary main_cst_20 (constant S_ .f32 0x00000000#32),
    StableHlo.binary main_v139 main_cst_20 main_v144 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_21 (constant S_ .f32 0x47435000#32),
    StableHlo.unary main_cst_21 main_v145 (broadcastInDim S128 ![] bcast_S_S128 : (⟨S_, .f32⟩ : BufTy).Contents (Elt F) → (⟨S128, .f32⟩ : BufTy).Contents (Elt F)),
    StableHlo.binary main_v144 main_v145 main_v146 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary main_call8.cst (constant S_ .f32 0x00000000#32),
    StableHlo.TRef.binary (.of main_v139) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (.of main_v139) main_call8.v4 main_call8.v5 subf,
    StableHlo.TRef.binary main_call8.v5 main_call8.v5 main_call8.v6 mulf,
    StableHlo.TRef.unary (.of main_c_22) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v146 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S50000x128 ![0, 1] bcast_S1x128_S50000x128_0_1 : (⟨S1x128, .f32⟩ : BufTy).Contents (Elt F) → (⟨S50000x128, .f32⟩ : BufTy).Contents (Elt F)),
    StableHlo.binary main_v139 main_v149 main_v150 (subf : (⟨S50000x128, .f32⟩ : BufTy).Contents (Elt F) → (⟨S50000x128, .f32⟩ : BufTy).Contents (Elt F) → (⟨S50000x128, .f32⟩ : BufTy).Contents (Elt F)),
    StableHlo.nullary main_cst_23 (constant S_ .f32 0x3727C5AC#32),
    StableHlo.unary main_cst_23 main_v151 (broadcastInDim S128 ![] bcast_S_S128 : (⟨S_, .f32⟩ : BufTy).Contents (Elt F) → (⟨S128, .f32⟩ : BufTy).Contents (Elt F)),
    StableHlo.binary main_v147 main_v151 main_v152 (addf : (⟨S128, .f32⟩ : BufTy).Contents (Elt F) → (⟨S128, .f32⟩ : BufTy).Contents (Elt F) → (⟨S128, .f32⟩ : BufTy).Contents (Elt F)),
    StableHlo.unary main_v152 main_v153 (Host.rsqrt : (⟨S128, .f32⟩ : BufTy).Contents (Elt F) → (⟨S128, .f32⟩ : BufTy).Contents (Elt F)) ]

set_option maxRecDepth 16384 in
set_option maxHeartbeats 4000000 in
theorem part2_eq (d : Dev nD) : main_part2 (F := F) d = seq ops2 := by
  simp only [main_part2, fn_var.body, fn_where.body, fn_relu.body, seq, bind_assoc, pure_bind]
  all_goals rfl

theorem ops2_sub : (ops2 : List (HloOp τ sig (Elt F))).Forall fun op => op.bufs ⊆ tcRefs τ sig :=
  ⟨unary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub ..⟩

abbrev ops3 : List (HloOp τ sig (Elt F)) :=
  [ StableHlo.unary main_v153 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S50000x128 ![0, 1] bcast_S1x128_S50000x128_0_1 : (⟨S1x128, .f32⟩ : BufTy).Contents (Elt F) → (⟨S50000x128, .f32⟩ : BufTy).Contents (Elt F)),
    StableHlo.binary main_v150 main_v155 main_v156 (mulf : (⟨S50000x128, .f32⟩ : BufTy).Contents (Elt F) → (⟨S50000x128, .f32⟩ : BufTy).Contents (Elt F) → (⟨S50000x128, .f32⟩ : BufTy).Contents (Elt F)),
    StableHlo.unary main_v141 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S50000x128 ![0, 1] bcast_S1x128_S50000x128_0_1 : (⟨S1x128, .f32⟩ : BufTy).Contents (Elt F) → (⟨S50000x128, .f32⟩ : BufTy).Contents (Elt F)),
    StableHlo.binary main_v156 main_v158 main_v159 (mulf : (⟨S50000x128, .f32⟩ : BufTy).Contents (Elt F) → (⟨S50000x128, .f32⟩ : BufTy).Contents (Elt F) → (⟨S50000x128, .f32⟩ : BufTy).Contents (Elt F)),
    StableHlo.unary main_v143 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S50000x128 ![0, 1] bcast_S1x128_S50000x128_0_1 : (⟨S1x128, .f32⟩ : BufTy).Contents (Elt F) → (⟨S50000x128, .f32⟩ : BufTy).Contents (Elt F)),
    StableHlo.binary main_v159 main_v161 main_v162 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v162) main_call9.v0 main_call9.v1 maximumf,
    StableHlo.unary main_arg9 main_v164 ((extractStridedSlice S1x128 ![1, 0] · slices_S3x128_S1x128_1_0) : (⟨S3x128, .f32⟩ : BufTy).Contents (Elt F) → (⟨S1x128, .f32⟩ : BufTy).Contents (Elt F)),
    StableHlo.reshape main_v164 main_v165 rfl shapeCasts_S1x128_S128,
    StableHlo.unary main_arg10 main_v166 ((extractStridedSlice S1x128 ![1, 0] · slices_S3x128_S1x128_1_0) : (⟨S3x128, .f32⟩ : BufTy).Contents (Elt F) → (⟨S1x128, .f32⟩ : BufTy).Contents (Elt F)),
    StableHlo.reshape main_v166 main_v167 rfl shapeCasts_S1x128_S128,
    StableHlo.nullary main_cst_24 (constant S_ .f32 0x00000000#32),
    StableHlo.binary main_v163 main_cst_24 main_v168 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_25 (constant S_ .f32 0x47435000#32),
    StableHlo.unary main_cst_25 main_v169 (broadcastInDim S128 ![] bcast_S_S128 : (⟨S_, .f32⟩ : BufTy).Contents (Elt F) → (⟨S128, .f32⟩ : BufTy).Contents (Elt F)),
    StableHlo.binary main_v168 main_v169 main_v170 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.TRef.nullary main_call10.cst (constant S_ .f32 0x00000000#32),
    StableHlo.TRef.binary (.of main_v163) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v163) main_call10.v4 main_call10.v5 subf,
    StableHlo.TRef.binary main_call10.v5 main_call10.v5 main_call10.v6 mulf,
    StableHlo.TRef.unary (.of main_c_26) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v170 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S50000x128 ![0, 1] bcast_S1x128_S50000x128_0_1 : (⟨S1x128, .f32⟩ : BufTy).Contents (Elt F) → (⟨S50000x128, .f32⟩ : BufTy).Contents (Elt F)),
    StableHlo.binary main_v163 main_v173 main_v174 (subf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x3727C5AC#32),
    StableHlo.unary main_cst_27 main_v175 (broadcastInDim S128 ![] bcast_S_S128 : (⟨S_, .f32⟩ : BufTy).Contents (Elt F) → (⟨S128, .f32⟩ : BufTy).Contents (Elt F)),
    StableHlo.binary main_v171 main_v175 main_v176 (addf : (⟨S128, .f32⟩ : BufTy).Contents (Elt F) → (⟨S128, .f32⟩ : BufTy).Contents (Elt F) → (⟨S128, .f32⟩ : BufTy).Contents (Elt F)),
    StableHlo.unary main_v176 main_v177 (Host.rsqrt : (⟨S128, .f32⟩ : BufTy).Contents (Elt F) → (⟨S128, .f32⟩ : BufTy).Contents (Elt F)),
    StableHlo.unary main_v177 main_v178 (broadcastInDim S1x128 ![1] bcast_S128_S1x128_1 : (⟨S128, .f32⟩ : BufTy).Contents (Elt F) → (⟨S1x128, .f32⟩ : BufTy).Contents (Elt F)),
    StableHlo.unary main_v178 main_v179 (broadcastInDim S50000x128 ![0, 1] bcast_S1x128_S50000x128_0_1 : (⟨S1x128, .f32⟩ : BufTy).Contents (Elt F) → (⟨S50000x128, .f32⟩ : BufTy).Contents (Elt F)),
    StableHlo.binary main_v174 main_v179 main_v180 (mulf : (⟨S50000x128, .f32⟩ : BufTy).Contents (Elt F) → (⟨S50000x128, .f32⟩ : BufTy).Contents (Elt F) → (⟨S50000x128, .f32⟩ : BufTy).Contents (Elt F)),
    StableHlo.unary main_v165 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S50000x128 ![0, 1] bcast_S1x128_S50000x128_0_1 : (⟨S1x128, .f32⟩ : BufTy).Contents (Elt F) → (⟨S50000x128, .f32⟩ : BufTy).Contents (Elt F)),
    StableHlo.binary main_v180 main_v182 main_v183 (mulf : (⟨S50000x128, .f32⟩ : BufTy).Contents (Elt F) → (⟨S50000x128, .f32⟩ : BufTy).Contents (Elt F) → (⟨S50000x128, .f32⟩ : BufTy).Contents (Elt F)),
    StableHlo.unary main_v167 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S50000x128 ![0, 1] bcast_S1x128_S50000x128_0_1 : (⟨S1x128, .f32⟩ : BufTy).Contents (Elt F) → (⟨S50000x128, .f32⟩ : BufTy).Contents (Elt F)),
    StableHlo.binary main_v183 main_v185 main_v186 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v186) main_call11.v0 main_call11.v1 maximumf,
    StableHlo.nullary main_c_28 (constantI S_ 32 0#32),
    StableHlo.unary main_c_28 main_v188 (broadcastInDim S600000 ![] bcast_S_S600000 : (⟨S_, .i32⟩ : BufTy).Contents (Elt F) → (⟨S600000, .i32⟩ : BufTy).Contents (Elt F)),
    StableHlo.binary main_v1 main_v188 main_v189 (cmpi .slt : (⟨S600000, .i32⟩ : BufTy).Contents (Elt F) → (⟨S600000, .i32⟩ : BufTy).Contents (Elt F) → (⟨S600000, .i1⟩ : BufTy).Contents (Elt F)),
    StableHlo.nullary main_c_29 (constantI S_ 32 50000#32),
    StableHlo.unary main_c_29 main_v190 (broadcastInDim S600000 ![] bcast_S_S600000 : (⟨S_, .i32⟩ : BufTy).Contents (Elt F) → (⟨S600000, .i32⟩ : BufTy).Contents (Elt F)),
    StableHlo.binary main_v1 main_v190 main_v191 (addi : (⟨S600000, .i32⟩ : BufTy).Contents (Elt F) → (⟨S600000, .i32⟩ : BufTy).Contents (Elt F) → (⟨S600000, .i32⟩ : BufTy).Contents (Elt F)),
    StableHlo.ternary main_v189 main_v191 main_v1 main_v192 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v192 main_v193 (broadcastInDim S600000x1 ![0] bcast_S600000_S600000x1_0 : (⟨S600000, .i32⟩ : BufTy).Contents (Elt F) → (⟨S600000x1, .i32⟩ : BufTy).Contents (Elt F)),
    StableHlo.binary main_v187 main_v193 main_v194 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg2 main_v195 (broadcastInDim S600000x1 ![0] bcast_S600000_S600000x1_0 : (⟨S600000, .f32⟩ : BufTy).Contents (Elt F) → (⟨S600000x1, .f32⟩ : BufTy).Contents (Elt F)),
    StableHlo.unary main_v195 main_v196 (broadcastInDim S600000x128 ![0, 1] bcast_S600000x1_S600000x128_0_1 : (⟨S600000x1, .f32⟩ : BufTy).Contents (Elt F) → (⟨S600000x128, .f32⟩ : BufTy).Contents (Elt F)),
    StableHlo.binary main_v194 main_v196 main_v197 (mulf : (⟨S600000x128, .f32⟩ : BufTy).Contents (Elt F) → (⟨S600000x128, .f32⟩ : BufTy).Contents (Elt F) → (⟨S600000x128, .f32⟩ : BufTy).Contents (Elt F)),
    StableHlo.nullary main_cst_30 (constant S_ .f32 0x00000000#32),
    StableHlo.unary main_cst_30 main_v198 (broadcastInDim S50000x128 ![] bcast_S_S50000x128 : (⟨S_, .f32⟩ : BufTy).Contents (Elt F) → (⟨S50000x128, .f32⟩ : BufTy).Contents (Elt F)),
    StableHlo.unary main_v3 main_v199 (broadcastInDim S600000x1 ![0] bcast_S600000_S600000x1_0 : (⟨S600000, .i32⟩ : BufTy).Contents (Elt F) → (⟨S600000x1, .i32⟩ : BufTy).Contents (Elt F)),
    StableHlo.ternary main_v198 main_v199 main_v197 main_v200 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v187 main_v200 main_v201 (addf : (⟨S50000x128, .f32⟩ : BufTy).Contents (Elt F) → (⟨S50000x128, .f32⟩ : BufTy).Contents (Elt F) → (⟨S50000x128, .f32⟩ : BufTy).Contents (Elt F)),
    StableHlo.unary main_arg3 main_v202 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v202 main_v203 rfl shapeCasts_S1x128x128_S128x128,
    StableHlo.binary main_v201 main_v203 main_v204 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v205 ((extractStridedSlice S1x128 ![2, 0] · slices_S3x128_S1x128_2_0) : (⟨S3x128, .f32⟩ : BufTy).Contents (Elt F) → (⟨S1x128, .f32⟩ : BufTy).Contents (Elt F)),
    StableHlo.reshape main_v205 main_v206 rfl shapeCasts_S1x128_S128 ]

set_option maxRecDepth 16384 in
set_option maxHeartbeats 4000000 in
theorem part3_eq (d : Dev nD) : main_part3 (F := F) d = seq ops3 := by
  simp only [main_part3, fn_var.body, fn_where.body, fn_relu.body, seq, bind_assoc, pure_bind]
  all_goals rfl

theorem ops3_sub : (ops3 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub ..⟩

abbrev ops4 : List (HloOp τ sig (Elt F)) :=
  [ StableHlo.unary main_arg6 main_v207 ((extractStridedSlice S1x128 ![2, 0] · slices_S3x128_S1x128_2_0) : (⟨S3x128, .f32⟩ : BufTy).Contents (Elt F) → (⟨S1x128, .f32⟩ : BufTy).Contents (Elt F)),
    StableHlo.reshape main_v207 main_v208 rfl shapeCasts_S1x128_S128,
    StableHlo.nullary main_cst_31 (constant S_ .f32 0x00000000#32),
    StableHlo.binary main_v204 main_cst_31 main_v209 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_32 (constant S_ .f32 0x47435000#32),
    StableHlo.unary main_cst_32 main_v210 (broadcastInDim S128 ![] bcast_S_S128 : (⟨S_, .f32⟩ : BufTy).Contents (Elt F) → (⟨S128, .f32⟩ : BufTy).Contents (Elt F)),
    StableHlo.binary main_v209 main_v210 main_v211 (Host.divf : (⟨S128, .f32⟩ : BufTy).Contents (Elt F) → (⟨S128, .f32⟩ : BufTy).Contents (Elt F) → (⟨S128, .f32⟩ : BufTy).Contents (Elt F)),
    StableHlo.nullary main_c_33 (constantI S_ 32 0#32),
    StableHlo.TRef.nullary main_call12.cst (constant S_ .f32 0x00000000#32),
    StableHlo.TRef.binary (.of main_v204) main_call12.cst main_call12.v0 (fun x v => Host.reduceAdd x v reducesTo_S50000x128_S128_d0 h_S_),
    StableHlo.TRef.unary main_call12.v0 main_call12.v1 (broadcastInDim S1x128 ![1] bcast_S128_S1x128_1),
    StableHlo.TRef.nullary main_call12.cst_0 (constant S_ .f32 0x47435000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S50000x128 ![0, 1] bcast_S1x128_S50000x128_0_1),
    StableHlo.TRef.binary (.of main_v204) main_call12.v4 main_call12.v5 subf,
    StableHlo.TRef.binary main_call12.v5 main_call12.v5 main_call12.v6 mulf,
    StableHlo.TRef.unary (.of main_c_33) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b),
    StableHlo.unary main_v211 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S50000x128 ![0, 1] bcast_S1x128_S50000x128_0_1 : (⟨S1x128, .f32⟩ : BufTy).Contents (Elt F) → (⟨S50000x128, .f32⟩ : BufTy).Contents (Elt F)),
    StableHlo.binary main_v204 main_v214 main_v215 (subf : (⟨S50000x128, .f32⟩ : BufTy).Contents (Elt F) → (⟨S50000x128, .f32⟩ : BufTy).Contents (Elt F) → (⟨S50000x128, .f32⟩ : BufTy).Contents (Elt F)),
    StableHlo.nullary main_cst_34 (constant S_ .f32 0x3727C5AC#32),
    StableHlo.unary main_cst_34 main_v216 (broadcastInDim S128 ![] bcast_S_S128 : (⟨S_, .f32⟩ : BufTy).Contents (Elt F) → (⟨S128, .f32⟩ : BufTy).Contents (Elt F)),
    StableHlo.binary main_v212 main_v216 main_v217 (addf : (⟨S128, .f32⟩ : BufTy).Contents (Elt F) → (⟨S128, .f32⟩ : BufTy).Contents (Elt F) → (⟨S128, .f32⟩ : BufTy).Contents (Elt F)),
    StableHlo.unary main_v217 main_v218 (Host.rsqrt : (⟨S128, .f32⟩ : BufTy).Contents (Elt F) → (⟨S128, .f32⟩ : BufTy).Contents (Elt F)),
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S50000x128 ![0, 1] bcast_S1x128_S50000x128_0_1 : (⟨S1x128, .f32⟩ : BufTy).Contents (Elt F) → (⟨S50000x128, .f32⟩ : BufTy).Contents (Elt F)),
    StableHlo.binary main_v215 main_v220 main_v221 (mulf : (⟨S50000x128, .f32⟩ : BufTy).Contents (Elt F) → (⟨S50000x128, .f32⟩ : BufTy).Contents (Elt F) → (⟨S50000x128, .f32⟩ : BufTy).Contents (Elt F)),
    StableHlo.unary main_v206 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S50000x128 ![0, 1] bcast_S1x128_S50000x128_0_1 : (⟨S1x128, .f32⟩ : BufTy).Contents (Elt F) → (⟨S50000x128, .f32⟩ : BufTy).Contents (Elt F)),
    StableHlo.binary main_v221 main_v223 main_v224 (mulf : (⟨S50000x128, .f32⟩ : BufTy).Contents (Elt F) → (⟨S50000x128, .f32⟩ : BufTy).Contents (Elt F) → (⟨S50000x128, .f32⟩ : BufTy).Contents (Elt F)),
    StableHlo.unary main_v208 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S50000x128 ![0, 1] bcast_S1x128_S50000x128_0_1 : (⟨S1x128, .f32⟩ : BufTy).Contents (Elt F) → (⟨S50000x128, .f32⟩ : BufTy).Contents (Elt F)),
    StableHlo.binary main_v224 main_v226 main_v227 (addf : (⟨S50000x128, .f32⟩ : BufTy).Contents (Elt F) → (⟨S50000x128, .f32⟩ : BufTy).Contents (Elt F) → (⟨S50000x128, .f32⟩ : BufTy).Contents (Elt F)),
    StableHlo.TRef.nullary main_call13.cst (constant S_ .f32 0x00000000#32),
    StableHlo.TRef.unary main_call13.cst main_call13.v0 (broadcastInDim S50000x128 ![] bcast_S_S50000x128),
    StableHlo.TRef.binary (.of main_v227) main_call13.v0 main_call13.v1 maximumf,
    StableHlo.unary main_arg4 main_v229 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v229 main_v230 rfl shapeCasts_S1x128x128_S128x128,
    StableHlo.binary main_v228 main_v230 main_v231 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v232 ((extractStridedSlice S1x128 ![2, 0] · slices_S3x128_S1x128_2_0) : (⟨S3x128, .f32⟩ : BufTy).Contents (Elt F) → (⟨S1x128, .f32⟩ : BufTy).Contents (Elt F)),
    StableHlo.reshape main_v232 main_v233 rfl shapeCasts_S1x128_S128,
    StableHlo.unary main_arg8 main_v234 ((extractStridedSlice S1x128 ![2, 0] · slices_S3x128_S1x128_2_0) : (⟨S3x128, .f32⟩ : BufTy).Contents (Elt F) → (⟨S1x128, .f32⟩ : BufTy).Contents (Elt F)),
    StableHlo.reshape main_v234 main_v235 rfl shapeCasts_S1x128_S128,
    StableHlo.nullary main_cst_35 (constant S_ .f32 0x00000000#32),
    StableHlo.binary main_v231 main_cst_35 main_v236 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_36 (constant S_ .f32 0x47435000#32),
    StableHlo.unary main_cst_36 main_v237 (broadcastInDim S128 ![] bcast_S_S128 : (⟨S_, .f32⟩ : BufTy).Contents (Elt F) → (⟨S128, .f32⟩ : BufTy).Contents (Elt F)),
    StableHlo.binary main_v236 main_v237 main_v238 (Host.divf : (⟨S128, .f32⟩ : BufTy).Contents (Elt F) → (⟨S128, .f32⟩ : BufTy).Contents (Elt F) → (⟨S128, .f32⟩ : BufTy).Contents (Elt F)),
    StableHlo.nullary main_c_37 (constantI S_ 32 0#32),
    StableHlo.TRef.nullary main_call14.cst (constant S_ .f32 0x00000000#32),
    StableHlo.TRef.binary (.of main_v231) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (.of main_v231) main_call14.v4 main_call14.v5 subf,
    StableHlo.TRef.binary main_call14.v5 main_call14.v5 main_call14.v6 mulf,
    StableHlo.TRef.unary (.of main_c_37) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v238 main_v240 (broadcastInDim S1x128 ![1] bcast_S128_S1x128_1 : (⟨S128, .f32⟩ : BufTy).Contents (Elt F) → (⟨S1x128, .f32⟩ : BufTy).Contents (Elt F)),
    StableHlo.unary main_v240 main_v241 (broadcastInDim S50000x128 ![0, 1] bcast_S1x128_S50000x128_0_1 : (⟨S1x128, .f32⟩ : BufTy).Contents (Elt F) → (⟨S50000x128, .f32⟩ : BufTy).Contents (Elt F)),
    StableHlo.binary main_v231 main_v241 main_v242 (subf : (⟨S50000x128, .f32⟩ : BufTy).Contents (Elt F) → (⟨S50000x128, .f32⟩ : BufTy).Contents (Elt F) → (⟨S50000x128, .f32⟩ : BufTy).Contents (Elt F)),
    StableHlo.nullary main_cst_38 (constant S_ .f32 0x3727C5AC#32),
    StableHlo.unary main_cst_38 main_v243 (broadcastInDim S128 ![] bcast_S_S128 : (⟨S_, .f32⟩ : BufTy).Contents (Elt F) → (⟨S128, .f32⟩ : BufTy).Contents (Elt F)),
    StableHlo.binary main_v239 main_v243 main_v244 (addf : (⟨S128, .f32⟩ : BufTy).Contents (Elt F) → (⟨S128, .f32⟩ : BufTy).Contents (Elt F) → (⟨S128, .f32⟩ : BufTy).Contents (Elt F)),
    StableHlo.unary main_v244 main_v245 (Host.rsqrt : (⟨S128, .f32⟩ : BufTy).Contents (Elt F) → (⟨S128, .f32⟩ : BufTy).Contents (Elt F)),
    StableHlo.unary main_v245 main_v246 (broadcastInDim S1x128 ![1] bcast_S128_S1x128_1 : (⟨S128, .f32⟩ : BufTy).Contents (Elt F) → (⟨S1x128, .f32⟩ : BufTy).Contents (Elt F)),
    StableHlo.unary main_v246 main_v247 (broadcastInDim S50000x128 ![0, 1] bcast_S1x128_S50000x128_0_1 : (⟨S1x128, .f32⟩ : BufTy).Contents (Elt F) → (⟨S50000x128, .f32⟩ : BufTy).Contents (Elt F)),
    StableHlo.binary main_v242 main_v247 main_v248 (mulf : (⟨S50000x128, .f32⟩ : BufTy).Contents (Elt F) → (⟨S50000x128, .f32⟩ : BufTy).Contents (Elt F) → (⟨S50000x128, .f32⟩ : BufTy).Contents (Elt F)),
    StableHlo.unary main_v233 main_v249 (broadcastInDim S1x128 ![1] bcast_S128_S1x128_1 : (⟨S128, .f32⟩ : BufTy).Contents (Elt F) → (⟨S1x128, .f32⟩ : BufTy).Contents (Elt F)),
    StableHlo.unary main_v249 main_v250 (broadcastInDim S50000x128 ![0, 1] bcast_S1x128_S50000x128_0_1 : (⟨S1x128, .f32⟩ : BufTy).Contents (Elt F) → (⟨S50000x128, .f32⟩ : BufTy).Contents (Elt F)),
    StableHlo.binary main_v248 main_v250 main_v251 (mulf : (⟨S50000x128, .f32⟩ : BufTy).Contents (Elt F) → (⟨S50000x128, .f32⟩ : BufTy).Contents (Elt F) → (⟨S50000x128, .f32⟩ : BufTy).Contents (Elt F)),
    StableHlo.unary main_v235 main_v252 (broadcastInDim S1x128 ![1] bcast_S128_S1x128_1 : (⟨S128, .f32⟩ : BufTy).Contents (Elt F) → (⟨S1x128, .f32⟩ : BufTy).Contents (Elt F)),
    StableHlo.unary main_v252 main_v253 (broadcastInDim S50000x128 ![0, 1] bcast_S1x128_S50000x128_0_1 : (⟨S1x128, .f32⟩ : BufTy).Contents (Elt F) → (⟨S50000x128, .f32⟩ : BufTy).Contents (Elt F)),
    StableHlo.binary main_v251 main_v253 main_v254 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (.of main_v254) main_call15.v0 main_call15.v1 maximumf,
    StableHlo.unary main_arg9 main_v256 ((extractStridedSlice S1x128 ![2, 0] · slices_S3x128_S1x128_2_0) : (⟨S3x128, .f32⟩ : BufTy).Contents (Elt F) → (⟨S1x128, .f32⟩ : BufTy).Contents (Elt F)),
    StableHlo.reshape main_v256 main_v257 rfl shapeCasts_S1x128_S128,
    StableHlo.unary main_arg10 main_v258 ((extractStridedSlice S1x128 ![2, 0] · slices_S3x128_S1x128_2_0) : (⟨S3x128, .f32⟩ : BufTy).Contents (Elt F) → (⟨S1x128, .f32⟩ : BufTy).Contents (Elt F)) ]

set_option maxRecDepth 16384 in
set_option maxHeartbeats 4000000 in
theorem part4_eq (d : Dev nD) : main_part4 (F := F) d = seq ops4 := by
  simp only [main_part4, fn_var.body, fn_where.body, fn_relu.body, seq, bind_assoc, pure_bind]
  all_goals rfl

theorem ops4_sub : (ops4 : List (HloOp τ sig (Elt F))).Forall fun op => op.bufs ⊆ tcRefs τ sig :=
  ⟨unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub ..⟩

abbrev ops5 : List (HloOp τ sig (Elt F)) :=
  [ StableHlo.reshape main_v258 main_v259 rfl shapeCasts_S1x128_S128,
    StableHlo.nullary main_cst_39 (constant S_ .f32 0x00000000#32),
    StableHlo.binary main_v255 main_cst_39 main_v260 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_40 (constant S_ .f32 0x47435000#32),
    StableHlo.unary main_cst_40 main_v261 (broadcastInDim S128 ![] bcast_S_S128 : (⟨S_, .f32⟩ : BufTy).Contents (Elt F) → (⟨S128, .f32⟩ : BufTy).Contents (Elt F)),
    StableHlo.binary main_v260 main_v261 main_v262 (Host.divf : (⟨S128, .f32⟩ : BufTy).Contents (Elt F) → (⟨S128, .f32⟩ : BufTy).Contents (Elt F) → (⟨S128, .f32⟩ : BufTy).Contents (Elt F)),
    StableHlo.nullary main_c_41 (constantI S_ 32 0#32),
    StableHlo.TRef.nullary main_call16.cst (constant S_ .f32 0x00000000#32),
    StableHlo.TRef.binary (.of main_v255) main_call16.cst main_call16.v0 (fun x v => Host.reduceAdd x v reducesTo_S50000x128_S128_d0 h_S_),
    StableHlo.TRef.unary main_call16.v0 main_call16.v1 (broadcastInDim S1x128 ![1] bcast_S128_S1x128_1),
    StableHlo.TRef.nullary main_call16.cst_0 (constant S_ .f32 0x47435000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S50000x128 ![0, 1] bcast_S1x128_S50000x128_0_1),
    StableHlo.TRef.binary (.of main_v255) main_call16.v4 main_call16.v5 subf,
    StableHlo.TRef.binary main_call16.v5 main_call16.v5 main_call16.v6 mulf,
    StableHlo.TRef.unary (.of main_c_41) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x128_S128_d0 h_S_),
    StableHlo.TRef.unary main_call16.v8 main_call16.v10 (broadcastInDim S128 ![] bcast_S_S128),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S128 ![] bcast_S_S128),
    StableHlo.TRef.ternary main_call16.v12 main_call16.v11 main_call16.call0.v1 main_call16.call0.v2 (fun p a b => select (broadcastInDim S128 ![] bcast_S_S128 p) a b),
    StableHlo.unary main_v262 main_v264 (broadcastInDim S1x128 ![1] bcast_S128_S1x128_1 : (⟨S128, .f32⟩ : BufTy).Contents (Elt F) → (⟨S1x128, .f32⟩ : BufTy).Contents (Elt F)),
    StableHlo.unary main_v264 main_v265 (broadcastInDim S50000x128 ![0, 1] bcast_S1x128_S50000x128_0_1 : (⟨S1x128, .f32⟩ : BufTy).Contents (Elt F) → (⟨S50000x128, .f32⟩ : BufTy).Contents (Elt F)),
    StableHlo.binary main_v255 main_v265 main_v266 (subf : (⟨S50000x128, .f32⟩ : BufTy).Contents (Elt F) → (⟨S50000x128, .f32⟩ : BufTy).Contents (Elt F) → (⟨S50000x128, .f32⟩ : BufTy).Contents (Elt F)),
    StableHlo.nullary main_cst_42 (constant S_ .f32 0x3727C5AC#32),
    StableHlo.unary main_cst_42 main_v267 (broadcastInDim S128 ![] bcast_S_S128 : (⟨S_, .f32⟩ : BufTy).Contents (Elt F) → (⟨S128, .f32⟩ : BufTy).Contents (Elt F)),
    StableHlo.binary main_v263 main_v267 main_v268 (addf : (⟨S128, .f32⟩ : BufTy).Contents (Elt F) → (⟨S128, .f32⟩ : BufTy).Contents (Elt F) → (⟨S128, .f32⟩ : BufTy).Contents (Elt F)),
    StableHlo.unary main_v268 main_v269 (Host.rsqrt : (⟨S128, .f32⟩ : BufTy).Contents (Elt F) → (⟨S128, .f32⟩ : BufTy).Contents (Elt F)),
    StableHlo.unary main_v269 main_v270 (broadcastInDim S1x128 ![1] bcast_S128_S1x128_1 : (⟨S128, .f32⟩ : BufTy).Contents (Elt F) → (⟨S1x128, .f32⟩ : BufTy).Contents (Elt F)),
    StableHlo.unary main_v270 main_v271 (broadcastInDim S50000x128 ![0, 1] bcast_S1x128_S50000x128_0_1 : (⟨S1x128, .f32⟩ : BufTy).Contents (Elt F) → (⟨S50000x128, .f32⟩ : BufTy).Contents (Elt F)),
    StableHlo.binary main_v266 main_v271 main_v272 (mulf : (⟨S50000x128, .f32⟩ : BufTy).Contents (Elt F) → (⟨S50000x128, .f32⟩ : BufTy).Contents (Elt F) → (⟨S50000x128, .f32⟩ : BufTy).Contents (Elt F)),
    StableHlo.unary main_v257 main_v273 (broadcastInDim S1x128 ![1] bcast_S128_S1x128_1 : (⟨S128, .f32⟩ : BufTy).Contents (Elt F) → (⟨S1x128, .f32⟩ : BufTy).Contents (Elt F)),
    StableHlo.unary main_v273 main_v274 (broadcastInDim S50000x128 ![0, 1] bcast_S1x128_S50000x128_0_1 : (⟨S1x128, .f32⟩ : BufTy).Contents (Elt F) → (⟨S50000x128, .f32⟩ : BufTy).Contents (Elt F)),
    StableHlo.binary main_v272 main_v274 main_v275 (mulf : (⟨S50000x128, .f32⟩ : BufTy).Contents (Elt F) → (⟨S50000x128, .f32⟩ : BufTy).Contents (Elt F) → (⟨S50000x128, .f32⟩ : BufTy).Contents (Elt F)),
    StableHlo.unary main_v259 main_v276 (broadcastInDim S1x128 ![1] bcast_S128_S1x128_1 : (⟨S128, .f32⟩ : BufTy).Contents (Elt F) → (⟨S1x128, .f32⟩ : BufTy).Contents (Elt F)),
    StableHlo.unary main_v276 main_v277 (broadcastInDim S50000x128 ![0, 1] bcast_S1x128_S50000x128_0_1 : (⟨S1x128, .f32⟩ : BufTy).Contents (Elt F) → (⟨S50000x128, .f32⟩ : BufTy).Contents (Elt F)),
    StableHlo.binary main_v275 main_v277 main_v278 (addf : (⟨S50000x128, .f32⟩ : BufTy).Contents (Elt F) → (⟨S50000x128, .f32⟩ : BufTy).Contents (Elt F) → (⟨S50000x128, .f32⟩ : BufTy).Contents (Elt F)) ]

set_option maxRecDepth 16384 in
set_option maxHeartbeats 4000000 in
theorem part5_eq (d : Dev nD) : main_part5 (F := F) d = seq ops5 := by
  simp only [main_part5, fn_var.body, fn_where.body, fn_relu.body, seq, bind_assoc, pure_bind]
  all_goals rfl

theorem ops5_sub : (ops5 : List (HloOp τ sig (Elt F))).Forall fun op => op.bufs ⊆ tcRefs τ sig :=
  ⟨reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

abbrev ops : List (HloOp τ sig (Elt F)) := ops0 ++ (ops1 ++ (ops2 ++ (ops3 ++ (ops4 ++ ops5))))

theorem main_eq (c : Dev nD) : main (F := F) c = seq ops := by
  simp only [main, part0_eq, part1_eq, part2_eq, part3_eq, part4_eq, part5_eq, ops, seq_append, bind_assoc]
  all_goals rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨ops0_sub, ops1_sub, ops2_sub, ops3_sub, ops4_sub, ops5_sub⟩

/-- THE RUN: every weakly fair execution terminates, and every final state has each buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefFrame.lean ====
/-
  The reference leaves its arguments as launched: no operation of its straight line writes an argument array, so
  the fold of the operations over the launch contents reads each argument back unchanged; with the run this is
  the reference's frame.
-/
import proofs.«180905_j29583734735286_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

set_option maxRecDepth 65536 in
theorem keep0_arg0 (V : Valuation τ sig (Elt F)) : after ops0 V (main_arg0 : DevRef τ sig) = V (main_arg0 : DevRef τ sig) := by
  simp only [after_cons, after_nil]
  rfl
set_option maxRecDepth 65536 in
theorem keep0_arg1 (V : Valuation τ sig (Elt F)) : after ops0 V (main_arg1 : DevRef τ sig) = V (main_arg1 : DevRef τ sig) := by
  simp only [after_cons, after_nil]
  rfl
set_option maxRecDepth 65536 in
theorem keep0_arg2 (V : Valuation τ sig (Elt F)) : after ops0 V (main_arg2 : DevRef τ sig) = V (main_arg2 : DevRef τ sig) := by
  simp only [after_cons, after_nil]
  rfl
set_option maxRecDepth 65536 in
theorem keep0_arg3 (V : Valuation τ sig (Elt F)) : after ops0 V (main_arg3 : DevRef τ sig) = V (main_arg3 : DevRef τ sig) := by
  simp only [after_cons, after_nil]
  rfl
set_option maxRecDepth 65536 in
theorem keep0_arg4 (V : Valuation τ sig (Elt F)) : after ops0 V (main_arg4 : DevRef τ sig) = V (main_arg4 : DevRef τ sig) := by
  simp only [after_cons, after_nil]
  rfl
set_option maxRecDepth 65536 in
theorem keep0_arg5 (V : Valuation τ sig (Elt F)) : after ops0 V (main_arg5 : DevRef τ sig) = V (main_arg5 : DevRef τ sig) := by
  simp only [after_cons, after_nil]
  rfl
set_option maxRecDepth 65536 in
theorem keep0_arg6 (V : Valuation τ sig (Elt F)) : after ops0 V (main_arg6 : DevRef τ sig) = V (main_arg6 : DevRef τ sig) := by
  simp only [after_cons, after_nil]
  rfl
set_option maxRecDepth 65536 in
theorem keep0_arg7 (V : Valuation τ sig (Elt F)) : after ops0 V (main_arg7 : DevRef τ sig) = V (main_arg7 : DevRef τ sig) := by
  simp only [after_cons, after_nil]
  rfl
set_option maxRecDepth 65536 in
theorem keep0_arg8 (V : Valuation τ sig (Elt F)) : after ops0 V (main_arg8 : DevRef τ sig) = V (main_arg8 : DevRef τ sig) := by
  simp only [after_cons, after_nil]
  rfl
set_option maxRecDepth 65536 in
theorem keep0_arg9 (V : Valuation τ sig (Elt F)) : after ops0 V (main_arg9 : DevRef τ sig) = V (main_arg9 : DevRef τ sig) := by
  simp only [after_cons, after_nil]
  rfl
set_option maxRecDepth 65536 in
theorem keep0_arg10 (V : Valuation τ sig (Elt F)) : after ops0 V (main_arg10 : DevRef τ sig) = V (main_arg10 : DevRef τ sig) := by
  simp only [after_cons, after_nil]
  rfl
set_option maxRecDepth 65536 in
theorem keep1_arg0 (V : Valuation τ sig (Elt F)) : after ops1 V (main_arg0 : DevRef τ sig) = V (main_arg0 : DevRef τ sig) := by
  simp only [after_cons, after_nil]
  rfl
set_option maxRecDepth 65536 in
theorem keep1_arg1 (V : Valuation τ sig (Elt F)) : after ops1 V (main_arg1 : DevRef τ sig) = V (main_arg1 : DevRef τ sig) := by
  simp only [after_cons, after_nil]
  rfl
set_option maxRecDepth 65536 in
theorem keep1_arg2 (V : Valuation τ sig (Elt F)) : after ops1 V (main_arg2 : DevRef τ sig) = V (main_arg2 : DevRef τ sig) := by
  simp only [after_cons, after_nil]
  rfl
set_option maxRecDepth 65536 in
theorem keep1_arg3 (V : Valuation τ sig (Elt F)) : after ops1 V (main_arg3 : DevRef τ sig) = V (main_arg3 : DevRef τ sig) := by
  simp only [after_cons, after_nil]
  rfl
set_option maxRecDepth 65536 in
theorem keep1_arg4 (V : Valuation τ sig (Elt F)) : after ops1 V (main_arg4 : DevRef τ sig) = V (main_arg4 : DevRef τ sig) := by
  simp only [after_cons, after_nil]
  rfl
set_option maxRecDepth 65536 in
theorem keep1_arg5 (V : Valuation τ sig (Elt F)) : after ops1 V (main_arg5 : DevRef τ sig) = V (main_arg5 : DevRef τ sig) := by
  simp only [after_cons, after_nil]
  rfl
set_option maxRecDepth 65536 in
theorem keep1_arg6 (V : Valuation τ sig (Elt F)) : after ops1 V (main_arg6 : DevRef τ sig) = V (main_arg6 : DevRef τ sig) := by
  simp only [after_cons, after_nil]
  rfl
set_option maxRecDepth 65536 in
theorem keep1_arg7 (V : Valuation τ sig (Elt F)) : after ops1 V (main_arg7 : DevRef τ sig) = V (main_arg7 : DevRef τ sig) := by
  simp only [after_cons, after_nil]
  rfl
set_option maxRecDepth 65536 in
theorem keep1_arg8 (V : Valuation τ sig (Elt F)) : after ops1 V (main_arg8 : DevRef τ sig) = V (main_arg8 : DevRef τ sig) := by
  simp only [after_cons, after_nil]
  rfl
set_option maxRecDepth 65536 in
theorem keep1_arg9 (V : Valuation τ sig (Elt F)) : after ops1 V (main_arg9 : DevRef τ sig) = V (main_arg9 : DevRef τ sig) := by
  simp only [after_cons, after_nil]
  rfl
set_option maxRecDepth 65536 in
theorem keep1_arg10 (V : Valuation τ sig (Elt F)) : after ops1 V (main_arg10 : DevRef τ sig) = V (main_arg10 : DevRef τ sig) := by
  simp only [after_cons, after_nil]
  rfl
set_option maxRecDepth 65536 in
theorem keep2_arg0 (V : Valuation τ sig (Elt F)) : after ops2 V (main_arg0 : DevRef τ sig) = V (main_arg0 : DevRef τ sig) := by
  simp only [after_cons, after_nil]
  rfl
set_option maxRecDepth 65536 in
theorem keep2_arg1 (V : Valuation τ sig (Elt F)) : after ops2 V (main_arg1 : DevRef τ sig) = V (main_arg1 : DevRef τ sig) := by
  simp only [after_cons, after_nil]
  rfl
set_option maxRecDepth 65536 in
theorem keep2_arg2 (V : Valuation τ sig (Elt F)) : after ops2 V (main_arg2 : DevRef τ sig) = V (main_arg2 : DevRef τ sig) := by
  simp only [after_cons, after_nil]
  rfl
set_option maxRecDepth 65536 in
theorem keep2_arg3 (V : Valuation τ sig (Elt F)) : after ops2 V (main_arg3 : DevRef τ sig) = V (main_arg3 : DevRef τ sig) := by
  simp only [after_cons, after_nil]
  rfl
set_option maxRecDepth 65536 in
theorem keep2_arg4 (V : Valuation τ sig (Elt F)) : after ops2 V (main_arg4 : DevRef τ sig) = V (main_arg4 : DevRef τ sig) := by
  simp only [after_cons, after_nil]
  rfl
set_option maxRecDepth 65536 in
theorem keep2_arg5 (V : Valuation τ sig (Elt F)) : after ops2 V (main_arg5 : DevRef τ sig) = V (main_arg5 : DevRef τ sig) := by
  simp only [after_cons, after_nil]
  rfl
set_option maxRecDepth 65536 in
theorem keep2_arg6 (V : Valuation τ sig (Elt F)) : after ops2 V (main_arg6 : DevRef τ sig) = V (main_arg6 : DevRef τ sig) := by
  simp only [after_cons, after_nil]
  rfl
set_option maxRecDepth 65536 in
theorem keep2_arg7 (V : Valuation τ sig (Elt F)) : after ops2 V (main_arg7 : DevRef τ sig) = V (main_arg7 : DevRef τ sig) := by
  simp only [after_cons, after_nil]
  rfl
set_option maxRecDepth 65536 in
theorem keep2_arg8 (V : Valuation τ sig (Elt F)) : after ops2 V (main_arg8 : DevRef τ sig) = V (main_arg8 : DevRef τ sig) := by
  simp only [after_cons, after_nil]
  rfl
set_option maxRecDepth 65536 in
theorem keep2_arg9 (V : Valuation τ sig (Elt F)) : after ops2 V (main_arg9 : DevRef τ sig) = V (main_arg9 : DevRef τ sig) := by
  simp only [after_cons, after_nil]
  rfl
set_option maxRecDepth 65536 in
theorem keep2_arg10 (V : Valuation τ sig (Elt F)) : after ops2 V (main_arg10 : DevRef τ sig) = V (main_arg10 : DevRef τ sig) := by
  simp only [after_cons, after_nil]
  rfl
set_option maxRecDepth 65536 in
theorem keep3_arg0 (V : Valuation τ sig (Elt F)) : after ops3 V (main_arg0 : DevRef τ sig) = V (main_arg0 : DevRef τ sig) := by
  simp only [after_cons, after_nil]
  rfl
set_option maxRecDepth 65536 in
theorem keep3_arg1 (V : Valuation τ sig (Elt F)) : after ops3 V (main_arg1 : DevRef τ sig) = V (main_arg1 : DevRef τ sig) := by
  simp only [after_cons, after_nil]
  rfl
set_option maxRecDepth 65536 in
theorem keep3_arg2 (V : Valuation τ sig (Elt F)) : after ops3 V (main_arg2 : DevRef τ sig) = V (main_arg2 : DevRef τ sig) := by
  simp only [after_cons, after_nil]
  rfl
set_option maxRecDepth 65536 in
theorem keep3_arg3 (V : Valuation τ sig (Elt F)) : after ops3 V (main_arg3 : DevRef τ sig) = V (main_arg3 : DevRef τ sig) := by
  simp only [after_cons, after_nil]
  rfl
set_option maxRecDepth 65536 in
theorem keep3_arg4 (V : Valuation τ sig (Elt F)) : after ops3 V (main_arg4 : DevRef τ sig) = V (main_arg4 : DevRef τ sig) := by
  simp only [after_cons, after_nil]
  rfl
set_option maxRecDepth 65536 in
theorem keep3_arg5 (V : Valuation τ sig (Elt F)) : after ops3 V (main_arg5 : DevRef τ sig) = V (main_arg5 : DevRef τ sig) := by
  simp only [after_cons, after_nil]
  rfl
set_option maxRecDepth 65536 in
theorem keep3_arg6 (V : Valuation τ sig (Elt F)) : after ops3 V (main_arg6 : DevRef τ sig) = V (main_arg6 : DevRef τ sig) := by
  simp only [after_cons, after_nil]
  rfl
set_option maxRecDepth 65536 in
theorem keep3_arg7 (V : Valuation τ sig (Elt F)) : after ops3 V (main_arg7 : DevRef τ sig) = V (main_arg7 : DevRef τ sig) := by
  simp only [after_cons, after_nil]
  rfl
set_option maxRecDepth 65536 in
theorem keep3_arg8 (V : Valuation τ sig (Elt F)) : after ops3 V (main_arg8 : DevRef τ sig) = V (main_arg8 : DevRef τ sig) := by
  simp only [after_cons, after_nil]
  rfl
set_option maxRecDepth 65536 in
theorem keep3_arg9 (V : Valuation τ sig (Elt F)) : after ops3 V (main_arg9 : DevRef τ sig) = V (main_arg9 : DevRef τ sig) := by
  simp only [after_cons, after_nil]
  rfl
set_option maxRecDepth 65536 in
theorem keep3_arg10 (V : Valuation τ sig (Elt F)) : after ops3 V (main_arg10 : DevRef τ sig) = V (main_arg10 : DevRef τ sig) := by
  simp only [after_cons, after_nil]
  rfl
set_option maxRecDepth 65536 in
theorem keep4_arg0 (V : Valuation τ sig (Elt F)) : after ops4 V (main_arg0 : DevRef τ sig) = V (main_arg0 : DevRef τ sig) := by
  simp only [after_cons, after_nil]
  rfl
set_option maxRecDepth 65536 in
theorem keep4_arg1 (V : Valuation τ sig (Elt F)) : after ops4 V (main_arg1 : DevRef τ sig) = V (main_arg1 : DevRef τ sig) := by
  simp only [after_cons, after_nil]
  rfl
set_option maxRecDepth 65536 in
theorem keep4_arg2 (V : Valuation τ sig (Elt F)) : after ops4 V (main_arg2 : DevRef τ sig) = V (main_arg2 : DevRef τ sig) := by
  simp only [after_cons, after_nil]
  rfl
set_option maxRecDepth 65536 in
theorem keep4_arg3 (V : Valuation τ sig (Elt F)) : after ops4 V (main_arg3 : DevRef τ sig) = V (main_arg3 : DevRef τ sig) := by
  simp only [after_cons, after_nil]
  rfl
set_option maxRecDepth 65536 in
theorem keep4_arg4 (V : Valuation τ sig (Elt F)) : after ops4 V (main_arg4 : DevRef τ sig) = V (main_arg4 : DevRef τ sig) := by
  simp only [after_cons, after_nil]
  rfl
set_option maxRecDepth 65536 in
theorem keep4_arg5 (V : Valuation τ sig (Elt F)) : after ops4 V (main_arg5 : DevRef τ sig) = V (main_arg5 : DevRef τ sig) := by
  simp only [after_cons, after_nil]
  rfl
set_option maxRecDepth 65536 in
theorem keep4_arg6 (V : Valuation τ sig (Elt F)) : after ops4 V (main_arg6 : DevRef τ sig) = V (main_arg6 : DevRef τ sig) := by
  simp only [after_cons, after_nil]
  rfl
set_option maxRecDepth 65536 in
theorem keep4_arg7 (V : Valuation τ sig (Elt F)) : after ops4 V (main_arg7 : DevRef τ sig) = V (main_arg7 : DevRef τ sig) := by
  simp only [after_cons, after_nil]
  rfl
set_option maxRecDepth 65536 in
theorem keep4_arg8 (V : Valuation τ sig (Elt F)) : after ops4 V (main_arg8 : DevRef τ sig) = V (main_arg8 : DevRef τ sig) := by
  simp only [after_cons, after_nil]
  rfl
set_option maxRecDepth 65536 in
theorem keep4_arg9 (V : Valuation τ sig (Elt F)) : after ops4 V (main_arg9 : DevRef τ sig) = V (main_arg9 : DevRef τ sig) := by
  simp only [after_cons, after_nil]
  rfl
set_option maxRecDepth 65536 in
theorem keep4_arg10 (V : Valuation τ sig (Elt F)) : after ops4 V (main_arg10 : DevRef τ sig) = V (main_arg10 : DevRef τ sig) := by
  simp only [after_cons, after_nil]
  rfl
set_option maxRecDepth 65536 in
theorem keep5_arg0 (V : Valuation τ sig (Elt F)) : after ops5 V (main_arg0 : DevRef τ sig) = V (main_arg0 : DevRef τ sig) := by
  simp only [after_cons, after_nil]
  rfl
set_option maxRecDepth 65536 in
theorem keep5_arg1 (V : Valuation τ sig (Elt F)) : after ops5 V (main_arg1 : DevRef τ sig) = V (main_arg1 : DevRef τ sig) := by
  simp only [after_cons, after_nil]
  rfl
set_option maxRecDepth 65536 in
theorem keep5_arg2 (V : Valuation τ sig (Elt F)) : after ops5 V (main_arg2 : DevRef τ sig) = V (main_arg2 : DevRef τ sig) := by
  simp only [after_cons, after_nil]
  rfl
set_option maxRecDepth 65536 in
theorem keep5_arg3 (V : Valuation τ sig (Elt F)) : after ops5 V (main_arg3 : DevRef τ sig) = V (main_arg3 : DevRef τ sig) := by
  simp only [after_cons, after_nil]
  rfl
set_option maxRecDepth 65536 in
theorem keep5_arg4 (V : Valuation τ sig (Elt F)) : after ops5 V (main_arg4 : DevRef τ sig) = V (main_arg4 : DevRef τ sig) := by
  simp only [after_cons, after_nil]
  rfl
set_option maxRecDepth 65536 in
theorem keep5_arg5 (V : Valuation τ sig (Elt F)) : after ops5 V (main_arg5 : DevRef τ sig) = V (main_arg5 : DevRef τ sig) := by
  simp only [after_cons, after_nil]
  rfl
set_option maxRecDepth 65536 in
theorem keep5_arg6 (V : Valuation τ sig (Elt F)) : after ops5 V (main_arg6 : DevRef τ sig) = V (main_arg6 : DevRef τ sig) := by
  simp only [after_cons, after_nil]
  rfl
set_option maxRecDepth 65536 in
theorem keep5_arg7 (V : Valuation τ sig (Elt F)) : after ops5 V (main_arg7 : DevRef τ sig) = V (main_arg7 : DevRef τ sig) := by
  simp only [after_cons, after_nil]
  rfl
set_option maxRecDepth 65536 in
theorem keep5_arg8 (V : Valuation τ sig (Elt F)) : after ops5 V (main_arg8 : DevRef τ sig) = V (main_arg8 : DevRef τ sig) := by
  simp only [after_cons, after_nil]
  rfl
set_option maxRecDepth 65536 in
theorem keep5_arg9 (V : Valuation τ sig (Elt F)) : after ops5 V (main_arg9 : DevRef τ sig) = V (main_arg9 : DevRef τ sig) := by
  simp only [after_cons, after_nil]
  rfl
set_option maxRecDepth 65536 in
theorem keep5_arg10 (V : Valuation τ sig (Elt F)) : after ops5 V (main_arg10 : DevRef τ sig) = V (main_arg10 : DevRef τ sig) := by
  simp only [after_cons, after_nil]
  rfl
theorem keep_arg0 (V : Valuation τ sig (Elt F)) : after ops V (main_arg0 : DevRef τ sig) = V (main_arg0 : DevRef τ sig) := by
  simp only [ops, after_append]
  exact (keep5_arg0 _).trans ((keep4_arg0 _).trans ((keep3_arg0 _).trans ((keep2_arg0 _).trans ((keep1_arg0 _).trans (keep0_arg0 _)))))
theorem keep_arg1 (V : Valuation τ sig (Elt F)) : after ops V (main_arg1 : DevRef τ sig) = V (main_arg1 : DevRef τ sig) := by
  simp only [ops, after_append]
  exact (keep5_arg1 _).trans ((keep4_arg1 _).trans ((keep3_arg1 _).trans ((keep2_arg1 _).trans ((keep1_arg1 _).trans (keep0_arg1 _)))))
theorem keep_arg2 (V : Valuation τ sig (Elt F)) : after ops V (main_arg2 : DevRef τ sig) = V (main_arg2 : DevRef τ sig) := by
  simp only [ops, after_append]
  exact (keep5_arg2 _).trans ((keep4_arg2 _).trans ((keep3_arg2 _).trans ((keep2_arg2 _).trans ((keep1_arg2 _).trans (keep0_arg2 _)))))
theorem keep_arg3 (V : Valuation τ sig (Elt F)) : after ops V (main_arg3 : DevRef τ sig) = V (main_arg3 : DevRef τ sig) := by
  simp only [ops, after_append]
  exact (keep5_arg3 _).trans ((keep4_arg3 _).trans ((keep3_arg3 _).trans ((keep2_arg3 _).trans ((keep1_arg3 _).trans (keep0_arg3 _)))))
theorem keep_arg4 (V : Valuation τ sig (Elt F)) : after ops V (main_arg4 : DevRef τ sig) = V (main_arg4 : DevRef τ sig) := by
  simp only [ops, after_append]
  exact (keep5_arg4 _).trans ((keep4_arg4 _).trans ((keep3_arg4 _).trans ((keep2_arg4 _).trans ((keep1_arg4 _).trans (keep0_arg4 _)))))
theorem keep_arg5 (V : Valuation τ sig (Elt F)) : after ops V (main_arg5 : DevRef τ sig) = V (main_arg5 : DevRef τ sig) := by
  simp only [ops, after_append]
  exact (keep5_arg5 _).trans ((keep4_arg5 _).trans ((keep3_arg5 _).trans ((keep2_arg5 _).trans ((keep1_arg5 _).trans (keep0_arg5 _)))))
theorem keep_arg6 (V : Valuation τ sig (Elt F)) : after ops V (main_arg6 : DevRef τ sig) = V (main_arg6 : DevRef τ sig) := by
  simp only [ops, after_append]
  exact (keep5_arg6 _).trans ((keep4_arg6 _).trans ((keep3_arg6 _).trans ((keep2_arg6 _).trans ((keep1_arg6 _).trans (keep0_arg6 _)))))
theorem keep_arg7 (V : Valuation τ sig (Elt F)) : after ops V (main_arg7 : DevRef τ sig) = V (main_arg7 : DevRef τ sig) := by
  simp only [ops, after_append]
  exact (keep5_arg7 _).trans ((keep4_arg7 _).trans ((keep3_arg7 _).trans ((keep2_arg7 _).trans ((keep1_arg7 _).trans (keep0_arg7 _)))))
theorem keep_arg8 (V : Valuation τ sig (Elt F)) : after ops V (main_arg8 : DevRef τ sig) = V (main_arg8 : DevRef τ sig) := by
  simp only [ops, after_append]
  exact (keep5_arg8 _).trans ((keep4_arg8 _).trans ((keep3_arg8 _).trans ((keep2_arg8 _).trans ((keep1_arg8 _).trans (keep0_arg8 _)))))
theorem keep_arg9 (V : Valuation τ sig (Elt F)) : after ops V (main_arg9 : DevRef τ sig) = V (main_arg9 : DevRef τ sig) := by
  simp only [ops, after_append]
  exact (keep5_arg9 _).trans ((keep4_arg9 _).trans ((keep3_arg9 _).trans ((keep2_arg9 _).trans ((keep1_arg9 _).trans (keep0_arg9 _)))))
theorem keep_arg10 (V : Valuation τ sig (Elt F)) : after ops V (main_arg10 : DevRef τ sig) = V (main_arg10 : DevRef τ sig) := by
  simp only [ops, after_append]
  exact (keep5_arg10 _).trans ((keep4_arg10 _).trans ((keep3_arg10 _).trans ((keep2_arg10 _).trans ((keep1_arg10 _).trans (keep0_arg10 _)))))

/-- THE FRAME of the reference, at any float instance. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c main_arg0).trans (keep_arg0 _),
     (h c main_arg1).trans (keep_arg1 _),
     (h c main_arg2).trans (keep_arg2 _),
     (h c main_arg3).trans (keep_arg3 _),
     (h c main_arg4).trans (keep_arg4 _),
     (h c main_arg5).trans (keep_arg5 _),
     (h c main_arg6).trans (keep_arg6 _),
     (h c main_arg7).trans (keep_arg7 _),
     (h c main_arg8).trans (keep_arg8 _),
     (h c main_arg9).trans (keep_arg9 _),
     (h c main_arg10).trans (keep_arg10 _)⟩) (run_main m ρ)

end Cert.ReferenceIdeal.Hand

end
-- ==== Proof.RefSplit.lean ====
/-
  The reference's straight line cut at the layer boundaries: for each layer first the operations that form
  x = h + segment_sum(h[src] * w, dst) (for the first layer also the preparation of the edge indices), then the
  operations from x to the layer's output (two products, three batch norms, the rectifiers). The whole line is the
  six pieces in order, so its fold is the pieces' folds composed.
-/
import proofs.«180905_j29583734735286_1_alg».proof.Proof.RefFrame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev A0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg2 main_v11 (broadcastInDim S600000x1 ![0] bcast_S600000_S600000x1_0 : (⟨S600000, .f32⟩ : BufTy).Contents (Elt F) → (⟨S600000x1, .f32⟩ : BufTy).Contents (Elt F)),
    StableHlo.unary main_v11 main_v12 (broadcastInDim S600000x128 ![0, 1] bcast_S600000x1_S600000x128_0_1 : (⟨S600000x1, .f32⟩ : BufTy).Contents (Elt F) → (⟨S600000x128, .f32⟩ : BufTy).Contents (Elt F)),
    StableHlo.binary main_v10 main_v12 main_v13 (mulf : (⟨S600000x128, .f32⟩ : BufTy).Contents (Elt F) → (⟨S600000x128, .f32⟩ : BufTy).Contents (Elt F) → (⟨S600000x128, .f32⟩ : BufTy).Contents (Elt F)),
    StableHlo.nullary main_cst (constant S_ .f32 0x00000000#32),
    StableHlo.unary main_cst main_v14 (broadcastInDim S50000x128 ![] bcast_S_S50000x128 : (⟨S_, .f32⟩ : BufTy).Contents (Elt F) → (⟨S50000x128, .f32⟩ : BufTy).Contents (Elt F)),
    StableHlo.unary main_v3 main_v15 (broadcastInDim S600000x1 ![0] bcast_S600000_S600000x1_0 : (⟨S600000, .i32⟩ : BufTy).Contents (Elt F) → (⟨S600000x1, .i32⟩ : BufTy).Contents (Elt F)),
    StableHlo.ternary main_v14 main_v15 main_v13 main_v16 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v16 main_v17 (addf : (⟨S50000x128, .f32⟩ : BufTy).Contents (Elt F) → (⟨S50000x128, .f32⟩ : BufTy).Contents (Elt F) → (⟨S50000x128, .f32⟩ : BufTy).Contents (Elt F)) ]

abbrev B0 : List (HloOp τ sig (Elt F)) :=
  [ StableHlo.unary main_arg3 main_v18 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v18 main_v19 rfl shapeCasts_S1x128x128_S128x128,
    StableHlo.binary main_v17 main_v19 main_v20 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v21 ((extractStridedSlice S1x128 ![0, 0] · slices_S3x128_S1x128_0_0) : (⟨S3x128, .f32⟩ : BufTy).Contents (Elt F) → (⟨S1x128, .f32⟩ : BufTy).Contents (Elt F)),
    StableHlo.reshape main_v21 main_v22 rfl shapeCasts_S1x128_S128,
    StableHlo.unary main_arg6 main_v23 ((extractStridedSlice S1x128 ![0, 0] · slices_S3x128_S1x128_0_0) : (⟨S3x128, .f32⟩ : BufTy).Contents (Elt F) → (⟨S1x128, .f32⟩ : BufTy).Contents (Elt F)),
    StableHlo.reshape main_v23 main_v24 rfl shapeCasts_S1x128_S128,
    StableHlo.nullary main_cst_1 (constant S_ .f32 0x00000000#32),
    StableHlo.binary main_v20 main_cst_1 main_v25 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v20) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v20) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v27 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v20 main_v30 main_v31 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v32 (broadcastInDim S128 ![] bcast_S_S128 : (⟨S_, .f32⟩ : BufTy).Contents (Elt F) → (⟨S128, .f32⟩ : BufTy).Contents (Elt F)),
    StableHlo.binary main_v28 main_v32 main_v33 (addf : (⟨S128, .f32⟩ : BufTy).Contents (Elt F) → (⟨S128, .f32⟩ : BufTy).Contents (Elt F) → (⟨S128, .f32⟩ : BufTy).Contents (Elt F)),
    StableHlo.unary main_v33 main_v34 (Host.rsqrt : (⟨S128, .f32⟩ : BufTy).Contents (Elt F) → (⟨S128, .f32⟩ : BufTy).Contents (Elt F)),
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v36 main_v37 (mulf : (⟨S50000x128, .f32⟩ : BufTy).Contents (Elt F) → (⟨S50000x128, .f32⟩ : BufTy).Contents (Elt F) → (⟨S50000x128, .f32⟩ : BufTy).Contents (Elt F)),
    StableHlo.unary main_v22 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v39 main_v40 (mulf : (⟨S50000x128, .f32⟩ : BufTy).Contents (Elt F) → (⟨S50000x128, .f32⟩ : BufTy).Contents (Elt F) → (⟨S50000x128, .f32⟩ : BufTy).Contents (Elt F)),
    StableHlo.unary main_v24 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v43) main_call1.v0 main_call1.v1 maximumf,
    StableHlo.unary main_arg4 main_v45 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v45 main_v46 rfl shapeCasts_S1x128x128_S128x128,
    StableHlo.binary main_v44 main_v46 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v48 ((extractStridedSlice S1x128 ![0, 0] · slices_S3x128_S1x128_0_0) : (⟨S3x128, .f32⟩ : BufTy).Contents (Elt F) → (⟨S1x128, .f32⟩ : BufTy).Contents (Elt F)),
    StableHlo.reshape main_v48 main_v49 rfl shapeCasts_S1x128_S128,
    StableHlo.unary main_arg8 main_v50 ((extractStridedSlice S1x128 ![0, 0] · slices_S3x128_S1x128_0_0) : (⟨S3x128, .f32⟩ : BufTy).Contents (Elt F) → (⟨S1x128, .f32⟩ : BufTy).Contents (Elt F)),
    StableHlo.reshape main_v50 main_v51 rfl shapeCasts_S1x128_S128,
    StableHlo.nullary main_cst_5 (constant S_ .f32 0x00000000#32),
    StableHlo.binary main_v47 main_cst_5 main_v52 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v53 (broadcastInDim S128 ![] bcast_S_S128 : (⟨S_, .f32⟩ : BufTy).Contents (Elt F) → (⟨S128, .f32⟩ : BufTy).Contents (Elt F)),
    StableHlo.binary main_v52 main_v53 main_v54 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (.of main_v47) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v47) main_call2.v4 main_call2.v5 subf,
    StableHlo.TRef.binary main_call2.v5 main_call2.v5 main_call2.v6 mulf,
    StableHlo.TRef.unary (.of main_c_7) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v54 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v57 main_v58 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v59 (broadcastInDim S128 ![] bcast_S_S128 : (⟨S_, .f32⟩ : BufTy).Contents (Elt F) → (⟨S128, .f32⟩ : BufTy).Contents (Elt F)),
    StableHlo.binary main_v55 main_v59 main_v60 (addf : (⟨S128, .f32⟩ : BufTy).Contents (Elt F) → (⟨S128, .f32⟩ : BufTy).Contents (Elt F) → (⟨S128, .f32⟩ : BufTy).Contents (Elt F)),
    StableHlo.unary main_v60 main_v61 (Host.rsqrt : (⟨S128, .f32⟩ : BufTy).Contents (Elt F) → (⟨S128, .f32⟩ : BufTy).Contents (Elt F)),
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v63 main_v64 (mulf : (⟨S50000x128, .f32⟩ : BufTy).Contents (Elt F) → (⟨S50000x128, .f32⟩ : BufTy).Contents (Elt F) → (⟨S50000x128, .f32⟩ : BufTy).Contents (Elt F)),
    StableHlo.unary main_v49 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (mulf : (⟨S50000x128, .f32⟩ : BufTy).Contents (Elt F) → (⟨S50000x128, .f32⟩ : BufTy).Contents (Elt F) → (⟨S50000x128, .f32⟩ : BufTy).Contents (Elt F)),
    StableHlo.unary main_v51 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v69 main_v70 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v70) main_call3.v0 main_call3.v1 maximumf,
    StableHlo.unary main_arg9 main_v72 ((extractStridedSlice S1x128 ![0, 0] · slices_S3x128_S1x128_0_0) : (⟨S3x128, .f32⟩ : BufTy).Contents (Elt F) → (⟨S1x128, .f32⟩ : BufTy).Contents (Elt F)),
    StableHlo.reshape main_v72 main_v73 rfl shapeCasts_S1x128_S128,
    StableHlo.unary main_arg10 main_v74 ((extractStridedSlice S1x128 ![0, 0] · slices_S3x128_S1x128_0_0) : (⟨S3x128, .f32⟩ : BufTy).Contents (Elt F) → (⟨S1x128, .f32⟩ : BufTy).Contents (Elt F)),
    StableHlo.reshape main_v74 main_v75 rfl shapeCasts_S1x128_S128,
    StableHlo.nullary main_cst_9 (constant S_ .f32 0x00000000#32),
    StableHlo.binary main_v71 main_cst_9 main_v76 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v77 (broadcastInDim S128 ![] bcast_S_S128 : (⟨S_, .f32⟩ : BufTy).Contents (Elt F) → (⟨S128, .f32⟩ : BufTy).Contents (Elt F)),
    StableHlo.binary main_v76 main_v77 main_v78 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call4.cst (constant S_ .f32 0x00000000#32),
    StableHlo.TRef.binary (.of main_v71) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v71) main_call4.v4 main_call4.v5 subf,
    StableHlo.TRef.binary main_call4.v5 main_call4.v5 main_call4.v6 mulf,
    StableHlo.TRef.unary (.of main_c_11) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v78 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v81 main_v82 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v83 (broadcastInDim S128 ![] bcast_S_S128 : (⟨S_, .f32⟩ : BufTy).Contents (Elt F) → (⟨S128, .f32⟩ : BufTy).Contents (Elt F)),
    StableHlo.binary main_v79 main_v83 main_v84 (addf : (⟨S128, .f32⟩ : BufTy).Contents (Elt F) → (⟨S128, .f32⟩ : BufTy).Contents (Elt F) → (⟨S128, .f32⟩ : BufTy).Contents (Elt F)),
    StableHlo.unary main_v84 main_v85 (Host.rsqrt : (⟨S128, .f32⟩ : BufTy).Contents (Elt F) → (⟨S128, .f32⟩ : BufTy).Contents (Elt F)),
    StableHlo.unary main_v85 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v87 main_v88 (mulf : (⟨S50000x128, .f32⟩ : BufTy).Contents (Elt F) → (⟨S50000x128, .f32⟩ : BufTy).Contents (Elt F) → (⟨S50000x128, .f32⟩ : BufTy).Contents (Elt F)),
    StableHlo.unary main_v73 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v90 main_v91 (mulf : (⟨S50000x128, .f32⟩ : BufTy).Contents (Elt F) → (⟨S50000x128, .f32⟩ : BufTy).Contents (Elt F) → (⟨S50000x128, .f32⟩ : BufTy).Contents (Elt F)),
    StableHlo.unary main_v75 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v91 main_v93 main_v94 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v94) main_call5.v0 main_call5.v1 maximumf ]

abbrev A1 : List (HloOp τ sig (Elt F)) :=
  [ StableHlo.nullary main_c_13 (constantI S_ 32 0#32),
    StableHlo.unary main_c_13 main_v96 (broadcastInDim S600000 ![] bcast_S_S600000 : (⟨S_, .i32⟩ : BufTy).Contents (Elt F) → (⟨S600000, .i32⟩ : BufTy).Contents (Elt F)),
    StableHlo.binary main_v1 main_v96 main_v97 (cmpi .slt : (⟨S600000, .i32⟩ : BufTy).Contents (Elt F) → (⟨S600000, .i32⟩ : BufTy).Contents (Elt F) → (⟨S600000, .i1⟩ : BufTy).Contents (Elt F)),
    StableHlo.nullary main_c_14 (constantI S_ 32 50000#32),
    StableHlo.unary main_c_14 main_v98 (broadcastInDim S600000 ![] bcast_S_S600000 : (⟨S_, .i32⟩ : BufTy).Contents (Elt F) → (⟨S600000, .i32⟩ : BufTy).Contents (Elt F)),
    StableHlo.binary main_v1 main_v98 main_v99 (addi : (⟨S600000, .i32⟩ : BufTy).Contents (Elt F) → (⟨S600000, .i32⟩ : BufTy).Contents (Elt F) → (⟨S600000, .i32⟩ : BufTy).Contents (Elt F)),
    StableHlo.ternary main_v97 main_v99 main_v1 main_v100 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v100 main_v101 (broadcastInDim S600000x1 ![0] bcast_S600000_S600000x1_0 : (⟨S600000, .i32⟩ : BufTy).Contents (Elt F) → (⟨S600000x1, .i32⟩ : BufTy).Contents (Elt F)),
    StableHlo.binary main_v95 main_v101 main_v102 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg2 main_v103 (broadcastInDim S600000x1 ![0] bcast_S600000_S600000x1_0 : (⟨S600000, .f32⟩ : BufTy).Contents (Elt F) → (⟨S600000x1, .f32⟩ : BufTy).Contents (Elt F)),
    StableHlo.unary main_v103 main_v104 (broadcastInDim S600000x128 ![0, 1] bcast_S600000x1_S600000x128_0_1 : (⟨S600000x1, .f32⟩ : BufTy).Contents (Elt F) → (⟨S600000x128, .f32⟩ : BufTy).Contents (Elt F)),
    StableHlo.binary main_v102 main_v104 main_v105 (mulf : (⟨S600000x128, .f32⟩ : BufTy).Contents (Elt F) → (⟨S600000x128, .f32⟩ : BufTy).Contents (Elt F) → (⟨S600000x128, .f32⟩ : BufTy).Contents (Elt F)),
    StableHlo.nullary main_cst_15 (constant S_ .f32 0x00000000#32),
    StableHlo.unary main_cst_15 main_v106 (broadcastInDim S50000x128 ![] bcast_S_S50000x128 : (⟨S_, .f32⟩ : BufTy).Contents (Elt F) → (⟨S50000x128, .f32⟩ : BufTy).Contents (Elt F)),
    StableHlo.unary main_v3 main_v107 (broadcastInDim S600000x1 ![0] bcast_S600000_S600000x1_0 : (⟨S600000, .i32⟩ : BufTy).Contents (Elt F) → (⟨S600000x1, .i32⟩ : BufTy).Contents (Elt F)),
    StableHlo.ternary main_v106 main_v107 main_v105 main_v108 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v95 main_v108 main_v109 (addf : (⟨S50000x128, .f32⟩ : BufTy).Contents (Elt F) → (⟨S50000x128, .f32⟩ : BufTy).Contents (Elt F) → (⟨S50000x128, .f32⟩ : BufTy).Contents (Elt F)) ]

abbrev B1 : List (HloOp τ sig (Elt F)) :=
  [ StableHlo.unary main_arg3 main_v110 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v110 main_v111 rfl shapeCasts_S1x128x128_S128x128,
    StableHlo.binary main_v109 main_v111 main_v112 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v113 ((extractStridedSlice S1x128 ![1, 0] · slices_S3x128_S1x128_1_0) : (⟨S3x128, .f32⟩ : BufTy).Contents (Elt F) → (⟨S1x128, .f32⟩ : BufTy).Contents (Elt F)),
    StableHlo.reshape main_v113 main_v114 rfl shapeCasts_S1x128_S128,
    StableHlo.unary main_arg6 main_v115 ((extractStridedSlice S1x128 ![1, 0] · slices_S3x128_S1x128_1_0) : (⟨S3x128, .f32⟩ : BufTy).Contents (Elt F) → (⟨S1x128, .f32⟩ : BufTy).Contents (Elt F)),
    StableHlo.reshape main_v115 main_v116 rfl shapeCasts_S1x128_S128,
    StableHlo.nullary main_cst_16 (constant S_ .f32 0x00000000#32),
    StableHlo.binary main_v112 main_cst_16 main_v117 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v118 (broadcastInDim S128 ![] bcast_S_S128 : (⟨S_, .f32⟩ : BufTy).Contents (Elt F) → (⟨S128, .f32⟩ : BufTy).Contents (Elt F)),
    StableHlo.binary main_v117 main_v118 main_v119 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call6.cst (constant S_ .f32 0x00000000#32),
    StableHlo.TRef.binary (.of main_v112) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v112) main_call6.v4 main_call6.v5 subf,
    StableHlo.TRef.binary main_call6.v5 main_call6.v5 main_call6.v6 mulf,
    StableHlo.TRef.unary (.of main_c_18) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v119 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S50000x128 ![0, 1] bcast_S1x128_S50000x128_0_1 : (⟨S1x128, .f32⟩ : BufTy).Contents (Elt F) → (⟨S50000x128, .f32⟩ : BufTy).Contents (Elt F)),
    StableHlo.binary main_v112 main_v122 main_v123 (subf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v124 (broadcastInDim S128 ![] bcast_S_S128 : (⟨S_, .f32⟩ : BufTy).Contents (Elt F) → (⟨S128, .f32⟩ : BufTy).Contents (Elt F)),
    StableHlo.binary main_v120 main_v124 main_v125 (addf : (⟨S128, .f32⟩ : BufTy).Contents (Elt F) → (⟨S128, .f32⟩ : BufTy).Contents (Elt F) → (⟨S128, .f32⟩ : BufTy).Contents (Elt F)),
    StableHlo.unary main_v125 main_v126 (Host.rsqrt : (⟨S128, .f32⟩ : BufTy).Contents (Elt F) → (⟨S128, .f32⟩ : BufTy).Contents (Elt F)),
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v128 main_v129 (mulf : (⟨S50000x128, .f32⟩ : BufTy).Contents (Elt F) → (⟨S50000x128, .f32⟩ : BufTy).Contents (Elt F) → (⟨S50000x128, .f32⟩ : BufTy).Contents (Elt F)),
    StableHlo.unary main_v114 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v131 main_v132 (mulf : (⟨S50000x128, .f32⟩ : BufTy).Contents (Elt F) → (⟨S50000x128, .f32⟩ : BufTy).Contents (Elt F) → (⟨S50000x128, .f32⟩ : BufTy).Contents (Elt F)),
    StableHlo.unary main_v116 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v132 main_v134 main_v135 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v135) main_call7.v0 main_call7.v1 maximumf,
    StableHlo.unary main_arg4 main_v137 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v137 main_v138 rfl shapeCasts_S1x128x128_S128x128,
    StableHlo.binary main_v136 main_v138 main_v139 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v140 ((extractStridedSlice S1x128 ![1, 0] · slices_S3x128_S1x128_1_0) : (⟨S3x128, .f32⟩ : BufTy).Contents (Elt F) → (⟨S1x128, .f32⟩ : BufTy).Contents (Elt F)),
    StableHlo.reshape main_v140 main_v141 rfl shapeCasts_S1x128_S128,
    StableHlo.unary main_arg8 main_v142 ((extractStridedSlice S1x128 ![1, 0] · slices_S3x128_S1x128_1_0) : (⟨S3x128, .f32⟩ : BufTy).Contents (Elt F) → (⟨S1x128, .f32⟩ : BufTy).Contents (Elt F)),
    StableHlo.reshape main_v142 main_v143 rfl shapeCasts_S1x128_S128,
    StableHlo.nullary main_cst_20 (constant S_ .f32 0x00000000#32),
    StableHlo.binary main_v139 main_cst_20 main_v144 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_21 (constant S_ .f32 0x47435000#32),
    StableHlo.unary main_cst_21 main_v145 (broadcastInDim S128 ![] bcast_S_S128 : (⟨S_, .f32⟩ : BufTy).Contents (Elt F) → (⟨S128, .f32⟩ : BufTy).Contents (Elt F)),
    StableHlo.binary main_v144 main_v145 main_v146 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary main_call8.cst (constant S_ .f32 0x00000000#32),
    StableHlo.TRef.binary (.of main_v139) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (.of main_v139) main_call8.v4 main_call8.v5 subf,
    StableHlo.TRef.binary main_call8.v5 main_call8.v5 main_call8.v6 mulf,
    StableHlo.TRef.unary (.of main_c_22) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v146 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S50000x128 ![0, 1] bcast_S1x128_S50000x128_0_1 : (⟨S1x128, .f32⟩ : BufTy).Contents (Elt F) → (⟨S50000x128, .f32⟩ : BufTy).Contents (Elt F)),
    StableHlo.binary main_v139 main_v149 main_v150 (subf : (⟨S50000x128, .f32⟩ : BufTy).Contents (Elt F) → (⟨S50000x128, .f32⟩ : BufTy).Contents (Elt F) → (⟨S50000x128, .f32⟩ : BufTy).Contents (Elt F)),
    StableHlo.nullary main_cst_23 (constant S_ .f32 0x3727C5AC#32),
    StableHlo.unary main_cst_23 main_v151 (broadcastInDim S128 ![] bcast_S_S128 : (⟨S_, .f32⟩ : BufTy).Contents (Elt F) → (⟨S128, .f32⟩ : BufTy).Contents (Elt F)),
    StableHlo.binary main_v147 main_v151 main_v152 (addf : (⟨S128, .f32⟩ : BufTy).Contents (Elt F) → (⟨S128, .f32⟩ : BufTy).Contents (Elt F) → (⟨S128, .f32⟩ : BufTy).Contents (Elt F)),
    StableHlo.unary main_v152 main_v153 (Host.rsqrt : (⟨S128, .f32⟩ : BufTy).Contents (Elt F) → (⟨S128, .f32⟩ : BufTy).Contents (Elt F)),
    StableHlo.unary main_v153 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S50000x128 ![0, 1] bcast_S1x128_S50000x128_0_1 : (⟨S1x128, .f32⟩ : BufTy).Contents (Elt F) → (⟨S50000x128, .f32⟩ : BufTy).Contents (Elt F)),
    StableHlo.binary main_v150 main_v155 main_v156 (mulf : (⟨S50000x128, .f32⟩ : BufTy).Contents (Elt F) → (⟨S50000x128, .f32⟩ : BufTy).Contents (Elt F) → (⟨S50000x128, .f32⟩ : BufTy).Contents (Elt F)),
    StableHlo.unary main_v141 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S50000x128 ![0, 1] bcast_S1x128_S50000x128_0_1 : (⟨S1x128, .f32⟩ : BufTy).Contents (Elt F) → (⟨S50000x128, .f32⟩ : BufTy).Contents (Elt F)),
    StableHlo.binary main_v156 main_v158 main_v159 (mulf : (⟨S50000x128, .f32⟩ : BufTy).Contents (Elt F) → (⟨S50000x128, .f32⟩ : BufTy).Contents (Elt F) → (⟨S50000x128, .f32⟩ : BufTy).Contents (Elt F)),
    StableHlo.unary main_v143 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S50000x128 ![0, 1] bcast_S1x128_S50000x128_0_1 : (⟨S1x128, .f32⟩ : BufTy).Contents (Elt F) → (⟨S50000x128, .f32⟩ : BufTy).Contents (Elt F)),
    StableHlo.binary main_v159 main_v161 main_v162 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v162) main_call9.v0 main_call9.v1 maximumf,
    StableHlo.unary main_arg9 main_v164 ((extractStridedSlice S1x128 ![1, 0] · slices_S3x128_S1x128_1_0) : (⟨S3x128, .f32⟩ : BufTy).Contents (Elt F) → (⟨S1x128, .f32⟩ : BufTy).Contents (Elt F)),
    StableHlo.reshape main_v164 main_v165 rfl shapeCasts_S1x128_S128,
    StableHlo.unary main_arg10 main_v166 ((extractStridedSlice S1x128 ![1, 0] · slices_S3x128_S1x128_1_0) : (⟨S3x128, .f32⟩ : BufTy).Contents (Elt F) → (⟨S1x128, .f32⟩ : BufTy).Contents (Elt F)),
    StableHlo.reshape main_v166 main_v167 rfl shapeCasts_S1x128_S128,
    StableHlo.nullary main_cst_24 (constant S_ .f32 0x00000000#32),
    StableHlo.binary main_v163 main_cst_24 main_v168 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_25 (constant S_ .f32 0x47435000#32),
    StableHlo.unary main_cst_25 main_v169 (broadcastInDim S128 ![] bcast_S_S128 : (⟨S_, .f32⟩ : BufTy).Contents (Elt F) → (⟨S128, .f32⟩ : BufTy).Contents (Elt F)),
    StableHlo.binary main_v168 main_v169 main_v170 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.TRef.nullary main_call10.cst (constant S_ .f32 0x00000000#32),
    StableHlo.TRef.binary (.of main_v163) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v163) main_call10.v4 main_call10.v5 subf,
    StableHlo.TRef.binary main_call10.v5 main_call10.v5 main_call10.v6 mulf,
    StableHlo.TRef.unary (.of main_c_26) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v170 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S50000x128 ![0, 1] bcast_S1x128_S50000x128_0_1 : (⟨S1x128, .f32⟩ : BufTy).Contents (Elt F) → (⟨S50000x128, .f32⟩ : BufTy).Contents (Elt F)),
    StableHlo.binary main_v163 main_v173 main_v174 (subf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x3727C5AC#32),
    StableHlo.unary main_cst_27 main_v175 (broadcastInDim S128 ![] bcast_S_S128 : (⟨S_, .f32⟩ : BufTy).Contents (Elt F) → (⟨S128, .f32⟩ : BufTy).Contents (Elt F)),
    StableHlo.binary main_v171 main_v175 main_v176 (addf : (⟨S128, .f32⟩ : BufTy).Contents (Elt F) → (⟨S128, .f32⟩ : BufTy).Contents (Elt F) → (⟨S128, .f32⟩ : BufTy).Contents (Elt F)),
    StableHlo.unary main_v176 main_v177 (Host.rsqrt : (⟨S128, .f32⟩ : BufTy).Contents (Elt F) → (⟨S128, .f32⟩ : BufTy).Contents (Elt F)),
    StableHlo.unary main_v177 main_v178 (broadcastInDim S1x128 ![1] bcast_S128_S1x128_1 : (⟨S128, .f32⟩ : BufTy).Contents (Elt F) → (⟨S1x128, .f32⟩ : BufTy).Contents (Elt F)),
    StableHlo.unary main_v178 main_v179 (broadcastInDim S50000x128 ![0, 1] bcast_S1x128_S50000x128_0_1 : (⟨S1x128, .f32⟩ : BufTy).Contents (Elt F) → (⟨S50000x128, .f32⟩ : BufTy).Contents (Elt F)),
    StableHlo.binary main_v174 main_v179 main_v180 (mulf : (⟨S50000x128, .f32⟩ : BufTy).Contents (Elt F) → (⟨S50000x128, .f32⟩ : BufTy).Contents (Elt F) → (⟨S50000x128, .f32⟩ : BufTy).Contents (Elt F)),
    StableHlo.unary main_v165 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S50000x128 ![0, 1] bcast_S1x128_S50000x128_0_1 : (⟨S1x128, .f32⟩ : BufTy).Contents (Elt F) → (⟨S50000x128, .f32⟩ : BufTy).Contents (Elt F)),
    StableHlo.binary main_v180 main_v182 main_v183 (mulf : (⟨S50000x128, .f32⟩ : BufTy).Contents (Elt F) → (⟨S50000x128, .f32⟩ : BufTy).Contents (Elt F) → (⟨S50000x128, .f32⟩ : BufTy).Contents (Elt F)),
    StableHlo.unary main_v167 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S50000x128 ![0, 1] bcast_S1x128_S50000x128_0_1 : (⟨S1x128, .f32⟩ : BufTy).Contents (Elt F) → (⟨S50000x128, .f32⟩ : BufTy).Contents (Elt F)),
    StableHlo.binary main_v183 main_v185 main_v186 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v186) main_call11.v0 main_call11.v1 maximumf ]

abbrev A2 : List (HloOp τ sig (Elt F)) :=
  [ StableHlo.nullary main_c_28 (constantI S_ 32 0#32),
    StableHlo.unary main_c_28 main_v188 (broadcastInDim S600000 ![] bcast_S_S600000 : (⟨S_, .i32⟩ : BufTy).Contents (Elt F) → (⟨S600000, .i32⟩ : BufTy).Contents (Elt F)),
    StableHlo.binary main_v1 main_v188 main_v189 (cmpi .slt : (⟨S600000, .i32⟩ : BufTy).Contents (Elt F) → (⟨S600000, .i32⟩ : BufTy).Contents (Elt F) → (⟨S600000, .i1⟩ : BufTy).Contents (Elt F)),
    StableHlo.nullary main_c_29 (constantI S_ 32 50000#32),
    StableHlo.unary main_c_29 main_v190 (broadcastInDim S600000 ![] bcast_S_S600000 : (⟨S_, .i32⟩ : BufTy).Contents (Elt F) → (⟨S600000, .i32⟩ : BufTy).Contents (Elt F)),
    StableHlo.binary main_v1 main_v190 main_v191 (addi : (⟨S600000, .i32⟩ : BufTy).Contents (Elt F) → (⟨S600000, .i32⟩ : BufTy).Contents (Elt F) → (⟨S600000, .i32⟩ : BufTy).Contents (Elt F)),
    StableHlo.ternary main_v189 main_v191 main_v1 main_v192 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v192 main_v193 (broadcastInDim S600000x1 ![0] bcast_S600000_S600000x1_0 : (⟨S600000, .i32⟩ : BufTy).Contents (Elt F) → (⟨S600000x1, .i32⟩ : BufTy).Contents (Elt F)),
    StableHlo.binary main_v187 main_v193 main_v194 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg2 main_v195 (broadcastInDim S600000x1 ![0] bcast_S600000_S600000x1_0 : (⟨S600000, .f32⟩ : BufTy).Contents (Elt F) → (⟨S600000x1, .f32⟩ : BufTy).Contents (Elt F)),
    StableHlo.unary main_v195 main_v196 (broadcastInDim S600000x128 ![0, 1] bcast_S600000x1_S600000x128_0_1 : (⟨S600000x1, .f32⟩ : BufTy).Contents (Elt F) → (⟨S600000x128, .f32⟩ : BufTy).Contents (Elt F)),
    StableHlo.binary main_v194 main_v196 main_v197 (mulf : (⟨S600000x128, .f32⟩ : BufTy).Contents (Elt F) → (⟨S600000x128, .f32⟩ : BufTy).Contents (Elt F) → (⟨S600000x128, .f32⟩ : BufTy).Contents (Elt F)),
    StableHlo.nullary main_cst_30 (constant S_ .f32 0x00000000#32),
    StableHlo.unary main_cst_30 main_v198 (broadcastInDim S50000x128 ![] bcast_S_S50000x128 : (⟨S_, .f32⟩ : BufTy).Contents (Elt F) → (⟨S50000x128, .f32⟩ : BufTy).Contents (Elt F)),
    StableHlo.unary main_v3 main_v199 (broadcastInDim S600000x1 ![0] bcast_S600000_S600000x1_0 : (⟨S600000, .i32⟩ : BufTy).Contents (Elt F) → (⟨S600000x1, .i32⟩ : BufTy).Contents (Elt F)),
    StableHlo.ternary main_v198 main_v199 main_v197 main_v200 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v187 main_v200 main_v201 (addf : (⟨S50000x128, .f32⟩ : BufTy).Contents (Elt F) → (⟨S50000x128, .f32⟩ : BufTy).Contents (Elt F) → (⟨S50000x128, .f32⟩ : BufTy).Contents (Elt F)) ]

abbrev B2 : List (HloOp τ sig (Elt F)) :=
  [ StableHlo.unary main_arg3 main_v202 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v202 main_v203 rfl shapeCasts_S1x128x128_S128x128,
    StableHlo.binary main_v201 main_v203 main_v204 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v205 ((extractStridedSlice S1x128 ![2, 0] · slices_S3x128_S1x128_2_0) : (⟨S3x128, .f32⟩ : BufTy).Contents (Elt F) → (⟨S1x128, .f32⟩ : BufTy).Contents (Elt F)),
    StableHlo.reshape main_v205 main_v206 rfl shapeCasts_S1x128_S128,
    StableHlo.unary main_arg6 main_v207 ((extractStridedSlice S1x128 ![2, 0] · slices_S3x128_S1x128_2_0) : (⟨S3x128, .f32⟩ : BufTy).Contents (Elt F) → (⟨S1x128, .f32⟩ : BufTy).Contents (Elt F)),
    StableHlo.reshape main_v207 main_v208 rfl shapeCasts_S1x128_S128,
    StableHlo.nullary main_cst_31 (constant S_ .f32 0x00000000#32),
    StableHlo.binary main_v204 main_cst_31 main_v209 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_32 (constant S_ .f32 0x47435000#32),
    StableHlo.unary main_cst_32 main_v210 (broadcastInDim S128 ![] bcast_S_S128 : (⟨S_, .f32⟩ : BufTy).Contents (Elt F) → (⟨S128, .f32⟩ : BufTy).Contents (Elt F)),
    StableHlo.binary main_v209 main_v210 main_v211 (Host.divf : (⟨S128, .f32⟩ : BufTy).Contents (Elt F) → (⟨S128, .f32⟩ : BufTy).Contents (Elt F) → (⟨S128, .f32⟩ : BufTy).Contents (Elt F)),
    StableHlo.nullary main_c_33 (constantI S_ 32 0#32),
    StableHlo.TRef.nullary main_call12.cst (constant S_ .f32 0x00000000#32),
    StableHlo.TRef.binary (.of main_v204) main_call12.cst main_call12.v0 (fun x v => Host.reduceAdd x v reducesTo_S50000x128_S128_d0 h_S_),
    StableHlo.TRef.unary main_call12.v0 main_call12.v1 (broadcastInDim S1x128 ![1] bcast_S128_S1x128_1),
    StableHlo.TRef.nullary main_call12.cst_0 (constant S_ .f32 0x47435000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S50000x128 ![0, 1] bcast_S1x128_S50000x128_0_1),
    StableHlo.TRef.binary (.of main_v204) main_call12.v4 main_call12.v5 subf,
    StableHlo.TRef.binary main_call12.v5 main_call12.v5 main_call12.v6 mulf,
    StableHlo.TRef.unary (.of main_c_33) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b),
    StableHlo.unary main_v211 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S50000x128 ![0, 1] bcast_S1x128_S50000x128_0_1 : (⟨S1x128, .f32⟩ : BufTy).Contents (Elt F) → (⟨S50000x128, .f32⟩ : BufTy).Contents (Elt F)),
    StableHlo.binary main_v204 main_v214 main_v215 (subf : (⟨S50000x128, .f32⟩ : BufTy).Contents (Elt F) → (⟨S50000x128, .f32⟩ : BufTy).Contents (Elt F) → (⟨S50000x128, .f32⟩ : BufTy).Contents (Elt F)),
    StableHlo.nullary main_cst_34 (constant S_ .f32 0x3727C5AC#32),
    StableHlo.unary main_cst_34 main_v216 (broadcastInDim S128 ![] bcast_S_S128 : (⟨S_, .f32⟩ : BufTy).Contents (Elt F) → (⟨S128, .f32⟩ : BufTy).Contents (Elt F)),
    StableHlo.binary main_v212 main_v216 main_v217 (addf : (⟨S128, .f32⟩ : BufTy).Contents (Elt F) → (⟨S128, .f32⟩ : BufTy).Contents (Elt F) → (⟨S128, .f32⟩ : BufTy).Contents (Elt F)),
    StableHlo.unary main_v217 main_v218 (Host.rsqrt : (⟨S128, .f32⟩ : BufTy).Contents (Elt F) → (⟨S128, .f32⟩ : BufTy).Contents (Elt F)),
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S50000x128 ![0, 1] bcast_S1x128_S50000x128_0_1 : (⟨S1x128, .f32⟩ : BufTy).Contents (Elt F) → (⟨S50000x128, .f32⟩ : BufTy).Contents (Elt F)),
    StableHlo.binary main_v215 main_v220 main_v221 (mulf : (⟨S50000x128, .f32⟩ : BufTy).Contents (Elt F) → (⟨S50000x128, .f32⟩ : BufTy).Contents (Elt F) → (⟨S50000x128, .f32⟩ : BufTy).Contents (Elt F)),
    StableHlo.unary main_v206 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S50000x128 ![0, 1] bcast_S1x128_S50000x128_0_1 : (⟨S1x128, .f32⟩ : BufTy).Contents (Elt F) → (⟨S50000x128, .f32⟩ : BufTy).Contents (Elt F)),
    StableHlo.binary main_v221 main_v223 main_v224 (mulf : (⟨S50000x128, .f32⟩ : BufTy).Contents (Elt F) → (⟨S50000x128, .f32⟩ : BufTy).Contents (Elt F) → (⟨S50000x128, .f32⟩ : BufTy).Contents (Elt F)),
    StableHlo.unary main_v208 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S50000x128 ![0, 1] bcast_S1x128_S50000x128_0_1 : (⟨S1x128, .f32⟩ : BufTy).Contents (Elt F) → (⟨S50000x128, .f32⟩ : BufTy).Contents (Elt F)),
    StableHlo.binary main_v224 main_v226 main_v227 (addf : (⟨S50000x128, .f32⟩ : BufTy).Contents (Elt F) → (⟨S50000x128, .f32⟩ : BufTy).Contents (Elt F) → (⟨S50000x128, .f32⟩ : BufTy).Contents (Elt F)),
    StableHlo.TRef.nullary main_call13.cst (constant S_ .f32 0x00000000#32),
    StableHlo.TRef.unary main_call13.cst main_call13.v0 (broadcastInDim S50000x128 ![] bcast_S_S50000x128),
    StableHlo.TRef.binary (.of main_v227) main_call13.v0 main_call13.v1 maximumf,
    StableHlo.unary main_arg4 main_v229 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v229 main_v230 rfl shapeCasts_S1x128x128_S128x128,
    StableHlo.binary main_v228 main_v230 main_v231 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v232 ((extractStridedSlice S1x128 ![2, 0] · slices_S3x128_S1x128_2_0) : (⟨S3x128, .f32⟩ : BufTy).Contents (Elt F) → (⟨S1x128, .f32⟩ : BufTy).Contents (Elt F)),
    StableHlo.reshape main_v232 main_v233 rfl shapeCasts_S1x128_S128,
    StableHlo.unary main_arg8 main_v234 ((extractStridedSlice S1x128 ![2, 0] · slices_S3x128_S1x128_2_0) : (⟨S3x128, .f32⟩ : BufTy).Contents (Elt F) → (⟨S1x128, .f32⟩ : BufTy).Contents (Elt F)),
    StableHlo.reshape main_v234 main_v235 rfl shapeCasts_S1x128_S128,
    StableHlo.nullary main_cst_35 (constant S_ .f32 0x00000000#32),
    StableHlo.binary main_v231 main_cst_35 main_v236 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_36 (constant S_ .f32 0x47435000#32),
    StableHlo.unary main_cst_36 main_v237 (broadcastInDim S128 ![] bcast_S_S128 : (⟨S_, .f32⟩ : BufTy).Contents (Elt F) → (⟨S128, .f32⟩ : BufTy).Contents (Elt F)),
    StableHlo.binary main_v236 main_v237 main_v238 (Host.divf : (⟨S128, .f32⟩ : BufTy).Contents (Elt F) → (⟨S128, .f32⟩ : BufTy).Contents (Elt F) → (⟨S128, .f32⟩ : BufTy).Contents (Elt F)),
    StableHlo.nullary main_c_37 (constantI S_ 32 0#32),
    StableHlo.TRef.nullary main_call14.cst (constant S_ .f32 0x00000000#32),
    StableHlo.TRef.binary (.of main_v231) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (.of main_v231) main_call14.v4 main_call14.v5 subf,
    StableHlo.TRef.binary main_call14.v5 main_call14.v5 main_call14.v6 mulf,
    StableHlo.TRef.unary (.of main_c_37) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v238 main_v240 (broadcastInDim S1x128 ![1] bcast_S128_S1x128_1 : (⟨S128, .f32⟩ : BufTy).Contents (Elt F) → (⟨S1x128, .f32⟩ : BufTy).Contents (Elt F)),
    StableHlo.unary main_v240 main_v241 (broadcastInDim S50000x128 ![0, 1] bcast_S1x128_S50000x128_0_1 : (⟨S1x128, .f32⟩ : BufTy).Contents (Elt F) → (⟨S50000x128, .f32⟩ : BufTy).Contents (Elt F)),
    StableHlo.binary main_v231 main_v241 main_v242 (subf : (⟨S50000x128, .f32⟩ : BufTy).Contents (Elt F) → (⟨S50000x128, .f32⟩ : BufTy).Contents (Elt F) → (⟨S50000x128, .f32⟩ : BufTy).Contents (Elt F)),
    StableHlo.nullary main_cst_38 (constant S_ .f32 0x3727C5AC#32),
    StableHlo.unary main_cst_38 main_v243 (broadcastInDim S128 ![] bcast_S_S128 : (⟨S_, .f32⟩ : BufTy).Contents (Elt F) → (⟨S128, .f32⟩ : BufTy).Contents (Elt F)),
    StableHlo.binary main_v239 main_v243 main_v244 (addf : (⟨S128, .f32⟩ : BufTy).Contents (Elt F) → (⟨S128, .f32⟩ : BufTy).Contents (Elt F) → (⟨S128, .f32⟩ : BufTy).Contents (Elt F)),
    StableHlo.unary main_v244 main_v245 (Host.rsqrt : (⟨S128, .f32⟩ : BufTy).Contents (Elt F) → (⟨S128, .f32⟩ : BufTy).Contents (Elt F)),
    StableHlo.unary main_v245 main_v246 (broadcastInDim S1x128 ![1] bcast_S128_S1x128_1 : (⟨S128, .f32⟩ : BufTy).Contents (Elt F) → (⟨S1x128, .f32⟩ : BufTy).Contents (Elt F)),
    StableHlo.unary main_v246 main_v247 (broadcastInDim S50000x128 ![0, 1] bcast_S1x128_S50000x128_0_1 : (⟨S1x128, .f32⟩ : BufTy).Contents (Elt F) → (⟨S50000x128, .f32⟩ : BufTy).Contents (Elt F)),
    StableHlo.binary main_v242 main_v247 main_v248 (mulf : (⟨S50000x128, .f32⟩ : BufTy).Contents (Elt F) → (⟨S50000x128, .f32⟩ : BufTy).Contents (Elt F) → (⟨S50000x128, .f32⟩ : BufTy).Contents (Elt F)),
    StableHlo.unary main_v233 main_v249 (broadcastInDim S1x128 ![1] bcast_S128_S1x128_1 : (⟨S128, .f32⟩ : BufTy).Contents (Elt F) → (⟨S1x128, .f32⟩ : BufTy).Contents (Elt F)),
    StableHlo.unary main_v249 main_v250 (broadcastInDim S50000x128 ![0, 1] bcast_S1x128_S50000x128_0_1 : (⟨S1x128, .f32⟩ : BufTy).Contents (Elt F) → (⟨S50000x128, .f32⟩ : BufTy).Contents (Elt F)),
    StableHlo.binary main_v248 main_v250 main_v251 (mulf : (⟨S50000x128, .f32⟩ : BufTy).Contents (Elt F) → (⟨S50000x128, .f32⟩ : BufTy).Contents (Elt F) → (⟨S50000x128, .f32⟩ : BufTy).Contents (Elt F)),
    StableHlo.unary main_v235 main_v252 (broadcastInDim S1x128 ![1] bcast_S128_S1x128_1 : (⟨S128, .f32⟩ : BufTy).Contents (Elt F) → (⟨S1x128, .f32⟩ : BufTy).Contents (Elt F)),
    StableHlo.unary main_v252 main_v253 (broadcastInDim S50000x128 ![0, 1] bcast_S1x128_S50000x128_0_1 : (⟨S1x128, .f32⟩ : BufTy).Contents (Elt F) → (⟨S50000x128, .f32⟩ : BufTy).Contents (Elt F)),
    StableHlo.binary main_v251 main_v253 main_v254 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (.of main_v254) main_call15.v0 main_call15.v1 maximumf,
    StableHlo.unary main_arg9 main_v256 ((extractStridedSlice S1x128 ![2, 0] · slices_S3x128_S1x128_2_0) : (⟨S3x128, .f32⟩ : BufTy).Contents (Elt F) → (⟨S1x128, .f32⟩ : BufTy).Contents (Elt F)),
    StableHlo.reshape main_v256 main_v257 rfl shapeCasts_S1x128_S128,
    StableHlo.unary main_arg10 main_v258 ((extractStridedSlice S1x128 ![2, 0] · slices_S3x128_S1x128_2_0) : (⟨S3x128, .f32⟩ : BufTy).Contents (Elt F) → (⟨S1x128, .f32⟩ : BufTy).Contents (Elt F)),
    StableHlo.reshape main_v258 main_v259 rfl shapeCasts_S1x128_S128,
    StableHlo.nullary main_cst_39 (constant S_ .f32 0x00000000#32),
    StableHlo.binary main_v255 main_cst_39 main_v260 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_40 (constant S_ .f32 0x47435000#32),
    StableHlo.unary main_cst_40 main_v261 (broadcastInDim S128 ![] bcast_S_S128 : (⟨S_, .f32⟩ : BufTy).Contents (Elt F) → (⟨S128, .f32⟩ : BufTy).Contents (Elt F)),
    StableHlo.binary main_v260 main_v261 main_v262 (Host.divf : (⟨S128, .f32⟩ : BufTy).Contents (Elt F) → (⟨S128, .f32⟩ : BufTy).Contents (Elt F) → (⟨S128, .f32⟩ : BufTy).Contents (Elt F)),
    StableHlo.nullary main_c_41 (constantI S_ 32 0#32),
    StableHlo.TRef.nullary main_call16.cst (constant S_ .f32 0x00000000#32),
    StableHlo.TRef.binary (.of main_v255) main_call16.cst main_call16.v0 (fun x v => Host.reduceAdd x v reducesTo_S50000x128_S128_d0 h_S_),
    StableHlo.TRef.unary main_call16.v0 main_call16.v1 (broadcastInDim S1x128 ![1] bcast_S128_S1x128_1),
    StableHlo.TRef.nullary main_call16.cst_0 (constant S_ .f32 0x47435000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S50000x128 ![0, 1] bcast_S1x128_S50000x128_0_1),
    StableHlo.TRef.binary (.of main_v255) main_call16.v4 main_call16.v5 subf,
    StableHlo.TRef.binary main_call16.v5 main_call16.v5 main_call16.v6 mulf,
    StableHlo.TRef.unary (.of main_c_41) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x128_S128_d0 h_S_),
    StableHlo.TRef.unary main_call16.v8 main_call16.v10 (broadcastInDim S128 ![] bcast_S_S128),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S128 ![] bcast_S_S128),
    StableHlo.TRef.ternary main_call16.v12 main_call16.v11 main_call16.call0.v1 main_call16.call0.v2 (fun p a b => select (broadcastInDim S128 ![] bcast_S_S128 p) a b),
    StableHlo.unary main_v262 main_v264 (broadcastInDim S1x128 ![1] bcast_S128_S1x128_1 : (⟨S128, .f32⟩ : BufTy).Contents (Elt F) → (⟨S1x128, .f32⟩ : BufTy).Contents (Elt F)),
    StableHlo.unary main_v264 main_v265 (broadcastInDim S50000x128 ![0, 1] bcast_S1x128_S50000x128_0_1 : (⟨S1x128, .f32⟩ : BufTy).Contents (Elt F) → (⟨S50000x128, .f32⟩ : BufTy).Contents (Elt F)),
    StableHlo.binary main_v255 main_v265 main_v266 (subf : (⟨S50000x128, .f32⟩ : BufTy).Contents (Elt F) → (⟨S50000x128, .f32⟩ : BufTy).Contents (Elt F) → (⟨S50000x128, .f32⟩ : BufTy).Contents (Elt F)),
    StableHlo.nullary main_cst_42 (constant S_ .f32 0x3727C5AC#32),
    StableHlo.unary main_cst_42 main_v267 (broadcastInDim S128 ![] bcast_S_S128 : (⟨S_, .f32⟩ : BufTy).Contents (Elt F) → (⟨S128, .f32⟩ : BufTy).Contents (Elt F)),
    StableHlo.binary main_v263 main_v267 main_v268 (addf : (⟨S128, .f32⟩ : BufTy).Contents (Elt F) → (⟨S128, .f32⟩ : BufTy).Contents (Elt F) → (⟨S128, .f32⟩ : BufTy).Contents (Elt F)),
    StableHlo.unary main_v268 main_v269 (Host.rsqrt : (⟨S128, .f32⟩ : BufTy).Contents (Elt F) → (⟨S128, .f32⟩ : BufTy).Contents (Elt F)),
    StableHlo.unary main_v269 main_v270 (broadcastInDim S1x128 ![1] bcast_S128_S1x128_1 : (⟨S128, .f32⟩ : BufTy).Contents (Elt F) → (⟨S1x128, .f32⟩ : BufTy).Contents (Elt F)),
    StableHlo.unary main_v270 main_v271 (broadcastInDim S50000x128 ![0, 1] bcast_S1x128_S50000x128_0_1 : (⟨S1x128, .f32⟩ : BufTy).Contents (Elt F) → (⟨S50000x128, .f32⟩ : BufTy).Contents (Elt F)),
    StableHlo.binary main_v266 main_v271 main_v272 (mulf : (⟨S50000x128, .f32⟩ : BufTy).Contents (Elt F) → (⟨S50000x128, .f32⟩ : BufTy).Contents (Elt F) → (⟨S50000x128, .f32⟩ : BufTy).Contents (Elt F)),
    StableHlo.unary main_v257 main_v273 (broadcastInDim S1x128 ![1] bcast_S128_S1x128_1 : (⟨S128, .f32⟩ : BufTy).Contents (Elt F) → (⟨S1x128, .f32⟩ : BufTy).Contents (Elt F)),
    StableHlo.unary main_v273 main_v274 (broadcastInDim S50000x128 ![0, 1] bcast_S1x128_S50000x128_0_1 : (⟨S1x128, .f32⟩ : BufTy).Contents (Elt F) → (⟨S50000x128, .f32⟩ : BufTy).Contents (Elt F)),
    StableHlo.binary main_v272 main_v274 main_v275 (mulf : (⟨S50000x128, .f32⟩ : BufTy).Contents (Elt F) → (⟨S50000x128, .f32⟩ : BufTy).Contents (Elt F) → (⟨S50000x128, .f32⟩ : BufTy).Contents (Elt F)),
    StableHlo.unary main_v259 main_v276 (broadcastInDim S1x128 ![1] bcast_S128_S1x128_1 : (⟨S128, .f32⟩ : BufTy).Contents (Elt F) → (⟨S1x128, .f32⟩ : BufTy).Contents (Elt F)),
    StableHlo.unary main_v276 main_v277 (broadcastInDim S50000x128 ![0, 1] bcast_S1x128_S50000x128_0_1 : (⟨S1x128, .f32⟩ : BufTy).Contents (Elt F) → (⟨S50000x128, .f32⟩ : BufTy).Contents (Elt F)),
    StableHlo.binary main_v275 main_v277 main_v278 (addf : (⟨S50000x128, .f32⟩ : BufTy).Contents (Elt F) → (⟨S50000x128, .f32⟩ : BufTy).Contents (Elt F) → (⟨S50000x128, .f32⟩ : BufTy).Contents (Elt F)) ]

set_option maxRecDepth 65536 in
theorem ops_split : (ops : List (HloOp τ sig (Elt F))) = A0 ++ (B0 ++ (A1 ++ (B1 ++ (A2 ++ B2)))) := rfl

theorem after_ops (V : Valuation τ sig (Elt F)) :
    after ops V = after B2 (after A2 (after B1 (after A1 (after B0 (after A0 V))))) := by
  rw [ops_split]; simp only [after_append]

end Cert.ReferenceIdeal.Hand

end
-- ==== Proof.RefBodyOps.lean ====
/-
  The array functions of one stage of a layer — the slice of a stacked weight or of a stacked row, the row-by-column
  product, the column mean, the two-pass column variance with its guard, the centred batch norm and the rectifier —
  each as one function of its operand arrays, spelt with the host operations the reference applies.
-/
import proofs.«180905_j29583734735286_1_alg».proof.Proof.Gen.ReferenceIdeal
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.Hand

open Cert.ReferenceIdeal Cert.ReferenceIdeal.Gen Idealize.ShloMosaic

/-- a [128, 128] slice of a stacked weight -/
def wSlice (off : Fin 3 → Nat) (h : S3x128x128.Slices off S1x128x128) (a : FVec Ideal S3x128x128 .f32) : FVec Ideal S128x128 .f32 :=
  shapeCast S128x128 (extractStridedSlice S1x128x128 off a h) shapeCasts_S1x128x128_S128x128

/-- a [128] slice of a stacked row -/
def vSlice (off : Fin 2 → Nat) (h : S3x128.Slices off S1x128) (a : FVec Ideal S3x128 .f32) : FVec Ideal S128 .f32 :=
  shapeCast S128 (extractStridedSlice S1x128 off a h) shapeCasts_S1x128_S128

/-- the row-by-column product -/
def linArr (x : FVec Ideal S50000x128 .f32) (w : FVec Ideal S128x128 .f32) : FVec Ideal S50000x128 .f32 :=
  Host.dotGeneral dot_S50000x128_S128x128_S50000x128_1_0_0_1_n_n none x w

/-- column totals from the zero word -/
def sumArr (y : FVec Ideal S50000x128 .f32) : FVec Ideal S128 .f32 :=
  Host.reduceAdd y (constant S_ .f32 0x00000000#32) reducesTo_S50000x128_S128_d0 h_S_

/-- the column mean as the main line forms it -/
def meanArr (y : FVec Ideal S50000x128 .f32) : FVec Ideal S128 .f32 :=
  Host.divf (sumArr y) (broadcastInDim S128 ![] bcast_S_S128 (constant S_ .f32 0x47435000#32))

/-- the column mean as a row, as the variance forms it -/
def meanRowArr (y : FVec Ideal S50000x128 .f32) : FVec Ideal S1x128 .f32 :=
  Host.divf (broadcastInDim S1x128 ![1] bcast_S128_S1x128_1 (sumArr y))
    (broadcastInDim S1x128 ![] bcast_S_S1x128 (constant S_ .f32 0x47435000#32))

/-- the deviations from the column mean -/
def devArr (y : FVec Ideal S50000x128 .f32) : FVec Ideal S50000x128 .f32 :=
  subf y (broadcastInDim S50000x128 ![0, 1] bcast_S1x128_S50000x128_0_1 (meanRowArr y))

/-- the divisor of the variance: the count less the integer zero -/
def cntArr (c : IVec S_ 32) : FVec Ideal S_ .f32 :=
  subf (constant S_ .f32 0x47435000#32) (sitofp .f32 c)

/-- the two-pass column variance, guarded by a positive divisor -/
def varArr (y : FVec Ideal S50000x128 .f32) (c : IVec S_ 32) : FVec Ideal S128 .f32 :=
  select (broadcastInDim S128 ![] bcast_S_S128 (cmpf .ogt (cntArr c) (constant S_ .f32 0x00000000#32)))
    (Host.divf (sumArr (mulf (devArr y) (devArr y))) (broadcastInDim S128 ![] bcast_S_S128 (cntArr c)))
    (broadcastInDim S128 ![] bcast_S_S128 (id (constant S_ .f32 0x7FC00000#32)))

/-- a [128] row repeated down the rows -/
def rowsArr (v : FVec Ideal S128 .f32) : FVec Ideal S50000x128 .f32 :=
  broadcastInDim S50000x128 ![0, 1] bcast_S1x128_S50000x128_0_1 (broadcastInDim S1x128 ![1] bcast_S128_S1x128_1 v)

/-- the centred batch norm from a mean row and a variance row -/
def bnArr (y : FVec Ideal S50000x128 .f32) (mean var g b : FVec Ideal S128 .f32) : FVec Ideal S50000x128 .f32 :=
  addf (mulf (mulf (subf y (rowsArr mean))
      (rowsArr (Host.rsqrt (addf var (broadcastInDim S128 ![] bcast_S_S128 (constant S_ .f32 0x3727C5AC#32))))))
    (rowsArr g)) (rowsArr b)

/-- the rectifier against the zero word -/
def reluArr (y : FVec Ideal S50000x128 .f32) : FVec Ideal S50000x128 .f32 :=
  maximumf y (broadcastInDim S50000x128 ![] bcast_S_S50000x128 (constant S_ .f32 0x00000000#32))

/-- batch norm of an array with its own statistics, then the rectifier if asked -/
def stageArr (y : FVec Ideal S50000x128 .f32) (g b : FVec Ideal S128 .f32) : FVec Ideal S50000x128 .f32 :=
  bnArr y (meanArr y) (varArr y (constantI S_ 32 0#32)) g b

end Cert.ReferenceIdeal.Hand

end
-- ==== Proof.RefBody0Run.lean ====
/-
  The operations of layer 0 from x to the layer's output, cut at the two rectifiers into three stages, and what each
  stage leaves in its last buffer as one array function of the buffers it reads; no stage writes an argument, so the
  three compose to the layer's output as an array function of x and the arguments.
-/
import proofs.«180905_j29583734735286_1_alg».proof.Proof.RefSplit
import proofs.«180905_j29583734735286_1_alg».proof.Proof.RefBodyOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- the first product, its batch norm and rectifier -/
abbrev B0a : List (HloOp τ sig (Elt F)) :=
  [ StableHlo.unary main_arg3 main_v18 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v18 main_v19 rfl shapeCasts_S1x128x128_S128x128,
    StableHlo.binary main_v17 main_v19 main_v20 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v21 ((extractStridedSlice S1x128 ![0, 0] · slices_S3x128_S1x128_0_0) : (⟨S3x128, .f32⟩ : BufTy).Contents (Elt F) → (⟨S1x128, .f32⟩ : BufTy).Contents (Elt F)),
    StableHlo.reshape main_v21 main_v22 rfl shapeCasts_S1x128_S128,
    StableHlo.unary main_arg6 main_v23 ((extractStridedSlice S1x128 ![0, 0] · slices_S3x128_S1x128_0_0) : (⟨S3x128, .f32⟩ : BufTy).Contents (Elt F) → (⟨S1x128, .f32⟩ : BufTy).Contents (Elt F)),
    StableHlo.reshape main_v23 main_v24 rfl shapeCasts_S1x128_S128,
    StableHlo.nullary main_cst_1 (constant S_ .f32 0x00000000#32),
    StableHlo.binary main_v20 main_cst_1 main_v25 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v20) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v20) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v27 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v20 main_v30 main_v31 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v32 (broadcastInDim S128 ![] bcast_S_S128 : (⟨S_, .f32⟩ : BufTy).Contents (Elt F) → (⟨S128, .f32⟩ : BufTy).Contents (Elt F)),
    StableHlo.binary main_v28 main_v32 main_v33 (addf : (⟨S128, .f32⟩ : BufTy).Contents (Elt F) → (⟨S128, .f32⟩ : BufTy).Contents (Elt F) → (⟨S128, .f32⟩ : BufTy).Contents (Elt F)),
    StableHlo.unary main_v33 main_v34 (Host.rsqrt : (⟨S128, .f32⟩ : BufTy).Contents (Elt F) → (⟨S128, .f32⟩ : BufTy).Contents (Elt F)),
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v36 main_v37 (mulf : (⟨S50000x128, .f32⟩ : BufTy).Contents (Elt F) → (⟨S50000x128, .f32⟩ : BufTy).Contents (Elt F) → (⟨S50000x128, .f32⟩ : BufTy).Contents (Elt F)),
    StableHlo.unary main_v22 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v39 main_v40 (mulf : (⟨S50000x128, .f32⟩ : BufTy).Contents (Elt F) → (⟨S50000x128, .f32⟩ : BufTy).Contents (Elt F) → (⟨S50000x128, .f32⟩ : BufTy).Contents (Elt F)),
    StableHlo.unary main_v24 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v43) main_call1.v0 main_call1.v1 maximumf ]

/-- the second product, its batch norm and rectifier -/
abbrev B0b : List (HloOp τ sig (Elt F)) :=
  [ StableHlo.unary main_arg4 main_v45 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v45 main_v46 rfl shapeCasts_S1x128x128_S128x128,
    StableHlo.binary main_v44 main_v46 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v48 ((extractStridedSlice S1x128 ![0, 0] · slices_S3x128_S1x128_0_0) : (⟨S3x128, .f32⟩ : BufTy).Contents (Elt F) → (⟨S1x128, .f32⟩ : BufTy).Contents (Elt F)),
    StableHlo.reshape main_v48 main_v49 rfl shapeCasts_S1x128_S128,
    StableHlo.unary main_arg8 main_v50 ((extractStridedSlice S1x128 ![0, 0] · slices_S3x128_S1x128_0_0) : (⟨S3x128, .f32⟩ : BufTy).Contents (Elt F) → (⟨S1x128, .f32⟩ : BufTy).Contents (Elt F)),
    StableHlo.reshape main_v50 main_v51 rfl shapeCasts_S1x128_S128,
    StableHlo.nullary main_cst_5 (constant S_ .f32 0x00000000#32),
    StableHlo.binary main_v47 main_cst_5 main_v52 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v53 (broadcastInDim S128 ![] bcast_S_S128 : (⟨S_, .f32⟩ : BufTy).Contents (Elt F) → (⟨S128, .f32⟩ : BufTy).Contents (Elt F)),
    StableHlo.binary main_v52 main_v53 main_v54 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (.of main_v47) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v47) main_call2.v4 main_call2.v5 subf,
    StableHlo.TRef.binary main_call2.v5 main_call2.v5 main_call2.v6 mulf,
    StableHlo.TRef.unary (.of main_c_7) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v54 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v57 main_v58 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v59 (broadcastInDim S128 ![] bcast_S_S128 : (⟨S_, .f32⟩ : BufTy).Contents (Elt F) → (⟨S128, .f32⟩ : BufTy).Contents (Elt F)),
    StableHlo.binary main_v55 main_v59 main_v60 (addf : (⟨S128, .f32⟩ : BufTy).Contents (Elt F) → (⟨S128, .f32⟩ : BufTy).Contents (Elt F) → (⟨S128, .f32⟩ : BufTy).Contents (Elt F)),
    StableHlo.unary main_v60 main_v61 (Host.rsqrt : (⟨S128, .f32⟩ : BufTy).Contents (Elt F) → (⟨S128, .f32⟩ : BufTy).Contents (Elt F)),
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v63 main_v64 (mulf : (⟨S50000x128, .f32⟩ : BufTy).Contents (Elt F) → (⟨S50000x128, .f32⟩ : BufTy).Contents (Elt F) → (⟨S50000x128, .f32⟩ : BufTy).Contents (Elt F)),
    StableHlo.unary main_v49 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (mulf : (⟨S50000x128, .f32⟩ : BufTy).Contents (Elt F) → (⟨S50000x128, .f32⟩ : BufTy).Contents (Elt F) → (⟨S50000x128, .f32⟩ : BufTy).Contents (Elt F)),
    StableHlo.unary main_v51 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v69 main_v70 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v70) main_call3.v0 main_call3.v1 maximumf ]

/-- the third batch norm and its rectifier -/
abbrev B0c : List (HloOp τ sig (Elt F)) :=
  [ StableHlo.unary main_arg9 main_v72 ((extractStridedSlice S1x128 ![0, 0] · slices_S3x128_S1x128_0_0) : (⟨S3x128, .f32⟩ : BufTy).Contents (Elt F) → (⟨S1x128, .f32⟩ : BufTy).Contents (Elt F)),
    StableHlo.reshape main_v72 main_v73 rfl shapeCasts_S1x128_S128,
    StableHlo.unary main_arg10 main_v74 ((extractStridedSlice S1x128 ![0, 0] · slices_S3x128_S1x128_0_0) : (⟨S3x128, .f32⟩ : BufTy).Contents (Elt F) → (⟨S1x128, .f32⟩ : BufTy).Contents (Elt F)),
    StableHlo.reshape main_v74 main_v75 rfl shapeCasts_S1x128_S128,
    StableHlo.nullary main_cst_9 (constant S_ .f32 0x00000000#32),
    StableHlo.binary main_v71 main_cst_9 main_v76 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v77 (broadcastInDim S128 ![] bcast_S_S128 : (⟨S_, .f32⟩ : BufTy).Contents (Elt F) → (⟨S128, .f32⟩ : BufTy).Contents (Elt F)),
    StableHlo.binary main_v76 main_v77 main_v78 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call4.cst (constant S_ .f32 0x00000000#32),
    StableHlo.TRef.binary (.of main_v71) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v71) main_call4.v4 main_call4.v5 subf,
    StableHlo.TRef.binary main_call4.v5 main_call4.v5 main_call4.v6 mulf,
    StableHlo.TRef.unary (.of main_c_11) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v78 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v81 main_v82 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v83 (broadcastInDim S128 ![] bcast_S_S128 : (⟨S_, .f32⟩ : BufTy).Contents (Elt F) → (⟨S128, .f32⟩ : BufTy).Contents (Elt F)),
    StableHlo.binary main_v79 main_v83 main_v84 (addf : (⟨S128, .f32⟩ : BufTy).Contents (Elt F) → (⟨S128, .f32⟩ : BufTy).Contents (Elt F) → (⟨S128, .f32⟩ : BufTy).Contents (Elt F)),
    StableHlo.unary main_v84 main_v85 (Host.rsqrt : (⟨S128, .f32⟩ : BufTy).Contents (Elt F) → (⟨S128, .f32⟩ : BufTy).Contents (Elt F)),
    StableHlo.unary main_v85 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v87 main_v88 (mulf : (⟨S50000x128, .f32⟩ : BufTy).Contents (Elt F) → (⟨S50000x128, .f32⟩ : BufTy).Contents (Elt F) → (⟨S50000x128, .f32⟩ : BufTy).Contents (Elt F)),
    StableHlo.unary main_v73 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v90 main_v91 (mulf : (⟨S50000x128, .f32⟩ : BufTy).Contents (Elt F) → (⟨S50000x128, .f32⟩ : BufTy).Contents (Elt F) → (⟨S50000x128, .f32⟩ : BufTy).Contents (Elt F)),
    StableHlo.unary main_v75 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v91 main_v93 main_v94 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v94) main_call5.v0 main_call5.v1 maximumf ]

set_option maxRecDepth 65536 in
theorem B0_cut : (B0 : List (HloOp τ sig (Elt F))) = B0a ++ (B0b ++ B0c) := rfl

set_option maxRecDepth 65536 in
theorem B0a_val (V : Valuation τ sig (Elt Ideal)) :
    after (B0a (F := Ideal)) V (main_v44 : DevRef τ sig) = (reluArr (stageArr (linArr (V (main_v17 : DevRef τ sig)) (wSlice ![0, 0, 0] slices_S3x128x128_S1x128x128_0_0_0 (V (main_arg3 : DevRef τ sig)))) (vSlice ![0, 0] slices_S3x128_S1x128_0_0 (V (main_arg5 : DevRef τ sig))) (vSlice ![0, 0] slices_S3x128_S1x128_0_0 (V (main_arg6 : DevRef τ sig))))) := by
  after_results_simp
  rfl

set_option maxRecDepth 65536 in
theorem B0b_val (V : Valuation τ sig (Elt Ideal)) :
    after (B0b (F := Ideal)) V (main_v71 : DevRef τ sig) = (reluArr (stageArr (linArr (V (main_v44 : DevRef τ sig)) (wSlice ![0, 0, 0] slices_S3x128x128_S1x128x128_0_0_0 (V (main_arg4 : DevRef τ sig)))) (vSlice ![0, 0] slices_S3x128_S1x128_0_0 (V (main_arg7 : DevRef τ sig))) (vSlice ![0, 0] slices_S3x128_S1x128_0_0 (V (main_arg8 : DevRef τ sig))))) := by
  after_results_simp
  rfl

set_option maxRecDepth 65536 in
theorem B0c_val (V : Valuation τ sig (Elt Ideal)) :
    after (B0c (F := Ideal)) V (main_v95 : DevRef τ sig) = (reluArr (stageArr (V (main_v71 : DevRef τ sig)) (vSlice ![0, 0] slices_S3x128_S1x128_0_0 (V (main_arg9 : DevRef τ sig))) (vSlice ![0, 0] slices_S3x128_S1x128_0_0 (V (main_arg10 : DevRef τ sig))))) := by
  after_results_simp
  rfl

/-! The first two stages write no argument the later stages read. -/
set_option maxRecDepth 65536 in
theorem keep0a_arg4 (V : Valuation τ sig (Elt F)) : after (B0a : List (HloOp τ sig (Elt F))) V (main_arg4 : DevRef τ sig) = V (main_arg4 : DevRef τ sig) := by
  simp only [after_cons, after_nil]
  rfl
set_option maxRecDepth 65536 in
theorem keep0a_arg7 (V : Valuation τ sig (Elt F)) : after (B0a : List (HloOp τ sig (Elt F))) V (main_arg7 : DevRef τ sig) = V (main_arg7 : DevRef τ sig) := by
  simp only [after_cons, after_nil]
  rfl
set_option maxRecDepth 65536 in
theorem keep0a_arg8 (V : Valuation τ sig (Elt F)) : after (B0a : List (HloOp τ sig (Elt F))) V (main_arg8 : DevRef τ sig) = V (main_arg8 : DevRef τ sig) := by
  simp only [after_cons, after_nil]
  rfl
set_option maxRecDepth 65536 in
theorem keep0a_arg9 (V : Valuation τ sig (Elt F)) : after (B0a : List (HloOp τ sig (Elt F))) V (main_arg9 : DevRef τ sig) = V (main_arg9 : DevRef τ sig) := by
  simp only [after_cons, after_nil]
  rfl
set_option maxRecDepth 65536 in
theorem keep0a_arg10 (V : Valuation τ sig (Elt F)) : after (B0a : List (HloOp τ sig (Elt F))) V (main_arg10 : DevRef τ sig) = V (main_arg10 : DevRef τ sig) := by
  simp only [after_cons, after_nil]
  rfl
set_option maxRecDepth 65536 in
theorem keep0b_arg9 (V : Valuation τ sig (Elt F)) : after (B0b : List (HloOp τ sig (Elt F))) V (main_arg9 : DevRef τ sig) = V (main_arg9 : DevRef τ sig) := by
  simp only [after_cons, after_nil]
  rfl
set_option maxRecDepth 65536 in
theorem keep0b_arg10 (V : Valuation τ sig (Elt F)) : after (B0b : List (HloOp τ sig (Elt F))) V (main_arg10 : DevRef τ sig) = V (main_arg10 : DevRef τ sig) := by
  simp only [after_cons, after_nil]
  rfl

/-- The layer's output array as a function of x and the arguments. -/
theorem B0_arr (V : Valuation τ sig (Elt Ideal)) :
    after (B0 (F := Ideal)) V (main_v95 : DevRef τ sig)
      = (reluArr (stageArr (reluArr (stageArr (linArr (reluArr (stageArr (linArr (V (main_v17 : DevRef τ sig)) (wSlice ![0, 0, 0] slices_S3x128x128_S1x128x128_0_0_0 (V (main_arg3 : DevRef τ sig)))) (vSlice ![0, 0] slices_S3x128_S1x128_0_0 (V (main_arg5 : DevRef τ sig))) (vSlice ![0, 0] slices_S3x128_S1x128_0_0 (V (main_arg6 : DevRef τ sig))))) (wSlice ![0, 0, 0] slices_S3x128x128_S1x128x128_0_0_0 (V (main_arg4 : DevRef τ sig)))) (vSlice ![0, 0] slices_S3x128_S1x128_0_0 (V (main_arg7 : DevRef τ sig))) (vSlice ![0, 0] slices_S3x128_S1x128_0_0 (V (main_arg8 : DevRef τ sig))))) (vSlice ![0, 0] slices_S3x128_S1x128_0_0 (V (main_arg9 : DevRef τ sig))) (vSlice ![0, 0] slices_S3x128_S1x128_0_0 (V (main_arg10 : DevRef τ sig))))) := by
  rw [B0_cut, after_append, after_append, B0c_val, B0b_val, B0a_val, keep0b_arg9, keep0b_arg10,
    keep0a_arg4, keep0a_arg7, keep0a_arg8, keep0a_arg9, keep0a_arg10]

end Cert.ReferenceIdeal.Hand

end
-- ==== Proof.LibVariance.lean ====
/-
  The two-pass and the one-pass sample variance agree on the extended reals.

  For a finite family of REAL numbers r i (read as extended reals), with S = ∑ r i, Q = ∑ r i · r i,
  N the number of terms (N > 1) and mu = S / N, the one-pass form  (Q − N · (mu · mu)) / (N − 1)  and the
  two-pass form  (∑ (r i − mu) · (r i − mu)) / (N − 1)  are the same nonnegative real, so clamping the first
  at zero changes nothing and their square roots agree. All of it is real algebra: every operand is the
  coercion of a real, every divisor is a nonzero real, so each extended-real operation is the coercion
  of the real one, and the identity  ∑ (r i − mu)² = Q − N · mu²  (which holds because S = N · mu) finishes.

  Also here: the coercion of a finite real sum is the sum of the coercions, and the real values of the
  four binary32 words 200000, 199999, 0 and 1.
-/
import Mathlib.Data.EReal.Inv
import Mathlib.Algebra.BigOperators.Field
import Mathlib.Algebra.Order.BigOperators.Ring.Finset
import Mathlib.Analysis.SpecialFunctions.Pow.Real
import Idealize.ShloMosaic.PureOps.Ideal
import Idealize.ShloMosaic.PureOps.Ideal.Laws

noncomputable section

namespace Cert.Lib.Variance

open Idealize.ShloMosaic
open scoped BigOperators

variable {ι : Type*}

/-! ### (a) Coercion commutes with finite sums -/

/-- The coercion of a finite sum of reals is the sum of the coercions (over any finite set). -/
theorem coe_finset_sum (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The coercion of a sum of reals over a finite type is the sum of the coercions. -/
theorem coe_sum [Fintype ι] (r : ι → ℝ) : ((∑ i, r i : ℝ) : EReal) = ∑ i, (r i : EReal) :=
  coe_finset_sum Finset.univ r

/-- The same from a zero start: 0 + ∑ of the coercions is the coercion of the real sum. -/
theorem zero_add_coe_sum [Fintype ι] (r : ι → ℝ) :
    (0 : EReal) + ∑ i, (r i : EReal) = ((∑ i, r i : ℝ) : EReal) := by
  rw [zero_add, coe_sum]

/-- A zero start and a sum of products of coercions. -/
theorem zero_add_coe_sum_mul [Fintype ι] (a b : ι → ℝ) :
    (0 : EReal) + ∑ i, (a i : EReal) * (b i : EReal) = ((∑ i, a i * b i : ℝ) : EReal) := by
  rw [zero_add, coe_sum]; simp only [EReal.coe_mul]

/-! ### The quotient of two reals -/

/-- The quotient of two coerced reals by a nonzero divisor is the coerced real quotient. -/
theorem div_coe_coe (a b : ℝ) (hb : b ≠ 0) : Ideal.div (a : EReal) (b : EReal) = ((a / b : ℝ) : EReal) := by
  rw [Ideal.div_coe hb, ← EReal.coe_mul, mul_one_div]

/-! ### (b) The real identity -/

/-- If S = N · m (m the mean), the sum of squared deviations from m is Q − N · m². -/
theorem sum_sq_dev_of_mean [Fintype ι] (r : ι → ℝ) (N m : ℝ) (hN : N = (Fintype.card ι : ℝ))
    (hm : ∑ j, r j = N * m) :
    ∑ i, (r i - m) * (r i - m) = (∑ i, r i * r i) - N * (m * m) := by
  have h1 : ∀ i, (r i - m) * (r i - m) = r i * r i - 2 * m * r i + m * m := fun i => by ring
  rw [Finset.sum_congr rfl (fun i _ => h1 i), Finset.sum_add_distrib, Finset.sum_sub_distrib,
    ← Finset.mul_sum, hm, Finset.sum_const, Finset.card_univ, nsmul_eq_mul, ← hN]
  ring

/-- The sum of squared deviations from the mean S / N is Q − N · (S/N)². -/
theorem sum_sq_dev [Fintype ι] (r : ι → ℝ) (N : ℝ) (hN : N = (Fintype.card ι : ℝ)) (hN0 : N ≠ 0) :
    ∑ i, (r i - (∑ j, r j) / N) * (r i - (∑ j, r j) / N)
      = (∑ i, r i * r i) - N * (((∑ j, r j) / N) * ((∑ j, r j) / N)) :=
  sum_sq_dev_of_mean r N _ hN (by field_simp)

/-- A sum of squares is nonnegative. -/
theorem sum_sq_dev_nonneg [Fintype ι] (r : ι → ℝ) (m : ℝ) : 0 ≤ ∑ i, (r i - m) * (r i - m) :=
  Finset.sum_nonneg fun i _ => mul_self_nonneg _

/-- Hence the one-pass numerator is nonnegative. -/
theorem one_pass_nonneg [Fintype ι] (r : ι → ℝ) (N : ℝ) (hN : N = (Fintype.card ι : ℝ)) (hN0 : N ≠ 0) :
    0 ≤ (∑ i, r i * r i) - N * (((∑ j, r j) / N) * ((∑ j, r j) / N)) := by
  rw [← sum_sq_dev r N hN hN0]; exact sum_sq_dev_nonneg r _

/-! ### (c) The law on the extended reals -/

section Law
variable [Fintype ι] (r : ι → ℝ) (N : ℝ)

/-- The mean, as an extended real, is the coerced real mean. -/
theorem mean_eq (hN0 : N ≠ 0) :
    Ideal.div ((0 : EReal) + ∑ i, (r i : EReal)) ((N : ℝ) : EReal) = (((∑ i, r i) / N : ℝ) : EReal) := by
  rw [zero_add_coe_sum, div_coe_coe _ _ hN0]

/-- The two-pass variance is the coercion of a real: (∑ (r i − m)²) / (N − 1) with m = S / N. -/
theorem two_pass_eq (hN0 : N ≠ 0) (hN1 : N - 1 ≠ 0) :
    Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)
      = (((∑ i, (r i - (∑ j, r j) / N) * (r i - (∑ j, r j) / N)) / (N - 1) : ℝ) : EReal) := by
  rw [mean_eq r N hN0]
  simp only [← EReal.coe_sub]
  rw [zero_add_coe_sum_mul, div_coe_coe _ _ hN1]

/-- The one-pass variance is the coercion of a real: (Q − N · (m · m)) / (N − 1) with m = S / N. -/
theorem one_pass_eq (hN0 : N ≠ 0) (hN1 : N - 1 ≠ 0) :
    Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)
      = ((((∑ i, r i * r i) - N * (((∑ j, r j) / N) * ((∑ j, r j) / N))) / (N - 1) : ℝ) : EReal) := by
  rw [mean_eq r N hN0, zero_add_coe_sum_mul, ← EReal.coe_mul, ← EReal.coe_mul, ← EReal.coe_sub,
    div_coe_coe _ _ hN1]

/-- THE LAW, before the square root: the one-pass variance clamped at zero is the two-pass variance. -/
theorem var_eq (hN : N = (Fintype.card ι : ℝ)) (h1 : 1 < N) :
    max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0
      = Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal) := by
  have hN0 : N ≠ 0 := by linarith
  have hN1 : N - 1 ≠ 0 := by linarith
  have hpos : (0 : ℝ) < N - 1 := by linarith
  rw [one_pass_eq r N hN0 hN1, two_pass_eq r N hN0 hN1, sum_sq_dev r N hN hN0]
  refine max_eq_left ?_
  have : (0 : ℝ) ≤ ((∑ i, r i * r i) - N * (((∑ j, r j) / N) * ((∑ j, r j) / N))) / (N - 1) :=
    div_nonneg (one_pass_nonneg r N hN hN0) hpos.le
  exact_mod_cast this

/-- THE LAW: the square roots of the clamped one-pass variance and of the two-pass variance agree. -/
theorem sqrt_var_eq (hN : N = (Fintype.card ι : ℝ)) (h1 : 1 < N) :
    Ideal.sqrt (max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0)
      = Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)) :=
  congrArg Ideal.sqrt (var_eq r N hN h1)

/-- The common value is a finite nonnegative real: the two-pass standard deviation is the coercion of a real ≥ 0. -/
theorem sqrt_two_pass_eq (h1 : 1 < N) :
    ∃ v : ℝ, 0 ≤ v ∧
      Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal))
        = ((Real.sqrt v : ℝ) : EReal) := by
  have hN0 : N ≠ 0 := by linarith
  have hN1 : N - 1 ≠ 0 := by linarith
  have hpos : (0 : ℝ) < N - 1 := by linarith
  refine ⟨(∑ i, (r i - (∑ j, r j) / N) * (r i - (∑ j, r j) / N)) / (N - 1),
    div_nonneg (sum_sq_dev_nonneg r _) hpos.le, ?_⟩
  rw [two_pass_eq r N hN0 hN1, Ideal.sqrt_coe, if_neg (not_lt.mpr (div_nonneg (sum_sq_dev_nonneg r _) hpos.le))]

end Law

/-! ### (d) Four binary32 words as reals

  0x48435000: exponent field 144, fraction 4411392, so (2^23 + 4411392) · 2^(144 − 127 − 23) = 12800000 / 64 = 200000.
  0x48434FC0: exponent field 144, fraction 4411328, so 12799936 / 64 = 199999. -/

/-- The word 0x48435000 denotes the real 200000. -/
theorem ofBits_200000 : Ideal.ofBits .f32 0x48435000#32 = ((200000 : ℝ) : EReal) := by
  simp [Ideal.ofBits, Ideal.ieee, -EReal.coe_mul]; norm_num

/-- The word 0x48434FC0 denotes the real 199999. -/
theorem ofBits_199999 : Ideal.ofBits .f32 0x48434FC0#32 = ((199999 : ℝ) : EReal) := by
  simp [Ideal.ofBits, Ideal.ieee, -EReal.coe_mul]; norm_num

/-- The zero word denotes 0. -/
theorem ofBits_zero : Ideal.ofBits .f32 0x00000000#32 = 0 := Ideal.ofBits_zero_f32

/-- The word 0x3F800000 denotes 1. -/
theorem ofBits_one : Ideal.ofBits .f32 0x3F800000#32 = 1 := by
  simp [Ideal.ofBits, Ideal.ieee, -EReal.coe_mul]; norm_num

/-- 199999 is 200000 − 1, as coerced reals (the divisor of the variance against the count). -/
theorem coe_199999 : ((199999 : ℝ) : EReal) = ((200000 - 1 : ℝ) : EReal) := by norm_num

end Cert.Lib.Variance

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.LibBatchNorm.lean ====
/-
  Batch-norm column statistics on the extended reals: the one-pass and the two-pass forms agree.

  For a finite family of entries x i that are all (coercions of) real numbers, with N > 0 the number of
  entries, S = ∑ x i and Q = ∑ x i · x i (grouped in any way: addition on the extended reals is commutative
  and associative, infinities included), the one-pass statistics
      mean = S / N,    variance = max (Q / N − mean · mean) 0
  are the two-pass textbook statistics
      mean = S / N,    variance = (∑ (x i − mean) · (x i − mean)) / N.
  Every operand is the coercion of a real and the divisor is a nonzero real, so each extended-real operation
  is the coercion of the real one; the real identity  ∑ (r i − m)² = Q − N · m²  (m = S / N) then gives
  (∑ (r i − m)²) / N = Q / N − m², a nonnegative real, so the clamp at zero changes nothing.

  Also here: "is a real" is closed under the arithmetic used (sum, difference, product, maximum, finite sums,
  division by a nonzero real, reciprocal square root of a positive real); a sum over n = T · B rows is the
  sum over T tiles of the sums over the B rows of each tile; and the real values of four binary32 words.
-/
import Mathlib.Data.EReal.Inv
import Mathlib.Algebra.BigOperators.Field
import Mathlib.Algebra.Order.BigOperators.Ring.Finset
import Mathlib.Analysis.SpecialFunctions.Pow.Real
import Idealize.ShloMosaic.PureOps.Ideal
import Idealize.ShloMosaic.PureOps.Ideal.Laws
import proofs.«180905_j29583734735286_1_alg».proof.Proof.LibVariance
import proofs.«180905_j29583734735286_1_alg».proof.Proof.LibSumBlocks

noncomputable section

namespace Cert.LibBatchNorm

open Idealize.ShloMosaic
open scoped BigOperators

/-! ### Extended reals that are real numbers -/

/-- an extended real that is a real number -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

theorem IsReal.max {x y : EReal} : IsReal x → IsReal y → IsReal (max x y) := by
  rintro ⟨a, rfl⟩ ⟨b, rfl⟩; exact ⟨Max.max a b, (EReal.coe_strictMono.monotone.map_max).symm⟩

theorem IsReal.sum {ι : Type*} (s : Finset ι) (f : ι → EReal) :
    (∀ i ∈ s, IsReal (f i)) → IsReal (∑ i ∈ s, f i) :=
  Finset.sum_induction f IsReal (fun _ _ => IsReal.add) IsReal.zero

theorem IsReal.div_coe {x : EReal} (hx : IsReal x) {y : ℝ} (hy : y ≠ 0) :
    IsReal (Ideal.div x (y : EReal)) := by
  obtain ⟨a, rfl⟩ := hx
  exact ⟨a / y, Cert.Lib.Variance.div_coe_coe a y hy⟩

/-- rsqrt of a positive real is a positive real -/
theorem IsReal.rsqrt_of_pos {x : EReal} (hx : IsReal x) (hpos : 0 < x) :
    IsReal (Ideal.rsqrt x) ∧ 0 < Ideal.rsqrt x := by
  obtain ⟨a, rfl⟩ := hx
  have ha : 0 < a := by exact_mod_cast hpos
  have hs : 0 < (Real.sqrt a)⁻¹ := inv_pos.mpr (Real.sqrt_pos.mpr ha)
  rw [Ideal.rsqrt_coe, if_neg (not_lt.mpr ha.le), if_neg ha.ne']
  exact ⟨⟨_, rfl⟩, by exact_mod_cast hs⟩

/-- a maximum with one is positive -/
theorem one_le_max_one (x : EReal) : (0 : EReal) < max x 1 :=
  lt_max_of_lt_right zero_lt_one

/-! ### The statistics -/

section Stats
variable {ι : Type*} [Fintype ι] (x : ι → EReal) (cN cEps : EReal)

/-- two-pass column mean -/
def meanR : EReal := Ideal.div (0 + ∑ i, x i) cN

/-- two-pass column variance -/
def varR : EReal := Ideal.div (0 + ∑ i, (x i - meanR x cN) * (x i - meanR x cN)) cN

/-- one-pass mean from the total S -/
def meanK (S : EReal) : EReal := Ideal.div S cN

/-- one-pass variance from the total S and the total of squares Q -/
def varK (S Q : EReal) : EReal := max (Ideal.div Q cN - meanK cN S * meanK cN S) 0

end Stats

/-- THE LAW. N is the number of rows as a real; every entry real; S and Q are the totals (however they were grouped). -/
theorem stats_eq {ι : Type*} [Fintype ι] (x : ι → EReal) (hx : ∀ i, IsReal (x i)) (N : ℝ)
    (hN : N = (Fintype.card ι : ℝ)) (hpos : 0 < N)
    (S Q : EReal) (hS : S = 0 + ∑ i, x i) (hQ : Q = 0 + ∑ i, x i * x i) :
    meanK (N : EReal) S = meanR x (N : EReal) ∧ varK (N : EReal) S Q = varR x (N : EReal)
      ∧ IsReal (meanR x (N : EReal)) ∧ IsReal (varR x (N : EReal)) ∧ 0 ≤ varR x (N : EReal) := by
  choose r hr using hx
  obtain rfl : x = fun i => (r i : EReal) := funext hr
  subst hS hQ
  have hN0 : N ≠ 0 := hpos.ne'
  have hmean : meanR (fun i => (r i : EReal)) (N : EReal) = (((∑ i, r i) / N : ℝ) : EReal) :=
    Cert.Lib.Variance.mean_eq r N hN0
  have hvarR : varR (fun i => (r i : EReal)) (N : EReal)
      = (((∑ i, (r i - (∑ j, r j) / N) * (r i - (∑ j, r j) / N)) / N : ℝ) : EReal) := by
    unfold varR
    rw [hmean]
    simp only [← EReal.coe_sub]
    rw [Cert.Lib.Variance.zero_add_coe_sum_mul, Cert.Lib.Variance.div_coe_coe _ _ hN0]
  have hnn : (0 : ℝ) ≤ (∑ i, (r i - (∑ j, r j) / N) * (r i - (∑ j, r j) / N)) / N :=
    div_nonneg (Cert.Lib.Variance.sum_sq_dev_nonneg r _) hpos.le
  have hreal : (∑ i, r i * r i) / N - (∑ i, r i) / N * ((∑ i, r i) / N)
      = (∑ i, (r i - (∑ j, r j) / N) * (r i - (∑ j, r j) / N)) / N := by
    rw [Cert.Lib.Variance.sum_sq_dev r N hN hN0]; field_simp
  have hvarK : varK (N : EReal) (0 + ∑ i, (r i : EReal)) (0 + ∑ i, (r i : EReal) * (r i : EReal))
      = (((∑ i, (r i - (∑ j, r j) / N) * (r i - (∑ j, r j) / N)) / N : ℝ) : EReal) := by
    unfold varK meanK
    rw [Cert.Lib.Variance.mean_eq r N hN0, Cert.Lib.Variance.zero_add_coe_sum_mul,
      Cert.Lib.Variance.div_coe_coe _ _ hN0, ← EReal.coe_mul, ← EReal.coe_sub, hreal]
    exact max_eq_left (by exact_mod_cast hnn)
  refine ⟨rfl, hvarK.trans hvarR.symm, ⟨_, hmean⟩, ⟨_, hvarR⟩, ?_⟩
  rw [hvarR]; exact_mod_cast hnn

/-! ### Regrouping rows into tiles -/

/-- row y of tile t, tiles of B rows: t * B + y -/
def rowOf {T B n : ℕ} (h : n = T * B) (t : Fin T) (y : Fin B) : Fin n :=
  ⟨t.val * B + y.val, by subst h; exact Cert.SumBlocks.block_lt t y⟩

/-- regrouping rows into T tiles of B rows (plain inner sums). No finiteness. -/
theorem sum_tiles' {T B n : ℕ} (h : n = T * B) (f : Fin n → EReal) :
    (0 : EReal) + ∑ t : Fin T, (∑ y : Fin B, f (rowOf h t y)) = 0 + ∑ r : Fin n, f r := by
  rw [Cert.SumBlocks.sum_fin_blocks T B h f]; rfl

/-- regrouping rows into T tiles of B rows, each tile summed from a zero start. No finiteness. -/
theorem sum_tiles {T B n : ℕ} (h : n = T * B) (f : Fin n → EReal) :
    (0 : EReal) + ∑ t : Fin T, ((0 : EReal) + ∑ y : Fin B, f (rowOf h t y)) = 0 + ∑ r : Fin n, f r := by
  simp only [zero_add]
  exact (zero_add _).symm.trans ((sum_tiles' h f).trans (zero_add _))

/-! ### The inverse standard deviation -/

/-- the inverse standard deviation is a (positive) real when the variance is a nonnegative real and eps a positive real -/
theorem invstd_real {v : EReal} (hv : IsReal v) (h0 : 0 ≤ v) {e : ℝ} (he : 0 < e) :
    IsReal (Ideal.rsqrt (v + (e : EReal))) := by
  obtain ⟨a, rfl⟩ := hv
  have ha : 0 ≤ a := by exact_mod_cast h0
  have hpos : (0 : EReal) < (a : EReal) + (e : EReal) := by
    rw [← EReal.coe_add]; exact_mod_cast add_pos_of_nonneg_of_pos ha he
  exact ((IsReal.coe a).add (IsReal.coe e)).rsqrt_of_pos hpos |>.1

/-! ### Four binary32 words as reals

  0x47C35000: exponent field 143, fraction 4411392, so (2^23 + 4411392) · 2^(143 − 127 − 23) = 12800000 / 128 = 100000.
  0x3727C5AC: exponent field 110, fraction 2606508, so (2^23 + 2606508) · 2^(110 − 127 − 23) = 10995116 · 2^(−40),
  a positive real (about 1.0e-5). -/

/-- The word 0x47C35000 denotes the real 100000. -/
theorem ofBits_100000 : Ideal.ofBits .f32 0x47C35000#32 = ((100000 : ℝ) : EReal) := by
  simp [Ideal.ofBits, Ideal.ieee, -EReal.coe_mul]; norm_num

/-- The word 0x3727C5AC denotes a positive real. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The zero word denotes 0. -/
theorem ofBits_zero : Ideal.ofBits .f32 0x00000000#32 = 0 := Ideal.ofBits_zero_f32

/-- The word 0x3F800000 denotes 1. -/
theorem ofBits_one : Ideal.ofBits .f32 0x3F800000#32 = 1 := Cert.Lib.Variance.ofBits_one

end Cert.LibBatchNorm

end
-- ==== Proof.LibScaleShift.lean ====
/-
  Batch norm applied as a scale and a shift, with the statistics taken in one pass by multiplying column
  totals with the reciprocal of the row count.

  For a finite family of entries x i that are all real numbers, N > 0 their number, S = ∑ x i and
  Q = ∑ x i · x i (grouped in any way), and c the real 1 / N:
      mean = S · c,     var = Q · c − mean · mean
  are the two-pass textbook statistics  S / N  and  (∑ (x i − mean)²) / N  — a product with the real 1/N is
  the quotient by N, and the real identity ∑ (r i − m)² = Q − N · m² does the rest; no clamp at zero is
  needed because the two-pass form is visibly nonnegative.

  With s = g · rsqrt (var + eps) and t = b − mean · s, the affine form  v · s + t  is the centred form
  (v − mean) · rsqrt (var + eps) · g + b  whenever v, mean, g, b and the inverse deviation are real: the
  difference is the distributive law and a cancellation, both valid on reals (and both false at infinities).

  Last, a running total kept across the tiles of a grid — reset to zero at the first tile and increased by
  each tile's partial total — ends at the total over all tiles, in any commutative additive monoid.
-/
import Mathlib.Data.EReal.Inv
import Mathlib.Algebra.BigOperators.Field
import Mathlib.Algebra.BigOperators.Fin
import Idealize.ShloMosaic.PureOps.Ideal
import Idealize.ShloMosaic.PureOps.Ideal.Laws
import proofs.«180905_j29583734735286_1_alg».proof.Proof.LibVariance
import proofs.«180905_j29583734735286_1_alg».proof.Proof.LibBatchNorm

noncomputable section

namespace Cert.LibScaleShift

open Idealize.ShloMosaic Cert.LibBatchNorm
open scoped BigOperators

/-! ### One-pass statistics by the reciprocal of the count -/

/-- THE STATISTICS. Every entry real, N the number of rows as a positive real, S and Q the totals from a zero
    start: the product of S with the real 1/N is the two-pass mean, and Q/N less the square of that mean is the
    two-pass variance, a nonnegative real. -/
theorem stats_mul_eq {ι : Type*} [Fintype ι] (x : ι → EReal) (hx : ∀ i, IsReal (x i)) (N : ℝ)
    (hN : N = (Fintype.card ι : ℝ)) (hpos : 0 < N)
    (S Q : EReal) (hS : S = 0 + ∑ i, x i) (hQ : Q = 0 + ∑ i, x i * x i) :
    S * ((1 / N : ℝ) : EReal) = meanR x (N : EReal)
      ∧ Q * ((1 / N : ℝ) : EReal) - S * ((1 / N : ℝ) : EReal) * (S * ((1 / N : ℝ) : EReal)) = varR x (N : EReal)
      ∧ IsReal (meanR x (N : EReal)) ∧ IsReal (varR x (N : EReal)) ∧ 0 ≤ varR x (N : EReal) := by
  obtain ⟨hm, hv, hmr, hvr, hv0⟩ := stats_eq x hx N hN hpos S Q hS hQ
  have hN0 : N ≠ 0 := hpos.ne'
  -- a product with the real 1/N is the quotient by N
  have hdiv : ∀ y : EReal, y * ((1 / N : ℝ) : EReal) = Ideal.div y (N : EReal) := fun y => (Ideal.div_coe hN0 y).symm
  have hmean : S * ((1 / N : ℝ) : EReal) = meanR x (N : EReal) := by rw [hdiv]; exact hm
  refine ⟨hmean, ?_, hmr, hvr, hv0⟩
  -- the unclamped one-pass variance is the clamped one, which is the two-pass one
  have hclamp : varK (N : EReal) S Q = Ideal.div Q (N : EReal) - meanK (N : EReal) S * meanK (N : EReal) S := by
    have h := hv
    unfold varK at h ⊢
    refine max_eq_left ?_
    -- the unclamped value is a real r with max r 0 = the nonnegative two-pass variance
    choose r hr using hx
    obtain rfl : x = fun i => (r i : EReal) := funext hr
    subst hS hQ
    have hreal : Ideal.div ((0 : EReal) + ∑ i, (r i : EReal) * (r i : EReal)) (N : EReal)
        - meanK (N : EReal) (0 + ∑ i, (r i : EReal)) * meanK (N : EReal) (0 + ∑ i, (r i : EReal))
        = ((((∑ i, r i * r i) / N - (∑ i, r i) / N * ((∑ i, r i) / N) : ℝ)) : EReal) := by
      unfold meanK
      rw [Cert.Lib.Variance.mean_eq r N hN0, Cert.Lib.Variance.zero_add_coe_sum_mul,
        Cert.Lib.Variance.div_coe_coe _ _ hN0, ← EReal.coe_mul, ← EReal.coe_sub]
    rw [hreal]
    have h2 : (∑ i, r i * r i) / N - (∑ i, r i) / N * ((∑ i, r i) / N)
        = (∑ i, (r i - (∑ j, r j) / N) * (r i - (∑ j, r j) / N)) / N := by
      rw [Cert.Lib.Variance.sum_sq_dev r N hN hN0]; field_simp
    rw [h2]
    exact_mod_cast div_nonneg (Cert.Lib.Variance.sum_sq_dev_nonneg r _) hpos.le
  rw [hdiv Q, hdiv S]
  exact hclamp.symm.trans hv

/-! ### The affine form is the centred form -/

/-- THE AFFINE FORM. For reals v, m, g, b and a real inverse deviation r:
    v · (g · r) + (b − m · (g · r)) = (v − m) · r · g + b. -/
theorem affine_eq {v m g b r : EReal} (hv : IsReal v) (hm : IsReal m) (hg : IsReal g) (hb : IsReal b)
    (hr : IsReal r) :
    v * (g * r) + (b - m * (g * r)) = (v - m) * r * g + b := by
  obtain ⟨v, rfl⟩ := hv; obtain ⟨m, rfl⟩ := hm; obtain ⟨g, rfl⟩ := hg
  obtain ⟨b, rfl⟩ := hb; obtain ⟨r, rfl⟩ := hr
  simp only [← EReal.coe_mul, ← EReal.coe_sub, ← EReal.coe_add]
  exact congrArg _ (by ring)

/-- The affine form stays real. -/
theorem affine_real {v g b m r : EReal} (hv : IsReal v) (hm : IsReal m) (hg : IsReal g) (hb : IsReal b)
    (hr : IsReal r) : IsReal (v * (g * r) + (b - m * (g * r))) :=
  (hv.mul (hg.mul hr)).add (hb.sub (hm.mul (hg.mul hr)))

/-! ### A running total across the tiles of a grid -/

/-- A running total that is reset at the first tile and increased by each tile's part ends, after the last
    tile, at the total of the parts. The total after tile t is `acc t`; `part` is each tile's contribution. -/
theorem running_total {M : Type*} [AddCommMonoid M] (T : ℕ) (part : Fin (T + 1) → M) (acc : Fin (T + 1) → M)
    (h0 : acc 0 = 0 + part 0)
    (hs : ∀ t : Fin T, acc t.succ = acc t.castSucc + part t.succ) :
    acc (Fin.last T) = ∑ t, part t := by
  suffices h : ∀ k : ℕ, ∀ hk : k < T + 1, acc ⟨k, hk⟩ = ∑ t : Fin (T + 1) with t.val ≤ k, part t by
    rw [show Fin.last T = ⟨T, Nat.lt_succ_self T⟩ from rfl, h T (Nat.lt_succ_self T),
      Finset.filter_true_of_mem (fun t _ => Nat.lt_succ_iff.mp t.isLt)]
  intro k
  induction k with
  | zero =>
    intro hk
    have : (Finset.univ.filter fun t : Fin (T + 1) => t.val ≤ 0) = {0} := by
      ext t
      simp only [Finset.mem_filter, Finset.mem_univ, true_and, Finset.mem_singleton, Fin.ext_iff, Fin.val_zero]
      omega
    rw [this, Finset.sum_singleton, show (⟨0, hk⟩ : Fin (T + 1)) = 0 from rfl, h0, zero_add]
  | succ k ih =>
    intro hk
    have hkT : k < T := Nat.lt_of_succ_lt_succ hk
    have e1 : (⟨k + 1, hk⟩ : Fin (T + 1)) = (⟨k, hkT⟩ : Fin T).succ := rfl
    have e2 : (⟨k, Nat.lt_of_succ_lt hk⟩ : Fin (T + 1)) = (⟨k, hkT⟩ : Fin T).castSucc := rfl
    rw [e1, hs, ← e2, ih (Nat.lt_of_succ_lt hk), ← e1]
    have : (Finset.univ.filter fun t : Fin (T + 1) => t.val ≤ k + 1)
        = insert (⟨k + 1, hk⟩ : Fin (T + 1)) (Finset.univ.filter fun t : Fin (T + 1) => t.val ≤ k) := by
      ext t; simp only [Finset.mem_filter, Finset.mem_univ, true_and, Finset.mem_insert, Fin.ext_iff]; omega
    rw [this, Finset.sum_insert (by simp), add_comm]

/-! ### The whole batch norm, column by column -/

section Bridge
variable {ι κ : Type*} [Fintype ι]

/-- Batch norm as the statistics kernels apply it: column j is scaled by g j · rsqrt (var + eps) and shifted by
    b j − mean · scale, the mean and the variance taken in one pass from the column's total S j and total of
    squares Q j by products with the reciprocal count c. -/
def bnAffine (x : ι → κ → EReal) (g b S Q : κ → EReal) (c eps : EReal) (i : ι) (j : κ) : EReal :=
  x i j * (g j * Ideal.rsqrt (Q j * c - S j * c * (S j * c) + eps))
    + (b j - S j * c * (g j * Ideal.rsqrt (Q j * c - S j * c * (S j * c) + eps)))

/-- Batch norm as the textbook states it: centre by the column mean, scale by the inverse deviation from the
    two-pass variance, then the learnt gain and bias. -/
def bnCentred (x : ι → κ → EReal) (g b : κ → EReal) (cN eps : EReal) (i : ι) (j : κ) : EReal :=
  (x i j - meanR (fun r => x r j) cN) * Ideal.rsqrt (varR (fun r => x r j) cN + eps) * g j + b j

/-- THE BRIDGE. On real entries, real gain and bias, N > 0 rows and a positive real eps, the affine form over
    one-pass statistics is the centred form over two-pass statistics, and the result is real. The totals may
    have been accumulated in any grouping: only their values enter. -/
theorem bn_affine_eq_centred (x : ι → κ → EReal) (g b S Q : κ → EReal)
    (hx : ∀ i j, IsReal (x i j)) (hg : ∀ j, IsReal (g j)) (hb : ∀ j, IsReal (b j))
    (N : ℝ) (hN : N = (Fintype.card ι : ℝ)) (hpos : 0 < N) (e : ℝ) (he : 0 < e)
    (hS : ∀ j, S j = 0 + ∑ i, x i j) (hQ : ∀ j, Q j = 0 + ∑ i, x i j * x i j) (i : ι) (j : κ) :
    bnAffine x g b S Q ((1 / N : ℝ) : EReal) (e : EReal) i j = bnCentred x g b (N : EReal) (e : EReal) i j
      ∧ IsReal (bnCentred x g b (N : EReal) (e : EReal) i j) := by
  obtain ⟨hm, hv, hmr, hvr, hv0⟩ :=
    stats_mul_eq (fun r => x r j) (fun r => hx r j) N hN hpos (S j) (Q j) (hS j) (hQ j)
  have hr : IsReal (Ideal.rsqrt (varR (fun r => x r j) (N : EReal) + (e : EReal))) := invstd_real hvr hv0 he
  have heq : bnAffine x g b S Q ((1 / N : ℝ) : EReal) (e : EReal) i j
      = bnCentred x g b (N : EReal) (e : EReal) i j := by
    unfold bnAffine bnCentred
    rw [hv, hm]
    exact affine_eq (hx i j) hmr (hg j) (hb j) hr
  refine ⟨heq, ?_⟩
  unfold bnCentred
  exact ((((hx i j).sub hmr).mul hr).mul (hg j)).add (hb j)

end Bridge

/-! ### Two binary32 words as reals

  0x47435000: exponent field 142, fraction 4411392, so (2^23 + 4411392) · 2^(142 − 127 − 23) = 12800000 / 256 = 50000. -/

/-- The word 0x47435000 denotes the real 50000. -/
theorem ofBits_50000 : Ideal.ofBits .f32 0x47435000#32 = ((50000 : ℝ) : EReal) := by
  simp [Ideal.ofBits, Ideal.ieee, -EReal.coe_mul]; norm_num

/-- The rectifier keeps reals real. -/
theorem relu_real {v : EReal} (hv : IsReal v) : IsReal (max v 0) := hv.max IsReal.zero

end Cert.LibScaleShift

end
-- ==== Proof.Spec.lean ====
/-
  The network as pure functions on the extended reals, in the two forms the two programs compute it.

  A layer takes x (n rows, d columns), two d × d weights and three gain / bias pairs. With lin v W the row-by-column
  product, the kernel's form normalises by a scale and a shift row computed from one-pass column statistics
  (totals and totals of squares times the reciprocal count c); the reference's form centres by the column mean and
  scales by the inverse deviation of the two-pass variance (quotients by the count cN). On real entries the two
  forms agree (the batch-norm bridge), and the layer's result is real again, so layers compose.
-/
import Mathlib.Data.EReal.Inv
import Idealize.ShloMosaic.PureOps.Ideal
import proofs.«180905_j29583734735286_1_alg».proof.Proof.LibBatchNorm
import proofs.«180905_j29583734735286_1_alg».proof.Proof.LibScaleShift

noncomputable section

namespace Cert.Spec

open Idealize.ShloMosaic Cert.LibBatchNorm Cert.LibScaleShift
open scoped BigOperators

variable {n d : ℕ}

/-- the row-by-column product -/
def lin (v : Fin n → Fin d → EReal) (W : Fin d → Fin d → EReal) (r : Fin n) (j : Fin d) : EReal := ∑ k, v r k * W k j
/-- column totals from a zero start -/
def colS (v : Fin n → Fin d → EReal) (j : Fin d) : EReal := 0 + ∑ r, v r j
/-- column totals of squares from a zero start -/
def colQ (v : Fin n → Fin d → EReal) (j : Fin d) : EReal := 0 + ∑ r, v r j * v r j
/-- the rectifier against the value z of the zero word -/
def relu (z : EReal) (v : Fin n → Fin d → EReal) (r : Fin n) (j : Fin d) : EReal := max (v r j) z
/-- a scale row and a shift row applied to every row -/
def aff (v : Fin n → Fin d → EReal) (sc sh : Fin d → EReal) (r : Fin n) (j : Fin d) : EReal := v r j * sc j + sh j
/-- the kernel's scale row from one-pass statistics -/
def scaleK (v : Fin n → Fin d → EReal) (g : Fin d → EReal) (c eps : EReal) (j : Fin d) : EReal :=
  g j * Ideal.rsqrt (colQ v j * c - colS v j * c * (colS v j * c) + eps)
/-- the kernel's shift row -/
def shiftK (v : Fin n → Fin d → EReal) (g b : Fin d → EReal) (c eps : EReal) (j : Fin d) : EReal :=
  b j - colS v j * c * scaleK v g c eps j
/-- batch norm, the kernel's form -/
def bnK (v : Fin n → Fin d → EReal) (g b : Fin d → EReal) (c eps : EReal) : Fin n → Fin d → EReal :=
  aff v (scaleK v g c eps) (shiftK v g b c eps)
/-- batch norm, the reference's form -/
def bnR (v : Fin n → Fin d → EReal) (g b : Fin d → EReal) (cN eps : EReal) (r : Fin n) (j : Fin d) : EReal :=
  (v r j - meanR (fun i => v i j) cN) * Ideal.rsqrt (varR (fun i => v i j) cN + eps) * g j + b j

/-- one layer, the kernel's form (fin = true: the rectifier after the third batch norm) -/
def layerK (z c eps : EReal) (fin : Bool) (x : Fin n → Fin d → EReal) (W0 W1 : Fin d → Fin d → EReal)
    (g1 b1 g2 b2 g3 b3 : Fin d → EReal) : Fin n → Fin d → EReal :=
  let a1 := relu z (bnK (lin x W0) g1 b1 c eps)
  let a2 := relu z (bnK (lin a1 W1) g2 b2 c eps)
  let o := bnK a2 g3 b3 c eps
  if fin then relu z o else o
/-- one layer, the reference's form -/
def layerR (z cN eps : EReal) (fin : Bool) (x : Fin n → Fin d → EReal) (W0 W1 : Fin d → Fin d → EReal)
    (g1 b1 g2 b2 g3 b3 : Fin d → EReal) : Fin n → Fin d → EReal :=
  let a1 := relu z (bnR (lin x W0) g1 b1 cN eps)
  let a2 := relu z (bnR (lin a1 W1) g2 b2 cN eps)
  let o := bnR a2 g3 b3 cN eps
  if fin then relu z o else o

/-! ### The bridge -/

theorem lin_real {v : Fin n → Fin d → EReal} {W : Fin d → Fin d → EReal} (hv : ∀ r k, IsReal (v r k)) (hW : ∀ k j, IsReal (W k j))
    (r : Fin n) (j : Fin d) : IsReal (lin v W r j) :=
  IsReal.sum _ _ fun k _ => (hv r k).mul (hW k j)

theorem relu_real' {v : Fin n → Fin d → EReal} (hv : ∀ r j, IsReal (v r j)) (r : Fin n) (j : Fin d) : IsReal (relu 0 v r j) :=
  (hv r j).max IsReal.zero

/-- batch norm: the kernel's form is the reference's on real entries, and the result is real -/
theorem bnK_eq_bnR (v : Fin n → Fin d → EReal) (g b : Fin d → EReal) (hv : ∀ r j, IsReal (v r j)) (hg : ∀ j, IsReal (g j))
    (hb : ∀ j, IsReal (b j)) (N : ℝ) (hN : N = (n : ℝ)) (hpos : 0 < N) (e : ℝ) (he : 0 < e) :
    bnK v g b ((1 / N : ℝ) : EReal) (e : EReal) = bnR v g b (N : EReal) (e : EReal)
      ∧ ∀ r j, IsReal (bnR v g b (N : EReal) (e : EReal) r j) := by
  have key := fun r j => bn_affine_eq_centred (ι := Fin n) (κ := Fin d) v g b (colS v) (colQ v) hv hg hb N
    (by rw [hN, Fintype.card_fin]) hpos e he (fun _ => rfl) (fun _ => rfl) r j
  exact ⟨funext fun r => funext fun j => (key r j).1, fun r j => (key r j).2⟩

/-- THE LAYER BRIDGE: on real inputs the two forms of a layer agree and the result is real. -/
theorem layerK_eq_layerR (fin : Bool) (x : Fin n → Fin d → EReal) (W0 W1 : Fin d → Fin d → EReal)
    (g1 b1 g2 b2 g3 b3 : Fin d → EReal) (hx : ∀ r k, IsReal (x r k)) (hW0 : ∀ k j, IsReal (W0 k j)) (hW1 : ∀ k j, IsReal (W1 k j))
    (hg1 : ∀ j, IsReal (g1 j)) (hb1 : ∀ j, IsReal (b1 j)) (hg2 : ∀ j, IsReal (g2 j)) (hb2 : ∀ j, IsReal (b2 j))
    (hg3 : ∀ j, IsReal (g3 j)) (hb3 : ∀ j, IsReal (b3 j)) (N : ℝ) (hN : N = (n : ℝ)) (hpos : 0 < N) (e : ℝ) (he : 0 < e) :
    layerK 0 ((1 / N : ℝ) : EReal) (e : EReal) fin x W0 W1 g1 b1 g2 b2 g3 b3
        = layerR 0 (N : EReal) (e : EReal) fin x W0 W1 g1 b1 g2 b2 g3 b3
      ∧ ∀ r j, IsReal (layerR 0 (N : EReal) (e : EReal) fin x W0 W1 g1 b1 g2 b2 g3 b3 r j) := by
  obtain ⟨e1, r1⟩ := bnK_eq_bnR (lin x W0) g1 b1 (lin_real hx hW0) hg1 hb1 N hN hpos e he
  have ra1 := relu_real' r1
  obtain ⟨e2, r2⟩ := bnK_eq_bnR (lin (relu 0 (bnR (lin x W0) g1 b1 (N : EReal) (e : EReal))) W1) g2 b2 (lin_real ra1 hW1) hg2 hb2 N hN hpos e he
  have ra2 := relu_real' r2
  obtain ⟨e3, r3⟩ := bnK_eq_bnR (relu 0 (bnR (lin (relu 0 (bnR (lin x W0) g1 b1 (N : EReal) (e : EReal))) W1) g2 b2 (N : EReal) (e : EReal))) g3 b3 ra2 hg3 hb3 N hN hpos e he
  unfold layerK layerR
  simp only [e1, e2, e3]
  refine ⟨trivial, fun r j => ?_⟩
  cases fin
  · exact r3 r j
  · exact relu_real' r3 r j

end Cert.Spec

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.RefBodyRead.lean ====
/-
  The array functions of a stage read at an index, on the extended reals: the slice of a stacked weight is that weight's
  block, the product is the row-by-column sum, the column mean and the guarded two-pass variance are the statistics of
  the column (the count word is 50000, the integer zero converts to 0 and the guard 50000 − 0 > 0 holds, so the
  quotient is picked), the normalisation is the centred batch norm, and so a layer's three stages are the layer of
  the specification.
-/
import proofs.«180905_j29583734735286_1_alg».proof.Proof.RefBodyOps
import proofs.«180905_j29583734735286_1_alg».proof.Proof.Spec
import proofs.«180905_j29583734735286_1_alg».proof.Proof.LibDense

noncomputable section

namespace Cert.ReferenceIdeal.Hand

open Cert.ReferenceIdeal Cert.ReferenceIdeal.Gen Idealize.ShloMosaic Idealize.ShloMosaic.ValueIdx Cert.LibBatchNorm
open scoped BigOperators

/-- the zero word's value -/
abbrev zW : EReal := Ideal.ofBits .f32 0x00000000#32
/-- the count word's value -/
abbrev cNW : EReal := Ideal.ofBits .f32 0x47435000#32
/-- the epsilon word's value -/
abbrev epsW : EReal := Ideal.ofBits .f32 0x3727C5AC#32

/-- The word 0x47435000 denotes the real 50000: exponent field 142, fraction 4411392, so
    (2^23 + 4411392) · 2^(142 − 127 − 23) = 12800000 / 256. -/
theorem cNW_eq : cNW = ((50000 : ℝ) : EReal) := by
  simp [Ideal.ofBits, Ideal.ieee, -EReal.coe_mul]; norm_num

/-! ### Layout -/

/-- a scalar broadcast to any shape reads the scalar -/
theorem bscalar_apply {α : Type} {t : Shape} (h : S_.BroadcastsInDim t (![] : Fin 0 → Fin t.rank)) (x : S_.Idx → α) (i : t.Idx) :
    broadcastInDim t ![] h x i = x ix0 :=
  broadcastInDim_apply _ h x i ix0 fun a => a.elim0

/-- a vector laid out as a row, at (0, j), is the vector at j -/
theorem toRow_apply {α : Type} (v : S128.Idx → α) (z : Fin 1) (j : Fin 128) :
    broadcastInDim S1x128 ![1] bcast_S128_S1x128_1 v (ix2 z j) = v (ix1 j) := by
  refine broadcastInDim_apply _ _ v _ (ix1 j) fun a => ?_
  match a with
  | ⟨0, _⟩ => rfl

/-- a row repeated down the rows, at (r, j), is the row at (0, j) -/
theorem downRows_apply {α : Type} (w : S1x128.Idx → α) (r : Fin 50000) (j : Fin 128) :
    broadcastInDim S50000x128 ![0, 1] bcast_S1x128_S50000x128_0_1 w (ix2 r j) = w (ix2 ⟨0, Nat.one_pos⟩ j) := by
  refine broadcastInDim_apply _ _ w _ _ fun a => ?_
  match a with
  | ⟨0, _⟩ => rfl
  | ⟨1, _⟩ => rfl

theorem rowsArr_apply (v : FVec Ideal S128 .f32) (r : Fin 50000) (j : Fin 128) : rowsArr v (ix2 r j) = v (ix1 j) :=
  (downRows_apply _ r j).trans (toRow_apply v _ j)

/-- block s of a stacked weight -/
theorem wSlice_apply (off : Fin 3 → Nat) (h : S3x128x128.Slices off S1x128x128) (a : FVec Ideal S3x128x128 .f32)
    (s : Fin 3) (h0 : off 0 = s.val) (h1 : off 1 = 0) (h2 : off 2 = 0) (k j : Fin 128) :
    wSlice off h a (ix2 k j) = a (ix3 s k j) := by
  unfold wSlice
  refine (shapeCast_apply _ shapeCasts_S1x128x128_S128x128 (ix2 k j) (ix3 ⟨0, Nat.one_pos⟩ k j) ?_).trans ?_
  · rw [Shape.rowMajor_val_three, Shape.rowMajor_val_two]
    show ((0 * 128 + k.val) * 128 + j.val) = k.val * 128 + j.val
    omega
  · refine extractStridedSlice_apply off a h _ (ix3 s k j) fun c => ?_
    match c with
    | ⟨0, _⟩ => show s.val = off 0 + 0; omega
    | ⟨1, _⟩ => show k.val = off 1 + k.val; omega
    | ⟨2, _⟩ => show j.val = off 2 + j.val; omega

/-- row s of a stacked row -/
theorem vSlice_apply (off : Fin 2 → Nat) (h : S3x128.Slices off S1x128) (a : FVec Ideal S3x128 .f32)
    (s : Fin 3) (h0 : off 0 = s.val) (h1 : off 1 = 0) (j : Fin 128) :
    vSlice off h a (ix1 j) = a (ix2 s j) := by
  unfold vSlice
  refine (shapeCast_apply _ shapeCasts_S1x128_S128 (ix1 j) (ix2 ⟨0, Nat.one_pos⟩ j) ?_).trans ?_
  · rw [Shape.rowMajor_val_two, Shape.rowMajor_val_one]
    show (0 * 128 + j.val) = j.val
    omega
  · refine extractStridedSlice_apply off a h _ (ix2 s j) fun c => ?_
    match c with
    | ⟨0, _⟩ => show s.val = off 0 + 0; omega
    | ⟨1, _⟩ => show j.val = off 1 + j.val; omega

/-! ### The product -/

theorem dot_eq : dot_S50000x128_S128x128_S50000x128_1_0_0_1_n_n = DotDims.plain 50000 128 128 := rfl

theorem linArr_apply (x : FVec Ideal S50000x128 .f32) (w : FVec Ideal S128x128 .f32) (r : Fin 50000) (j : Fin 128) :
    linArr x w (ix2 r j) = ∑ k : Fin 128, x (ix2 r k) * w (ix2 k j) := by
  unfold linArr
  rw [dot_eq]
  exact Cert.LibDense.dotGeneral_plain .single x w (ix2 r j)

/-! ### The statistics -/

theorem sumArr_apply (y : FVec Ideal S50000x128 .f32) (j : Fin 128) :
    sumArr y (ix1 j) = 0 + ∑ r : Fin 50000, y (ix2 r j) := by
  unfold sumArr Host.reduceAdd
  show Ideal.hostReduceAdd reducesTo_S50000x128_S128_d0 y (Ideal.ofBits .f32 0x00000000#32) (ix1 j) = _
  rw [Ideal.ofBits_zero_f32]
  refine (Ideal.hostReduceAdd_single reducesTo_S50000x128_S128_d0 (by decide : S50000x128.Reduces [0] S128) y 0 (ix1 j)).trans ?_
  refine congrArg (0 + ·) (Finset.sum_congr rfl fun r _ => congrArg y (funext fun a => Fin.ext ?_))
  match a with
  | ⟨0, _⟩ => rfl
  | ⟨1, _⟩ => rfl

theorem meanArr_apply (y : FVec Ideal S50000x128 .f32) (j : Fin 128) :
    meanArr y (ix1 j) = meanR (fun i => y (ix2 i j)) cNW := by
  unfold meanArr meanR
  show Ideal.div (sumArr y (ix1 j)) (broadcastInDim S128 ![] bcast_S_S128 (constant (F := Ideal) S_ .f32 0x47435000#32) (ix1 j)) = _
  rw [bscalar_apply, sumArr_apply]
  rfl

theorem meanRowArr_apply (y : FVec Ideal S50000x128 .f32) (z : Fin 1) (j : Fin 128) :
    meanRowArr y (ix2 z j) = meanR (fun i => y (ix2 i j)) cNW := by
  unfold meanRowArr meanR
  show Ideal.div (broadcastInDim S1x128 ![1] bcast_S128_S1x128_1 (sumArr y) (ix2 z j))
    (broadcastInDim S1x128 ![] bcast_S_S1x128 (constant (F := Ideal) S_ .f32 0x47435000#32) (ix2 z j)) = _
  rw [bscalar_apply, toRow_apply, sumArr_apply]
  rfl

theorem devArr_apply (y : FVec Ideal S50000x128 .f32) (r : Fin 50000) (j : Fin 128) :
    devArr y (ix2 r j) = y (ix2 r j) - meanR (fun i => y (ix2 i j)) cNW := by
  unfold devArr
  show y (ix2 r j) - broadcastInDim S50000x128 ![0, 1] bcast_S1x128_S50000x128_0_1 (meanRowArr y) (ix2 r j) = _
  rw [downRows_apply, meanRowArr_apply]

/-- the integer zero converts to 0, so the divisor is the count -/
theorem cntArr_apply (i : S_.Idx) : cntArr (constantI S_ 32 0#32) i = cNW := by
  show Ideal.ofBits .f32 0x47435000#32 - (((0#32 : BitVec 32).toInt : ℝ) : EReal) = _
  simp

/-- the guard holds: the count is positive -/
theorem guard_eq : Ideal.cmp .ogt cNW zW = 1#1 := by
  have h : zW < cNW := by
    rw [cNW_eq, show zW = 0 from Ideal.ofBits_zero_f32]
    exact_mod_cast (by norm_num : (0 : ℝ) < 50000)
  show BitVec.ofBool (decide (zW < cNW)) = 1#1
  rw [decide_eq_true h]
  rfl

theorem varArr_apply (y : FVec Ideal S50000x128 .f32) (j : Fin 128) :
    varArr y (constantI S_ 32 0#32) (ix1 j) = varR (fun i => y (ix2 i j)) cNW := by
  unfold varArr varR
  rw [select_apply, bscalar_apply, cmpf_apply, cntArr_apply]
  show Scalar.select (Ideal.cmp .ogt cNW zW) _ _ = _
  rw [guard_eq, select_one]
  show Ideal.div (sumArr (mulf (devArr y) (devArr y)) (ix1 j))
    (broadcastInDim S128 ![] bcast_S_S128 (cntArr (constantI S_ 32 0#32)) (ix1 j)) = _
  rw [bscalar_apply, cntArr_apply, sumArr_apply]
  refine congrArg (fun t => Ideal.div (0 + t) cNW) (Finset.sum_congr rfl fun r _ => ?_)
  show devArr y (ix2 r j) * devArr y (ix2 r j) = _
  rw [devArr_apply]

/-! ### The normalisation, the rectifier, a stage -/

theorem bnArr_apply (y : FVec Ideal S50000x128 .f32) (m v g b : FVec Ideal S128 .f32) (r : Fin 50000) (j : Fin 128) :
    bnArr y m v g b (ix2 r j) = (y (ix2 r j) - m (ix1 j)) * Ideal.rsqrt (v (ix1 j) + epsW) * g (ix1 j) + b (ix1 j) := by
  unfold bnArr
  show (y (ix2 r j) - rowsArr m (ix2 r j))
      * rowsArr (Host.rsqrt (addf v (broadcastInDim S128 ![] bcast_S_S128 (constant S_ .f32 0x3727C5AC#32)))) (ix2 r j)
      * rowsArr g (ix2 r j) + rowsArr b (ix2 r j) = _
  rw [rowsArr_apply, rowsArr_apply, rowsArr_apply, rowsArr_apply]
  rfl

theorem reluArr_apply (y : FVec Ideal S50000x128 .f32) (i : S50000x128.Idx) : reluArr y i = max (y i) zW := rfl

/-- a batch norm of an array with its own statistics is the specification's, column by column -/
theorem stageArr_apply (y : FVec Ideal S50000x128 .f32) (g b : FVec Ideal S128 .f32) (r : Fin 50000) (j : Fin 128) :
    stageArr y g b (ix2 r j)
      = Cert.Spec.bnR (fun r j => y (ix2 r j)) (fun j => g (ix1 j)) (fun j => b (ix1 j)) cNW epsW r j := by
  unfold stageArr Cert.Spec.bnR
  rw [bnArr_apply, meanArr_apply, varArr_apply]

/-! ### A layer -/

/-- a stage after a product is the specification's batch norm of the specification's product -/
theorem stageLin_apply (x : FVec Ideal S50000x128 .f32) (w : FVec Ideal S128x128 .f32) (g b : FVec Ideal S128 .f32)
    (r : Fin 50000) (j : Fin 128) :
    stageArr (linArr x w) g b (ix2 r j)
      = Cert.Spec.bnR (Cert.Spec.lin (fun r k => x (ix2 r k)) (fun k j => w (ix2 k j))) (fun j => g (ix1 j)) (fun j => b (ix1 j)) cNW epsW r j := by
  rw [stageArr_apply]
  have e : (fun r j => linArr x w (ix2 r j)) = Cert.Spec.lin (fun r k => x (ix2 r k)) (fun k j => w (ix2 k j)) :=
    funext fun r => funext fun j => linArr_apply x w r j
  rw [e]

/-- the first two stages of a layer, read at every index -/
theorem twoStages_apply (x : FVec Ideal S50000x128 .f32) (w0 w1 : FVec Ideal S128x128 .f32) (g1 b1 g2 b2 : FVec Ideal S128 .f32) :
    (fun r j => reluArr (stageArr (linArr (reluArr (stageArr (linArr x w0) g1 b1)) w1) g2 b2) (ix2 r j))
      = Cert.Spec.relu zW (Cert.Spec.bnR (Cert.Spec.lin
          (Cert.Spec.relu zW (Cert.Spec.bnR (Cert.Spec.lin (fun r k => x (ix2 r k)) (fun k j => w0 (ix2 k j)))
            (fun j => g1 (ix1 j)) (fun j => b1 (ix1 j)) cNW epsW))
          (fun k j => w1 (ix2 k j))) (fun j => g2 (ix1 j)) (fun j => b2 (ix1 j)) cNW epsW) := by
  have e1 : (fun r j => reluArr (stageArr (linArr x w0) g1 b1) (ix2 r j))
      = Cert.Spec.relu zW (Cert.Spec.bnR (Cert.Spec.lin (fun r k => x (ix2 r k)) (fun k j => w0 (ix2 k j)))
          (fun j => g1 (ix1 j)) (fun j => b1 (ix1 j)) cNW epsW) :=
    funext fun r => funext fun j => by rw [reluArr_apply, stageLin_apply]; rfl
  refine funext fun r => funext fun j => ?_
  rw [reluArr_apply, stageLin_apply, e1]
  rfl

/-- a layer that ends with the rectifier -/
theorem layer_apply_relu (x : FVec Ideal S50000x128 .f32) (w0 w1 : FVec Ideal S128x128 .f32) (g1 b1 g2 b2 g3 b3 : FVec Ideal S128 .f32)
    (r : Fin 50000) (j : Fin 128) :
    reluArr (stageArr (reluArr (stageArr (linArr (reluArr (stageArr (linArr x w0) g1 b1)) w1) g2 b2)) g3 b3) (ix2 r j)
      = Cert.Spec.layerR zW cNW epsW true (fun r k => x (ix2 r k)) (fun k j => w0 (ix2 k j)) (fun k j => w1 (ix2 k j))
          (fun j => g1 (ix1 j)) (fun j => b1 (ix1 j)) (fun j => g2 (ix1 j)) (fun j => b2 (ix1 j))
          (fun j => g3 (ix1 j)) (fun j => b3 (ix1 j)) r j := by
  rw [reluArr_apply, stageArr_apply, twoStages_apply]
  rfl

/-- a layer that ends with the third batch norm -/
theorem layer_apply_last (x : FVec Ideal S50000x128 .f32) (w0 w1 : FVec Ideal S128x128 .f32) (g1 b1 g2 b2 g3 b3 : FVec Ideal S128 .f32)
    (r : Fin 50000) (j : Fin 128) :
    stageArr (reluArr (stageArr (linArr (reluArr (stageArr (linArr x w0) g1 b1)) w1) g2 b2)) g3 b3 (ix2 r j)
      = Cert.Spec.layerR zW cNW epsW false (fun r k => x (ix2 r k)) (fun k j => w0 (ix2 k j)) (fun k j => w1 (ix2 k j))
          (fun j => g1 (ix1 j)) (fun j => b1 (ix1 j)) (fun j => g2 (ix1 j)) (fun j => b2 (ix1 j))
          (fun j => g3 (ix1 j)) (fun j => b3 (ix1 j)) r j := by
  rw [stageArr_apply, twoStages_apply]
  rfl

/-! ### The slices of the stacked arguments, layer by layer -/

theorem wSlice0_apply (a : FVec Ideal S3x128x128 .f32) (k j : Fin 128) :
    wSlice ![0, 0, 0] slices_S3x128x128_S1x128x128_0_0_0 a (ix2 k j) = a (ix3 ⟨0, by decide⟩ k j) :=
  wSlice_apply ![0, 0, 0] slices_S3x128x128_S1x128x128_0_0_0 a ⟨0, by decide⟩ rfl rfl rfl k j

theorem vSlice0_apply (a : FVec Ideal S3x128 .f32) (j : Fin 128) :
    vSlice ![0, 0] slices_S3x128_S1x128_0_0 a (ix1 j) = a (ix2 ⟨0, by decide⟩ j) :=
  vSlice_apply ![0, 0] slices_S3x128_S1x128_0_0 a ⟨0, by decide⟩ rfl rfl j

theorem wSlice1_apply (a : FVec Ideal S3x128x128 .f32) (k j : Fin 128) :
    wSlice ![1, 0, 0] slices_S3x128x128_S1x128x128_1_0_0 a (ix2 k j) = a (ix3 ⟨1, by decide⟩ k j) :=
  wSlice_apply ![1, 0, 0] slices_S3x128x128_S1x128x128_1_0_0 a ⟨1, by decide⟩ rfl rfl rfl k j

theorem vSlice1_apply (a : FVec Ideal S3x128 .f32) (j : Fin 128) :
    vSlice ![1, 0] slices_S3x128_S1x128_1_0 a (ix1 j) = a (ix2 ⟨1, by decide⟩ j) :=
  vSlice_apply ![1, 0] slices_S3x128_S1x128_1_0 a ⟨1, by decide⟩ rfl rfl j

theorem wSlice2_apply (a : FVec Ideal S3x128x128 .f32) (k j : Fin 128) :
    wSlice ![2, 0, 0] slices_S3x128x128_S1x128x128_2_0_0 a (ix2 k j) = a (ix3 ⟨2, by decide⟩ k j) :=
  wSlice_apply ![2, 0, 0] slices_S3x128x128_S1x128x128_2_0_0 a ⟨2, by decide⟩ rfl rfl rfl k j

theorem vSlice2_apply (a : FVec Ideal S3x128 .f32) (j : Fin 128) :
    vSlice ![2, 0] slices_S3x128_S1x128_2_0 a (ix1 j) = a (ix2 ⟨2, by decide⟩ j) :=
  vSlice_apply ![2, 0] slices_S3x128_S1x128_2_0 a ⟨2, by decide⟩ rfl rfl j

end Cert.ReferenceIdeal.Hand

end
-- ==== Proof.RefBody0.lean ====
/-
  Layer 0 of the reference from x to its output, read at an index: the fold of the layer's operations leaves in the
  output buffer the specification's layer of x (as the fold finds it in its buffer) and of block 0 of the weights and
  row 0 of the gains and biases.
-/
import proofs.«180905_j29583734735286_1_alg».proof.Proof.RefBody0Run
import proofs.«180905_j29583734735286_1_alg».proof.Proof.RefBodyRead

noncomputable section

namespace Cert.ReferenceIdeal.Hand

open Cert.ReferenceIdeal Cert.ReferenceIdeal.Gen Idealize.ShloMosaic Idealize.ShloMosaic.TcCoe Idealize.SL.Sem Idealize.ShloMosaic.StableHlo

theorem body0_value (V : Valuation τ sig (Elt Ideal)) (r : Fin 50000) (j : Fin 128) :
    (after (B0 (F := Ideal)) V (main_v95 : DevRef τ sig) : S50000x128.Idx → EReal) (ValueIdx.ix2 r j)
      = Cert.Spec.layerR zW cNW epsW true
          (fun r k => (V (main_v17 : DevRef τ sig) : S50000x128.Idx → EReal) (ValueIdx.ix2 r k))
          (fun k j => (V (main_arg3 : DevRef τ sig) : S3x128x128.Idx → EReal) (ValueIdx.ix3 ⟨0, by decide⟩ k j))
          (fun k j => (V (main_arg4 : DevRef τ sig) : S3x128x128.Idx → EReal) (ValueIdx.ix3 ⟨0, by decide⟩ k j))
          (fun j => (V (main_arg5 : DevRef τ sig) : S3x128.Idx → EReal) (ValueIdx.ix2 ⟨0, by decide⟩ j))
          (fun j => (V (main_arg6 : DevRef τ sig) : S3x128.Idx → EReal) (ValueIdx.ix2 ⟨0, by decide⟩ j))
          (fun j => (V (main_arg7 : DevRef τ sig) : S3x128.Idx → EReal) (ValueIdx.ix2 ⟨0, by decide⟩ j))
          (fun j => (V (main_arg8 : DevRef τ sig) : S3x128.Idx → EReal) (ValueIdx.ix2 ⟨0, by decide⟩ j))
          (fun j => (V (main_arg9 : DevRef τ sig) : S3x128.Idx → EReal) (ValueIdx.ix2 ⟨0, by decide⟩ j))
          (fun j => (V (main_arg10 : DevRef τ sig) : S3x128.Idx → EReal) (ValueIdx.ix2 ⟨0, by decide⟩ j)) r j := by
  rw [B0_arr, layer_apply_relu]
  simp only [wSlice0_apply, vSlice0_apply]

end Cert.ReferenceIdeal.Hand

end
-- ==== Proof.RefBody1Run.lean ====
/-
  The operations of layer 1 from x to the layer's output, cut at the two rectifiers into three stages, and what each
  stage leaves in its last buffer as one array function of the buffers it reads; no stage writes an argument, so the
  three compose to the layer's output as an array function of x and the arguments.
-/
import proofs.«180905_j29583734735286_1_alg».proof.Proof.RefSplit
import proofs.«180905_j29583734735286_1_alg».proof.Proof.RefBodyOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- the first product, its batch norm and rectifier -/
abbrev B1a : List (HloOp τ sig (Elt F)) :=
  [ StableHlo.unary main_arg3 main_v110 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v110 main_v111 rfl shapeCasts_S1x128x128_S128x128,
    StableHlo.binary main_v109 main_v111 main_v112 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v113 ((extractStridedSlice S1x128 ![1, 0] · slices_S3x128_S1x128_1_0) : (⟨S3x128, .f32⟩ : BufTy).Contents (Elt F) → (⟨S1x128, .f32⟩ : BufTy).Contents (Elt F)),
    StableHlo.reshape main_v113 main_v114 rfl shapeCasts_S1x128_S128,
    StableHlo.unary main_arg6 main_v115 ((extractStridedSlice S1x128 ![1, 0] · slices_S3x128_S1x128_1_0) : (⟨S3x128, .f32⟩ : BufTy).Contents (Elt F) → (⟨S1x128, .f32⟩ : BufTy).Contents (Elt F)),
    StableHlo.reshape main_v115 main_v116 rfl shapeCasts_S1x128_S128,
    StableHlo.nullary main_cst_16 (constant S_ .f32 0x00000000#32),
    StableHlo.binary main_v112 main_cst_16 main_v117 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v118 (broadcastInDim S128 ![] bcast_S_S128 : (⟨S_, .f32⟩ : BufTy).Contents (Elt F) → (⟨S128, .f32⟩ : BufTy).Contents (Elt F)),
    StableHlo.binary main_v117 main_v118 main_v119 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call6.cst (constant S_ .f32 0x00000000#32),
    StableHlo.TRef.binary (.of main_v112) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v112) main_call6.v4 main_call6.v5 subf,
    StableHlo.TRef.binary main_call6.v5 main_call6.v5 main_call6.v6 mulf,
    StableHlo.TRef.unary (.of main_c_18) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v119 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S50000x128 ![0, 1] bcast_S1x128_S50000x128_0_1 : (⟨S1x128, .f32⟩ : BufTy).Contents (Elt F) → (⟨S50000x128, .f32⟩ : BufTy).Contents (Elt F)),
    StableHlo.binary main_v112 main_v122 main_v123 (subf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v124 (broadcastInDim S128 ![] bcast_S_S128 : (⟨S_, .f32⟩ : BufTy).Contents (Elt F) → (⟨S128, .f32⟩ : BufTy).Contents (Elt F)),
    StableHlo.binary main_v120 main_v124 main_v125 (addf : (⟨S128, .f32⟩ : BufTy).Contents (Elt F) → (⟨S128, .f32⟩ : BufTy).Contents (Elt F) → (⟨S128, .f32⟩ : BufTy).Contents (Elt F)),
    StableHlo.unary main_v125 main_v126 (Host.rsqrt : (⟨S128, .f32⟩ : BufTy).Contents (Elt F) → (⟨S128, .f32⟩ : BufTy).Contents (Elt F)),
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v128 main_v129 (mulf : (⟨S50000x128, .f32⟩ : BufTy).Contents (Elt F) → (⟨S50000x128, .f32⟩ : BufTy).Contents (Elt F) → (⟨S50000x128, .f32⟩ : BufTy).Contents (Elt F)),
    StableHlo.unary main_v114 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v131 main_v132 (mulf : (⟨S50000x128, .f32⟩ : BufTy).Contents (Elt F) → (⟨S50000x128, .f32⟩ : BufTy).Contents (Elt F) → (⟨S50000x128, .f32⟩ : BufTy).Contents (Elt F)),
    StableHlo.unary main_v116 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v132 main_v134 main_v135 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v135) main_call7.v0 main_call7.v1 maximumf ]

/-- the second product, its batch norm and rectifier -/
abbrev B1b : List (HloOp τ sig (Elt F)) :=
  [ StableHlo.unary main_arg4 main_v137 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v137 main_v138 rfl shapeCasts_S1x128x128_S128x128,
    StableHlo.binary main_v136 main_v138 main_v139 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v140 ((extractStridedSlice S1x128 ![1, 0] · slices_S3x128_S1x128_1_0) : (⟨S3x128, .f32⟩ : BufTy).Contents (Elt F) → (⟨S1x128, .f32⟩ : BufTy).Contents (Elt F)),
    StableHlo.reshape main_v140 main_v141 rfl shapeCasts_S1x128_S128,
    StableHlo.unary main_arg8 main_v142 ((extractStridedSlice S1x128 ![1, 0] · slices_S3x128_S1x128_1_0) : (⟨S3x128, .f32⟩ : BufTy).Contents (Elt F) → (⟨S1x128, .f32⟩ : BufTy).Contents (Elt F)),
    StableHlo.reshape main_v142 main_v143 rfl shapeCasts_S1x128_S128,
    StableHlo.nullary main_cst_20 (constant S_ .f32 0x00000000#32),
    StableHlo.binary main_v139 main_cst_20 main_v144 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_21 (constant S_ .f32 0x47435000#32),
    StableHlo.unary main_cst_21 main_v145 (broadcastInDim S128 ![] bcast_S_S128 : (⟨S_, .f32⟩ : BufTy).Contents (Elt F) → (⟨S128, .f32⟩ : BufTy).Contents (Elt F)),
    StableHlo.binary main_v144 main_v145 main_v146 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary main_call8.cst (constant S_ .f32 0x00000000#32),
    StableHlo.TRef.binary (.of main_v139) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (.of main_v139) main_call8.v4 main_call8.v5 subf,
    StableHlo.TRef.binary main_call8.v5 main_call8.v5 main_call8.v6 mulf,
    StableHlo.TRef.unary (.of main_c_22) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v146 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S50000x128 ![0, 1] bcast_S1x128_S50000x128_0_1 : (⟨S1x128, .f32⟩ : BufTy).Contents (Elt F) → (⟨S50000x128, .f32⟩ : BufTy).Contents (Elt F)),
    StableHlo.binary main_v139 main_v149 main_v150 (subf : (⟨S50000x128, .f32⟩ : BufTy).Contents (Elt F) → (⟨S50000x128, .f32⟩ : BufTy).Contents (Elt F) → (⟨S50000x128, .f32⟩ : BufTy).Contents (Elt F)),
    StableHlo.nullary main_cst_23 (constant S_ .f32 0x3727C5AC#32),
    StableHlo.unary main_cst_23 main_v151 (broadcastInDim S128 ![] bcast_S_S128 : (⟨S_, .f32⟩ : BufTy).Contents (Elt F) → (⟨S128, .f32⟩ : BufTy).Contents (Elt F)),
    StableHlo.binary main_v147 main_v151 main_v152 (addf : (⟨S128, .f32⟩ : BufTy).Contents (Elt F) → (⟨S128, .f32⟩ : BufTy).Contents (Elt F) → (⟨S128, .f32⟩ : BufTy).Contents (Elt F)),
    StableHlo.unary main_v152 main_v153 (Host.rsqrt : (⟨S128, .f32⟩ : BufTy).Contents (Elt F) → (⟨S128, .f32⟩ : BufTy).Contents (Elt F)),
    StableHlo.unary main_v153 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S50000x128 ![0, 1] bcast_S1x128_S50000x128_0_1 : (⟨S1x128, .f32⟩ : BufTy).Contents (Elt F) → (⟨S50000x128, .f32⟩ : BufTy).Contents (Elt F)),
    StableHlo.binary main_v150 main_v155 main_v156 (mulf : (⟨S50000x128, .f32⟩ : BufTy).Contents (Elt F) → (⟨S50000x128, .f32⟩ : BufTy).Contents (Elt F) → (⟨S50000x128, .f32⟩ : BufTy).Contents (Elt F)),
    StableHlo.unary main_v141 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S50000x128 ![0, 1] bcast_S1x128_S50000x128_0_1 : (⟨S1x128, .f32⟩ : BufTy).Contents (Elt F) → (⟨S50000x128, .f32⟩ : BufTy).Contents (Elt F)),
    StableHlo.binary main_v156 main_v158 main_v159 (mulf : (⟨S50000x128, .f32⟩ : BufTy).Contents (Elt F) → (⟨S50000x128, .f32⟩ : BufTy).Contents (Elt F) → (⟨S50000x128, .f32⟩ : BufTy).Contents (Elt F)),
    StableHlo.unary main_v143 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S50000x128 ![0, 1] bcast_S1x128_S50000x128_0_1 : (⟨S1x128, .f32⟩ : BufTy).Contents (Elt F) → (⟨S50000x128, .f32⟩ : BufTy).Contents (Elt F)),
    StableHlo.binary main_v159 main_v161 main_v162 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v162) main_call9.v0 main_call9.v1 maximumf ]

/-- the third batch norm and its rectifier -/
abbrev B1c : List (HloOp τ sig (Elt F)) :=
  [ StableHlo.unary main_arg9 main_v164 ((extractStridedSlice S1x128 ![1, 0] · slices_S3x128_S1x128_1_0) : (⟨S3x128, .f32⟩ : BufTy).Contents (Elt F) → (⟨S1x128, .f32⟩ : BufTy).Contents (Elt F)),
    StableHlo.reshape main_v164 main_v165 rfl shapeCasts_S1x128_S128,
    StableHlo.unary main_arg10 main_v166 ((extractStridedSlice S1x128 ![1, 0] · slices_S3x128_S1x128_1_0) : (⟨S3x128, .f32⟩ : BufTy).Contents (Elt F) → (⟨S1x128, .f32⟩ : BufTy).Contents (Elt F)),
    StableHlo.reshape main_v166 main_v167 rfl shapeCasts_S1x128_S128,
    StableHlo.nullary main_cst_24 (constant S_ .f32 0x00000000#32),
    StableHlo.binary main_v163 main_cst_24 main_v168 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_25 (constant S_ .f32 0x47435000#32),
    StableHlo.unary main_cst_25 main_v169 (broadcastInDim S128 ![] bcast_S_S128 : (⟨S_, .f32⟩ : BufTy).Contents (Elt F) → (⟨S128, .f32⟩ : BufTy).Contents (Elt F)),
    StableHlo.binary main_v168 main_v169 main_v170 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.TRef.nullary main_call10.cst (constant S_ .f32 0x00000000#32),
    StableHlo.TRef.binary (.of main_v163) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v163) main_call10.v4 main_call10.v5 subf,
    StableHlo.TRef.binary main_call10.v5 main_call10.v5 main_call10.v6 mulf,
    StableHlo.TRef.unary (.of main_c_26) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v170 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S50000x128 ![0, 1] bcast_S1x128_S50000x128_0_1 : (⟨S1x128, .f32⟩ : BufTy).Contents (Elt F) → (⟨S50000x128, .f32⟩ : BufTy).Contents (Elt F)),
    StableHlo.binary main_v163 main_v173 main_v174 (subf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x3727C5AC#32),
    StableHlo.unary main_cst_27 main_v175 (broadcastInDim S128 ![] bcast_S_S128 : (⟨S_, .f32⟩ : BufTy).Contents (Elt F) → (⟨S128, .f32⟩ : BufTy).Contents (Elt F)),
    StableHlo.binary main_v171 main_v175 main_v176 (addf : (⟨S128, .f32⟩ : BufTy).Contents (Elt F) → (⟨S128, .f32⟩ : BufTy).Contents (Elt F) → (⟨S128, .f32⟩ : BufTy).Contents (Elt F)),
    StableHlo.unary main_v176 main_v177 (Host.rsqrt : (⟨S128, .f32⟩ : BufTy).Contents (Elt F) → (⟨S128, .f32⟩ : BufTy).Contents (Elt F)),
    StableHlo.unary main_v177 main_v178 (broadcastInDim S1x128 ![1] bcast_S128_S1x128_1 : (⟨S128, .f32⟩ : BufTy).Contents (Elt F) → (⟨S1x128, .f32⟩ : BufTy).Contents (Elt F)),
    StableHlo.unary main_v178 main_v179 (broadcastInDim S50000x128 ![0, 1] bcast_S1x128_S50000x128_0_1 : (⟨S1x128, .f32⟩ : BufTy).Contents (Elt F) → (⟨S50000x128, .f32⟩ : BufTy).Contents (Elt F)),
    StableHlo.binary main_v174 main_v179 main_v180 (mulf : (⟨S50000x128, .f32⟩ : BufTy).Contents (Elt F) → (⟨S50000x128, .f32⟩ : BufTy).Contents (Elt F) → (⟨S50000x128, .f32⟩ : BufTy).Contents (Elt F)),
    StableHlo.unary main_v165 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S50000x128 ![0, 1] bcast_S1x128_S50000x128_0_1 : (⟨S1x128, .f32⟩ : BufTy).Contents (Elt F) → (⟨S50000x128, .f32⟩ : BufTy).Contents (Elt F)),
    StableHlo.binary main_v180 main_v182 main_v183 (mulf : (⟨S50000x128, .f32⟩ : BufTy).Contents (Elt F) → (⟨S50000x128, .f32⟩ : BufTy).Contents (Elt F) → (⟨S50000x128, .f32⟩ : BufTy).Contents (Elt F)),
    StableHlo.unary main_v167 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S50000x128 ![0, 1] bcast_S1x128_S50000x128_0_1 : (⟨S1x128, .f32⟩ : BufTy).Contents (Elt F) → (⟨S50000x128, .f32⟩ : BufTy).Contents (Elt F)),
    StableHlo.binary main_v183 main_v185 main_v186 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v186) main_call11.v0 main_call11.v1 maximumf ]

set_option maxRecDepth 65536 in
theorem B1_cut : (B1 : List (HloOp τ sig (Elt F))) = B1a ++ (B1b ++ B1c) := rfl

set_option maxRecDepth 65536 in
theorem B1a_val (V : Valuation τ sig (Elt Ideal)) :
    after (B1a (F := Ideal)) V (main_v136 : DevRef τ sig) = (reluArr (stageArr (linArr (V (main_v109 : DevRef τ sig)) (wSlice ![1, 0, 0] slices_S3x128x128_S1x128x128_1_0_0 (V (main_arg3 : DevRef τ sig)))) (vSlice ![1, 0] slices_S3x128_S1x128_1_0 (V (main_arg5 : DevRef τ sig))) (vSlice ![1, 0] slices_S3x128_S1x128_1_0 (V (main_arg6 : DevRef τ sig))))) := by
  after_results_simp
  rfl

set_option maxRecDepth 65536 in
theorem B1b_val (V : Valuation τ sig (Elt Ideal)) :
    after (B1b (F := Ideal)) V (main_v163 : DevRef τ sig) = (reluArr (stageArr (linArr (V (main_v136 : DevRef τ sig)) (wSlice ![1, 0, 0] slices_S3x128x128_S1x128x128_1_0_0 (V (main_arg4 : DevRef τ sig)))) (vSlice ![1, 0] slices_S3x128_S1x128_1_0 (V (main_arg7 : DevRef τ sig))) (vSlice ![1, 0] slices_S3x128_S1x128_1_0 (V (main_arg8 : DevRef τ sig))))) := by
  after_results_simp
  rfl

set_option maxRecDepth 65536 in
theorem B1c_val (V : Valuation τ sig (Elt Ideal)) :
    after (B1c (F := Ideal)) V (main_v187 : DevRef τ sig) = (reluArr (stageArr (V (main_v163 : DevRef τ sig)) (vSlice ![1, 0] slices_S3x128_S1x128_1_0 (V (main_arg9 : DevRef τ sig))) (vSlice ![1, 0] slices_S3x128_S1x128_1_0 (V (main_arg10 : DevRef τ sig))))) := by
  after_results_simp
  rfl

/-! The first two stages write no argument the later stages read. -/
set_option maxRecDepth 65536 in
theorem keep1a_arg4 (V : Valuation τ sig (Elt F)) : after (B1a : List (HloOp τ sig (Elt F))) V (main_arg4 : DevRef τ sig) = V (main_arg4 : DevRef τ sig) := by
  simp only [after_cons, after_nil]
  rfl
set_option maxRecDepth 65536 in
theorem keep1a_arg7 (V : Valuation τ sig (Elt F)) : after (B1a : List (HloOp τ sig (Elt F))) V (main_arg7 : DevRef τ sig) = V (main_arg7 : DevRef τ sig) := by
  simp only [after_cons, after_nil]
  rfl
set_option maxRecDepth 65536 in
theorem keep1a_arg8 (V : Valuation τ sig (Elt F)) : after (B1a : List (HloOp τ sig (Elt F))) V (main_arg8 : DevRef τ sig) = V (main_arg8 : DevRef τ sig) := by
  simp only [after_cons, after_nil]
  rfl
set_option maxRecDepth 65536 in
theorem keep1a_arg9 (V : Valuation τ sig (Elt F)) : after (B1a : List (HloOp τ sig (Elt F))) V (main_arg9 : DevRef τ sig) = V (main_arg9 : DevRef τ sig) := by
  simp only [after_cons, after_nil]
  rfl
set_option maxRecDepth 65536 in
theorem keep1a_arg10 (V : Valuation τ sig (Elt F)) : after (B1a : List (HloOp τ sig (Elt F))) V (main_arg10 : DevRef τ sig) = V (main_arg10 : DevRef τ sig) := by
  simp only [after_cons, after_nil]
  rfl
set_option maxRecDepth 65536 in
theorem keep1b_arg9 (V : Valuation τ sig (Elt F)) : after (B1b : List (HloOp τ sig (Elt F))) V (main_arg9 : DevRef τ sig) = V (main_arg9 : DevRef τ sig) := by
  simp only [after_cons, after_nil]
  rfl
set_option maxRecDepth 65536 in
theorem keep1b_arg10 (V : Valuation τ sig (Elt F)) : after (B1b : List (HloOp τ sig (Elt F))) V (main_arg10 : DevRef τ sig) = V (main_arg10 : DevRef τ sig) := by
  simp only [after_cons, after_nil]
  rfl

/-- The layer's output array as a function of x and the arguments. -/
theorem B1_arr (V : Valuation τ sig (Elt Ideal)) :
    after (B1 (F := Ideal)) V (main_v187 : DevRef τ sig)
      = (reluArr (stageArr (reluArr (stageArr (linArr (reluArr (stageArr (linArr (V (main_v109 : DevRef τ sig)) (wSlice ![1, 0, 0] slices_S3x128x128_S1x128x128_1_0_0 (V (main_arg3 : DevRef τ sig)))) (vSlice ![1, 0] slices_S3x128_S1x128_1_0 (V (main_arg5 : DevRef τ sig))) (vSlice ![1, 0] slices_S3x128_S1x128_1_0 (V (main_arg6 : DevRef τ sig))))) (wSlice ![1, 0, 0] slices_S3x128x128_S1x128x128_1_0_0 (V (main_arg4 : DevRef τ sig)))) (vSlice ![1, 0] slices_S3x128_S1x128_1_0 (V (main_arg7 : DevRef τ sig))) (vSlice ![1, 0] slices_S3x128_S1x128_1_0 (V (main_arg8 : DevRef τ sig))))) (vSlice ![1, 0] slices_S3x128_S1x128_1_0 (V (main_arg9 : DevRef τ sig))) (vSlice ![1, 0] slices_S3x128_S1x128_1_0 (V (main_arg10 : DevRef τ sig))))) := by
  rw [B1_cut, after_append, after_append, B1c_val, B1b_val, B1a_val, keep1b_arg9, keep1b_arg10,
    keep1a_arg4, keep1a_arg7, keep1a_arg8, keep1a_arg9, keep1a_arg10]

end Cert.ReferenceIdeal.Hand

end
-- ==== Proof.RefBody1.lean ====
/-
  Layer 1 of the reference from x to its output, read at an index: the fold of the layer's operations leaves in the
  output buffer the specification's layer of x (as the fold finds it in its buffer) and of block 1 of the weights and
  row 1 of the gains and biases.
-/
import proofs.«180905_j29583734735286_1_alg».proof.Proof.RefBody1Run
import proofs.«180905_j29583734735286_1_alg».proof.Proof.RefBodyRead

noncomputable section

namespace Cert.ReferenceIdeal.Hand

open Cert.ReferenceIdeal Cert.ReferenceIdeal.Gen Idealize.ShloMosaic Idealize.ShloMosaic.TcCoe Idealize.SL.Sem Idealize.ShloMosaic.StableHlo

theorem body1_value (V : Valuation τ sig (Elt Ideal)) (r : Fin 50000) (j : Fin 128) :
    (after (B1 (F := Ideal)) V (main_v187 : DevRef τ sig) : S50000x128.Idx → EReal) (ValueIdx.ix2 r j)
      = Cert.Spec.layerR zW cNW epsW true
          (fun r k => (V (main_v109 : DevRef τ sig) : S50000x128.Idx → EReal) (ValueIdx.ix2 r k))
          (fun k j => (V (main_arg3 : DevRef τ sig) : S3x128x128.Idx → EReal) (ValueIdx.ix3 ⟨1, by decide⟩ k j))
          (fun k j => (V (main_arg4 : DevRef τ sig) : S3x128x128.Idx → EReal) (ValueIdx.ix3 ⟨1, by decide⟩ k j))
          (fun j => (V (main_arg5 : DevRef τ sig) : S3x128.Idx → EReal) (ValueIdx.ix2 ⟨1, by decide⟩ j))
          (fun j => (V (main_arg6 : DevRef τ sig) : S3x128.Idx → EReal) (ValueIdx.ix2 ⟨1, by decide⟩ j))
          (fun j => (V (main_arg7 : DevRef τ sig) : S3x128.Idx → EReal) (ValueIdx.ix2 ⟨1, by decide⟩ j))
          (fun j => (V (main_arg8 : DevRef τ sig) : S3x128.Idx → EReal) (ValueIdx.ix2 ⟨1, by decide⟩ j))
          (fun j => (V (main_arg9 : DevRef τ sig) : S3x128.Idx → EReal) (ValueIdx.ix2 ⟨1, by decide⟩ j))
          (fun j => (V (main_arg10 : DevRef τ sig) : S3x128.Idx → EReal) (ValueIdx.ix2 ⟨1, by decide⟩ j)) r j := by
  rw [B1_arr, layer_apply_relu]
  simp only [wSlice1_apply, vSlice1_apply]

end Cert.ReferenceIdeal.Hand

end
-- ==== Proof.RefBody2Run.lean ====
/-
  The operations of layer 2 from x to the layer's output, cut at the two rectifiers into three stages, and what each
  stage leaves in its last buffer as one array function of the buffers it reads; no stage writes an argument, so the
  three compose to the layer's output as an array function of x and the arguments.
-/
import proofs.«180905_j29583734735286_1_alg».proof.Proof.RefSplit
import proofs.«180905_j29583734735286_1_alg».proof.Proof.RefBodyOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- the first product, its batch norm and rectifier -/
abbrev B2a : List (HloOp τ sig (Elt F)) :=
  [ StableHlo.unary main_arg3 main_v202 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v202 main_v203 rfl shapeCasts_S1x128x128_S128x128,
    StableHlo.binary main_v201 main_v203 main_v204 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v205 ((extractStridedSlice S1x128 ![2, 0] · slices_S3x128_S1x128_2_0) : (⟨S3x128, .f32⟩ : BufTy).Contents (Elt F) → (⟨S1x128, .f32⟩ : BufTy).Contents (Elt F)),
    StableHlo.reshape main_v205 main_v206 rfl shapeCasts_S1x128_S128,
    StableHlo.unary main_arg6 main_v207 ((extractStridedSlice S1x128 ![2, 0] · slices_S3x128_S1x128_2_0) : (⟨S3x128, .f32⟩ : BufTy).Contents (Elt F) → (⟨S1x128, .f32⟩ : BufTy).Contents (Elt F)),
    StableHlo.reshape main_v207 main_v208 rfl shapeCasts_S1x128_S128,
    StableHlo.nullary main_cst_31 (constant S_ .f32 0x00000000#32),
    StableHlo.binary main_v204 main_cst_31 main_v209 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_32 (constant S_ .f32 0x47435000#32),
    StableHlo.unary main_cst_32 main_v210 (broadcastInDim S128 ![] bcast_S_S128 : (⟨S_, .f32⟩ : BufTy).Contents (Elt F) → (⟨S128, .f32⟩ : BufTy).Contents (Elt F)),
    StableHlo.binary main_v209 main_v210 main_v211 (Host.divf : (⟨S128, .f32⟩ : BufTy).Contents (Elt F) → (⟨S128, .f32⟩ : BufTy).Contents (Elt F) → (⟨S128, .f32⟩ : BufTy).Contents (Elt F)),
    StableHlo.nullary main_c_33 (constantI S_ 32 0#32),
    StableHlo.TRef.nullary main_call12.cst (constant S_ .f32 0x00000000#32),
    StableHlo.TRef.binary (.of main_v204) main_call12.cst main_call12.v0 (fun x v => Host.reduceAdd x v reducesTo_S50000x128_S128_d0 h_S_),
    StableHlo.TRef.unary main_call12.v0 main_call12.v1 (broadcastInDim S1x128 ![1] bcast_S128_S1x128_1),
    StableHlo.TRef.nullary main_call12.cst_0 (constant S_ .f32 0x47435000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S50000x128 ![0, 1] bcast_S1x128_S50000x128_0_1),
    StableHlo.TRef.binary (.of main_v204) main_call12.v4 main_call12.v5 subf,
    StableHlo.TRef.binary main_call12.v5 main_call12.v5 main_call12.v6 mulf,
    StableHlo.TRef.unary (.of main_c_33) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b),
    StableHlo.unary main_v211 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S50000x128 ![0, 1] bcast_S1x128_S50000x128_0_1 : (⟨S1x128, .f32⟩ : BufTy).Contents (Elt F) → (⟨S50000x128, .f32⟩ : BufTy).Contents (Elt F)),
    StableHlo.binary main_v204 main_v214 main_v215 (subf : (⟨S50000x128, .f32⟩ : BufTy).Contents (Elt F) → (⟨S50000x128, .f32⟩ : BufTy).Contents (Elt F) → (⟨S50000x128, .f32⟩ : BufTy).Contents (Elt F)),
    StableHlo.nullary main_cst_34 (constant S_ .f32 0x3727C5AC#32),
    StableHlo.unary main_cst_34 main_v216 (broadcastInDim S128 ![] bcast_S_S128 : (⟨S_, .f32⟩ : BufTy).Contents (Elt F) → (⟨S128, .f32⟩ : BufTy).Contents (Elt F)),
    StableHlo.binary main_v212 main_v216 main_v217 (addf : (⟨S128, .f32⟩ : BufTy).Contents (Elt F) → (⟨S128, .f32⟩ : BufTy).Contents (Elt F) → (⟨S128, .f32⟩ : BufTy).Contents (Elt F)),
    StableHlo.unary main_v217 main_v218 (Host.rsqrt : (⟨S128, .f32⟩ : BufTy).Contents (Elt F) → (⟨S128, .f32⟩ : BufTy).Contents (Elt F)),
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S50000x128 ![0, 1] bcast_S1x128_S50000x128_0_1 : (⟨S1x128, .f32⟩ : BufTy).Contents (Elt F) → (⟨S50000x128, .f32⟩ : BufTy).Contents (Elt F)),
    StableHlo.binary main_v215 main_v220 main_v221 (mulf : (⟨S50000x128, .f32⟩ : BufTy).Contents (Elt F) → (⟨S50000x128, .f32⟩ : BufTy).Contents (Elt F) → (⟨S50000x128, .f32⟩ : BufTy).Contents (Elt F)),
    StableHlo.unary main_v206 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S50000x128 ![0, 1] bcast_S1x128_S50000x128_0_1 : (⟨S1x128, .f32⟩ : BufTy).Contents (Elt F) → (⟨S50000x128, .f32⟩ : BufTy).Contents (Elt F)),
    StableHlo.binary main_v221 main_v223 main_v224 (mulf : (⟨S50000x128, .f32⟩ : BufTy).Contents (Elt F) → (⟨S50000x128, .f32⟩ : BufTy).Contents (Elt F) → (⟨S50000x128, .f32⟩ : BufTy).Contents (Elt F)),
    StableHlo.unary main_v208 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S50000x128 ![0, 1] bcast_S1x128_S50000x128_0_1 : (⟨S1x128, .f32⟩ : BufTy).Contents (Elt F) → (⟨S50000x128, .f32⟩ : BufTy).Contents (Elt F)),
    StableHlo.binary main_v224 main_v226 main_v227 (addf : (⟨S50000x128, .f32⟩ : BufTy).Contents (Elt F) → (⟨S50000x128, .f32⟩ : BufTy).Contents (Elt F) → (⟨S50000x128, .f32⟩ : BufTy).Contents (Elt F)),
    StableHlo.TRef.nullary main_call13.cst (constant S_ .f32 0x00000000#32),
    StableHlo.TRef.unary main_call13.cst main_call13.v0 (broadcastInDim S50000x128 ![] bcast_S_S50000x128),
    StableHlo.TRef.binary (.of main_v227) main_call13.v0 main_call13.v1 maximumf ]

/-- the second product, its batch norm and rectifier -/
abbrev B2b : List (HloOp τ sig (Elt F)) :=
  [ StableHlo.unary main_arg4 main_v229 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v229 main_v230 rfl shapeCasts_S1x128x128_S128x128,
    StableHlo.binary main_v228 main_v230 main_v231 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v232 ((extractStridedSlice S1x128 ![2, 0] · slices_S3x128_S1x128_2_0) : (⟨S3x128, .f32⟩ : BufTy).Contents (Elt F) → (⟨S1x128, .f32⟩ : BufTy).Contents (Elt F)),
    StableHlo.reshape main_v232 main_v233 rfl shapeCasts_S1x128_S128,
    StableHlo.unary main_arg8 main_v234 ((extractStridedSlice S1x128 ![2, 0] · slices_S3x128_S1x128_2_0) : (⟨S3x128, .f32⟩ : BufTy).Contents (Elt F) → (⟨S1x128, .f32⟩ : BufTy).Contents (Elt F)),
    StableHlo.reshape main_v234 main_v235 rfl shapeCasts_S1x128_S128,
    StableHlo.nullary main_cst_35 (constant S_ .f32 0x00000000#32),
    StableHlo.binary main_v231 main_cst_35 main_v236 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_36 (constant S_ .f32 0x47435000#32),
    StableHlo.unary main_cst_36 main_v237 (broadcastInDim S128 ![] bcast_S_S128 : (⟨S_, .f32⟩ : BufTy).Contents (Elt F) → (⟨S128, .f32⟩ : BufTy).Contents (Elt F)),
    StableHlo.binary main_v236 main_v237 main_v238 (Host.divf : (⟨S128, .f32⟩ : BufTy).Contents (Elt F) → (⟨S128, .f32⟩ : BufTy).Contents (Elt F) → (⟨S128, .f32⟩ : BufTy).Contents (Elt F)),
    StableHlo.nullary main_c_37 (constantI S_ 32 0#32),
    StableHlo.TRef.nullary main_call14.cst (constant S_ .f32 0x00000000#32),
    StableHlo.TRef.binary (.of main_v231) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (.of main_v231) main_call14.v4 main_call14.v5 subf,
    StableHlo.TRef.binary main_call14.v5 main_call14.v5 main_call14.v6 mulf,
    StableHlo.TRef.unary (.of main_c_37) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v238 main_v240 (broadcastInDim S1x128 ![1] bcast_S128_S1x128_1 : (⟨S128, .f32⟩ : BufTy).Contents (Elt F) → (⟨S1x128, .f32⟩ : BufTy).Contents (Elt F)),
    StableHlo.unary main_v240 main_v241 (broadcastInDim S50000x128 ![0, 1] bcast_S1x128_S50000x128_0_1 : (⟨S1x128, .f32⟩ : BufTy).Contents (Elt F) → (⟨S50000x128, .f32⟩ : BufTy).Contents (Elt F)),
    StableHlo.binary main_v231 main_v241 main_v242 (subf : (⟨S50000x128, .f32⟩ : BufTy).Contents (Elt F) → (⟨S50000x128, .f32⟩ : BufTy).Contents (Elt F) → (⟨S50000x128, .f32⟩ : BufTy).Contents (Elt F)),
    StableHlo.nullary main_cst_38 (constant S_ .f32 0x3727C5AC#32),
    StableHlo.unary main_cst_38 main_v243 (broadcastInDim S128 ![] bcast_S_S128 : (⟨S_, .f32⟩ : BufTy).Contents (Elt F) → (⟨S128, .f32⟩ : BufTy).Contents (Elt F)),
    StableHlo.binary main_v239 main_v243 main_v244 (addf : (⟨S128, .f32⟩ : BufTy).Contents (Elt F) → (⟨S128, .f32⟩ : BufTy).Contents (Elt F) → (⟨S128, .f32⟩ : BufTy).Contents (Elt F)),
    StableHlo.unary main_v244 main_v245 (Host.rsqrt : (⟨S128, .f32⟩ : BufTy).Contents (Elt F) → (⟨S128, .f32⟩ : BufTy).Contents (Elt F)),
    StableHlo.unary main_v245 main_v246 (broadcastInDim S1x128 ![1] bcast_S128_S1x128_1 : (⟨S128, .f32⟩ : BufTy).Contents (Elt F) → (⟨S1x128, .f32⟩ : BufTy).Contents (Elt F)),
    StableHlo.unary main_v246 main_v247 (broadcastInDim S50000x128 ![0, 1] bcast_S1x128_S50000x128_0_1 : (⟨S1x128, .f32⟩ : BufTy).Contents (Elt F) → (⟨S50000x128, .f32⟩ : BufTy).Contents (Elt F)),
    StableHlo.binary main_v242 main_v247 main_v248 (mulf : (⟨S50000x128, .f32⟩ : BufTy).Contents (Elt F) → (⟨S50000x128, .f32⟩ : BufTy).Contents (Elt F) → (⟨S50000x128, .f32⟩ : BufTy).Contents (Elt F)),
    StableHlo.unary main_v233 main_v249 (broadcastInDim S1x128 ![1] bcast_S128_S1x128_1 : (⟨S128, .f32⟩ : BufTy).Contents (Elt F) → (⟨S1x128, .f32⟩ : BufTy).Contents (Elt F)),
    StableHlo.unary main_v249 main_v250 (broadcastInDim S50000x128 ![0, 1] bcast_S1x128_S50000x128_0_1 : (⟨S1x128, .f32⟩ : BufTy).Contents (Elt F) → (⟨S50000x128, .f32⟩ : BufTy).Contents (Elt F)),
    StableHlo.binary main_v248 main_v250 main_v251 (mulf : (⟨S50000x128, .f32⟩ : BufTy).Contents (Elt F) → (⟨S50000x128, .f32⟩ : BufTy).Contents (Elt F) → (⟨S50000x128, .f32⟩ : BufTy).Contents (Elt F)),
    StableHlo.unary main_v235 main_v252 (broadcastInDim S1x128 ![1] bcast_S128_S1x128_1 : (⟨S128, .f32⟩ : BufTy).Contents (Elt F) → (⟨S1x128, .f32⟩ : BufTy).Contents (Elt F)),
    StableHlo.unary main_v252 main_v253 (broadcastInDim S50000x128 ![0, 1] bcast_S1x128_S50000x128_0_1 : (⟨S1x128, .f32⟩ : BufTy).Contents (Elt F) → (⟨S50000x128, .f32⟩ : BufTy).Contents (Elt F)),
    StableHlo.binary main_v251 main_v253 main_v254 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (.of main_v254) main_call15.v0 main_call15.v1 maximumf ]

/-- the third batch norm -/
abbrev B2c : List (HloOp τ sig (Elt F)) :=
  [ StableHlo.unary main_arg9 main_v256 ((extractStridedSlice S1x128 ![2, 0] · slices_S3x128_S1x128_2_0) : (⟨S3x128, .f32⟩ : BufTy).Contents (Elt F) → (⟨S1x128, .f32⟩ : BufTy).Contents (Elt F)),
    StableHlo.reshape main_v256 main_v257 rfl shapeCasts_S1x128_S128,
    StableHlo.unary main_arg10 main_v258 ((extractStridedSlice S1x128 ![2, 0] · slices_S3x128_S1x128_2_0) : (⟨S3x128, .f32⟩ : BufTy).Contents (Elt F) → (⟨S1x128, .f32⟩ : BufTy).Contents (Elt F)),
    StableHlo.reshape main_v258 main_v259 rfl shapeCasts_S1x128_S128,
    StableHlo.nullary main_cst_39 (constant S_ .f32 0x00000000#32),
    StableHlo.binary main_v255 main_cst_39 main_v260 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_40 (constant S_ .f32 0x47435000#32),
    StableHlo.unary main_cst_40 main_v261 (broadcastInDim S128 ![] bcast_S_S128 : (⟨S_, .f32⟩ : BufTy).Contents (Elt F) → (⟨S128, .f32⟩ : BufTy).Contents (Elt F)),
    StableHlo.binary main_v260 main_v261 main_v262 (Host.divf : (⟨S128, .f32⟩ : BufTy).Contents (Elt F) → (⟨S128, .f32⟩ : BufTy).Contents (Elt F) → (⟨S128, .f32⟩ : BufTy).Contents (Elt F)),
    StableHlo.nullary main_c_41 (constantI S_ 32 0#32),
    StableHlo.TRef.nullary main_call16.cst (constant S_ .f32 0x00000000#32),
    StableHlo.TRef.binary (.of main_v255) main_call16.cst main_call16.v0 (fun x v => Host.reduceAdd x v reducesTo_S50000x128_S128_d0 h_S_),
    StableHlo.TRef.unary main_call16.v0 main_call16.v1 (broadcastInDim S1x128 ![1] bcast_S128_S1x128_1),
    StableHlo.TRef.nullary main_call16.cst_0 (constant S_ .f32 0x47435000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S50000x128 ![0, 1] bcast_S1x128_S50000x128_0_1),
    StableHlo.TRef.binary (.of main_v255) main_call16.v4 main_call16.v5 subf,
    StableHlo.TRef.binary main_call16.v5 main_call16.v5 main_call16.v6 mulf,
    StableHlo.TRef.unary (.of main_c_41) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x128_S128_d0 h_S_),
    StableHlo.TRef.unary main_call16.v8 main_call16.v10 (broadcastInDim S128 ![] bcast_S_S128),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S128 ![] bcast_S_S128),
    StableHlo.TRef.ternary main_call16.v12 main_call16.v11 main_call16.call0.v1 main_call16.call0.v2 (fun p a b => select (broadcastInDim S128 ![] bcast_S_S128 p) a b),
    StableHlo.unary main_v262 main_v264 (broadcastInDim S1x128 ![1] bcast_S128_S1x128_1 : (⟨S128, .f32⟩ : BufTy).Contents (Elt F) → (⟨S1x128, .f32⟩ : BufTy).Contents (Elt F)),
    StableHlo.unary main_v264 main_v265 (broadcastInDim S50000x128 ![0, 1] bcast_S1x128_S50000x128_0_1 : (⟨S1x128, .f32⟩ : BufTy).Contents (Elt F) → (⟨S50000x128, .f32⟩ : BufTy).Contents (Elt F)),
    StableHlo.binary main_v255 main_v265 main_v266 (subf : (⟨S50000x128, .f32⟩ : BufTy).Contents (Elt F) → (⟨S50000x128, .f32⟩ : BufTy).Contents (Elt F) → (⟨S50000x128, .f32⟩ : BufTy).Contents (Elt F)),
    StableHlo.nullary main_cst_42 (constant S_ .f32 0x3727C5AC#32),
    StableHlo.unary main_cst_42 main_v267 (broadcastInDim S128 ![] bcast_S_S128 : (⟨S_, .f32⟩ : BufTy).Contents (Elt F) → (⟨S128, .f32⟩ : BufTy).Contents (Elt F)),
    StableHlo.binary main_v263 main_v267 main_v268 (addf : (⟨S128, .f32⟩ : BufTy).Contents (Elt F) → (⟨S128, .f32⟩ : BufTy).Contents (Elt F) → (⟨S128, .f32⟩ : BufTy).Contents (Elt F)),
    StableHlo.unary main_v268 main_v269 (Host.rsqrt : (⟨S128, .f32⟩ : BufTy).Contents (Elt F) → (⟨S128, .f32⟩ : BufTy).Contents (Elt F)),
    StableHlo.unary main_v269 main_v270 (broadcastInDim S1x128 ![1] bcast_S128_S1x128_1 : (⟨S128, .f32⟩ : BufTy).Contents (Elt F) → (⟨S1x128, .f32⟩ : BufTy).Contents (Elt F)),
    StableHlo.unary main_v270 main_v271 (broadcastInDim S50000x128 ![0, 1] bcast_S1x128_S50000x128_0_1 : (⟨S1x128, .f32⟩ : BufTy).Contents (Elt F) → (⟨S50000x128, .f32⟩ : BufTy).Contents (Elt F)),
    StableHlo.binary main_v266 main_v271 main_v272 (mulf : (⟨S50000x128, .f32⟩ : BufTy).Contents (Elt F) → (⟨S50000x128, .f32⟩ : BufTy).Contents (Elt F) → (⟨S50000x128, .f32⟩ : BufTy).Contents (Elt F)),
    StableHlo.unary main_v257 main_v273 (broadcastInDim S1x128 ![1] bcast_S128_S1x128_1 : (⟨S128, .f32⟩ : BufTy).Contents (Elt F) → (⟨S1x128, .f32⟩ : BufTy).Contents (Elt F)),
    StableHlo.unary main_v273 main_v274 (broadcastInDim S50000x128 ![0, 1] bcast_S1x128_S50000x128_0_1 : (⟨S1x128, .f32⟩ : BufTy).Contents (Elt F) → (⟨S50000x128, .f32⟩ : BufTy).Contents (Elt F)),
    StableHlo.binary main_v272 main_v274 main_v275 (mulf : (⟨S50000x128, .f32⟩ : BufTy).Contents (Elt F) → (⟨S50000x128, .f32⟩ : BufTy).Contents (Elt F) → (⟨S50000x128, .f32⟩ : BufTy).Contents (Elt F)),
    StableHlo.unary main_v259 main_v276 (broadcastInDim S1x128 ![1] bcast_S128_S1x128_1 : (⟨S128, .f32⟩ : BufTy).Contents (Elt F) → (⟨S1x128, .f32⟩ : BufTy).Contents (Elt F)),
    StableHlo.unary main_v276 main_v277 (broadcastInDim S50000x128 ![0, 1] bcast_S1x128_S50000x128_0_1 : (⟨S1x128, .f32⟩ : BufTy).Contents (Elt F) → (⟨S50000x128, .f32⟩ : BufTy).Contents (Elt F)),
    StableHlo.binary main_v275 main_v277 main_v278 (addf : (⟨S50000x128, .f32⟩ : BufTy).Contents (Elt F) → (⟨S50000x128, .f32⟩ : BufTy).Contents (Elt F) → (⟨S50000x128, .f32⟩ : BufTy).Contents (Elt F)) ]

set_option maxRecDepth 65536 in
theorem B2_cut : (B2 : List (HloOp τ sig (Elt F))) = B2a ++ (B2b ++ B2c) := rfl

set_option maxRecDepth 65536 in
theorem B2a_val (V : Valuation τ sig (Elt Ideal)) :
    after (B2a (F := Ideal)) V (main_v228 : DevRef τ sig) = (reluArr (stageArr (linArr (V (main_v201 : DevRef τ sig)) (wSlice ![2, 0, 0] slices_S3x128x128_S1x128x128_2_0_0 (V (main_arg3 : DevRef τ sig)))) (vSlice ![2, 0] slices_S3x128_S1x128_2_0 (V (main_arg5 : DevRef τ sig))) (vSlice ![2, 0] slices_S3x128_S1x128_2_0 (V (main_arg6 : DevRef τ sig))))) := by
  after_results_simp
  rfl

set_option maxRecDepth 65536 in
theorem B2b_val (V : Valuation τ sig (Elt Ideal)) :
    after (B2b (F := Ideal)) V (main_v255 : DevRef τ sig) = (reluArr (stageArr (linArr (V (main_v228 : DevRef τ sig)) (wSlice ![2, 0, 0] slices_S3x128x128_S1x128x128_2_0_0 (V (main_arg4 : DevRef τ sig)))) (vSlice ![2, 0] slices_S3x128_S1x128_2_0 (V (main_arg7 : DevRef τ sig))) (vSlice ![2, 0] slices_S3x128_S1x128_2_0 (V (main_arg8 : DevRef τ sig))))) := by
  after_results_simp
  rfl

set_option maxRecDepth 65536 in
theorem B2c_val (V : Valuation τ sig (Elt Ideal)) :
    after (B2c (F := Ideal)) V (main_v278 : DevRef τ sig) = (stageArr (V (main_v255 : DevRef τ sig)) (vSlice ![2, 0] slices_S3x128_S1x128_2_0 (V (main_arg9 : DevRef τ sig))) (vSlice ![2, 0] slices_S3x128_S1x128_2_0 (V (main_arg10 : DevRef τ sig)))) := by
  after_results_simp
  rfl

/-! The first two stages write no argument the later stages read. -/
set_option maxRecDepth 65536 in
theorem keep2a_arg4 (V : Valuation τ sig (Elt F)) : after (B2a : List (HloOp τ sig (Elt F))) V (main_arg4 : DevRef τ sig) = V (main_arg4 : DevRef τ sig) := by
  simp only [after_cons, after_nil]
  rfl
set_option maxRecDepth 65536 in
theorem keep2a_arg7 (V : Valuation τ sig (Elt F)) : after (B2a : List (HloOp τ sig (Elt F))) V (main_arg7 : DevRef τ sig) = V (main_arg7 : DevRef τ sig) := by
  simp only [after_cons, after_nil]
  rfl
set_option maxRecDepth 65536 in
theorem keep2a_arg8 (V : Valuation τ sig (Elt F)) : after (B2a : List (HloOp τ sig (Elt F))) V (main_arg8 : DevRef τ sig) = V (main_arg8 : DevRef τ sig) := by
  simp only [after_cons, after_nil]
  rfl
set_option maxRecDepth 65536 in
theorem keep2a_arg9 (V : Valuation τ sig (Elt F)) : after (B2a : List (HloOp τ sig (Elt F))) V (main_arg9 : DevRef τ sig) = V (main_arg9 : DevRef τ sig) := by
  simp only [after_cons, after_nil]
  rfl
set_option maxRecDepth 65536 in
theorem keep2a_arg10 (V : Valuation τ sig (Elt F)) : after (B2a : List (HloOp τ sig (Elt F))) V (main_arg10 : DevRef τ sig) = V (main_arg10 : DevRef τ sig) := by
  simp only [after_cons, after_nil]
  rfl
set_option maxRecDepth 65536 in
theorem keep2b_arg9 (V : Valuation τ sig (Elt F)) : after (B2b : List (HloOp τ sig (Elt F))) V (main_arg9 : DevRef τ sig) = V (main_arg9 : DevRef τ sig) := by
  simp only [after_cons, after_nil]
  rfl
set_option maxRecDepth 65536 in
theorem keep2b_arg10 (V : Valuation τ sig (Elt F)) : after (B2b : List (HloOp τ sig (Elt F))) V (main_arg10 : DevRef τ sig) = V (main_arg10 : DevRef τ sig) := by
  simp only [after_cons, after_nil]
  rfl

/-- The layer's output array as a function of x and the arguments. -/
theorem B2_arr (V : Valuation τ sig (Elt Ideal)) :
    after (B2 (F := Ideal)) V (main_v278 : DevRef τ sig)
      = (stageArr (reluArr (stageArr (linArr (reluArr (stageArr (linArr (V (main_v201 : DevRef τ sig)) (wSlice ![2, 0, 0] slices_S3x128x128_S1x128x128_2_0_0 (V (main_arg3 : DevRef τ sig)))) (vSlice ![2, 0] slices_S3x128_S1x128_2_0 (V (main_arg5 : DevRef τ sig))) (vSlice ![2, 0] slices_S3x128_S1x128_2_0 (V (main_arg6 : DevRef τ sig))))) (wSlice ![2, 0, 0] slices_S3x128x128_S1x128x128_2_0_0 (V (main_arg4 : DevRef τ sig)))) (vSlice ![2, 0] slices_S3x128_S1x128_2_0 (V (main_arg7 : DevRef τ sig))) (vSlice ![2, 0] slices_S3x128_S1x128_2_0 (V (main_arg8 : DevRef τ sig))))) (vSlice ![2, 0] slices_S3x128_S1x128_2_0 (V (main_arg9 : DevRef τ sig))) (vSlice ![2, 0] slices_S3x128_S1x128_2_0 (V (main_arg10 : DevRef τ sig)))) := by
  rw [B2_cut, after_append, after_append, B2c_val, B2b_val, B2a_val, keep2b_arg9, keep2b_arg10,
    keep2a_arg4, keep2a_arg7, keep2a_arg8, keep2a_arg9, keep2a_arg10]

end Cert.ReferenceIdeal.Hand

end
-- ==== Proof.RefBody2.lean ====
/-
  Layer 2 of the reference from x to its output, read at an index: the fold of the layer's operations leaves in the
  output buffer the specification's layer of x (as the fold finds it in its buffer) and of block 2 of the weights and
  row 2 of the gains and biases — the last layer, without the closing rectifier.
-/
import proofs.«180905_j29583734735286_1_alg».proof.Proof.RefBody2Run
import proofs.«180905_j29583734735286_1_alg».proof.Proof.RefBodyRead

noncomputable section

namespace Cert.ReferenceIdeal.Hand

open Cert.ReferenceIdeal Cert.ReferenceIdeal.Gen Idealize.ShloMosaic Idealize.ShloMosaic.TcCoe Idealize.SL.Sem Idealize.ShloMosaic.StableHlo

theorem body2_value (V : Valuation τ sig (Elt Ideal)) (r : Fin 50000) (j : Fin 128) :
    (after (B2 (F := Ideal)) V (main_v278 : DevRef τ sig) : S50000x128.Idx → EReal) (ValueIdx.ix2 r j)
      = Cert.Spec.layerR zW cNW epsW false
          (fun r k => (V (main_v201 : DevRef τ sig) : S50000x128.Idx → EReal) (ValueIdx.ix2 r k))
          (fun k j => (V (main_arg3 : DevRef τ sig) : S3x128x128.Idx → EReal) (ValueIdx.ix3 ⟨2, by decide⟩ k j))
          (fun k j => (V (main_arg4 : DevRef τ sig) : S3x128x128.Idx → EReal) (ValueIdx.ix3 ⟨2, by decide⟩ k j))
          (fun j => (V (main_arg5 : DevRef τ sig) : S3x128.Idx → EReal) (ValueIdx.ix2 ⟨2, by decide⟩ j))
          (fun j => (V (main_arg6 : DevRef τ sig) : S3x128.Idx → EReal) (ValueIdx.ix2 ⟨2, by decide⟩ j))
          (fun j => (V (main_arg7 : DevRef τ sig) : S3x128.Idx → EReal) (ValueIdx.ix2 ⟨2, by decide⟩ j))
          (fun j => (V (main_arg8 : DevRef τ sig) : S3x128.Idx → EReal) (ValueIdx.ix2 ⟨2, by decide⟩ j))
          (fun j => (V (main_arg9 : DevRef τ sig) : S3x128.Idx → EReal) (ValueIdx.ix2 ⟨2, by decide⟩ j))
          (fun j => (V (main_arg10 : DevRef τ sig) : S3x128.Idx → EReal) (ValueIdx.ix2 ⟨2, by decide⟩ j)) r j := by
  rw [B2_arr, layer_apply_last]
  simp only [wSlice2_apply, vSlice2_apply]

end Cert.ReferenceIdeal.Hand

end
-- ==== Proof.RefBody.lean ====
/-
  The three layers of the reference from x to the layer's output, read at an index, under one import.
-/
import proofs.«180905_j29583734735286_1_alg».proof.Proof.RefBody0
import proofs.«180905_j29583734735286_1_alg».proof.Proof.RefBody1
import proofs.«180905_j29583734735286_1_alg».proof.Proof.RefBody2
-- ==== Proof.HostAgg.lean ====
/-
  The neighbourhood aggregation both programs form on the host, once per layer, as one pure function of the
  edge table, the edge weights and the node features: x ↦ segment_sum(x[src] * w[:, None], dst).

  The edge table's two rows are the source and the destination node of each edge. A source index is first brought
  into range the way the host's indexing does (a negative index has the number of nodes added), the rows of the
  features at those indices are gathered, each gathered row is multiplied by its edge's weight (the weight
  broadcast along the row), and the products are added into a zero array at the destination indices.

  `src` and `dst` are the preparation of the two index rows (done once, before the first layer); `core` is the
  part every layer repeats from those rows; `agg` is the two composed.
-/
import proofs.«180905_j29583734735286_1_alg».proof.Proof.Gen.KernelIdeal

noncomputable section

namespace Cert.Agg

open Cert.KernelIdeal Cert.KernelIdeal.Gen Idealize.ShloMosaic

/-- The source-node row of the edge table, as a vector over the edges. -/
def src (edges : S2x600000.Idx → BitVec 32) : S600000.Idx → BitVec 32 :=
  shapeCast S600000 (extractStridedSlice S1x600000 ![0, 0] edges slices_S2x600000_S1x600000_0_0)
    shapeCasts_S1x600000_S600000

/-- The destination-node row of the edge table, as a vector over the edges. -/
def dst (edges : S2x600000.Idx → BitVec 32) : S600000.Idx → BitVec 32 :=
  shapeCast S600000 (extractStridedSlice S1x600000 ![1, 0] edges slices_S2x600000_S1x600000_1_0)
    shapeCasts_S1x600000_S600000

/-- The source indices brought into range: a negative index has the number of nodes added. -/
def wrap (s : S600000.Idx → BitVec 32) : S600000.Idx → BitVec 32 :=
  select (cmpi .slt s (broadcastInDim S600000 ![] bcast_S_S600000 (constantI S_ 32 0#32)))
    (addi s (broadcastInDim S600000 ![] bcast_S_S600000 (constantI S_ 32 50000#32))) s

/-- The weighted messages: the feature rows gathered at the (wrapped) source indices, each times its edge's weight. -/
def msgs (s : S600000.Idx → BitVec 32) (w : S600000.Idx → EReal) (h : S50000x128.Idx → EReal) :
    S600000x128.Idx → EReal :=
  mulf (F := Ideal) (φ := .f32)
    (Host.gather gather_S50000x128_S600000x1_S600000x128_1_0_n_n_0_1_1128 (h : FVec Ideal S50000x128 .f32)
      (broadcastInDim S600000x1 ![0] bcast_S600000_S600000x1_0 (wrap s)))
    (broadcastInDim S600000x128 ![0, 1] bcast_S600000x1_S600000x128_0_1
      (broadcastInDim S600000x1 ![0] bcast_S600000_S600000x1_0 w))

/-- What every layer repeats from the prepared index rows: the weighted messages added into a zero array at the
    destination indices. -/
def core (s d : S600000.Idx → BitVec 32) (w : S600000.Idx → EReal) (h : S50000x128.Idx → EReal) :
    S50000x128.Idx → EReal :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 d)
    (msgs s w h)

/-- The aggregation from the edge table itself. -/
def agg (edges : S2x600000.Idx → BitVec 32) (w : S600000.Idx → EReal) (h : S50000x128.Idx → EReal) :
    S50000x128.Idx → EReal :=
  core (src edges) (dst edges) w h

theorem agg_eq (edges : S2x600000.Idx → BitVec 32) (w : S600000.Idx → EReal) (h : S50000x128.Idx → EReal) :
    agg edges w h = core (src edges) (dst edges) w h := rfl

end Cert.Agg

end
-- ==== Proof.RefNetA.lean ====
/-
  The pieces of the reference that form a layer's input, read as arrays: each leaves in its last buffer the layer's
  previous output plus the neighbourhood aggregation of it, formed from the two index rows of the edge table (which the
  first piece prepares and the later pieces read back) and the edge weights; no piece writes an argument, and the later
  pieces do not write the index rows.
-/
import proofs.«180905_j29583734735286_1_alg».proof.Proof.RefSplit
import proofs.«180905_j29583734735286_1_alg».proof.Proof.HostAgg

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
/-- the first piece prepares the source row of the edge table -/
theorem A0_src (V : Valuation τ sig (Elt Ideal)) :
    after (A0 (F := Ideal)) V (main_v1 : DevRef τ sig) = Cert.Agg.src (V (main_arg1 : DevRef τ sig)) := by
  after_results_simp
  rfl

set_option maxRecDepth 65536 in
/-- … and the destination row -/
theorem A0_dst (V : Valuation τ sig (Elt Ideal)) :
    after (A0 (F := Ideal)) V (main_v3 : DevRef τ sig) = Cert.Agg.dst (V (main_arg1 : DevRef τ sig)) := by
  after_results_simp
  rfl

set_option maxRecDepth 65536 in
/-- the first layer's input: the features plus their aggregation -/
theorem A0_x (V : Valuation τ sig (Elt Ideal)) :
    after (A0 (F := Ideal)) V (main_v17 : DevRef τ sig)
      = fun i => HAdd.hAdd (α := EReal) (β := EReal) (γ := EReal) ((V (main_arg0 : DevRef τ sig)) i) (Cert.Agg.agg (V (main_arg1 : DevRef τ sig)) (V (main_arg2 : DevRef τ sig)) (V (main_arg0 : DevRef τ sig)) i) := by
  after_results_simp
  rfl

set_option maxRecDepth 65536 in
/-- the second layer's input, from the first layer's output and the prepared index rows -/
theorem A1_x (V : Valuation τ sig (Elt Ideal)) :
    after (A1 (F := Ideal)) V (main_v109 : DevRef τ sig)
      = fun i => HAdd.hAdd (α := EReal) (β := EReal) (γ := EReal) ((V (main_v95 : DevRef τ sig)) i) (Cert.Agg.core (V (main_v1 : DevRef τ sig)) (V (main_v3 : DevRef τ sig)) (V (main_arg2 : DevRef τ sig)) (V (main_v95 : DevRef τ sig)) i) := by
  after_results_simp
  rfl

set_option maxRecDepth 65536 in
/-- the third layer's input -/
theorem A2_x (V : Valuation τ sig (Elt Ideal)) :
    after (A2 (F := Ideal)) V (main_v201 : DevRef τ sig)
      = fun i => HAdd.hAdd (α := EReal) (β := EReal) (γ := EReal) ((V (main_v187 : DevRef τ sig)) i) (Cert.Agg.core (V (main_v1 : DevRef τ sig)) (V (main_v3 : DevRef τ sig)) (V (main_arg2 : DevRef τ sig)) (V (main_v187 : DevRef τ sig)) i) := by
  after_results_simp
  rfl

/-! No piece writes an argument; the second and third do not write the index rows. -/
set_option maxRecDepth 65536 in
theorem keepA0_arg2 (V : Valuation τ sig (Elt F)) : after (A0 : List (HloOp τ sig (Elt F))) V (main_arg2 : DevRef τ sig) = V (main_arg2 : DevRef τ sig) := by
  simp only [after_cons, after_nil]
  rfl
set_option maxRecDepth 65536 in
theorem keepA0_arg3 (V : Valuation τ sig (Elt F)) : after (A0 : List (HloOp τ sig (Elt F))) V (main_arg3 : DevRef τ sig) = V (main_arg3 : DevRef τ sig) := by
  simp only [after_cons, after_nil]
  rfl
set_option maxRecDepth 65536 in
theorem keepA0_arg4 (V : Valuation τ sig (Elt F)) : after (A0 : List (HloOp τ sig (Elt F))) V (main_arg4 : DevRef τ sig) = V (main_arg4 : DevRef τ sig) := by
  simp only [after_cons, after_nil]
  rfl
set_option maxRecDepth 65536 in
theorem keepA0_arg5 (V : Valuation τ sig (Elt F)) : after (A0 : List (HloOp τ sig (Elt F))) V (main_arg5 : DevRef τ sig) = V (main_arg5 : DevRef τ sig) := by
  simp only [after_cons, after_nil]
  rfl
set_option maxRecDepth 65536 in
theorem keepA0_arg6 (V : Valuation τ sig (Elt F)) : after (A0 : List (HloOp τ sig (Elt F))) V (main_arg6 : DevRef τ sig) = V (main_arg6 : DevRef τ sig) := by
  simp only [after_cons, after_nil]
  rfl
set_option maxRecDepth 65536 in
theorem keepA0_arg7 (V : Valuation τ sig (Elt F)) : after (A0 : List (HloOp τ sig (Elt F))) V (main_arg7 : DevRef τ sig) = V (main_arg7 : DevRef τ sig) := by
  simp only [after_cons, after_nil]
  rfl
set_option maxRecDepth 65536 in
theorem keepA0_arg8 (V : Valuation τ sig (Elt F)) : after (A0 : List (HloOp τ sig (Elt F))) V (main_arg8 : DevRef τ sig) = V (main_arg8 : DevRef τ sig) := by
  simp only [after_cons, after_nil]
  rfl
set_option maxRecDepth 65536 in
theorem keepA0_arg9 (V : Valuation τ sig (Elt F)) : after (A0 : List (HloOp τ sig (Elt F))) V (main_arg9 : DevRef τ sig) = V (main_arg9 : DevRef τ sig) := by
  simp only [after_cons, after_nil]
  rfl
set_option maxRecDepth 65536 in
theorem keepA0_arg10 (V : Valuation τ sig (Elt F)) : after (A0 : List (HloOp τ sig (Elt F))) V (main_arg10 : DevRef τ sig) = V (main_arg10 : DevRef τ sig) := by
  simp only [after_cons, after_nil]
  rfl
set_option maxRecDepth 65536 in
theorem keepA1_arg2 (V : Valuation τ sig (Elt F)) : after (A1 : List (HloOp τ sig (Elt F))) V (main_arg2 : DevRef τ sig) = V (main_arg2 : DevRef τ sig) := by
  simp only [after_cons, after_nil]
  rfl
set_option maxRecDepth 65536 in
theorem keepA1_arg3 (V : Valuation τ sig (Elt F)) : after (A1 : List (HloOp τ sig (Elt F))) V (main_arg3 : DevRef τ sig) = V (main_arg3 : DevRef τ sig) := by
  simp only [after_cons, after_nil]
  rfl
set_option maxRecDepth 65536 in
theorem keepA1_arg4 (V : Valuation τ sig (Elt F)) : after (A1 : List (HloOp τ sig (Elt F))) V (main_arg4 : DevRef τ sig) = V (main_arg4 : DevRef τ sig) := by
  simp only [after_cons, after_nil]
  rfl
set_option maxRecDepth 65536 in
theorem keepA1_arg5 (V : Valuation τ sig (Elt F)) : after (A1 : List (HloOp τ sig (Elt F))) V (main_arg5 : DevRef τ sig) = V (main_arg5 : DevRef τ sig) := by
  simp only [after_cons, after_nil]
  rfl
set_option maxRecDepth 65536 in
theorem keepA1_arg6 (V : Valuation τ sig (Elt F)) : after (A1 : List (HloOp τ sig (Elt F))) V (main_arg6 : DevRef τ sig) = V (main_arg6 : DevRef τ sig) := by
  simp only [after_cons, after_nil]
  rfl
set_option maxRecDepth 65536 in
theorem keepA1_arg7 (V : Valuation τ sig (Elt F)) : after (A1 : List (HloOp τ sig (Elt F))) V (main_arg7 : DevRef τ sig) = V (main_arg7 : DevRef τ sig) := by
  simp only [after_cons, after_nil]
  rfl
set_option maxRecDepth 65536 in
theorem keepA1_arg8 (V : Valuation τ sig (Elt F)) : after (A1 : List (HloOp τ sig (Elt F))) V (main_arg8 : DevRef τ sig) = V (main_arg8 : DevRef τ sig) := by
  simp only [after_cons, after_nil]
  rfl
set_option maxRecDepth 65536 in
theorem keepA1_arg9 (V : Valuation τ sig (Elt F)) : after (A1 : List (HloOp τ sig (Elt F))) V (main_arg9 : DevRef τ sig) = V (main_arg9 : DevRef τ sig) := by
  simp only [after_cons, after_nil]
  rfl
set_option maxRecDepth 65536 in
theorem keepA1_arg10 (V : Valuation τ sig (Elt F)) : after (A1 : List (HloOp τ sig (Elt F))) V (main_arg10 : DevRef τ sig) = V (main_arg10 : DevRef τ sig) := by
  simp only [after_cons, after_nil]
  rfl
set_option maxRecDepth 65536 in
theorem keepA1_v1 (V : Valuation τ sig (Elt F)) : after (A1 : List (HloOp τ sig (Elt F))) V (main_v1 : DevRef τ sig) = V (main_v1 : DevRef τ sig) := by
  simp only [after_cons, after_nil]
  rfl
set_option maxRecDepth 65536 in
theorem keepA1_v3 (V : Valuation τ sig (Elt F)) : after (A1 : List (HloOp τ sig (Elt F))) V (main_v3 : DevRef τ sig) = V (main_v3 : DevRef τ sig) := by
  simp only [after_cons, after_nil]
  rfl
set_option maxRecDepth 65536 in
theorem keepA2_arg3 (V : Valuation τ sig (Elt F)) : after (A2 : List (HloOp τ sig (Elt F))) V (main_arg3 : DevRef τ sig) = V (main_arg3 : DevRef τ sig) := by
  simp only [after_cons, after_nil]
  rfl
set_option maxRecDepth 65536 in
theorem keepA2_arg4 (V : Valuation τ sig (Elt F)) : after (A2 : List (HloOp τ sig (Elt F))) V (main_arg4 : DevRef τ sig) = V (main_arg4 : DevRef τ sig) := by
  simp only [after_cons, after_nil]
  rfl
set_option maxRecDepth 65536 in
theorem keepA2_arg5 (V : Valuation τ sig (Elt F)) : after (A2 : List (HloOp τ sig (Elt F))) V (main_arg5 : DevRef τ sig) = V (main_arg5 : DevRef τ sig) := by
  simp only [after_cons, after_nil]
  rfl
set_option maxRecDepth 65536 in
theorem keepA2_arg6 (V : Valuation τ sig (Elt F)) : after (A2 : List (HloOp τ sig (Elt F))) V (main_arg6 : DevRef τ sig) = V (main_arg6 : DevRef τ sig) := by
  simp only [after_cons, after_nil]
  rfl
set_option maxRecDepth 65536 in
theorem keepA2_arg7 (V : Valuation τ sig (Elt F)) : after (A2 : List (HloOp τ sig (Elt F))) V (main_arg7 : DevRef τ sig) = V (main_arg7 : DevRef τ sig) := by
  simp only [after_cons, after_nil]
  rfl
set_option maxRecDepth 65536 in
theorem keepA2_arg8 (V : Valuation τ sig (Elt F)) : after (A2 : List (HloOp τ sig (Elt F))) V (main_arg8 : DevRef τ sig) = V (main_arg8 : DevRef τ sig) := by
  simp only [after_cons, after_nil]
  rfl
set_option maxRecDepth 65536 in
theorem keepA2_arg9 (V : Valuation τ sig (Elt F)) : after (A2 : List (HloOp τ sig (Elt F))) V (main_arg9 : DevRef τ sig) = V (main_arg9 : DevRef τ sig) := by
  simp only [after_cons, after_nil]
  rfl
set_option maxRecDepth 65536 in
theorem keepA2_arg10 (V : Valuation τ sig (Elt F)) : after (A2 : List (HloOp τ sig (Elt F))) V (main_arg10 : DevRef τ sig) = V (main_arg10 : DevRef τ sig) := by
  simp only [after_cons, after_nil]
  rfl

set_option maxRecDepth 65536 in
theorem keepA2_arg2 (V : Valuation τ sig (Elt F)) : after (A2 : List (HloOp τ sig (Elt F))) V (main_arg2 : DevRef τ sig) = V (main_arg2 : DevRef τ sig) := by
  simp only [after_cons, after_nil]
  rfl
set_option maxRecDepth 65536 in
theorem keepA2_v1 (V : Valuation τ sig (Elt F)) : after (A2 : List (HloOp τ sig (Elt F))) V (main_v1 : DevRef τ sig) = V (main_v1 : DevRef τ sig) := by
  simp only [after_cons, after_nil]
  rfl
set_option maxRecDepth 65536 in
theorem keepA2_v3 (V : Valuation τ sig (Elt F)) : after (A2 : List (HloOp τ sig (Elt F))) V (main_v3 : DevRef τ sig) = V (main_v3 : DevRef τ sig) := by
  simp only [after_cons, after_nil]
  rfl

end Cert.ReferenceIdeal.Hand

end
-- ==== Proof.RefNetKeep0.lean ====
/-
  The operations of layer 0 from x to the layer's output write neither an argument nor the two prepared index rows
  of the edge table: the fold over them reads each of those buffers back unchanged.
-/
import proofs.«180905_j29583734735286_1_alg».proof.Proof.RefSplit

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
theorem keepB0_arg2 (V : Valuation τ sig (Elt F)) : after (B0 : List (HloOp τ sig (Elt F))) V (main_arg2 : DevRef τ sig) = V (main_arg2 : DevRef τ sig) := by
  simp only [after_cons, after_nil]
  rfl
set_option maxRecDepth 65536 in
theorem keepB0_arg3 (V : Valuation τ sig (Elt F)) : after (B0 : List (HloOp τ sig (Elt F))) V (main_arg3 : DevRef τ sig) = V (main_arg3 : DevRef τ sig) := by
  simp only [after_cons, after_nil]
  rfl
set_option maxRecDepth 65536 in
theorem keepB0_arg4 (V : Valuation τ sig (Elt F)) : after (B0 : List (HloOp τ sig (Elt F))) V (main_arg4 : DevRef τ sig) = V (main_arg4 : DevRef τ sig) := by
  simp only [after_cons, after_nil]
  rfl
set_option maxRecDepth 65536 in
theorem keepB0_arg5 (V : Valuation τ sig (Elt F)) : after (B0 : List (HloOp τ sig (Elt F))) V (main_arg5 : DevRef τ sig) = V (main_arg5 : DevRef τ sig) := by
  simp only [after_cons, after_nil]
  rfl
set_option maxRecDepth 65536 in
theorem keepB0_arg6 (V : Valuation τ sig (Elt F)) : after (B0 : List (HloOp τ sig (Elt F))) V (main_arg6 : DevRef τ sig) = V (main_arg6 : DevRef τ sig) := by
  simp only [after_cons, after_nil]
  rfl
set_option maxRecDepth 65536 in
theorem keepB0_arg7 (V : Valuation τ sig (Elt F)) : after (B0 : List (HloOp τ sig (Elt F))) V (main_arg7 : DevRef τ sig) = V (main_arg7 : DevRef τ sig) := by
  simp only [after_cons, after_nil]
  rfl
set_option maxRecDepth 65536 in
theorem keepB0_arg8 (V : Valuation τ sig (Elt F)) : after (B0 : List (HloOp τ sig (Elt F))) V (main_arg8 : DevRef τ sig) = V (main_arg8 : DevRef τ sig) := by
  simp only [after_cons, after_nil]
  rfl
set_option maxRecDepth 65536 in
theorem keepB0_arg9 (V : Valuation τ sig (Elt F)) : after (B0 : List (HloOp τ sig (Elt F))) V (main_arg9 : DevRef τ sig) = V (main_arg9 : DevRef τ sig) := by
  simp only [after_cons, after_nil]
  rfl
set_option maxRecDepth 65536 in
theorem keepB0_arg10 (V : Valuation τ sig (Elt F)) : after (B0 : List (HloOp τ sig (Elt F))) V (main_arg10 : DevRef τ sig) = V (main_arg10 : DevRef τ sig) := by
  simp only [after_cons, after_nil]
  rfl
set_option maxRecDepth 65536 in
theorem keepB0_v1 (V : Valuation τ sig (Elt F)) : after (B0 : List (HloOp τ sig (Elt F))) V (main_v1 : DevRef τ sig) = V (main_v1 : DevRef τ sig) := by
  simp only [after_cons, after_nil]
  rfl
set_option maxRecDepth 65536 in
theorem keepB0_v3 (V : Valuation τ sig (Elt F)) : after (B0 : List (HloOp τ sig (Elt F))) V (main_v3 : DevRef τ sig) = V (main_v3 : DevRef τ sig) := by
  simp only [after_cons, after_nil]
  rfl

end Cert.ReferenceIdeal.Hand

end
-- ==== Proof.RefNetKeep1.lean ====
/-
  The operations of layer 1 from x to the layer's output write neither an argument nor the two prepared index rows
  of the edge table: the fold over them reads each of those buffers back unchanged.
-/
import proofs.«180905_j29583734735286_1_alg».proof.Proof.RefSplit

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
theorem keepB1_arg2 (V : Valuation τ sig (Elt F)) : after (B1 : List (HloOp τ sig (Elt F))) V (main_arg2 : DevRef τ sig) = V (main_arg2 : DevRef τ sig) := by
  simp only [after_cons, after_nil]
  rfl
set_option maxRecDepth 65536 in
theorem keepB1_arg3 (V : Valuation τ sig (Elt F)) : after (B1 : List (HloOp τ sig (Elt F))) V (main_arg3 : DevRef τ sig) = V (main_arg3 : DevRef τ sig) := by
  simp only [after_cons, after_nil]
  rfl
set_option maxRecDepth 65536 in
theorem keepB1_arg4 (V : Valuation τ sig (Elt F)) : after (B1 : List (HloOp τ sig (Elt F))) V (main_arg4 : DevRef τ sig) = V (main_arg4 : DevRef τ sig) := by
  simp only [after_cons, after_nil]
  rfl
set_option maxRecDepth 65536 in
theorem keepB1_arg5 (V : Valuation τ sig (Elt F)) : after (B1 : List (HloOp τ sig (Elt F))) V (main_arg5 : DevRef τ sig) = V (main_arg5 : DevRef τ sig) := by
  simp only [after_cons, after_nil]
  rfl
set_option maxRecDepth 65536 in
theorem keepB1_arg6 (V : Valuation τ sig (Elt F)) : after (B1 : List (HloOp τ sig (Elt F))) V (main_arg6 : DevRef τ sig) = V (main_arg6 : DevRef τ sig) := by
  simp only [after_cons, after_nil]
  rfl
set_option maxRecDepth 65536 in
theorem keepB1_arg7 (V : Valuation τ sig (Elt F)) : after (B1 : List (HloOp τ sig (Elt F))) V (main_arg7 : DevRef τ sig) = V (main_arg7 : DevRef τ sig) := by
  simp only [after_cons, after_nil]
  rfl
set_option maxRecDepth 65536 in
theorem keepB1_arg8 (V : Valuation τ sig (Elt F)) : after (B1 : List (HloOp τ sig (Elt F))) V (main_arg8 : DevRef τ sig) = V (main_arg8 : DevRef τ sig) := by
  simp only [after_cons, after_nil]
  rfl
set_option maxRecDepth 65536 in
theorem keepB1_arg9 (V : Valuation τ sig (Elt F)) : after (B1 : List (HloOp τ sig (Elt F))) V (main_arg9 : DevRef τ sig) = V (main_arg9 : DevRef τ sig) := by
  simp only [after_cons, after_nil]
  rfl
set_option maxRecDepth 65536 in
theorem keepB1_arg10 (V : Valuation τ sig (Elt F)) : after (B1 : List (HloOp τ sig (Elt F))) V (main_arg10 : DevRef τ sig) = V (main_arg10 : DevRef τ sig) := by
  simp only [after_cons, after_nil]
  rfl
set_option maxRecDepth 65536 in
theorem keepB1_v1 (V : Valuation τ sig (Elt F)) : after (B1 : List (HloOp τ sig (Elt F))) V (main_v1 : DevRef τ sig) = V (main_v1 : DevRef τ sig) := by
  simp only [after_cons, after_nil]
  rfl
set_option maxRecDepth 65536 in
theorem keepB1_v3 (V : Valuation τ sig (Elt F)) : after (B1 : List (HloOp τ sig (Elt F))) V (main_v3 : DevRef τ sig) = V (main_v3 : DevRef τ sig) := by
  simp only [after_cons, after_nil]
  rfl

end Cert.ReferenceIdeal.Hand

end
-- ==== Proof.Net.lean ====
/-
  The three-layer network as one pure function, in the kernel's form and in the reference's form.

  A layer's input is x = h + agg h, where agg is the weighted neighbour sum (the same function for both programs);
  the layer then applies the two products and three batch norms of Spec.lean with its own slice of the parameters.
  On real parameters and a real h, with an aggregation that keeps reals real, the two forms agree layer by layer
  (the layer bridge), hence the whole network does.
-/
import proofs.«180905_j29583734735286_1_alg».proof.Proof.Spec

noncomputable section

namespace Cert.Net

open Idealize.ShloMosaic Cert.LibBatchNorm Cert.Spec

variable {n d : ℕ}

/-- The parameters of the three layers. -/
structure Params (d : ℕ) where
  W0 : Fin 3 → Fin d → Fin d → EReal
  W1 : Fin 3 → Fin d → Fin d → EReal
  g1 : Fin 3 → Fin d → EReal
  b1 : Fin 3 → Fin d → EReal
  g2 : Fin 3 → Fin d → EReal
  b2 : Fin 3 → Fin d → EReal
  g3 : Fin 3 → Fin d → EReal
  b3 : Fin 3 → Fin d → EReal

/-- "every parameter is a real" -/
def Params.Real (p : Params d) : Prop :=
  (∀ l k j, IsReal (p.W0 l k j)) ∧ (∀ l k j, IsReal (p.W1 l k j)) ∧ (∀ l j, IsReal (p.g1 l j)) ∧ (∀ l j, IsReal (p.b1 l j))
    ∧ (∀ l j, IsReal (p.g2 l j)) ∧ (∀ l j, IsReal (p.b2 l j)) ∧ (∀ l j, IsReal (p.g3 l j)) ∧ (∀ l j, IsReal (p.b3 l j))

/-- a layer's input -/
def xOf (agg : (Fin n → Fin d → EReal) → Fin n → Fin d → EReal) (h : Fin n → Fin d → EReal) (r : Fin n) (k : Fin d) : EReal :=
  h r k + agg h r k

def stepK (z c eps : EReal) (agg : (Fin n → Fin d → EReal) → Fin n → Fin d → EReal) (p : Params d) (l : Fin 3) (fin : Bool)
    (h : Fin n → Fin d → EReal) : Fin n → Fin d → EReal :=
  layerK z c eps fin (xOf agg h) (p.W0 l) (p.W1 l) (p.g1 l) (p.b1 l) (p.g2 l) (p.b2 l) (p.g3 l) (p.b3 l)
def stepR (z cN eps : EReal) (agg : (Fin n → Fin d → EReal) → Fin n → Fin d → EReal) (p : Params d) (l : Fin 3) (fin : Bool)
    (h : Fin n → Fin d → EReal) : Fin n → Fin d → EReal :=
  layerR z cN eps fin (xOf agg h) (p.W0 l) (p.W1 l) (p.g1 l) (p.b1 l) (p.g2 l) (p.b2 l) (p.g3 l) (p.b3 l)

/-- the network, the kernel's form -/
def netK (z c eps : EReal) (agg : (Fin n → Fin d → EReal) → Fin n → Fin d → EReal) (p : Params d) (h0 : Fin n → Fin d → EReal) :
    Fin n → Fin d → EReal :=
  stepK z c eps agg p 2 false (stepK z c eps agg p 1 true (stepK z c eps agg p 0 true h0))
/-- the network, the reference's form -/
def netR (z cN eps : EReal) (agg : (Fin n → Fin d → EReal) → Fin n → Fin d → EReal) (p : Params d) (h0 : Fin n → Fin d → EReal) :
    Fin n → Fin d → EReal :=
  stepR z cN eps agg p 2 false (stepR z cN eps agg p 1 true (stepR z cN eps agg p 0 true h0))

theorem step_eq (agg : (Fin n → Fin d → EReal) → Fin n → Fin d → EReal)
    (hagg : ∀ h, (∀ r k, IsReal (h r k)) → ∀ r k, IsReal (agg h r k)) (p : Params d) (hp : p.Real) (l : Fin 3) (fin : Bool)
    (h : Fin n → Fin d → EReal) (hh : ∀ r k, IsReal (h r k)) (N : ℝ) (hN : N = (n : ℝ)) (hpos : 0 < N) (e : ℝ) (he : 0 < e) :
    stepK 0 ((1 / N : ℝ) : EReal) (e : EReal) agg p l fin h = stepR 0 (N : EReal) (e : EReal) agg p l fin h
      ∧ ∀ r k, IsReal (stepR 0 (N : EReal) (e : EReal) agg p l fin h r k) := by
  obtain ⟨h1, h2, h3, h4, h5, h6, h7, h8⟩ := hp
  exact layerK_eq_layerR fin (xOf agg h) (p.W0 l) (p.W1 l) (p.g1 l) (p.b1 l) (p.g2 l) (p.b2 l) (p.g3 l) (p.b3 l)
    (fun r k => (hh r k).add (hagg h hh r k)) (h1 l) (h2 l) (h3 l) (h4 l) (h5 l) (h6 l) (h7 l) (h8 l) N hN hpos e he

/-- THE NETWORK BRIDGE. -/
theorem netK_eq_netR (agg : (Fin n → Fin d → EReal) → Fin n → Fin d → EReal)
    (hagg : ∀ h, (∀ r k, IsReal (h r k)) → ∀ r k, IsReal (agg h r k)) (p : Params d) (hp : p.Real)
    (h0 : Fin n → Fin d → EReal) (hh : ∀ r k, IsReal (h0 r k)) (N : ℝ) (hN : N = (n : ℝ)) (hpos : 0 < N) (e : ℝ) (he : 0 < e) :
    netK 0 ((1 / N : ℝ) : EReal) (e : EReal) agg p h0 = netR 0 (N : EReal) (e : EReal) agg p h0 := by
  obtain ⟨e0, r0⟩ := step_eq agg hagg p hp 0 true h0 hh N hN hpos e he
  obtain ⟨e1, r1⟩ := step_eq agg hagg p hp 1 true _ r0 N hN hpos e he
  obtain ⟨e2, _⟩ := step_eq agg hagg p hp 2 false _ r1 N hN hpos e he
  unfold netK netR
  rw [e0, e1, e2]

end Cert.Net

end
-- ==== Proof.RefNet.lean ====
/-
  The reference as the network. Its straight line is six pieces: for each layer the piece that forms the layer's
  input x = h + agg h and the piece from x to the layer's output. What crosses a piece boundary is the previous
  output, the arguments (which no piece writes) and the two index rows of the edge table, which the first piece
  prepares and no later piece writes. So the fold over the whole line leaves in the last buffer the three steps of the
  network applied to the features, with the aggregation and the parameters read off the arguments.
-/
import proofs.«180905_j29583734735286_1_alg».proof.Proof.RefBody
import proofs.«180905_j29583734735286_1_alg».proof.Proof.RefNetA
import proofs.«180905_j29583734735286_1_alg».proof.Proof.RefNetKeep0
import proofs.«180905_j29583734735286_1_alg».proof.Proof.RefNetKeep1
import proofs.«180905_j29583734735286_1_alg».proof.Proof.Net

noncomputable section

namespace Cert.ReferenceIdeal.Hand

open Cert.ReferenceIdeal Cert.ReferenceIdeal.Gen Idealize.ShloMosaic Idealize.ShloMosaic.TcCoe Idealize.SL.Sem Idealize.ShloMosaic.StableHlo

/-- the parameters, read off the arguments -/
def paramsR (V : Valuation τ sig (Elt Ideal)) : Cert.Net.Params 128 where
  W0 := fun l k j => (V (main_arg3 : DevRef τ sig) : S3x128x128.Idx → EReal) (ValueIdx.ix3 l k j)
  W1 := fun l k j => (V (main_arg4 : DevRef τ sig) : S3x128x128.Idx → EReal) (ValueIdx.ix3 l k j)
  g1 := fun l j => (V (main_arg5 : DevRef τ sig) : S3x128.Idx → EReal) (ValueIdx.ix2 l j)
  b1 := fun l j => (V (main_arg6 : DevRef τ sig) : S3x128.Idx → EReal) (ValueIdx.ix2 l j)
  g2 := fun l j => (V (main_arg7 : DevRef τ sig) : S3x128.Idx → EReal) (ValueIdx.ix2 l j)
  b2 := fun l j => (V (main_arg8 : DevRef τ sig) : S3x128.Idx → EReal) (ValueIdx.ix2 l j)
  g3 := fun l j => (V (main_arg9 : DevRef τ sig) : S3x128.Idx → EReal) (ValueIdx.ix2 l j)
  b3 := fun l j => (V (main_arg10 : DevRef τ sig) : S3x128.Idx → EReal) (ValueIdx.ix2 l j)

/-- the aggregation, with the edge table and the edge weights read off the arguments -/
def aggR (V : Valuation τ sig (Elt Ideal)) (h : Fin 50000 → Fin 128 → EReal) (r : Fin 50000) (k : Fin 128) : EReal :=
  Cert.Agg.agg (V (main_arg1 : DevRef τ sig)) (V (main_arg2 : DevRef τ sig)) (fun i => h (i 0) (i 1)) (ValueIdx.ix2 r k)

/-- an array read by row and column -/
def rd (a : S50000x128.Idx → EReal) : Fin 50000 → Fin 128 → EReal := fun r k => a (ValueIdx.ix2 r k)

theorem un_rd (a : S50000x128.Idx → EReal) : (fun i : S50000x128.Idx => rd a (i 0) (i 1)) = a :=
  funext fun i => congrArg a (ValueIdx.eq_ix2 i).symm

/-- What the later pieces find as the first piece left it: the two index rows and the arguments. -/
structure Carried (V W : Valuation τ sig (Elt Ideal)) : Prop where
  src : W (main_v1 : DevRef τ sig) = Cert.Agg.src (V (main_arg1 : DevRef τ sig))
  dst : W (main_v3 : DevRef τ sig) = Cert.Agg.dst (V (main_arg1 : DevRef τ sig))
  a2 : W (main_arg2 : DevRef τ sig) = V (main_arg2 : DevRef τ sig)
  a3 : W (main_arg3 : DevRef τ sig) = V (main_arg3 : DevRef τ sig)
  a4 : W (main_arg4 : DevRef τ sig) = V (main_arg4 : DevRef τ sig)
  a5 : W (main_arg5 : DevRef τ sig) = V (main_arg5 : DevRef τ sig)
  a6 : W (main_arg6 : DevRef τ sig) = V (main_arg6 : DevRef τ sig)
  a7 : W (main_arg7 : DevRef τ sig) = V (main_arg7 : DevRef τ sig)
  a8 : W (main_arg8 : DevRef τ sig) = V (main_arg8 : DevRef τ sig)
  a9 : W (main_arg9 : DevRef τ sig) = V (main_arg9 : DevRef τ sig)
  a10 : W (main_arg10 : DevRef τ sig) = V (main_arg10 : DevRef τ sig)

theorem carried_A0 (V : Valuation τ sig (Elt Ideal)) : Carried V (after (A0 (F := Ideal)) V) :=
  ⟨A0_src V, A0_dst V, keepA0_arg2 V, keepA0_arg3 V, keepA0_arg4 V, keepA0_arg5 V, keepA0_arg6 V, keepA0_arg7 V, keepA0_arg8 V, keepA0_arg9 V, keepA0_arg10 V⟩
theorem carried_B0 {V W : Valuation τ sig (Elt Ideal)} (h : Carried V W) : Carried V (after (B0 (F := Ideal)) W) :=
  ⟨(keepB0_v1 W).trans h.src, (keepB0_v3 W).trans h.dst, (keepB0_arg2 W).trans h.a2, (keepB0_arg3 W).trans h.a3, (keepB0_arg4 W).trans h.a4, (keepB0_arg5 W).trans h.a5, (keepB0_arg6 W).trans h.a6, (keepB0_arg7 W).trans h.a7, (keepB0_arg8 W).trans h.a8, (keepB0_arg9 W).trans h.a9, (keepB0_arg10 W).trans h.a10⟩
theorem carried_A1 {V W : Valuation τ sig (Elt Ideal)} (h : Carried V W) : Carried V (after (A1 (F := Ideal)) W) :=
  ⟨(keepA1_v1 W).trans h.src, (keepA1_v3 W).trans h.dst, (keepA1_arg2 W).trans h.a2, (keepA1_arg3 W).trans h.a3, (keepA1_arg4 W).trans h.a4, (keepA1_arg5 W).trans h.a5, (keepA1_arg6 W).trans h.a6, (keepA1_arg7 W).trans h.a7, (keepA1_arg8 W).trans h.a8, (keepA1_arg9 W).trans h.a9, (keepA1_arg10 W).trans h.a10⟩
theorem carried_B1 {V W : Valuation τ sig (Elt Ideal)} (h : Carried V W) : Carried V (after (B1 (F := Ideal)) W) :=
  ⟨(keepB1_v1 W).trans h.src, (keepB1_v3 W).trans h.dst, (keepB1_arg2 W).trans h.a2, (keepB1_arg3 W).trans h.a3, (keepB1_arg4 W).trans h.a4, (keepB1_arg5 W).trans h.a5, (keepB1_arg6 W).trans h.a6, (keepB1_arg7 W).trans h.a7, (keepB1_arg8 W).trans h.a8, (keepB1_arg9 W).trans h.a9, (keepB1_arg10 W).trans h.a10⟩
theorem carried_A2 {V W : Valuation τ sig (Elt Ideal)} (h : Carried V W) : Carried V (after (A2 (F := Ideal)) W) :=
  ⟨(keepA2_v1 W).trans h.src, (keepA2_v3 W).trans h.dst, (keepA2_arg2 W).trans h.a2, (keepA2_arg3 W).trans h.a3, (keepA2_arg4 W).trans h.a4, (keepA2_arg5 W).trans h.a5, (keepA2_arg6 W).trans h.a6, (keepA2_arg7 W).trans h.a7, (keepA2_arg8 W).trans h.a8, (keepA2_arg9 W).trans h.a9, (keepA2_arg10 W).trans h.a10⟩

/-! ### The inputs of the layers -/

/-- the aggregation of an array read by row and column is the aggregation of the array -/
theorem aggR_rd (V : Valuation τ sig (Elt Ideal)) (a : S50000x128.Idx → EReal) (r : Fin 50000) (k : Fin 128) :
    aggR V (rd a) r k = Cert.Agg.agg (V (main_arg1 : DevRef τ sig)) (V (main_arg2 : DevRef τ sig)) a (ValueIdx.ix2 r k) :=
  congrArg (fun b => Cert.Agg.agg (V (main_arg1 : DevRef τ sig)) (V (main_arg2 : DevRef τ sig)) b (ValueIdx.ix2 r k)) (un_rd a)

theorem x0 (V : Valuation τ sig (Elt Ideal)) :
    rd (after (A0 (F := Ideal)) V (main_v17 : DevRef τ sig)) = Cert.Net.xOf (aggR V) (rd (V (main_arg0 : DevRef τ sig))) := by
  funext r k
  show rd (after (A0 (F := Ideal)) V (main_v17 : DevRef τ sig)) r k
    = rd (V (main_arg0 : DevRef τ sig)) r k + aggR V (rd (V (main_arg0 : DevRef τ sig))) r k
  rw [aggR_rd, A0_x]
  rfl

theorem x1 {V W : Valuation τ sig (Elt Ideal)} (h : Carried V W) :
    rd (after (A1 (F := Ideal)) W (main_v109 : DevRef τ sig)) = Cert.Net.xOf (aggR V) (rd (W (main_v95 : DevRef τ sig))) := by
  funext r k
  show rd (after (A1 (F := Ideal)) W (main_v109 : DevRef τ sig)) r k
    = rd (W (main_v95 : DevRef τ sig)) r k + aggR V (rd (W (main_v95 : DevRef τ sig))) r k
  rw [aggR_rd, A1_x, h.src, h.dst, h.a2]
  rfl

theorem x2 {V W : Valuation τ sig (Elt Ideal)} (h : Carried V W) :
    rd (after (A2 (F := Ideal)) W (main_v201 : DevRef τ sig)) = Cert.Net.xOf (aggR V) (rd (W (main_v187 : DevRef τ sig))) := by
  funext r k
  show rd (after (A2 (F := Ideal)) W (main_v201 : DevRef τ sig)) r k
    = rd (W (main_v187 : DevRef τ sig)) r k + aggR V (rd (W (main_v187 : DevRef τ sig))) r k
  rw [aggR_rd, A2_x, h.src, h.dst, h.a2]
  rfl

/-! ### The layers, with the parameters of the launch -/

theorem lay0 {V W : Valuation τ sig (Elt Ideal)} (h : Carried V W) (r : Fin 50000) (j : Fin 128) :
    rd (after (B0 (F := Ideal)) W (main_v95 : DevRef τ sig)) r j = Cert.Spec.layerR zW cNW epsW true (rd (W (main_v17 : DevRef τ sig))) ((paramsR V).W0 0) ((paramsR V).W1 0) ((paramsR V).g1 0) ((paramsR V).b1 0) ((paramsR V).g2 0) ((paramsR V).b2 0) ((paramsR V).g3 0) ((paramsR V).b3 0) r j := by
  unfold rd
  rw [body0_value, h.a3, h.a4, h.a5, h.a6, h.a7, h.a8, h.a9, h.a10]
  rfl

theorem lay1 {V W : Valuation τ sig (Elt Ideal)} (h : Carried V W) (r : Fin 50000) (j : Fin 128) :
    rd (after (B1 (F := Ideal)) W (main_v187 : DevRef τ sig)) r j = Cert.Spec.layerR zW cNW epsW true (rd (W (main_v109 : DevRef τ sig))) ((paramsR V).W0 1) ((paramsR V).W1 1) ((paramsR V).g1 1) ((paramsR V).b1 1) ((paramsR V).g2 1) ((paramsR V).b2 1) ((paramsR V).g3 1) ((paramsR V).b3 1) r j := by
  unfold rd
  rw [body1_value, h.a3, h.a4, h.a5, h.a6, h.a7, h.a8, h.a9, h.a10]
  rfl

theorem lay2 {V W : Valuation τ sig (Elt Ideal)} (h : Carried V W) (r : Fin 50000) (j : Fin 128) :
    rd (after (B2 (F := Ideal)) W (main_v278 : DevRef τ sig)) r j = Cert.Spec.layerR zW cNW epsW false (rd (W (main_v201 : DevRef τ sig))) ((paramsR V).W0 2) ((paramsR V).W1 2) ((paramsR V).g1 2) ((paramsR V).b1 2) ((paramsR V).g2 2) ((paramsR V).b2 2) ((paramsR V).g3 2) ((paramsR V).b3 2) r j := by
  unfold rd
  rw [body2_value, h.a3, h.a4, h.a5, h.a6, h.a7, h.a8, h.a9, h.a10]
  rfl

/-! ### The steps -/

theorem step0 (V : Valuation τ sig (Elt Ideal)) :
    rd (after (B0 (F := Ideal)) (after (A0 (F := Ideal)) V) (main_v95 : DevRef τ sig))
      = Cert.Net.stepR zW cNW epsW (aggR V) (paramsR V) 0 true (rd (V (main_arg0 : DevRef τ sig))) := by
  funext r j
  rw [lay0 (carried_A0 V), x0]
  rfl

theorem step1 {V W : Valuation τ sig (Elt Ideal)} (h : Carried V W) :
    rd (after (B1 (F := Ideal)) (after (A1 (F := Ideal)) W) (main_v187 : DevRef τ sig))
      = Cert.Net.stepR zW cNW epsW (aggR V) (paramsR V) 1 true (rd (W (main_v95 : DevRef τ sig))) := by
  funext r j
  rw [lay1 (carried_A1 h), x1 h]
  rfl

theorem step2 {V W : Valuation τ sig (Elt Ideal)} (h : Carried V W) :
    rd (after (B2 (F := Ideal)) (after (A2 (F := Ideal)) W) (main_v278 : DevRef τ sig))
      = Cert.Net.stepR zW cNW epsW (aggR V) (paramsR V) 2 false (rd (W (main_v187 : DevRef τ sig))) := by
  funext r j
  rw [lay2 (carried_A2 h), x2 h]
  rfl

/-- THE REFERENCE IS THE NETWORK, in the reference's form. -/
theorem ref_net (V : Valuation τ sig (Elt Ideal)) (r : Fin 50000) (j : Fin 128) :
    (after (ops (F := Ideal)) V (main_v278 : DevRef τ sig) : S50000x128.Idx → EReal) (ValueIdx.ix2 r j)
      = Cert.Net.netR zW cNW epsW (aggR V) (paramsR V)
          (fun r k => (V (main_arg0 : DevRef τ sig) : S50000x128.Idx → EReal) (ValueIdx.ix2 r k)) r j := by
  have c1 : Carried V (after (B0 (F := Ideal)) (after (A0 (F := Ideal)) V)) := carried_B0 (carried_A0 V)
  have c3 := carried_B1 (carried_A1 c1)
  have e := congrFun (congrFun (step2 c3) r) j
  rw [step1 c1, step0 V] at e
  rw [after_ops]
  exact e

end Cert.ReferenceIdeal.Hand

end
-- ==== Proof.PreReal.lean ====
/-
  What the precondition says of the inputs, on the extended reals: each of the ten float arrays is compared entry by
  entry, in absolute value, with the word of +infinity, the comparisons of an array are folded by "and" from 1, and the
  ten folds are conjoined. If the result is 1 then every fold is 1, so every comparison is 1, so every entry's
  absolute value max(x, −x) is below the top element, which rules out both infinities: every entry is a real.
-/
import proofs.«180905_j29583734735286_1_alg».proof.Pre_finite_inputs
import proofs.«180905_j29583734735286_1_alg».proof.Proof.LibBatchNorm
import Idealize.ShloMosaic.Lib.ReduceAll
import Idealize.ShloMosaic.Lib.ValueIdx

noncomputable section

namespace Cert.Proof.PreReal

open Idealize.ShloMosaic Idealize.ShloMosaic.ValueIdx Cert.LibBatchNorm Cert.Pre_finite_inputs

/-- the word of +infinity denotes the top element -/
theorem inf_eq : Ideal.ofBits .f32 0x7F800000#32 = ⊤ := by simp [Ideal.ofBits, Ideal.ieee]

/-- an extended real whose absolute value compares below +infinity is a real -/
theorem real_of_abs_lt (x : EReal) (e : Ideal.cmp .olt (max x (-x)) (Ideal.ofBits .f32 0x7F800000#32) = 1#1) : IsReal x := by
  rw [inf_eq] at e
  have h : max x (-x) < ⊤ := by
    by_contra hn
    have h0 : Ideal.cmp .olt (max x (-x)) ⊤ = 0#1 := by
      show BitVec.ofBool (decide (max x (-x) < ⊤)) = 0#1
      rw [decide_eq_false hn]
      rfl
    rw [h0] at e
    exact absurd e (by decide)
  induction x using EReal.rec with
  | bot => simp at h
  | coe r => exact ⟨r, rfl⟩
  | top => simp at h

instance : Subsingleton S_.Idx := ⟨fun a b => funext fun d => d.elim0⟩

/-- one array: the fold by "and" of the comparisons is 1, so every entry is a real -/
theorem all_real {s : Shape} {axes : List (Fin s.rank)} (hb : S_.BroadcastsInDim s (![] : Fin 0 → Fin s.rank))
    (hr : s.ReducesTo axes S_) (hu : 0 < S_.numel) (a : FVec Ideal s .f32)
    (e : Host.reduce IntOp.andi (cmpf .olt (Host.absf a) (broadcastInDim s ![] hb (constant (F := Ideal) S_ .f32 0x7F800000#32)))
        (constantI S_ 1 1#1) hr hu ix0 = 1#1) (i : s.Idx) : IsReal (a i) :=
  real_of_abs_lt (a i) (Host.reduce_andi_all _ _ hr hu ix0 e i)

variable [Facts]

/-- THE PRECONDITION READ BACK: every entry of every float input is a real. -/
theorem pre_real (a0 : FVec Ideal S50000x128 .f32) (a1 : IVec S2x600000 32) (a2 : FVec Ideal S600000 .f32)
    (a3 a4 : FVec Ideal S3x128x128 .f32) (a5 a6 a7 a8 a9 a10 : FVec Ideal S3x128 .f32)
    (h : fn (F := Ideal) a0 a1 a2 a3 a4 a5 a6 a7 a8 a9 a10 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) ∧ (∀ i, IsReal (a10 i)) := by
  have h0 := congrFun h ix0
  dsimp only [fn, fn_part1, fn_part2] at h0
  simp only [andi, IntOp.andi_eq_one] at h0
  obtain ⟨⟨⟨⟨⟨⟨⟨⟨⟨e0, e2⟩, e3⟩, e4⟩, e5⟩, e6⟩, e7⟩, e8⟩, e9⟩, e10⟩ := h0
  exact ⟨all_real _ _ _ a0 e0, all_real _ _ _ a2 e2, all_real _ _ _ a3 e3, all_real _ _ _ a4 e4, all_real _ _ _ a5 e5,
    all_real _ _ _ a6 e6, all_real _ _ _ a7 e7, all_real _ _ _ a8 e8, all_real _ _ _ a9 e9, all_real _ _ _ a10 e10⟩

end Cert.Proof.PreReal

end
-- ==== Proof.RealAgg.lean ====
/-
  The neighbourhood aggregation of real data is real: an entry of the result is the zero word's value plus a finite
  sum of messages, each message the product of an entry of the features (a gathered row's entry is an entry of the
  table, whatever the index) and an edge weight (a broadcast entry is an entry of the weights); reals are closed
  under products and finite sums.
-/
import proofs.«180905_j29583734735286_1_alg».proof.Proof.HostAgg
import proofs.«180905_j29583734735286_1_alg».proof.Proof.LibBatchNorm
import Idealize.ShloMosaic.PureOps.Ideal.Laws
import Idealize.ShloMosaic.Lib.ValueIdx

noncomputable section

namespace Cert.Agg

open Cert.KernelIdeal Cert.KernelIdeal.Gen Idealize.ShloMosaic Cert.LibBatchNorm

/-- a weighted message is real -/
theorem msgs_real (s : S600000.Idx → BitVec 32) (w : S600000.Idx → EReal) (h : S50000x128.Idx → EReal)
    (hw : ∀ e, IsReal (w e)) (hh : ∀ i, IsReal (h i)) (j : S600000x128.Idx) : IsReal (msgs s w h j) := by
  unfold msgs
  rw [ValueIdx.mulf_apply]
  exact IsReal.mul (hh _) (hw _)

/-- the messages added into zero rows at the destination indices are real -/
theorem core_real (s d : S600000.Idx → BitVec 32) (w : S600000.Idx → EReal) (h : S50000x128.Idx → EReal)
    (hw : ∀ e, IsReal (w e)) (hh : ∀ i, IsReal (h i)) (i : S50000x128.Idx) : IsReal (core s d w h i) := by
  unfold core Host.scatterAdd
  rw [Ideal.hostScatterAdd_def]
  unfold Ideal.hostScatterAdd
  refine IsReal.add ?_ (IsReal.sum _ _ fun j _ => msgs_real s w h hw hh j)
  show IsReal (Ideal.ofBits .f32 0x00000000#32)
  rw [Ideal.ofBits_zero_f32]
  exact IsReal.zero

/-- THE AGGREGATION OF REAL DATA IS REAL. -/
theorem agg_real (edges : S2x600000.Idx → BitVec 32) (w : S600000.Idx → EReal) (h : S50000x128.Idx → EReal)
    (hw : ∀ e, IsReal (w e)) (hh : ∀ i, IsReal (h i)) : ∀ i, IsReal (agg edges w h i) :=
  fun i => core_real (src edges) (dst edges) w h hw hh i

end Cert.Agg

end
-- ==== Proof.KKeep.lean ====
/-
  What a region leaves alone: a region rewrites only the arrays of its output windows; every other buffer — the
  arrays its input windows stage as well as the buffers it never touches — holds after the region what it held
  before.
-/
import proofs.«180905_j29583734735286_1_alg».proof.Proof.Run

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (m : (ℓ : Loc nD τ sig) → Buf (Elt F) ℓ) (ρ : Dev nD → PrngReg)

theorem keepR0 (c : Dev nD) (b : Ref sig .tc) (h0 : b ≠ main_v42_0) (h1 : b ≠ main_v42_1) :
    W2 m ρ c (Proc.devRef .tc b) = W1 m ρ c (Proc.devRef .tc b) := by
  by_cases h : ∃ w, Pipeline.arrRef spec0 w = b
  · obtain ⟨w, rfl⟩ := h
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact (W2_arr m ρ c 2).trans (((dat0 (V1 m ρ) c).arrAt_in 2 rfl _).trans (A_eq0 (V1 m ρ) c 2))
    · exact (W2_arr m ρ c 3).trans (((dat0 (V1 m ρ) c).arrAt_in 3 rfl _).trans (A_eq0 (V1 m ρ) c 3))
    · exact absurd rfl h0
    · exact absurd rfl h1
  · exact W2_of_ne m ρ c b (fun w e => h ⟨w, e⟩)

theorem keepR1 (c : Dev nD) (b : Ref sig .tc) (h0 : b ≠ main_v43_0) (h1 : b ≠ main_v43_1) :
    W3 m ρ c (Proc.devRef .tc b) = W2 m ρ c (Proc.devRef .tc b) := by
  by_cases h : ∃ w, Pipeline.arrRef spec1 w = b
  · obtain ⟨w, rfl⟩ := h
    fin_cases w
    · exact (W3_arr m ρ c 0).trans (((dat1 (V2 m ρ) c).arrAt_in 0 rfl _).trans (A_eq1 (V2 m ρ) c 0))
    · exact (W3_arr m ρ c 1).trans (((dat1 (V2 m ρ) c).arrAt_in 1 rfl _).trans (A_eq1 (V2 m ρ) c 1))
    · exact (W3_arr m ρ c 2).trans (((dat1 (V2 m ρ) c).arrAt_in 2 rfl _).trans (A_eq1 (V2 m ρ) c 2))
    · exact (W3_arr m ρ c 3).trans (((dat1 (V2 m ρ) c).arrAt_in 3 rfl _).trans (A_eq1 (V2 m ρ) c 3))
    · exact (W3_arr m ρ c 4).trans (((dat1 (V2 m ρ) c).arrAt_in 4 rfl _).trans (A_eq1 (V2 m ρ) c 4))
    · exact (W3_arr m ρ c 5).trans (((dat1 (V2 m ρ) c).arrAt_in 5 rfl _).trans (A_eq1 (V2 m ρ) c 5))
    · exact (W3_arr m ρ c 6).trans (((dat1 (V2 m ρ) c).arrAt_in 6 rfl _).trans (A_eq1 (V2 m ρ) c 6))
    · exact absurd rfl h0
    · exact absurd rfl h1
  · exact W3_of_ne m ρ c b (fun w e => h ⟨w, e⟩)

theorem keepR2 (c : Dev nD) (b : Ref sig .tc) (h0 : b ≠ main_v44_0) (h1 : b ≠ main_v44_1) :
    W4 m ρ c (Proc.devRef .tc b) = W3 m ρ c (Proc.devRef .tc b) := by
  by_cases h : ∃ w, Pipeline.arrRef spec2 w = b
  · obtain ⟨w, rfl⟩ := h
    fin_cases w
    · exact (W4_arr m ρ c 0).trans (((dat2 (V3 m ρ) c).arrAt_in 0 rfl _).trans (A_eq2 (V3 m ρ) c 0))
    · exact (W4_arr m ρ c 1).trans (((dat2 (V3 m ρ) c).arrAt_in 1 rfl _).trans (A_eq2 (V3 m ρ) c 1))
    · exact (W4_arr m ρ c 2).trans (((dat2 (V3 m ρ) c).arrAt_in 2 rfl _).trans (A_eq2 (V3 m ρ) c 2))
    · exact (W4_arr m ρ c 3).trans (((dat2 (V3 m ρ) c).arrAt_in 3 rfl _).trans (A_eq2 (V3 m ρ) c 3))
    · exact (W4_arr m ρ c 4).trans (((dat2 (V3 m ρ) c).arrAt_in 4 rfl _).trans (A_eq2 (V3 m ρ) c 4))
    · exact (W4_arr m ρ c 5).trans (((dat2 (V3 m ρ) c).arrAt_in 5 rfl _).trans (A_eq2 (V3 m ρ) c 5))
    · exact (W4_arr m ρ c 6).trans (((dat2 (V3 m ρ) c).arrAt_in 6 rfl _).trans (A_eq2 (V3 m ρ) c 6))
    · exact (W4_arr m ρ c 7).trans (((dat2 (V3 m ρ) c).arrAt_in 7 rfl _).trans (A_eq2 (V3 m ρ) c 7))
    · exact (W4_arr m ρ c 8).trans (((dat2 (V3 m ρ) c).arrAt_in 8 rfl _).trans (A_eq2 (V3 m ρ) c 8))
    · exact absurd rfl h0
    · exact absurd rfl h1
  · exact W4_of_ne m ρ c b (fun w e => h ⟨w, e⟩)

theorem keepR3 (c : Dev nD) (b : Ref sig .tc) (h0 : b ≠ main_v45) :
    W5 m ρ c (Proc.devRef .tc b) = W4 m ρ c (Proc.devRef .tc b) := by
  by_cases h : ∃ w, Pipeline.arrRef spec3 w = b
  · obtain ⟨w, rfl⟩ := h
    fin_cases w
    · exact (W5_arr m ρ c 0).trans (((dat3 (V4 m ρ) c).arrAt_in 0 rfl _).trans (A_eq3 (V4 m ρ) c 0))
    · exact (W5_arr m ρ c 1).trans (((dat3 (V4 m ρ) c).arrAt_in 1 rfl _).trans (A_eq3 (V4 m ρ) c 1))
    · exact (W5_arr m ρ c 2).trans (((dat3 (V4 m ρ) c).arrAt_in 2 rfl _).trans (A_eq3 (V4 m ρ) c 2))
    · exact (W5_arr m ρ c 3).trans (((dat3 (V4 m ρ) c).arrAt_in 3 rfl _).trans (A_eq3 (V4 m ρ) c 3))
    · exact (W5_arr m ρ c 4).trans (((dat3 (V4 m ρ) c).arrAt_in 4 rfl _).trans (A_eq3 (V4 m ρ) c 4))
    · exact (W5_arr m ρ c 5).trans (((dat3 (V4 m ρ) c).arrAt_in 5 rfl _).trans (A_eq3 (V4 m ρ) c 5))
    · exact (W5_arr m ρ c 6).trans (((dat3 (V4 m ρ) c).arrAt_in 6 rfl _).trans (A_eq3 (V4 m ρ) c 6))
    · exact (W5_arr m ρ c 7).trans (((dat3 (V4 m ρ) c).arrAt_in 7 rfl _).trans (A_eq3 (V4 m ρ) c 7))
    · exact (W5_arr m ρ c 8).trans (((dat3 (V4 m ρ) c).arrAt_in 8 rfl _).trans (A_eq3 (V4 m ρ) c 8))
    · exact absurd rfl h0
  · exact W5_of_ne m ρ c b (fun w e => h ⟨w, e⟩)

theorem keepR4 (c : Dev nD) (b : Ref sig .tc) (h0 : b ≠ main_v84_0) (h1 : b ≠ main_v84_1) :
    W7 m ρ c (Proc.devRef .tc b) = W6 m ρ c (Proc.devRef .tc b) := by
  by_cases h : ∃ w, Pipeline.arrRef spec4 w = b
  · obtain ⟨w, rfl⟩ := h
    fin_cases w
    · exact (W7_arr m ρ c 0).trans (((dat4 (V6 m ρ) c).arrAt_in 0 rfl _).trans (A_eq4 (V6 m ρ) c 0))
    · exact (W7_arr m ρ c 1).trans (((dat4 (V6 m ρ) c).arrAt_in 1 rfl _).trans (A_eq4 (V6 m ρ) c 1))
    · exact (W7_arr m ρ c 2).trans (((dat4 (V6 m ρ) c).arrAt_in 2 rfl _).trans (A_eq4 (V6 m ρ) c 2))
    · exact (W7_arr m ρ c 3).trans (((dat4 (V6 m ρ) c).arrAt_in 3 rfl _).trans (A_eq4 (V6 m ρ) c 3))
    · exact absurd rfl h0
    · exact absurd rfl h1
  · exact W7_of_ne m ρ c b (fun w e => h ⟨w, e⟩)

theorem keepR5 (c : Dev nD) (b : Ref sig .tc) (h0 : b ≠ main_v85_0) (h1 : b ≠ main_v85_1) :
    W8 m ρ c (Proc.devRef .tc b) = W7 m ρ c (Proc.devRef .tc b) := by
  by_cases h : ∃ w, Pipeline.arrRef spec5 w = b
  · obtain ⟨w, rfl⟩ := h
    fin_cases w
    · exact (W8_arr m ρ c 0).trans (((dat5 (V7 m ρ) c).arrAt_in 0 rfl _).trans (A_eq5 (V7 m ρ) c 0))
    · exact (W8_arr m ρ c 1).trans (((dat5 (V7 m ρ) c).arrAt_in 1 rfl _).trans (A_eq5 (V7 m ρ) c 1))
    · exact (W8_arr m ρ c 2).trans (((dat5 (V7 m ρ) c).arrAt_in 2 rfl _).trans (A_eq5 (V7 m ρ) c 2))
    · exact (W8_arr m ρ c 3).trans (((dat5 (V7 m ρ) c).arrAt_in 3 rfl _).trans (A_eq5 (V7 m ρ) c 3))
    · exact (W8_arr m ρ c 4).trans (((dat5 (V7 m ρ) c).arrAt_in 4 rfl _).trans (A_eq5 (V7 m ρ) c 4))
    · exact (W8_arr m ρ c 5).trans (((dat5 (V7 m ρ) c).arrAt_in 5 rfl _).trans (A_eq5 (V7 m ρ) c 5))
    · exact (W8_arr m ρ c 6).trans (((dat5 (V7 m ρ) c).arrAt_in 6 rfl _).trans (A_eq5 (V7 m ρ) c 6))
    · exact absurd rfl h0
    · exact absurd rfl h1
  · exact W8_of_ne m ρ c b (fun w e => h ⟨w, e⟩)

theorem keepR6 (c : Dev nD) (b : Ref sig .tc) (h0 : b ≠ main_v86_0) (h1 : b ≠ main_v86_1) :
    W9 m ρ c (Proc.devRef .tc b) = W8 m ρ c (Proc.devRef .tc b) := by
  by_cases h : ∃ w, Pipeline.arrRef spec6 w = b
  · obtain ⟨w, rfl⟩ := h
    fin_cases w
    · exact (W9_arr m ρ c 0).trans (((dat6 (V8 m ρ) c).arrAt_in 0 rfl _).trans (A_eq6 (V8 m ρ) c 0))
    · exact (W9_arr m ρ c 1).trans (((dat6 (V8 m ρ) c).arrAt_in 1 rfl _).trans (A_eq6 (V8 m ρ) c 1))
    · exact (W9_arr m ρ c 2).trans (((dat6 (V8 m ρ) c).arrAt_in 2 rfl _).trans (A_eq6 (V8 m ρ) c 2))
    · exact (W9_arr m ρ c 3).trans (((dat6 (V8 m ρ) c).arrAt_in 3 rfl _).trans (A_eq6 (V8 m ρ) c 3))
    · exact (W9_arr m ρ c 4).trans (((dat6 (V8 m ρ) c).arrAt_in 4 rfl _).trans (A_eq6 (V8 m ρ) c 4))
    · exact (W9_arr m ρ c 5).trans (((dat6 (V8 m ρ) c).arrAt_in 5 rfl _).trans (A_eq6 (V8 m ρ) c 5))
    · exact (W9_arr m ρ c 6).trans (((dat6 (V8 m ρ) c).arrAt_in 6 rfl _).trans (A_eq6 (V8 m ρ) c 6))
    · exact (W9_arr m ρ c 7).trans (((dat6 (V8 m ρ) c).arrAt_in 7 rfl _).trans (A_eq6 (V8 m ρ) c 7))
    · exact (W9_arr m ρ c 8).trans (((dat6 (V8 m ρ) c).arrAt_in 8 rfl _).trans (A_eq6 (V8 m ρ) c 8))
    · exact absurd rfl h0
    · exact absurd rfl h1
  · exact W9_of_ne m ρ c b (fun w e => h ⟨w, e⟩)

theorem keepR7 (c : Dev nD) (b : Ref sig .tc) (h0 : b ≠ main_v87) :
    W10 m ρ c (Proc.devRef .tc b) = W9 m ρ c (Proc.devRef .tc b) := by
  by_cases h : ∃ w, Pipeline.arrRef spec7 w = b
  · obtain ⟨w, rfl⟩ := h
    fin_cases w
    · exact (W10_arr m ρ c 0).trans (((dat7 (V9 m ρ) c).arrAt_in 0 rfl _).trans (A_eq7 (V9 m ρ) c 0))
    · exact (W10_arr m ρ c 1).trans (((dat7 (V9 m ρ) c).arrAt_in 1 rfl _).trans (A_eq7 (V9 m ρ) c 1))
    · exact (W10_arr m ρ c 2).trans (((dat7 (V9 m ρ) c).arrAt_in 2 rfl _).trans (A_eq7 (V9 m ρ) c 2))
    · exact (W10_arr m ρ c 3).trans (((dat7 (V9 m ρ) c).arrAt_in 3 rfl _).trans (A_eq7 (V9 m ρ) c 3))
    · exact (W10_arr m ρ c 4).trans (((dat7 (V9 m ρ) c).arrAt_in 4 rfl _).trans (A_eq7 (V9 m ρ) c 4))
    · exact (W10_arr m ρ c 5).trans (((dat7 (V9 m ρ) c).arrAt_in 5 rfl _).trans (A_eq7 (V9 m ρ) c 5))
    · exact (W10_arr m ρ c 6).trans (((dat7 (V9 m ρ) c).arrAt_in 6 rfl _).trans (A_eq7 (V9 m ρ) c 6))
    · exact (W10_arr m ρ c 7).trans (((dat7 (V9 m ρ) c).arrAt_in 7 rfl _).trans (A_eq7 (V9 m ρ) c 7))
    · exact (W10_arr m ρ c 8).trans (((dat7 (V9 m ρ) c).arrAt_in 8 rfl _).trans (A_eq7 (V9 m ρ) c 8))
    · exact absurd rfl h0
  · exact W10_of_ne m ρ c b (fun w e => h ⟨w, e⟩)

theorem keepR8 (c : Dev nD) (b : Ref sig .tc) (h0 : b ≠ main_v126_0) (h1 : b ≠ main_v126_1) :
    W12 m ρ c (Proc.devRef .tc b) = W11 m ρ c (Proc.devRef .tc b) := by
  by_cases h : ∃ w, Pipeline.arrRef spec8 w = b
  · obtain ⟨w, rfl⟩ := h
    fin_cases w
    · exact (W12_arr m ρ c 0).trans (((dat8 (V11 m ρ) c).arrAt_in 0 rfl _).trans (A_eq8 (V11 m ρ) c 0))
    · exact (W12_arr m ρ c 1).trans (((dat8 (V11 m ρ) c).arrAt_in 1 rfl _).trans (A_eq8 (V11 m ρ) c 1))
    · exact (W12_arr m ρ c 2).trans (((dat8 (V11 m ρ) c).arrAt_in 2 rfl _).trans (A_eq8 (V11 m ρ) c 2))
    · exact (W12_arr m ρ c 3).trans (((dat8 (V11 m ρ) c).arrAt_in 3 rfl _).trans (A_eq8 (V11 m ρ) c 3))
    · exact absurd rfl h0
    · exact absurd rfl h1
  · exact W12_of_ne m ρ c b (fun w e => h ⟨w, e⟩)

theorem keepR9 (c : Dev nD) (b : Ref sig .tc) (h0 : b ≠ main_v127_0) (h1 : b ≠ main_v127_1) :
    W13 m ρ c (Proc.devRef .tc b) = W12 m ρ c (Proc.devRef .tc b) := by
  by_cases h : ∃ w, Pipeline.arrRef spec9 w = b
  · obtain ⟨w, rfl⟩ := h
    fin_cases w
    · exact (W13_arr m ρ c 0).trans (((dat9 (V12 m ρ) c).arrAt_in 0 rfl _).trans (A_eq9 (V12 m ρ) c 0))
    · exact (W13_arr m ρ c 1).trans (((dat9 (V12 m ρ) c).arrAt_in 1 rfl _).trans (A_eq9 (V12 m ρ) c 1))
    · exact (W13_arr m ρ c 2).trans (((dat9 (V12 m ρ) c).arrAt_in 2 rfl _).trans (A_eq9 (V12 m ρ) c 2))
    · exact (W13_arr m ρ c 3).trans (((dat9 (V12 m ρ) c).arrAt_in 3 rfl _).trans (A_eq9 (V12 m ρ) c 3))
    · exact (W13_arr m ρ c 4).trans (((dat9 (V12 m ρ) c).arrAt_in 4 rfl _).trans (A_eq9 (V12 m ρ) c 4))
    · exact (W13_arr m ρ c 5).trans (((dat9 (V12 m ρ) c).arrAt_in 5 rfl _).trans (A_eq9 (V12 m ρ) c 5))
    · exact (W13_arr m ρ c 6).trans (((dat9 (V12 m ρ) c).arrAt_in 6 rfl _).trans (A_eq9 (V12 m ρ) c 6))
    · exact absurd rfl h0
    · exact absurd rfl h1
  · exact W13_of_ne m ρ c b (fun w e => h ⟨w, e⟩)

theorem keepR10 (c : Dev nD) (b : Ref sig .tc) (h0 : b ≠ main_v128_0) (h1 : b ≠ main_v128_1) :
    W14 m ρ c (Proc.devRef .tc b) = W13 m ρ c (Proc.devRef .tc b) := by
  by_cases h : ∃ w, Pipeline.arrRef spec10 w = b
  · obtain ⟨w, rfl⟩ := h
    fin_cases w
    · exact (W14_arr m ρ c 0).trans (((dat10 (V13 m ρ) c).arrAt_in 0 rfl _).trans (A_eq10 (V13 m ρ) c 0))
    · exact (W14_arr m ρ c 1).trans (((dat10 (V13 m ρ) c).arrAt_in 1 rfl _).trans (A_eq10 (V13 m ρ) c 1))
    · exact (W14_arr m ρ c 2).trans (((dat10 (V13 m ρ) c).arrAt_in 2 rfl _).trans (A_eq10 (V13 m ρ) c 2))
    · exact (W14_arr m ρ c 3).trans (((dat10 (V13 m ρ) c).arrAt_in 3 rfl _).trans (A_eq10 (V13 m ρ) c 3))
    · exact (W14_arr m ρ c 4).trans (((dat10 (V13 m ρ) c).arrAt_in 4 rfl _).trans (A_eq10 (V13 m ρ) c 4))
    · exact (W14_arr m ρ c 5).trans (((dat10 (V13 m ρ) c).arrAt_in 5 rfl _).trans (A_eq10 (V13 m ρ) c 5))
    · exact (W14_arr m ρ c 6).trans (((dat10 (V13 m ρ) c).arrAt_in 6 rfl _).trans (A_eq10 (V13 m ρ) c 6))
    · exact (W14_arr m ρ c 7).trans (((dat10 (V13 m ρ) c).arrAt_in 7 rfl _).trans (A_eq10 (V13 m ρ) c 7))
    · exact (W14_arr m ρ c 8).trans (((dat10 (V13 m ρ) c).arrAt_in 8 rfl _).trans (A_eq10 (V13 m ρ) c 8))
    · exact absurd rfl h0
    · exact absurd rfl h1
  · exact W14_of_ne m ρ c b (fun w e => h ⟨w, e⟩)

theorem keepR11 (c : Dev nD) (b : Ref sig .tc) (h0 : b ≠ main_v129) :
    W15 m ρ c (Proc.devRef .tc b) = W14 m ρ c (Proc.devRef .tc b) := by
  by_cases h : ∃ w, Pipeline.arrRef spec11 w = b
  · obtain ⟨w, rfl⟩ := h
    fin_cases w
    · exact (W15_arr m ρ c 0).trans (((dat11 (V14 m ρ) c).arrAt_in 0 rfl _).trans (A_eq11 (V14 m ρ) c 0))
    · exact (W15_arr m ρ c 1).trans (((dat11 (V14 m ρ) c).arrAt_in 1 rfl _).trans (A_eq11 (V14 m ρ) c 1))
    · exact (W15_arr m ρ c 2).trans (((dat11 (V14 m ρ) c).arrAt_in 2 rfl _).trans (A_eq11 (V14 m ρ) c 2))
    · exact (W15_arr m ρ c 3).trans (((dat11 (V14 m ρ) c).arrAt_in 3 rfl _).trans (A_eq11 (V14 m ρ) c 3))
    · exact (W15_arr m ρ c 4).trans (((dat11 (V14 m ρ) c).arrAt_in 4 rfl _).trans (A_eq11 (V14 m ρ) c 4))
    · exact (W15_arr m ρ c 5).trans (((dat11 (V14 m ρ) c).arrAt_in 5 rfl _).trans (A_eq11 (V14 m ρ) c 5))
    · exact (W15_arr m ρ c 6).trans (((dat11 (V14 m ρ) c).arrAt_in 6 rfl _).trans (A_eq11 (V14 m ρ) c 6))
    · exact (W15_arr m ρ c 7).trans (((dat11 (V14 m ρ) c).arrAt_in 7 rfl _).trans (A_eq11 (V14 m ρ) c 7))
    · exact (W15_arr m ρ c 8).trans (((dat11 (V14 m ρ) c).arrAt_in 8 rfl _).trans (A_eq11 (V14 m ρ) c 8))
    · exact absurd rfl h0
  · exact W15_of_ne m ρ c b (fun w e => h ⟨w, e⟩)

end Cert.KernelIdeal.Hand

end
-- ==== Proof.HostLayout.lean ====
/-
  Two readings of the host's layout operations at an index, for any element type: a slab of a stack of matrices
  with its unit axis dropped, and a row of a matrix taken as a slice, flattened to a vector and given its unit axis back.
-/
import Idealize.ShloMosaic.Lib.ValueLayout

noncomputable section

namespace Cert.HostLayout

open Idealize.ShloMosaic Idealize.ShloMosaic.ValueIdx

variable {α : Type}

/-- Slab `o` of a stack of `m` matrices, cut out as a [1, a, b] slice and cast to [a, b], holds at (k, j) the
    stack's element (o, k, j). -/
theorem slab_apply {m a b : ℕ} (o : ℕ) (ho : o < m) (x : (⟨3, ![m, a, b]⟩ : Shape).Idx → α)
    (hs : (⟨3, ![m, a, b]⟩ : Shape).Slices ![o, 0, 0] ⟨3, ![1, a, b]⟩)
    (hc : (⟨3, ![1, a, b]⟩ : Shape).ShapeCasts ⟨2, ![a, b]⟩) (k : Fin a) (j : Fin b) :
    shapeCast ⟨2, ![a, b]⟩ (extractStridedSlice ⟨3, ![1, a, b]⟩ ![o, 0, 0] x hs) hc (ix2 k j) = x (ix3 ⟨o, ho⟩ k j) := by
  rw [shapeCast_1ab_ab_apply]
  exact extractStridedSlice_apply _ x hs _ _ fun c =>
    match c with
    | ⟨0, _⟩ => rfl
    | ⟨1, _⟩ => (Nat.zero_add _).symm
    | ⟨2, _⟩ => (Nat.zero_add _).symm

/-- Row `o` of an [m, a] matrix, cut out as a [1, a] slice, flattened to [a] and cast back to [1, a], holds at
    (u, j) the matrix's element (o, j). -/
theorem row_apply {m a : ℕ} (o : ℕ) (ho : o < m) (x : (⟨2, ![m, a]⟩ : Shape).Idx → α)
    (hs : (⟨2, ![m, a]⟩ : Shape).Slices ![o, 0] ⟨2, ![1, a]⟩)
    (hc : (⟨2, ![1, a]⟩ : Shape).ShapeCasts ⟨1, ![a]⟩) (hc' : (⟨1, ![a]⟩ : Shape).ShapeCasts ⟨2, ![1, a]⟩)
    (u : Fin 1) (j : Fin a) :
    shapeCast ⟨2, ![1, a]⟩ (shapeCast ⟨1, ![a]⟩ (extractStridedSlice ⟨2, ![1, a]⟩ ![o, 0] x hs) hc) hc' (ix2 u j)
      = x (ix2 ⟨o, ho⟩ j) := by
  rw [shapeCast_a_1a_apply, shapeCast_1a_a_apply]
  exact extractStridedSlice_apply _ x hs _ _ fun c =>
    match c with
    | ⟨0, _⟩ => rfl
    | ⟨1, _⟩ => (Nat.zero_add _).symm

end Cert.HostLayout

end
-- ==== Proof.HostK0.lean ====
/-
  The host stretch before layer 1's kernels, read at the extended reals for any contents W of the buffers on entry:
  the layer's input x = h + aggregation of h over the edges (the edge table's two rows are prepared here, once),
  the layer's two weight matrices (slab 0 of each stack; the change of format is the identity), its six
  batch-norm rows (row 0 of each table), and every buffer the stretch does not write left as it was.
-/
import proofs.«180905_j29583734735286_1_alg».proof.Proof.Gen.KernelIdeal.Regions
import proofs.«180905_j29583734735286_1_alg».proof.Proof.HostAgg
import proofs.«180905_j29583734735286_1_alg».proof.Proof.HostLayout
import Idealize.ShloMosaic.Lib.StableHlo.Run

set_option maxRecDepth 8192

noncomputable section

namespace Cert.KernelIdeal.Hand

open Cert.KernelIdeal Cert.KernelIdeal.Gen
open Idealize.ShloMosaic Idealize.ShloMosaic.TcCoe Idealize.ShloMosaic.StableHlo Idealize.SL.Sem
open Idealize.ShloMosaic.ValueIdx

variable (W : Valuation τ sig (Elt Ideal))

/-- The source-node row of the edge table, prepared once. -/
theorem host0_src : after (hostOps0 (F := Ideal)) W (main_v1 : DevRef τ sig) = Cert.Agg.src (W (main_arg1 : DevRef τ sig)) := by
  after_results_simp
  rfl

/-- The destination-node row of the edge table, prepared once. -/
theorem host0_dst : after (hostOps0 (F := Ideal)) W (main_v3 : DevRef τ sig) = Cert.Agg.dst (W (main_arg1 : DevRef τ sig)) := by
  after_results_simp
  rfl

attribute [local irreducible] Host.gather Host.scatterAdd in
/-- The layer's input: the features plus their aggregation over the edges. -/
theorem host0_x :
    after (hostOps0 (F := Ideal)) W (main_v17 : DevRef τ sig)
      = fun i => HAdd.hAdd (α := EReal) (β := EReal) (γ := EReal) (W (main_arg0 : DevRef τ sig) i)
          (Cert.Agg.agg (W (main_arg1 : DevRef τ sig)) (W (main_arg2 : DevRef τ sig)) (W (main_arg0 : DevRef τ sig)) i) := by
  after_results_simp
  rfl

/-- The first weight matrix: slab 0 of its stack. -/
theorem host0_W0 (k j : Fin 128) :
    (after (hostOps0 (F := Ideal)) W (main_v20 : DevRef τ sig) : S128x128.Idx → EReal) (ix2 k j)
      = (W (main_arg3 : DevRef τ sig) : S3x128x128.Idx → EReal) (ix3 (0 : Fin 3) k j) := by
  after_results_simp
  exact Cert.HostLayout.slab_apply 0 (by decide) (W (main_arg3 : DevRef τ sig)) slices_S3x128x128_S1x128x128_0_0_0 shapeCasts_S1x128x128_S128x128 k j

/-- The second weight matrix: slab 0 of its stack. -/
theorem host0_W1 (k j : Fin 128) :
    (after (hostOps0 (F := Ideal)) W (main_v23 : DevRef τ sig) : S128x128.Idx → EReal) (ix2 k j)
      = (W (main_arg4 : DevRef τ sig) : S3x128x128.Idx → EReal) (ix3 (0 : Fin 3) k j) := by
  after_results_simp
  exact Cert.HostLayout.slab_apply 0 (by decide) (W (main_arg4 : DevRef τ sig)) slices_S3x128x128_S1x128x128_0_0_0 shapeCasts_S1x128x128_S128x128 k j

/-- Batch-norm row 1 of 6: row 0 of its table. -/
theorem host0_row0 (u : Fin 1) (j : Fin 128) :
    (after (hostOps0 (F := Ideal)) W (main_v26 : DevRef τ sig) : S1x128.Idx → EReal) (ix2 u j)
      = (W (main_arg5 : DevRef τ sig) : S3x128.Idx → EReal) (ix2 (0 : Fin 3) j) := by
  after_results_simp
  exact Cert.HostLayout.row_apply 0 (by decide) (W (main_arg5 : DevRef τ sig)) slices_S3x128_S1x128_0_0 shapeCasts_S1x128_S128 shapeCasts_S128_S1x128 u j

/-- Batch-norm row 2 of 6: row 0 of its table. -/
theorem host0_row1 (u : Fin 1) (j : Fin 128) :
    (after (hostOps0 (F := Ideal)) W (main_v29 : DevRef τ sig) : S1x128.Idx → EReal) (ix2 u j)
      = (W (main_arg6 : DevRef τ sig) : S3x128.Idx → EReal) (ix2 (0 : Fin 3) j) := by
  after_results_simp
  exact Cert.HostLayout.row_apply 0 (by decide) (W (main_arg6 : DevRef τ sig)) slices_S3x128_S1x128_0_0 shapeCasts_S1x128_S128 shapeCasts_S128_S1x128 u j

/-- Batch-norm row 3 of 6: row 0 of its table. -/
theorem host0_row2 (u : Fin 1) (j : Fin 128) :
    (after (hostOps0 (F := Ideal)) W (main_v32 : DevRef τ sig) : S1x128.Idx → EReal) (ix2 u j)
      = (W (main_arg7 : DevRef τ sig) : S3x128.Idx → EReal) (ix2 (0 : Fin 3) j) := by
  after_results_simp
  exact Cert.HostLayout.row_apply 0 (by decide) (W (main_arg7 : DevRef τ sig)) slices_S3x128_S1x128_0_0 shapeCasts_S1x128_S128 shapeCasts_S128_S1x128 u j

/-- Batch-norm row 4 of 6: row 0 of its table. -/
theorem host0_row3 (u : Fin 1) (j : Fin 128) :
    (after (hostOps0 (F := Ideal)) W (main_v35 : DevRef τ sig) : S1x128.Idx → EReal) (ix2 u j)
      = (W (main_arg8 : DevRef τ sig) : S3x128.Idx → EReal) (ix2 (0 : Fin 3) j) := by
  after_results_simp
  exact Cert.HostLayout.row_apply 0 (by decide) (W (main_arg8 : DevRef τ sig)) slices_S3x128_S1x128_0_0 shapeCasts_S1x128_S128 shapeCasts_S128_S1x128 u j

/-- Batch-norm row 5 of 6: row 0 of its table. -/
theorem host0_row4 (u : Fin 1) (j : Fin 128) :
    (after (hostOps0 (F := Ideal)) W (main_v38 : DevRef τ sig) : S1x128.Idx → EReal) (ix2 u j)
      = (W (main_arg9 : DevRef τ sig) : S3x128.Idx → EReal) (ix2 (0 : Fin 3) j) := by
  after_results_simp
  exact Cert.HostLayout.row_apply 0 (by decide) (W (main_arg9 : DevRef τ sig)) slices_S3x128_S1x128_0_0 shapeCasts_S1x128_S128 shapeCasts_S128_S1x128 u j

/-- Batch-norm row 6 of 6: row 0 of its table. -/
theorem host0_row5 (u : Fin 1) (j : Fin 128) :
    (after (hostOps0 (F := Ideal)) W (main_v41 : DevRef τ sig) : S1x128.Idx → EReal) (ix2 u j)
      = (W (main_arg10 : DevRef τ sig) : S3x128.Idx → EReal) (ix2 (0 : Fin 3) j) := by
  after_results_simp
  exact Cert.HostLayout.row_apply 0 (by decide) (W (main_arg10 : DevRef τ sig)) slices_S3x128_S1x128_0_0 shapeCasts_S1x128_S128 shapeCasts_S128_S1x128 u j

/-- A buffer the stretch does not write keeps its contents. -/
theorem host0_keep (r : Ref sig .tc) (h : r ∉ hostOps0_W) :
    after (hostOps0 (F := Ideal)) W (Proc.devRef .tc r) = W (Proc.devRef .tc r) :=
  after_of_writes_sub hostOps0 W hostOps0_writes h

end Cert.KernelIdeal.Hand

end
-- ==== Proof.HostK4.lean ====
/-
  The host stretch before layer 2's kernels, read at the extended reals for any contents W of the buffers on entry:
  the layer's input x = h + aggregation of h over the edges (from the two index rows prepared before the first layer),
  the layer's two weight matrices (slab 1 of each stack; the change of format is the identity), its six
  batch-norm rows (row 1 of each table), and every buffer the stretch does not write left as it was.
-/
import proofs.«180905_j29583734735286_1_alg».proof.Proof.Gen.KernelIdeal.Regions
import proofs.«180905_j29583734735286_1_alg».proof.Proof.HostAgg
import proofs.«180905_j29583734735286_1_alg».proof.Proof.HostLayout
import Idealize.ShloMosaic.Lib.StableHlo.Run

set_option maxRecDepth 8192

noncomputable section

namespace Cert.KernelIdeal.Hand

open Cert.KernelIdeal Cert.KernelIdeal.Gen
open Idealize.ShloMosaic Idealize.ShloMosaic.TcCoe Idealize.ShloMosaic.StableHlo Idealize.SL.Sem
open Idealize.ShloMosaic.ValueIdx

variable (W : Valuation τ sig (Elt Ideal))

attribute [local irreducible] Host.gather Host.scatterAdd in
/-- The layer's input: the features plus their aggregation over the edges, from the prepared index rows. -/
theorem host4_x :
    after (hostOps4 (F := Ideal)) W (main_v59 : DevRef τ sig)
      = fun i => HAdd.hAdd (α := EReal) (β := EReal) (γ := EReal) (W (main_v45 : DevRef τ sig) i)
          (Cert.Agg.core (W (main_v1 : DevRef τ sig)) (W (main_v3 : DevRef τ sig)) (W (main_arg2 : DevRef τ sig))
            (W (main_v45 : DevRef τ sig)) i) := by
  after_results_simp
  rfl

/-- The first weight matrix: slab 1 of its stack. -/
theorem host4_W0 (k j : Fin 128) :
    (after (hostOps4 (F := Ideal)) W (main_v62 : DevRef τ sig) : S128x128.Idx → EReal) (ix2 k j)
      = (W (main_arg3 : DevRef τ sig) : S3x128x128.Idx → EReal) (ix3 (1 : Fin 3) k j) := by
  after_results_simp
  exact Cert.HostLayout.slab_apply 1 (by decide) (W (main_arg3 : DevRef τ sig)) slices_S3x128x128_S1x128x128_1_0_0 shapeCasts_S1x128x128_S128x128 k j

/-- The second weight matrix: slab 1 of its stack. -/
theorem host4_W1 (k j : Fin 128) :
    (after (hostOps4 (F := Ideal)) W (main_v65 : DevRef τ sig) : S128x128.Idx → EReal) (ix2 k j)
      = (W (main_arg4 : DevRef τ sig) : S3x128x128.Idx → EReal) (ix3 (1 : Fin 3) k j) := by
  after_results_simp
  exact Cert.HostLayout.slab_apply 1 (by decide) (W (main_arg4 : DevRef τ sig)) slices_S3x128x128_S1x128x128_1_0_0 shapeCasts_S1x128x128_S128x128 k j

/-- Batch-norm row 1 of 6: row 1 of its table. -/
theorem host4_row0 (u : Fin 1) (j : Fin 128) :
    (after (hostOps4 (F := Ideal)) W (main_v68 : DevRef τ sig) : S1x128.Idx → EReal) (ix2 u j)
      = (W (main_arg5 : DevRef τ sig) : S3x128.Idx → EReal) (ix2 (1 : Fin 3) j) := by
  after_results_simp
  exact Cert.HostLayout.row_apply 1 (by decide) (W (main_arg5 : DevRef τ sig)) slices_S3x128_S1x128_1_0 shapeCasts_S1x128_S128 shapeCasts_S128_S1x128 u j

/-- Batch-norm row 2 of 6: row 1 of its table. -/
theorem host4_row1 (u : Fin 1) (j : Fin 128) :
    (after (hostOps4 (F := Ideal)) W (main_v71 : DevRef τ sig) : S1x128.Idx → EReal) (ix2 u j)
      = (W (main_arg6 : DevRef τ sig) : S3x128.Idx → EReal) (ix2 (1 : Fin 3) j) := by
  after_results_simp
  exact Cert.HostLayout.row_apply 1 (by decide) (W (main_arg6 : DevRef τ sig)) slices_S3x128_S1x128_1_0 shapeCasts_S1x128_S128 shapeCasts_S128_S1x128 u j

/-- Batch-norm row 3 of 6: row 1 of its table. -/
theorem host4_row2 (u : Fin 1) (j : Fin 128) :
    (after (hostOps4 (F := Ideal)) W (main_v74 : DevRef τ sig) : S1x128.Idx → EReal) (ix2 u j)
      = (W (main_arg7 : DevRef τ sig) : S3x128.Idx → EReal) (ix2 (1 : Fin 3) j) := by
  after_results_simp
  exact Cert.HostLayout.row_apply 1 (by decide) (W (main_arg7 : DevRef τ sig)) slices_S3x128_S1x128_1_0 shapeCasts_S1x128_S128 shapeCasts_S128_S1x128 u j

/-- Batch-norm row 4 of 6: row 1 of its table. -/
theorem host4_row3 (u : Fin 1) (j : Fin 128) :
    (after (hostOps4 (F := Ideal)) W (main_v77 : DevRef τ sig) : S1x128.Idx → EReal) (ix2 u j)
      = (W (main_arg8 : DevRef τ sig) : S3x128.Idx → EReal) (ix2 (1 : Fin 3) j) := by
  after_results_simp
  exact Cert.HostLayout.row_apply 1 (by decide) (W (main_arg8 : DevRef τ sig)) slices_S3x128_S1x128_1_0 shapeCasts_S1x128_S128 shapeCasts_S128_S1x128 u j

/-- Batch-norm row 5 of 6: row 1 of its table. -/
theorem host4_row4 (u : Fin 1) (j : Fin 128) :
    (after (hostOps4 (F := Ideal)) W (main_v80 : DevRef τ sig) : S1x128.Idx → EReal) (ix2 u j)
      = (W (main_arg9 : DevRef τ sig) : S3x128.Idx → EReal) (ix2 (1 : Fin 3) j) := by
  after_results_simp
  exact Cert.HostLayout.row_apply 1 (by decide) (W (main_arg9 : DevRef τ sig)) slices_S3x128_S1x128_1_0 shapeCasts_S1x128_S128 shapeCasts_S128_S1x128 u j

/-- Batch-norm row 6 of 6: row 1 of its table. -/
theorem host4_row5 (u : Fin 1) (j : Fin 128) :
    (after (hostOps4 (F := Ideal)) W (main_v83 : DevRef τ sig) : S1x128.Idx → EReal) (ix2 u j)
      = (W (main_arg10 : DevRef τ sig) : S3x128.Idx → EReal) (ix2 (1 : Fin 3) j) := by
  after_results_simp
  exact Cert.HostLayout.row_apply 1 (by decide) (W (main_arg10 : DevRef τ sig)) slices_S3x128_S1x128_1_0 shapeCasts_S1x128_S128 shapeCasts_S128_S1x128 u j

/-- A buffer the stretch does not write keeps its contents. -/
theorem host4_keep (r : Ref sig .tc) (h : r ∉ hostOps4_W) :
    after (hostOps4 (F := Ideal)) W (Proc.devRef .tc r) = W (Proc.devRef .tc r) :=
  after_of_writes_sub hostOps4 W hostOps4_writes h

end Cert.KernelIdeal.Hand

end
-- ==== Proof.HostK8.lean ====
/-
  The host stretch before layer 3's kernels, read at the extended reals for any contents W of the buffers on entry:
  the layer's input x = h + aggregation of h over the edges (from the two index rows prepared before the first layer),
  the layer's two weight matrices (slab 2 of each stack; the change of format is the identity), its six
  batch-norm rows (row 2 of each table), and every buffer the stretch does not write left as it was.
-/
import proofs.«180905_j29583734735286_1_alg».proof.Proof.Gen.KernelIdeal.Regions
import proofs.«180905_j29583734735286_1_alg».proof.Proof.HostAgg
import proofs.«180905_j29583734735286_1_alg».proof.Proof.HostLayout
import Idealize.ShloMosaic.Lib.StableHlo.Run

set_option maxRecDepth 8192

noncomputable section

namespace Cert.KernelIdeal.Hand

open Cert.KernelIdeal Cert.KernelIdeal.Gen
open Idealize.ShloMosaic Idealize.ShloMosaic.TcCoe Idealize.ShloMosaic.StableHlo Idealize.SL.Sem
open Idealize.ShloMosaic.ValueIdx

variable (W : Valuation τ sig (Elt Ideal))

attribute [local irreducible] Host.gather Host.scatterAdd in
/-- The layer's input: the features plus their aggregation over the edges, from the prepared index rows. -/
theorem host8_x :
    after (hostOps8 (F := Ideal)) W (main_v101 : DevRef τ sig)
      = fun i => HAdd.hAdd (α := EReal) (β := EReal) (γ := EReal) (W (main_v87 : DevRef τ sig) i)
          (Cert.Agg.core (W (main_v1 : DevRef τ sig)) (W (main_v3 : DevRef τ sig)) (W (main_arg2 : DevRef τ sig))
            (W (main_v87 : DevRef τ sig)) i) := by
  after_results_simp
  rfl

/-- The first weight matrix: slab 2 of its stack. -/
theorem host8_W0 (k j : Fin 128) :
    (after (hostOps8 (F := Ideal)) W (main_v104 : DevRef τ sig) : S128x128.Idx → EReal) (ix2 k j)
      = (W (main_arg3 : DevRef τ sig) : S3x128x128.Idx → EReal) (ix3 (2 : Fin 3) k j) := by
  after_results_simp
  exact Cert.HostLayout.slab_apply 2 (by decide) (W (main_arg3 : DevRef τ sig)) slices_S3x128x128_S1x128x128_2_0_0 shapeCasts_S1x128x128_S128x128 k j

/-- The second weight matrix: slab 2 of its stack. -/
theorem host8_W1 (k j : Fin 128) :
    (after (hostOps8 (F := Ideal)) W (main_v107 : DevRef τ sig) : S128x128.Idx → EReal) (ix2 k j)
      = (W (main_arg4 : DevRef τ sig) : S3x128x128.Idx → EReal) (ix3 (2 : Fin 3) k j) := by
  after_results_simp
  exact Cert.HostLayout.slab_apply 2 (by decide) (W (main_arg4 : DevRef τ sig)) slices_S3x128x128_S1x128x128_2_0_0 shapeCasts_S1x128x128_S128x128 k j

/-- Batch-norm row 1 of 6: row 2 of its table. -/
theorem host8_row0 (u : Fin 1) (j : Fin 128) :
    (after (hostOps8 (F := Ideal)) W (main_v110 : DevRef τ sig) : S1x128.Idx → EReal) (ix2 u j)
      = (W (main_arg5 : DevRef τ sig) : S3x128.Idx → EReal) (ix2 (2 : Fin 3) j) := by
  after_results_simp
  exact Cert.HostLayout.row_apply 2 (by decide) (W (main_arg5 : DevRef τ sig)) slices_S3x128_S1x128_2_0 shapeCasts_S1x128_S128 shapeCasts_S128_S1x128 u j

/-- Batch-norm row 2 of 6: row 2 of its table. -/
theorem host8_row1 (u : Fin 1) (j : Fin 128) :
    (after (hostOps8 (F := Ideal)) W (main_v113 : DevRef τ sig) : S1x128.Idx → EReal) (ix2 u j)
      = (W (main_arg6 : DevRef τ sig) : S3x128.Idx → EReal) (ix2 (2 : Fin 3) j) := by
  after_results_simp
  exact Cert.HostLayout.row_apply 2 (by decide) (W (main_arg6 : DevRef τ sig)) slices_S3x128_S1x128_2_0 shapeCasts_S1x128_S128 shapeCasts_S128_S1x128 u j

/-- Batch-norm row 3 of 6: row 2 of its table. -/
theorem host8_row2 (u : Fin 1) (j : Fin 128) :
    (after (hostOps8 (F := Ideal)) W (main_v116 : DevRef τ sig) : S1x128.Idx → EReal) (ix2 u j)
      = (W (main_arg7 : DevRef τ sig) : S3x128.Idx → EReal) (ix2 (2 : Fin 3) j) := by
  after_results_simp
  exact Cert.HostLayout.row_apply 2 (by decide) (W (main_arg7 : DevRef τ sig)) slices_S3x128_S1x128_2_0 shapeCasts_S1x128_S128 shapeCasts_S128_S1x128 u j

/-- Batch-norm row 4 of 6: row 2 of its table. -/
theorem host8_row3 (u : Fin 1) (j : Fin 128) :
    (after (hostOps8 (F := Ideal)) W (main_v119 : DevRef τ sig) : S1x128.Idx → EReal) (ix2 u j)
      = (W (main_arg8 : DevRef τ sig) : S3x128.Idx → EReal) (ix2 (2 : Fin 3) j) := by
  after_results_simp
  exact Cert.HostLayout.row_apply 2 (by decide) (W (main_arg8 : DevRef τ sig)) slices_S3x128_S1x128_2_0 shapeCasts_S1x128_S128 shapeCasts_S128_S1x128 u j

/-- Batch-norm row 5 of 6: row 2 of its table. -/
theorem host8_row4 (u : Fin 1) (j : Fin 128) :
    (after (hostOps8 (F := Ideal)) W (main_v122 : DevRef τ sig) : S1x128.Idx → EReal) (ix2 u j)
      = (W (main_arg9 : DevRef τ sig) : S3x128.Idx → EReal) (ix2 (2 : Fin 3) j) := by
  after_results_simp
  exact Cert.HostLayout.row_apply 2 (by decide) (W (main_arg9 : DevRef τ sig)) slices_S3x128_S1x128_2_0 shapeCasts_S1x128_S128 shapeCasts_S128_S1x128 u j

/-- Batch-norm row 6 of 6: row 2 of its table. -/
theorem host8_row5 (u : Fin 1) (j : Fin 128) :
    (after (hostOps8 (F := Ideal)) W (main_v125 : DevRef τ sig) : S1x128.Idx → EReal) (ix2 u j)
      = (W (main_arg10 : DevRef τ sig) : S3x128.Idx → EReal) (ix2 (2 : Fin 3) j) := by
  after_results_simp
  exact Cert.HostLayout.row_apply 2 (by decide) (W (main_arg10 : DevRef τ sig)) slices_S3x128_S1x128_2_0 shapeCasts_S1x128_S128 shapeCasts_S128_S1x128 u j

/-- A buffer the stretch does not write keeps its contents. -/
theorem host8_keep (r : Ref sig .tc) (h : r ∉ hostOps8_W) :
    after (hostOps8 (F := Ideal)) W (Proc.devRef .tc r) = W (Proc.devRef .tc r) :=
  after_of_writes_sub hostOps8 W hostOps8_writes h

end Cert.KernelIdeal.Hand

end
-- ==== Proof.ValCommon.lean ====
/-
  Constants the value lemmas of the kernel's regions share: the reciprocal of the row count as the rational it is
  named to be, the two printed f32 words (zero, eps), and 50000 rows as ten tiles of 5000.
-/
import Mathlib.Data.EReal.Inv
import Idealize.ShloMosaic.PureOps.Ideal

noncomputable section

namespace Cert.KernelIdeal.Hand

open Idealize.ShloMosaic

abbrev cW : EReal := ((1 / 50000 : ℝ) : EReal)
abbrev epsW : EReal := Ideal.ofBits .f32 0x3727C5AC#32
abbrev zW : EReal := Ideal.ofBits .f32 0x00000000#32
theorem h50000 : (50000 : ℕ) = (9 + 1) * 5000 := by norm_num

end Cert.KernelIdeal.Hand

end
-- ==== Proof.KNetDefs.lean ====
/-
  The kernel program as the network: the vocabulary. Each layer's regions compute Spec.layerK of the layer's input x
  and its slice of the parameters; the host stretch before them forms x = h + agg h from the previous layer's output
  (the edge rows prepared once, by the first stretch) and slices the parameters out of the arguments, which nothing
  writes. Here: the parameters, the aggregation and the features read off the launch memory; what every region and
  host stretch leaves alone up to the entry of layers 2 and 3; each host stretch's results as the network's terms;
  and the three layers chained, given each layer's output as the layer's value.
-/
import proofs.«180905_j29583734735286_1_alg».proof.Proof.KKeep
import proofs.«180905_j29583734735286_1_alg».proof.Proof.HostK0
import proofs.«180905_j29583734735286_1_alg».proof.Proof.HostK4
import proofs.«180905_j29583734735286_1_alg».proof.Proof.HostK8
import proofs.«180905_j29583734735286_1_alg».proof.Proof.Net
import proofs.«180905_j29583734735286_1_alg».proof.Proof.ValCommon

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The parameters and the aggregation, read off the launch memory. -/
def paramsK (c : Dev nD) : Cert.Net.Params 128 where
  W0 l k j := (W0 (F := Ideal) m ρ c (Proc.devRef .tc main_arg3) : S3x128x128.Idx → EReal) (ix3 l k j)
  W1 l k j := (W0 (F := Ideal) m ρ c (Proc.devRef .tc main_arg4) : S3x128x128.Idx → EReal) (ix3 l k j)
  g1 l j := (W0 (F := Ideal) m ρ c (Proc.devRef .tc main_arg5) : S3x128.Idx → EReal) (ix2 l j)
  b1 l j := (W0 (F := Ideal) m ρ c (Proc.devRef .tc main_arg6) : S3x128.Idx → EReal) (ix2 l j)
  g2 l j := (W0 (F := Ideal) m ρ c (Proc.devRef .tc main_arg7) : S3x128.Idx → EReal) (ix2 l j)
  b2 l j := (W0 (F := Ideal) m ρ c (Proc.devRef .tc main_arg8) : S3x128.Idx → EReal) (ix2 l j)
  g3 l j := (W0 (F := Ideal) m ρ c (Proc.devRef .tc main_arg9) : S3x128.Idx → EReal) (ix2 l j)
  b3 l j := (W0 (F := Ideal) m ρ c (Proc.devRef .tc main_arg10) : S3x128.Idx → EReal) (ix2 l j)
def aggK (c : Dev nD) (h : Fin 50000 → Fin 128 → EReal) (r : Fin 50000) (k : Fin 128) : EReal :=
  Cert.Agg.agg (W0 (F := Ideal) m ρ c (Proc.devRef .tc main_arg1)) (W0 (F := Ideal) m ρ c (Proc.devRef .tc main_arg2)) (fun i => h (i 0) (i 1)) (ix2 r k)
def h0K (c : Dev nD) (r : Fin 50000) (k : Fin 128) : EReal := (W0 (F := Ideal) m ρ c (Proc.devRef .tc main_arg0) : S50000x128.Idx → EReal) (ix2 r k)

theorem unix2 (A : S50000x128.Idx → EReal) : (fun i : S50000x128.Idx => (fun r k => A (ix2 r k)) (i 0) (i 1)) = A :=
  funext fun i => congrArg A (eq_ix2 i).symm
theorem kept5_main_v1 (c : Dev nD) : W5 (F := Ideal) m ρ c (Proc.devRef .tc main_v1) = W1 (F := Ideal) m ρ c (Proc.devRef .tc main_v1) :=
  (keepR3 (F := Ideal) m ρ c main_v1 (by decide)).trans <| (keepR2 (F := Ideal) m ρ c main_v1 (by decide) (by decide)).trans <| (keepR1 (F := Ideal) m ρ c main_v1 (by decide) (by decide)).trans <| (keepR0 (F := Ideal) m ρ c main_v1 (by decide) (by decide))
theorem kept5_main_v3 (c : Dev nD) : W5 (F := Ideal) m ρ c (Proc.devRef .tc main_v3) = W1 (F := Ideal) m ρ c (Proc.devRef .tc main_v3) :=
  (keepR3 (F := Ideal) m ρ c main_v3 (by decide)).trans <| (keepR2 (F := Ideal) m ρ c main_v3 (by decide) (by decide)).trans <| (keepR1 (F := Ideal) m ρ c main_v3 (by decide) (by decide)).trans <| (keepR0 (F := Ideal) m ρ c main_v3 (by decide) (by decide))
theorem kept5_main_arg2 (c : Dev nD) : W5 (F := Ideal) m ρ c (Proc.devRef .tc main_arg2) = W0 (F := Ideal) m ρ c (Proc.devRef .tc main_arg2) :=
  (keepR3 (F := Ideal) m ρ c main_arg2 (by decide)).trans <| (keepR2 (F := Ideal) m ρ c main_arg2 (by decide) (by decide)).trans <| (keepR1 (F := Ideal) m ρ c main_arg2 (by decide) (by decide)).trans <| (keepR0 (F := Ideal) m ρ c main_arg2 (by decide) (by decide)).trans <| (W1_keep (F := Ideal) m ρ c main_arg2 (by decide))
theorem kept5_main_arg3 (c : Dev nD) : W5 (F := Ideal) m ρ c (Proc.devRef .tc main_arg3) = W0 (F := Ideal) m ρ c (Proc.devRef .tc main_arg3) :=
  (keepR3 (F := Ideal) m ρ c main_arg3 (by decide)).trans <| (keepR2 (F := Ideal) m ρ c main_arg3 (by decide) (by decide)).trans <| (keepR1 (F := Ideal) m ρ c main_arg3 (by decide) (by decide)).trans <| (keepR0 (F := Ideal) m ρ c main_arg3 (by decide) (by decide)).trans <| (W1_keep (F := Ideal) m ρ c main_arg3 (by decide))
theorem kept5_main_arg4 (c : Dev nD) : W5 (F := Ideal) m ρ c (Proc.devRef .tc main_arg4) = W0 (F := Ideal) m ρ c (Proc.devRef .tc main_arg4) :=
  (keepR3 (F := Ideal) m ρ c main_arg4 (by decide)).trans <| (keepR2 (F := Ideal) m ρ c main_arg4 (by decide) (by decide)).trans <| (keepR1 (F := Ideal) m ρ c main_arg4 (by decide) (by decide)).trans <| (keepR0 (F := Ideal) m ρ c main_arg4 (by decide) (by decide)).trans <| (W1_keep (F := Ideal) m ρ c main_arg4 (by decide))
theorem kept5_main_arg5 (c : Dev nD) : W5 (F := Ideal) m ρ c (Proc.devRef .tc main_arg5) = W0 (F := Ideal) m ρ c (Proc.devRef .tc main_arg5) :=
  (keepR3 (F := Ideal) m ρ c main_arg5 (by decide)).trans <| (keepR2 (F := Ideal) m ρ c main_arg5 (by decide) (by decide)).trans <| (keepR1 (F := Ideal) m ρ c main_arg5 (by decide) (by decide)).trans <| (keepR0 (F := Ideal) m ρ c main_arg5 (by decide) (by decide)).trans <| (W1_keep (F := Ideal) m ρ c main_arg5 (by decide))
theorem kept5_main_arg6 (c : Dev nD) : W5 (F := Ideal) m ρ c (Proc.devRef .tc main_arg6) = W0 (F := Ideal) m ρ c (Proc.devRef .tc main_arg6) :=
  (keepR3 (F := Ideal) m ρ c main_arg6 (by decide)).trans <| (keepR2 (F := Ideal) m ρ c main_arg6 (by decide) (by decide)).trans <| (keepR1 (F := Ideal) m ρ c main_arg6 (by decide) (by decide)).trans <| (keepR0 (F := Ideal) m ρ c main_arg6 (by decide) (by decide)).trans <| (W1_keep (F := Ideal) m ρ c main_arg6 (by decide))
theorem kept5_main_arg7 (c : Dev nD) : W5 (F := Ideal) m ρ c (Proc.devRef .tc main_arg7) = W0 (F := Ideal) m ρ c (Proc.devRef .tc main_arg7) :=
  (keepR3 (F := Ideal) m ρ c main_arg7 (by decide)).trans <| (keepR2 (F := Ideal) m ρ c main_arg7 (by decide) (by decide)).trans <| (keepR1 (F := Ideal) m ρ c main_arg7 (by decide) (by decide)).trans <| (keepR0 (F := Ideal) m ρ c main_arg7 (by decide) (by decide)).trans <| (W1_keep (F := Ideal) m ρ c main_arg7 (by decide))
theorem kept5_main_arg8 (c : Dev nD) : W5 (F := Ideal) m ρ c (Proc.devRef .tc main_arg8) = W0 (F := Ideal) m ρ c (Proc.devRef .tc main_arg8) :=
  (keepR3 (F := Ideal) m ρ c main_arg8 (by decide)).trans <| (keepR2 (F := Ideal) m ρ c main_arg8 (by decide) (by decide)).trans <| (keepR1 (F := Ideal) m ρ c main_arg8 (by decide) (by decide)).trans <| (keepR0 (F := Ideal) m ρ c main_arg8 (by decide) (by decide)).trans <| (W1_keep (F := Ideal) m ρ c main_arg8 (by decide))
theorem kept5_main_arg9 (c : Dev nD) : W5 (F := Ideal) m ρ c (Proc.devRef .tc main_arg9) = W0 (F := Ideal) m ρ c (Proc.devRef .tc main_arg9) :=
  (keepR3 (F := Ideal) m ρ c main_arg9 (by decide)).trans <| (keepR2 (F := Ideal) m ρ c main_arg9 (by decide) (by decide)).trans <| (keepR1 (F := Ideal) m ρ c main_arg9 (by decide) (by decide)).trans <| (keepR0 (F := Ideal) m ρ c main_arg9 (by decide) (by decide)).trans <| (W1_keep (F := Ideal) m ρ c main_arg9 (by decide))
theorem kept5_main_arg10 (c : Dev nD) : W5 (F := Ideal) m ρ c (Proc.devRef .tc main_arg10) = W0 (F := Ideal) m ρ c (Proc.devRef .tc main_arg10) :=
  (keepR3 (F := Ideal) m ρ c main_arg10 (by decide)).trans <| (keepR2 (F := Ideal) m ρ c main_arg10 (by decide) (by decide)).trans <| (keepR1 (F := Ideal) m ρ c main_arg10 (by decide) (by decide)).trans <| (keepR0 (F := Ideal) m ρ c main_arg10 (by decide) (by decide)).trans <| (W1_keep (F := Ideal) m ρ c main_arg10 (by decide))
theorem kept10_main_v1 (c : Dev nD) : W10 (F := Ideal) m ρ c (Proc.devRef .tc main_v1) = W1 (F := Ideal) m ρ c (Proc.devRef .tc main_v1) :=
  (keepR7 (F := Ideal) m ρ c main_v1 (by decide)).trans <| (keepR6 (F := Ideal) m ρ c main_v1 (by decide) (by decide)).trans <| (keepR5 (F := Ideal) m ρ c main_v1 (by decide) (by decide)).trans <| (keepR4 (F := Ideal) m ρ c main_v1 (by decide) (by decide)).trans <| (W6_keep (F := Ideal) m ρ c main_v1 (by decide)).trans <| (keepR3 (F := Ideal) m ρ c main_v1 (by decide)).trans <| (keepR2 (F := Ideal) m ρ c main_v1 (by decide) (by decide)).trans <| (keepR1 (F := Ideal) m ρ c main_v1 (by decide) (by decide)).trans <| (keepR0 (F := Ideal) m ρ c main_v1 (by decide) (by decide))
theorem kept10_main_v3 (c : Dev nD) : W10 (F := Ideal) m ρ c (Proc.devRef .tc main_v3) = W1 (F := Ideal) m ρ c (Proc.devRef .tc main_v3) :=
  (keepR7 (F := Ideal) m ρ c main_v3 (by decide)).trans <| (keepR6 (F := Ideal) m ρ c main_v3 (by decide) (by decide)).trans <| (keepR5 (F := Ideal) m ρ c main_v3 (by decide) (by decide)).trans <| (keepR4 (F := Ideal) m ρ c main_v3 (by decide) (by decide)).trans <| (W6_keep (F := Ideal) m ρ c main_v3 (by decide)).trans <| (keepR3 (F := Ideal) m ρ c main_v3 (by decide)).trans <| (keepR2 (F := Ideal) m ρ c main_v3 (by decide) (by decide)).trans <| (keepR1 (F := Ideal) m ρ c main_v3 (by decide) (by decide)).trans <| (keepR0 (F := Ideal) m ρ c main_v3 (by decide) (by decide))
theorem kept10_main_arg2 (c : Dev nD) : W10 (F := Ideal) m ρ c (Proc.devRef .tc main_arg2) = W0 (F := Ideal) m ρ c (Proc.devRef .tc main_arg2) :=
  (keepR7 (F := Ideal) m ρ c main_arg2 (by decide)).trans <| (keepR6 (F := Ideal) m ρ c main_arg2 (by decide) (by decide)).trans <| (keepR5 (F := Ideal) m ρ c main_arg2 (by decide) (by decide)).trans <| (keepR4 (F := Ideal) m ρ c main_arg2 (by decide) (by decide)).trans <| (W6_keep (F := Ideal) m ρ c main_arg2 (by decide)).trans <| (keepR3 (F := Ideal) m ρ c main_arg2 (by decide)).trans <| (keepR2 (F := Ideal) m ρ c main_arg2 (by decide) (by decide)).trans <| (keepR1 (F := Ideal) m ρ c main_arg2 (by decide) (by decide)).trans <| (keepR0 (F := Ideal) m ρ c main_arg2 (by decide) (by decide)).trans <| (W1_keep (F := Ideal) m ρ c main_arg2 (by decide))
theorem kept10_main_arg3 (c : Dev nD) : W10 (F := Ideal) m ρ c (Proc.devRef .tc main_arg3) = W0 (F := Ideal) m ρ c (Proc.devRef .tc main_arg3) :=
  (keepR7 (F := Ideal) m ρ c main_arg3 (by decide)).trans <| (keepR6 (F := Ideal) m ρ c main_arg3 (by decide) (by decide)).trans <| (keepR5 (F := Ideal) m ρ c main_arg3 (by decide) (by decide)).trans <| (keepR4 (F := Ideal) m ρ c main_arg3 (by decide) (by decide)).trans <| (W6_keep (F := Ideal) m ρ c main_arg3 (by decide)).trans <| (keepR3 (F := Ideal) m ρ c main_arg3 (by decide)).trans <| (keepR2 (F := Ideal) m ρ c main_arg3 (by decide) (by decide)).trans <| (keepR1 (F := Ideal) m ρ c main_arg3 (by decide) (by decide)).trans <| (keepR0 (F := Ideal) m ρ c main_arg3 (by decide) (by decide)).trans <| (W1_keep (F := Ideal) m ρ c main_arg3 (by decide))
theorem kept10_main_arg4 (c : Dev nD) : W10 (F := Ideal) m ρ c (Proc.devRef .tc main_arg4) = W0 (F := Ideal) m ρ c (Proc.devRef .tc main_arg4) :=
  (keepR7 (F := Ideal) m ρ c main_arg4 (by decide)).trans <| (keepR6 (F := Ideal) m ρ c main_arg4 (by decide) (by decide)).trans <| (keepR5 (F := Ideal) m ρ c main_arg4 (by decide) (by decide)).trans <| (keepR4 (F := Ideal) m ρ c main_arg4 (by decide) (by decide)).trans <| (W6_keep (F := Ideal) m ρ c main_arg4 (by decide)).trans <| (keepR3 (F := Ideal) m ρ c main_arg4 (by decide)).trans <| (keepR2 (F := Ideal) m ρ c main_arg4 (by decide) (by decide)).trans <| (keepR1 (F := Ideal) m ρ c main_arg4 (by decide) (by decide)).trans <| (keepR0 (F := Ideal) m ρ c main_arg4 (by decide) (by decide)).trans <| (W1_keep (F := Ideal) m ρ c main_arg4 (by decide))
theorem kept10_main_arg5 (c : Dev nD) : W10 (F := Ideal) m ρ c (Proc.devRef .tc main_arg5) = W0 (F := Ideal) m ρ c (Proc.devRef .tc main_arg5) :=
  (keepR7 (F := Ideal) m ρ c main_arg5 (by decide)).trans <| (keepR6 (F := Ideal) m ρ c main_arg5 (by decide) (by decide)).trans <| (keepR5 (F := Ideal) m ρ c main_arg5 (by decide) (by decide)).trans <| (keepR4 (F := Ideal) m ρ c main_arg5 (by decide) (by decide)).trans <| (W6_keep (F := Ideal) m ρ c main_arg5 (by decide)).trans <| (keepR3 (F := Ideal) m ρ c main_arg5 (by decide)).trans <| (keepR2 (F := Ideal) m ρ c main_arg5 (by decide) (by decide)).trans <| (keepR1 (F := Ideal) m ρ c main_arg5 (by decide) (by decide)).trans <| (keepR0 (F := Ideal) m ρ c main_arg5 (by decide) (by decide)).trans <| (W1_keep (F := Ideal) m ρ c main_arg5 (by decide))
theorem kept10_main_arg6 (c : Dev nD) : W10 (F := Ideal) m ρ c (Proc.devRef .tc main_arg6) = W0 (F := Ideal) m ρ c (Proc.devRef .tc main_arg6) :=
  (keepR7 (F := Ideal) m ρ c main_arg6 (by decide)).trans <| (keepR6 (F := Ideal) m ρ c main_arg6 (by decide) (by decide)).trans <| (keepR5 (F := Ideal) m ρ c main_arg6 (by decide) (by decide)).trans <| (keepR4 (F := Ideal) m ρ c main_arg6 (by decide) (by decide)).trans <| (W6_keep (F := Ideal) m ρ c main_arg6 (by decide)).trans <| (keepR3 (F := Ideal) m ρ c main_arg6 (by decide)).trans <| (keepR2 (F := Ideal) m ρ c main_arg6 (by decide) (by decide)).trans <| (keepR1 (F := Ideal) m ρ c main_arg6 (by decide) (by decide)).trans <| (keepR0 (F := Ideal) m ρ c main_arg6 (by decide) (by decide)).trans <| (W1_keep (F := Ideal) m ρ c main_arg6 (by decide))
theorem kept10_main_arg7 (c : Dev nD) : W10 (F := Ideal) m ρ c (Proc.devRef .tc main_arg7) = W0 (F := Ideal) m ρ c (Proc.devRef .tc main_arg7) :=
  (keepR7 (F := Ideal) m ρ c main_arg7 (by decide)).trans <| (keepR6 (F := Ideal) m ρ c main_arg7 (by decide) (by decide)).trans <| (keepR5 (F := Ideal) m ρ c main_arg7 (by decide) (by decide)).trans <| (keepR4 (F := Ideal) m ρ c main_arg7 (by decide) (by decide)).trans <| (W6_keep (F := Ideal) m ρ c main_arg7 (by decide)).trans <| (keepR3 (F := Ideal) m ρ c main_arg7 (by decide)).trans <| (keepR2 (F := Ideal) m ρ c main_arg7 (by decide) (by decide)).trans <| (keepR1 (F := Ideal) m ρ c main_arg7 (by decide) (by decide)).trans <| (keepR0 (F := Ideal) m ρ c main_arg7 (by decide) (by decide)).trans <| (W1_keep (F := Ideal) m ρ c main_arg7 (by decide))
theorem kept10_main_arg8 (c : Dev nD) : W10 (F := Ideal) m ρ c (Proc.devRef .tc main_arg8) = W0 (F := Ideal) m ρ c (Proc.devRef .tc main_arg8) :=
  (keepR7 (F := Ideal) m ρ c main_arg8 (by decide)).trans <| (keepR6 (F := Ideal) m ρ c main_arg8 (by decide) (by decide)).trans <| (keepR5 (F := Ideal) m ρ c main_arg8 (by decide) (by decide)).trans <| (keepR4 (F := Ideal) m ρ c main_arg8 (by decide) (by decide)).trans <| (W6_keep (F := Ideal) m ρ c main_arg8 (by decide)).trans <| (keepR3 (F := Ideal) m ρ c main_arg8 (by decide)).trans <| (keepR2 (F := Ideal) m ρ c main_arg8 (by decide) (by decide)).trans <| (keepR1 (F := Ideal) m ρ c main_arg8 (by decide) (by decide)).trans <| (keepR0 (F := Ideal) m ρ c main_arg8 (by decide) (by decide)).trans <| (W1_keep (F := Ideal) m ρ c main_arg8 (by decide))
theorem kept10_main_arg9 (c : Dev nD) : W10 (F := Ideal) m ρ c (Proc.devRef .tc main_arg9) = W0 (F := Ideal) m ρ c (Proc.devRef .tc main_arg9) :=
  (keepR7 (F := Ideal) m ρ c main_arg9 (by decide)).trans <| (keepR6 (F := Ideal) m ρ c main_arg9 (by decide) (by decide)).trans <| (keepR5 (F := Ideal) m ρ c main_arg9 (by decide) (by decide)).trans <| (keepR4 (F := Ideal) m ρ c main_arg9 (by decide) (by decide)).trans <| (W6_keep (F := Ideal) m ρ c main_arg9 (by decide)).trans <| (keepR3 (F := Ideal) m ρ c main_arg9 (by decide)).trans <| (keepR2 (F := Ideal) m ρ c main_arg9 (by decide) (by decide)).trans <| (keepR1 (F := Ideal) m ρ c main_arg9 (by decide) (by decide)).trans <| (keepR0 (F := Ideal) m ρ c main_arg9 (by decide) (by decide)).trans <| (W1_keep (F := Ideal) m ρ c main_arg9 (by decide))
theorem kept10_main_arg10 (c : Dev nD) : W10 (F := Ideal) m ρ c (Proc.devRef .tc main_arg10) = W0 (F := Ideal) m ρ c (Proc.devRef .tc main_arg10) :=
  (keepR7 (F := Ideal) m ρ c main_arg10 (by decide)).trans <| (keepR6 (F := Ideal) m ρ c main_arg10 (by decide) (by decide)).trans <| (keepR5 (F := Ideal) m ρ c main_arg10 (by decide) (by decide)).trans <| (keepR4 (F := Ideal) m ρ c main_arg10 (by decide) (by decide)).trans <| (W6_keep (F := Ideal) m ρ c main_arg10 (by decide)).trans <| (keepR3 (F := Ideal) m ρ c main_arg10 (by decide)).trans <| (keepR2 (F := Ideal) m ρ c main_arg10 (by decide) (by decide)).trans <| (keepR1 (F := Ideal) m ρ c main_arg10 (by decide) (by decide)).trans <| (keepR0 (F := Ideal) m ρ c main_arg10 (by decide) (by decide)).trans <| (W1_keep (F := Ideal) m ρ c main_arg10 (by decide))

/-! ### The layer function respects equal arguments -/

theorem layerK_congr (z cc eps : EReal) (fin : Bool) {x x' : Fin 50000 → Fin 128 → EReal} {A A' B B' : Fin 128 → Fin 128 → EReal}
    {g1 g1' b1 b1' g2 g2' b2 b2' g3 g3' b3 b3' : Fin 128 → EReal} (hx : x = x') (hA : A = A') (hB : B = B')
    (h1 : g1 = g1') (h2 : b1 = b1') (h3 : g2 = g2') (h4 : b2 = b2') (h5 : g3 = g3') (h6 : b3 = b3') :
    Cert.Spec.layerK z cc eps fin x A B g1 b1 g2 b2 g3 b3 = Cert.Spec.layerK z cc eps fin x' A' B' g1' b1' g2' b2' g3' b3' := by
  subst hx hA hB h1 h2 h3 h4 h5 h6; rfl

/-! ### The prepared index rows at the entry of layers 2 and 3 -/

theorem w1_v1 (c : Dev nD) : W1 (F := Ideal) m ρ c (Proc.devRef .tc main_v1) = Cert.Agg.src (W0 (F := Ideal) m ρ c (Proc.devRef .tc main_arg1)) :=
  host0_src (W0 (F := Ideal) m ρ c)
theorem w1_v3 (c : Dev nD) : W1 (F := Ideal) m ρ c (Proc.devRef .tc main_v3) = Cert.Agg.dst (W0 (F := Ideal) m ρ c (Proc.devRef .tc main_arg1)) :=
  host0_dst (W0 (F := Ideal) m ρ c)
theorem w5_v1 (c : Dev nD) : W5 (F := Ideal) m ρ c (Proc.devRef .tc main_v1) = Cert.Agg.src (W0 (F := Ideal) m ρ c (Proc.devRef .tc main_arg1)) :=
  (kept5_main_v1 m ρ c).trans (w1_v1 m ρ c)
theorem w5_v3 (c : Dev nD) : W5 (F := Ideal) m ρ c (Proc.devRef .tc main_v3) = Cert.Agg.dst (W0 (F := Ideal) m ρ c (Proc.devRef .tc main_arg1)) :=
  (kept5_main_v3 m ρ c).trans (w1_v3 m ρ c)
theorem w10_v1 (c : Dev nD) : W10 (F := Ideal) m ρ c (Proc.devRef .tc main_v1) = Cert.Agg.src (W0 (F := Ideal) m ρ c (Proc.devRef .tc main_arg1)) :=
  (kept10_main_v1 m ρ c).trans (w1_v1 m ρ c)
theorem w10_v3 (c : Dev nD) : W10 (F := Ideal) m ρ c (Proc.devRef .tc main_v3) = Cert.Agg.dst (W0 (F := Ideal) m ρ c (Proc.devRef .tc main_arg1)) :=
  (kept10_main_v3 m ρ c).trans (w1_v3 m ρ c)

/-! ### What each host stretch hands its layer, as the network's vocabulary -/

/-- The aggregation of the launch features is the shared function at the launch arrays. -/
theorem aggK_h0 (c : Dev nD) (r : Fin 50000) (k : Fin 128) :
    aggK m ρ c (h0K m ρ c) r k
      = Cert.Agg.agg (W0 (F := Ideal) m ρ c (Proc.devRef .tc main_arg1)) (W0 (F := Ideal) m ρ c (Proc.devRef .tc main_arg2))
          (W0 (F := Ideal) m ρ c (Proc.devRef .tc main_arg0)) (ix2 r k) := by
  unfold aggK
  rw [show (fun i : S50000x128.Idx => h0K m ρ c (i 0) (i 1))
      = (W0 (F := Ideal) m ρ c (Proc.devRef .tc main_arg0) : S50000x128.Idx → EReal) from unix2 _]

/-- Layer 1's input. -/
theorem x_fn0 (c : Dev nD) :
    (fun r k => (W1 (F := Ideal) m ρ c (Proc.devRef .tc main_v17) : S50000x128.Idx → EReal) (ix2 r k)) = Cert.Net.xOf (aggK m ρ c) (h0K m ρ c) := by
  funext r k
  refine (congrFun (host0_x (W0 (F := Ideal) m ρ c)) (ix2 r k)).trans ?_
  show _ = h0K m ρ c r k + aggK m ρ c (h0K m ρ c) r k
  rw [aggK_h0]
  rfl

/-- Layer 2's input, given the previous layer's output array as a function of row and column. -/
theorem x_fn1 (c : Dev nD) (H : Fin 50000 → Fin 128 → EReal)
    (hH : (W5 (F := Ideal) m ρ c (Proc.devRef .tc main_v45) : S50000x128.Idx → EReal) = fun i => H (i 0) (i 1)) :
    (fun r k => (W6 (F := Ideal) m ρ c (Proc.devRef .tc main_v59) : S50000x128.Idx → EReal) (ix2 r k)) = Cert.Net.xOf (aggK m ρ c) H := by
  funext r k
  refine (congrFun (host4_x (W5 (F := Ideal) m ρ c)) (ix2 r k)).trans ?_
  rw [w5_v1, w5_v3, kept5_main_arg2, hH]
  rfl

/-- Layer 3's input, given the previous layer's output array as a function of row and column. -/
theorem x_fn2 (c : Dev nD) (H : Fin 50000 → Fin 128 → EReal)
    (hH : (W10 (F := Ideal) m ρ c (Proc.devRef .tc main_v87) : S50000x128.Idx → EReal) = fun i => H (i 0) (i 1)) :
    (fun r k => (W11 (F := Ideal) m ρ c (Proc.devRef .tc main_v101) : S50000x128.Idx → EReal) (ix2 r k)) = Cert.Net.xOf (aggK m ρ c) H := by
  funext r k
  refine (congrFun (host8_x (W10 (F := Ideal) m ρ c)) (ix2 r k)).trans ?_
  rw [w10_v1, w10_v3, kept10_main_arg2, hH]
  rfl

/-- Layer 1's weights and batch-norm rows are the parameters' slice 0. -/
theorem w0_fn0 (c : Dev nD) : (fun k j => (W1 (F := Ideal) m ρ c (Proc.devRef .tc main_v20) : S128x128.Idx → EReal) (ix2 k j)) = (paramsK m ρ c).W0 0 :=
  funext fun k => funext fun j => (host0_W0 (W0 (F := Ideal) m ρ c) k j)
theorem w1_fn0 (c : Dev nD) : (fun k j => (W1 (F := Ideal) m ρ c (Proc.devRef .tc main_v23) : S128x128.Idx → EReal) (ix2 k j)) = (paramsK m ρ c).W1 0 :=
  funext fun k => funext fun j => (host0_W1 (W0 (F := Ideal) m ρ c) k j)
theorem g1_fn0 (c : Dev nD) : (fun j => (W1 (F := Ideal) m ρ c (Proc.devRef .tc main_v26) : S1x128.Idx → EReal) (ix2 ⟨0, Nat.one_pos⟩ j)) = (paramsK m ρ c).g1 0 :=
  funext fun j => (host0_row0 (W0 (F := Ideal) m ρ c) ⟨0, Nat.one_pos⟩ j)
theorem b1_fn0 (c : Dev nD) : (fun j => (W1 (F := Ideal) m ρ c (Proc.devRef .tc main_v29) : S1x128.Idx → EReal) (ix2 ⟨0, Nat.one_pos⟩ j)) = (paramsK m ρ c).b1 0 :=
  funext fun j => (host0_row1 (W0 (F := Ideal) m ρ c) ⟨0, Nat.one_pos⟩ j)
theorem g2_fn0 (c : Dev nD) : (fun j => (W1 (F := Ideal) m ρ c (Proc.devRef .tc main_v32) : S1x128.Idx → EReal) (ix2 ⟨0, Nat.one_pos⟩ j)) = (paramsK m ρ c).g2 0 :=
  funext fun j => (host0_row2 (W0 (F := Ideal) m ρ c) ⟨0, Nat.one_pos⟩ j)
theorem b2_fn0 (c : Dev nD) : (fun j => (W1 (F := Ideal) m ρ c (Proc.devRef .tc main_v35) : S1x128.Idx → EReal) (ix2 ⟨0, Nat.one_pos⟩ j)) = (paramsK m ρ c).b2 0 :=
  funext fun j => (host0_row3 (W0 (F := Ideal) m ρ c) ⟨0, Nat.one_pos⟩ j)
theorem g3_fn0 (c : Dev nD) : (fun j => (W1 (F := Ideal) m ρ c (Proc.devRef .tc main_v38) : S1x128.Idx → EReal) (ix2 ⟨0, Nat.one_pos⟩ j)) = (paramsK m ρ c).g3 0 :=
  funext fun j => (host0_row4 (W0 (F := Ideal) m ρ c) ⟨0, Nat.one_pos⟩ j)
theorem b3_fn0 (c : Dev nD) : (fun j => (W1 (F := Ideal) m ρ c (Proc.devRef .tc main_v41) : S1x128.Idx → EReal) (ix2 ⟨0, Nat.one_pos⟩ j)) = (paramsK m ρ c).b3 0 :=
  funext fun j => (host0_row5 (W0 (F := Ideal) m ρ c) ⟨0, Nat.one_pos⟩ j)

/-- Layer 2's weights and batch-norm rows are the parameters' slice 1. -/
theorem w0_fn1 (c : Dev nD) : (fun k j => (W6 (F := Ideal) m ρ c (Proc.devRef .tc main_v62) : S128x128.Idx → EReal) (ix2 k j)) = (paramsK m ρ c).W0 1 :=
  funext fun k => funext fun j => (host4_W0 (W5 (F := Ideal) m ρ c) k j).trans (congrFun (kept5_main_arg3 m ρ c) (ix3 (1 : Fin 3) k j))
theorem w1_fn1 (c : Dev nD) : (fun k j => (W6 (F := Ideal) m ρ c (Proc.devRef .tc main_v65) : S128x128.Idx → EReal) (ix2 k j)) = (paramsK m ρ c).W1 1 :=
  funext fun k => funext fun j => (host4_W1 (W5 (F := Ideal) m ρ c) k j).trans (congrFun (kept5_main_arg4 m ρ c) (ix3 (1 : Fin 3) k j))
theorem g1_fn1 (c : Dev nD) : (fun j => (W6 (F := Ideal) m ρ c (Proc.devRef .tc main_v68) : S1x128.Idx → EReal) (ix2 ⟨0, Nat.one_pos⟩ j)) = (paramsK m ρ c).g1 1 :=
  funext fun j => (host4_row0 (W5 (F := Ideal) m ρ c) ⟨0, Nat.one_pos⟩ j).trans (congrFun (kept5_main_arg5 m ρ c) (ix2 (1 : Fin 3) j))
theorem b1_fn1 (c : Dev nD) : (fun j => (W6 (F := Ideal) m ρ c (Proc.devRef .tc main_v71) : S1x128.Idx → EReal) (ix2 ⟨0, Nat.one_pos⟩ j)) = (paramsK m ρ c).b1 1 :=
  funext fun j => (host4_row1 (W5 (F := Ideal) m ρ c) ⟨0, Nat.one_pos⟩ j).trans (congrFun (kept5_main_arg6 m ρ c) (ix2 (1 : Fin 3) j))
theorem g2_fn1 (c : Dev nD) : (fun j => (W6 (F := Ideal) m ρ c (Proc.devRef .tc main_v74) : S1x128.Idx → EReal) (ix2 ⟨0, Nat.one_pos⟩ j)) = (paramsK m ρ c).g2 1 :=
  funext fun j => (host4_row2 (W5 (F := Ideal) m ρ c) ⟨0, Nat.one_pos⟩ j).trans (congrFun (kept5_main_arg7 m ρ c) (ix2 (1 : Fin 3) j))
theorem b2_fn1 (c : Dev nD) : (fun j => (W6 (F := Ideal) m ρ c (Proc.devRef .tc main_v77) : S1x128.Idx → EReal) (ix2 ⟨0, Nat.one_pos⟩ j)) = (paramsK m ρ c).b2 1 :=
  funext fun j => (host4_row3 (W5 (F := Ideal) m ρ c) ⟨0, Nat.one_pos⟩ j).trans (congrFun (kept5_main_arg8 m ρ c) (ix2 (1 : Fin 3) j))
theorem g3_fn1 (c : Dev nD) : (fun j => (W6 (F := Ideal) m ρ c (Proc.devRef .tc main_v80) : S1x128.Idx → EReal) (ix2 ⟨0, Nat.one_pos⟩ j)) = (paramsK m ρ c).g3 1 :=
  funext fun j => (host4_row4 (W5 (F := Ideal) m ρ c) ⟨0, Nat.one_pos⟩ j).trans (congrFun (kept5_main_arg9 m ρ c) (ix2 (1 : Fin 3) j))
theorem b3_fn1 (c : Dev nD) : (fun j => (W6 (F := Ideal) m ρ c (Proc.devRef .tc main_v83) : S1x128.Idx → EReal) (ix2 ⟨0, Nat.one_pos⟩ j)) = (paramsK m ρ c).b3 1 :=
  funext fun j => (host4_row5 (W5 (F := Ideal) m ρ c) ⟨0, Nat.one_pos⟩ j).trans (congrFun (kept5_main_arg10 m ρ c) (ix2 (1 : Fin 3) j))

/-- Layer 3's weights and batch-norm rows are the parameters' slice 2. -/
theorem w0_fn2 (c : Dev nD) : (fun k j => (W11 (F := Ideal) m ρ c (Proc.devRef .tc main_v104) : S128x128.Idx → EReal) (ix2 k j)) = (paramsK m ρ c).W0 2 :=
  funext fun k => funext fun j => (host8_W0 (W10 (F := Ideal) m ρ c) k j).trans (congrFun (kept10_main_arg3 m ρ c) (ix3 (2 : Fin 3) k j))
theorem w1_fn2 (c : Dev nD) : (fun k j => (W11 (F := Ideal) m ρ c (Proc.devRef .tc main_v107) : S128x128.Idx → EReal) (ix2 k j)) = (paramsK m ρ c).W1 2 :=
  funext fun k => funext fun j => (host8_W1 (W10 (F := Ideal) m ρ c) k j).trans (congrFun (kept10_main_arg4 m ρ c) (ix3 (2 : Fin 3) k j))
theorem g1_fn2 (c : Dev nD) : (fun j => (W11 (F := Ideal) m ρ c (Proc.devRef .tc main_v110) : S1x128.Idx → EReal) (ix2 ⟨0, Nat.one_pos⟩ j)) = (paramsK m ρ c).g1 2 :=
  funext fun j => (host8_row0 (W10 (F := Ideal) m ρ c) ⟨0, Nat.one_pos⟩ j).trans (congrFun (kept10_main_arg5 m ρ c) (ix2 (2 : Fin 3) j))
theorem b1_fn2 (c : Dev nD) : (fun j => (W11 (F := Ideal) m ρ c (Proc.devRef .tc main_v113) : S1x128.Idx → EReal) (ix2 ⟨0, Nat.one_pos⟩ j)) = (paramsK m ρ c).b1 2 :=
  funext fun j => (host8_row1 (W10 (F := Ideal) m ρ c) ⟨0, Nat.one_pos⟩ j).trans (congrFun (kept10_main_arg6 m ρ c) (ix2 (2 : Fin 3) j))
theorem g2_fn2 (c : Dev nD) : (fun j => (W11 (F := Ideal) m ρ c (Proc.devRef .tc main_v116) : S1x128.Idx → EReal) (ix2 ⟨0, Nat.one_pos⟩ j)) = (paramsK m ρ c).g2 2 :=
  funext fun j => (host8_row2 (W10 (F := Ideal) m ρ c) ⟨0, Nat.one_pos⟩ j).trans (congrFun (kept10_main_arg7 m ρ c) (ix2 (2 : Fin 3) j))
theorem b2_fn2 (c : Dev nD) : (fun j => (W11 (F := Ideal) m ρ c (Proc.devRef .tc main_v119) : S1x128.Idx → EReal) (ix2 ⟨0, Nat.one_pos⟩ j)) = (paramsK m ρ c).b2 2 :=
  funext fun j => (host8_row3 (W10 (F := Ideal) m ρ c) ⟨0, Nat.one_pos⟩ j).trans (congrFun (kept10_main_arg8 m ρ c) (ix2 (2 : Fin 3) j))
theorem g3_fn2 (c : Dev nD) : (fun j => (W11 (F := Ideal) m ρ c (Proc.devRef .tc main_v122) : S1x128.Idx → EReal) (ix2 ⟨0, Nat.one_pos⟩ j)) = (paramsK m ρ c).g3 2 :=
  funext fun j => (host8_row4 (W10 (F := Ideal) m ρ c) ⟨0, Nat.one_pos⟩ j).trans (congrFun (kept10_main_arg9 m ρ c) (ix2 (2 : Fin 3) j))
theorem b3_fn2 (c : Dev nD) : (fun j => (W11 (F := Ideal) m ρ c (Proc.devRef .tc main_v125) : S1x128.Idx → EReal) (ix2 ⟨0, Nat.one_pos⟩ j)) = (paramsK m ρ c).b3 2 :=
  funext fun j => (host8_row5 (W10 (F := Ideal) m ρ c) ⟨0, Nat.one_pos⟩ j).trans (congrFun (kept10_main_arg10 m ρ c) (ix2 (2 : Fin 3) j))

/-! ### The three layers chained -/

/-- Given each layer's output array as the layer's value on the arrays its host stretch left, the result array is
    the network of the launch arrays. -/
theorem kernel_net_of (c : Dev nD)
    (L0 : ∀ (r : Fin 50000) (j : Fin 128), (W5 (F := Ideal) m ρ c (Proc.devRef .tc main_v45) : S50000x128.Idx → EReal) (ix2 r j)
      = Cert.Spec.layerK zW cW epsW true
          (fun r k => (W1 (F := Ideal) m ρ c (Proc.devRef .tc main_v17) : S50000x128.Idx → EReal) (ix2 r k))
          (fun k j => (W1 (F := Ideal) m ρ c (Proc.devRef .tc main_v20) : S128x128.Idx → EReal) (ix2 k j))
          (fun k j => (W1 (F := Ideal) m ρ c (Proc.devRef .tc main_v23) : S128x128.Idx → EReal) (ix2 k j))
          (fun j => (W1 (F := Ideal) m ρ c (Proc.devRef .tc main_v26) : S1x128.Idx → EReal) (ix2 ⟨0, Nat.one_pos⟩ j))
          (fun j => (W1 (F := Ideal) m ρ c (Proc.devRef .tc main_v29) : S1x128.Idx → EReal) (ix2 ⟨0, Nat.one_pos⟩ j))
          (fun j => (W1 (F := Ideal) m ρ c (Proc.devRef .tc main_v32) : S1x128.Idx → EReal) (ix2 ⟨0, Nat.one_pos⟩ j))
          (fun j => (W1 (F := Ideal) m ρ c (Proc.devRef .tc main_v35) : S1x128.Idx → EReal) (ix2 ⟨0, Nat.one_pos⟩ j))
          (fun j => (W1 (F := Ideal) m ρ c (Proc.devRef .tc main_v38) : S1x128.Idx → EReal) (ix2 ⟨0, Nat.one_pos⟩ j))
          (fun j => (W1 (F := Ideal) m ρ c (Proc.devRef .tc main_v41) : S1x128.Idx → EReal) (ix2 ⟨0, Nat.one_pos⟩ j)) r j)
    (L1 : ∀ (r : Fin 50000) (j : Fin 128), (W10 (F := Ideal) m ρ c (Proc.devRef .tc main_v87) : S50000x128.Idx → EReal) (ix2 r j)
      = Cert.Spec.layerK zW cW epsW true
          (fun r k => (W6 (F := Ideal) m ρ c (Proc.devRef .tc main_v59) : S50000x128.Idx → EReal) (ix2 r k))
          (fun k j => (W6 (F := Ideal) m ρ c (Proc.devRef .tc main_v62) : S128x128.Idx → EReal) (ix2 k j))
          (fun k j => (W6 (F := Ideal) m ρ c (Proc.devRef .tc main_v65) : S128x128.Idx → EReal) (ix2 k j))
          (fun j => (W6 (F := Ideal) m ρ c (Proc.devRef .tc main_v68) : S1x128.Idx → EReal) (ix2 ⟨0, Nat.one_pos⟩ j))
          (fun j => (W6 (F := Ideal) m ρ c (Proc.devRef .tc main_v71) : S1x128.Idx → EReal) (ix2 ⟨0, Nat.one_pos⟩ j))
          (fun j => (W6 (F := Ideal) m ρ c (Proc.devRef .tc main_v74) : S1x128.Idx → EReal) (ix2 ⟨0, Nat.one_pos⟩ j))
          (fun j => (W6 (F := Ideal) m ρ c (Proc.devRef .tc main_v77) : S1x128.Idx → EReal) (ix2 ⟨0, Nat.one_pos⟩ j))
          (fun j => (W6 (F := Ideal) m ρ c (Proc.devRef .tc main_v80) : S1x128.Idx → EReal) (ix2 ⟨0, Nat.one_pos⟩ j))
          (fun j => (W6 (F := Ideal) m ρ c (Proc.devRef .tc main_v83) : S1x128.Idx → EReal) (ix2 ⟨0, Nat.one_pos⟩ j)) r j)
    (L2 : ∀ (r : Fin 50000) (j : Fin 128), (W15 (F := Ideal) m ρ c (Proc.devRef .tc main_v129) : S50000x128.Idx → EReal) (ix2 r j)
      = Cert.Spec.layerK zW cW epsW false
          (fun r k => (W11 (F := Ideal) m ρ c (Proc.devRef .tc main_v101) : S50000x128.Idx → EReal) (ix2 r k))
          (fun k j => (W11 (F := Ideal) m ρ c (Proc.devRef .tc main_v104) : S128x128.Idx → EReal) (ix2 k j))
          (fun k j => (W11 (F := Ideal) m ρ c (Proc.devRef .tc main_v107) : S128x128.Idx → EReal) (ix2 k j))
          (fun j => (W11 (F := Ideal) m ρ c (Proc.devRef .tc main_v110) : S1x128.Idx → EReal) (ix2 ⟨0, Nat.one_pos⟩ j))
          (fun j => (W11 (F := Ideal) m ρ c (Proc.devRef .tc main_v113) : S1x128.Idx → EReal) (ix2 ⟨0, Nat.one_pos⟩ j))
          (fun j => (W11 (F := Ideal) m ρ c (Proc.devRef .tc main_v116) : S1x128.Idx → EReal) (ix2 ⟨0, Nat.one_pos⟩ j))
          (fun j => (W11 (F := Ideal) m ρ c (Proc.devRef .tc main_v119) : S1x128.Idx → EReal) (ix2 ⟨0, Nat.one_pos⟩ j))
          (fun j => (W11 (F := Ideal) m ρ c (Proc.devRef .tc main_v122) : S1x128.Idx → EReal) (ix2 ⟨0, Nat.one_pos⟩ j))
          (fun j => (W11 (F := Ideal) m ρ c (Proc.devRef .tc main_v125) : S1x128.Idx → EReal) (ix2 ⟨0, Nat.one_pos⟩ j)) r j)
    (r : Fin 50000) (j : Fin 128) :
    (W15 (F := Ideal) m ρ c (Proc.devRef .tc main_v129) : S50000x128.Idx → EReal) (ix2 r j)
      = Cert.Net.netK zW cW epsW (aggK m ρ c) (paramsK m ρ c) (h0K m ρ c) r j := by
  have o0 : (W5 (F := Ideal) m ρ c (Proc.devRef .tc main_v45) : S50000x128.Idx → EReal)
      = fun i => Cert.Net.stepK zW cW epsW (aggK m ρ c) (paramsK m ρ c) 0 true (h0K m ρ c) (i 0) (i 1) := by
    funext i
    refine (congrArg _ (eq_ix2 i)).trans ((L0 (i 0) (i 1)).trans ?_)
    exact congrFun (congrFun (layerK_congr zW cW epsW true (x_fn0 m ρ c) (w0_fn0 m ρ c) (w1_fn0 m ρ c)
      (g1_fn0 m ρ c) (b1_fn0 m ρ c) (g2_fn0 m ρ c) (b2_fn0 m ρ c) (g3_fn0 m ρ c) (b3_fn0 m ρ c)) (i 0)) (i 1)
  have o1 : (W10 (F := Ideal) m ρ c (Proc.devRef .tc main_v87) : S50000x128.Idx → EReal)
      = fun i => Cert.Net.stepK zW cW epsW (aggK m ρ c) (paramsK m ρ c) 1 true
          (Cert.Net.stepK zW cW epsW (aggK m ρ c) (paramsK m ρ c) 0 true (h0K m ρ c)) (i 0) (i 1) := by
    funext i
    refine (congrArg _ (eq_ix2 i)).trans ((L1 (i 0) (i 1)).trans ?_)
    exact congrFun (congrFun (layerK_congr zW cW epsW true (x_fn1 m ρ c _ o0) (w0_fn1 m ρ c) (w1_fn1 m ρ c)
      (g1_fn1 m ρ c) (b1_fn1 m ρ c) (g2_fn1 m ρ c) (b2_fn1 m ρ c) (g3_fn1 m ρ c) (b3_fn1 m ρ c)) (i 0)) (i 1)
  refine (L2 r j).trans ?_
  exact congrFun (congrFun (layerK_congr zW cW epsW false (x_fn2 m ρ c _ o1) (w0_fn2 m ρ c) (w1_fn2 m ρ c)
      (g1_fn2 m ρ c) (b1_fn2 m ρ c) (g2_fn2 m ρ c) (b2_fn2 m ρ c) (g3_fn2 m ρ c) (b3_fn2 m ρ c)) r) j

end Cert.KernelIdeal.Hand

end
-- ==== Proof.R0Val.lean ====
/-
  Pipeline 0 (a statistics kernel): each case's stores read back as the body's arithmetic. A buffer stored whole
  holds the stored value, and a load of it after the store reads that value: after the first tile the running rows
  are the tile's totals added to the zero rows, after a later tile the totals added to what the tile before left,
  and at the last tile the scale and the shift are computed from the rows as this tile leaves them.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R0B
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2_0 : (![0, 0] : Fin 2 → Nat) = fun _ => 0 := funext fun a => by fin_cases a <;> rfl

theorem pieceA0_S (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .bf16) (x2 : Vec F S1x128 .f32) (x3 : Vec F S1x128 .f32) :
    rd0 (F := F) (kernelRun0_A c i arg1 harg1 arg2 harg2 arg3 harg3 arg4 harg4 arg5 harg5 arg6 harg6 arg7 harg7 arg8 harg8 hc0 hc1 x0 x1 x2 x3).1 = k0_pay4 x0 x1 (k0_pay1 (F := F)) := by
  unfold rd0
  rw [View.read_writes_eq_canon _ _ _ (scoverA0_0 c i arg1 harg1 arg2 harg2 arg3 harg3 arg4 harg4 arg5 harg5 arg6 harg6 arg7 harg7 arg8 harg8 hc0 hc1 x0 x1 x2 x3)]
  unfold kernelRun0_A
  dsimp only
  try sl_unfold_words
  first | rw [View.canon_cons_unit_zero (S := S1x128) hz2_0] | rw [View.canon_unit_zero hz2_0]
  simp only [View.readCov_unit_zero (S := S1x128) _ hz2_0, View.readAt_eq_ld, harg1.read_unread, harg2.read_unread, harg3.read_unread, harg4.read_unread, harg5.read_unread, harg6.read_unread, harg7.read_unread, harg8.read_unread, View.ld_unit_zero (S := S5000x128) hz2_0, View.ld_unit_zero (S := S128x128) hz2_0, View.ld_unit_zero (S := S1x128) hz2_0]

theorem pieceA0_Q (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .bf16) (x2 : Vec F S1x128 .f32) (x3 : Vec F S1x128 .f32) :
    rd0 (F := F) (kernelRun0_A c i arg1 harg1 arg2 harg2 arg3 harg3 arg4 harg4 arg5 harg5 arg6 harg6 arg7 harg7 arg8 harg8 hc0 hc1 x0 x1 x2 x3).2.1 = k0_pay5 x0 x1 (k0_pay2 (F := F)) := by
  unfold rd0
  rw [View.read_writes_eq_canon _ _ _ (scoverA0_1 c i arg1 harg1 arg2 harg2 arg3 harg3 arg4 harg4 arg5 harg5 arg6 harg6 arg7 harg7 arg8 harg8 hc0 hc1 x0 x1 x2 x3)]
  unfold kernelRun0_A
  dsimp only
  try sl_unfold_words
  first | rw [View.canon_cons_unit_zero (S := S1x128) hz2_0] | rw [View.canon_unit_zero hz2_0]
  simp only [View.readCov_unit_zero (S := S1x128) _ hz2_0, View.readAt_eq_ld, harg1.read_unread, harg2.read_unread, harg3.read_unread, harg4.read_unread, harg5.read_unread, harg6.read_unread, harg7.read_unread, harg8.read_unread, View.ld_unit_zero (S := S5000x128) hz2_0, View.ld_unit_zero (S := S128x128) hz2_0, View.ld_unit_zero (S := S1x128) hz2_0]

theorem pieceB0_S (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .bf16) (x2 : Vec F S1x128 .f32) (x3 : Vec F S1x128 .f32) (xs0 xs1 : Vec F S1x128 .f32) :
    rd0 (F := F) (kernelRun0_B c i arg1 harg1 arg2 harg2 arg3 harg3 arg4 harg4 arg5 harg5 arg6 harg6 arg7 harg7 arg8 harg8 hc0 hc1 x0 x1 x2 x3 xs0 xs1).1 = k0_pay4 x0 x1 xs0 := by
  unfold rd0
  rw [View.read_writes_eq_canon _ _ _ (scoverB0_0 c i arg1 harg1 arg2 harg2 arg3 harg3 arg4 harg4 arg5 harg5 arg6 harg6 arg7 harg7 arg8 harg8 hc0 hc1 x0 x1 x2 x3 xs0 xs1)]
  unfold kernelRun0_B
  dsimp only
  try sl_unfold_words
  first | rw [View.canon_cons_unit_zero (S := S1x128) hz2_0] | rw [View.canon_unit_zero hz2_0]
  simp only [View.readCov_unit_zero (S := S1x128) _ hz2_0, View.readAt_eq_ld, harg1.read_unread, harg2.read_unread, harg3.read_unread, harg4.read_unread, harg5.read_unread, harg6.read_unread, harg7.read_unread, harg8.read_unread, View.ld_unit_zero (S := S5000x128) hz2_0, View.ld_unit_zero (S := S128x128) hz2_0, View.ld_unit_zero (S := S1x128) hz2_0]

theorem pieceB0_Q (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .bf16) (x2 : Vec F S1x128 .f32) (x3 : Vec F S1x128 .f32) (xs0 xs1 : Vec F S1x128 .f32) :
    rd0 (F := F) (kernelRun0_B c i arg1 harg1 arg2 harg2 arg3 harg3 arg4 harg4 arg5 harg5 arg6 harg6 arg7 harg7 arg8 harg8 hc0 hc1 x0 x1 x2 x3 xs0 xs1).2.1 = k0_pay5 x0 x1 xs1 := by
  unfold rd0
  rw [View.read_writes_eq_canon _ _ _ (scoverB0_1 c i arg1 harg1 arg2 harg2 arg3 harg3 arg4 harg4 arg5 harg5 arg6 harg6 arg7 harg7 arg8 harg8 hc0 hc1 x0 x1 x2 x3 xs0 xs1)]
  unfold kernelRun0_B
  dsimp only
  try sl_unfold_words
  first | rw [View.canon_cons_unit_zero (S := S1x128) hz2_0] | rw [View.canon_unit_zero hz2_0]
  simp only [View.readCov_unit_zero (S := S1x128) _ hz2_0, View.readAt_eq_ld, harg1.read_unread, harg2.read_unread, harg3.read_unread, harg4.read_unread, harg5.read_unread, harg6.read_unread, harg7.read_unread, harg8.read_unread, View.ld_unit_zero (S := S5000x128) hz2_0, View.ld_unit_zero (S := S128x128) hz2_0, View.ld_unit_zero (S := S1x128) hz2_0]

theorem pieceC0_S (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .bf16) (x2 : Vec F S1x128 .f32) (x3 : Vec F S1x128 .f32) (xs0 xs1 : Vec F S1x128 .f32) :
    rd0 (F := F) (kernelRun0_C c i arg1 harg1 arg2 harg2 arg3 harg3 arg4 harg4 arg5 harg5 arg6 harg6 arg7 harg7 arg8 harg8 hc0 hc1 x0 x1 x2 x3 xs0 xs1).2.2.1 = k0_pay4 x0 x1 xs0 := by
  unfold rd0
  rw [View.read_writes_eq_canon _ _ _ (scoverC0_0 c i arg1 harg1 arg2 harg2 arg3 harg3 arg4 harg4 arg5 harg5 arg6 harg6 arg7 harg7 arg8 harg8 hc0 hc1 x0 x1 x2 x3 xs0 xs1)]
  unfold kernelRun0_C
  dsimp only
  try sl_unfold_words
  first | rw [View.canon_cons_unit_zero (S := S1x128) hz2_0] | rw [View.canon_unit_zero hz2_0]
  simp only [View.readCov_unit_zero (S := S1x128) _ hz2_0, View.readAt_eq_ld, harg1.read_unread, harg2.read_unread, harg3.read_unread, harg4.read_unread, harg5.read_unread, harg6.read_unread, harg7.read_unread, harg8.read_unread, View.ld_unit_zero (S := S5000x128) hz2_0, View.ld_unit_zero (S := S128x128) hz2_0, View.ld_unit_zero (S := S1x128) hz2_0]

theorem pieceC0_Q (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .bf16) (x2 : Vec F S1x128 .f32) (x3 : Vec F S1x128 .f32) (xs0 xs1 : Vec F S1x128 .f32) :
    rd0 (F := F) (kernelRun0_C c i arg1 harg1 arg2 harg2 arg3 harg3 arg4 harg4 arg5 harg5 arg6 harg6 arg7 harg7 arg8 harg8 hc0 hc1 x0 x1 x2 x3 xs0 xs1).2.2.2.1 = k0_pay5 x0 x1 xs1 := by
  unfold rd0
  rw [View.read_writes_eq_canon _ _ _ (scoverC0_1 c i arg1 harg1 arg2 harg2 arg3 harg3 arg4 harg4 arg5 harg5 arg6 harg6 arg7 harg7 arg8 harg8 hc0 hc1 x0 x1 x2 x3 xs0 xs1)]
  unfold kernelRun0_C
  dsimp only
  try sl_unfold_words
  first | rw [View.canon_cons_unit_zero (S := S1x128) hz2_0] | rw [View.canon_unit_zero hz2_0]
  simp only [View.readCov_unit_zero (S := S1x128) _ hz2_0, View.readAt_eq_ld, harg1.read_unread, harg2.read_unread, harg3.read_unread, harg4.read_unread, harg5.read_unread, harg6.read_unread, harg7.read_unread, harg8.read_unread, View.ld_unit_zero (S := S5000x128) hz2_0, View.ld_unit_zero (S := S128x128) hz2_0, View.ld_unit_zero (S := S1x128) hz2_0]

theorem pieceC0_1 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .bf16) (x2 : Vec F S1x128 .f32) (x3 : Vec F S1x128 .f32) (xs0 xs1 : Vec F S1x128 .f32) :
    rd0 (F := F) (kernelRun0_C c i arg1 harg1 arg2 harg2 arg3 harg3 arg4 harg4 arg5 harg5 arg6 harg6 arg7 harg7 arg8 harg8 hc0 hc1 x0 x1 x2 x3 xs0 xs1).1 = k0_pay7 (k0_pay4 x0 x1 xs0) (k0_pay5 x0 x1 xs1) x2 := by
  unfold rd0
  rw [View.read_writes_eq_canon _ _ _ (coverC0_1 c i arg1 harg1 arg2 harg2 arg3 harg3 arg4 harg4 arg5 harg5 arg6 harg6 arg7 harg7 arg8 harg8 hc0 hc1 x0 x1 x2 x3 xs0 xs1)]
  unfold kernelRun0_C
  dsimp only
  try sl_unfold_words
  first | rw [View.canon_cons_unit_zero (S := S1x128) hz2_0] | rw [View.canon_unit_zero hz2_0]
  simp only [View.readCov_unit_zero (S := S1x128) _ hz2_0, View.readAt_eq_ld, harg1.read_unread, harg2.read_unread, harg3.read_unread, harg4.read_unread, harg5.read_unread, harg6.read_unread, harg7.read_unread, harg8.read_unread, View.ld_unit_zero (S := S5000x128) hz2_0, View.ld_unit_zero (S := S128x128) hz2_0, View.ld_unit_zero (S := S1x128) hz2_0]

theorem pieceC0_2 (c : Dev nD) (i : grid0.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .bf16) (x2 : Vec F S1x128 .f32) (x3 : Vec F S1x128 .f32) (xs0 xs1 : Vec F S1x128 .f32) :
    rd0 (F := F) (kernelRun0_C c i arg1 harg1 arg2 harg2 arg3 harg3 arg4 harg4 arg5 harg5 arg6 harg6 arg7 harg7 arg8 harg8 hc0 hc1 x0 x1 x2 x3 xs0 xs1).2.1 = k0_pay8 (k0_pay4 x0 x1 xs0) (k0_pay5 x0 x1 xs1) x2 x3 := by
  unfold rd0
  rw [View.read_writes_eq_canon _ _ _ (coverC0_2 c i arg1 harg1 arg2 harg2 arg3 harg3 arg4 harg4 arg5 harg5 arg6 harg6 arg7 harg7 arg8 harg8 hc0 hc1 x0 x1 x2 x3 xs0 xs1)]
  unfold kernelRun0_C
  dsimp only
  try sl_unfold_words
  first | rw [View.canon_cons_unit_zero (S := S1x128) hz2_0] | rw [View.canon_unit_zero hz2_0]
  simp only [View.readCov_unit_zero (S := S1x128) _ hz2_0, View.readAt_eq_ld, harg1.read_unread, harg2.read_unread, harg3.read_unread, harg4.read_unread, harg5.read_unread, harg6.read_unread, harg7.read_unread, harg8.read_unread, View.ld_unit_zero (S := S5000x128) hz2_0, View.ld_unit_zero (S := S128x128) hz2_0, View.ld_unit_zero (S := S1x128) hz2_0]

end Cert.KernelIdeal.Hand

end
-- ==== Proof.R0Arr.lean ====
/-
  Pipeline 0: the two result arrays after the region. Each result window is written back once, at the last
  point, and its one block is the whole [1, 128] array; so the array ends holding the row the last point stored.
-/
import proofs.«180905_j29583734735286_1_alg».proof.Proof.R0B
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The last grid point. -/
def tL0 : Fin cfg0.N := ⟨9, lt_of_lt_of_eq (by decide) N_0.symm⟩
theorem tL0_val : tL0.val = 9 := rfl
attribute [irreducible] tL0

theorem idx0_4 : ∀ t : Fin cfg0.N, win0_4.index t 0 = 0 ∧ win0_4.index t 1 = 0 := by
  intro t; rcases fin_N0 t with rfl | rfl | rfl | rfl | rfl | rfl | rfl | rfl | rfl | rfl <;> decide
theorem xsz0_4 : ∀ t : Fin cfg0.N, win0_4.xsize (grid0.coords t) 0 = 1 ∧ win0_4.xsize (grid0.coords t) 1 = 128 := by
  intro t; rcases fin_N0 t with rfl | rfl | rfl | rfl | rfl | rfl | rfl | rfl | rfl | rfl <;> decide +kernel

/-- What the region leaves in its result array: the row stored at the last point. -/
def G0_4 (c : Dev nD) : Buf (Elt F) ((c : Thread nD τ).loc main_v42_0) := (outsAt0 V c tL0.val tL0.isLt).1

theorem flushed0_4 (c : Dev nD) (t : Fin cfg0.N) (hf : (cfg0.win 4).flush t = true) :
    (dat0 V c).flushed 4 t = ((cfg0.win 4).blk t).view.read (Elt F) (G0_4 V c) := by
  have hN : cfg0.N = 10 := N_0
  have h1 : t.val = 9 := by have := (flush0_4 t).mp hf; have := t.isLt; omega
  obtain rfl : t = tL0 := Fin.ext (h1.trans tL0_val.symm)
  show (cfg0.win 4).cut (grid0.coords tL0) ((dat0 V c).after 4 tL0) = _
  rw [after0_4]
  have hz' : (fun a => win0_4.index tL0 a * main_v42_0.ty.shape.size a) = fun _ => 0 := funext fun a => by
    match a with
    | ⟨0, _⟩ => show win0_4.index tL0 0 * _ = 0; rw [(idx0_4 tL0).1, Nat.zero_mul]
    | ⟨1, _⟩ => show win0_4.index tL0 1 * _ = 0; rw [(idx0_4 tL0).2, Nat.zero_mul]
  exact (Memref.read_access_unit_zero (Elt F) main_v42_0 hz' (fun a => by rw [congrFun hz' a]; simp) (G0_4 V c)).symm

theorem final0_4 (c : Dev nD) : (dat0 V c).arrAt 4 cfg0.N = G0_4 V c :=
  (dat0 V c).arrAt_eq_of_cover 4 (G0_4 V c) (flushed0_4 V c) fun i =>
    ⟨tL0, (flush0_4 tL0).mpr (by rw [tL0_val]), by
      show i ∈ ((View.whole main_v42_0).slice (win0_4.rect tL0)).set
      rw [View.set_slice_whole, Rect.mem_set_unit]
      intro a
      have h0 : (i 0 : Nat) < 1 := (i 0).isLt
      have h1 : (i 1 : Nat) < 128 := (i 1).isLt
      match a with
      | ⟨0, _⟩ => show win0_4.index tL0 0 * win0_4.size 0 ≤ (i 0 : Nat) ∧ (i 0 : Nat) < win0_4.index tL0 0 * win0_4.size 0 + win0_4.xsize (grid0.coords tL0) 0
                  rw [(idx0_4 tL0).1, (xsz0_4 tL0).1]; omega
      | ⟨1, _⟩ => show win0_4.index tL0 1 * win0_4.size 1 ≤ (i 1 : Nat) ∧ (i 1 : Nat) < win0_4.index tL0 1 * win0_4.size 1 + win0_4.xsize (grid0.coords tL0) 1
                  rw [(idx0_4 tL0).2, (xsz0_4 tL0).2]; omega⟩

theorem idx0_5 : ∀ t : Fin cfg0.N, win0_5.index t 0 = 0 ∧ win0_5.index t 1 = 0 := by
  intro t; rcases fin_N0 t with rfl | rfl | rfl | rfl | rfl | rfl | rfl | rfl | rfl | rfl <;> decide
theorem xsz0_5 : ∀ t : Fin cfg0.N, win0_5.xsize (grid0.coords t) 0 = 1 ∧ win0_5.xsize (grid0.coords t) 1 = 128 := by
  intro t; rcases fin_N0 t with rfl | rfl | rfl | rfl | rfl | rfl | rfl | rfl | rfl | rfl <;> decide +kernel

/-- What the region leaves in its result array: the row stored at the last point. -/
def G0_5 (c : Dev nD) : Buf (Elt F) ((c : Thread nD τ).loc main_v42_1) := (outsAt0 V c tL0.val tL0.isLt).2.1

theorem flushed0_5 (c : Dev nD) (t : Fin cfg0.N) (hf : (cfg0.win 5).flush t = true) :
    (dat0 V c).flushed 5 t = ((cfg0.win 5).blk t).view.read (Elt F) (G0_5 V c) := by
  have hN : cfg0.N = 10 := N_0
  have h1 : t.val = 9 := by have := (flush0_5 t).mp hf; have := t.isLt; omega
  obtain rfl : t = tL0 := Fin.ext (h1.trans tL0_val.symm)
  show (cfg0.win 5).cut (grid0.coords tL0) ((dat0 V c).after 5 tL0) = _
  rw [after0_5]
  have hz' : (fun a => win0_5.index tL0 a * main_v42_1.ty.shape.size a) = fun _ => 0 := funext fun a => by
    match a with
    | ⟨0, _⟩ => show win0_5.index tL0 0 * _ = 0; rw [(idx0_5 tL0).1, Nat.zero_mul]
    | ⟨1, _⟩ => show win0_5.index tL0 1 * _ = 0; rw [(idx0_5 tL0).2, Nat.zero_mul]
  exact (Memref.read_access_unit_zero (Elt F) main_v42_1 hz' (fun a => by rw [congrFun hz' a]; simp) (G0_5 V c)).symm

theorem final0_5 (c : Dev nD) : (dat0 V c).arrAt 5 cfg0.N = G0_5 V c :=
  (dat0 V c).arrAt_eq_of_cover 5 (G0_5 V c) (flushed0_5 V c) fun i =>
    ⟨tL0, (flush0_5 tL0).mpr (by rw [tL0_val]), by
      show i ∈ ((View.whole main_v42_1).slice (win0_5.rect tL0)).set
      rw [View.set_slice_whole, Rect.mem_set_unit]
      intro a
      have h0 : (i 0 : Nat) < 1 := (i 0).isLt
      have h1 : (i 1 : Nat) < 128 := (i 1).isLt
      match a with
      | ⟨0, _⟩ => show win0_5.index tL0 0 * win0_5.size 0 ≤ (i 0 : Nat) ∧ (i 0 : Nat) < win0_5.index tL0 0 * win0_5.size 0 + win0_5.xsize (grid0.coords tL0) 0
                  rw [(idx0_5 tL0).1, (xsz0_5 tL0).1]; omega
      | ⟨1, _⟩ => show win0_5.index tL0 1 * win0_5.size 1 ≤ (i 1 : Nat) ∧ (i 1 : Nat) < win0_5.index tL0 1 * win0_5.size 1 + win0_5.xsize (grid0.coords tL0) 1
                  rw [(idx0_5 tL0).2, (xsz0_5 tL0).2]; omega⟩

end Cert.KernelIdeal.Hand

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.Pay0.lean ====
/-
  The payloads of pipeline 0's body (a statistics kernel) at the ideal values, read at an index: the tile
  quantity whose column statistics the kernel takes, the two running rows after a tile, the zero rows of the reset,
  and the mean, scale and shift the last point computes. A change of float format is the identity on the extended
  reals, a matrix product into a zero accumulator is the row-by-column sum, a lane reduction is a finite sum.
-/
import proofs.«180905_j29583734735286_1_alg».proof.Proof.Gen.KernelIdeal.Skeleton
import Idealize.ShloMosaic.Lib.ValueIdx
import Idealize.ShloMosaic.Lib.Pipeline.Value
import Idealize.ShloMosaic.PureOps.Ideal.Laws
import proofs.«180905_j29583734735286_1_alg».proof.Proof.LibDense
import proofs.«180905_j29583734735286_1_alg».proof.Proof.LibAxisSum
import proofs.«180905_j29583734735286_1_alg».proof.Proof.LibBiasRows

noncomputable section

namespace Cert.Proof.Pay0

open Idealize.ShloMosaic Idealize.ShloMosaic.ValueIdx Cert.KernelIdeal Cert.KernelIdeal.Gen
open scoped BigOperators

abbrev r0 (j : Fin 128) : S1x128.Idx := ix2 ⟨0, Nat.one_pos⟩ j
abbrev zW : EReal := Ideal.ofBits .f32 0x00000000#32

theorem inv_n : Named.named (F := Ideal) Cert.KernelIdeal.κ "inv_50000" (φ := .f32) 0x37A7C5AC#32
    = ((1 / 50000 : ℝ) : EReal) :=
  IdealRules.named_const.ideal_named_scalar _ _ _ _ rfl

/-- The tile quantity. -/
abbrev q (x0 : FVec Ideal S5000x128 .f32) (x1 : FVec Ideal S128x128 .bf16) : FVec Ideal S5000x128 .f32 := k0_pay3 x0 x1

theorem q_apply (x0 : FVec Ideal S5000x128 .f32) (x1 : FVec Ideal S128x128 .bf16) (y : Fin 5000) (j : Fin 128) :
    q x0 x1 (ix2 y j) = ∑ k : Fin 128, x0 (ix2 y k) * x1 (ix2 k j) := by
  unfold q k0_pay3
  simp only [shapeCast_self]
  exact Cert.LibDense.matmul_plain (M := 5000) (K := 128) (N := 128) (φ₁ := .bf16) (φ₂ := .bf16) _ x1 (ix2 y j)

theorem total_apply (x0 : FVec Ideal S5000x128 .f32) (x1 : FVec Ideal S128x128 .bf16) (old : FVec Ideal S1x128 .f32) (j : Fin 128) :
    (k0_pay4 x0 x1 old : FVec Ideal S1x128 .f32) (r0 j) = old (r0 j) + ∑ y : Fin 5000, q x0 x1 (ix2 y j) := by
  unfold k0_pay4
  simp only [shapeCast_self]
  refine congrArg (fun z => old (r0 j) + z) ?_
  refine (Cert.LibBiasRows.row_of_vector _ _ j).trans ?_
  exact Cert.LibAxisSum.sum_first (n := 5000) (d := 128) _ _ _ _ _ j

theorem total_sq_apply (x0 : FVec Ideal S5000x128 .f32) (x1 : FVec Ideal S128x128 .bf16) (old : FVec Ideal S1x128 .f32) (j : Fin 128) :
    (k0_pay5 x0 x1 old : FVec Ideal S1x128 .f32) (r0 j) = old (r0 j) + ∑ y : Fin 5000, q x0 x1 (ix2 y j) * q x0 x1 (ix2 y j) := by
  unfold k0_pay5
  simp only [shapeCast_self]
  refine congrArg (fun z => old (r0 j) + z) ?_
  refine (Cert.LibBiasRows.row_of_vector _ _ j).trans ?_
  exact Cert.LibAxisSum.sum_first (n := 5000) (d := 128) _ _ _ _ _ j

theorem zeroS (j : Fin 128) : (k0_pay1 (F := Ideal) : S1x128.Idx → EReal) (r0 j) = 0 := by
  unfold k0_pay1; rw [shapeCast_self]; exact Ideal.ofBits_zero_f32
theorem zeroQ (j : Fin 128) : (k0_pay2 (F := Ideal) : S1x128.Idx → EReal) (r0 j) = 0 := by
  unfold k0_pay2; rw [shapeCast_self]; exact Ideal.ofBits_zero_f32

theorem mean_apply (v27 : FVec Ideal S1x128 .f32) (j : Fin 128) :
    k0_pay6 (F := Ideal) v27 (r0 j) = v27 (r0 j) * ((1 / 50000 : ℝ) : EReal) := by
  unfold k0_pay6
  exact congrArg (fun z => v27 (r0 j) * z) inv_n

theorem scale_apply (v27 v30 v35 : FVec Ideal S1x128 .f32) (j : Fin 128) :
    k0_pay7 (F := Ideal) v27 v30 v35 (r0 j)
      = v35 (r0 j) * Ideal.rsqrt (v30 (r0 j) * ((1 / 50000 : ℝ) : EReal)
          - v27 (r0 j) * ((1 / 50000 : ℝ) : EReal) * (v27 (r0 j) * ((1 / 50000 : ℝ) : EReal))
          + Ideal.ofBits .f32 0x3727C5AC#32) := by
  unfold k0_pay7
  rw [shapeCast_self]
  show v35 (r0 j) * Ideal.rsqrt (v30 (r0 j) * Named.named (F := Ideal) Cert.KernelIdeal.κ "inv_50000" (φ := .f32) 0x37A7C5AC#32
      - k0_pay6 (F := Ideal) v27 (r0 j) * k0_pay6 (F := Ideal) v27 (r0 j) + Ideal.ofBits .f32 0x3727C5AC#32) = _
  rw [mean_apply, inv_n]

theorem shift_apply (v27 v30 v35 v41 : FVec Ideal S1x128 .f32) (j : Fin 128) :
    k0_pay8 (F := Ideal) v27 v30 v35 v41 (r0 j)
      = v41 (r0 j) - v27 (r0 j) * ((1 / 50000 : ℝ) : EReal) * k0_pay7 (F := Ideal) v27 v30 v35 (r0 j) := by
  unfold k0_pay8
  rw [shapeCast_self]
  show v41 (r0 j) - k0_pay6 (F := Ideal) v27 (r0 j) * k0_pay7 (F := Ideal) v27 v30 v35 (r0 j) = _
  rw [mean_apply]

end Cert.Proof.Pay0

end
-- ==== Proof.LibTiledTotals.lean ====
/-
  Column totals of an [n, d] array accumulated tile by tile.

  The n = (T + 1) · B rows are visited in T + 1 tiles of B rows. At each tile the vector unit sums the tile's
  [B, d] block along its first axis, and a [d]-wide running total — reset to zero at the first tile — is
  increased by that partial total. After the last tile the running total is, column by column, the total over
  all n rows from a zero start, which is how a whole-array sum along the first axis reads. Addition on the
  extended reals is commutative and associative, infinities included, so the regrouping needs no finiteness.
-/
import Idealize.ShloMosaic.PureOps.Ideal
import Idealize.ShloMosaic.PureOps.Ideal.Laws
import Idealize.ShloMosaic.Lib.ValueIdx
import proofs.«180905_j29583734735286_1_alg».proof.Proof.LibAxisSum
import proofs.«180905_j29583734735286_1_alg».proof.Proof.LibBatchNorm
import proofs.«180905_j29583734735286_1_alg».proof.Proof.LibScaleShift

noncomputable section

namespace Cert.LibTiledTotals

open Idealize.ShloMosaic Idealize.ShloMosaic.ValueIdx Cert.LibBatchNorm
open scoped BigOperators

/-- The partial total of one tile: the vector unit's sum of the tile's block along its first axis is, at
    column j, the sum over the tile's rows of the array's entries, when the block holds those rows. -/
theorem part_of_block {T B n d : ℕ} {φ : FTy} (h : n = (T + 1) * B) (X : Fin n → Fin d → EReal)
    (t : Fin (T + 1)) (blk : FVec Ideal ⟨2, ![B, d]⟩ φ) (hblk : ∀ y j, blk (ix2 y j) = X (rowOf h t y) j)
    (acc : BitVec φ.bits) (hr : Shape.Reduces ⟨2, ![B, d]⟩ [0] ⟨1, ![d]⟩) (hφ : FKind.Formats φ)
    (hacc : acc = FKind.add.neutral φ hφ) (j : Fin d) :
    multiReduction .add [0] ⟨1, ![d]⟩ blk acc hr hφ hacc (ix1 j) = ∑ y : Fin B, X (rowOf h t y) j :=
  (Cert.LibAxisSum.sum_first blk acc hr hφ hacc j).trans (Finset.sum_congr rfl fun y _ => hblk y j)

/-- THE TOTAL. A running total per column, reset at the first tile and increased by each tile's partial total,
    ends at the total over all rows from a zero start. -/
theorem tiled_total {T B n d : ℕ} (h : n = (T + 1) * B) (X : Fin n → Fin d → EReal)
    (part : Fin (T + 1) → Fin d → EReal) (hpart : ∀ t j, part t j = ∑ y : Fin B, X (rowOf h t y) j)
    (acc : Fin (T + 1) → Fin d → EReal) (h0 : ∀ j, acc 0 j = 0 + part 0 j)
    (hs : ∀ (t : Fin T) j, acc t.succ j = acc t.castSucc j + part t.succ j) (j : Fin d) :
    acc (Fin.last T) j = 0 + ∑ r : Fin n, X r j := by
  have hrun : acc (Fin.last T) j = ∑ t, part t j :=
    Cert.LibScaleShift.running_total T (fun t => part t j) (fun t => acc t j) (h0 j) (fun t => hs t j)
  rw [hrun, ← sum_tiles' h (fun r => X r j), zero_add]
  exact Finset.sum_congr rfl fun t _ => hpart t j

/-- The same for the totals of squares (or of any function of the entries): apply `tiled_total` to the array of
    squares. Stated for convenience with the squares spelt out. -/
theorem tiled_total_sq {T B n d : ℕ} (h : n = (T + 1) * B) (X : Fin n → Fin d → EReal)
    (part : Fin (T + 1) → Fin d → EReal)
    (hpart : ∀ t j, part t j = ∑ y : Fin B, X (rowOf h t y) j * X (rowOf h t y) j)
    (acc : Fin (T + 1) → Fin d → EReal) (h0 : ∀ j, acc 0 j = 0 + part 0 j)
    (hs : ∀ (t : Fin T) j, acc t.succ j = acc t.castSucc j + part t.succ j) (j : Fin d) :
    acc (Fin.last T) j = 0 + ∑ r : Fin n, X r j * X r j :=
  tiled_total h (fun r j => X r j * X r j) part hpart acc h0 hs j

end Cert.LibTiledTotals

end
-- ==== Proof.R0Sum.lean ====
/-
  Pipeline 0 (a statistics kernel), at the ideal values: what the region leaves in its two result arrays.
  The tile of x a point holds is rows 5000·t … 5000·t + 4999 of x; every other input block is its whole array at
  every point. The quantity whose statistics the kernel takes reads one row of x, so on a tile it is the whole
  array's quantity at the tile's rows; the running rows therefore end at its column totals over all 50000 rows
  (a running total over the ten tiles), and the stored scale and shift are the batch-norm formulas of those totals.
  Each result array is written back once, at the last point, whole.
-/
import proofs.«180905_j29583734735286_1_alg».proof.Proof.R0Val
import proofs.«180905_j29583734735286_1_alg».proof.Proof.R0Arr
import proofs.«180905_j29583734735286_1_alg».proof.Proof.Pay0
import proofs.«180905_j29583734735286_1_alg».proof.Proof.LibTiledTotals
import proofs.«180905_j29583734735286_1_alg».proof.Proof.Spec
import proofs.«180905_j29583734735286_1_alg».proof.Proof.ValCommon
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibBatchNorm (rowOf)
open scoped BigOperators

variable (V : (c : Dev nD) → (b : Ref sig .tc) → Buf (Elt Ideal) ((c : Thread nD τ).loc b))

abbrev r0_0 (j : Fin 128) : S1x128.Idx := ix2 ⟨0, Nat.one_pos⟩ j
theorem lt_N0 (t : Fin (9 + 1)) : t.val < cfg0.N := lt_of_lt_of_eq t.isLt N_0.symm

def in0_0 (c : Dev nD) (r : Fin 50000) (k : Fin 128) : EReal := (V c main_v17 : S50000x128.Idx → EReal) (ix2 r k)
theorem idx0_0 : ∀ t : Fin cfg0.N, win0_0.index t 0 = t.val ∧ win0_0.index t 1 = 0 := by
  intro t; rcases fin_N0 t with rfl | rfl | rfl | rfl | rfl | rfl | rfl | rfl | rfl | rfl <;> decide
theorem tile0_0 (c : Dev nD) (t : Fin cfg0.N) (y : Fin 5000) (k : Fin 128) (R : Fin 50000) (hR : R.val = t.val * 5000 + y.val) :
    (iblk0 V c 0 t : Vec Ideal S5000x128 .f32) (ix2 y k) = in0_0 V c R k := by
  unfold iblk0 in0_0
  rw [View.read_apply]
  show (V c main_v17 : S50000x128.Idx → EReal) _ = (V c main_v17 : S50000x128.Idx → EReal) _
  congr 1
  funext a
  apply Fin.ext
  match a with
  | ⟨0, _⟩ => show win0_0.index t 0 * 5000 + 1 * y.val = R.val; rw [(idx0_0 t).1, hR]; omega
  | ⟨1, _⟩ => show win0_0.index t 1 * 128 + 1 * k.val = k.val; rw [(idx0_0 t).2]; omega
theorem blk0_0 (c : Dev nD) (t : Fin (9 + 1)) (y : Fin 5000) (k : Fin 128) :
    (iblk0 V c 0 ⟨t.val, lt_N0 t⟩ : FVec Ideal S5000x128 .f32) (ix2 y k) = in0_0 V c (rowOf h50000 t y) k :=
  tile0_0 V c ⟨t.val, lt_N0 t⟩ y k (rowOf h50000 t y) rfl

def in0_1 (c : Dev nD) (k j : Fin 128) : EReal := (V c main_v20 : S128x128.Idx → EReal) (ix2 k j)
theorem idx0_1 : ∀ t : Fin cfg0.N, win0_1.index t 0 = 0 ∧ win0_1.index t 1 = 0 := by
  intro t; rcases fin_N0 t with rfl | rfl | rfl | rfl | rfl | rfl | rfl | rfl | rfl | rfl <;> decide
theorem res0_1 (c : Dev nD) (t : Fin cfg0.N) (k j : Fin 128) :
    (iblk0 V c 1 t : Vec Ideal S128x128 .bf16) (ix2 k j) = in0_1 V c k j := by
  unfold iblk0 in0_1
  rw [View.read_apply]
  show (V c main_v20 : S128x128.Idx → EReal) _ = (V c main_v20 : S128x128.Idx → EReal) _
  congr 1
  funext a
  apply Fin.ext
  match a with
  | ⟨0, _⟩ => show win0_1.index t 0 * 128 + 1 * k.val = k.val; rw [(idx0_1 t).1]; omega
  | ⟨1, _⟩ => show win0_1.index t 1 * 128 + 1 * j.val = j.val; rw [(idx0_1 t).2]; omega
theorem blk0_1 (c : Dev nD) (t : Fin (9 + 1)) (k j : Fin 128) :
    (iblk0 V c 1 ⟨t.val, lt_N0 t⟩ : FVec Ideal S128x128 .bf16) (ix2 k j) = in0_1 V c k j :=
  res0_1 V c ⟨t.val, lt_N0 t⟩ k j

def in0_2 (c : Dev nD) (j : Fin 128) : EReal := (V c main_v26 : S1x128.Idx → EReal) (ix2 ⟨0, Nat.one_pos⟩ j)
theorem idx0_2 : ∀ t : Fin cfg0.N, win0_2.index t 0 = 0 ∧ win0_2.index t 1 = 0 := by
  intro t; rcases fin_N0 t with rfl | rfl | rfl | rfl | rfl | rfl | rfl | rfl | rfl | rfl <;> decide
theorem res0_2 (c : Dev nD) (t : Fin cfg0.N) (j : Fin 128) :
    (iblk0 V c 2 t : Vec Ideal S1x128 .f32) (ix2 ⟨0, Nat.one_pos⟩ j) = in0_2 V c j := by
  unfold iblk0 in0_2
  rw [View.read_apply]
  show (V c main_v26 : S1x128.Idx → EReal) _ = (V c main_v26 : S1x128.Idx → EReal) _
  congr 1
  funext a
  apply Fin.ext
  match a with
  | ⟨0, _⟩ => show win0_2.index t 0 * 1 + 1 * 0 = 0; rw [(idx0_2 t).1]
  | ⟨1, _⟩ => show win0_2.index t 1 * 128 + 1 * j.val = j.val; rw [(idx0_2 t).2]; omega
theorem blk0_2 (c : Dev nD) (t : Fin (9 + 1)) (j : Fin 128) :
    (iblk0 V c 2 ⟨t.val, lt_N0 t⟩ : FVec Ideal S1x128 .f32) (ix2 ⟨0, Nat.one_pos⟩ j) = in0_2 V c j :=
  res0_2 V c ⟨t.val, lt_N0 t⟩ j

def in0_3 (c : Dev nD) (j : Fin 128) : EReal := (V c main_v29 : S1x128.Idx → EReal) (ix2 ⟨0, Nat.one_pos⟩ j)
theorem idx0_3 : ∀ t : Fin cfg0.N, win0_3.index t 0 = 0 ∧ win0_3.index t 1 = 0 := by
  intro t; rcases fin_N0 t with rfl | rfl | rfl | rfl | rfl | rfl | rfl | rfl | rfl | rfl <;> decide
theorem res0_3 (c : Dev nD) (t : Fin cfg0.N) (j : Fin 128) :
    (iblk0 V c 3 t : Vec Ideal S1x128 .f32) (ix2 ⟨0, Nat.one_pos⟩ j) = in0_3 V c j := by
  unfold iblk0 in0_3
  rw [View.read_apply]
  show (V c main_v29 : S1x128.Idx → EReal) _ = (V c main_v29 : S1x128.Idx → EReal) _
  congr 1
  funext a
  apply Fin.ext
  match a with
  | ⟨0, _⟩ => show win0_3.index t 0 * 1 + 1 * 0 = 0; rw [(idx0_3 t).1]
  | ⟨1, _⟩ => show win0_3.index t 1 * 128 + 1 * j.val = j.val; rw [(idx0_3 t).2]; omega
theorem blk0_3 (c : Dev nD) (t : Fin (9 + 1)) (j : Fin 128) :
    (iblk0 V c 3 ⟨t.val, lt_N0 t⟩ : FVec Ideal S1x128 .f32) (ix2 ⟨0, Nat.one_pos⟩ j) = in0_3 V c j :=
  res0_3 V c ⟨t.val, lt_N0 t⟩ j

/-- The quantity whose column statistics this kernel takes, over all rows. -/
abbrev GQ0 (c : Dev nD) : Fin 50000 → Fin 128 → EReal := Cert.Spec.lin (in0_0 V c) (in0_1 V c)

theorem tile_q0 (c : Dev nD) (t : Fin (9 + 1)) (y : Fin 5000) (j : Fin 128) :
    Cert.Proof.Pay0.q (iblk0 V c 0 ⟨t.val, lt_N0 t⟩) (iblk0 V c 1 ⟨t.val, lt_N0 t⟩) (ix2 y j) = GQ0 V c (rowOf h50000 t y) j := by
  rw [Cert.Proof.Pay0.q_apply]
  simp only [blk0_0 V c t, blk0_1 V c t, Cert.Spec.lin, Cert.Spec.relu, Cert.Spec.aff]

def accS0 (c : Dev nD) (n : ℕ) (hn : n < cfg0.N) (j : Fin 128) : EReal := ((outsAt0 V c n hn).2.2.1 : S1x128.Idx → EReal) (r0_0 j)
def accQ0 (c : Dev nD) (n : ℕ) (hn : n < cfg0.N) (j : Fin 128) : EReal := ((outsAt0 V c n hn).2.2.2 : S1x128.Idx → EReal) (r0_0 j)

theorem accS0_zero (c : Dev nD) (j : Fin 128) : accS0 V c 0 (lt_N0 0) j = 0 + ∑ y : Fin 5000, GQ0 V c (rowOf h50000 0 y) j := by
  have e := outsAt0_A V c ⟨0, lt_N0 0⟩ rfl (c0_zero0 _) (nc1_zero0 _)
  unfold accS0
  rw [show outsAt0 V c 0 (lt_N0 0) = _ from e]
  dsimp only
  rw [pieceA0_S, Cert.Proof.Pay0.total_apply, Cert.Proof.Pay0.zeroS]
  exact congrArg (fun z => (0 : EReal) + z) (Finset.sum_congr rfl fun y _ => tile_q0 V c 0 y j)

theorem accQ0_zero (c : Dev nD) (j : Fin 128) : accQ0 V c 0 (lt_N0 0) j = 0 + ∑ y : Fin 5000, GQ0 V c (rowOf h50000 0 y) j * GQ0 V c (rowOf h50000 0 y) j := by
  have e := outsAt0_A V c ⟨0, lt_N0 0⟩ rfl (c0_zero0 _) (nc1_zero0 _)
  unfold accQ0
  rw [show outsAt0 V c 0 (lt_N0 0) = _ from e]
  dsimp only
  rw [pieceA0_Q, Cert.Proof.Pay0.total_sq_apply, Cert.Proof.Pay0.zeroQ]
  exact congrArg (fun z => (0 : EReal) + z) (Finset.sum_congr rfl fun y _ => congrArg₂ (· * ·) (tile_q0 V c 0 y j) (tile_q0 V c 0 y j))

theorem accS0_succ (c : Dev nD) (n : ℕ) (hn : n + 1 < 9 + 1) (j : Fin 128) :
    accS0 V c (n + 1) (lt_N0 ⟨n + 1, hn⟩) j = accS0 V c n (lt_N0 ⟨n, Nat.lt_of_succ_lt hn⟩) j + ∑ y : Fin 5000, GQ0 V c (rowOf h50000 ⟨n + 1, hn⟩ y) j := by
  have hz : (⟨n + 1, lt_N0 ⟨n + 1, hn⟩⟩ : Fin cfg0.N).val ≠ 0 := Nat.succ_ne_zero n
  have hc0 := nc0_succ0 n (lt_N0 ⟨n + 1, hn⟩)
  unfold accS0
  by_cases h1 : (n + 1) % 10 = 9
  · have hc1 : cond0_1 (grid0.coords ⟨n + 1, lt_N0 ⟨n + 1, hn⟩⟩) := (hcond0_1 _).mpr h1
    have e := outsAt0_C V c ⟨n + 1, lt_N0 ⟨n + 1, hn⟩⟩ hz h1 hc0 hc1
    rw [show outsAt0 V c (n + 1) (lt_N0 ⟨n + 1, hn⟩) = _ from e]
    dsimp only
    rw [pieceC0_S, Cert.Proof.Pay0.total_apply]
    exact congrArg₂ (· + ·) rfl (Finset.sum_congr rfl fun y _ => tile_q0 V c ⟨n + 1, hn⟩ y j)
  · have hc1 : ¬cond0_1 (grid0.coords ⟨n + 1, lt_N0 ⟨n + 1, hn⟩⟩) := fun h => h1 ((hcond0_1 _).mp h)
    have e := outsAt0_B V c ⟨n + 1, lt_N0 ⟨n + 1, hn⟩⟩ hz h1 hc0 hc1
    rw [show outsAt0 V c (n + 1) (lt_N0 ⟨n + 1, hn⟩) = _ from e]
    dsimp only
    rw [pieceB0_S, Cert.Proof.Pay0.total_apply]
    exact congrArg₂ (· + ·) rfl (Finset.sum_congr rfl fun y _ => tile_q0 V c ⟨n + 1, hn⟩ y j)

theorem accQ0_succ (c : Dev nD) (n : ℕ) (hn : n + 1 < 9 + 1) (j : Fin 128) :
    accQ0 V c (n + 1) (lt_N0 ⟨n + 1, hn⟩) j = accQ0 V c n (lt_N0 ⟨n, Nat.lt_of_succ_lt hn⟩) j + ∑ y : Fin 5000, GQ0 V c (rowOf h50000 ⟨n + 1, hn⟩ y) j * GQ0 V c (rowOf h50000 ⟨n + 1, hn⟩ y) j := by
  have hz : (⟨n + 1, lt_N0 ⟨n + 1, hn⟩⟩ : Fin cfg0.N).val ≠ 0 := Nat.succ_ne_zero n
  have hc0 := nc0_succ0 n (lt_N0 ⟨n + 1, hn⟩)
  unfold accQ0
  by_cases h1 : (n + 1) % 10 = 9
  · have hc1 : cond0_1 (grid0.coords ⟨n + 1, lt_N0 ⟨n + 1, hn⟩⟩) := (hcond0_1 _).mpr h1
    have e := outsAt0_C V c ⟨n + 1, lt_N0 ⟨n + 1, hn⟩⟩ hz h1 hc0 hc1
    rw [show outsAt0 V c (n + 1) (lt_N0 ⟨n + 1, hn⟩) = _ from e]
    dsimp only
    rw [pieceC0_Q, Cert.Proof.Pay0.total_sq_apply]
    exact congrArg₂ (· + ·) rfl (Finset.sum_congr rfl fun y _ => congrArg₂ (· * ·) (tile_q0 V c ⟨n + 1, hn⟩ y j) (tile_q0 V c ⟨n + 1, hn⟩ y j))
  · have hc1 : ¬cond0_1 (grid0.coords ⟨n + 1, lt_N0 ⟨n + 1, hn⟩⟩) := fun h => h1 ((hcond0_1 _).mp h)
    have e := outsAt0_B V c ⟨n + 1, lt_N0 ⟨n + 1, hn⟩⟩ hz h1 hc0 hc1
    rw [show outsAt0 V c (n + 1) (lt_N0 ⟨n + 1, hn⟩) = _ from e]
    dsimp only
    rw [pieceB0_Q, Cert.Proof.Pay0.total_sq_apply]
    exact congrArg₂ (· + ·) rfl (Finset.sum_congr rfl fun y _ => congrArg₂ (· * ·) (tile_q0 V c ⟨n + 1, hn⟩ y j) (tile_q0 V c ⟨n + 1, hn⟩ y j))

theorem totS0 (c : Dev nD) (j : Fin 128) : accS0 V c 9 (lt_N0 9) j = Cert.Spec.colS (GQ0 V c) j :=
  Cert.LibTiledTotals.tiled_total h50000 (GQ0 V c) (fun t j => ∑ y : Fin 5000, GQ0 V c (rowOf h50000 t y) j) (fun _ _ => rfl)
    (fun t j => accS0 V c t.val (lt_N0 t) j) (accS0_zero V c) (fun t j => accS0_succ V c t.val (Nat.succ_lt_succ t.isLt) j) j
theorem totQ0 (c : Dev nD) (j : Fin 128) : accQ0 V c 9 (lt_N0 9) j = Cert.Spec.colQ (GQ0 V c) j :=
  Cert.LibTiledTotals.tiled_total_sq h50000 (GQ0 V c) (fun t j => ∑ y : Fin 5000, GQ0 V c (rowOf h50000 t y) j * GQ0 V c (rowOf h50000 t y) j) (fun _ _ => rfl)
    (fun t j => accQ0 V c t.val (lt_N0 t) j) (accQ0_zero V c) (fun t j => accQ0_succ V c t.val (Nat.succ_lt_succ t.isLt) j) j
theorem totS0' (c : Dev nD) (t : Fin cfg0.N) (h9 : t.val = 9) (j : Fin 128) : accS0 V c t.val t.isLt j = Cert.Spec.colS (GQ0 V c) j := by
  obtain rfl : t = ⟨9, lt_N0 9⟩ := Fin.ext h9
  exact totS0 V c j
theorem totQ0' (c : Dev nD) (t : Fin cfg0.N) (h9 : t.val = 9) (j : Fin 128) : accQ0 V c t.val t.isLt j = Cert.Spec.colQ (GQ0 V c) j := by
  obtain rfl : t = ⟨9, lt_N0 9⟩ := Fin.ext h9
  exact totQ0 V c j

abbrev pS0 (c : Dev nD) (t : Fin cfg0.N) : Vec Ideal S1x128 .f32 := (outsAt0 V c (t.val - 1) (Nat.lt_of_le_of_lt (Nat.sub_le _ _) t.isLt)).2.2.1
abbrev pQ0 (c : Dev nD) (t : Fin cfg0.N) : Vec Ideal S1x128 .f32 := (outsAt0 V c (t.val - 1) (Nat.lt_of_le_of_lt (Nat.sub_le _ _) t.isLt)).2.2.2
abbrev S9_0 (c : Dev nD) (t : Fin cfg0.N) : Vec Ideal S1x128 .f32 := k0_pay4 (iblk0 V c 0 t) (iblk0 V c 1 t) (pS0 V c t)
abbrev Q9_0 (c : Dev nD) (t : Fin cfg0.N) : Vec Ideal S1x128 .f32 := k0_pay5 (iblk0 V c 0 t) (iblk0 V c 1 t) (pQ0 V c t)

set_option maxHeartbeats 3200000 in
theorem last0 (c : Dev nD) (t : Fin cfg0.N) (h9 : t.val = 9) :
    outsAt0 V c t.val t.isLt = (k0_pay7 (S9_0 V c t) (Q9_0 V c t) (iblk0 V c 2 t), k0_pay8 (S9_0 V c t) (Q9_0 V c t) (iblk0 V c 2 t) (iblk0 V c 3 t), S9_0 V c t, Q9_0 V c t) := by
  have h9' : t.val % 10 = 9 := by rw [h9]
  have hz : t.val ≠ 0 := by rw [h9]; decide
  have hc0 : ¬cond0_0 (grid0.coords t) := fun h => by have := (hcond0_0 t).mp h; omega
  have hc1 : cond0_1 (grid0.coords t) := (hcond0_1 t).mpr h9'
  refine (outsAt0_C V c t hz h9' hc0 hc1).trans ?_
  rw [(pieceC0_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (pS0 V c t) (pQ0 V c t)), (pieceC0_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (pS0 V c t) (pQ0 V c t)), (pieceC0_S (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (pS0 V c t) (pQ0 V c t)), (pieceC0_Q (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (pS0 V c t) (pQ0 V c t))]

theorem scale0_val (c : Dev nD) (t : Fin cfg0.N) (h9 : t.val = 9) (j : Fin 128) :
    ((outsAt0 V c t.val t.isLt).1 : S1x128.Idx → EReal) (r0_0 j) = Cert.Spec.scaleK (GQ0 V c) (in0_2 V c) cW epsW j := by
  have hS : (S9_0 V c t : S1x128.Idx → EReal) (r0_0 j) = Cert.Spec.colS (GQ0 V c) j := by
    rw [← totS0' V c t h9]; unfold accS0; rw [last0 V c t h9]
  have hQ : (Q9_0 V c t : S1x128.Idx → EReal) (r0_0 j) = Cert.Spec.colQ (GQ0 V c) j := by
    rw [← totQ0' V c t h9]; unfold accQ0; rw [last0 V c t h9]
  rw [last0 V c t h9]
  dsimp only
  rw [Cert.Proof.Pay0.scale_apply, hS, hQ, res0_2 V c t j]
  rfl

theorem shift0_val (c : Dev nD) (t : Fin cfg0.N) (h9 : t.val = 9) (j : Fin 128) :
    ((outsAt0 V c t.val t.isLt).2.1 : S1x128.Idx → EReal) (r0_0 j) = Cert.Spec.shiftK (GQ0 V c) (in0_2 V c) (in0_3 V c) cW epsW j := by
  have hS : (S9_0 V c t : S1x128.Idx → EReal) (r0_0 j) = Cert.Spec.colS (GQ0 V c) j := by
    rw [← totS0' V c t h9]; unfold accS0; rw [last0 V c t h9]
  have hsc := scale0_val V c t h9 j
  rw [last0 V c t h9] at hsc
  dsimp only at hsc
  rw [last0 V c t h9]
  dsimp only
  rw [Cert.Proof.Pay0.shift_apply, hsc, hS, res0_3 V c t j]
  rfl

/-- THE REGION'S VALUE: the two result arrays after the region are the batch norm's scale and shift rows. -/
theorem scaleArr0 (c : Dev nD) (j : Fin 128) :
    ((dat0 V c).arrAt 4 cfg0.N : S1x128.Idx → EReal) (r0_0 j) = Cert.Spec.scaleK (GQ0 V c) (in0_2 V c) cW epsW j := by
  rw [final0_4]; unfold G0_4
  exact scale0_val V c tL0 tL0_val j
theorem shiftArr0 (c : Dev nD) (j : Fin 128) :
    ((dat0 V c).arrAt 5 cfg0.N : S1x128.Idx → EReal) (r0_0 j) = Cert.Spec.shiftK (GQ0 V c) (in0_2 V c) (in0_3 V c) cW epsW j := by
  rw [final0_5]; unfold G0_5
  exact shift0_val V c tL0 tL0_val j

end Cert.KernelIdeal.Hand

end
-- ==== Proof.R1Val.lean ====
/-
  Pipeline 1 (a statistics kernel): each case's stores read back as the body's arithmetic. A buffer stored whole
  holds the stored value, and a load of it after the store reads that value: after the first tile the running rows
  are the tile's totals added to the zero rows, after a later tile the totals added to what the tile before left,
  and at the last tile the scale and the shift are computed from the rows as this tile leaves them.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R1B
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2_1 : (![0, 0] : Fin 2 → Nat) = fun _ => 0 := funext fun a => by fin_cases a <;> rfl

theorem pieceA1_S (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) :
    rd1 (F := F) (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6).1 = k1_pay8 x0 x1 x3 x4 x2 (k1_pay5 (F := F)) := by
  unfold rd1
  rw [View.read_writes_eq_canon _ _ _ (scoverA1_0 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun1_A
  dsimp only
  try sl_unfold_words
  first | rw [View.canon_cons_unit_zero (S := S1x128) hz2_1] | rw [View.canon_unit_zero hz2_1]
  simp only [View.readCov_unit_zero (S := S1x128) _ hz2_1, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_1, View.ld_unit_zero (S := S128x128) hz2_1, View.ld_unit_zero (S := S1x128) hz2_1]

theorem pieceA1_Q (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) :
    rd1 (F := F) (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6).2.1 = k1_pay1 (k1_pay6 (F := F)) (k1_pay9 x0 x1 x3 x4 x2) := by
  unfold rd1
  rw [View.read_writes_eq_canon _ _ _ (scoverA1_1 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun1_A
  dsimp only
  try sl_unfold_words
  first | rw [View.canon_cons_unit_zero (S := S1x128) hz2_1] | rw [View.canon_unit_zero hz2_1]
  simp only [View.readCov_unit_zero (S := S1x128) _ hz2_1, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_1, View.ld_unit_zero (S := S128x128) hz2_1, View.ld_unit_zero (S := S1x128) hz2_1]

theorem pieceB1_S (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd1 (F := F) (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 = k1_pay8 x0 x1 x3 x4 x2 xs0 := by
  unfold rd1
  rw [View.read_writes_eq_canon _ _ _ (scoverB1_0 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_B
  dsimp only
  try sl_unfold_words
  first | rw [View.canon_cons_unit_zero (S := S1x128) hz2_1] | rw [View.canon_unit_zero hz2_1]
  simp only [View.readCov_unit_zero (S := S1x128) _ hz2_1, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_1, View.ld_unit_zero (S := S128x128) hz2_1, View.ld_unit_zero (S := S1x128) hz2_1]

theorem pieceB1_Q (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd1 (F := F) (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 = k1_pay1 xs1 (k1_pay9 x0 x1 x3 x4 x2) := by
  unfold rd1
  rw [View.read_writes_eq_canon _ _ _ (scoverB1_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_B
  dsimp only
  try sl_unfold_words
  first | rw [View.canon_cons_unit_zero (S := S1x128) hz2_1] | rw [View.canon_unit_zero hz2_1]
  simp only [View.readCov_unit_zero (S := S1x128) _ hz2_1, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_1, View.ld_unit_zero (S := S128x128) hz2_1, View.ld_unit_zero (S := S1x128) hz2_1]

theorem pieceC1_S (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd1 (F := F) (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.1 = k1_pay8 x0 x1 x3 x4 x2 xs0 := by
  unfold rd1
  rw [View.read_writes_eq_canon _ _ _ (scoverC1_0 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_C
  dsimp only
  try sl_unfold_words
  first | rw [View.canon_cons_unit_zero (S := S1x128) hz2_1] | rw [View.canon_unit_zero hz2_1]
  simp only [View.readCov_unit_zero (S := S1x128) _ hz2_1, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_1, View.ld_unit_zero (S := S128x128) hz2_1, View.ld_unit_zero (S := S1x128) hz2_1]

theorem pieceC1_Q (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd1 (F := F) (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.2.1 = k1_pay1 xs1 (k1_pay9 x0 x1 x3 x4 x2) := by
  unfold rd1
  rw [View.read_writes_eq_canon _ _ _ (scoverC1_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_C
  dsimp only
  try sl_unfold_words
  first | rw [View.canon_cons_unit_zero (S := S1x128) hz2_1] | rw [View.canon_unit_zero hz2_1]
  simp only [View.readCov_unit_zero (S := S1x128) _ hz2_1, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_1, View.ld_unit_zero (S := S128x128) hz2_1, View.ld_unit_zero (S := S1x128) hz2_1]

theorem pieceC1_1 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd1 (F := F) (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 = k1_pay3 (k1_pay8 x0 x1 x3 x4 x2 xs0) (k1_pay1 xs1 (k1_pay9 x0 x1 x3 x4 x2)) x5 := by
  unfold rd1
  rw [View.read_writes_eq_canon _ _ _ (coverC1_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_C
  dsimp only
  try sl_unfold_words
  first | rw [View.canon_cons_unit_zero (S := S1x128) hz2_1] | rw [View.canon_unit_zero hz2_1]
  simp only [View.readCov_unit_zero (S := S1x128) _ hz2_1, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_1, View.ld_unit_zero (S := S128x128) hz2_1, View.ld_unit_zero (S := S1x128) hz2_1]

theorem pieceC1_2 (c : Dev nD) (i : grid1.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd1 (F := F) (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 = k1_pay4 (k1_pay8 x0 x1 x3 x4 x2 xs0) (k1_pay1 xs1 (k1_pay9 x0 x1 x3 x4 x2)) x5 x6 := by
  unfold rd1
  rw [View.read_writes_eq_canon _ _ _ (coverC1_2 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_C
  dsimp only
  try sl_unfold_words
  first | rw [View.canon_cons_unit_zero (S := S1x128) hz2_1] | rw [View.canon_unit_zero hz2_1]
  simp only [View.readCov_unit_zero (S := S1x128) _ hz2_1, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_1, View.ld_unit_zero (S := S128x128) hz2_1, View.ld_unit_zero (S := S1x128) hz2_1]

end Cert.KernelIdeal.Hand

end
-- ==== Proof.R1Arr.lean ====
/-
  Pipeline 1: the two result arrays after the region. Each result window is written back once, at the last
  point, and its one block is the whole [1, 128] array; so the array ends holding the row the last point stored.
-/
import proofs.«180905_j29583734735286_1_alg».proof.Proof.R1B
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The last grid point. -/
def tL1 : Fin cfg1.N := ⟨9, lt_of_lt_of_eq (by decide) N_1.symm⟩
theorem tL1_val : tL1.val = 9 := rfl
attribute [irreducible] tL1

theorem idx1_7 : ∀ t : Fin cfg1.N, win1_7.index t 0 = 0 ∧ win1_7.index t 1 = 0 := by
  intro t; rcases fin_N1 t with rfl | rfl | rfl | rfl | rfl | rfl | rfl | rfl | rfl | rfl <;> decide
theorem xsz1_7 : ∀ t : Fin cfg1.N, win1_7.xsize (grid1.coords t) 0 = 1 ∧ win1_7.xsize (grid1.coords t) 1 = 128 := by
  intro t; rcases fin_N1 t with rfl | rfl | rfl | rfl | rfl | rfl | rfl | rfl | rfl | rfl <;> decide +kernel

/-- What the region leaves in its result array: the row stored at the last point. -/
def G1_7 (c : Dev nD) : Buf (Elt F) ((c : Thread nD τ).loc main_v43_0) := (outsAt1 V c tL1.val tL1.isLt).1

theorem flushed1_7 (c : Dev nD) (t : Fin cfg1.N) (hf : (cfg1.win 7).flush t = true) :
    (dat1 V c).flushed 7 t = ((cfg1.win 7).blk t).view.read (Elt F) (G1_7 V c) := by
  have hN : cfg1.N = 10 := N_1
  have h1 : t.val = 9 := by have := (flush1_7 t).mp hf; have := t.isLt; omega
  obtain rfl : t = tL1 := Fin.ext (h1.trans tL1_val.symm)
  show (cfg1.win 7).cut (grid1.coords tL1) ((dat1 V c).after 7 tL1) = _
  rw [after1_7]
  have hz' : (fun a => win1_7.index tL1 a * main_v43_0.ty.shape.size a) = fun _ => 0 := funext fun a => by
    match a with
    | ⟨0, _⟩ => show win1_7.index tL1 0 * _ = 0; rw [(idx1_7 tL1).1, Nat.zero_mul]
    | ⟨1, _⟩ => show win1_7.index tL1 1 * _ = 0; rw [(idx1_7 tL1).2, Nat.zero_mul]
  exact (Memref.read_access_unit_zero (Elt F) main_v43_0 hz' (fun a => by rw [congrFun hz' a]; simp) (G1_7 V c)).symm

theorem final1_7 (c : Dev nD) : (dat1 V c).arrAt 7 cfg1.N = G1_7 V c :=
  (dat1 V c).arrAt_eq_of_cover 7 (G1_7 V c) (flushed1_7 V c) fun i =>
    ⟨tL1, (flush1_7 tL1).mpr (by rw [tL1_val]), by
      show i ∈ ((View.whole main_v43_0).slice (win1_7.rect tL1)).set
      rw [View.set_slice_whole, Rect.mem_set_unit]
      intro a
      have h0 : (i 0 : Nat) < 1 := (i 0).isLt
      have h1 : (i 1 : Nat) < 128 := (i 1).isLt
      match a with
      | ⟨0, _⟩ => show win1_7.index tL1 0 * win1_7.size 0 ≤ (i 0 : Nat) ∧ (i 0 : Nat) < win1_7.index tL1 0 * win1_7.size 0 + win1_7.xsize (grid1.coords tL1) 0
                  rw [(idx1_7 tL1).1, (xsz1_7 tL1).1]; omega
      | ⟨1, _⟩ => show win1_7.index tL1 1 * win1_7.size 1 ≤ (i 1 : Nat) ∧ (i 1 : Nat) < win1_7.index tL1 1 * win1_7.size 1 + win1_7.xsize (grid1.coords tL1) 1
                  rw [(idx1_7 tL1).2, (xsz1_7 tL1).2]; omega⟩

theorem idx1_8 : ∀ t : Fin cfg1.N, win1_8.index t 0 = 0 ∧ win1_8.index t 1 = 0 := by
  intro t; rcases fin_N1 t with rfl | rfl | rfl | rfl | rfl | rfl | rfl | rfl | rfl | rfl <;> decide
theorem xsz1_8 : ∀ t : Fin cfg1.N, win1_8.xsize (grid1.coords t) 0 = 1 ∧ win1_8.xsize (grid1.coords t) 1 = 128 := by
  intro t; rcases fin_N1 t with rfl | rfl | rfl | rfl | rfl | rfl | rfl | rfl | rfl | rfl <;> decide +kernel

/-- What the region leaves in its result array: the row stored at the last point. -/
def G1_8 (c : Dev nD) : Buf (Elt F) ((c : Thread nD τ).loc main_v43_1) := (outsAt1 V c tL1.val tL1.isLt).2.1

theorem flushed1_8 (c : Dev nD) (t : Fin cfg1.N) (hf : (cfg1.win 8).flush t = true) :
    (dat1 V c).flushed 8 t = ((cfg1.win 8).blk t).view.read (Elt F) (G1_8 V c) := by
  have hN : cfg1.N = 10 := N_1
  have h1 : t.val = 9 := by have := (flush1_8 t).mp hf; have := t.isLt; omega
  obtain rfl : t = tL1 := Fin.ext (h1.trans tL1_val.symm)
  show (cfg1.win 8).cut (grid1.coords tL1) ((dat1 V c).after 8 tL1) = _
  rw [after1_8]
  have hz' : (fun a => win1_8.index tL1 a * main_v43_1.ty.shape.size a) = fun _ => 0 := funext fun a => by
    match a with
    | ⟨0, _⟩ => show win1_8.index tL1 0 * _ = 0; rw [(idx1_8 tL1).1, Nat.zero_mul]
    | ⟨1, _⟩ => show win1_8.index tL1 1 * _ = 0; rw [(idx1_8 tL1).2, Nat.zero_mul]
  exact (Memref.read_access_unit_zero (Elt F) main_v43_1 hz' (fun a => by rw [congrFun hz' a]; simp) (G1_8 V c)).symm

theorem final1_8 (c : Dev nD) : (dat1 V c).arrAt 8 cfg1.N = G1_8 V c :=
  (dat1 V c).arrAt_eq_of_cover 8 (G1_8 V c) (flushed1_8 V c) fun i =>
    ⟨tL1, (flush1_8 tL1).mpr (by rw [tL1_val]), by
      show i ∈ ((View.whole main_v43_1).slice (win1_8.rect tL1)).set
      rw [View.set_slice_whole, Rect.mem_set_unit]
      intro a
      have h0 : (i 0 : Nat) < 1 := (i 0).isLt
      have h1 : (i 1 : Nat) < 128 := (i 1).isLt
      match a with
      | ⟨0, _⟩ => show win1_8.index tL1 0 * win1_8.size 0 ≤ (i 0 : Nat) ∧ (i 0 : Nat) < win1_8.index tL1 0 * win1_8.size 0 + win1_8.xsize (grid1.coords tL1) 0
                  rw [(idx1_8 tL1).1, (xsz1_8 tL1).1]; omega
      | ⟨1, _⟩ => show win1_8.index tL1 1 * win1_8.size 1 ≤ (i 1 : Nat) ∧ (i 1 : Nat) < win1_8.index tL1 1 * win1_8.size 1 + win1_8.xsize (grid1.coords tL1) 1
                  rw [(idx1_8 tL1).2, (xsz1_8 tL1).2]; omega⟩

end Cert.KernelIdeal.Hand

end
-- ==== Proof.Pay1.lean ====
/-
  The payloads of pipeline 1's body (a statistics kernel) at the ideal values, read at an index: the tile
  quantity whose column statistics the kernel takes, the two running rows after a tile, the zero rows of the reset,
  and the mean, scale and shift the last point computes. A change of float format is the identity on the extended
  reals, a matrix product into a zero accumulator is the row-by-column sum, a lane reduction is a finite sum.
-/
import proofs.«180905_j29583734735286_1_alg».proof.Proof.Gen.KernelIdeal.Skeleton
import Idealize.ShloMosaic.Lib.ValueIdx
import Idealize.ShloMosaic.Lib.Pipeline.Value
import Idealize.ShloMosaic.PureOps.Ideal.Laws
import proofs.«180905_j29583734735286_1_alg».proof.Proof.LibDense
import proofs.«180905_j29583734735286_1_alg».proof.Proof.LibAxisSum
import proofs.«180905_j29583734735286_1_alg».proof.Proof.LibBiasRows

noncomputable section

namespace Cert.Proof.Pay1

open Idealize.ShloMosaic Idealize.ShloMosaic.ValueIdx Cert.KernelIdeal Cert.KernelIdeal.Gen
open scoped BigOperators

abbrev r0 (j : Fin 128) : S1x128.Idx := ix2 ⟨0, Nat.one_pos⟩ j
abbrev zW : EReal := Ideal.ofBits .f32 0x00000000#32

theorem inv_n : Named.named (F := Ideal) Cert.KernelIdeal.κ "inv_50000" (φ := .f32) 0x37A7C5AC#32
    = ((1 / 50000 : ℝ) : EReal) :=
  IdealRules.named_const.ideal_named_scalar _ _ _ _ rfl

/-- The tile quantity. -/
abbrev q (x0 : FVec Ideal S5000x128 .f32) (x1 : FVec Ideal S128x128 .bf16) (x2 : FVec Ideal S128x128 .bf16) (x3 : FVec Ideal S1x128 .f32) (x4 : FVec Ideal S1x128 .f32) : FVec Ideal S5000x128 .f32 := k1_pay7 x0 x1 x3 x4 x2

theorem q_apply (x0 : FVec Ideal S5000x128 .f32) (x1 : FVec Ideal S128x128 .bf16) (x2 : FVec Ideal S128x128 .bf16) (x3 : FVec Ideal S1x128 .f32) (x4 : FVec Ideal S1x128 .f32) (y : Fin 5000) (j : Fin 128) :
    q x0 x1 x2 x3 x4 (ix2 y j) = ∑ k : Fin 128, max ((∑ k' : Fin 128, x0 (ix2 y k') * x1 (ix2 k' k)) * x3 (r0 k) + x4 (r0 k)) zW * x2 (ix2 k j) := by
  unfold q k1_pay7
  simp only [shapeCast_self]
  refine (Cert.LibDense.matmul_plain (M := 5000) (K := 128) (N := 128) (φ₁ := .bf16) (φ₂ := .bf16) _ x2 (ix2 y j)).trans ?_
  refine Finset.sum_congr rfl fun k _ => congrArg (fun z => z * x2 (ix2 k j)) ?_
  show max (FloatOps.matmul (DotDims.plain 5000 128 128) none _ x1 (constant (F := Ideal) S5000x128 .f32 0x00000000#32) (ix2 y k)
      * broadcastTo S5000x128 x3 broadcasts_S1x128_S5000x128 (ix2 y k)
      + broadcastTo S5000x128 x4 broadcasts_S1x128_S5000x128 (ix2 y k)) zW = _
  rw [Cert.LibBiasRows.row_broadcast (n := 5000) (d := 128) x3, Cert.LibBiasRows.row_broadcast (n := 5000) (d := 128) x4, Cert.LibDense.matmul_plain (M := 5000) (K := 128) (N := 128)]
  rfl

theorem total_apply (x0 : FVec Ideal S5000x128 .f32) (x1 : FVec Ideal S128x128 .bf16) (x2 : FVec Ideal S128x128 .bf16) (x3 : FVec Ideal S1x128 .f32) (x4 : FVec Ideal S1x128 .f32) (old : FVec Ideal S1x128 .f32) (j : Fin 128) :
    (k1_pay8 x0 x1 x3 x4 x2 old : FVec Ideal S1x128 .f32) (r0 j) = old (r0 j) + ∑ y : Fin 5000, q x0 x1 x2 x3 x4 (ix2 y j) := by
  unfold k1_pay8
  simp only [shapeCast_self]
  refine congrArg (fun z => old (r0 j) + z) ?_
  refine (Cert.LibBiasRows.row_of_vector _ _ j).trans ?_
  exact Cert.LibAxisSum.sum_first (n := 5000) (d := 128) _ _ _ _ _ j

theorem total_sq_apply (x0 : FVec Ideal S5000x128 .f32) (x1 : FVec Ideal S128x128 .bf16) (x2 : FVec Ideal S128x128 .bf16) (x3 : FVec Ideal S1x128 .f32) (x4 : FVec Ideal S1x128 .f32) (old : FVec Ideal S1x128 .f32) (j : Fin 128) :
    (k1_pay1 old (k1_pay9 x0 x1 x3 x4 x2) : FVec Ideal S1x128 .f32) (r0 j) = old (r0 j) + ∑ y : Fin 5000, q x0 x1 x2 x3 x4 (ix2 y j) * q x0 x1 x2 x3 x4 (ix2 y j) := by
  unfold k1_pay1 k1_pay9
  simp only [shapeCast_self]
  refine congrArg (fun z => old (r0 j) + z) ?_
  refine (Cert.LibBiasRows.row_of_vector _ _ j).trans ?_
  exact Cert.LibAxisSum.sum_first (n := 5000) (d := 128) _ _ _ _ _ j

theorem zeroS (j : Fin 128) : (k1_pay5 (F := Ideal) : S1x128.Idx → EReal) (r0 j) = 0 := by
  unfold k1_pay5; rw [shapeCast_self]; exact Ideal.ofBits_zero_f32
theorem zeroQ (j : Fin 128) : (k1_pay6 (F := Ideal) : S1x128.Idx → EReal) (r0 j) = 0 := by
  unfold k1_pay6; rw [shapeCast_self]; exact Ideal.ofBits_zero_f32

theorem mean_apply (v27 : FVec Ideal S1x128 .f32) (j : Fin 128) :
    k1_pay2 (F := Ideal) v27 (r0 j) = v27 (r0 j) * ((1 / 50000 : ℝ) : EReal) := by
  unfold k1_pay2
  exact congrArg (fun z => v27 (r0 j) * z) inv_n

theorem scale_apply (v27 v30 v35 : FVec Ideal S1x128 .f32) (j : Fin 128) :
    k1_pay3 (F := Ideal) v27 v30 v35 (r0 j)
      = v35 (r0 j) * Ideal.rsqrt (v30 (r0 j) * ((1 / 50000 : ℝ) : EReal)
          - v27 (r0 j) * ((1 / 50000 : ℝ) : EReal) * (v27 (r0 j) * ((1 / 50000 : ℝ) : EReal))
          + Ideal.ofBits .f32 0x3727C5AC#32) := by
  unfold k1_pay3
  rw [shapeCast_self]
  show v35 (r0 j) * Ideal.rsqrt (v30 (r0 j) * Named.named (F := Ideal) Cert.KernelIdeal.κ "inv_50000" (φ := .f32) 0x37A7C5AC#32
      - k1_pay2 (F := Ideal) v27 (r0 j) * k1_pay2 (F := Ideal) v27 (r0 j) + Ideal.ofBits .f32 0x3727C5AC#32) = _
  rw [mean_apply, inv_n]

theorem shift_apply (v27 v30 v35 v41 : FVec Ideal S1x128 .f32) (j : Fin 128) :
    k1_pay4 (F := Ideal) v27 v30 v35 v41 (r0 j)
      = v41 (r0 j) - v27 (r0 j) * ((1 / 50000 : ℝ) : EReal) * k1_pay3 (F := Ideal) v27 v30 v35 (r0 j) := by
  unfold k1_pay4
  rw [shapeCast_self]
  show v41 (r0 j) - k1_pay2 (F := Ideal) v27 (r0 j) * k1_pay3 (F := Ideal) v27 v30 v35 (r0 j) = _
  rw [mean_apply]

end Cert.Proof.Pay1

end
-- ==== Proof.R1Sum.lean ====
/-
  Pipeline 1 (a statistics kernel), at the ideal values: what the region leaves in its two result arrays.
  The tile of x a point holds is rows 5000·t … 5000·t + 4999 of x; every other input block is its whole array at
  every point. The quantity whose statistics the kernel takes reads one row of x, so on a tile it is the whole
  array's quantity at the tile's rows; the running rows therefore end at its column totals over all 50000 rows
  (a running total over the ten tiles), and the stored scale and shift are the batch-norm formulas of those totals.
  Each result array is written back once, at the last point, whole.
-/
import proofs.«180905_j29583734735286_1_alg».proof.Proof.R1Val
import proofs.«180905_j29583734735286_1_alg».proof.Proof.R1Arr
import proofs.«180905_j29583734735286_1_alg».proof.Proof.Pay1
import proofs.«180905_j29583734735286_1_alg».proof.Proof.LibTiledTotals
import proofs.«180905_j29583734735286_1_alg».proof.Proof.Spec
import proofs.«180905_j29583734735286_1_alg».proof.Proof.ValCommon
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibBatchNorm (rowOf)
open scoped BigOperators

variable (V : (c : Dev nD) → (b : Ref sig .tc) → Buf (Elt Ideal) ((c : Thread nD τ).loc b))

abbrev r0_1 (j : Fin 128) : S1x128.Idx := ix2 ⟨0, Nat.one_pos⟩ j
theorem lt_N1 (t : Fin (9 + 1)) : t.val < cfg1.N := lt_of_lt_of_eq t.isLt N_1.symm

def in1_0 (c : Dev nD) (r : Fin 50000) (k : Fin 128) : EReal := (V c main_v17 : S50000x128.Idx → EReal) (ix2 r k)
theorem idx1_0 : ∀ t : Fin cfg1.N, win1_0.index t 0 = t.val ∧ win1_0.index t 1 = 0 := by
  intro t; rcases fin_N1 t with rfl | rfl | rfl | rfl | rfl | rfl | rfl | rfl | rfl | rfl <;> decide
theorem tile1_0 (c : Dev nD) (t : Fin cfg1.N) (y : Fin 5000) (k : Fin 128) (R : Fin 50000) (hR : R.val = t.val * 5000 + y.val) :
    (iblk1 V c 0 t : Vec Ideal S5000x128 .f32) (ix2 y k) = in1_0 V c R k := by
  unfold iblk1 in1_0
  rw [View.read_apply]
  show (V c main_v17 : S50000x128.Idx → EReal) _ = (V c main_v17 : S50000x128.Idx → EReal) _
  congr 1
  funext a
  apply Fin.ext
  match a with
  | ⟨0, _⟩ => show win1_0.index t 0 * 5000 + 1 * y.val = R.val; rw [(idx1_0 t).1, hR]; omega
  | ⟨1, _⟩ => show win1_0.index t 1 * 128 + 1 * k.val = k.val; rw [(idx1_0 t).2]; omega
theorem blk1_0 (c : Dev nD) (t : Fin (9 + 1)) (y : Fin 5000) (k : Fin 128) :
    (iblk1 V c 0 ⟨t.val, lt_N1 t⟩ : FVec Ideal S5000x128 .f32) (ix2 y k) = in1_0 V c (rowOf h50000 t y) k :=
  tile1_0 V c ⟨t.val, lt_N1 t⟩ y k (rowOf h50000 t y) rfl

def in1_1 (c : Dev nD) (k j : Fin 128) : EReal := (V c main_v20 : S128x128.Idx → EReal) (ix2 k j)
theorem idx1_1 : ∀ t : Fin cfg1.N, win1_1.index t 0 = 0 ∧ win1_1.index t 1 = 0 := by
  intro t; rcases fin_N1 t with rfl | rfl | rfl | rfl | rfl | rfl | rfl | rfl | rfl | rfl <;> decide
theorem res1_1 (c : Dev nD) (t : Fin cfg1.N) (k j : Fin 128) :
    (iblk1 V c 1 t : Vec Ideal S128x128 .bf16) (ix2 k j) = in1_1 V c k j := by
  unfold iblk1 in1_1
  rw [View.read_apply]
  show (V c main_v20 : S128x128.Idx → EReal) _ = (V c main_v20 : S128x128.Idx → EReal) _
  congr 1
  funext a
  apply Fin.ext
  match a with
  | ⟨0, _⟩ => show win1_1.index t 0 * 128 + 1 * k.val = k.val; rw [(idx1_1 t).1]; omega
  | ⟨1, _⟩ => show win1_1.index t 1 * 128 + 1 * j.val = j.val; rw [(idx1_1 t).2]; omega
theorem blk1_1 (c : Dev nD) (t : Fin (9 + 1)) (k j : Fin 128) :
    (iblk1 V c 1 ⟨t.val, lt_N1 t⟩ : FVec Ideal S128x128 .bf16) (ix2 k j) = in1_1 V c k j :=
  res1_1 V c ⟨t.val, lt_N1 t⟩ k j

def in1_2 (c : Dev nD) (k j : Fin 128) : EReal := (V c main_v23 : S128x128.Idx → EReal) (ix2 k j)
theorem idx1_2 : ∀ t : Fin cfg1.N, win1_2.index t 0 = 0 ∧ win1_2.index t 1 = 0 := by
  intro t; rcases fin_N1 t with rfl | rfl | rfl | rfl | rfl | rfl | rfl | rfl | rfl | rfl <;> decide
theorem res1_2 (c : Dev nD) (t : Fin cfg1.N) (k j : Fin 128) :
    (iblk1 V c 2 t : Vec Ideal S128x128 .bf16) (ix2 k j) = in1_2 V c k j := by
  unfold iblk1 in1_2
  rw [View.read_apply]
  show (V c main_v23 : S128x128.Idx → EReal) _ = (V c main_v23 : S128x128.Idx → EReal) _
  congr 1
  funext a
  apply Fin.ext
  match a with
  | ⟨0, _⟩ => show win1_2.index t 0 * 128 + 1 * k.val = k.val; rw [(idx1_2 t).1]; omega
  | ⟨1, _⟩ => show win1_2.index t 1 * 128 + 1 * j.val = j.val; rw [(idx1_2 t).2]; omega
theorem blk1_2 (c : Dev nD) (t : Fin (9 + 1)) (k j : Fin 128) :
    (iblk1 V c 2 ⟨t.val, lt_N1 t⟩ : FVec Ideal S128x128 .bf16) (ix2 k j) = in1_2 V c k j :=
  res1_2 V c ⟨t.val, lt_N1 t⟩ k j

def in1_3 (c : Dev nD) (j : Fin 128) : EReal := (V c main_v42_0 : S1x128.Idx → EReal) (ix2 ⟨0, Nat.one_pos⟩ j)
theorem idx1_3 : ∀ t : Fin cfg1.N, win1_3.index t 0 = 0 ∧ win1_3.index t 1 = 0 := by
  intro t; rcases fin_N1 t with rfl | rfl | rfl | rfl | rfl | rfl | rfl | rfl | rfl | rfl <;> decide
theorem res1_3 (c : Dev nD) (t : Fin cfg1.N) (j : Fin 128) :
    (iblk1 V c 3 t : Vec Ideal S1x128 .f32) (ix2 ⟨0, Nat.one_pos⟩ j) = in1_3 V c j := by
  unfold iblk1 in1_3
  rw [View.read_apply]
  show (V c main_v42_0 : S1x128.Idx → EReal) _ = (V c main_v42_0 : S1x128.Idx → EReal) _
  congr 1
  funext a
  apply Fin.ext
  match a with
  | ⟨0, _⟩ => show win1_3.index t 0 * 1 + 1 * 0 = 0; rw [(idx1_3 t).1]
  | ⟨1, _⟩ => show win1_3.index t 1 * 128 + 1 * j.val = j.val; rw [(idx1_3 t).2]; omega
theorem blk1_3 (c : Dev nD) (t : Fin (9 + 1)) (j : Fin 128) :
    (iblk1 V c 3 ⟨t.val, lt_N1 t⟩ : FVec Ideal S1x128 .f32) (ix2 ⟨0, Nat.one_pos⟩ j) = in1_3 V c j :=
  res1_3 V c ⟨t.val, lt_N1 t⟩ j

def in1_4 (c : Dev nD) (j : Fin 128) : EReal := (V c main_v42_1 : S1x128.Idx → EReal) (ix2 ⟨0, Nat.one_pos⟩ j)
theorem idx1_4 : ∀ t : Fin cfg1.N, win1_4.index t 0 = 0 ∧ win1_4.index t 1 = 0 := by
  intro t; rcases fin_N1 t with rfl | rfl | rfl | rfl | rfl | rfl | rfl | rfl | rfl | rfl <;> decide
theorem res1_4 (c : Dev nD) (t : Fin cfg1.N) (j : Fin 128) :
    (iblk1 V c 4 t : Vec Ideal S1x128 .f32) (ix2 ⟨0, Nat.one_pos⟩ j) = in1_4 V c j := by
  unfold iblk1 in1_4
  rw [View.read_apply]
  show (V c main_v42_1 : S1x128.Idx → EReal) _ = (V c main_v42_1 : S1x128.Idx → EReal) _
  congr 1
  funext a
  apply Fin.ext
  match a with
  | ⟨0, _⟩ => show win1_4.index t 0 * 1 + 1 * 0 = 0; rw [(idx1_4 t).1]
  | ⟨1, _⟩ => show win1_4.index t 1 * 128 + 1 * j.val = j.val; rw [(idx1_4 t).2]; omega
theorem blk1_4 (c : Dev nD) (t : Fin (9 + 1)) (j : Fin 128) :
    (iblk1 V c 4 ⟨t.val, lt_N1 t⟩ : FVec Ideal S1x128 .f32) (ix2 ⟨0, Nat.one_pos⟩ j) = in1_4 V c j :=
  res1_4 V c ⟨t.val, lt_N1 t⟩ j

def in1_5 (c : Dev nD) (j : Fin 128) : EReal := (V c main_v32 : S1x128.Idx → EReal) (ix2 ⟨0, Nat.one_pos⟩ j)
theorem idx1_5 : ∀ t : Fin cfg1.N, win1_5.index t 0 = 0 ∧ win1_5.index t 1 = 0 := by
  intro t; rcases fin_N1 t with rfl | rfl | rfl | rfl | rfl | rfl | rfl | rfl | rfl | rfl <;> decide
theorem res1_5 (c : Dev nD) (t : Fin cfg1.N) (j : Fin 128) :
    (iblk1 V c 5 t : Vec Ideal S1x128 .f32) (ix2 ⟨0, Nat.one_pos⟩ j) = in1_5 V c j := by
  unfold iblk1 in1_5
  rw [View.read_apply]
  show (V c main_v32 : S1x128.Idx → EReal) _ = (V c main_v32 : S1x128.Idx → EReal) _
  congr 1
  funext a
  apply Fin.ext
  match a with
  | ⟨0, _⟩ => show win1_5.index t 0 * 1 + 1 * 0 = 0; rw [(idx1_5 t).1]
  | ⟨1, _⟩ => show win1_5.index t 1 * 128 + 1 * j.val = j.val; rw [(idx1_5 t).2]; omega
theorem blk1_5 (c : Dev nD) (t : Fin (9 + 1)) (j : Fin 128) :
    (iblk1 V c 5 ⟨t.val, lt_N1 t⟩ : FVec Ideal S1x128 .f32) (ix2 ⟨0, Nat.one_pos⟩ j) = in1_5 V c j :=
  res1_5 V c ⟨t.val, lt_N1 t⟩ j

def in1_6 (c : Dev nD) (j : Fin 128) : EReal := (V c main_v35 : S1x128.Idx → EReal) (ix2 ⟨0, Nat.one_pos⟩ j)
theorem idx1_6 : ∀ t : Fin cfg1.N, win1_6.index t 0 = 0 ∧ win1_6.index t 1 = 0 := by
  intro t; rcases fin_N1 t with rfl | rfl | rfl | rfl | rfl | rfl | rfl | rfl | rfl | rfl <;> decide
theorem res1_6 (c : Dev nD) (t : Fin cfg1.N) (j : Fin 128) :
    (iblk1 V c 6 t : Vec Ideal S1x128 .f32) (ix2 ⟨0, Nat.one_pos⟩ j) = in1_6 V c j := by
  unfold iblk1 in1_6
  rw [View.read_apply]
  show (V c main_v35 : S1x128.Idx → EReal) _ = (V c main_v35 : S1x128.Idx → EReal) _
  congr 1
  funext a
  apply Fin.ext
  match a with
  | ⟨0, _⟩ => show win1_6.index t 0 * 1 + 1 * 0 = 0; rw [(idx1_6 t).1]
  | ⟨1, _⟩ => show win1_6.index t 1 * 128 + 1 * j.val = j.val; rw [(idx1_6 t).2]; omega
theorem blk1_6 (c : Dev nD) (t : Fin (9 + 1)) (j : Fin 128) :
    (iblk1 V c 6 ⟨t.val, lt_N1 t⟩ : FVec Ideal S1x128 .f32) (ix2 ⟨0, Nat.one_pos⟩ j) = in1_6 V c j :=
  res1_6 V c ⟨t.val, lt_N1 t⟩ j

/-- The quantity whose column statistics this kernel takes, over all rows. -/
abbrev GQ1 (c : Dev nD) : Fin 50000 → Fin 128 → EReal := Cert.Spec.lin (Cert.Spec.relu zW (Cert.Spec.aff (Cert.Spec.lin (in1_0 V c) (in1_1 V c)) (in1_3 V c) (in1_4 V c))) (in1_2 V c)

theorem tile_q1 (c : Dev nD) (t : Fin (9 + 1)) (y : Fin 5000) (j : Fin 128) :
    Cert.Proof.Pay1.q (iblk1 V c 0 ⟨t.val, lt_N1 t⟩) (iblk1 V c 1 ⟨t.val, lt_N1 t⟩) (iblk1 V c 2 ⟨t.val, lt_N1 t⟩) (iblk1 V c 3 ⟨t.val, lt_N1 t⟩) (iblk1 V c 4 ⟨t.val, lt_N1 t⟩) (ix2 y j) = GQ1 V c (rowOf h50000 t y) j := by
  rw [Cert.Proof.Pay1.q_apply]
  simp only [blk1_0 V c t, blk1_1 V c t, blk1_2 V c t, blk1_3 V c t, blk1_4 V c t, Cert.Spec.lin, Cert.Spec.relu, Cert.Spec.aff]

def accS1 (c : Dev nD) (n : ℕ) (hn : n < cfg1.N) (j : Fin 128) : EReal := ((outsAt1 V c n hn).2.2.1 : S1x128.Idx → EReal) (r0_1 j)
def accQ1 (c : Dev nD) (n : ℕ) (hn : n < cfg1.N) (j : Fin 128) : EReal := ((outsAt1 V c n hn).2.2.2 : S1x128.Idx → EReal) (r0_1 j)

theorem accS1_zero (c : Dev nD) (j : Fin 128) : accS1 V c 0 (lt_N1 0) j = 0 + ∑ y : Fin 5000, GQ1 V c (rowOf h50000 0 y) j := by
  have e := outsAt1_A V c ⟨0, lt_N1 0⟩ rfl (c0_zero1 _) (nc1_zero1 _)
  unfold accS1
  rw [show outsAt1 V c 0 (lt_N1 0) = _ from e]
  dsimp only
  rw [pieceA1_S, Cert.Proof.Pay1.total_apply, Cert.Proof.Pay1.zeroS]
  exact congrArg (fun z => (0 : EReal) + z) (Finset.sum_congr rfl fun y _ => tile_q1 V c 0 y j)

theorem accQ1_zero (c : Dev nD) (j : Fin 128) : accQ1 V c 0 (lt_N1 0) j = 0 + ∑ y : Fin 5000, GQ1 V c (rowOf h50000 0 y) j * GQ1 V c (rowOf h50000 0 y) j := by
  have e := outsAt1_A V c ⟨0, lt_N1 0⟩ rfl (c0_zero1 _) (nc1_zero1 _)
  unfold accQ1
  rw [show outsAt1 V c 0 (lt_N1 0) = _ from e]
  dsimp only
  rw [pieceA1_Q, Cert.Proof.Pay1.total_sq_apply, Cert.Proof.Pay1.zeroQ]
  exact congrArg (fun z => (0 : EReal) + z) (Finset.sum_congr rfl fun y _ => congrArg₂ (· * ·) (tile_q1 V c 0 y j) (tile_q1 V c 0 y j))

theorem accS1_succ (c : Dev nD) (n : ℕ) (hn : n + 1 < 9 + 1) (j : Fin 128) :
    accS1 V c (n + 1) (lt_N1 ⟨n + 1, hn⟩) j = accS1 V c n (lt_N1 ⟨n, Nat.lt_of_succ_lt hn⟩) j + ∑ y : Fin 5000, GQ1 V c (rowOf h50000 ⟨n + 1, hn⟩ y) j := by
  have hz : (⟨n + 1, lt_N1 ⟨n + 1, hn⟩⟩ : Fin cfg1.N).val ≠ 0 := Nat.succ_ne_zero n
  have hc0 := nc0_succ1 n (lt_N1 ⟨n + 1, hn⟩)
  unfold accS1
  by_cases h1 : (n + 1) % 10 = 9
  · have hc1 : cond1_1 (grid1.coords ⟨n + 1, lt_N1 ⟨n + 1, hn⟩⟩) := (hcond1_1 _).mpr h1
    have e := outsAt1_C V c ⟨n + 1, lt_N1 ⟨n + 1, hn⟩⟩ hz h1 hc0 hc1
    rw [show outsAt1 V c (n + 1) (lt_N1 ⟨n + 1, hn⟩) = _ from e]
    dsimp only
    rw [pieceC1_S, Cert.Proof.Pay1.total_apply]
    exact congrArg₂ (· + ·) rfl (Finset.sum_congr rfl fun y _ => tile_q1 V c ⟨n + 1, hn⟩ y j)
  · have hc1 : ¬cond1_1 (grid1.coords ⟨n + 1, lt_N1 ⟨n + 1, hn⟩⟩) := fun h => h1 ((hcond1_1 _).mp h)
    have e := outsAt1_B V c ⟨n + 1, lt_N1 ⟨n + 1, hn⟩⟩ hz h1 hc0 hc1
    rw [show outsAt1 V c (n + 1) (lt_N1 ⟨n + 1, hn⟩) = _ from e]
    dsimp only
    rw [pieceB1_S, Cert.Proof.Pay1.total_apply]
    exact congrArg₂ (· + ·) rfl (Finset.sum_congr rfl fun y _ => tile_q1 V c ⟨n + 1, hn⟩ y j)

theorem accQ1_succ (c : Dev nD) (n : ℕ) (hn : n + 1 < 9 + 1) (j : Fin 128) :
    accQ1 V c (n + 1) (lt_N1 ⟨n + 1, hn⟩) j = accQ1 V c n (lt_N1 ⟨n, Nat.lt_of_succ_lt hn⟩) j + ∑ y : Fin 5000, GQ1 V c (rowOf h50000 ⟨n + 1, hn⟩ y) j * GQ1 V c (rowOf h50000 ⟨n + 1, hn⟩ y) j := by
  have hz : (⟨n + 1, lt_N1 ⟨n + 1, hn⟩⟩ : Fin cfg1.N).val ≠ 0 := Nat.succ_ne_zero n
  have hc0 := nc0_succ1 n (lt_N1 ⟨n + 1, hn⟩)
  unfold accQ1
  by_cases h1 : (n + 1) % 10 = 9
  · have hc1 : cond1_1 (grid1.coords ⟨n + 1, lt_N1 ⟨n + 1, hn⟩⟩) := (hcond1_1 _).mpr h1
    have e := outsAt1_C V c ⟨n + 1, lt_N1 ⟨n + 1, hn⟩⟩ hz h1 hc0 hc1
    rw [show outsAt1 V c (n + 1) (lt_N1 ⟨n + 1, hn⟩) = _ from e]
    dsimp only
    rw [pieceC1_Q, Cert.Proof.Pay1.total_sq_apply]
    exact congrArg₂ (· + ·) rfl (Finset.sum_congr rfl fun y _ => congrArg₂ (· * ·) (tile_q1 V c ⟨n + 1, hn⟩ y j) (tile_q1 V c ⟨n + 1, hn⟩ y j))
  · have hc1 : ¬cond1_1 (grid1.coords ⟨n + 1, lt_N1 ⟨n + 1, hn⟩⟩) := fun h => h1 ((hcond1_1 _).mp h)
    have e := outsAt1_B V c ⟨n + 1, lt_N1 ⟨n + 1, hn⟩⟩ hz h1 hc0 hc1
    rw [show outsAt1 V c (n + 1) (lt_N1 ⟨n + 1, hn⟩) = _ from e]
    dsimp only
    rw [pieceB1_Q, Cert.Proof.Pay1.total_sq_apply]
    exact congrArg₂ (· + ·) rfl (Finset.sum_congr rfl fun y _ => congrArg₂ (· * ·) (tile_q1 V c ⟨n + 1, hn⟩ y j) (tile_q1 V c ⟨n + 1, hn⟩ y j))

theorem totS1 (c : Dev nD) (j : Fin 128) : accS1 V c 9 (lt_N1 9) j = Cert.Spec.colS (GQ1 V c) j :=
  Cert.LibTiledTotals.tiled_total h50000 (GQ1 V c) (fun t j => ∑ y : Fin 5000, GQ1 V c (rowOf h50000 t y) j) (fun _ _ => rfl)
    (fun t j => accS1 V c t.val (lt_N1 t) j) (accS1_zero V c) (fun t j => accS1_succ V c t.val (Nat.succ_lt_succ t.isLt) j) j
theorem totQ1 (c : Dev nD) (j : Fin 128) : accQ1 V c 9 (lt_N1 9) j = Cert.Spec.colQ (GQ1 V c) j :=
  Cert.LibTiledTotals.tiled_total_sq h50000 (GQ1 V c) (fun t j => ∑ y : Fin 5000, GQ1 V c (rowOf h50000 t y) j * GQ1 V c (rowOf h50000 t y) j) (fun _ _ => rfl)
    (fun t j => accQ1 V c t.val (lt_N1 t) j) (accQ1_zero V c) (fun t j => accQ1_succ V c t.val (Nat.succ_lt_succ t.isLt) j) j
theorem totS1' (c : Dev nD) (t : Fin cfg1.N) (h9 : t.val = 9) (j : Fin 128) : accS1 V c t.val t.isLt j = Cert.Spec.colS (GQ1 V c) j := by
  obtain rfl : t = ⟨9, lt_N1 9⟩ := Fin.ext h9
  exact totS1 V c j
theorem totQ1' (c : Dev nD) (t : Fin cfg1.N) (h9 : t.val = 9) (j : Fin 128) : accQ1 V c t.val t.isLt j = Cert.Spec.colQ (GQ1 V c) j := by
  obtain rfl : t = ⟨9, lt_N1 9⟩ := Fin.ext h9
  exact totQ1 V c j

abbrev pS1 (c : Dev nD) (t : Fin cfg1.N) : Vec Ideal S1x128 .f32 := (outsAt1 V c (t.val - 1) (Nat.lt_of_le_of_lt (Nat.sub_le _ _) t.isLt)).2.2.1
abbrev pQ1 (c : Dev nD) (t : Fin cfg1.N) : Vec Ideal S1x128 .f32 := (outsAt1 V c (t.val - 1) (Nat.lt_of_le_of_lt (Nat.sub_le _ _) t.isLt)).2.2.2
abbrev S9_1 (c : Dev nD) (t : Fin cfg1.N) : Vec Ideal S1x128 .f32 := k1_pay8 (iblk1 V c 0 t) (iblk1 V c 1 t) (iblk1 V c 3 t) (iblk1 V c 4 t) (iblk1 V c 2 t) (pS1 V c t)
abbrev Q9_1 (c : Dev nD) (t : Fin cfg1.N) : Vec Ideal S1x128 .f32 := k1_pay1 (pQ1 V c t) (k1_pay9 (iblk1 V c 0 t) (iblk1 V c 1 t) (iblk1 V c 3 t) (iblk1 V c 4 t) (iblk1 V c 2 t))

set_option maxHeartbeats 3200000 in
theorem last1 (c : Dev nD) (t : Fin cfg1.N) (h9 : t.val = 9) :
    outsAt1 V c t.val t.isLt = (k1_pay3 (S9_1 V c t) (Q9_1 V c t) (iblk1 V c 5 t), k1_pay4 (S9_1 V c t) (Q9_1 V c t) (iblk1 V c 5 t) (iblk1 V c 6 t), S9_1 V c t, Q9_1 V c t) := by
  have h9' : t.val % 10 = 9 := by rw [h9]
  have hz : t.val ≠ 0 := by rw [h9]; decide
  have hc0 : ¬cond1_0 (grid1.coords t) := fun h => by have := (hcond1_0 t).mp h; omega
  have hc1 : cond1_1 (grid1.coords t) := (hcond1_1 t).mpr h9'
  refine (outsAt1_C V c t hz h9' hc0 hc1).trans ?_
  rw [(pieceC1_1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (pS1 V c t) (pQ1 V c t)), (pieceC1_2 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (pS1 V c t) (pQ1 V c t)), (pieceC1_S (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (pS1 V c t) (pQ1 V c t)), (pieceC1_Q (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (pS1 V c t) (pQ1 V c t))]

theorem scale1_val (c : Dev nD) (t : Fin cfg1.N) (h9 : t.val = 9) (j : Fin 128) :
    ((outsAt1 V c t.val t.isLt).1 : S1x128.Idx → EReal) (r0_1 j) = Cert.Spec.scaleK (GQ1 V c) (in1_5 V c) cW epsW j := by
  have hS : (S9_1 V c t : S1x128.Idx → EReal) (r0_1 j) = Cert.Spec.colS (GQ1 V c) j := by
    rw [← totS1' V c t h9]; unfold accS1; rw [last1 V c t h9]
  have hQ : (Q9_1 V c t : S1x128.Idx → EReal) (r0_1 j) = Cert.Spec.colQ (GQ1 V c) j := by
    rw [← totQ1' V c t h9]; unfold accQ1; rw [last1 V c t h9]
  rw [last1 V c t h9]
  dsimp only
  rw [Cert.Proof.Pay1.scale_apply, hS, hQ, res1_5 V c t j]
  rfl

theorem shift1_val (c : Dev nD) (t : Fin cfg1.N) (h9 : t.val = 9) (j : Fin 128) :
    ((outsAt1 V c t.val t.isLt).2.1 : S1x128.Idx → EReal) (r0_1 j) = Cert.Spec.shiftK (GQ1 V c) (in1_5 V c) (in1_6 V c) cW epsW j := by
  have hS : (S9_1 V c t : S1x128.Idx → EReal) (r0_1 j) = Cert.Spec.colS (GQ1 V c) j := by
    rw [← totS1' V c t h9]; unfold accS1; rw [last1 V c t h9]
  have hsc := scale1_val V c t h9 j
  rw [last1 V c t h9] at hsc
  dsimp only at hsc
  rw [last1 V c t h9]
  dsimp only
  rw [Cert.Proof.Pay1.shift_apply, hsc, hS, res1_6 V c t j]
  rfl

/-- THE REGION'S VALUE: the two result arrays after the region are the batch norm's scale and shift rows. -/
theorem scaleArr1 (c : Dev nD) (j : Fin 128) :
    ((dat1 V c).arrAt 7 cfg1.N : S1x128.Idx → EReal) (r0_1 j) = Cert.Spec.scaleK (GQ1 V c) (in1_5 V c) cW epsW j := by
  rw [final1_7]; unfold G1_7
  exact scale1_val V c tL1 tL1_val j
theorem shiftArr1 (c : Dev nD) (j : Fin 128) :
    ((dat1 V c).arrAt 8 cfg1.N : S1x128.Idx → EReal) (r0_1 j) = Cert.Spec.shiftK (GQ1 V c) (in1_5 V c) (in1_6 V c) cW epsW j := by
  rw [final1_8]; unfold G1_8
  exact shift1_val V c tL1 tL1_val j

end Cert.KernelIdeal.Hand

end
-- ==== Proof.R2Val.lean ====
/-
  Pipeline 2 (a statistics kernel): each case's stores read back as the body's arithmetic. A buffer stored whole
  holds the stored value, and a load of it after the store reads that value: after the first tile the running rows
  are the tile's totals added to the zero rows, after a later tile the totals added to what the tile before left,
  and at the last tile the scale and the shift are computed from the rows as this tile leaves them.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R2B
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2_2 : (![0, 0] : Fin 2 → Nat) = fun _ => 0 := funext fun a => by fin_cases a <;> rfl

theorem pieceA2_S (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond2_0 i) (hc1 : ¬cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    rd2 (F := F) (kernelRun2_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 = k2_pay1 (k2_pay6 (F := F)) (k2_pay9 x0 x1 x3 x4 x2 x5 x6) := by
  unfold rd2
  rw [View.read_writes_eq_canon _ _ _ (scoverA2_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun2_A
  dsimp only
  try sl_unfold_words
  first | rw [View.canon_cons_unit_zero (S := S1x128) hz2_2] | rw [View.canon_unit_zero hz2_2]
  simp only [View.readCov_unit_zero (S := S1x128) _ hz2_2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_2, View.ld_unit_zero (S := S128x128) hz2_2, View.ld_unit_zero (S := S1x128) hz2_2]

theorem pieceA2_Q (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond2_0 i) (hc1 : ¬cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    rd2 (F := F) (kernelRun2_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 = k2_pay2 (k2_pay8 x0 x1 x3 x4 x2 x5 x6) (k2_pay7 (F := F)) := by
  unfold rd2
  rw [View.read_writes_eq_canon _ _ _ (scoverA2_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun2_A
  dsimp only
  try sl_unfold_words
  first | rw [View.canon_cons_unit_zero (S := S1x128) hz2_2] | rw [View.canon_unit_zero hz2_2]
  simp only [View.readCov_unit_zero (S := S1x128) _ hz2_2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_2, View.ld_unit_zero (S := S128x128) hz2_2, View.ld_unit_zero (S := S1x128) hz2_2]

theorem pieceB2_S (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : ¬cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd2 (F := F) (kernelRun2_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 = k2_pay1 xs0 (k2_pay9 x0 x1 x3 x4 x2 x5 x6) := by
  unfold rd2
  rw [View.read_writes_eq_canon _ _ _ (scoverB2_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun2_B
  dsimp only
  try sl_unfold_words
  first | rw [View.canon_cons_unit_zero (S := S1x128) hz2_2] | rw [View.canon_unit_zero hz2_2]
  simp only [View.readCov_unit_zero (S := S1x128) _ hz2_2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_2, View.ld_unit_zero (S := S128x128) hz2_2, View.ld_unit_zero (S := S1x128) hz2_2]

theorem pieceB2_Q (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : ¬cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd2 (F := F) (kernelRun2_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 = k2_pay2 (k2_pay8 x0 x1 x3 x4 x2 x5 x6) xs1 := by
  unfold rd2
  rw [View.read_writes_eq_canon _ _ _ (scoverB2_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun2_B
  dsimp only
  try sl_unfold_words
  first | rw [View.canon_cons_unit_zero (S := S1x128) hz2_2] | rw [View.canon_unit_zero hz2_2]
  simp only [View.readCov_unit_zero (S := S1x128) _ hz2_2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_2, View.ld_unit_zero (S := S128x128) hz2_2, View.ld_unit_zero (S := S1x128) hz2_2]

theorem pieceC2_S (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd2 (F := F) (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1 = k2_pay1 xs0 (k2_pay9 x0 x1 x3 x4 x2 x5 x6) := by
  unfold rd2
  rw [View.read_writes_eq_canon _ _ _ (scoverC2_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun2_C
  dsimp only
  try sl_unfold_words
  first | rw [View.canon_cons_unit_zero (S := S1x128) hz2_2] | rw [View.canon_unit_zero hz2_2]
  simp only [View.readCov_unit_zero (S := S1x128) _ hz2_2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_2, View.ld_unit_zero (S := S128x128) hz2_2, View.ld_unit_zero (S := S1x128) hz2_2]

theorem pieceC2_Q (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd2 (F := F) (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1 = k2_pay2 (k2_pay8 x0 x1 x3 x4 x2 x5 x6) xs1 := by
  unfold rd2
  rw [View.read_writes_eq_canon _ _ _ (scoverC2_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun2_C
  dsimp only
  try sl_unfold_words
  first | rw [View.canon_cons_unit_zero (S := S1x128) hz2_2] | rw [View.canon_unit_zero hz2_2]
  simp only [View.readCov_unit_zero (S := S1x128) _ hz2_2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_2, View.ld_unit_zero (S := S128x128) hz2_2, View.ld_unit_zero (S := S1x128) hz2_2]

theorem pieceC2_1 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd2 (F := F) (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 = k2_pay4 (k2_pay1 xs0 (k2_pay9 x0 x1 x3 x4 x2 x5 x6)) (k2_pay2 (k2_pay8 x0 x1 x3 x4 x2 x5 x6) xs1) x7 := by
  unfold rd2
  rw [View.read_writes_eq_canon _ _ _ (coverC2_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun2_C
  dsimp only
  try sl_unfold_words
  first | rw [View.canon_cons_unit_zero (S := S1x128) hz2_2] | rw [View.canon_unit_zero hz2_2]
  simp only [View.readCov_unit_zero (S := S1x128) _ hz2_2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_2, View.ld_unit_zero (S := S128x128) hz2_2, View.ld_unit_zero (S := S1x128) hz2_2]

theorem pieceC2_2 (c : Dev nD) (i : grid2.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond2_0 i) (hc1 : cond2_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd2 (F := F) (kernelRun2_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 = k2_pay5 (k2_pay1 xs0 (k2_pay9 x0 x1 x3 x4 x2 x5 x6)) (k2_pay2 (k2_pay8 x0 x1 x3 x4 x2 x5 x6) xs1) x7 x8 := by
  unfold rd2
  rw [View.read_writes_eq_canon _ _ _ (coverC2_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun2_C
  dsimp only
  try sl_unfold_words
  first | rw [View.canon_cons_unit_zero (S := S1x128) hz2_2] | rw [View.canon_unit_zero hz2_2]
  simp only [View.readCov_unit_zero (S := S1x128) _ hz2_2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_2, View.ld_unit_zero (S := S128x128) hz2_2, View.ld_unit_zero (S := S1x128) hz2_2]

end Cert.KernelIdeal.Hand

end
-- ==== Proof.R2Arr.lean ====
/-
  Pipeline 2: the two result arrays after the region. Each result window is written back once, at the last
  point, and its one block is the whole [1, 128] array; so the array ends holding the row the last point stored.
-/
import proofs.«180905_j29583734735286_1_alg».proof.Proof.R2B
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The last grid point. -/
def tL2 : Fin cfg2.N := ⟨9, lt_of_lt_of_eq (by decide) N_2.symm⟩
theorem tL2_val : tL2.val = 9 := rfl
attribute [irreducible] tL2

theorem idx2_9 : ∀ t : Fin cfg2.N, win2_9.index t 0 = 0 ∧ win2_9.index t 1 = 0 := by
  intro t; rcases fin_N2 t with rfl | rfl | rfl | rfl | rfl | rfl | rfl | rfl | rfl | rfl <;> decide
theorem xsz2_9 : ∀ t : Fin cfg2.N, win2_9.xsize (grid2.coords t) 0 = 1 ∧ win2_9.xsize (grid2.coords t) 1 = 128 := by
  intro t; rcases fin_N2 t with rfl | rfl | rfl | rfl | rfl | rfl | rfl | rfl | rfl | rfl <;> decide +kernel

/-- What the region leaves in its result array: the row stored at the last point. -/
def G2_9 (c : Dev nD) : Buf (Elt F) ((c : Thread nD τ).loc main_v44_0) := (outsAt2 V c tL2.val tL2.isLt).1

theorem flushed2_9 (c : Dev nD) (t : Fin cfg2.N) (hf : (cfg2.win 9).flush t = true) :
    (dat2 V c).flushed 9 t = ((cfg2.win 9).blk t).view.read (Elt F) (G2_9 V c) := by
  have hN : cfg2.N = 10 := N_2
  have h1 : t.val = 9 := by have := (flush2_9 t).mp hf; have := t.isLt; omega
  obtain rfl : t = tL2 := Fin.ext (h1.trans tL2_val.symm)
  show (cfg2.win 9).cut (grid2.coords tL2) ((dat2 V c).after 9 tL2) = _
  rw [after2_9]
  have hz' : (fun a => win2_9.index tL2 a * main_v44_0.ty.shape.size a) = fun _ => 0 := funext fun a => by
    match a with
    | ⟨0, _⟩ => show win2_9.index tL2 0 * _ = 0; rw [(idx2_9 tL2).1, Nat.zero_mul]
    | ⟨1, _⟩ => show win2_9.index tL2 1 * _ = 0; rw [(idx2_9 tL2).2, Nat.zero_mul]
  exact (Memref.read_access_unit_zero (Elt F) main_v44_0 hz' (fun a => by rw [congrFun hz' a]; simp) (G2_9 V c)).symm

theorem final2_9 (c : Dev nD) : (dat2 V c).arrAt 9 cfg2.N = G2_9 V c :=
  (dat2 V c).arrAt_eq_of_cover 9 (G2_9 V c) (flushed2_9 V c) fun i =>
    ⟨tL2, (flush2_9 tL2).mpr (by rw [tL2_val]), by
      show i ∈ ((View.whole main_v44_0).slice (win2_9.rect tL2)).set
      rw [View.set_slice_whole, Rect.mem_set_unit]
      intro a
      have h0 : (i 0 : Nat) < 1 := (i 0).isLt
      have h1 : (i 1 : Nat) < 128 := (i 1).isLt
      match a with
      | ⟨0, _⟩ => show win2_9.index tL2 0 * win2_9.size 0 ≤ (i 0 : Nat) ∧ (i 0 : Nat) < win2_9.index tL2 0 * win2_9.size 0 + win2_9.xsize (grid2.coords tL2) 0
                  rw [(idx2_9 tL2).1, (xsz2_9 tL2).1]; omega
      | ⟨1, _⟩ => show win2_9.index tL2 1 * win2_9.size 1 ≤ (i 1 : Nat) ∧ (i 1 : Nat) < win2_9.index tL2 1 * win2_9.size 1 + win2_9.xsize (grid2.coords tL2) 1
                  rw [(idx2_9 tL2).2, (xsz2_9 tL2).2]; omega⟩

theorem idx2_10 : ∀ t : Fin cfg2.N, win2_10.index t 0 = 0 ∧ win2_10.index t 1 = 0 := by
  intro t; rcases fin_N2 t with rfl | rfl | rfl | rfl | rfl | rfl | rfl | rfl | rfl | rfl <;> decide
theorem xsz2_10 : ∀ t : Fin cfg2.N, win2_10.xsize (grid2.coords t) 0 = 1 ∧ win2_10.xsize (grid2.coords t) 1 = 128 := by
  intro t; rcases fin_N2 t with rfl | rfl | rfl | rfl | rfl | rfl | rfl | rfl | rfl | rfl <;> decide +kernel

/-- What the region leaves in its result array: the row stored at the last point. -/
def G2_10 (c : Dev nD) : Buf (Elt F) ((c : Thread nD τ).loc main_v44_1) := (outsAt2 V c tL2.val tL2.isLt).2.1

theorem flushed2_10 (c : Dev nD) (t : Fin cfg2.N) (hf : (cfg2.win 10).flush t = true) :
    (dat2 V c).flushed 10 t = ((cfg2.win 10).blk t).view.read (Elt F) (G2_10 V c) := by
  have hN : cfg2.N = 10 := N_2
  have h1 : t.val = 9 := by have := (flush2_10 t).mp hf; have := t.isLt; omega
  obtain rfl : t = tL2 := Fin.ext (h1.trans tL2_val.symm)
  show (cfg2.win 10).cut (grid2.coords tL2) ((dat2 V c).after 10 tL2) = _
  rw [after2_10]
  have hz' : (fun a => win2_10.index tL2 a * main_v44_1.ty.shape.size a) = fun _ => 0 := funext fun a => by
    match a with
    | ⟨0, _⟩ => show win2_10.index tL2 0 * _ = 0; rw [(idx2_10 tL2).1, Nat.zero_mul]
    | ⟨1, _⟩ => show win2_10.index tL2 1 * _ = 0; rw [(idx2_10 tL2).2, Nat.zero_mul]
  exact (Memref.read_access_unit_zero (Elt F) main_v44_1 hz' (fun a => by rw [congrFun hz' a]; simp) (G2_10 V c)).symm

theorem final2_10 (c : Dev nD) : (dat2 V c).arrAt 10 cfg2.N = G2_10 V c :=
  (dat2 V c).arrAt_eq_of_cover 10 (G2_10 V c) (flushed2_10 V c) fun i =>
    ⟨tL2, (flush2_10 tL2).mpr (by rw [tL2_val]), by
      show i ∈ ((View.whole main_v44_1).slice (win2_10.rect tL2)).set
      rw [View.set_slice_whole, Rect.mem_set_unit]
      intro a
      have h0 : (i 0 : Nat) < 1 := (i 0).isLt
      have h1 : (i 1 : Nat) < 128 := (i 1).isLt
      match a with
      | ⟨0, _⟩ => show win2_10.index tL2 0 * win2_10.size 0 ≤ (i 0 : Nat) ∧ (i 0 : Nat) < win2_10.index tL2 0 * win2_10.size 0 + win2_10.xsize (grid2.coords tL2) 0
                  rw [(idx2_10 tL2).1, (xsz2_10 tL2).1]; omega
      | ⟨1, _⟩ => show win2_10.index tL2 1 * win2_10.size 1 ≤ (i 1 : Nat) ∧ (i 1 : Nat) < win2_10.index tL2 1 * win2_10.size 1 + win2_10.xsize (grid2.coords tL2) 1
                  rw [(idx2_10 tL2).2, (xsz2_10 tL2).2]; omega⟩

end Cert.KernelIdeal.Hand

end
-- ==== Proof.Pay2.lean ====
/-
  The payloads of pipeline 2's body (a statistics kernel) at the ideal values, read at an index: the tile
  quantity whose column statistics the kernel takes, the two running rows after a tile, the zero rows of the reset,
  and the mean, scale and shift the last point computes. A change of float format is the identity on the extended
  reals, a matrix product into a zero accumulator is the row-by-column sum, a lane reduction is a finite sum.
-/
import proofs.«180905_j29583734735286_1_alg».proof.Proof.Gen.KernelIdeal.Skeleton
import Idealize.ShloMosaic.Lib.ValueIdx
import Idealize.ShloMosaic.Lib.Pipeline.Value
import Idealize.ShloMosaic.PureOps.Ideal.Laws
import proofs.«180905_j29583734735286_1_alg».proof.Proof.LibDense
import proofs.«180905_j29583734735286_1_alg».proof.Proof.LibAxisSum
import proofs.«180905_j29583734735286_1_alg».proof.Proof.LibBiasRows

noncomputable section

namespace Cert.Proof.Pay2

open Idealize.ShloMosaic Idealize.ShloMosaic.ValueIdx Cert.KernelIdeal Cert.KernelIdeal.Gen
open scoped BigOperators

abbrev r0 (j : Fin 128) : S1x128.Idx := ix2 ⟨0, Nat.one_pos⟩ j
abbrev zW : EReal := Ideal.ofBits .f32 0x00000000#32

theorem inv_n : Named.named (F := Ideal) Cert.KernelIdeal.κ "inv_50000" (φ := .f32) 0x37A7C5AC#32
    = ((1 / 50000 : ℝ) : EReal) :=
  IdealRules.named_const.ideal_named_scalar _ _ _ _ rfl

/-- The tile quantity. -/
abbrev q (x0 : FVec Ideal S5000x128 .f32) (x1 : FVec Ideal S128x128 .bf16) (x2 : FVec Ideal S128x128 .bf16) (x3 : FVec Ideal S1x128 .f32) (x4 : FVec Ideal S1x128 .f32) (x5 : FVec Ideal S1x128 .f32) (x6 : FVec Ideal S1x128 .f32) : FVec Ideal S5000x128 .f32 := k2_pay8 x0 x1 x3 x4 x2 x5 x6

theorem q_apply (x0 : FVec Ideal S5000x128 .f32) (x1 : FVec Ideal S128x128 .bf16) (x2 : FVec Ideal S128x128 .bf16) (x3 : FVec Ideal S1x128 .f32) (x4 : FVec Ideal S1x128 .f32) (x5 : FVec Ideal S1x128 .f32) (x6 : FVec Ideal S1x128 .f32) (y : Fin 5000) (j : Fin 128) :
    q x0 x1 x2 x3 x4 x5 x6 (ix2 y j) = max ((∑ k : Fin 128, max ((∑ k' : Fin 128, x0 (ix2 y k') * x1 (ix2 k' k)) * x3 (r0 k) + x4 (r0 k)) zW * x2 (ix2 k j)) * x5 (r0 j) + x6 (r0 j)) zW := by
  unfold q k2_pay8
  simp only [shapeCast_self]
  show max (FloatOps.matmul (DotDims.plain 5000 128 128) none _ x2 (constant (F := Ideal) S5000x128 .f32 0x00000000#32) (ix2 y j)
      * broadcastTo S5000x128 x5 broadcasts_S1x128_S5000x128 (ix2 y j)
      + broadcastTo S5000x128 x6 broadcasts_S1x128_S5000x128 (ix2 y j)) zW = _
  rw [Cert.LibBiasRows.row_broadcast (n := 5000) (d := 128) x5, Cert.LibBiasRows.row_broadcast (n := 5000) (d := 128) x6]
  refine congrArg (fun z => max (z * x5 (r0 j) + x6 (r0 j)) zW) ?_
  refine (Cert.LibDense.matmul_plain (M := 5000) (K := 128) (N := 128) (φ₁ := .bf16) (φ₂ := .bf16) _ x2 (ix2 y j)).trans ?_
  refine Finset.sum_congr rfl fun k _ => congrArg (fun z => z * x2 (ix2 k j)) ?_
  show max (FloatOps.matmul (DotDims.plain 5000 128 128) none _ x1 (constant (F := Ideal) S5000x128 .f32 0x00000000#32) (ix2 y k)
      * broadcastTo S5000x128 x3 broadcasts_S1x128_S5000x128 (ix2 y k)
      + broadcastTo S5000x128 x4 broadcasts_S1x128_S5000x128 (ix2 y k)) zW = _
  rw [Cert.LibBiasRows.row_broadcast (n := 5000) (d := 128) x3, Cert.LibBiasRows.row_broadcast (n := 5000) (d := 128) x4, Cert.LibDense.matmul_plain (M := 5000) (K := 128) (N := 128)]
  rfl

theorem total_apply (x0 : FVec Ideal S5000x128 .f32) (x1 : FVec Ideal S128x128 .bf16) (x2 : FVec Ideal S128x128 .bf16) (x3 : FVec Ideal S1x128 .f32) (x4 : FVec Ideal S1x128 .f32) (x5 : FVec Ideal S1x128 .f32) (x6 : FVec Ideal S1x128 .f32) (old : FVec Ideal S1x128 .f32) (j : Fin 128) :
    (k2_pay1 old (k2_pay9 x0 x1 x3 x4 x2 x5 x6) : FVec Ideal S1x128 .f32) (r0 j) = old (r0 j) + ∑ y : Fin 5000, q x0 x1 x2 x3 x4 x5 x6 (ix2 y j) := by
  unfold k2_pay1 k2_pay9
  simp only [shapeCast_self]
  refine congrArg (fun z => old (r0 j) + z) ?_
  refine (Cert.LibBiasRows.row_of_vector _ _ j).trans ?_
  exact Cert.LibAxisSum.sum_first (n := 5000) (d := 128) _ _ _ _ _ j

theorem total_sq_apply (x0 : FVec Ideal S5000x128 .f32) (x1 : FVec Ideal S128x128 .bf16) (x2 : FVec Ideal S128x128 .bf16) (x3 : FVec Ideal S1x128 .f32) (x4 : FVec Ideal S1x128 .f32) (x5 : FVec Ideal S1x128 .f32) (x6 : FVec Ideal S1x128 .f32) (old : FVec Ideal S1x128 .f32) (j : Fin 128) :
    (k2_pay2 (k2_pay8 x0 x1 x3 x4 x2 x5 x6) old : FVec Ideal S1x128 .f32) (r0 j) = old (r0 j) + ∑ y : Fin 5000, q x0 x1 x2 x3 x4 x5 x6 (ix2 y j) * q x0 x1 x2 x3 x4 x5 x6 (ix2 y j) := by
  unfold k2_pay2
  simp only [shapeCast_self]
  refine congrArg (fun z => old (r0 j) + z) ?_
  refine (Cert.LibBiasRows.row_of_vector _ _ j).trans ?_
  exact Cert.LibAxisSum.sum_first (n := 5000) (d := 128) _ _ _ _ _ j

theorem zeroS (j : Fin 128) : (k2_pay6 (F := Ideal) : S1x128.Idx → EReal) (r0 j) = 0 := by
  unfold k2_pay6; rw [shapeCast_self]; exact Ideal.ofBits_zero_f32
theorem zeroQ (j : Fin 128) : (k2_pay7 (F := Ideal) : S1x128.Idx → EReal) (r0 j) = 0 := by
  unfold k2_pay7; rw [shapeCast_self]; exact Ideal.ofBits_zero_f32

theorem mean_apply (v27 : FVec Ideal S1x128 .f32) (j : Fin 128) :
    k2_pay3 (F := Ideal) v27 (r0 j) = v27 (r0 j) * ((1 / 50000 : ℝ) : EReal) := by
  unfold k2_pay3
  exact congrArg (fun z => v27 (r0 j) * z) inv_n

theorem scale_apply (v27 v30 v35 : FVec Ideal S1x128 .f32) (j : Fin 128) :
    k2_pay4 (F := Ideal) v27 v30 v35 (r0 j)
      = v35 (r0 j) * Ideal.rsqrt (v30 (r0 j) * ((1 / 50000 : ℝ) : EReal)
          - v27 (r0 j) * ((1 / 50000 : ℝ) : EReal) * (v27 (r0 j) * ((1 / 50000 : ℝ) : EReal))
          + Ideal.ofBits .f32 0x3727C5AC#32) := by
  unfold k2_pay4
  rw [shapeCast_self]
  show v35 (r0 j) * Ideal.rsqrt (v30 (r0 j) * Named.named (F := Ideal) Cert.KernelIdeal.κ "inv_50000" (φ := .f32) 0x37A7C5AC#32
      - k2_pay3 (F := Ideal) v27 (r0 j) * k2_pay3 (F := Ideal) v27 (r0 j) + Ideal.ofBits .f32 0x3727C5AC#32) = _
  rw [mean_apply, inv_n]

theorem shift_apply (v27 v30 v35 v41 : FVec Ideal S1x128 .f32) (j : Fin 128) :
    k2_pay5 (F := Ideal) v27 v30 v35 v41 (r0 j)
      = v41 (r0 j) - v27 (r0 j) * ((1 / 50000 : ℝ) : EReal) * k2_pay4 (F := Ideal) v27 v30 v35 (r0 j) := by
  unfold k2_pay5
  rw [shapeCast_self]
  show v41 (r0 j) - k2_pay3 (F := Ideal) v27 (r0 j) * k2_pay4 (F := Ideal) v27 v30 v35 (r0 j) = _
  rw [mean_apply]

end Cert.Proof.Pay2

end
-- ==== Proof.R2Sum.lean ====
/-
  Pipeline 2 (a statistics kernel), at the ideal values: what the region leaves in its two result arrays.
  The tile of x a point holds is rows 5000·t … 5000·t + 4999 of x; every other input block is its whole array at
  every point. The quantity whose statistics the kernel takes reads one row of x, so on a tile it is the whole
  array's quantity at the tile's rows; the running rows therefore end at its column totals over all 50000 rows
  (a running total over the ten tiles), and the stored scale and shift are the batch-norm formulas of those totals.
  Each result array is written back once, at the last point, whole.
-/
import proofs.«180905_j29583734735286_1_alg».proof.Proof.R2Val
import proofs.«180905_j29583734735286_1_alg».proof.Proof.R2Arr
import proofs.«180905_j29583734735286_1_alg».proof.Proof.Pay2
import proofs.«180905_j29583734735286_1_alg».proof.Proof.LibTiledTotals
import proofs.«180905_j29583734735286_1_alg».proof.Proof.Spec
import proofs.«180905_j29583734735286_1_alg».proof.Proof.ValCommon
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibBatchNorm (rowOf)
open scoped BigOperators

variable (V : (c : Dev nD) → (b : Ref sig .tc) → Buf (Elt Ideal) ((c : Thread nD τ).loc b))

abbrev r0_2 (j : Fin 128) : S1x128.Idx := ix2 ⟨0, Nat.one_pos⟩ j
theorem lt_N2 (t : Fin (9 + 1)) : t.val < cfg2.N := lt_of_lt_of_eq t.isLt N_2.symm

def in2_0 (c : Dev nD) (r : Fin 50000) (k : Fin 128) : EReal := (V c main_v17 : S50000x128.Idx → EReal) (ix2 r k)
theorem idx2_0 : ∀ t : Fin cfg2.N, win2_0.index t 0 = t.val ∧ win2_0.index t 1 = 0 := by
  intro t; rcases fin_N2 t with rfl | rfl | rfl | rfl | rfl | rfl | rfl | rfl | rfl | rfl <;> decide
theorem tile2_0 (c : Dev nD) (t : Fin cfg2.N) (y : Fin 5000) (k : Fin 128) (R : Fin 50000) (hR : R.val = t.val * 5000 + y.val) :
    (iblk2 V c 0 t : Vec Ideal S5000x128 .f32) (ix2 y k) = in2_0 V c R k := by
  unfold iblk2 in2_0
  rw [View.read_apply]
  show (V c main_v17 : S50000x128.Idx → EReal) _ = (V c main_v17 : S50000x128.Idx → EReal) _
  congr 1
  funext a
  apply Fin.ext
  match a with
  | ⟨0, _⟩ => show win2_0.index t 0 * 5000 + 1 * y.val = R.val; rw [(idx2_0 t).1, hR]; omega
  | ⟨1, _⟩ => show win2_0.index t 1 * 128 + 1 * k.val = k.val; rw [(idx2_0 t).2]; omega
theorem blk2_0 (c : Dev nD) (t : Fin (9 + 1)) (y : Fin 5000) (k : Fin 128) :
    (iblk2 V c 0 ⟨t.val, lt_N2 t⟩ : FVec Ideal S5000x128 .f32) (ix2 y k) = in2_0 V c (rowOf h50000 t y) k :=
  tile2_0 V c ⟨t.val, lt_N2 t⟩ y k (rowOf h50000 t y) rfl

def in2_1 (c : Dev nD) (k j : Fin 128) : EReal := (V c main_v20 : S128x128.Idx → EReal) (ix2 k j)
theorem idx2_1 : ∀ t : Fin cfg2.N, win2_1.index t 0 = 0 ∧ win2_1.index t 1 = 0 := by
  intro t; rcases fin_N2 t with rfl | rfl | rfl | rfl | rfl | rfl | rfl | rfl | rfl | rfl <;> decide
theorem res2_1 (c : Dev nD) (t : Fin cfg2.N) (k j : Fin 128) :
    (iblk2 V c 1 t : Vec Ideal S128x128 .bf16) (ix2 k j) = in2_1 V c k j := by
  unfold iblk2 in2_1
  rw [View.read_apply]
  show (V c main_v20 : S128x128.Idx → EReal) _ = (V c main_v20 : S128x128.Idx → EReal) _
  congr 1
  funext a
  apply Fin.ext
  match a with
  | ⟨0, _⟩ => show win2_1.index t 0 * 128 + 1 * k.val = k.val; rw [(idx2_1 t).1]; omega
  | ⟨1, _⟩ => show win2_1.index t 1 * 128 + 1 * j.val = j.val; rw [(idx2_1 t).2]; omega
theorem blk2_1 (c : Dev nD) (t : Fin (9 + 1)) (k j : Fin 128) :
    (iblk2 V c 1 ⟨t.val, lt_N2 t⟩ : FVec Ideal S128x128 .bf16) (ix2 k j) = in2_1 V c k j :=
  res2_1 V c ⟨t.val, lt_N2 t⟩ k j

def in2_2 (c : Dev nD) (k j : Fin 128) : EReal := (V c main_v23 : S128x128.Idx → EReal) (ix2 k j)
theorem idx2_2 : ∀ t : Fin cfg2.N, win2_2.index t 0 = 0 ∧ win2_2.index t 1 = 0 := by
  intro t; rcases fin_N2 t with rfl | rfl | rfl | rfl | rfl | rfl | rfl | rfl | rfl | rfl <;> decide
theorem res2_2 (c : Dev nD) (t : Fin cfg2.N) (k j : Fin 128) :
    (iblk2 V c 2 t : Vec Ideal S128x128 .bf16) (ix2 k j) = in2_2 V c k j := by
  unfold iblk2 in2_2
  rw [View.read_apply]
  show (V c main_v23 : S128x128.Idx → EReal) _ = (V c main_v23 : S128x128.Idx → EReal) _
  congr 1
  funext a
  apply Fin.ext
  match a with
  | ⟨0, _⟩ => show win2_2.index t 0 * 128 + 1 * k.val = k.val; rw [(idx2_2 t).1]; omega
  | ⟨1, _⟩ => show win2_2.index t 1 * 128 + 1 * j.val = j.val; rw [(idx2_2 t).2]; omega
theorem blk2_2 (c : Dev nD) (t : Fin (9 + 1)) (k j : Fin 128) :
    (iblk2 V c 2 ⟨t.val, lt_N2 t⟩ : FVec Ideal S128x128 .bf16) (ix2 k j) = in2_2 V c k j :=
  res2_2 V c ⟨t.val, lt_N2 t⟩ k j

def in2_3 (c : Dev nD) (j : Fin 128) : EReal := (V c main_v42_0 : S1x128.Idx → EReal) (ix2 ⟨0, Nat.one_pos⟩ j)
theorem idx2_3 : ∀ t : Fin cfg2.N, win2_3.index t 0 = 0 ∧ win2_3.index t 1 = 0 := by
  intro t; rcases fin_N2 t with rfl | rfl | rfl | rfl | rfl | rfl | rfl | rfl | rfl | rfl <;> decide
theorem res2_3 (c : Dev nD) (t : Fin cfg2.N) (j : Fin 128) :
    (iblk2 V c 3 t : Vec Ideal S1x128 .f32) (ix2 ⟨0, Nat.one_pos⟩ j) = in2_3 V c j := by
  unfold iblk2 in2_3
  rw [View.read_apply]
  show (V c main_v42_0 : S1x128.Idx → EReal) _ = (V c main_v42_0 : S1x128.Idx → EReal) _
  congr 1
  funext a
  apply Fin.ext
  match a with
  | ⟨0, _⟩ => show win2_3.index t 0 * 1 + 1 * 0 = 0; rw [(idx2_3 t).1]
  | ⟨1, _⟩ => show win2_3.index t 1 * 128 + 1 * j.val = j.val; rw [(idx2_3 t).2]; omega
theorem blk2_3 (c : Dev nD) (t : Fin (9 + 1)) (j : Fin 128) :
    (iblk2 V c 3 ⟨t.val, lt_N2 t⟩ : FVec Ideal S1x128 .f32) (ix2 ⟨0, Nat.one_pos⟩ j) = in2_3 V c j :=
  res2_3 V c ⟨t.val, lt_N2 t⟩ j

def in2_4 (c : Dev nD) (j : Fin 128) : EReal := (V c main_v42_1 : S1x128.Idx → EReal) (ix2 ⟨0, Nat.one_pos⟩ j)
theorem idx2_4 : ∀ t : Fin cfg2.N, win2_4.index t 0 = 0 ∧ win2_4.index t 1 = 0 := by
  intro t; rcases fin_N2 t with rfl | rfl | rfl | rfl | rfl | rfl | rfl | rfl | rfl | rfl <;> decide
theorem res2_4 (c : Dev nD) (t : Fin cfg2.N) (j : Fin 128) :
    (iblk2 V c 4 t : Vec Ideal S1x128 .f32) (ix2 ⟨0, Nat.one_pos⟩ j) = in2_4 V c j := by
  unfold iblk2 in2_4
  rw [View.read_apply]
  show (V c main_v42_1 : S1x128.Idx → EReal) _ = (V c main_v42_1 : S1x128.Idx → EReal) _
  congr 1
  funext a
  apply Fin.ext
  match a with
  | ⟨0, _⟩ => show win2_4.index t 0 * 1 + 1 * 0 = 0; rw [(idx2_4 t).1]
  | ⟨1, _⟩ => show win2_4.index t 1 * 128 + 1 * j.val = j.val; rw [(idx2_4 t).2]; omega
theorem blk2_4 (c : Dev nD) (t : Fin (9 + 1)) (j : Fin 128) :
    (iblk2 V c 4 ⟨t.val, lt_N2 t⟩ : FVec Ideal S1x128 .f32) (ix2 ⟨0, Nat.one_pos⟩ j) = in2_4 V c j :=
  res2_4 V c ⟨t.val, lt_N2 t⟩ j

def in2_5 (c : Dev nD) (j : Fin 128) : EReal := (V c main_v43_0 : S1x128.Idx → EReal) (ix2 ⟨0, Nat.one_pos⟩ j)
theorem idx2_5 : ∀ t : Fin cfg2.N, win2_5.index t 0 = 0 ∧ win2_5.index t 1 = 0 := by
  intro t; rcases fin_N2 t with rfl | rfl | rfl | rfl | rfl | rfl | rfl | rfl | rfl | rfl <;> decide
theorem res2_5 (c : Dev nD) (t : Fin cfg2.N) (j : Fin 128) :
    (iblk2 V c 5 t : Vec Ideal S1x128 .f32) (ix2 ⟨0, Nat.one_pos⟩ j) = in2_5 V c j := by
  unfold iblk2 in2_5
  rw [View.read_apply]
  show (V c main_v43_0 : S1x128.Idx → EReal) _ = (V c main_v43_0 : S1x128.Idx → EReal) _
  congr 1
  funext a
  apply Fin.ext
  match a with
  | ⟨0, _⟩ => show win2_5.index t 0 * 1 + 1 * 0 = 0; rw [(idx2_5 t).1]
  | ⟨1, _⟩ => show win2_5.index t 1 * 128 + 1 * j.val = j.val; rw [(idx2_5 t).2]; omega
theorem blk2_5 (c : Dev nD) (t : Fin (9 + 1)) (j : Fin 128) :
    (iblk2 V c 5 ⟨t.val, lt_N2 t⟩ : FVec Ideal S1x128 .f32) (ix2 ⟨0, Nat.one_pos⟩ j) = in2_5 V c j :=
  res2_5 V c ⟨t.val, lt_N2 t⟩ j

def in2_6 (c : Dev nD) (j : Fin 128) : EReal := (V c main_v43_1 : S1x128.Idx → EReal) (ix2 ⟨0, Nat.one_pos⟩ j)
theorem idx2_6 : ∀ t : Fin cfg2.N, win2_6.index t 0 = 0 ∧ win2_6.index t 1 = 0 := by
  intro t; rcases fin_N2 t with rfl | rfl | rfl | rfl | rfl | rfl | rfl | rfl | rfl | rfl <;> decide
theorem res2_6 (c : Dev nD) (t : Fin cfg2.N) (j : Fin 128) :
    (iblk2 V c 6 t : Vec Ideal S1x128 .f32) (ix2 ⟨0, Nat.one_pos⟩ j) = in2_6 V c j := by
  unfold iblk2 in2_6
  rw [View.read_apply]
  show (V c main_v43_1 : S1x128.Idx → EReal) _ = (V c main_v43_1 : S1x128.Idx → EReal) _
  congr 1
  funext a
  apply Fin.ext
  match a with
  | ⟨0, _⟩ => show win2_6.index t 0 * 1 + 1 * 0 = 0; rw [(idx2_6 t).1]
  | ⟨1, _⟩ => show win2_6.index t 1 * 128 + 1 * j.val = j.val; rw [(idx2_6 t).2]; omega
theorem blk2_6 (c : Dev nD) (t : Fin (9 + 1)) (j : Fin 128) :
    (iblk2 V c 6 ⟨t.val, lt_N2 t⟩ : FVec Ideal S1x128 .f32) (ix2 ⟨0, Nat.one_pos⟩ j) = in2_6 V c j :=
  res2_6 V c ⟨t.val, lt_N2 t⟩ j

def in2_7 (c : Dev nD) (j : Fin 128) : EReal := (V c main_v38 : S1x128.Idx → EReal) (ix2 ⟨0, Nat.one_pos⟩ j)
theorem idx2_7 : ∀ t : Fin cfg2.N, win2_7.index t 0 = 0 ∧ win2_7.index t 1 = 0 := by
  intro t; rcases fin_N2 t with rfl | rfl | rfl | rfl | rfl | rfl | rfl | rfl | rfl | rfl <;> decide
theorem res2_7 (c : Dev nD) (t : Fin cfg2.N) (j : Fin 128) :
    (iblk2 V c 7 t : Vec Ideal S1x128 .f32) (ix2 ⟨0, Nat.one_pos⟩ j) = in2_7 V c j := by
  unfold iblk2 in2_7
  rw [View.read_apply]
  show (V c main_v38 : S1x128.Idx → EReal) _ = (V c main_v38 : S1x128.Idx → EReal) _
  congr 1
  funext a
  apply Fin.ext
  match a with
  | ⟨0, _⟩ => show win2_7.index t 0 * 1 + 1 * 0 = 0; rw [(idx2_7 t).1]
  | ⟨1, _⟩ => show win2_7.index t 1 * 128 + 1 * j.val = j.val; rw [(idx2_7 t).2]; omega
theorem blk2_7 (c : Dev nD) (t : Fin (9 + 1)) (j : Fin 128) :
    (iblk2 V c 7 ⟨t.val, lt_N2 t⟩ : FVec Ideal S1x128 .f32) (ix2 ⟨0, Nat.one_pos⟩ j) = in2_7 V c j :=
  res2_7 V c ⟨t.val, lt_N2 t⟩ j

def in2_8 (c : Dev nD) (j : Fin 128) : EReal := (V c main_v41 : S1x128.Idx → EReal) (ix2 ⟨0, Nat.one_pos⟩ j)
theorem idx2_8 : ∀ t : Fin cfg2.N, win2_8.index t 0 = 0 ∧ win2_8.index t 1 = 0 := by
  intro t; rcases fin_N2 t with rfl | rfl | rfl | rfl | rfl | rfl | rfl | rfl | rfl | rfl <;> decide
theorem res2_8 (c : Dev nD) (t : Fin cfg2.N) (j : Fin 128) :
    (iblk2 V c 8 t : Vec Ideal S1x128 .f32) (ix2 ⟨0, Nat.one_pos⟩ j) = in2_8 V c j := by
  unfold iblk2 in2_8
  rw [View.read_apply]
  show (V c main_v41 : S1x128.Idx → EReal) _ = (V c main_v41 : S1x128.Idx → EReal) _
  congr 1
  funext a
  apply Fin.ext
  match a with
  | ⟨0, _⟩ => show win2_8.index t 0 * 1 + 1 * 0 = 0; rw [(idx2_8 t).1]
  | ⟨1, _⟩ => show win2_8.index t 1 * 128 + 1 * j.val = j.val; rw [(idx2_8 t).2]; omega
theorem blk2_8 (c : Dev nD) (t : Fin (9 + 1)) (j : Fin 128) :
    (iblk2 V c 8 ⟨t.val, lt_N2 t⟩ : FVec Ideal S1x128 .f32) (ix2 ⟨0, Nat.one_pos⟩ j) = in2_8 V c j :=
  res2_8 V c ⟨t.val, lt_N2 t⟩ j

/-- The quantity whose column statistics this kernel takes, over all rows. -/
abbrev GQ2 (c : Dev nD) : Fin 50000 → Fin 128 → EReal := Cert.Spec.relu zW (Cert.Spec.aff (Cert.Spec.lin (Cert.Spec.relu zW (Cert.Spec.aff (Cert.Spec.lin (in2_0 V c) (in2_1 V c)) (in2_3 V c) (in2_4 V c))) (in2_2 V c)) (in2_5 V c) (in2_6 V c))

theorem tile_q2 (c : Dev nD) (t : Fin (9 + 1)) (y : Fin 5000) (j : Fin 128) :
    Cert.Proof.Pay2.q (iblk2 V c 0 ⟨t.val, lt_N2 t⟩) (iblk2 V c 1 ⟨t.val, lt_N2 t⟩) (iblk2 V c 2 ⟨t.val, lt_N2 t⟩) (iblk2 V c 3 ⟨t.val, lt_N2 t⟩) (iblk2 V c 4 ⟨t.val, lt_N2 t⟩) (iblk2 V c 5 ⟨t.val, lt_N2 t⟩) (iblk2 V c 6 ⟨t.val, lt_N2 t⟩) (ix2 y j) = GQ2 V c (rowOf h50000 t y) j := by
  rw [Cert.Proof.Pay2.q_apply]
  simp only [blk2_0 V c t, blk2_1 V c t, blk2_2 V c t, blk2_3 V c t, blk2_4 V c t, blk2_5 V c t, blk2_6 V c t, Cert.Spec.lin, Cert.Spec.relu, Cert.Spec.aff]

def accS2 (c : Dev nD) (n : ℕ) (hn : n < cfg2.N) (j : Fin 128) : EReal := ((outsAt2 V c n hn).2.2.1 : S1x128.Idx → EReal) (r0_2 j)
def accQ2 (c : Dev nD) (n : ℕ) (hn : n < cfg2.N) (j : Fin 128) : EReal := ((outsAt2 V c n hn).2.2.2 : S1x128.Idx → EReal) (r0_2 j)

theorem accS2_zero (c : Dev nD) (j : Fin 128) : accS2 V c 0 (lt_N2 0) j = 0 + ∑ y : Fin 5000, GQ2 V c (rowOf h50000 0 y) j := by
  have e := outsAt2_A V c ⟨0, lt_N2 0⟩ rfl (c0_zero2 _) (nc1_zero2 _)
  unfold accS2
  rw [show outsAt2 V c 0 (lt_N2 0) = _ from e]
  dsimp only
  rw [pieceA2_S, Cert.Proof.Pay2.total_apply, Cert.Proof.Pay2.zeroS]
  exact congrArg (fun z => (0 : EReal) + z) (Finset.sum_congr rfl fun y _ => tile_q2 V c 0 y j)

theorem accQ2_zero (c : Dev nD) (j : Fin 128) : accQ2 V c 0 (lt_N2 0) j = 0 + ∑ y : Fin 5000, GQ2 V c (rowOf h50000 0 y) j * GQ2 V c (rowOf h50000 0 y) j := by
  have e := outsAt2_A V c ⟨0, lt_N2 0⟩ rfl (c0_zero2 _) (nc1_zero2 _)
  unfold accQ2
  rw [show outsAt2 V c 0 (lt_N2 0) = _ from e]
  dsimp only
  rw [pieceA2_Q, Cert.Proof.Pay2.total_sq_apply, Cert.Proof.Pay2.zeroQ]
  exact congrArg (fun z => (0 : EReal) + z) (Finset.sum_congr rfl fun y _ => congrArg₂ (· * ·) (tile_q2 V c 0 y j) (tile_q2 V c 0 y j))

theorem accS2_succ (c : Dev nD) (n : ℕ) (hn : n + 1 < 9 + 1) (j : Fin 128) :
    accS2 V c (n + 1) (lt_N2 ⟨n + 1, hn⟩) j = accS2 V c n (lt_N2 ⟨n, Nat.lt_of_succ_lt hn⟩) j + ∑ y : Fin 5000, GQ2 V c (rowOf h50000 ⟨n + 1, hn⟩ y) j := by
  have hz : (⟨n + 1, lt_N2 ⟨n + 1, hn⟩⟩ : Fin cfg2.N).val ≠ 0 := Nat.succ_ne_zero n
  have hc0 := nc0_succ2 n (lt_N2 ⟨n + 1, hn⟩)
  unfold accS2
  by_cases h1 : (n + 1) % 10 = 9
  · have hc1 : cond2_1 (grid2.coords ⟨n + 1, lt_N2 ⟨n + 1, hn⟩⟩) := (hcond2_1 _).mpr h1
    have e := outsAt2_C V c ⟨n + 1, lt_N2 ⟨n + 1, hn⟩⟩ hz h1 hc0 hc1
    rw [show outsAt2 V c (n + 1) (lt_N2 ⟨n + 1, hn⟩) = _ from e]
    dsimp only
    rw [pieceC2_S, Cert.Proof.Pay2.total_apply]
    exact congrArg₂ (· + ·) rfl (Finset.sum_congr rfl fun y _ => tile_q2 V c ⟨n + 1, hn⟩ y j)
  · have hc1 : ¬cond2_1 (grid2.coords ⟨n + 1, lt_N2 ⟨n + 1, hn⟩⟩) := fun h => h1 ((hcond2_1 _).mp h)
    have e := outsAt2_B V c ⟨n + 1, lt_N2 ⟨n + 1, hn⟩⟩ hz h1 hc0 hc1
    rw [show outsAt2 V c (n + 1) (lt_N2 ⟨n + 1, hn⟩) = _ from e]
    dsimp only
    rw [pieceB2_S, Cert.Proof.Pay2.total_apply]
    exact congrArg₂ (· + ·) rfl (Finset.sum_congr rfl fun y _ => tile_q2 V c ⟨n + 1, hn⟩ y j)

theorem accQ2_succ (c : Dev nD) (n : ℕ) (hn : n + 1 < 9 + 1) (j : Fin 128) :
    accQ2 V c (n + 1) (lt_N2 ⟨n + 1, hn⟩) j = accQ2 V c n (lt_N2 ⟨n, Nat.lt_of_succ_lt hn⟩) j + ∑ y : Fin 5000, GQ2 V c (rowOf h50000 ⟨n + 1, hn⟩ y) j * GQ2 V c (rowOf h50000 ⟨n + 1, hn⟩ y) j := by
  have hz : (⟨n + 1, lt_N2 ⟨n + 1, hn⟩⟩ : Fin cfg2.N).val ≠ 0 := Nat.succ_ne_zero n
  have hc0 := nc0_succ2 n (lt_N2 ⟨n + 1, hn⟩)
  unfold accQ2
  by_cases h1 : (n + 1) % 10 = 9
  · have hc1 : cond2_1 (grid2.coords ⟨n + 1, lt_N2 ⟨n + 1, hn⟩⟩) := (hcond2_1 _).mpr h1
    have e := outsAt2_C V c ⟨n + 1, lt_N2 ⟨n + 1, hn⟩⟩ hz h1 hc0 hc1
    rw [show outsAt2 V c (n + 1) (lt_N2 ⟨n + 1, hn⟩) = _ from e]
    dsimp only
    rw [pieceC2_Q, Cert.Proof.Pay2.total_sq_apply]
    exact congrArg₂ (· + ·) rfl (Finset.sum_congr rfl fun y _ => congrArg₂ (· * ·) (tile_q2 V c ⟨n + 1, hn⟩ y j) (tile_q2 V c ⟨n + 1, hn⟩ y j))
  · have hc1 : ¬cond2_1 (grid2.coords ⟨n + 1, lt_N2 ⟨n + 1, hn⟩⟩) := fun h => h1 ((hcond2_1 _).mp h)
    have e := outsAt2_B V c ⟨n + 1, lt_N2 ⟨n + 1, hn⟩⟩ hz h1 hc0 hc1
    rw [show outsAt2 V c (n + 1) (lt_N2 ⟨n + 1, hn⟩) = _ from e]
    dsimp only
    rw [pieceB2_Q, Cert.Proof.Pay2.total_sq_apply]
    exact congrArg₂ (· + ·) rfl (Finset.sum_congr rfl fun y _ => congrArg₂ (· * ·) (tile_q2 V c ⟨n + 1, hn⟩ y j) (tile_q2 V c ⟨n + 1, hn⟩ y j))

theorem totS2 (c : Dev nD) (j : Fin 128) : accS2 V c 9 (lt_N2 9) j = Cert.Spec.colS (GQ2 V c) j :=
  Cert.LibTiledTotals.tiled_total h50000 (GQ2 V c) (fun t j => ∑ y : Fin 5000, GQ2 V c (rowOf h50000 t y) j) (fun _ _ => rfl)
    (fun t j => accS2 V c t.val (lt_N2 t) j) (accS2_zero V c) (fun t j => accS2_succ V c t.val (Nat.succ_lt_succ t.isLt) j) j
theorem totQ2 (c : Dev nD) (j : Fin 128) : accQ2 V c 9 (lt_N2 9) j = Cert.Spec.colQ (GQ2 V c) j :=
  Cert.LibTiledTotals.tiled_total_sq h50000 (GQ2 V c) (fun t j => ∑ y : Fin 5000, GQ2 V c (rowOf h50000 t y) j * GQ2 V c (rowOf h50000 t y) j) (fun _ _ => rfl)
    (fun t j => accQ2 V c t.val (lt_N2 t) j) (accQ2_zero V c) (fun t j => accQ2_succ V c t.val (Nat.succ_lt_succ t.isLt) j) j
theorem totS2' (c : Dev nD) (t : Fin cfg2.N) (h9 : t.val = 9) (j : Fin 128) : accS2 V c t.val t.isLt j = Cert.Spec.colS (GQ2 V c) j := by
  obtain rfl : t = ⟨9, lt_N2 9⟩ := Fin.ext h9
  exact totS2 V c j
theorem totQ2' (c : Dev nD) (t : Fin cfg2.N) (h9 : t.val = 9) (j : Fin 128) : accQ2 V c t.val t.isLt j = Cert.Spec.colQ (GQ2 V c) j := by
  obtain rfl : t = ⟨9, lt_N2 9⟩ := Fin.ext h9
  exact totQ2 V c j

abbrev pS2 (c : Dev nD) (t : Fin cfg2.N) : Vec Ideal S1x128 .f32 := (outsAt2 V c (t.val - 1) (Nat.lt_of_le_of_lt (Nat.sub_le _ _) t.isLt)).2.2.1
abbrev pQ2 (c : Dev nD) (t : Fin cfg2.N) : Vec Ideal S1x128 .f32 := (outsAt2 V c (t.val - 1) (Nat.lt_of_le_of_lt (Nat.sub_le _ _) t.isLt)).2.2.2
abbrev S9_2 (c : Dev nD) (t : Fin cfg2.N) : Vec Ideal S1x128 .f32 := k2_pay1 (pS2 V c t) (k2_pay9 (iblk2 V c 0 t) (iblk2 V c 1 t) (iblk2 V c 3 t) (iblk2 V c 4 t) (iblk2 V c 2 t) (iblk2 V c 5 t) (iblk2 V c 6 t))
abbrev Q9_2 (c : Dev nD) (t : Fin cfg2.N) : Vec Ideal S1x128 .f32 := k2_pay2 (k2_pay8 (iblk2 V c 0 t) (iblk2 V c 1 t) (iblk2 V c 3 t) (iblk2 V c 4 t) (iblk2 V c 2 t) (iblk2 V c 5 t) (iblk2 V c 6 t)) (pQ2 V c t)

set_option maxHeartbeats 3200000 in
theorem last2 (c : Dev nD) (t : Fin cfg2.N) (h9 : t.val = 9) :
    outsAt2 V c t.val t.isLt = (k2_pay4 (S9_2 V c t) (Q9_2 V c t) (iblk2 V c 7 t), k2_pay5 (S9_2 V c t) (Q9_2 V c t) (iblk2 V c 7 t) (iblk2 V c 8 t), S9_2 V c t, Q9_2 V c t) := by
  have h9' : t.val % 10 = 9 := by rw [h9]
  have hz : t.val ≠ 0 := by rw [h9]; decide
  have hc0 : ¬cond2_0 (grid2.coords t) := fun h => by have := (hcond2_0 t).mp h; omega
  have hc1 : cond2_1 (grid2.coords t) := (hcond2_1 t).mpr h9'
  refine (outsAt2_C V c t hz h9' hc0 hc1).trans ?_
  rw [(pieceC2_1 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (pS2 V c t) (pQ2 V c t)), (pieceC2_2 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (pS2 V c t) (pQ2 V c t)), (pieceC2_S (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (pS2 V c t) (pQ2 V c t)), (pieceC2_Q (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (pS2 V c t) (pQ2 V c t))]

theorem scale2_val (c : Dev nD) (t : Fin cfg2.N) (h9 : t.val = 9) (j : Fin 128) :
    ((outsAt2 V c t.val t.isLt).1 : S1x128.Idx → EReal) (r0_2 j) = Cert.Spec.scaleK (GQ2 V c) (in2_7 V c) cW epsW j := by
  have hS : (S9_2 V c t : S1x128.Idx → EReal) (r0_2 j) = Cert.Spec.colS (GQ2 V c) j := by
    rw [← totS2' V c t h9]; unfold accS2; rw [last2 V c t h9]
  have hQ : (Q9_2 V c t : S1x128.Idx → EReal) (r0_2 j) = Cert.Spec.colQ (GQ2 V c) j := by
    rw [← totQ2' V c t h9]; unfold accQ2; rw [last2 V c t h9]
  rw [last2 V c t h9]
  dsimp only
  rw [Cert.Proof.Pay2.scale_apply, hS, hQ, res2_7 V c t j]
  rfl

theorem shift2_val (c : Dev nD) (t : Fin cfg2.N) (h9 : t.val = 9) (j : Fin 128) :
    ((outsAt2 V c t.val t.isLt).2.1 : S1x128.Idx → EReal) (r0_2 j) = Cert.Spec.shiftK (GQ2 V c) (in2_7 V c) (in2_8 V c) cW epsW j := by
  have hS : (S9_2 V c t : S1x128.Idx → EReal) (r0_2 j) = Cert.Spec.colS (GQ2 V c) j := by
    rw [← totS2' V c t h9]; unfold accS2; rw [last2 V c t h9]
  have hsc := scale2_val V c t h9 j
  rw [last2 V c t h9] at hsc
  dsimp only at hsc
  rw [last2 V c t h9]
  dsimp only
  rw [Cert.Proof.Pay2.shift_apply, hsc, hS, res2_8 V c t j]
  rfl

/-- THE REGION'S VALUE: the two result arrays after the region are the batch norm's scale and shift rows. -/
theorem scaleArr2 (c : Dev nD) (j : Fin 128) :
    ((dat2 V c).arrAt 9 cfg2.N : S1x128.Idx → EReal) (r0_2 j) = Cert.Spec.scaleK (GQ2 V c) (in2_7 V c) cW epsW j := by
  rw [final2_9]; unfold G2_9
  exact scale2_val V c tL2 tL2_val j
theorem shiftArr2 (c : Dev nD) (j : Fin 128) :
    ((dat2 V c).arrAt 10 cfg2.N : S1x128.Idx → EReal) (r0_2 j) = Cert.Spec.shiftK (GQ2 V c) (in2_7 V c) (in2_8 V c) cW epsW j := by
  rw [final2_10]; unfold G2_10
  exact shift2_val V c tL2 tL2_val j

end Cert.KernelIdeal.Hand

end
-- ==== Proof.R3ValA.lean ====
/-
  The output kernel of a layer (pipeline 3): the one store of its body read back as the body's arithmetic.

  The body loads its nine whole input buffers, and stores one value into its whole output buffer; a buffer stored
  whole holds, afterwards, the stored value. So what the output buffer ends with is the last arithmetic step applied
  to the two intermediate values, each a function of the loaded inputs alone.
-/
import proofs.«180905_j29583734735286_1_alg».proof.Proof.R3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F] [Named F]

private theorem hzv : (![0, 0] : Fin 2 → Nat) = fun _ => 0 := funext fun a => by fin_cases a <;> rfl

theorem piece3 (c : Dev nD) (i : grid3.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    rd3 (F := F) (kernelRun3 c i arg1 harg1 arg2 harg2 arg3 harg3 arg4 harg4 arg5 harg5 arg6 harg6 arg7 harg7 arg8 harg8 arg9 harg9 arg10 harg10 x0 x1 x2 x3 x4 x5 x6 x7 x8).1 = k3_pay1 (k3_pay2 x0 x1 x3 x4 x2 x5 x6 x7) (k3_pay3 x8) := by
  unfold rd3
  rw [View.read_writes_eq_canon _ _ _ (cover3 c i arg1 harg1 arg2 harg2 arg3 harg3 arg4 harg4 arg5 harg5 arg6 harg6 arg7 harg7 arg8 harg8 arg9 harg9 arg10 harg10 x0 x1 x2 x3 x4 x5 x6 x7 x8)]
  unfold kernelRun3
  dsimp only
  rw [View.canon_unit_zero hzv]
  unfold kernelRun3.sl.r kernelRun3.sl.r_1
  simp only [View.readAt_eq_ld, harg1.read_unread, harg2.read_unread, harg3.read_unread, harg4.read_unread, harg5.read_unread, harg6.read_unread, harg7.read_unread, harg8.read_unread, harg9.read_unread, View.ld_unit_zero (S := S5000x128) hzv, View.ld_unit_zero (S := S128x128) hzv, View.ld_unit_zero (S := S1x128) hzv]

end Cert.KernelIdeal.Hand

end
-- ==== Proof.R3ValNet.lean ====
/-
  The output kernel of a layer on the extended reals, entry by entry.

  For a tile a of n rows the kernel forms a · W0, scales and shifts every row by the first batch norm's two rows and
  rectifies, forms the product with W1, scales, shifts and rectifies again, and scales and shifts a third time (the
  last rectifier is applied, or not, by the caller). Every entry (r, j) of the result reads row r of a alone, so the
  result on a tile that holds rows of a larger array is the result on the larger array at those rows.
-/
import Mathlib.Data.EReal.Inv
import Idealize.ShloMosaic.PureOps.Ideal
import Idealize.ShloMosaic.PureOps.Ideal.Laws
import Idealize.ShloMosaic.Lib.ValueIdx
import Idealize.ShloMosaic.Lib.Pipeline.Value
import proofs.«180905_j29583734735286_1_alg».proof.Proof.Gen.KernelIdeal.Skeleton
import proofs.«180905_j29583734735286_1_alg».proof.Proof.Spec
import proofs.«180905_j29583734735286_1_alg».proof.Proof.LibDense
import proofs.«180905_j29583734735286_1_alg».proof.Proof.LibBiasRows

noncomputable section

namespace Cert.OutNet

open Idealize.ShloMosaic Idealize.ShloMosaic.ValueIdx Cert.KernelIdeal Cert.KernelIdeal.Gen
open scoped BigOperators

/-- The value of the zero word. -/
abbrev zW : EReal := Ideal.ofBits .f32 0x00000000#32
/-- The index (0, j) of a [1, 128] row. -/
abbrev r0 (j : Fin 128) : S1x128.Idx := ix2 ⟨0, Nat.one_pos⟩ j

/-- Two dense stages, each scaled, shifted and rectified, and a third scale and shift. -/
def net {n d : ℕ} (z : EReal) (X : Fin n → Fin d → EReal) (W0 W1 : Fin d → Fin d → EReal)
    (sc1 sh1 sc2 sh2 sc3 sh3 : Fin d → EReal) : Fin n → Fin d → EReal :=
  Cert.Spec.aff (Cert.Spec.relu z (Cert.Spec.aff (Cert.Spec.lin (Cert.Spec.relu z (Cert.Spec.aff (Cert.Spec.lin X W0) sc1 sh1)) W1) sc2 sh2)) sc3 sh3

/-- An entry of the result reads one row of the first operand: two sets of operands that agree on that row, on the
    weights and on the six rows give the same entry. -/
theorem net_congr {n n' d : ℕ} (z : EReal) (X : Fin n → Fin d → EReal) (X' : Fin n' → Fin d → EReal)
    (W0 W1 W0' W1' : Fin d → Fin d → EReal) (sc1 sh1 sc2 sh2 sc3 sh3 sc1' sh1' sc2' sh2' sc3' sh3' : Fin d → EReal)
    (y : Fin n) (R : Fin n') (hX : ∀ k, X y k = X' R k) (hW0 : ∀ k j, W0 k j = W0' k j) (hW1 : ∀ k j, W1 k j = W1' k j)
    (h1 : ∀ j, sc1 j = sc1' j) (h2 : ∀ j, sh1 j = sh1' j) (h3 : ∀ j, sc2 j = sc2' j) (h4 : ∀ j, sh2 j = sh2' j)
    (h5 : ∀ j, sc3 j = sc3' j) (h6 : ∀ j, sh3 j = sh3' j) (j : Fin d) :
    net z X W0 W1 sc1 sh1 sc2 sh2 sc3 sh3 y j = net z X' W0' W1' sc1' sh1' sc2' sh2' sc3' sh3' R j := by
  obtain rfl : W0 = W0' := funext fun k => funext fun j => hW0 k j
  obtain rfl : W1 = W1' := funext fun k => funext fun j => hW1 k j
  obtain rfl : sc1 = sc1' := funext h1
  obtain rfl : sh1 = sh1' := funext h2
  obtain rfl : sc2 = sc2' := funext h3
  obtain rfl : sh2 = sh2' := funext h4
  obtain rfl : sc3 = sc3' := funext h5
  obtain rfl : sh3 = sh3' := funext h6
  unfold net Cert.Spec.aff Cert.Spec.relu Cert.Spec.lin
  simp only [hX]

/-- The printed product record is the plain [M, K] × [K, N] one. -/
theorem dot_eq : dot_S5000x128_S128x128_S5000x128_1_0_0_1_n_n = DotDims.plain 5000 128 128 := rfl

/-- A tile times a weight into the zero accumulator (the change of float format before the product is the identity
    on the extended reals), at row y, column j. -/
theorem dense_apply (a : FVec Ideal S5000x128 .f32) (w : FVec Ideal S128x128 .bf16) (y : Fin 5000) (j : Fin 128) :
    matmul dot_S5000x128_S128x128_S5000x128_1_0_0_1_n_n none (truncf .bf16 a bitsLt_bf16_f32) w
        (constant (F := Ideal) S5000x128 .f32 0x00000000#32) (ix2 y j)
      = ∑ k : Fin 128, a (ix2 y k) * w (ix2 k j) :=
  Cert.LibDense.matmul_plain (M := 5000) (K := 128) (N := 128) (φ₁ := .bf16) (φ₂ := .bf16) _ w (ix2 y j)

/-- A tile scaled and shifted by two [1, 128] rows broadcast down its rows, then rectified, at row y, column j. -/
theorem act_apply (a : FVec Ideal S5000x128 .f32) (sc sh : FVec Ideal S1x128 .f32) (y : Fin 5000) (j : Fin 128) :
    maximumf (addf (mulf a (broadcastTo S5000x128 sc broadcasts_S1x128_S5000x128)) (broadcastTo S5000x128 sh broadcasts_S1x128_S5000x128))
        (broadcast S5000x128 (Scalar.ofBits (F := Ideal) .f32 0x00000000#32)) (ix2 y j)
      = max (a (ix2 y j) * sc (r0 j) + sh (r0 j)) zW := by
  show max (a (ix2 y j) * broadcastTo S5000x128 sc broadcasts_S1x128_S5000x128 (ix2 y j)
      + broadcastTo S5000x128 sh broadcasts_S1x128_S5000x128 (ix2 y j)) zW = _
  rw [Cert.LibBiasRows.row_broadcast (n := 5000) (d := 128) sc, Cert.LibBiasRows.row_broadcast (n := 5000) (d := 128) sh]

/-- The same without the rectifier. -/
theorem aff_apply (a : FVec Ideal S5000x128 .f32) (sc sh : FVec Ideal S1x128 .f32) (y : Fin 5000) (j : Fin 128) :
    addf (mulf a (broadcastTo S5000x128 sc broadcasts_S1x128_S5000x128)) (broadcastTo S5000x128 sh broadcasts_S1x128_S5000x128) (ix2 y j)
      = a (ix2 y j) * sc (r0 j) + sh (r0 j) := by
  show a (ix2 y j) * broadcastTo S5000x128 sc broadcasts_S1x128_S5000x128 (ix2 y j)
      + broadcastTo S5000x128 sh broadcasts_S1x128_S5000x128 (ix2 y j) = _
  rw [Cert.LibBiasRows.row_broadcast (n := 5000) (d := 128) sc, Cert.LibBiasRows.row_broadcast (n := 5000) (d := 128) sh]

end Cert.OutNet

end
-- ==== Proof.R3ValB.lean ====
/-
  The output kernel of a layer (pipeline 3), value by value, at the ideal values: what its body stores, at row y
  and column j of the tile, is the layer's two dense stages, each scaled, shifted and rectified, and the third
  scale and shift, rectified — of the tile, the two weights and the six rows the point holds.
-/
import proofs.«180905_j29583734735286_1_alg».proof.Proof.Gen.KernelIdeal.Skeleton
import proofs.«180905_j29583734735286_1_alg».proof.Proof.R3ValNet

noncomputable section

namespace Cert.KernelIdeal.Hand

open Idealize.ShloMosaic Idealize.ShloMosaic.ValueIdx Cert.KernelIdeal Cert.KernelIdeal.Gen
open Cert.OutNet (zW r0)
open scoped BigOperators

/-- The stored value at an entry, written out. -/
theorem pay3_explicit (v0 : FVec Ideal S5000x128 .f32) (v3 : FVec Ideal S128x128 .bf16) (v6 v10 : FVec Ideal S1x128 .f32)
    (v17 : FVec Ideal S128x128 .bf16) (v20 v24 v30 v34 : FVec Ideal S1x128 .f32) (y : Fin 5000) (j : Fin 128) :
    k3_pay1 (F := Ideal) (k3_pay2 v0 v3 v6 v10 v17 v20 v24 v30) (k3_pay3 v34) (ix2 y j)
      = max (max ((∑ k : Fin 128, max ((∑ k' : Fin 128, v0 (ix2 y k') * v3 (ix2 k' k)) * v6 (r0 k) + v10 (r0 k)) zW * v17 (ix2 k j))
          * v20 (r0 j) + v24 (r0 j)) zW * v30 (r0 j) + v34 (r0 j)) zW := by
  unfold k3_pay1 k3_pay2 k3_pay3
  simp only [shapeCast_self]
  refine (Cert.OutNet.act_apply _ v30 v34 y j).trans ?_
  refine congrArg (fun z => max (z * v30 (r0 j) + v34 (r0 j)) zW) ?_
  refine (Cert.OutNet.act_apply _ v20 v24 y j).trans ?_
  refine congrArg (fun z => max (z * v20 (r0 j) + v24 (r0 j)) zW) ?_
  refine (Cert.OutNet.dense_apply _ v17 y j).trans ?_
  refine Finset.sum_congr rfl fun k _ => congrArg (fun z => z * v17 (ix2 k j)) ?_
  refine (Cert.OutNet.act_apply _ v6 v10 y k).trans ?_
  refine congrArg (fun z => max (z * v6 (r0 k) + v10 (r0 k)) zW) ?_
  exact Cert.OutNet.dense_apply v0 v3 y k

/-- The stored value at an entry, in the layer's vocabulary. -/
theorem pay3_apply (v0 : FVec Ideal S5000x128 .f32) (v3 : FVec Ideal S128x128 .bf16) (v6 v10 : FVec Ideal S1x128 .f32)
    (v17 : FVec Ideal S128x128 .bf16) (v20 v24 v30 v34 : FVec Ideal S1x128 .f32) (y : Fin 5000) (j : Fin 128) :
    k3_pay1 (F := Ideal) (k3_pay2 v0 v3 v6 v10 v17 v20 v24 v30) (k3_pay3 v34) (ix2 y j)
      = Cert.Spec.relu zW (Cert.OutNet.net zW (fun y k => v0 (ix2 y k)) (fun k j => v3 (ix2 k j)) (fun k j => v17 (ix2 k j))
          (fun j => v6 (r0 j)) (fun j => v10 (r0 j)) (fun j => v20 (r0 j)) (fun j => v24 (r0 j)) (fun j => v30 (r0 j)) (fun j => v34 (r0 j))) y j :=
  (pay3_explicit v0 v3 v6 v10 v17 v20 v24 v30 v34 y j).trans rfl

end Cert.KernelIdeal.Hand

end
-- ==== Proof.R3ValBlk.lean ====
/-
  The output kernel of a layer (pipeline 3): the blocks a grid point holds, read at an index.

  The tile of x at point t is rows 5000·t … 5000·t + 4999 of the array x; the two weights and the six batch-norm
  rows are the whole arrays at every point.
-/
import proofs.«180905_j29583734735286_1_alg».proof.Proof.R3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (V : (c : Dev nD) → (b : Ref sig .tc) → Buf (Elt Ideal) ((c : Thread nD τ).loc b))

/-- x, the two weights and the six rows of pipeline 3 as the region finds them, as plain functions of indices. -/
def X3 (c : Dev nD) (r : Fin 50000) (k : Fin 128) : EReal := (V c main_v17 : S50000x128.Idx → EReal) (ix2 r k)
def Wa3 (c : Dev nD) (k j : Fin 128) : EReal := (V c main_v20 : S128x128.Idx → EReal) (ix2 k j)
def Wb3 (c : Dev nD) (k j : Fin 128) : EReal := (V c main_v23 : S128x128.Idx → EReal) (ix2 k j)
def sc3_1 (c : Dev nD) (j : Fin 128) : EReal := (V c main_v42_0 : S1x128.Idx → EReal) (ix2 ⟨0, Nat.one_pos⟩ j)
def sh3_1 (c : Dev nD) (j : Fin 128) : EReal := (V c main_v42_1 : S1x128.Idx → EReal) (ix2 ⟨0, Nat.one_pos⟩ j)
def sc3_2 (c : Dev nD) (j : Fin 128) : EReal := (V c main_v43_0 : S1x128.Idx → EReal) (ix2 ⟨0, Nat.one_pos⟩ j)
def sh3_2 (c : Dev nD) (j : Fin 128) : EReal := (V c main_v43_1 : S1x128.Idx → EReal) (ix2 ⟨0, Nat.one_pos⟩ j)
def sc3_3 (c : Dev nD) (j : Fin 128) : EReal := (V c main_v44_0 : S1x128.Idx → EReal) (ix2 ⟨0, Nat.one_pos⟩ j)
def sh3_3 (c : Dev nD) (j : Fin 128) : EReal := (V c main_v44_1 : S1x128.Idx → EReal) (ix2 ⟨0, Nat.one_pos⟩ j)

theorem idx3_0 : ∀ t : Fin cfg3.N, win3_0.index t 0 = t.val ∧ win3_0.index t 1 = 0 := by
  intro t; rcases fin_N3 t with rfl | rfl | rfl | rfl | rfl | rfl | rfl | rfl | rfl | rfl <;> decide
theorem idx3_1 : ∀ t : Fin cfg3.N, win3_1.index t 0 = 0 ∧ win3_1.index t 1 = 0 := by
  intro t; rcases fin_N3 t with rfl | rfl | rfl | rfl | rfl | rfl | rfl | rfl | rfl | rfl <;> decide
theorem idx3_2 : ∀ t : Fin cfg3.N, win3_2.index t 0 = 0 ∧ win3_2.index t 1 = 0 := by
  intro t; rcases fin_N3 t with rfl | rfl | rfl | rfl | rfl | rfl | rfl | rfl | rfl | rfl <;> decide
theorem idx3_3 : ∀ t : Fin cfg3.N, win3_3.index t 0 = 0 ∧ win3_3.index t 1 = 0 := by
  intro t; rcases fin_N3 t with rfl | rfl | rfl | rfl | rfl | rfl | rfl | rfl | rfl | rfl <;> decide
theorem idx3_4 : ∀ t : Fin cfg3.N, win3_4.index t 0 = 0 ∧ win3_4.index t 1 = 0 := by
  intro t; rcases fin_N3 t with rfl | rfl | rfl | rfl | rfl | rfl | rfl | rfl | rfl | rfl <;> decide
theorem idx3_5 : ∀ t : Fin cfg3.N, win3_5.index t 0 = 0 ∧ win3_5.index t 1 = 0 := by
  intro t; rcases fin_N3 t with rfl | rfl | rfl | rfl | rfl | rfl | rfl | rfl | rfl | rfl <;> decide
theorem idx3_6 : ∀ t : Fin cfg3.N, win3_6.index t 0 = 0 ∧ win3_6.index t 1 = 0 := by
  intro t; rcases fin_N3 t with rfl | rfl | rfl | rfl | rfl | rfl | rfl | rfl | rfl | rfl <;> decide
theorem idx3_7 : ∀ t : Fin cfg3.N, win3_7.index t 0 = 0 ∧ win3_7.index t 1 = 0 := by
  intro t; rcases fin_N3 t with rfl | rfl | rfl | rfl | rfl | rfl | rfl | rfl | rfl | rfl <;> decide
theorem idx3_8 : ∀ t : Fin cfg3.N, win3_8.index t 0 = 0 ∧ win3_8.index t 1 = 0 := by
  intro t; rcases fin_N3 t with rfl | rfl | rfl | rfl | rfl | rfl | rfl | rfl | rfl | rfl <;> decide
theorem idx3_9 : ∀ t : Fin cfg3.N, win3_9.index t 0 = t.val ∧ win3_9.index t 1 = 0 := by
  intro t; rcases fin_N3 t with rfl | rfl | rfl | rfl | rfl | rfl | rfl | rfl | rfl | rfl <;> decide
theorem xsz3_9 : ∀ t : Fin cfg3.N, win3_9.xsize (grid3.coords t) 0 = 5000 ∧ win3_9.xsize (grid3.coords t) 1 = 128 := by
  intro t; rcases fin_N3 t with rfl | rfl | rfl | rfl | rfl | rfl | rfl | rfl | rfl | rfl <;> decide +kernel

/-- The tile at point t is rows 5000 t … of x. -/
theorem tile3 (c : Dev nD) (t : Fin cfg3.N) (y : Fin 5000) (k : Fin 128) (R : Fin 50000) (hR : R.val = t.val * 5000 + y.val) :
    (iblk3 V c 0 t : Vec Ideal S5000x128 .f32) (ix2 y k) = X3 V c R k := by
  unfold iblk3 X3
  rw [View.read_apply]
  show (V c main_v17 : S50000x128.Idx → EReal) _ = (V c main_v17 : S50000x128.Idx → EReal) _
  congr 1
  funext a
  apply Fin.ext
  match a with
  | ⟨0, _⟩ => show win3_0.index t 0 * 5000 + 1 * y.val = R.val; rw [(idx3_0 t).1, hR]; omega
  | ⟨1, _⟩ => show win3_0.index t 1 * 128 + 1 * k.val = k.val; rw [(idx3_0 t).2]; omega

theorem res3_1 (c : Dev nD) (t : Fin cfg3.N) (k j : Fin 128) :
    (iblk3 V c 1 t : Vec Ideal S128x128 .bf16) (ix2 k j) = Wa3 V c k j := by
  unfold iblk3 Wa3
  rw [View.read_apply]
  show (V c main_v20 : S128x128.Idx → EReal) _ = (V c main_v20 : S128x128.Idx → EReal) _
  congr 1
  funext a
  apply Fin.ext
  match a with
  | ⟨0, _⟩ => show win3_1.index t 0 * 128 + 1 * k.val = k.val; rw [(idx3_1 t).1]; omega
  | ⟨1, _⟩ => show win3_1.index t 1 * 128 + 1 * j.val = j.val; rw [(idx3_1 t).2]; omega

theorem res3_2 (c : Dev nD) (t : Fin cfg3.N) (k j : Fin 128) :
    (iblk3 V c 2 t : Vec Ideal S128x128 .bf16) (ix2 k j) = Wb3 V c k j := by
  unfold iblk3 Wb3
  rw [View.read_apply]
  show (V c main_v23 : S128x128.Idx → EReal) _ = (V c main_v23 : S128x128.Idx → EReal) _
  congr 1
  funext a
  apply Fin.ext
  match a with
  | ⟨0, _⟩ => show win3_2.index t 0 * 128 + 1 * k.val = k.val; rw [(idx3_2 t).1]; omega
  | ⟨1, _⟩ => show win3_2.index t 1 * 128 + 1 * j.val = j.val; rw [(idx3_2 t).2]; omega

theorem res3_3 (c : Dev nD) (t : Fin cfg3.N) (j : Fin 128) :
    (iblk3 V c 3 t : Vec Ideal S1x128 .f32) (ix2 ⟨0, Nat.one_pos⟩ j) = sc3_1 V c j := by
  unfold iblk3 sc3_1
  rw [View.read_apply]
  show (V c main_v42_0 : S1x128.Idx → EReal) _ = (V c main_v42_0 : S1x128.Idx → EReal) _
  congr 1
  funext a
  apply Fin.ext
  match a with
  | ⟨0, _⟩ => show win3_3.index t 0 * 1 + 1 * 0 = 0; rw [(idx3_3 t).1]
  | ⟨1, _⟩ => show win3_3.index t 1 * 128 + 1 * j.val = j.val; rw [(idx3_3 t).2]; omega

theorem res3_4 (c : Dev nD) (t : Fin cfg3.N) (j : Fin 128) :
    (iblk3 V c 4 t : Vec Ideal S1x128 .f32) (ix2 ⟨0, Nat.one_pos⟩ j) = sh3_1 V c j := by
  unfold iblk3 sh3_1
  rw [View.read_apply]
  show (V c main_v42_1 : S1x128.Idx → EReal) _ = (V c main_v42_1 : S1x128.Idx → EReal) _
  congr 1
  funext a
  apply Fin.ext
  match a with
  | ⟨0, _⟩ => show win3_4.index t 0 * 1 + 1 * 0 = 0; rw [(idx3_4 t).1]
  | ⟨1, _⟩ => show win3_4.index t 1 * 128 + 1 * j.val = j.val; rw [(idx3_4 t).2]; omega

theorem res3_5 (c : Dev nD) (t : Fin cfg3.N) (j : Fin 128) :
    (iblk3 V c 5 t : Vec Ideal S1x128 .f32) (ix2 ⟨0, Nat.one_pos⟩ j) = sc3_2 V c j := by
  unfold iblk3 sc3_2
  rw [View.read_apply]
  show (V c main_v43_0 : S1x128.Idx → EReal) _ = (V c main_v43_0 : S1x128.Idx → EReal) _
  congr 1
  funext a
  apply Fin.ext
  match a with
  | ⟨0, _⟩ => show win3_5.index t 0 * 1 + 1 * 0 = 0; rw [(idx3_5 t).1]
  | ⟨1, _⟩ => show win3_5.index t 1 * 128 + 1 * j.val = j.val; rw [(idx3_5 t).2]; omega

theorem res3_6 (c : Dev nD) (t : Fin cfg3.N) (j : Fin 128) :
    (iblk3 V c 6 t : Vec Ideal S1x128 .f32) (ix2 ⟨0, Nat.one_pos⟩ j) = sh3_2 V c j := by
  unfold iblk3 sh3_2
  rw [View.read_apply]
  show (V c main_v43_1 : S1x128.Idx → EReal) _ = (V c main_v43_1 : S1x128.Idx → EReal) _
  congr 1
  funext a
  apply Fin.ext
  match a with
  | ⟨0, _⟩ => show win3_6.index t 0 * 1 + 1 * 0 = 0; rw [(idx3_6 t).1]
  | ⟨1, _⟩ => show win3_6.index t 1 * 128 + 1 * j.val = j.val; rw [(idx3_6 t).2]; omega

theorem res3_7 (c : Dev nD) (t : Fin cfg3.N) (j : Fin 128) :
    (iblk3 V c 7 t : Vec Ideal S1x128 .f32) (ix2 ⟨0, Nat.one_pos⟩ j) = sc3_3 V c j := by
  unfold iblk3 sc3_3
  rw [View.read_apply]
  show (V c main_v44_0 : S1x128.Idx → EReal) _ = (V c main_v44_0 : S1x128.Idx → EReal) _
  congr 1
  funext a
  apply Fin.ext
  match a with
  | ⟨0, _⟩ => show win3_7.index t 0 * 1 + 1 * 0 = 0; rw [(idx3_7 t).1]
  | ⟨1, _⟩ => show win3_7.index t 1 * 128 + 1 * j.val = j.val; rw [(idx3_7 t).2]; omega

theorem res3_8 (c : Dev nD) (t : Fin cfg3.N) (j : Fin 128) :
    (iblk3 V c 8 t : Vec Ideal S1x128 .f32) (ix2 ⟨0, Nat.one_pos⟩ j) = sh3_3 V c j := by
  unfold iblk3 sh3_3
  rw [View.read_apply]
  show (V c main_v44_1 : S1x128.Idx → EReal) _ = (V c main_v44_1 : S1x128.Idx → EReal) _
  congr 1
  funext a
  apply Fin.ext
  match a with
  | ⟨0, _⟩ => show win3_8.index t 0 * 1 + 1 * 0 = 0; rw [(idx3_8 t).1]
  | ⟨1, _⟩ => show win3_8.index t 1 * 128 + 1 * j.val = j.val; rw [(idx3_8 t).2]; omega

end Cert.KernelIdeal.Hand

end
-- ==== Proof.R3ValOut.lean ====
/-
  The output kernel of a layer (pipeline 3), at the ideal values: what the region leaves in its result array.

  At every grid point the body stores, into the output window's block, the layer's value on the point's tile: two
  dense stages, each scaled, shifted and rectified, and a third scale and shift, rectified. An entry of that value reads
  one row of the tile, and the tile at point t is rows 5000·t … of x, so the block stored at point t is rows 5000·t …
  of the layer's value on the whole array. Every point writes its block back and the ten blocks tile the [50000, 128]
  result array, so the array ends holding the layer's value on x, entry by entry.
-/
import proofs.«180905_j29583734735286_1_alg».proof.Proof.R3ValA
import proofs.«180905_j29583734735286_1_alg».proof.Proof.R3ValB
import proofs.«180905_j29583734735286_1_alg».proof.Proof.R3ValBlk
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

open Cert.OutNet (zW r0)

variable (V : (c : Dev nD) → (b : Ref sig .tc) → Buf (Elt Ideal) ((c : Thread nD τ).loc b))

/-- The layer's value on the whole array x, before the last rectifier. -/
def net3 (c : Dev nD) : Fin 50000 → Fin 128 → EReal :=
  Cert.OutNet.net zW (X3 V c) (Wa3 V c) (Wb3 V c) (sc3_1 V c) (sh3_1 V c) (sc3_2 V c) (sh3_2 V c) (sc3_3 V c) (sh3_3 V c)

/-- What the body leaves in the output buffer at point t, at row y and column j of the block: the layer's value at
    row 5000 t + y of the whole array. -/
theorem out3_apply (c : Dev nD) (t : Fin cfg3.N) (y : Fin 5000) (j : Fin 128) (R : Fin 50000) (J : Fin 128)
    (hR : R.val = t.val * 5000 + y.val) (hJ : J.val = j.val) :
    (out3 V c t : Vec Ideal S5000x128 .f32) (ix2 y j) = Cert.Spec.relu zW (net3 V c) R J := by
  obtain rfl : J = j := Fin.ext hJ
  unfold out3
  rw [piece3 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (iblk3 V c 0 t) (iblk3 V c 1 t) (iblk3 V c 2 t) (iblk3 V c 3 t) (iblk3 V c 4 t) (iblk3 V c 5 t) (iblk3 V c 6 t) (iblk3 V c 7 t) (iblk3 V c 8 t)]
  refine (pay3_apply (iblk3 V c 0 t) (iblk3 V c 1 t) (iblk3 V c 3 t) (iblk3 V c 4 t) (iblk3 V c 2 t) (iblk3 V c 5 t) (iblk3 V c 6 t) (iblk3 V c 7 t) (iblk3 V c 8 t) y J).trans ?_
  unfold Cert.Spec.relu
  refine congrArg (fun z => max z zW) ?_
  unfold net3
  exact Cert.OutNet.net_congr zW _ (X3 V c) _ _ (Wa3 V c) (Wb3 V c) _ _ _ _ _ _ (sc3_1 V c) (sh3_1 V c) (sc3_2 V c) (sh3_2 V c) (sc3_3 V c) (sh3_3 V c) y R
    (fun k => tile3 V c t y k R hR) (fun k j => res3_1 V c t k j) (fun k j => res3_2 V c t k j)
    (fun j => res3_3 V c t j) (fun j => res3_4 V c t j) (fun j => res3_5 V c t j) (fun j => res3_6 V c t j)
    (fun j => res3_7 V c t j) (fun j => res3_8 V c t j) J

/-- What the region leaves in its result array: the layer's value on x. -/
def G3 (c : Dev nD) : Buf (Elt Ideal) ((c : Thread nD τ).loc main_v45) :=
  (fun i => Cert.Spec.relu zW (net3 V c) (i 0) (i 1) : S50000x128.Idx → EReal)

/-- What point t writes back is block t of that array. -/
theorem flushed3_9 (c : Dev nD) (t : Fin cfg3.N) (hf : (cfg3.win 9).flush t = true) :
    (dat3 V c).flushed 9 t = ((cfg3.win 9).blk t).view.read (Elt Ideal) (G3 V c) := by
  show (cfg3.win 9).cut (grid3.coords t) ((dat3 V c).after 9 t) = _
  rw [after3_9]
  funext x
  rw [View.read_apply]
  have hx0 : (x 0).val < 5000 := lt_of_lt_of_eq (x 0).isLt (xsz3_9 t).1
  have hx1 : (x 1).val < 128 := lt_of_lt_of_eq (x 1).isLt (xsz3_9 t).2
  have hinj : win3_9.xinj (grid3.coords t) x = ix2 (⟨(x 0).val, hx0⟩ : Fin 5000) (⟨(x 1).val, hx1⟩ : Fin 128) :=
    funext fun a => by
      match a with
      | ⟨0, _⟩ => rfl
      | ⟨1, _⟩ => rfl
  show (out3 V c t : Vec Ideal S5000x128 .f32) (win3_9.xinj (grid3.coords t) x) = G3 V c (((cfg3.win 9).blk t).view.emb x)
  rw [hinj]
  refine out3_apply V c t ⟨(x 0).val, hx0⟩ ⟨(x 1).val, hx1⟩ _ _ ?_ ?_
  · show win3_9.index t 0 * 5000 + 1 * (x 0).val = t.val * 5000 + (x 0).val
    rw [(idx3_9 t).1]; omega
  · show win3_9.index t 1 * 128 + 1 * (x 1).val = (x 1).val
    rw [(idx3_9 t).2]; omega

/-- So the result array ends holding the layer's value on x: the ten blocks tile it. -/
theorem final3_9 (c : Dev nD) : (dat3 V c).arrAt 9 cfg3.N = G3 V c :=
  (dat3 V c).arrAt_eq_of_cover 9 (G3 V c) (flushed3_9 V c) fun i => by
    have h0 : (i 0 : Nat) < 50000 := (i 0).isLt
    have h1 : (i 1 : Nat) < 128 := (i 1).isLt
    have hN : cfg3.N = 10 := N_3
    obtain ⟨T, hT⟩ : ∃ T : Fin cfg3.N, T.val = (i 0 : Nat) / 5000 := ⟨⟨(i 0 : Nat) / 5000, by omega⟩, rfl⟩
    refine ⟨T, flush3_9 T, ?_⟩
    show i ∈ ((View.whole main_v45).slice (win3_9.rect T)).set
    rw [View.set_slice_whole, Rect.mem_set_unit]
    intro a
    match a with
    | ⟨0, _⟩ => show win3_9.index T 0 * 5000 ≤ (i 0 : Nat) ∧ (i 0 : Nat) < win3_9.index T 0 * 5000 + win3_9.xsize (grid3.coords T) 0
                rw [(idx3_9 T).1, (xsz3_9 T).1]; omega
    | ⟨1, _⟩ => show win3_9.index T 1 * 128 ≤ (i 1 : Nat) ∧ (i 1 : Nat) < win3_9.index T 1 * 128 + win3_9.xsize (grid3.coords T) 1
                rw [(idx3_9 T).2, (xsz3_9 T).2]; omega

/-- The result array at an index, in the layer's vocabulary. -/
theorem out3_val (c : Dev nD) (r : Fin 50000) (j : Fin 128) :
    ((dat3 V c).arrAt 9 cfg3.N : S50000x128.Idx → EReal) (ValueIdx.ix2 r j)
      = Cert.Spec.relu zW (Cert.Spec.aff (Cert.Spec.relu zW (Cert.Spec.aff (Cert.Spec.lin (Cert.Spec.relu zW (Cert.Spec.aff (Cert.Spec.lin (X3 V c) (Wa3 V c)) (sc3_1 V c) (sh3_1 V c))) (Wb3 V c)) (sc3_2 V c) (sh3_2 V c))) (sc3_3 V c) (sh3_3 V c)) r j := by
  rw [final3_9]
  rfl

end Cert.KernelIdeal.Hand

end
-- ==== Proof.KChain0.lean ====
/-
  Layer 1 of the kernel program, at the ideal values: the array its output kernel leaves is the layer's value, in
  the kernel's form, on the arrays the layer's first kernel found.

  The layer runs four kernels in turn. Each of the first three leaves a scale row and a shift row (a batch norm's, from
  one-pass column statistics of the stage's quantity) and keeps every other array; the fourth leaves the output.
  Reading each kernel's inputs back through the kernels before it — an array no earlier kernel writes is the one the
  layer was entered with, a scale or shift row is the row its kernel left — turns the fourth kernel's value into the
  layer's closed form.
-/
import proofs.«180905_j29583734735286_1_alg».proof.Proof.Run
import proofs.«180905_j29583734735286_1_alg».proof.Proof.R0Sum
import proofs.«180905_j29583734735286_1_alg».proof.Proof.R1Sum
import proofs.«180905_j29583734735286_1_alg».proof.Proof.R2Sum
import proofs.«180905_j29583734735286_1_alg».proof.Proof.R3ValOut
import proofs.«180905_j29583734735286_1_alg».proof.Proof.ValCommon
import proofs.«180905_j29583734735286_1_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (m : (ℓ : Loc nD τ sig) → Buf (Elt Ideal) ℓ) (ρ : Dev nD → PrngReg)

/-- The layer's inputs as its first kernel finds them, as plain functions of indices. -/
abbrev cx0 (c : Dev nD) : Fin 50000 → Fin 128 → EReal := fun r k => (W1 m ρ c (Proc.devRef .tc main_v17) : S50000x128.Idx → EReal) (ix2 r k)
abbrev cw0_0 (c : Dev nD) : Fin 128 → Fin 128 → EReal := fun k j => (W1 m ρ c (Proc.devRef .tc main_v20) : S128x128.Idx → EReal) (ix2 k j)
abbrev cw1_0 (c : Dev nD) : Fin 128 → Fin 128 → EReal := fun k j => (W1 m ρ c (Proc.devRef .tc main_v23) : S128x128.Idx → EReal) (ix2 k j)
abbrev cg1_0 (c : Dev nD) : Fin 128 → EReal := fun j => (W1 m ρ c (Proc.devRef .tc main_v26) : S1x128.Idx → EReal) (ix2 ⟨0, Nat.one_pos⟩ j)
abbrev cb1_0 (c : Dev nD) : Fin 128 → EReal := fun j => (W1 m ρ c (Proc.devRef .tc main_v29) : S1x128.Idx → EReal) (ix2 ⟨0, Nat.one_pos⟩ j)
abbrev cg2_0 (c : Dev nD) : Fin 128 → EReal := fun j => (W1 m ρ c (Proc.devRef .tc main_v32) : S1x128.Idx → EReal) (ix2 ⟨0, Nat.one_pos⟩ j)
abbrev cb2_0 (c : Dev nD) : Fin 128 → EReal := fun j => (W1 m ρ c (Proc.devRef .tc main_v35) : S1x128.Idx → EReal) (ix2 ⟨0, Nat.one_pos⟩ j)
abbrev cg3_0 (c : Dev nD) : Fin 128 → EReal := fun j => (W1 m ρ c (Proc.devRef .tc main_v38) : S1x128.Idx → EReal) (ix2 ⟨0, Nat.one_pos⟩ j)
abbrev cb3_0 (c : Dev nD) : Fin 128 → EReal := fun j => (W1 m ρ c (Proc.devRef .tc main_v41) : S1x128.Idx → EReal) (ix2 ⟨0, Nat.one_pos⟩ j)

/-- The stages of the layer's closed form: each stage's quantity, its scale and shift rows, its rectified result. -/
abbrev cQ1_0 (c : Dev nD) : Fin 50000 → Fin 128 → EReal := Cert.Spec.lin (cx0 m ρ c) (cw0_0 m ρ c)
abbrev cS1_0 (c : Dev nD) : Fin 128 → EReal := Cert.Spec.scaleK (cQ1_0 m ρ c) (cg1_0 m ρ c) cW epsW
abbrev cH1_0 (c : Dev nD) : Fin 128 → EReal := Cert.Spec.shiftK (cQ1_0 m ρ c) (cg1_0 m ρ c) (cb1_0 m ρ c) cW epsW
abbrev cQ2_0 (c : Dev nD) : Fin 50000 → Fin 128 → EReal := Cert.Spec.lin (Cert.Spec.relu zW (Cert.Spec.aff (cQ1_0 m ρ c) (cS1_0 m ρ c) (cH1_0 m ρ c))) (cw1_0 m ρ c)
abbrev cS2_0 (c : Dev nD) : Fin 128 → EReal := Cert.Spec.scaleK (cQ2_0 m ρ c) (cg2_0 m ρ c) cW epsW
abbrev cH2_0 (c : Dev nD) : Fin 128 → EReal := Cert.Spec.shiftK (cQ2_0 m ρ c) (cg2_0 m ρ c) (cb2_0 m ρ c) cW epsW
abbrev cQ3_0 (c : Dev nD) : Fin 50000 → Fin 128 → EReal := Cert.Spec.relu zW (Cert.Spec.aff (cQ2_0 m ρ c) (cS2_0 m ρ c) (cH2_0 m ρ c))
abbrev cS3_0 (c : Dev nD) : Fin 128 → EReal := Cert.Spec.scaleK (cQ3_0 m ρ c) (cg3_0 m ρ c) cW epsW
abbrev cH3_0 (c : Dev nD) : Fin 128 → EReal := Cert.Spec.shiftK (cQ3_0 m ρ c) (cg3_0 m ρ c) (cb3_0 m ρ c) cW epsW

/-! ### Arrays a kernel does not write are kept -/
theorem kp0_1_x (c : Dev nD) : W2 m ρ c (Proc.devRef .tc main_v17) = W1 m ρ c (Proc.devRef .tc main_v17) :=
  ((W2_arr m ρ c 0).trans (((dat0 (V1 m ρ) c).arrAt_in 0 rfl _).trans (A_eq0 (V1 m ρ) c 0)))
theorem kp0_1_w0 (c : Dev nD) : W2 m ρ c (Proc.devRef .tc main_v20) = W1 m ρ c (Proc.devRef .tc main_v20) :=
  ((W2_arr m ρ c 1).trans (((dat0 (V1 m ρ) c).arrAt_in 1 rfl _).trans (A_eq0 (V1 m ρ) c 1)))
theorem kp0_1_w1 (c : Dev nD) : W2 m ρ c (Proc.devRef .tc main_v23) = W1 m ρ c (Proc.devRef .tc main_v23) :=
  (W2_of_ne m ρ c main_v23 (by decide))
theorem kp0_1_g2 (c : Dev nD) : W2 m ρ c (Proc.devRef .tc main_v32) = W1 m ρ c (Proc.devRef .tc main_v32) :=
  (W2_of_ne m ρ c main_v32 (by decide))
theorem kp0_1_b2 (c : Dev nD) : W2 m ρ c (Proc.devRef .tc main_v35) = W1 m ρ c (Proc.devRef .tc main_v35) :=
  (W2_of_ne m ρ c main_v35 (by decide))
theorem kp0_1_g3 (c : Dev nD) : W2 m ρ c (Proc.devRef .tc main_v38) = W1 m ρ c (Proc.devRef .tc main_v38) :=
  (W2_of_ne m ρ c main_v38 (by decide))
theorem kp0_1_b3 (c : Dev nD) : W2 m ρ c (Proc.devRef .tc main_v41) = W1 m ρ c (Proc.devRef .tc main_v41) :=
  (W2_of_ne m ρ c main_v41 (by decide))
theorem kp0_2_x (c : Dev nD) : W3 m ρ c (Proc.devRef .tc main_v17) = W1 m ρ c (Proc.devRef .tc main_v17) :=
  ((W3_arr m ρ c 0).trans (((dat1 (V2 m ρ) c).arrAt_in 0 rfl _).trans (A_eq1 (V2 m ρ) c 0))).trans (kp0_1_x m ρ c)
theorem kp0_2_w0 (c : Dev nD) : W3 m ρ c (Proc.devRef .tc main_v20) = W1 m ρ c (Proc.devRef .tc main_v20) :=
  ((W3_arr m ρ c 1).trans (((dat1 (V2 m ρ) c).arrAt_in 1 rfl _).trans (A_eq1 (V2 m ρ) c 1))).trans (kp0_1_w0 m ρ c)
theorem kp0_2_w1 (c : Dev nD) : W3 m ρ c (Proc.devRef .tc main_v23) = W1 m ρ c (Proc.devRef .tc main_v23) :=
  ((W3_arr m ρ c 2).trans (((dat1 (V2 m ρ) c).arrAt_in 2 rfl _).trans (A_eq1 (V2 m ρ) c 2))).trans (kp0_1_w1 m ρ c)
theorem kp0_2_g3 (c : Dev nD) : W3 m ρ c (Proc.devRef .tc main_v38) = W1 m ρ c (Proc.devRef .tc main_v38) :=
  (W3_of_ne m ρ c main_v38 (by decide)).trans (kp0_1_g3 m ρ c)
theorem kp0_2_b3 (c : Dev nD) : W3 m ρ c (Proc.devRef .tc main_v41) = W1 m ρ c (Proc.devRef .tc main_v41) :=
  (W3_of_ne m ρ c main_v41 (by decide)).trans (kp0_1_b3 m ρ c)
theorem kp0_2_s1 (c : Dev nD) : W3 m ρ c (Proc.devRef .tc main_v42_0) = W2 m ρ c (Proc.devRef .tc main_v42_0) :=
  ((W3_arr m ρ c 3).trans (((dat1 (V2 m ρ) c).arrAt_in 3 rfl _).trans (A_eq1 (V2 m ρ) c 3)))
theorem kp0_2_h1 (c : Dev nD) : W3 m ρ c (Proc.devRef .tc main_v42_1) = W2 m ρ c (Proc.devRef .tc main_v42_1) :=
  ((W3_arr m ρ c 4).trans (((dat1 (V2 m ρ) c).arrAt_in 4 rfl _).trans (A_eq1 (V2 m ρ) c 4)))
theorem kp0_3_x (c : Dev nD) : W4 m ρ c (Proc.devRef .tc main_v17) = W1 m ρ c (Proc.devRef .tc main_v17) :=
  ((W4_arr m ρ c 0).trans (((dat2 (V3 m ρ) c).arrAt_in 0 rfl _).trans (A_eq2 (V3 m ρ) c 0))).trans (kp0_2_x m ρ c)
theorem kp0_3_w0 (c : Dev nD) : W4 m ρ c (Proc.devRef .tc main_v20) = W1 m ρ c (Proc.devRef .tc main_v20) :=
  ((W4_arr m ρ c 1).trans (((dat2 (V3 m ρ) c).arrAt_in 1 rfl _).trans (A_eq2 (V3 m ρ) c 1))).trans (kp0_2_w0 m ρ c)
theorem kp0_3_w1 (c : Dev nD) : W4 m ρ c (Proc.devRef .tc main_v23) = W1 m ρ c (Proc.devRef .tc main_v23) :=
  ((W4_arr m ρ c 2).trans (((dat2 (V3 m ρ) c).arrAt_in 2 rfl _).trans (A_eq2 (V3 m ρ) c 2))).trans (kp0_2_w1 m ρ c)
theorem kp0_3_s1 (c : Dev nD) : W4 m ρ c (Proc.devRef .tc main_v42_0) = W2 m ρ c (Proc.devRef .tc main_v42_0) :=
  ((W4_arr m ρ c 3).trans (((dat2 (V3 m ρ) c).arrAt_in 3 rfl _).trans (A_eq2 (V3 m ρ) c 3))).trans (kp0_2_s1 m ρ c)
theorem kp0_3_h1 (c : Dev nD) : W4 m ρ c (Proc.devRef .tc main_v42_1) = W2 m ρ c (Proc.devRef .tc main_v42_1) :=
  ((W4_arr m ρ c 4).trans (((dat2 (V3 m ρ) c).arrAt_in 4 rfl _).trans (A_eq2 (V3 m ρ) c 4))).trans (kp0_2_h1 m ρ c)
theorem kp0_3_s2 (c : Dev nD) : W4 m ρ c (Proc.devRef .tc main_v43_0) = W3 m ρ c (Proc.devRef .tc main_v43_0) :=
  ((W4_arr m ρ c 5).trans (((dat2 (V3 m ρ) c).arrAt_in 5 rfl _).trans (A_eq2 (V3 m ρ) c 5)))
theorem kp0_3_h2 (c : Dev nD) : W4 m ρ c (Proc.devRef .tc main_v43_1) = W3 m ρ c (Proc.devRef .tc main_v43_1) :=
  ((W4_arr m ρ c 6).trans (((dat2 (V3 m ρ) c).arrAt_in 6 rfl _).trans (A_eq2 (V3 m ρ) c 6)))

/-! ### The first statistics kernel's two rows -/

theorem rowS1_0 (c : Dev nD) (j : Fin 128) :
    (W2 m ρ c (Proc.devRef .tc main_v42_0) : S1x128.Idx → EReal) (ix2 ⟨0, Nat.one_pos⟩ j) = cS1_0 m ρ c j :=
  (congrFun (W2_arr m ρ c 4) _).trans (scaleArr0 (V1 m ρ) c j)
theorem rowH1_0 (c : Dev nD) (j : Fin 128) :
    (W2 m ρ c (Proc.devRef .tc main_v42_1) : S1x128.Idx → EReal) (ix2 ⟨0, Nat.one_pos⟩ j) = cH1_0 m ρ c j :=
  (congrFun (W2_arr m ρ c 5) _).trans (shiftArr0 (V1 m ρ) c j)

/-! ### The second statistics kernel's inputs and its two rows -/

theorem i1_0 (c : Dev nD) : in1_0 (V2 m ρ) c = cx0 m ρ c := funext fun r => funext fun k => congrFun (kp0_1_x m ρ c) (ix2 r k)
theorem i1_1 (c : Dev nD) : in1_1 (V2 m ρ) c = cw0_0 m ρ c := funext fun k => funext fun j => congrFun (kp0_1_w0 m ρ c) (ix2 k j)
theorem i1_2 (c : Dev nD) : in1_2 (V2 m ρ) c = cw1_0 m ρ c := funext fun k => funext fun j => congrFun (kp0_1_w1 m ρ c) (ix2 k j)
theorem i1_3 (c : Dev nD) : in1_3 (V2 m ρ) c = cS1_0 m ρ c := funext fun j => rowS1_0 m ρ c j
theorem i1_4 (c : Dev nD) : in1_4 (V2 m ρ) c = cH1_0 m ρ c := funext fun j => rowH1_0 m ρ c j
theorem i1_5 (c : Dev nD) : in1_5 (V2 m ρ) c = cg2_0 m ρ c := funext fun j => congrFun (kp0_1_g2 m ρ c) (ix2 ⟨0, Nat.one_pos⟩ j)
theorem i1_6 (c : Dev nD) : in1_6 (V2 m ρ) c = cb2_0 m ρ c := funext fun j => congrFun (kp0_1_b2 m ρ c) (ix2 ⟨0, Nat.one_pos⟩ j)
theorem q1_eq (c : Dev nD) : GQ1 (V2 m ρ) c = cQ2_0 m ρ c := by
  show Cert.Spec.lin (Cert.Spec.relu zW (Cert.Spec.aff (Cert.Spec.lin (in1_0 (V2 m ρ) c) (in1_1 (V2 m ρ) c)) (in1_3 (V2 m ρ) c) (in1_4 (V2 m ρ) c))) (in1_2 (V2 m ρ) c) = _
  rw [i1_0, i1_1, i1_2, i1_3, i1_4]

theorem rowS2_0 (c : Dev nD) (j : Fin 128) :
    (W3 m ρ c (Proc.devRef .tc main_v43_0) : S1x128.Idx → EReal) (ix2 ⟨0, Nat.one_pos⟩ j) = cS2_0 m ρ c j := by
  refine (congrFun (W3_arr m ρ c 7) _).trans ((scaleArr1 (V2 m ρ) c j).trans ?_)
  rw [q1_eq, i1_5]
theorem rowH2_0 (c : Dev nD) (j : Fin 128) :
    (W3 m ρ c (Proc.devRef .tc main_v43_1) : S1x128.Idx → EReal) (ix2 ⟨0, Nat.one_pos⟩ j) = cH2_0 m ρ c j := by
  refine (congrFun (W3_arr m ρ c 8) _).trans ((shiftArr1 (V2 m ρ) c j).trans ?_)
  rw [q1_eq, i1_5, i1_6]

/-! ### The third statistics kernel's inputs and its two rows -/

theorem i2_0 (c : Dev nD) : in2_0 (V3 m ρ) c = cx0 m ρ c := funext fun r => funext fun k => congrFun (kp0_2_x m ρ c) (ix2 r k)
theorem i2_1 (c : Dev nD) : in2_1 (V3 m ρ) c = cw0_0 m ρ c := funext fun k => funext fun j => congrFun (kp0_2_w0 m ρ c) (ix2 k j)
theorem i2_2 (c : Dev nD) : in2_2 (V3 m ρ) c = cw1_0 m ρ c := funext fun k => funext fun j => congrFun (kp0_2_w1 m ρ c) (ix2 k j)
theorem i2_3 (c : Dev nD) : in2_3 (V3 m ρ) c = cS1_0 m ρ c := funext fun j => (congrFun (kp0_2_s1 m ρ c) _).trans (rowS1_0 m ρ c j)
theorem i2_4 (c : Dev nD) : in2_4 (V3 m ρ) c = cH1_0 m ρ c := funext fun j => (congrFun (kp0_2_h1 m ρ c) _).trans (rowH1_0 m ρ c j)
theorem i2_5 (c : Dev nD) : in2_5 (V3 m ρ) c = cS2_0 m ρ c := funext fun j => rowS2_0 m ρ c j
theorem i2_6 (c : Dev nD) : in2_6 (V3 m ρ) c = cH2_0 m ρ c := funext fun j => rowH2_0 m ρ c j
theorem i2_7 (c : Dev nD) : in2_7 (V3 m ρ) c = cg3_0 m ρ c := funext fun j => congrFun (kp0_2_g3 m ρ c) (ix2 ⟨0, Nat.one_pos⟩ j)
theorem i2_8 (c : Dev nD) : in2_8 (V3 m ρ) c = cb3_0 m ρ c := funext fun j => congrFun (kp0_2_b3 m ρ c) (ix2 ⟨0, Nat.one_pos⟩ j)
theorem q2_eq (c : Dev nD) : GQ2 (V3 m ρ) c = cQ3_0 m ρ c := by
  show Cert.Spec.relu zW (Cert.Spec.aff (Cert.Spec.lin (Cert.Spec.relu zW (Cert.Spec.aff (Cert.Spec.lin (in2_0 (V3 m ρ) c) (in2_1 (V3 m ρ) c)) (in2_3 (V3 m ρ) c) (in2_4 (V3 m ρ) c))) (in2_2 (V3 m ρ) c)) (in2_5 (V3 m ρ) c) (in2_6 (V3 m ρ) c)) = _
  rw [i2_0, i2_1, i2_2, i2_3, i2_4, i2_5, i2_6]

theorem rowS3_0 (c : Dev nD) (j : Fin 128) :
    (W4 m ρ c (Proc.devRef .tc main_v44_0) : S1x128.Idx → EReal) (ix2 ⟨0, Nat.one_pos⟩ j) = cS3_0 m ρ c j := by
  refine (congrFun (W4_arr m ρ c 9) _).trans ((scaleArr2 (V3 m ρ) c j).trans ?_)
  rw [q2_eq, i2_7]
theorem rowH3_0 (c : Dev nD) (j : Fin 128) :
    (W4 m ρ c (Proc.devRef .tc main_v44_1) : S1x128.Idx → EReal) (ix2 ⟨0, Nat.one_pos⟩ j) = cH3_0 m ρ c j := by
  refine (congrFun (W4_arr m ρ c 10) _).trans ((shiftArr2 (V3 m ρ) c j).trans ?_)
  rw [q2_eq, i2_7, i2_8]

/-! ### The output kernel's inputs, and the layer -/

theorem o3_x (c : Dev nD) : X3 (V4 m ρ) c = cx0 m ρ c := funext fun r => funext fun k => congrFun (kp0_3_x m ρ c) (ix2 r k)
theorem o3_w0 (c : Dev nD) : Wa3 (V4 m ρ) c = cw0_0 m ρ c := funext fun k => funext fun j => congrFun (kp0_3_w0 m ρ c) (ix2 k j)
theorem o3_w1 (c : Dev nD) : Wb3 (V4 m ρ) c = cw1_0 m ρ c := funext fun k => funext fun j => congrFun (kp0_3_w1 m ρ c) (ix2 k j)
theorem o3_s1 (c : Dev nD) : sc3_1 (V4 m ρ) c = cS1_0 m ρ c := funext fun j => (congrFun (kp0_3_s1 m ρ c) _).trans (rowS1_0 m ρ c j)
theorem o3_h1 (c : Dev nD) : sh3_1 (V4 m ρ) c = cH1_0 m ρ c := funext fun j => (congrFun (kp0_3_h1 m ρ c) _).trans (rowH1_0 m ρ c j)
theorem o3_s2 (c : Dev nD) : sc3_2 (V4 m ρ) c = cS2_0 m ρ c := funext fun j => (congrFun (kp0_3_s2 m ρ c) _).trans (rowS2_0 m ρ c j)
theorem o3_h2 (c : Dev nD) : sh3_2 (V4 m ρ) c = cH2_0 m ρ c := funext fun j => (congrFun (kp0_3_h2 m ρ c) _).trans (rowH2_0 m ρ c j)
theorem o3_s3 (c : Dev nD) : sc3_3 (V4 m ρ) c = cS3_0 m ρ c := funext fun j => rowS3_0 m ρ c j
theorem o3_h3 (c : Dev nD) : sh3_3 (V4 m ρ) c = cH3_0 m ρ c := funext fun j => rowH3_0 m ρ c j

/-- The layer's output array, entry by entry, is the layer's value in the kernel's form on the arrays the layer was
    entered with. -/
theorem layer0_val (c : Dev nD) (r : Fin 50000) (j : Fin 128) :
    (W5 (F := Ideal) m ρ c (Proc.devRef .tc main_v45) : S50000x128.Idx → EReal) (ValueIdx.ix2 r j)
      = Cert.Spec.layerK zW cW epsW true (fun r k => (W1 (F := Ideal) m ρ c (Proc.devRef .tc main_v17) : S50000x128.Idx → EReal) (ix2 r k))
          (fun k j => (W1 (F := Ideal) m ρ c (Proc.devRef .tc main_v20) : S128x128.Idx → EReal) (ix2 k j))
          (fun k j => (W1 (F := Ideal) m ρ c (Proc.devRef .tc main_v23) : S128x128.Idx → EReal) (ix2 k j))
          (fun j => (W1 (F := Ideal) m ρ c (Proc.devRef .tc main_v26) : S1x128.Idx → EReal) (ix2 ⟨0, Nat.one_pos⟩ j))
          (fun j => (W1 (F := Ideal) m ρ c (Proc.devRef .tc main_v29) : S1x128.Idx → EReal) (ix2 ⟨0, Nat.one_pos⟩ j))
          (fun j => (W1 (F := Ideal) m ρ c (Proc.devRef .tc main_v32) : S1x128.Idx → EReal) (ix2 ⟨0, Nat.one_pos⟩ j))
          (fun j => (W1 (F := Ideal) m ρ c (Proc.devRef .tc main_v35) : S1x128.Idx → EReal) (ix2 ⟨0, Nat.one_pos⟩ j))
          (fun j => (W1 (F := Ideal) m ρ c (Proc.devRef .tc main_v38) : S1x128.Idx → EReal) (ix2 ⟨0, Nat.one_pos⟩ j))
          (fun j => (W1 (F := Ideal) m ρ c (Proc.devRef .tc main_v41) : S1x128.Idx → EReal) (ix2 ⟨0, Nat.one_pos⟩ j)) r j := by
  refine (congrFun (W5_arr m ρ c 9) _).trans ((out3_val (V4 m ρ) c r j).trans ?_)
  rw [o3_x, o3_w0, o3_w1, o3_s1, o3_h1, o3_s2, o3_h2, o3_s3, o3_h3]
  rfl

end Cert.KernelIdeal.Hand

end
-- ==== Proof.R4Val.lean ====
/-
  Pipeline 4 (a statistics kernel): each case's stores read back as the body's arithmetic. A buffer stored whole
  holds the stored value, and a load of it after the store reads that value: after the first tile the running rows
  are the tile's totals added to the zero rows, after a later tile the totals added to what the tile before left,
  and at the last tile the scale and the shift are computed from the rows as this tile leaves them.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R4B
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2_4 : (![0, 0] : Fin 2 → Nat) = fun _ => 0 := funext fun a => by fin_cases a <;> rfl

theorem pieceA4_S (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i) (x0 : Vec F S5000x128 .f32) (x1 : Vec F S128x128 .bf16) (x2 : Vec F S1x128 .f32) (x3 : Vec F S1x128 .f32) :
    rd4 (F := F) (kernelRun4_A c i arg1 harg1 arg2 harg2 arg3 harg3 arg4 harg4 arg5 harg5 arg6 harg6 arg7 harg7 arg8 harg8 hc0 hc1 x0 x1 x2 x3).1 = k4_pay4 x0 x1 (k4_pay1 (F := F)) := by
  unfold rd4
  rw [View.read_writes_eq_canon _ _ _ (scoverA4_0 c i arg1 harg1 arg2 harg2 arg3 harg3 arg4 harg4 arg5 harg5 arg6 harg6 arg7 harg7 arg8 harg8 hc0 hc1 x0 x1 x2 x3)]
  unfold kernelRun4_A
  dsimp only
  try sl_unfold_words
  first | rw [View.canon_cons_unit_zero (S := S1x128) hz2_4] | rw [View.canon_unit_zero hz2_4]
  simp only [View.readCov_unit_zero (S := S1x128) _ hz2_4, View.readAt_eq_ld, harg1.read_unread, harg2.read_unread, harg3.read_unread, harg4.read_unread, harg5.read_unread, harg6.read_unread, harg7.read_unread, harg8.read_unread, View.ld_unit_zero (S := S5000x128) hz2_4, View.ld_unit_zero (S := S128x128) hz2_4, View.ld_unit_zero (S := S1x128) hz2_4]

theorem pieceA4_Q (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i) (x0 : Vec F S5000x128 .f32) (x1 : Vec F S128x128 .bf16) (x2 : Vec F S1x128 .f32) (x3 : Vec F S1x128 .f32) :
    rd4 (F := F) (kernelRun4_A c i arg1 harg1 arg2 harg2 arg3 harg3 arg4 harg4 arg5 harg5 arg6 harg6 arg7 harg7 arg8 harg8 hc0 hc1 x0 x1 x2 x3).2.1 = k4_pay5 x0 x1 (k4_pay2 (F := F)) := by
  unfold rd4
  rw [View.read_writes_eq_canon _ _ _ (scoverA4_1 c i arg1 harg1 arg2 harg2 arg3 harg3 arg4 harg4 arg5 harg5 arg6 harg6 arg7 harg7 arg8 harg8 hc0 hc1 x0 x1 x2 x3)]
  unfold kernelRun4_A
  dsimp only
  try sl_unfold_words
  first | rw [View.canon_cons_unit_zero (S := S1x128) hz2_4] | rw [View.canon_unit_zero hz2_4]
  simp only [View.readCov_unit_zero (S := S1x128) _ hz2_4, View.readAt_eq_ld, harg1.read_unread, harg2.read_unread, harg3.read_unread, harg4.read_unread, harg5.read_unread, harg6.read_unread, harg7.read_unread, harg8.read_unread, View.ld_unit_zero (S := S5000x128) hz2_4, View.ld_unit_zero (S := S128x128) hz2_4, View.ld_unit_zero (S := S1x128) hz2_4]

theorem pieceB4_S (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i) (x0 : Vec F S5000x128 .f32) (x1 : Vec F S128x128 .bf16) (x2 : Vec F S1x128 .f32) (x3 : Vec F S1x128 .f32) (xs0 xs1 : Vec F S1x128 .f32) :
    rd4 (F := F) (kernelRun4_B c i arg1 harg1 arg2 harg2 arg3 harg3 arg4 harg4 arg5 harg5 arg6 harg6 arg7 harg7 arg8 harg8 hc0 hc1 x0 x1 x2 x3 xs0 xs1).1 = k4_pay4 x0 x1 xs0 := by
  unfold rd4
  rw [View.read_writes_eq_canon _ _ _ (scoverB4_0 c i arg1 harg1 arg2 harg2 arg3 harg3 arg4 harg4 arg5 harg5 arg6 harg6 arg7 harg7 arg8 harg8 hc0 hc1 x0 x1 x2 x3 xs0 xs1)]
  unfold kernelRun4_B
  dsimp only
  try sl_unfold_words
  first | rw [View.canon_cons_unit_zero (S := S1x128) hz2_4] | rw [View.canon_unit_zero hz2_4]
  simp only [View.readCov_unit_zero (S := S1x128) _ hz2_4, View.readAt_eq_ld, harg1.read_unread, harg2.read_unread, harg3.read_unread, harg4.read_unread, harg5.read_unread, harg6.read_unread, harg7.read_unread, harg8.read_unread, View.ld_unit_zero (S := S5000x128) hz2_4, View.ld_unit_zero (S := S128x128) hz2_4, View.ld_unit_zero (S := S1x128) hz2_4]

theorem pieceB4_Q (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i) (x0 : Vec F S5000x128 .f32) (x1 : Vec F S128x128 .bf16) (x2 : Vec F S1x128 .f32) (x3 : Vec F S1x128 .f32) (xs0 xs1 : Vec F S1x128 .f32) :
    rd4 (F := F) (kernelRun4_B c i arg1 harg1 arg2 harg2 arg3 harg3 arg4 harg4 arg5 harg5 arg6 harg6 arg7 harg7 arg8 harg8 hc0 hc1 x0 x1 x2 x3 xs0 xs1).2.1 = k4_pay5 x0 x1 xs1 := by
  unfold rd4
  rw [View.read_writes_eq_canon _ _ _ (scoverB4_1 c i arg1 harg1 arg2 harg2 arg3 harg3 arg4 harg4 arg5 harg5 arg6 harg6 arg7 harg7 arg8 harg8 hc0 hc1 x0 x1 x2 x3 xs0 xs1)]
  unfold kernelRun4_B
  dsimp only
  try sl_unfold_words
  first | rw [View.canon_cons_unit_zero (S := S1x128) hz2_4] | rw [View.canon_unit_zero hz2_4]
  simp only [View.readCov_unit_zero (S := S1x128) _ hz2_4, View.readAt_eq_ld, harg1.read_unread, harg2.read_unread, harg3.read_unread, harg4.read_unread, harg5.read_unread, harg6.read_unread, harg7.read_unread, harg8.read_unread, View.ld_unit_zero (S := S5000x128) hz2_4, View.ld_unit_zero (S := S128x128) hz2_4, View.ld_unit_zero (S := S1x128) hz2_4]

theorem pieceC4_S (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i) (x0 : Vec F S5000x128 .f32) (x1 : Vec F S128x128 .bf16) (x2 : Vec F S1x128 .f32) (x3 : Vec F S1x128 .f32) (xs0 xs1 : Vec F S1x128 .f32) :
    rd4 (F := F) (kernelRun4_C c i arg1 harg1 arg2 harg2 arg3 harg3 arg4 harg4 arg5 harg5 arg6 harg6 arg7 harg7 arg8 harg8 hc0 hc1 x0 x1 x2 x3 xs0 xs1).2.2.1 = k4_pay4 x0 x1 xs0 := by
  unfold rd4
  rw [View.read_writes_eq_canon _ _ _ (scoverC4_0 c i arg1 harg1 arg2 harg2 arg3 harg3 arg4 harg4 arg5 harg5 arg6 harg6 arg7 harg7 arg8 harg8 hc0 hc1 x0 x1 x2 x3 xs0 xs1)]
  unfold kernelRun4_C
  dsimp only
  try sl_unfold_words
  first | rw [View.canon_cons_unit_zero (S := S1x128) hz2_4] | rw [View.canon_unit_zero hz2_4]
  simp only [View.readCov_unit_zero (S := S1x128) _ hz2_4, View.readAt_eq_ld, harg1.read_unread, harg2.read_unread, harg3.read_unread, harg4.read_unread, harg5.read_unread, harg6.read_unread, harg7.read_unread, harg8.read_unread, View.ld_unit_zero (S := S5000x128) hz2_4, View.ld_unit_zero (S := S128x128) hz2_4, View.ld_unit_zero (S := S1x128) hz2_4]

theorem pieceC4_Q (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i) (x0 : Vec F S5000x128 .f32) (x1 : Vec F S128x128 .bf16) (x2 : Vec F S1x128 .f32) (x3 : Vec F S1x128 .f32) (xs0 xs1 : Vec F S1x128 .f32) :
    rd4 (F := F) (kernelRun4_C c i arg1 harg1 arg2 harg2 arg3 harg3 arg4 harg4 arg5 harg5 arg6 harg6 arg7 harg7 arg8 harg8 hc0 hc1 x0 x1 x2 x3 xs0 xs1).2.2.2.1 = k4_pay5 x0 x1 xs1 := by
  unfold rd4
  rw [View.read_writes_eq_canon _ _ _ (scoverC4_1 c i arg1 harg1 arg2 harg2 arg3 harg3 arg4 harg4 arg5 harg5 arg6 harg6 arg7 harg7 arg8 harg8 hc0 hc1 x0 x1 x2 x3 xs0 xs1)]
  unfold kernelRun4_C
  dsimp only
  try sl_unfold_words
  first | rw [View.canon_cons_unit_zero (S := S1x128) hz2_4] | rw [View.canon_unit_zero hz2_4]
  simp only [View.readCov_unit_zero (S := S1x128) _ hz2_4, View.readAt_eq_ld, harg1.read_unread, harg2.read_unread, harg3.read_unread, harg4.read_unread, harg5.read_unread, harg6.read_unread, harg7.read_unread, harg8.read_unread, View.ld_unit_zero (S := S5000x128) hz2_4, View.ld_unit_zero (S := S128x128) hz2_4, View.ld_unit_zero (S := S1x128) hz2_4]

theorem pieceC4_1 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i) (x0 : Vec F S5000x128 .f32) (x1 : Vec F S128x128 .bf16) (x2 : Vec F S1x128 .f32) (x3 : Vec F S1x128 .f32) (xs0 xs1 : Vec F S1x128 .f32) :
    rd4 (F := F) (kernelRun4_C c i arg1 harg1 arg2 harg2 arg3 harg3 arg4 harg4 arg5 harg5 arg6 harg6 arg7 harg7 arg8 harg8 hc0 hc1 x0 x1 x2 x3 xs0 xs1).1 = k4_pay7 (k4_pay4 x0 x1 xs0) (k4_pay5 x0 x1 xs1) x2 := by
  unfold rd4
  rw [View.read_writes_eq_canon _ _ _ (coverC4_1 c i arg1 harg1 arg2 harg2 arg3 harg3 arg4 harg4 arg5 harg5 arg6 harg6 arg7 harg7 arg8 harg8 hc0 hc1 x0 x1 x2 x3 xs0 xs1)]
  unfold kernelRun4_C
  dsimp only
  try sl_unfold_words
  first | rw [View.canon_cons_unit_zero (S := S1x128) hz2_4] | rw [View.canon_unit_zero hz2_4]
  simp only [View.readCov_unit_zero (S := S1x128) _ hz2_4, View.readAt_eq_ld, harg1.read_unread, harg2.read_unread, harg3.read_unread, harg4.read_unread, harg5.read_unread, harg6.read_unread, harg7.read_unread, harg8.read_unread, View.ld_unit_zero (S := S5000x128) hz2_4, View.ld_unit_zero (S := S128x128) hz2_4, View.ld_unit_zero (S := S1x128) hz2_4]

theorem pieceC4_2 (c : Dev nD) (i : grid4.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i) (x0 : Vec F S5000x128 .f32) (x1 : Vec F S128x128 .bf16) (x2 : Vec F S1x128 .f32) (x3 : Vec F S1x128 .f32) (xs0 xs1 : Vec F S1x128 .f32) :
    rd4 (F := F) (kernelRun4_C c i arg1 harg1 arg2 harg2 arg3 harg3 arg4 harg4 arg5 harg5 arg6 harg6 arg7 harg7 arg8 harg8 hc0 hc1 x0 x1 x2 x3 xs0 xs1).2.1 = k4_pay8 (k4_pay4 x0 x1 xs0) (k4_pay5 x0 x1 xs1) x2 x3 := by
  unfold rd4
  rw [View.read_writes_eq_canon _ _ _ (coverC4_2 c i arg1 harg1 arg2 harg2 arg3 harg3 arg4 harg4 arg5 harg5 arg6 harg6 arg7 harg7 arg8 harg8 hc0 hc1 x0 x1 x2 x3 xs0 xs1)]
  unfold kernelRun4_C
  dsimp only
  try sl_unfold_words
  first | rw [View.canon_cons_unit_zero (S := S1x128) hz2_4] | rw [View.canon_unit_zero hz2_4]
  simp only [View.readCov_unit_zero (S := S1x128) _ hz2_4, View.readAt_eq_ld, harg1.read_unread, harg2.read_unread, harg3.read_unread, harg4.read_unread, harg5.read_unread, harg6.read_unread, harg7.read_unread, harg8.read_unread, View.ld_unit_zero (S := S5000x128) hz2_4, View.ld_unit_zero (S := S128x128) hz2_4, View.ld_unit_zero (S := S1x128) hz2_4]

end Cert.KernelIdeal.Hand

end
-- ==== Proof.R4Arr.lean ====
/-
  Pipeline 4: the two result arrays after the region. Each result window is written back once, at the last
  point, and its one block is the whole [1, 128] array; so the array ends holding the row the last point stored.
-/
import proofs.«180905_j29583734735286_1_alg».proof.Proof.R4B
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The last grid point. -/
def tL4 : Fin cfg4.N := ⟨9, lt_of_lt_of_eq (by decide) N_4.symm⟩
theorem tL4_val : tL4.val = 9 := rfl
attribute [irreducible] tL4

theorem idx4_4 : ∀ t : Fin cfg4.N, win4_4.index t 0 = 0 ∧ win4_4.index t 1 = 0 := by
  intro t; rcases fin_N4 t with rfl | rfl | rfl | rfl | rfl | rfl | rfl | rfl | rfl | rfl <;> decide
theorem xsz4_4 : ∀ t : Fin cfg4.N, win4_4.xsize (grid4.coords t) 0 = 1 ∧ win4_4.xsize (grid4.coords t) 1 = 128 := by
  intro t; rcases fin_N4 t with rfl | rfl | rfl | rfl | rfl | rfl | rfl | rfl | rfl | rfl <;> decide +kernel

/-- What the region leaves in its result array: the row stored at the last point. -/
def G4_4 (c : Dev nD) : Buf (Elt F) ((c : Thread nD τ).loc main_v84_0) := (outsAt4 V c tL4.val tL4.isLt).1

theorem flushed4_4 (c : Dev nD) (t : Fin cfg4.N) (hf : (cfg4.win 4).flush t = true) :
    (dat4 V c).flushed 4 t = ((cfg4.win 4).blk t).view.read (Elt F) (G4_4 V c) := by
  have hN : cfg4.N = 10 := N_4
  have h1 : t.val = 9 := by have := (flush4_4 t).mp hf; have := t.isLt; omega
  obtain rfl : t = tL4 := Fin.ext (h1.trans tL4_val.symm)
  show (cfg4.win 4).cut (grid4.coords tL4) ((dat4 V c).after 4 tL4) = _
  rw [after4_4]
  have hz' : (fun a => win4_4.index tL4 a * main_v84_0.ty.shape.size a) = fun _ => 0 := funext fun a => by
    match a with
    | ⟨0, _⟩ => show win4_4.index tL4 0 * _ = 0; rw [(idx4_4 tL4).1, Nat.zero_mul]
    | ⟨1, _⟩ => show win4_4.index tL4 1 * _ = 0; rw [(idx4_4 tL4).2, Nat.zero_mul]
  exact (Memref.read_access_unit_zero (Elt F) main_v84_0 hz' (fun a => by rw [congrFun hz' a]; simp) (G4_4 V c)).symm

theorem final4_4 (c : Dev nD) : (dat4 V c).arrAt 4 cfg4.N = G4_4 V c :=
  (dat4 V c).arrAt_eq_of_cover 4 (G4_4 V c) (flushed4_4 V c) fun i =>
    ⟨tL4, (flush4_4 tL4).mpr (by rw [tL4_val]), by
      show i ∈ ((View.whole main_v84_0).slice (win4_4.rect tL4)).set
      rw [View.set_slice_whole, Rect.mem_set_unit]
      intro a
      have h0 : (i 0 : Nat) < 1 := (i 0).isLt
      have h1 : (i 1 : Nat) < 128 := (i 1).isLt
      match a with
      | ⟨0, _⟩ => show win4_4.index tL4 0 * win4_4.size 0 ≤ (i 0 : Nat) ∧ (i 0 : Nat) < win4_4.index tL4 0 * win4_4.size 0 + win4_4.xsize (grid4.coords tL4) 0
                  rw [(idx4_4 tL4).1, (xsz4_4 tL4).1]; omega
      | ⟨1, _⟩ => show win4_4.index tL4 1 * win4_4.size 1 ≤ (i 1 : Nat) ∧ (i 1 : Nat) < win4_4.index tL4 1 * win4_4.size 1 + win4_4.xsize (grid4.coords tL4) 1
                  rw [(idx4_4 tL4).2, (xsz4_4 tL4).2]; omega⟩

theorem idx4_5 : ∀ t : Fin cfg4.N, win4_5.index t 0 = 0 ∧ win4_5.index t 1 = 0 := by
  intro t; rcases fin_N4 t with rfl | rfl | rfl | rfl | rfl | rfl | rfl | rfl | rfl | rfl <;> decide
theorem xsz4_5 : ∀ t : Fin cfg4.N, win4_5.xsize (grid4.coords t) 0 = 1 ∧ win4_5.xsize (grid4.coords t) 1 = 128 := by
  intro t; rcases fin_N4 t with rfl | rfl | rfl | rfl | rfl | rfl | rfl | rfl | rfl | rfl <;> decide +kernel

/-- What the region leaves in its result array: the row stored at the last point. -/
def G4_5 (c : Dev nD) : Buf (Elt F) ((c : Thread nD τ).loc main_v84_1) := (outsAt4 V c tL4.val tL4.isLt).2.1

theorem flushed4_5 (c : Dev nD) (t : Fin cfg4.N) (hf : (cfg4.win 5).flush t = true) :
    (dat4 V c).flushed 5 t = ((cfg4.win 5).blk t).view.read (Elt F) (G4_5 V c) := by
  have hN : cfg4.N = 10 := N_4
  have h1 : t.val = 9 := by have := (flush4_5 t).mp hf; have := t.isLt; omega
  obtain rfl : t = tL4 := Fin.ext (h1.trans tL4_val.symm)
  show (cfg4.win 5).cut (grid4.coords tL4) ((dat4 V c).after 5 tL4) = _
  rw [after4_5]
  have hz' : (fun a => win4_5.index tL4 a * main_v84_1.ty.shape.size a) = fun _ => 0 := funext fun a => by
    match a with
    | ⟨0, _⟩ => show win4_5.index tL4 0 * _ = 0; rw [(idx4_5 tL4).1, Nat.zero_mul]
    | ⟨1, _⟩ => show win4_5.index tL4 1 * _ = 0; rw [(idx4_5 tL4).2, Nat.zero_mul]
  exact (Memref.read_access_unit_zero (Elt F) main_v84_1 hz' (fun a => by rw [congrFun hz' a]; simp) (G4_5 V c)).symm

theorem final4_5 (c : Dev nD) : (dat4 V c).arrAt 5 cfg4.N = G4_5 V c :=
  (dat4 V c).arrAt_eq_of_cover 5 (G4_5 V c) (flushed4_5 V c) fun i =>
    ⟨tL4, (flush4_5 tL4).mpr (by rw [tL4_val]), by
      show i ∈ ((View.whole main_v84_1).slice (win4_5.rect tL4)).set
      rw [View.set_slice_whole, Rect.mem_set_unit]
      intro a
      have h0 : (i 0 : Nat) < 1 := (i 0).isLt
      have h1 : (i 1 : Nat) < 128 := (i 1).isLt
      match a with
      | ⟨0, _⟩ => show win4_5.index tL4 0 * win4_5.size 0 ≤ (i 0 : Nat) ∧ (i 0 : Nat) < win4_5.index tL4 0 * win4_5.size 0 + win4_5.xsize (grid4.coords tL4) 0
                  rw [(idx4_5 tL4).1, (xsz4_5 tL4).1]; omega
      | ⟨1, _⟩ => show win4_5.index tL4 1 * win4_5.size 1 ≤ (i 1 : Nat) ∧ (i 1 : Nat) < win4_5.index tL4 1 * win4_5.size 1 + win4_5.xsize (grid4.coords tL4) 1
                  rw [(idx4_5 tL4).2, (xsz4_5 tL4).2]; omega⟩

end Cert.KernelIdeal.Hand

end
-- ==== Proof.Pay4.lean ====
/-
  The payloads of pipeline 4's body (a statistics kernel) at the ideal values, read at an index: the tile
  quantity whose column statistics the kernel takes, the two running rows after a tile, the zero rows of the reset,
  and the mean, scale and shift the last point computes. A change of float format is the identity on the extended
  reals, a matrix product into a zero accumulator is the row-by-column sum, a lane reduction is a finite sum.
-/
import proofs.«180905_j29583734735286_1_alg».proof.Proof.Gen.KernelIdeal.Skeleton
import Idealize.ShloMosaic.Lib.ValueIdx
import Idealize.ShloMosaic.Lib.Pipeline.Value
import Idealize.ShloMosaic.PureOps.Ideal.Laws
import proofs.«180905_j29583734735286_1_alg».proof.Proof.LibDense
import proofs.«180905_j29583734735286_1_alg».proof.Proof.LibAxisSum
import proofs.«180905_j29583734735286_1_alg».proof.Proof.LibBiasRows

noncomputable section

namespace Cert.Proof.Pay4

open Idealize.ShloMosaic Idealize.ShloMosaic.ValueIdx Cert.KernelIdeal Cert.KernelIdeal.Gen
open scoped BigOperators

abbrev r0 (j : Fin 128) : S1x128.Idx := ix2 ⟨0, Nat.one_pos⟩ j
abbrev zW : EReal := Ideal.ofBits .f32 0x00000000#32

theorem inv_n : Named.named (F := Ideal) Cert.KernelIdeal.κ "inv_50000" (φ := .f32) 0x37A7C5AC#32
    = ((1 / 50000 : ℝ) : EReal) :=
  IdealRules.named_const.ideal_named_scalar _ _ _ _ rfl

/-- The tile quantity. -/
abbrev q (x0 : FVec Ideal S5000x128 .f32) (x1 : FVec Ideal S128x128 .bf16) : FVec Ideal S5000x128 .f32 := k4_pay3 x0 x1

theorem q_apply (x0 : FVec Ideal S5000x128 .f32) (x1 : FVec Ideal S128x128 .bf16) (y : Fin 5000) (j : Fin 128) :
    q x0 x1 (ix2 y j) = ∑ k : Fin 128, x0 (ix2 y k) * x1 (ix2 k j) := by
  unfold q k4_pay3
  simp only [shapeCast_self]
  exact Cert.LibDense.matmul_plain (M := 5000) (K := 128) (N := 128) (φ₁ := .bf16) (φ₂ := .bf16) _ x1 (ix2 y j)

theorem total_apply (x0 : FVec Ideal S5000x128 .f32) (x1 : FVec Ideal S128x128 .bf16) (old : FVec Ideal S1x128 .f32) (j : Fin 128) :
    (k4_pay4 x0 x1 old : FVec Ideal S1x128 .f32) (r0 j) = old (r0 j) + ∑ y : Fin 5000, q x0 x1 (ix2 y j) := by
  unfold k4_pay4
  simp only [shapeCast_self]
  refine congrArg (fun z => old (r0 j) + z) ?_
  refine (Cert.LibBiasRows.row_of_vector _ _ j).trans ?_
  exact Cert.LibAxisSum.sum_first (n := 5000) (d := 128) _ _ _ _ _ j

theorem total_sq_apply (x0 : FVec Ideal S5000x128 .f32) (x1 : FVec Ideal S128x128 .bf16) (old : FVec Ideal S1x128 .f32) (j : Fin 128) :
    (k4_pay5 x0 x1 old : FVec Ideal S1x128 .f32) (r0 j) = old (r0 j) + ∑ y : Fin 5000, q x0 x1 (ix2 y j) * q x0 x1 (ix2 y j) := by
  unfold k4_pay5
  simp only [shapeCast_self]
  refine congrArg (fun z => old (r0 j) + z) ?_
  refine (Cert.LibBiasRows.row_of_vector _ _ j).trans ?_
  exact Cert.LibAxisSum.sum_first (n := 5000) (d := 128) _ _ _ _ _ j

theorem zeroS (j : Fin 128) : (k4_pay1 (F := Ideal) : S1x128.Idx → EReal) (r0 j) = 0 := by
  unfold k4_pay1; rw [shapeCast_self]; exact Ideal.ofBits_zero_f32
theorem zeroQ (j : Fin 128) : (k4_pay2 (F := Ideal) : S1x128.Idx → EReal) (r0 j) = 0 := by
  unfold k4_pay2; rw [shapeCast_self]; exact Ideal.ofBits_zero_f32

theorem mean_apply (v27 : FVec Ideal S1x128 .f32) (j : Fin 128) :
    k4_pay6 (F := Ideal) v27 (r0 j) = v27 (r0 j) * ((1 / 50000 : ℝ) : EReal) := by
  unfold k4_pay6
  exact congrArg (fun z => v27 (r0 j) * z) inv_n

theorem scale_apply (v27 v30 v35 : FVec Ideal S1x128 .f32) (j : Fin 128) :
    k4_pay7 (F := Ideal) v27 v30 v35 (r0 j)
      = v35 (r0 j) * Ideal.rsqrt (v30 (r0 j) * ((1 / 50000 : ℝ) : EReal)
          - v27 (r0 j) * ((1 / 50000 : ℝ) : EReal) * (v27 (r0 j) * ((1 / 50000 : ℝ) : EReal))
          + Ideal.ofBits .f32 0x3727C5AC#32) := by
  unfold k4_pay7
  rw [shapeCast_self]
  show v35 (r0 j) * Ideal.rsqrt (v30 (r0 j) * Named.named (F := Ideal) Cert.KernelIdeal.κ "inv_50000" (φ := .f32) 0x37A7C5AC#32
      - k4_pay6 (F := Ideal) v27 (r0 j) * k4_pay6 (F := Ideal) v27 (r0 j) + Ideal.ofBits .f32 0x3727C5AC#32) = _
  rw [mean_apply, inv_n]

theorem shift_apply (v27 v30 v35 v41 : FVec Ideal S1x128 .f32) (j : Fin 128) :
    k4_pay8 (F := Ideal) v27 v30 v35 v41 (r0 j)
      = v41 (r0 j) - v27 (r0 j) * ((1 / 50000 : ℝ) : EReal) * k4_pay7 (F := Ideal) v27 v30 v35 (r0 j) := by
  unfold k4_pay8
  rw [shapeCast_self]
  show v41 (r0 j) - k4_pay6 (F := Ideal) v27 (r0 j) * k4_pay7 (F := Ideal) v27 v30 v35 (r0 j) = _
  rw [mean_apply]

end Cert.Proof.Pay4

end
-- ==== Proof.R4Sum.lean ====
/-
  Pipeline 4 (a statistics kernel), at the ideal values: what the region leaves in its two result arrays.
  The tile of x a point holds is rows 5000·t … 5000·t + 4999 of x; every other input block is its whole array at
  every point. The quantity whose statistics the kernel takes reads one row of x, so on a tile it is the whole
  array's quantity at the tile's rows; the running rows therefore end at its column totals over all 50000 rows
  (a running total over the ten tiles), and the stored scale and shift are the batch-norm formulas of those totals.
  Each result array is written back once, at the last point, whole.
-/
import proofs.«180905_j29583734735286_1_alg».proof.Proof.R4Val
import proofs.«180905_j29583734735286_1_alg».proof.Proof.R4Arr
import proofs.«180905_j29583734735286_1_alg».proof.Proof.Pay4
import proofs.«180905_j29583734735286_1_alg».proof.Proof.LibTiledTotals
import proofs.«180905_j29583734735286_1_alg».proof.Proof.Spec
import proofs.«180905_j29583734735286_1_alg».proof.Proof.ValCommon
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibBatchNorm (rowOf)
open scoped BigOperators

variable (V : (c : Dev nD) → (b : Ref sig .tc) → Buf (Elt Ideal) ((c : Thread nD τ).loc b))

abbrev r0_4 (j : Fin 128) : S1x128.Idx := ix2 ⟨0, Nat.one_pos⟩ j
theorem lt_N4 (t : Fin (9 + 1)) : t.val < cfg4.N := lt_of_lt_of_eq t.isLt N_4.symm

def in4_0 (c : Dev nD) (r : Fin 50000) (k : Fin 128) : EReal := (V c main_v59 : S50000x128.Idx → EReal) (ix2 r k)
theorem idx4_0 : ∀ t : Fin cfg4.N, win4_0.index t 0 = t.val ∧ win4_0.index t 1 = 0 := by
  intro t; rcases fin_N4 t with rfl | rfl | rfl | rfl | rfl | rfl | rfl | rfl | rfl | rfl <;> decide
theorem tile4_0 (c : Dev nD) (t : Fin cfg4.N) (y : Fin 5000) (k : Fin 128) (R : Fin 50000) (hR : R.val = t.val * 5000 + y.val) :
    (iblk4 V c 0 t : Vec Ideal S5000x128 .f32) (ix2 y k) = in4_0 V c R k := by
  unfold iblk4 in4_0
  rw [View.read_apply]
  show (V c main_v59 : S50000x128.Idx → EReal) _ = (V c main_v59 : S50000x128.Idx → EReal) _
  congr 1
  funext a
  apply Fin.ext
  match a with
  | ⟨0, _⟩ => show win4_0.index t 0 * 5000 + 1 * y.val = R.val; rw [(idx4_0 t).1, hR]; omega
  | ⟨1, _⟩ => show win4_0.index t 1 * 128 + 1 * k.val = k.val; rw [(idx4_0 t).2]; omega
theorem blk4_0 (c : Dev nD) (t : Fin (9 + 1)) (y : Fin 5000) (k : Fin 128) :
    (iblk4 V c 0 ⟨t.val, lt_N4 t⟩ : FVec Ideal S5000x128 .f32) (ix2 y k) = in4_0 V c (rowOf h50000 t y) k :=
  tile4_0 V c ⟨t.val, lt_N4 t⟩ y k (rowOf h50000 t y) rfl

def in4_1 (c : Dev nD) (k j : Fin 128) : EReal := (V c main_v62 : S128x128.Idx → EReal) (ix2 k j)
theorem idx4_1 : ∀ t : Fin cfg4.N, win4_1.index t 0 = 0 ∧ win4_1.index t 1 = 0 := by
  intro t; rcases fin_N4 t with rfl | rfl | rfl | rfl | rfl | rfl | rfl | rfl | rfl | rfl <;> decide
theorem res4_1 (c : Dev nD) (t : Fin cfg4.N) (k j : Fin 128) :
    (iblk4 V c 1 t : Vec Ideal S128x128 .bf16) (ix2 k j) = in4_1 V c k j := by
  unfold iblk4 in4_1
  rw [View.read_apply]
  show (V c main_v62 : S128x128.Idx → EReal) _ = (V c main_v62 : S128x128.Idx → EReal) _
  congr 1
  funext a
  apply Fin.ext
  match a with
  | ⟨0, _⟩ => show win4_1.index t 0 * 128 + 1 * k.val = k.val; rw [(idx4_1 t).1]; omega
  | ⟨1, _⟩ => show win4_1.index t 1 * 128 + 1 * j.val = j.val; rw [(idx4_1 t).2]; omega
theorem blk4_1 (c : Dev nD) (t : Fin (9 + 1)) (k j : Fin 128) :
    (iblk4 V c 1 ⟨t.val, lt_N4 t⟩ : FVec Ideal S128x128 .bf16) (ix2 k j) = in4_1 V c k j :=
  res4_1 V c ⟨t.val, lt_N4 t⟩ k j

def in4_2 (c : Dev nD) (j : Fin 128) : EReal := (V c main_v68 : S1x128.Idx → EReal) (ix2 ⟨0, Nat.one_pos⟩ j)
theorem idx4_2 : ∀ t : Fin cfg4.N, win4_2.index t 0 = 0 ∧ win4_2.index t 1 = 0 := by
  intro t; rcases fin_N4 t with rfl | rfl | rfl | rfl | rfl | rfl | rfl | rfl | rfl | rfl <;> decide
theorem res4_2 (c : Dev nD) (t : Fin cfg4.N) (j : Fin 128) :
    (iblk4 V c 2 t : Vec Ideal S1x128 .f32) (ix2 ⟨0, Nat.one_pos⟩ j) = in4_2 V c j := by
  unfold iblk4 in4_2
  rw [View.read_apply]
  show (V c main_v68 : S1x128.Idx → EReal) _ = (V c main_v68 : S1x128.Idx → EReal) _
  congr 1
  funext a
  apply Fin.ext
  match a with
  | ⟨0, _⟩ => show win4_2.index t 0 * 1 + 1 * 0 = 0; rw [(idx4_2 t).1]
  | ⟨1, _⟩ => show win4_2.index t 1 * 128 + 1 * j.val = j.val; rw [(idx4_2 t).2]; omega
theorem blk4_2 (c : Dev nD) (t : Fin (9 + 1)) (j : Fin 128) :
    (iblk4 V c 2 ⟨t.val, lt_N4 t⟩ : FVec Ideal S1x128 .f32) (ix2 ⟨0, Nat.one_pos⟩ j) = in4_2 V c j :=
  res4_2 V c ⟨t.val, lt_N4 t⟩ j

def in4_3 (c : Dev nD) (j : Fin 128) : EReal := (V c main_v71 : S1x128.Idx → EReal) (ix2 ⟨0, Nat.one_pos⟩ j)
theorem idx4_3 : ∀ t : Fin cfg4.N, win4_3.index t 0 = 0 ∧ win4_3.index t 1 = 0 := by
  intro t; rcases fin_N4 t with rfl | rfl | rfl | rfl | rfl | rfl | rfl | rfl | rfl | rfl <;> decide
theorem res4_3 (c : Dev nD) (t : Fin cfg4.N) (j : Fin 128) :
    (iblk4 V c 3 t : Vec Ideal S1x128 .f32) (ix2 ⟨0, Nat.one_pos⟩ j) = in4_3 V c j := by
  unfold iblk4 in4_3
  rw [View.read_apply]
  show (V c main_v71 : S1x128.Idx → EReal) _ = (V c main_v71 : S1x128.Idx → EReal) _
  congr 1
  funext a
  apply Fin.ext
  match a with
  | ⟨0, _⟩ => show win4_3.index t 0 * 1 + 1 * 0 = 0; rw [(idx4_3 t).1]
  | ⟨1, _⟩ => show win4_3.index t 1 * 128 + 1 * j.val = j.val; rw [(idx4_3 t).2]; omega
theorem blk4_3 (c : Dev nD) (t : Fin (9 + 1)) (j : Fin 128) :
    (iblk4 V c 3 ⟨t.val, lt_N4 t⟩ : FVec Ideal S1x128 .f32) (ix2 ⟨0, Nat.one_pos⟩ j) = in4_3 V c j :=
  res4_3 V c ⟨t.val, lt_N4 t⟩ j

/-- The quantity whose column statistics this kernel takes, over all rows. -/
abbrev GQ4 (c : Dev nD) : Fin 50000 → Fin 128 → EReal := Cert.Spec.lin (in4_0 V c) (in4_1 V c)

theorem tile_q4 (c : Dev nD) (t : Fin (9 + 1)) (y : Fin 5000) (j : Fin 128) :
    Cert.Proof.Pay4.q (iblk4 V c 0 ⟨t.val, lt_N4 t⟩) (iblk4 V c 1 ⟨t.val, lt_N4 t⟩) (ix2 y j) = GQ4 V c (rowOf h50000 t y) j := by
  rw [Cert.Proof.Pay4.q_apply]
  simp only [blk4_0 V c t, blk4_1 V c t, Cert.Spec.lin, Cert.Spec.relu, Cert.Spec.aff]

def accS4 (c : Dev nD) (n : ℕ) (hn : n < cfg4.N) (j : Fin 128) : EReal := ((outsAt4 V c n hn).2.2.1 : S1x128.Idx → EReal) (r0_4 j)
def accQ4 (c : Dev nD) (n : ℕ) (hn : n < cfg4.N) (j : Fin 128) : EReal := ((outsAt4 V c n hn).2.2.2 : S1x128.Idx → EReal) (r0_4 j)

theorem accS4_zero (c : Dev nD) (j : Fin 128) : accS4 V c 0 (lt_N4 0) j = 0 + ∑ y : Fin 5000, GQ4 V c (rowOf h50000 0 y) j := by
  have e := outsAt4_A V c ⟨0, lt_N4 0⟩ rfl (c0_zero4 _) (nc1_zero4 _)
  unfold accS4
  rw [show outsAt4 V c 0 (lt_N4 0) = _ from e]
  dsimp only
  rw [pieceA4_S, Cert.Proof.Pay4.total_apply, Cert.Proof.Pay4.zeroS]
  exact congrArg (fun z => (0 : EReal) + z) (Finset.sum_congr rfl fun y _ => tile_q4 V c 0 y j)

theorem accQ4_zero (c : Dev nD) (j : Fin 128) : accQ4 V c 0 (lt_N4 0) j = 0 + ∑ y : Fin 5000, GQ4 V c (rowOf h50000 0 y) j * GQ4 V c (rowOf h50000 0 y) j := by
  have e := outsAt4_A V c ⟨0, lt_N4 0⟩ rfl (c0_zero4 _) (nc1_zero4 _)
  unfold accQ4
  rw [show outsAt4 V c 0 (lt_N4 0) = _ from e]
  dsimp only
  rw [pieceA4_Q, Cert.Proof.Pay4.total_sq_apply, Cert.Proof.Pay4.zeroQ]
  exact congrArg (fun z => (0 : EReal) + z) (Finset.sum_congr rfl fun y _ => congrArg₂ (· * ·) (tile_q4 V c 0 y j) (tile_q4 V c 0 y j))

theorem accS4_succ (c : Dev nD) (n : ℕ) (hn : n + 1 < 9 + 1) (j : Fin 128) :
    accS4 V c (n + 1) (lt_N4 ⟨n + 1, hn⟩) j = accS4 V c n (lt_N4 ⟨n, Nat.lt_of_succ_lt hn⟩) j + ∑ y : Fin 5000, GQ4 V c (rowOf h50000 ⟨n + 1, hn⟩ y) j := by
  have hz : (⟨n + 1, lt_N4 ⟨n + 1, hn⟩⟩ : Fin cfg4.N).val ≠ 0 := Nat.succ_ne_zero n
  have hc0 := nc0_succ4 n (lt_N4 ⟨n + 1, hn⟩)
  unfold accS4
  by_cases h1 : (n + 1) % 10 = 9
  · have hc1 : cond4_1 (grid4.coords ⟨n + 1, lt_N4 ⟨n + 1, hn⟩⟩) := (hcond4_1 _).mpr h1
    have e := outsAt4_C V c ⟨n + 1, lt_N4 ⟨n + 1, hn⟩⟩ hz h1 hc0 hc1
    rw [show outsAt4 V c (n + 1) (lt_N4 ⟨n + 1, hn⟩) = _ from e]
    dsimp only
    rw [pieceC4_S, Cert.Proof.Pay4.total_apply]
    exact congrArg₂ (· + ·) rfl (Finset.sum_congr rfl fun y _ => tile_q4 V c ⟨n + 1, hn⟩ y j)
  · have hc1 : ¬cond4_1 (grid4.coords ⟨n + 1, lt_N4 ⟨n + 1, hn⟩⟩) := fun h => h1 ((hcond4_1 _).mp h)
    have e := outsAt4_B V c ⟨n + 1, lt_N4 ⟨n + 1, hn⟩⟩ hz h1 hc0 hc1
    rw [show outsAt4 V c (n + 1) (lt_N4 ⟨n + 1, hn⟩) = _ from e]
    dsimp only
    rw [pieceB4_S, Cert.Proof.Pay4.total_apply]
    exact congrArg₂ (· + ·) rfl (Finset.sum_congr rfl fun y _ => tile_q4 V c ⟨n + 1, hn⟩ y j)

theorem accQ4_succ (c : Dev nD) (n : ℕ) (hn : n + 1 < 9 + 1) (j : Fin 128) :
    accQ4 V c (n + 1) (lt_N4 ⟨n + 1, hn⟩) j = accQ4 V c n (lt_N4 ⟨n, Nat.lt_of_succ_lt hn⟩) j + ∑ y : Fin 5000, GQ4 V c (rowOf h50000 ⟨n + 1, hn⟩ y) j * GQ4 V c (rowOf h50000 ⟨n + 1, hn⟩ y) j := by
  have hz : (⟨n + 1, lt_N4 ⟨n + 1, hn⟩⟩ : Fin cfg4.N).val ≠ 0 := Nat.succ_ne_zero n
  have hc0 := nc0_succ4 n (lt_N4 ⟨n + 1, hn⟩)
  unfold accQ4
  by_cases h1 : (n + 1) % 10 = 9
  · have hc1 : cond4_1 (grid4.coords ⟨n + 1, lt_N4 ⟨n + 1, hn⟩⟩) := (hcond4_1 _).mpr h1
    have e := outsAt4_C V c ⟨n + 1, lt_N4 ⟨n + 1, hn⟩⟩ hz h1 hc0 hc1
    rw [show outsAt4 V c (n + 1) (lt_N4 ⟨n + 1, hn⟩) = _ from e]
    dsimp only
    rw [pieceC4_Q, Cert.Proof.Pay4.total_sq_apply]
    exact congrArg₂ (· + ·) rfl (Finset.sum_congr rfl fun y _ => congrArg₂ (· * ·) (tile_q4 V c ⟨n + 1, hn⟩ y j) (tile_q4 V c ⟨n + 1, hn⟩ y j))
  · have hc1 : ¬cond4_1 (grid4.coords ⟨n + 1, lt_N4 ⟨n + 1, hn⟩⟩) := fun h => h1 ((hcond4_1 _).mp h)
    have e := outsAt4_B V c ⟨n + 1, lt_N4 ⟨n + 1, hn⟩⟩ hz h1 hc0 hc1
    rw [show outsAt4 V c (n + 1) (lt_N4 ⟨n + 1, hn⟩) = _ from e]
    dsimp only
    rw [pieceB4_Q, Cert.Proof.Pay4.total_sq_apply]
    exact congrArg₂ (· + ·) rfl (Finset.sum_congr rfl fun y _ => congrArg₂ (· * ·) (tile_q4 V c ⟨n + 1, hn⟩ y j) (tile_q4 V c ⟨n + 1, hn⟩ y j))

theorem totS4 (c : Dev nD) (j : Fin 128) : accS4 V c 9 (lt_N4 9) j = Cert.Spec.colS (GQ4 V c) j :=
  Cert.LibTiledTotals.tiled_total h50000 (GQ4 V c) (fun t j => ∑ y : Fin 5000, GQ4 V c (rowOf h50000 t y) j) (fun _ _ => rfl)
    (fun t j => accS4 V c t.val (lt_N4 t) j) (accS4_zero V c) (fun t j => accS4_succ V c t.val (Nat.succ_lt_succ t.isLt) j) j
theorem totQ4 (c : Dev nD) (j : Fin 128) : accQ4 V c 9 (lt_N4 9) j = Cert.Spec.colQ (GQ4 V c) j :=
  Cert.LibTiledTotals.tiled_total_sq h50000 (GQ4 V c) (fun t j => ∑ y : Fin 5000, GQ4 V c (rowOf h50000 t y) j * GQ4 V c (rowOf h50000 t y) j) (fun _ _ => rfl)
    (fun t j => accQ4 V c t.val (lt_N4 t) j) (accQ4_zero V c) (fun t j => accQ4_succ V c t.val (Nat.succ_lt_succ t.isLt) j) j
theorem totS4' (c : Dev nD) (t : Fin cfg4.N) (h9 : t.val = 9) (j : Fin 128) : accS4 V c t.val t.isLt j = Cert.Spec.colS (GQ4 V c) j := by
  obtain rfl : t = ⟨9, lt_N4 9⟩ := Fin.ext h9
  exact totS4 V c j
theorem totQ4' (c : Dev nD) (t : Fin cfg4.N) (h9 : t.val = 9) (j : Fin 128) : accQ4 V c t.val t.isLt j = Cert.Spec.colQ (GQ4 V c) j := by
  obtain rfl : t = ⟨9, lt_N4 9⟩ := Fin.ext h9
  exact totQ4 V c j

abbrev pS4 (c : Dev nD) (t : Fin cfg4.N) : Vec Ideal S1x128 .f32 := (outsAt4 V c (t.val - 1) (Nat.lt_of_le_of_lt (Nat.sub_le _ _) t.isLt)).2.2.1
abbrev pQ4 (c : Dev nD) (t : Fin cfg4.N) : Vec Ideal S1x128 .f32 := (outsAt4 V c (t.val - 1) (Nat.lt_of_le_of_lt (Nat.sub_le _ _) t.isLt)).2.2.2
abbrev S9_4 (c : Dev nD) (t : Fin cfg4.N) : Vec Ideal S1x128 .f32 := k4_pay4 (iblk4 V c 0 t) (iblk4 V c 1 t) (pS4 V c t)
abbrev Q9_4 (c : Dev nD) (t : Fin cfg4.N) : Vec Ideal S1x128 .f32 := k4_pay5 (iblk4 V c 0 t) (iblk4 V c 1 t) (pQ4 V c t)

set_option maxHeartbeats 3200000 in
theorem last4 (c : Dev nD) (t : Fin cfg4.N) (h9 : t.val = 9) :
    outsAt4 V c t.val t.isLt = (k4_pay7 (S9_4 V c t) (Q9_4 V c t) (iblk4 V c 2 t), k4_pay8 (S9_4 V c t) (Q9_4 V c t) (iblk4 V c 2 t) (iblk4 V c 3 t), S9_4 V c t, Q9_4 V c t) := by
  have h9' : t.val % 10 = 9 := by rw [h9]
  have hz : t.val ≠ 0 := by rw [h9]; decide
  have hc0 : ¬cond4_0 (grid4.coords t) := fun h => by have := (hcond4_0 t).mp h; omega
  have hc1 : cond4_1 (grid4.coords t) := (hcond4_1 t).mpr h9'
  refine (outsAt4_C V c t hz h9' hc0 hc1).trans ?_
  rw [(pieceC4_1 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (pS4 V c t) (pQ4 V c t)), (pieceC4_2 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (pS4 V c t) (pQ4 V c t)), (pieceC4_S (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (pS4 V c t) (pQ4 V c t)), (pieceC4_Q (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) hc0 hc1 (iblk4 V c 0 t) (iblk4 V c 1 t) (iblk4 V c 2 t) (iblk4 V c 3 t) (pS4 V c t) (pQ4 V c t))]

theorem scale4_val (c : Dev nD) (t : Fin cfg4.N) (h9 : t.val = 9) (j : Fin 128) :
    ((outsAt4 V c t.val t.isLt).1 : S1x128.Idx → EReal) (r0_4 j) = Cert.Spec.scaleK (GQ4 V c) (in4_2 V c) cW epsW j := by
  have hS : (S9_4 V c t : S1x128.Idx → EReal) (r0_4 j) = Cert.Spec.colS (GQ4 V c) j := by
    rw [← totS4' V c t h9]; unfold accS4; rw [last4 V c t h9]
  have hQ : (Q9_4 V c t : S1x128.Idx → EReal) (r0_4 j) = Cert.Spec.colQ (GQ4 V c) j := by
    rw [← totQ4' V c t h9]; unfold accQ4; rw [last4 V c t h9]
  rw [last4 V c t h9]
  dsimp only
  rw [Cert.Proof.Pay4.scale_apply, hS, hQ, res4_2 V c t j]
  rfl

theorem shift4_val (c : Dev nD) (t : Fin cfg4.N) (h9 : t.val = 9) (j : Fin 128) :
    ((outsAt4 V c t.val t.isLt).2.1 : S1x128.Idx → EReal) (r0_4 j) = Cert.Spec.shiftK (GQ4 V c) (in4_2 V c) (in4_3 V c) cW epsW j := by
  have hS : (S9_4 V c t : S1x128.Idx → EReal) (r0_4 j) = Cert.Spec.colS (GQ4 V c) j := by
    rw [← totS4' V c t h9]; unfold accS4; rw [last4 V c t h9]
  have hsc := scale4_val V c t h9 j
  rw [last4 V c t h9] at hsc
  dsimp only at hsc
  rw [last4 V c t h9]
  dsimp only
  rw [Cert.Proof.Pay4.shift_apply, hsc, hS, res4_3 V c t j]
  rfl

/-- THE REGION'S VALUE: the two result arrays after the region are the batch norm's scale and shift rows. -/
theorem scaleArr4 (c : Dev nD) (j : Fin 128) :
    ((dat4 V c).arrAt 4 cfg4.N : S1x128.Idx → EReal) (r0_4 j) = Cert.Spec.scaleK (GQ4 V c) (in4_2 V c) cW epsW j := by
  rw [final4_4]; unfold G4_4
  exact scale4_val V c tL4 tL4_val j
theorem shiftArr4 (c : Dev nD) (j : Fin 128) :
    ((dat4 V c).arrAt 5 cfg4.N : S1x128.Idx → EReal) (r0_4 j) = Cert.Spec.shiftK (GQ4 V c) (in4_2 V c) (in4_3 V c) cW epsW j := by
  rw [final4_5]; unfold G4_5
  exact shift4_val V c tL4 tL4_val j

end Cert.KernelIdeal.Hand

end
-- ==== Proof.R5Val.lean ====
/-
  Pipeline 5 (a statistics kernel): each case's stores read back as the body's arithmetic. A buffer stored whole
  holds the stored value, and a load of it after the store reads that value: after the first tile the running rows
  are the tile's totals added to the zero rows, after a later tile the totals added to what the tile before left,
  and at the last tile the scale and the shift are computed from the rows as this tile leaves them.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R5B
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2_5 : (![0, 0] : Fin 2 → Nat) = fun _ => 0 := funext fun a => by fin_cases a <;> rfl

theorem pieceA5_S (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond5_0 i) (hc1 : ¬cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) :
    rd5 (F := F) (kernelRun5_A c i arg1 harg1 arg2 harg2 arg3 harg3 arg4 harg4 arg5 harg5 arg6 harg6 arg7 harg7 arg8 harg8 arg9 harg9 arg10 harg10 arg11 harg11 hc0 hc1 x0 x1 x2 x3 x4 x5 x6).1 = k5_pay8 x0 x1 x3 x4 x2 (k5_pay5 (F := F)) := by
  unfold rd5
  rw [View.read_writes_eq_canon _ _ _ (scoverA5_0 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun5_A
  dsimp only
  try sl_unfold_words
  first | rw [View.canon_cons_unit_zero (S := S1x128) hz2_5] | rw [View.canon_unit_zero hz2_5]
  simp only [View.readCov_unit_zero (S := S1x128) _ hz2_5, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_5, View.ld_unit_zero (S := S128x128) hz2_5, View.ld_unit_zero (S := S1x128) hz2_5]

theorem pieceA5_Q (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond5_0 i) (hc1 : ¬cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) :
    rd5 (F := F) (kernelRun5_A c i arg1 harg1 arg2 harg2 arg3 harg3 arg4 harg4 arg5 harg5 arg6 harg6 arg7 harg7 arg8 harg8 arg9 harg9 arg10 harg10 arg11 harg11 hc0 hc1 x0 x1 x2 x3 x4 x5 x6).2.1 = k5_pay1 (k5_pay6 (F := F)) (k5_pay9 x0 x1 x3 x4 x2) := by
  unfold rd5
  rw [View.read_writes_eq_canon _ _ _ (scoverA5_1 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun5_A
  dsimp only
  try sl_unfold_words
  first | rw [View.canon_cons_unit_zero (S := S1x128) hz2_5] | rw [View.canon_unit_zero hz2_5]
  simp only [View.readCov_unit_zero (S := S1x128) _ hz2_5, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_5, View.ld_unit_zero (S := S128x128) hz2_5, View.ld_unit_zero (S := S1x128) hz2_5]

theorem pieceB5_S (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : ¬cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd5 (F := F) (kernelRun5_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 = k5_pay8 x0 x1 x3 x4 x2 xs0 := by
  unfold rd5
  rw [View.read_writes_eq_canon _ _ _ (scoverB5_0 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun5_B
  dsimp only
  try sl_unfold_words
  first | rw [View.canon_cons_unit_zero (S := S1x128) hz2_5] | rw [View.canon_unit_zero hz2_5]
  simp only [View.readCov_unit_zero (S := S1x128) _ hz2_5, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_5, View.ld_unit_zero (S := S128x128) hz2_5, View.ld_unit_zero (S := S1x128) hz2_5]

theorem pieceB5_Q (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : ¬cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd5 (F := F) (kernelRun5_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 = k5_pay1 xs1 (k5_pay9 x0 x1 x3 x4 x2) := by
  unfold rd5
  rw [View.read_writes_eq_canon _ _ _ (scoverB5_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun5_B
  dsimp only
  try sl_unfold_words
  first | rw [View.canon_cons_unit_zero (S := S1x128) hz2_5] | rw [View.canon_unit_zero hz2_5]
  simp only [View.readCov_unit_zero (S := S1x128) _ hz2_5, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_5, View.ld_unit_zero (S := S128x128) hz2_5, View.ld_unit_zero (S := S1x128) hz2_5]

theorem pieceC5_S (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd5 (F := F) (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.1 = k5_pay8 x0 x1 x3 x4 x2 xs0 := by
  unfold rd5
  rw [View.read_writes_eq_canon _ _ _ (scoverC5_0 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun5_C
  dsimp only
  try sl_unfold_words
  first | rw [View.canon_cons_unit_zero (S := S1x128) hz2_5] | rw [View.canon_unit_zero hz2_5]
  simp only [View.readCov_unit_zero (S := S1x128) _ hz2_5, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_5, View.ld_unit_zero (S := S128x128) hz2_5, View.ld_unit_zero (S := S1x128) hz2_5]

theorem pieceC5_Q (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd5 (F := F) (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.2.1 = k5_pay1 xs1 (k5_pay9 x0 x1 x3 x4 x2) := by
  unfold rd5
  rw [View.read_writes_eq_canon _ _ _ (scoverC5_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun5_C
  dsimp only
  try sl_unfold_words
  first | rw [View.canon_cons_unit_zero (S := S1x128) hz2_5] | rw [View.canon_unit_zero hz2_5]
  simp only [View.readCov_unit_zero (S := S1x128) _ hz2_5, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_5, View.ld_unit_zero (S := S128x128) hz2_5, View.ld_unit_zero (S := S1x128) hz2_5]

theorem pieceC5_1 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd5 (F := F) (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 = k5_pay3 (k5_pay8 x0 x1 x3 x4 x2 xs0) (k5_pay1 xs1 (k5_pay9 x0 x1 x3 x4 x2)) x5 := by
  unfold rd5
  rw [View.read_writes_eq_canon _ _ _ (coverC5_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun5_C
  dsimp only
  try sl_unfold_words
  first | rw [View.canon_cons_unit_zero (S := S1x128) hz2_5] | rw [View.canon_unit_zero hz2_5]
  simp only [View.readCov_unit_zero (S := S1x128) _ hz2_5, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_5, View.ld_unit_zero (S := S128x128) hz2_5, View.ld_unit_zero (S := S1x128) hz2_5]

theorem pieceC5_2 (c : Dev nD) (i : grid5.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond5_0 i) (hc1 : cond5_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd5 (F := F) (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 = k5_pay4 (k5_pay8 x0 x1 x3 x4 x2 xs0) (k5_pay1 xs1 (k5_pay9 x0 x1 x3 x4 x2)) x5 x6 := by
  unfold rd5
  rw [View.read_writes_eq_canon _ _ _ (coverC5_2 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun5_C
  dsimp only
  try sl_unfold_words
  first | rw [View.canon_cons_unit_zero (S := S1x128) hz2_5] | rw [View.canon_unit_zero hz2_5]
  simp only [View.readCov_unit_zero (S := S1x128) _ hz2_5, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_5, View.ld_unit_zero (S := S128x128) hz2_5, View.ld_unit_zero (S := S1x128) hz2_5]

end Cert.KernelIdeal.Hand

end
-- ==== Proof.R5Arr.lean ====
/-
  Pipeline 5: the two result arrays after the region. Each result window is written back once, at the last
  point, and its one block is the whole [1, 128] array; so the array ends holding the row the last point stored.
-/
import proofs.«180905_j29583734735286_1_alg».proof.Proof.R5B
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The last grid point. -/
def tL5 : Fin cfg5.N := ⟨9, lt_of_lt_of_eq (by decide) N_5.symm⟩
theorem tL5_val : tL5.val = 9 := rfl
attribute [irreducible] tL5

theorem idx5_7 : ∀ t : Fin cfg5.N, win5_7.index t 0 = 0 ∧ win5_7.index t 1 = 0 := by
  intro t; rcases fin_N5 t with rfl | rfl | rfl | rfl | rfl | rfl | rfl | rfl | rfl | rfl <;> decide
theorem xsz5_7 : ∀ t : Fin cfg5.N, win5_7.xsize (grid5.coords t) 0 = 1 ∧ win5_7.xsize (grid5.coords t) 1 = 128 := by
  intro t; rcases fin_N5 t with rfl | rfl | rfl | rfl | rfl | rfl | rfl | rfl | rfl | rfl <;> decide +kernel

/-- What the region leaves in its result array: the row stored at the last point. -/
def G5_7 (c : Dev nD) : Buf (Elt F) ((c : Thread nD τ).loc main_v85_0) := (outsAt5 V c tL5.val tL5.isLt).1

theorem flushed5_7 (c : Dev nD) (t : Fin cfg5.N) (hf : (cfg5.win 7).flush t = true) :
    (dat5 V c).flushed 7 t = ((cfg5.win 7).blk t).view.read (Elt F) (G5_7 V c) := by
  have hN : cfg5.N = 10 := N_5
  have h1 : t.val = 9 := by have := (flush5_7 t).mp hf; have := t.isLt; omega
  obtain rfl : t = tL5 := Fin.ext (h1.trans tL5_val.symm)
  show (cfg5.win 7).cut (grid5.coords tL5) ((dat5 V c).after 7 tL5) = _
  rw [after5_7]
  have hz' : (fun a => win5_7.index tL5 a * main_v85_0.ty.shape.size a) = fun _ => 0 := funext fun a => by
    match a with
    | ⟨0, _⟩ => show win5_7.index tL5 0 * _ = 0; rw [(idx5_7 tL5).1, Nat.zero_mul]
    | ⟨1, _⟩ => show win5_7.index tL5 1 * _ = 0; rw [(idx5_7 tL5).2, Nat.zero_mul]
  exact (Memref.read_access_unit_zero (Elt F) main_v85_0 hz' (fun a => by rw [congrFun hz' a]; simp) (G5_7 V c)).symm

theorem final5_7 (c : Dev nD) : (dat5 V c).arrAt 7 cfg5.N = G5_7 V c :=
  (dat5 V c).arrAt_eq_of_cover 7 (G5_7 V c) (flushed5_7 V c) fun i =>
    ⟨tL5, (flush5_7 tL5).mpr (by rw [tL5_val]), by
      show i ∈ ((View.whole main_v85_0).slice (win5_7.rect tL5)).set
      rw [View.set_slice_whole, Rect.mem_set_unit]
      intro a
      have h0 : (i 0 : Nat) < 1 := (i 0).isLt
      have h1 : (i 1 : Nat) < 128 := (i 1).isLt
      match a with
      | ⟨0, _⟩ => show win5_7.index tL5 0 * win5_7.size 0 ≤ (i 0 : Nat) ∧ (i 0 : Nat) < win5_7.index tL5 0 * win5_7.size 0 + win5_7.xsize (grid5.coords tL5) 0
                  rw [(idx5_7 tL5).1, (xsz5_7 tL5).1]; omega
      | ⟨1, _⟩ => show win5_7.index tL5 1 * win5_7.size 1 ≤ (i 1 : Nat) ∧ (i 1 : Nat) < win5_7.index tL5 1 * win5_7.size 1 + win5_7.xsize (grid5.coords tL5) 1
                  rw [(idx5_7 tL5).2, (xsz5_7 tL5).2]; omega⟩

theorem idx5_8 : ∀ t : Fin cfg5.N, win5_8.index t 0 = 0 ∧ win5_8.index t 1 = 0 := by
  intro t; rcases fin_N5 t with rfl | rfl | rfl | rfl | rfl | rfl | rfl | rfl | rfl | rfl <;> decide
theorem xsz5_8 : ∀ t : Fin cfg5.N, win5_8.xsize (grid5.coords t) 0 = 1 ∧ win5_8.xsize (grid5.coords t) 1 = 128 := by
  intro t; rcases fin_N5 t with rfl | rfl | rfl | rfl | rfl | rfl | rfl | rfl | rfl | rfl <;> decide +kernel

/-- What the region leaves in its result array: the row stored at the last point. -/
def G5_8 (c : Dev nD) : Buf (Elt F) ((c : Thread nD τ).loc main_v85_1) := (outsAt5 V c tL5.val tL5.isLt).2.1

theorem flushed5_8 (c : Dev nD) (t : Fin cfg5.N) (hf : (cfg5.win 8).flush t = true) :
    (dat5 V c).flushed 8 t = ((cfg5.win 8).blk t).view.read (Elt F) (G5_8 V c) := by
  have hN : cfg5.N = 10 := N_5
  have h1 : t.val = 9 := by have := (flush5_8 t).mp hf; have := t.isLt; omega
  obtain rfl : t = tL5 := Fin.ext (h1.trans tL5_val.symm)
  show (cfg5.win 8).cut (grid5.coords tL5) ((dat5 V c).after 8 tL5) = _
  rw [after5_8]
  have hz' : (fun a => win5_8.index tL5 a * main_v85_1.ty.shape.size a) = fun _ => 0 := funext fun a => by
    match a with
    | ⟨0, _⟩ => show win5_8.index tL5 0 * _ = 0; rw [(idx5_8 tL5).1, Nat.zero_mul]
    | ⟨1, _⟩ => show win5_8.index tL5 1 * _ = 0; rw [(idx5_8 tL5).2, Nat.zero_mul]
  exact (Memref.read_access_unit_zero (Elt F) main_v85_1 hz' (fun a => by rw [congrFun hz' a]; simp) (G5_8 V c)).symm

theorem final5_8 (c : Dev nD) : (dat5 V c).arrAt 8 cfg5.N = G5_8 V c :=
  (dat5 V c).arrAt_eq_of_cover 8 (G5_8 V c) (flushed5_8 V c) fun i =>
    ⟨tL5, (flush5_8 tL5).mpr (by rw [tL5_val]), by
      show i ∈ ((View.whole main_v85_1).slice (win5_8.rect tL5)).set
      rw [View.set_slice_whole, Rect.mem_set_unit]
      intro a
      have h0 : (i 0 : Nat) < 1 := (i 0).isLt
      have h1 : (i 1 : Nat) < 128 := (i 1).isLt
      match a with
      | ⟨0, _⟩ => show win5_8.index tL5 0 * win5_8.size 0 ≤ (i 0 : Nat) ∧ (i 0 : Nat) < win5_8.index tL5 0 * win5_8.size 0 + win5_8.xsize (grid5.coords tL5) 0
                  rw [(idx5_8 tL5).1, (xsz5_8 tL5).1]; omega
      | ⟨1, _⟩ => show win5_8.index tL5 1 * win5_8.size 1 ≤ (i 1 : Nat) ∧ (i 1 : Nat) < win5_8.index tL5 1 * win5_8.size 1 + win5_8.xsize (grid5.coords tL5) 1
                  rw [(idx5_8 tL5).2, (xsz5_8 tL5).2]; omega⟩

end Cert.KernelIdeal.Hand

end
-- ==== Proof.Pay5.lean ====
/-
  The payloads of pipeline 5's body (a statistics kernel) at the ideal values, read at an index: the tile
  quantity whose column statistics the kernel takes, the two running rows after a tile, the zero rows of the reset,
  and the mean, scale and shift the last point computes. A change of float format is the identity on the extended
  reals, a matrix product into a zero accumulator is the row-by-column sum, a lane reduction is a finite sum.
-/
import proofs.«180905_j29583734735286_1_alg».proof.Proof.Gen.KernelIdeal.Skeleton
import Idealize.ShloMosaic.Lib.ValueIdx
import Idealize.ShloMosaic.Lib.Pipeline.Value
import Idealize.ShloMosaic.PureOps.Ideal.Laws
import proofs.«180905_j29583734735286_1_alg».proof.Proof.LibDense
import proofs.«180905_j29583734735286_1_alg».proof.Proof.LibAxisSum
import proofs.«180905_j29583734735286_1_alg».proof.Proof.LibBiasRows

noncomputable section

namespace Cert.Proof.Pay5

open Idealize.ShloMosaic Idealize.ShloMosaic.ValueIdx Cert.KernelIdeal Cert.KernelIdeal.Gen
open scoped BigOperators

abbrev r0 (j : Fin 128) : S1x128.Idx := ix2 ⟨0, Nat.one_pos⟩ j
abbrev zW : EReal := Ideal.ofBits .f32 0x00000000#32

theorem inv_n : Named.named (F := Ideal) Cert.KernelIdeal.κ "inv_50000" (φ := .f32) 0x37A7C5AC#32
    = ((1 / 50000 : ℝ) : EReal) :=
  IdealRules.named_const.ideal_named_scalar _ _ _ _ rfl

/-- The tile quantity. -/
abbrev q (x0 : FVec Ideal S5000x128 .f32) (x1 : FVec Ideal S128x128 .bf16) (x2 : FVec Ideal S128x128 .bf16) (x3 : FVec Ideal S1x128 .f32) (x4 : FVec Ideal S1x128 .f32) : FVec Ideal S5000x128 .f32 := k5_pay7 x0 x1 x3 x4 x2

theorem q_apply (x0 : FVec Ideal S5000x128 .f32) (x1 : FVec Ideal S128x128 .bf16) (x2 : FVec Ideal S128x128 .bf16) (x3 : FVec Ideal S1x128 .f32) (x4 : FVec Ideal S1x128 .f32) (y : Fin 5000) (j : Fin 128) :
    q x0 x1 x2 x3 x4 (ix2 y j) = ∑ k : Fin 128, max ((∑ k' : Fin 128, x0 (ix2 y k') * x1 (ix2 k' k)) * x3 (r0 k) + x4 (r0 k)) zW * x2 (ix2 k j) := by
  unfold q k5_pay7
  simp only [shapeCast_self]
  refine (Cert.LibDense.matmul_plain (M := 5000) (K := 128) (N := 128) (φ₁ := .bf16) (φ₂ := .bf16) _ x2 (ix2 y j)).trans ?_
  refine Finset.sum_congr rfl fun k _ => congrArg (fun z => z * x2 (ix2 k j)) ?_
  show max (FloatOps.matmul (DotDims.plain 5000 128 128) none _ x1 (constant (F := Ideal) S5000x128 .f32 0x00000000#32) (ix2 y k)
      * broadcastTo S5000x128 x3 broadcasts_S1x128_S5000x128 (ix2 y k)
      + broadcastTo S5000x128 x4 broadcasts_S1x128_S5000x128 (ix2 y k)) zW = _
  rw [Cert.LibBiasRows.row_broadcast (n := 5000) (d := 128) x3, Cert.LibBiasRows.row_broadcast (n := 5000) (d := 128) x4, Cert.LibDense.matmul_plain (M := 5000) (K := 128) (N := 128)]
  rfl

theorem total_apply (x0 : FVec Ideal S5000x128 .f32) (x1 : FVec Ideal S128x128 .bf16) (x2 : FVec Ideal S128x128 .bf16) (x3 : FVec Ideal S1x128 .f32) (x4 : FVec Ideal S1x128 .f32) (old : FVec Ideal S1x128 .f32) (j : Fin 128) :
    (k5_pay8 x0 x1 x3 x4 x2 old : FVec Ideal S1x128 .f32) (r0 j) = old (r0 j) + ∑ y : Fin 5000, q x0 x1 x2 x3 x4 (ix2 y j) := by
  unfold k5_pay8
  simp only [shapeCast_self]
  refine congrArg (fun z => old (r0 j) + z) ?_
  refine (Cert.LibBiasRows.row_of_vector _ _ j).trans ?_
  exact Cert.LibAxisSum.sum_first (n := 5000) (d := 128) _ _ _ _ _ j

theorem total_sq_apply (x0 : FVec Ideal S5000x128 .f32) (x1 : FVec Ideal S128x128 .bf16) (x2 : FVec Ideal S128x128 .bf16) (x3 : FVec Ideal S1x128 .f32) (x4 : FVec Ideal S1x128 .f32) (old : FVec Ideal S1x128 .f32) (j : Fin 128) :
    (k5_pay1 old (k5_pay9 x0 x1 x3 x4 x2) : FVec Ideal S1x128 .f32) (r0 j) = old (r0 j) + ∑ y : Fin 5000, q x0 x1 x2 x3 x4 (ix2 y j) * q x0 x1 x2 x3 x4 (ix2 y j) := by
  unfold k5_pay1 k5_pay9
  simp only [shapeCast_self]
  refine congrArg (fun z => old (r0 j) + z) ?_
  refine (Cert.LibBiasRows.row_of_vector _ _ j).trans ?_
  exact Cert.LibAxisSum.sum_first (n := 5000) (d := 128) _ _ _ _ _ j

theorem zeroS (j : Fin 128) : (k5_pay5 (F := Ideal) : S1x128.Idx → EReal) (r0 j) = 0 := by
  unfold k5_pay5; rw [shapeCast_self]; exact Ideal.ofBits_zero_f32
theorem zeroQ (j : Fin 128) : (k5_pay6 (F := Ideal) : S1x128.Idx → EReal) (r0 j) = 0 := by
  unfold k5_pay6; rw [shapeCast_self]; exact Ideal.ofBits_zero_f32

theorem mean_apply (v27 : FVec Ideal S1x128 .f32) (j : Fin 128) :
    k5_pay2 (F := Ideal) v27 (r0 j) = v27 (r0 j) * ((1 / 50000 : ℝ) : EReal) := by
  unfold k5_pay2
  exact congrArg (fun z => v27 (r0 j) * z) inv_n

theorem scale_apply (v27 v30 v35 : FVec Ideal S1x128 .f32) (j : Fin 128) :
    k5_pay3 (F := Ideal) v27 v30 v35 (r0 j)
      = v35 (r0 j) * Ideal.rsqrt (v30 (r0 j) * ((1 / 50000 : ℝ) : EReal)
          - v27 (r0 j) * ((1 / 50000 : ℝ) : EReal) * (v27 (r0 j) * ((1 / 50000 : ℝ) : EReal))
          + Ideal.ofBits .f32 0x3727C5AC#32) := by
  unfold k5_pay3
  rw [shapeCast_self]
  show v35 (r0 j) * Ideal.rsqrt (v30 (r0 j) * Named.named (F := Ideal) Cert.KernelIdeal.κ "inv_50000" (φ := .f32) 0x37A7C5AC#32
      - k5_pay2 (F := Ideal) v27 (r0 j) * k5_pay2 (F := Ideal) v27 (r0 j) + Ideal.ofBits .f32 0x3727C5AC#32) = _
  rw [mean_apply, inv_n]

theorem shift_apply (v27 v30 v35 v41 : FVec Ideal S1x128 .f32) (j : Fin 128) :
    k5_pay4 (F := Ideal) v27 v30 v35 v41 (r0 j)
      = v41 (r0 j) - v27 (r0 j) * ((1 / 50000 : ℝ) : EReal) * k5_pay3 (F := Ideal) v27 v30 v35 (r0 j) := by
  unfold k5_pay4
  rw [shapeCast_self]
  show v41 (r0 j) - k5_pay2 (F := Ideal) v27 (r0 j) * k5_pay3 (F := Ideal) v27 v30 v35 (r0 j) = _
  rw [mean_apply]

end Cert.Proof.Pay5

end
-- ==== Proof.R5Sum.lean ====
/-
  Pipeline 5 (a statistics kernel), at the ideal values: what the region leaves in its two result arrays.
  The tile of x a point holds is rows 5000·t … 5000·t + 4999 of x; every other input block is its whole array at
  every point. The quantity whose statistics the kernel takes reads one row of x, so on a tile it is the whole
  array's quantity at the tile's rows; the running rows therefore end at its column totals over all 50000 rows
  (a running total over the ten tiles), and the stored scale and shift are the batch-norm formulas of those totals.
  Each result array is written back once, at the last point, whole.
-/
import proofs.«180905_j29583734735286_1_alg».proof.Proof.R5Val
import proofs.«180905_j29583734735286_1_alg».proof.Proof.R5Arr
import proofs.«180905_j29583734735286_1_alg».proof.Proof.Pay5
import proofs.«180905_j29583734735286_1_alg».proof.Proof.LibTiledTotals
import proofs.«180905_j29583734735286_1_alg».proof.Proof.Spec
import proofs.«180905_j29583734735286_1_alg».proof.Proof.ValCommon
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibBatchNorm (rowOf)
open scoped BigOperators

variable (V : (c : Dev nD) → (b : Ref sig .tc) → Buf (Elt Ideal) ((c : Thread nD τ).loc b))

abbrev r0_5 (j : Fin 128) : S1x128.Idx := ix2 ⟨0, Nat.one_pos⟩ j
theorem lt_N5 (t : Fin (9 + 1)) : t.val < cfg5.N := lt_of_lt_of_eq t.isLt N_5.symm

def in5_0 (c : Dev nD) (r : Fin 50000) (k : Fin 128) : EReal := (V c main_v59 : S50000x128.Idx → EReal) (ix2 r k)
theorem idx5_0 : ∀ t : Fin cfg5.N, win5_0.index t 0 = t.val ∧ win5_0.index t 1 = 0 := by
  intro t; rcases fin_N5 t with rfl | rfl | rfl | rfl | rfl | rfl | rfl | rfl | rfl | rfl <;> decide
theorem tile5_0 (c : Dev nD) (t : Fin cfg5.N) (y : Fin 5000) (k : Fin 128) (R : Fin 50000) (hR : R.val = t.val * 5000 + y.val) :
    (iblk5 V c 0 t : Vec Ideal S5000x128 .f32) (ix2 y k) = in5_0 V c R k := by
  unfold iblk5 in5_0
  rw [View.read_apply]
  show (V c main_v59 : S50000x128.Idx → EReal) _ = (V c main_v59 : S50000x128.Idx → EReal) _
  congr 1
  funext a
  apply Fin.ext
  match a with
  | ⟨0, _⟩ => show win5_0.index t 0 * 5000 + 1 * y.val = R.val; rw [(idx5_0 t).1, hR]; omega
  | ⟨1, _⟩ => show win5_0.index t 1 * 128 + 1 * k.val = k.val; rw [(idx5_0 t).2]; omega
theorem blk5_0 (c : Dev nD) (t : Fin (9 + 1)) (y : Fin 5000) (k : Fin 128) :
    (iblk5 V c 0 ⟨t.val, lt_N5 t⟩ : FVec Ideal S5000x128 .f32) (ix2 y k) = in5_0 V c (rowOf h50000 t y) k :=
  tile5_0 V c ⟨t.val, lt_N5 t⟩ y k (rowOf h50000 t y) rfl

def in5_1 (c : Dev nD) (k j : Fin 128) : EReal := (V c main_v62 : S128x128.Idx → EReal) (ix2 k j)
theorem idx5_1 : ∀ t : Fin cfg5.N, win5_1.index t 0 = 0 ∧ win5_1.index t 1 = 0 := by
  intro t; rcases fin_N5 t with rfl | rfl | rfl | rfl | rfl | rfl | rfl | rfl | rfl | rfl <;> decide
theorem res5_1 (c : Dev nD) (t : Fin cfg5.N) (k j : Fin 128) :
    (iblk5 V c 1 t : Vec Ideal S128x128 .bf16) (ix2 k j) = in5_1 V c k j := by
  unfold iblk5 in5_1
  rw [View.read_apply]
  show (V c main_v62 : S128x128.Idx → EReal) _ = (V c main_v62 : S128x128.Idx → EReal) _
  congr 1
  funext a
  apply Fin.ext
  match a with
  | ⟨0, _⟩ => show win5_1.index t 0 * 128 + 1 * k.val = k.val; rw [(idx5_1 t).1]; omega
  | ⟨1, _⟩ => show win5_1.index t 1 * 128 + 1 * j.val = j.val; rw [(idx5_1 t).2]; omega
theorem blk5_1 (c : Dev nD) (t : Fin (9 + 1)) (k j : Fin 128) :
    (iblk5 V c 1 ⟨t.val, lt_N5 t⟩ : FVec Ideal S128x128 .bf16) (ix2 k j) = in5_1 V c k j :=
  res5_1 V c ⟨t.val, lt_N5 t⟩ k j

def in5_2 (c : Dev nD) (k j : Fin 128) : EReal := (V c main_v65 : S128x128.Idx → EReal) (ix2 k j)
theorem idx5_2 : ∀ t : Fin cfg5.N, win5_2.index t 0 = 0 ∧ win5_2.index t 1 = 0 := by
  intro t; rcases fin_N5 t with rfl | rfl | rfl | rfl | rfl | rfl | rfl | rfl | rfl | rfl <;> decide
theorem res5_2 (c : Dev nD) (t : Fin cfg5.N) (k j : Fin 128) :
    (iblk5 V c 2 t : Vec Ideal S128x128 .bf16) (ix2 k j) = in5_2 V c k j := by
  unfold iblk5 in5_2
  rw [View.read_apply]
  show (V c main_v65 : S128x128.Idx → EReal) _ = (V c main_v65 : S128x128.Idx → EReal) _
  congr 1
  funext a
  apply Fin.ext
  match a with
  | ⟨0, _⟩ => show win5_2.index t 0 * 128 + 1 * k.val = k.val; rw [(idx5_2 t).1]; omega
  | ⟨1, _⟩ => show win5_2.index t 1 * 128 + 1 * j.val = j.val; rw [(idx5_2 t).2]; omega
theorem blk5_2 (c : Dev nD) (t : Fin (9 + 1)) (k j : Fin 128) :
    (iblk5 V c 2 ⟨t.val, lt_N5 t⟩ : FVec Ideal S128x128 .bf16) (ix2 k j) = in5_2 V c k j :=
  res5_2 V c ⟨t.val, lt_N5 t⟩ k j

def in5_3 (c : Dev nD) (j : Fin 128) : EReal := (V c main_v84_0 : S1x128.Idx → EReal) (ix2 ⟨0, Nat.one_pos⟩ j)
theorem idx5_3 : ∀ t : Fin cfg5.N, win5_3.index t 0 = 0 ∧ win5_3.index t 1 = 0 := by
  intro t; rcases fin_N5 t with rfl | rfl | rfl | rfl | rfl | rfl | rfl | rfl | rfl | rfl <;> decide
theorem res5_3 (c : Dev nD) (t : Fin cfg5.N) (j : Fin 128) :
    (iblk5 V c 3 t : Vec Ideal S1x128 .f32) (ix2 ⟨0, Nat.one_pos⟩ j) = in5_3 V c j := by
  unfold iblk5 in5_3
  rw [View.read_apply]
  show (V c main_v84_0 : S1x128.Idx → EReal) _ = (V c main_v84_0 : S1x128.Idx → EReal) _
  congr 1
  funext a
  apply Fin.ext
  match a with
  | ⟨0, _⟩ => show win5_3.index t 0 * 1 + 1 * 0 = 0; rw [(idx5_3 t).1]
  | ⟨1, _⟩ => show win5_3.index t 1 * 128 + 1 * j.val = j.val; rw [(idx5_3 t).2]; omega
theorem blk5_3 (c : Dev nD) (t : Fin (9 + 1)) (j : Fin 128) :
    (iblk5 V c 3 ⟨t.val, lt_N5 t⟩ : FVec Ideal S1x128 .f32) (ix2 ⟨0, Nat.one_pos⟩ j) = in5_3 V c j :=
  res5_3 V c ⟨t.val, lt_N5 t⟩ j

def in5_4 (c : Dev nD) (j : Fin 128) : EReal := (V c main_v84_1 : S1x128.Idx → EReal) (ix2 ⟨0, Nat.one_pos⟩ j)
theorem idx5_4 : ∀ t : Fin cfg5.N, win5_4.index t 0 = 0 ∧ win5_4.index t 1 = 0 := by
  intro t; rcases fin_N5 t with rfl | rfl | rfl | rfl | rfl | rfl | rfl | rfl | rfl | rfl <;> decide
theorem res5_4 (c : Dev nD) (t : Fin cfg5.N) (j : Fin 128) :
    (iblk5 V c 4 t : Vec Ideal S1x128 .f32) (ix2 ⟨0, Nat.one_pos⟩ j) = in5_4 V c j := by
  unfold iblk5 in5_4
  rw [View.read_apply]
  show (V c main_v84_1 : S1x128.Idx → EReal) _ = (V c main_v84_1 : S1x128.Idx → EReal) _
  congr 1
  funext a
  apply Fin.ext
  match a with
  | ⟨0, _⟩ => show win5_4.index t 0 * 1 + 1 * 0 = 0; rw [(idx5_4 t).1]
  | ⟨1, _⟩ => show win5_4.index t 1 * 128 + 1 * j.val = j.val; rw [(idx5_4 t).2]; omega
theorem blk5_4 (c : Dev nD) (t : Fin (9 + 1)) (j : Fin 128) :
    (iblk5 V c 4 ⟨t.val, lt_N5 t⟩ : FVec Ideal S1x128 .f32) (ix2 ⟨0, Nat.one_pos⟩ j) = in5_4 V c j :=
  res5_4 V c ⟨t.val, lt_N5 t⟩ j

def in5_5 (c : Dev nD) (j : Fin 128) : EReal := (V c main_v74 : S1x128.Idx → EReal) (ix2 ⟨0, Nat.one_pos⟩ j)
theorem idx5_5 : ∀ t : Fin cfg5.N, win5_5.index t 0 = 0 ∧ win5_5.index t 1 = 0 := by
  intro t; rcases fin_N5 t with rfl | rfl | rfl | rfl | rfl | rfl | rfl | rfl | rfl | rfl <;> decide
theorem res5_5 (c : Dev nD) (t : Fin cfg5.N) (j : Fin 128) :
    (iblk5 V c 5 t : Vec Ideal S1x128 .f32) (ix2 ⟨0, Nat.one_pos⟩ j) = in5_5 V c j := by
  unfold iblk5 in5_5
  rw [View.read_apply]
  show (V c main_v74 : S1x128.Idx → EReal) _ = (V c main_v74 : S1x128.Idx → EReal) _
  congr 1
  funext a
  apply Fin.ext
  match a with
  | ⟨0, _⟩ => show win5_5.index t 0 * 1 + 1 * 0 = 0; rw [(idx5_5 t).1]
  | ⟨1, _⟩ => show win5_5.index t 1 * 128 + 1 * j.val = j.val; rw [(idx5_5 t).2]; omega
theorem blk5_5 (c : Dev nD) (t : Fin (9 + 1)) (j : Fin 128) :
    (iblk5 V c 5 ⟨t.val, lt_N5 t⟩ : FVec Ideal S1x128 .f32) (ix2 ⟨0, Nat.one_pos⟩ j) = in5_5 V c j :=
  res5_5 V c ⟨t.val, lt_N5 t⟩ j

def in5_6 (c : Dev nD) (j : Fin 128) : EReal := (V c main_v77 : S1x128.Idx → EReal) (ix2 ⟨0, Nat.one_pos⟩ j)
theorem idx5_6 : ∀ t : Fin cfg5.N, win5_6.index t 0 = 0 ∧ win5_6.index t 1 = 0 := by
  intro t; rcases fin_N5 t with rfl | rfl | rfl | rfl | rfl | rfl | rfl | rfl | rfl | rfl <;> decide
theorem res5_6 (c : Dev nD) (t : Fin cfg5.N) (j : Fin 128) :
    (iblk5 V c 6 t : Vec Ideal S1x128 .f32) (ix2 ⟨0, Nat.one_pos⟩ j) = in5_6 V c j := by
  unfold iblk5 in5_6
  rw [View.read_apply]
  show (V c main_v77 : S1x128.Idx → EReal) _ = (V c main_v77 : S1x128.Idx → EReal) _
  congr 1
  funext a
  apply Fin.ext
  match a with
  | ⟨0, _⟩ => show win5_6.index t 0 * 1 + 1 * 0 = 0; rw [(idx5_6 t).1]
  | ⟨1, _⟩ => show win5_6.index t 1 * 128 + 1 * j.val = j.val; rw [(idx5_6 t).2]; omega
theorem blk5_6 (c : Dev nD) (t : Fin (9 + 1)) (j : Fin 128) :
    (iblk5 V c 6 ⟨t.val, lt_N5 t⟩ : FVec Ideal S1x128 .f32) (ix2 ⟨0, Nat.one_pos⟩ j) = in5_6 V c j :=
  res5_6 V c ⟨t.val, lt_N5 t⟩ j

/-- The quantity whose column statistics this kernel takes, over all rows. -/
abbrev GQ5 (c : Dev nD) : Fin 50000 → Fin 128 → EReal := Cert.Spec.lin (Cert.Spec.relu zW (Cert.Spec.aff (Cert.Spec.lin (in5_0 V c) (in5_1 V c)) (in5_3 V c) (in5_4 V c))) (in5_2 V c)

theorem tile_q5 (c : Dev nD) (t : Fin (9 + 1)) (y : Fin 5000) (j : Fin 128) :
    Cert.Proof.Pay5.q (iblk5 V c 0 ⟨t.val, lt_N5 t⟩) (iblk5 V c 1 ⟨t.val, lt_N5 t⟩) (iblk5 V c 2 ⟨t.val, lt_N5 t⟩) (iblk5 V c 3 ⟨t.val, lt_N5 t⟩) (iblk5 V c 4 ⟨t.val, lt_N5 t⟩) (ix2 y j) = GQ5 V c (rowOf h50000 t y) j := by
  rw [Cert.Proof.Pay5.q_apply]
  simp only [blk5_0 V c t, blk5_1 V c t, blk5_2 V c t, blk5_3 V c t, blk5_4 V c t, Cert.Spec.lin, Cert.Spec.relu, Cert.Spec.aff]

def accS5 (c : Dev nD) (n : ℕ) (hn : n < cfg5.N) (j : Fin 128) : EReal := ((outsAt5 V c n hn).2.2.1 : S1x128.Idx → EReal) (r0_5 j)
def accQ5 (c : Dev nD) (n : ℕ) (hn : n < cfg5.N) (j : Fin 128) : EReal := ((outsAt5 V c n hn).2.2.2 : S1x128.Idx → EReal) (r0_5 j)

theorem accS5_zero (c : Dev nD) (j : Fin 128) : accS5 V c 0 (lt_N5 0) j = 0 + ∑ y : Fin 5000, GQ5 V c (rowOf h50000 0 y) j := by
  have e := outsAt5_A V c ⟨0, lt_N5 0⟩ rfl (c0_zero5 _) (nc1_zero5 _)
  unfold accS5
  rw [show outsAt5 V c 0 (lt_N5 0) = _ from e]
  dsimp only
  rw [pieceA5_S, Cert.Proof.Pay5.total_apply, Cert.Proof.Pay5.zeroS]
  exact congrArg (fun z => (0 : EReal) + z) (Finset.sum_congr rfl fun y _ => tile_q5 V c 0 y j)

theorem accQ5_zero (c : Dev nD) (j : Fin 128) : accQ5 V c 0 (lt_N5 0) j = 0 + ∑ y : Fin 5000, GQ5 V c (rowOf h50000 0 y) j * GQ5 V c (rowOf h50000 0 y) j := by
  have e := outsAt5_A V c ⟨0, lt_N5 0⟩ rfl (c0_zero5 _) (nc1_zero5 _)
  unfold accQ5
  rw [show outsAt5 V c 0 (lt_N5 0) = _ from e]
  dsimp only
  rw [pieceA5_Q, Cert.Proof.Pay5.total_sq_apply, Cert.Proof.Pay5.zeroQ]
  exact congrArg (fun z => (0 : EReal) + z) (Finset.sum_congr rfl fun y _ => congrArg₂ (· * ·) (tile_q5 V c 0 y j) (tile_q5 V c 0 y j))

theorem accS5_succ (c : Dev nD) (n : ℕ) (hn : n + 1 < 9 + 1) (j : Fin 128) :
    accS5 V c (n + 1) (lt_N5 ⟨n + 1, hn⟩) j = accS5 V c n (lt_N5 ⟨n, Nat.lt_of_succ_lt hn⟩) j + ∑ y : Fin 5000, GQ5 V c (rowOf h50000 ⟨n + 1, hn⟩ y) j := by
  have hz : (⟨n + 1, lt_N5 ⟨n + 1, hn⟩⟩ : Fin cfg5.N).val ≠ 0 := Nat.succ_ne_zero n
  have hc0 := nc0_succ5 n (lt_N5 ⟨n + 1, hn⟩)
  unfold accS5
  by_cases h1 : (n + 1) % 10 = 9
  · have hc1 : cond5_1 (grid5.coords ⟨n + 1, lt_N5 ⟨n + 1, hn⟩⟩) := (hcond5_1 _).mpr h1
    have e := outsAt5_C V c ⟨n + 1, lt_N5 ⟨n + 1, hn⟩⟩ hz h1 hc0 hc1
    rw [show outsAt5 V c (n + 1) (lt_N5 ⟨n + 1, hn⟩) = _ from e]
    dsimp only
    rw [pieceC5_S, Cert.Proof.Pay5.total_apply]
    exact congrArg₂ (· + ·) rfl (Finset.sum_congr rfl fun y _ => tile_q5 V c ⟨n + 1, hn⟩ y j)
  · have hc1 : ¬cond5_1 (grid5.coords ⟨n + 1, lt_N5 ⟨n + 1, hn⟩⟩) := fun h => h1 ((hcond5_1 _).mp h)
    have e := outsAt5_B V c ⟨n + 1, lt_N5 ⟨n + 1, hn⟩⟩ hz h1 hc0 hc1
    rw [show outsAt5 V c (n + 1) (lt_N5 ⟨n + 1, hn⟩) = _ from e]
    dsimp only
    rw [pieceB5_S, Cert.Proof.Pay5.total_apply]
    exact congrArg₂ (· + ·) rfl (Finset.sum_congr rfl fun y _ => tile_q5 V c ⟨n + 1, hn⟩ y j)

theorem accQ5_succ (c : Dev nD) (n : ℕ) (hn : n + 1 < 9 + 1) (j : Fin 128) :
    accQ5 V c (n + 1) (lt_N5 ⟨n + 1, hn⟩) j = accQ5 V c n (lt_N5 ⟨n, Nat.lt_of_succ_lt hn⟩) j + ∑ y : Fin 5000, GQ5 V c (rowOf h50000 ⟨n + 1, hn⟩ y) j * GQ5 V c (rowOf h50000 ⟨n + 1, hn⟩ y) j := by
  have hz : (⟨n + 1, lt_N5 ⟨n + 1, hn⟩⟩ : Fin cfg5.N).val ≠ 0 := Nat.succ_ne_zero n
  have hc0 := nc0_succ5 n (lt_N5 ⟨n + 1, hn⟩)
  unfold accQ5
  by_cases h1 : (n + 1) % 10 = 9
  · have hc1 : cond5_1 (grid5.coords ⟨n + 1, lt_N5 ⟨n + 1, hn⟩⟩) := (hcond5_1 _).mpr h1
    have e := outsAt5_C V c ⟨n + 1, lt_N5 ⟨n + 1, hn⟩⟩ hz h1 hc0 hc1
    rw [show outsAt5 V c (n + 1) (lt_N5 ⟨n + 1, hn⟩) = _ from e]
    dsimp only
    rw [pieceC5_Q, Cert.Proof.Pay5.total_sq_apply]
    exact congrArg₂ (· + ·) rfl (Finset.sum_congr rfl fun y _ => congrArg₂ (· * ·) (tile_q5 V c ⟨n + 1, hn⟩ y j) (tile_q5 V c ⟨n + 1, hn⟩ y j))
  · have hc1 : ¬cond5_1 (grid5.coords ⟨n + 1, lt_N5 ⟨n + 1, hn⟩⟩) := fun h => h1 ((hcond5_1 _).mp h)
    have e := outsAt5_B V c ⟨n + 1, lt_N5 ⟨n + 1, hn⟩⟩ hz h1 hc0 hc1
    rw [show outsAt5 V c (n + 1) (lt_N5 ⟨n + 1, hn⟩) = _ from e]
    dsimp only
    rw [pieceB5_Q, Cert.Proof.Pay5.total_sq_apply]
    exact congrArg₂ (· + ·) rfl (Finset.sum_congr rfl fun y _ => congrArg₂ (· * ·) (tile_q5 V c ⟨n + 1, hn⟩ y j) (tile_q5 V c ⟨n + 1, hn⟩ y j))

theorem totS5 (c : Dev nD) (j : Fin 128) : accS5 V c 9 (lt_N5 9) j = Cert.Spec.colS (GQ5 V c) j :=
  Cert.LibTiledTotals.tiled_total h50000 (GQ5 V c) (fun t j => ∑ y : Fin 5000, GQ5 V c (rowOf h50000 t y) j) (fun _ _ => rfl)
    (fun t j => accS5 V c t.val (lt_N5 t) j) (accS5_zero V c) (fun t j => accS5_succ V c t.val (Nat.succ_lt_succ t.isLt) j) j
theorem totQ5 (c : Dev nD) (j : Fin 128) : accQ5 V c 9 (lt_N5 9) j = Cert.Spec.colQ (GQ5 V c) j :=
  Cert.LibTiledTotals.tiled_total_sq h50000 (GQ5 V c) (fun t j => ∑ y : Fin 5000, GQ5 V c (rowOf h50000 t y) j * GQ5 V c (rowOf h50000 t y) j) (fun _ _ => rfl)
    (fun t j => accQ5 V c t.val (lt_N5 t) j) (accQ5_zero V c) (fun t j => accQ5_succ V c t.val (Nat.succ_lt_succ t.isLt) j) j
theorem totS5' (c : Dev nD) (t : Fin cfg5.N) (h9 : t.val = 9) (j : Fin 128) : accS5 V c t.val t.isLt j = Cert.Spec.colS (GQ5 V c) j := by
  obtain rfl : t = ⟨9, lt_N5 9⟩ := Fin.ext h9
  exact totS5 V c j
theorem totQ5' (c : Dev nD) (t : Fin cfg5.N) (h9 : t.val = 9) (j : Fin 128) : accQ5 V c t.val t.isLt j = Cert.Spec.colQ (GQ5 V c) j := by
  obtain rfl : t = ⟨9, lt_N5 9⟩ := Fin.ext h9
  exact totQ5 V c j

abbrev pS5 (c : Dev nD) (t : Fin cfg5.N) : Vec Ideal S1x128 .f32 := (outsAt5 V c (t.val - 1) (Nat.lt_of_le_of_lt (Nat.sub_le _ _) t.isLt)).2.2.1
abbrev pQ5 (c : Dev nD) (t : Fin cfg5.N) : Vec Ideal S1x128 .f32 := (outsAt5 V c (t.val - 1) (Nat.lt_of_le_of_lt (Nat.sub_le _ _) t.isLt)).2.2.2
abbrev S9_5 (c : Dev nD) (t : Fin cfg5.N) : Vec Ideal S1x128 .f32 := k5_pay8 (iblk5 V c 0 t) (iblk5 V c 1 t) (iblk5 V c 3 t) (iblk5 V c 4 t) (iblk5 V c 2 t) (pS5 V c t)
abbrev Q9_5 (c : Dev nD) (t : Fin cfg5.N) : Vec Ideal S1x128 .f32 := k5_pay1 (pQ5 V c t) (k5_pay9 (iblk5 V c 0 t) (iblk5 V c 1 t) (iblk5 V c 3 t) (iblk5 V c 4 t) (iblk5 V c 2 t))

set_option maxHeartbeats 3200000 in
theorem last5 (c : Dev nD) (t : Fin cfg5.N) (h9 : t.val = 9) :
    outsAt5 V c t.val t.isLt = (k5_pay3 (S9_5 V c t) (Q9_5 V c t) (iblk5 V c 5 t), k5_pay4 (S9_5 V c t) (Q9_5 V c t) (iblk5 V c 5 t) (iblk5 V c 6 t), S9_5 V c t, Q9_5 V c t) := by
  have h9' : t.val % 10 = 9 := by rw [h9]
  have hz : t.val ≠ 0 := by rw [h9]; decide
  have hc0 : ¬cond5_0 (grid5.coords t) := fun h => by have := (hcond5_0 t).mp h; omega
  have hc1 : cond5_1 (grid5.coords t) := (hcond5_1 t).mpr h9'
  refine (outsAt5_C V c t hz h9' hc0 hc1).trans ?_
  rw [(pieceC5_1 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (pS5 V c t) (pQ5 V c t)), (pieceC5_2 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (pS5 V c t) (pQ5 V c t)), (pieceC5_S (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (pS5 V c t) (pQ5 V c t)), (pieceC5_Q (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) hc0 hc1 (iblk5 V c 0 t) (iblk5 V c 1 t) (iblk5 V c 2 t) (iblk5 V c 3 t) (iblk5 V c 4 t) (iblk5 V c 5 t) (iblk5 V c 6 t) (pS5 V c t) (pQ5 V c t))]

theorem scale5_val (c : Dev nD) (t : Fin cfg5.N) (h9 : t.val = 9) (j : Fin 128) :
    ((outsAt5 V c t.val t.isLt).1 : S1x128.Idx → EReal) (r0_5 j) = Cert.Spec.scaleK (GQ5 V c) (in5_5 V c) cW epsW j := by
  have hS : (S9_5 V c t : S1x128.Idx → EReal) (r0_5 j) = Cert.Spec.colS (GQ5 V c) j := by
    rw [← totS5' V c t h9]; unfold accS5; rw [last5 V c t h9]
  have hQ : (Q9_5 V c t : S1x128.Idx → EReal) (r0_5 j) = Cert.Spec.colQ (GQ5 V c) j := by
    rw [← totQ5' V c t h9]; unfold accQ5; rw [last5 V c t h9]
  rw [last5 V c t h9]
  dsimp only
  rw [Cert.Proof.Pay5.scale_apply, hS, hQ, res5_5 V c t j]
  rfl

theorem shift5_val (c : Dev nD) (t : Fin cfg5.N) (h9 : t.val = 9) (j : Fin 128) :
    ((outsAt5 V c t.val t.isLt).2.1 : S1x128.Idx → EReal) (r0_5 j) = Cert.Spec.shiftK (GQ5 V c) (in5_5 V c) (in5_6 V c) cW epsW j := by
  have hS : (S9_5 V c t : S1x128.Idx → EReal) (r0_5 j) = Cert.Spec.colS (GQ5 V c) j := by
    rw [← totS5' V c t h9]; unfold accS5; rw [last5 V c t h9]
  have hsc := scale5_val V c t h9 j
  rw [last5 V c t h9] at hsc
  dsimp only at hsc
  rw [last5 V c t h9]
  dsimp only
  rw [Cert.Proof.Pay5.shift_apply, hsc, hS, res5_6 V c t j]
  rfl

/-- THE REGION'S VALUE: the two result arrays after the region are the batch norm's scale and shift rows. -/
theorem scaleArr5 (c : Dev nD) (j : Fin 128) :
    ((dat5 V c).arrAt 7 cfg5.N : S1x128.Idx → EReal) (r0_5 j) = Cert.Spec.scaleK (GQ5 V c) (in5_5 V c) cW epsW j := by
  rw [final5_7]; unfold G5_7
  exact scale5_val V c tL5 tL5_val j
theorem shiftArr5 (c : Dev nD) (j : Fin 128) :
    ((dat5 V c).arrAt 8 cfg5.N : S1x128.Idx → EReal) (r0_5 j) = Cert.Spec.shiftK (GQ5 V c) (in5_5 V c) (in5_6 V c) cW epsW j := by
  rw [final5_8]; unfold G5_8
  exact shift5_val V c tL5 tL5_val j

end Cert.KernelIdeal.Hand

end
-- ==== Proof.R6Val.lean ====
/-
  Pipeline 6 (a statistics kernel): each case's stores read back as the body's arithmetic. A buffer stored whole
  holds the stored value, and a load of it after the store reads that value: after the first tile the running rows
  are the tile's totals added to the zero rows, after a later tile the totals added to what the tile before left,
  and at the last tile the scale and the shift are computed from the rows as this tile leaves them.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R6B
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2_6 : (![0, 0] : Fin 2 → Nat) = fun _ => 0 := funext fun a => by fin_cases a <;> rfl

theorem pieceA6_S (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond6_0 i) (hc1 : ¬cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    rd6 (F := F) (kernelRun6_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 = k6_pay1 (k6_pay6 (F := F)) (k6_pay9 x0 x1 x3 x4 x2 x5 x6) := by
  unfold rd6
  rw [View.read_writes_eq_canon _ _ _ (scoverA6_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun6_A
  dsimp only
  try sl_unfold_words
  first | rw [View.canon_cons_unit_zero (S := S1x128) hz2_6] | rw [View.canon_unit_zero hz2_6]
  simp only [View.readCov_unit_zero (S := S1x128) _ hz2_6, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_6, View.ld_unit_zero (S := S128x128) hz2_6, View.ld_unit_zero (S := S1x128) hz2_6]

theorem pieceA6_Q (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond6_0 i) (hc1 : ¬cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    rd6 (F := F) (kernelRun6_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 = k6_pay2 (k6_pay8 x0 x1 x3 x4 x2 x5 x6) (k6_pay7 (F := F)) := by
  unfold rd6
  rw [View.read_writes_eq_canon _ _ _ (scoverA6_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun6_A
  dsimp only
  try sl_unfold_words
  first | rw [View.canon_cons_unit_zero (S := S1x128) hz2_6] | rw [View.canon_unit_zero hz2_6]
  simp only [View.readCov_unit_zero (S := S1x128) _ hz2_6, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_6, View.ld_unit_zero (S := S128x128) hz2_6, View.ld_unit_zero (S := S1x128) hz2_6]

theorem pieceB6_S (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : ¬cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd6 (F := F) (kernelRun6_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 = k6_pay1 xs0 (k6_pay9 x0 x1 x3 x4 x2 x5 x6) := by
  unfold rd6
  rw [View.read_writes_eq_canon _ _ _ (scoverB6_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun6_B
  dsimp only
  try sl_unfold_words
  first | rw [View.canon_cons_unit_zero (S := S1x128) hz2_6] | rw [View.canon_unit_zero hz2_6]
  simp only [View.readCov_unit_zero (S := S1x128) _ hz2_6, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_6, View.ld_unit_zero (S := S128x128) hz2_6, View.ld_unit_zero (S := S1x128) hz2_6]

theorem pieceB6_Q (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : ¬cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd6 (F := F) (kernelRun6_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 = k6_pay2 (k6_pay8 x0 x1 x3 x4 x2 x5 x6) xs1 := by
  unfold rd6
  rw [View.read_writes_eq_canon _ _ _ (scoverB6_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun6_B
  dsimp only
  try sl_unfold_words
  first | rw [View.canon_cons_unit_zero (S := S1x128) hz2_6] | rw [View.canon_unit_zero hz2_6]
  simp only [View.readCov_unit_zero (S := S1x128) _ hz2_6, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_6, View.ld_unit_zero (S := S128x128) hz2_6, View.ld_unit_zero (S := S1x128) hz2_6]

theorem pieceC6_S (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd6 (F := F) (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1 = k6_pay1 xs0 (k6_pay9 x0 x1 x3 x4 x2 x5 x6) := by
  unfold rd6
  rw [View.read_writes_eq_canon _ _ _ (scoverC6_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun6_C
  dsimp only
  try sl_unfold_words
  first | rw [View.canon_cons_unit_zero (S := S1x128) hz2_6] | rw [View.canon_unit_zero hz2_6]
  simp only [View.readCov_unit_zero (S := S1x128) _ hz2_6, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_6, View.ld_unit_zero (S := S128x128) hz2_6, View.ld_unit_zero (S := S1x128) hz2_6]

theorem pieceC6_Q (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd6 (F := F) (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1 = k6_pay2 (k6_pay8 x0 x1 x3 x4 x2 x5 x6) xs1 := by
  unfold rd6
  rw [View.read_writes_eq_canon _ _ _ (scoverC6_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun6_C
  dsimp only
  try sl_unfold_words
  first | rw [View.canon_cons_unit_zero (S := S1x128) hz2_6] | rw [View.canon_unit_zero hz2_6]
  simp only [View.readCov_unit_zero (S := S1x128) _ hz2_6, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_6, View.ld_unit_zero (S := S128x128) hz2_6, View.ld_unit_zero (S := S1x128) hz2_6]

theorem pieceC6_1 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd6 (F := F) (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 = k6_pay4 (k6_pay1 xs0 (k6_pay9 x0 x1 x3 x4 x2 x5 x6)) (k6_pay2 (k6_pay8 x0 x1 x3 x4 x2 x5 x6) xs1) x7 := by
  unfold rd6
  rw [View.read_writes_eq_canon _ _ _ (coverC6_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun6_C
  dsimp only
  try sl_unfold_words
  first | rw [View.canon_cons_unit_zero (S := S1x128) hz2_6] | rw [View.canon_unit_zero hz2_6]
  simp only [View.readCov_unit_zero (S := S1x128) _ hz2_6, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_6, View.ld_unit_zero (S := S128x128) hz2_6, View.ld_unit_zero (S := S1x128) hz2_6]

theorem pieceC6_2 (c : Dev nD) (i : grid6.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond6_0 i) (hc1 : cond6_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd6 (F := F) (kernelRun6_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 = k6_pay5 (k6_pay1 xs0 (k6_pay9 x0 x1 x3 x4 x2 x5 x6)) (k6_pay2 (k6_pay8 x0 x1 x3 x4 x2 x5 x6) xs1) x7 x8 := by
  unfold rd6
  rw [View.read_writes_eq_canon _ _ _ (coverC6_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun6_C
  dsimp only
  try sl_unfold_words
  first | rw [View.canon_cons_unit_zero (S := S1x128) hz2_6] | rw [View.canon_unit_zero hz2_6]
  simp only [View.readCov_unit_zero (S := S1x128) _ hz2_6, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_6, View.ld_unit_zero (S := S128x128) hz2_6, View.ld_unit_zero (S := S1x128) hz2_6]

end Cert.KernelIdeal.Hand

end
-- ==== Proof.R6Arr.lean ====
/-
  Pipeline 6: the two result arrays after the region. Each result window is written back once, at the last
  point, and its one block is the whole [1, 128] array; so the array ends holding the row the last point stored.
-/
import proofs.«180905_j29583734735286_1_alg».proof.Proof.R6B
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The last grid point. -/
def tL6 : Fin cfg6.N := ⟨9, lt_of_lt_of_eq (by decide) N_6.symm⟩
theorem tL6_val : tL6.val = 9 := rfl
attribute [irreducible] tL6

theorem idx6_9 : ∀ t : Fin cfg6.N, win6_9.index t 0 = 0 ∧ win6_9.index t 1 = 0 := by
  intro t; rcases fin_N6 t with rfl | rfl | rfl | rfl | rfl | rfl | rfl | rfl | rfl | rfl <;> decide
theorem xsz6_9 : ∀ t : Fin cfg6.N, win6_9.xsize (grid6.coords t) 0 = 1 ∧ win6_9.xsize (grid6.coords t) 1 = 128 := by
  intro t; rcases fin_N6 t with rfl | rfl | rfl | rfl | rfl | rfl | rfl | rfl | rfl | rfl <;> decide +kernel

/-- What the region leaves in its result array: the row stored at the last point. -/
def G6_9 (c : Dev nD) : Buf (Elt F) ((c : Thread nD τ).loc main_v86_0) := (outsAt6 V c tL6.val tL6.isLt).1

theorem flushed6_9 (c : Dev nD) (t : Fin cfg6.N) (hf : (cfg6.win 9).flush t = true) :
    (dat6 V c).flushed 9 t = ((cfg6.win 9).blk t).view.read (Elt F) (G6_9 V c) := by
  have hN : cfg6.N = 10 := N_6
  have h1 : t.val = 9 := by have := (flush6_9 t).mp hf; have := t.isLt; omega
  obtain rfl : t = tL6 := Fin.ext (h1.trans tL6_val.symm)
  show (cfg6.win 9).cut (grid6.coords tL6) ((dat6 V c).after 9 tL6) = _
  rw [after6_9]
  have hz' : (fun a => win6_9.index tL6 a * main_v86_0.ty.shape.size a) = fun _ => 0 := funext fun a => by
    match a with
    | ⟨0, _⟩ => show win6_9.index tL6 0 * _ = 0; rw [(idx6_9 tL6).1, Nat.zero_mul]
    | ⟨1, _⟩ => show win6_9.index tL6 1 * _ = 0; rw [(idx6_9 tL6).2, Nat.zero_mul]
  exact (Memref.read_access_unit_zero (Elt F) main_v86_0 hz' (fun a => by rw [congrFun hz' a]; simp) (G6_9 V c)).symm

theorem final6_9 (c : Dev nD) : (dat6 V c).arrAt 9 cfg6.N = G6_9 V c :=
  (dat6 V c).arrAt_eq_of_cover 9 (G6_9 V c) (flushed6_9 V c) fun i =>
    ⟨tL6, (flush6_9 tL6).mpr (by rw [tL6_val]), by
      show i ∈ ((View.whole main_v86_0).slice (win6_9.rect tL6)).set
      rw [View.set_slice_whole, Rect.mem_set_unit]
      intro a
      have h0 : (i 0 : Nat) < 1 := (i 0).isLt
      have h1 : (i 1 : Nat) < 128 := (i 1).isLt
      match a with
      | ⟨0, _⟩ => show win6_9.index tL6 0 * win6_9.size 0 ≤ (i 0 : Nat) ∧ (i 0 : Nat) < win6_9.index tL6 0 * win6_9.size 0 + win6_9.xsize (grid6.coords tL6) 0
                  rw [(idx6_9 tL6).1, (xsz6_9 tL6).1]; omega
      | ⟨1, _⟩ => show win6_9.index tL6 1 * win6_9.size 1 ≤ (i 1 : Nat) ∧ (i 1 : Nat) < win6_9.index tL6 1 * win6_9.size 1 + win6_9.xsize (grid6.coords tL6) 1
                  rw [(idx6_9 tL6).2, (xsz6_9 tL6).2]; omega⟩

theorem idx6_10 : ∀ t : Fin cfg6.N, win6_10.index t 0 = 0 ∧ win6_10.index t 1 = 0 := by
  intro t; rcases fin_N6 t with rfl | rfl | rfl | rfl | rfl | rfl | rfl | rfl | rfl | rfl <;> decide
theorem xsz6_10 : ∀ t : Fin cfg6.N, win6_10.xsize (grid6.coords t) 0 = 1 ∧ win6_10.xsize (grid6.coords t) 1 = 128 := by
  intro t; rcases fin_N6 t with rfl | rfl | rfl | rfl | rfl | rfl | rfl | rfl | rfl | rfl <;> decide +kernel

/-- What the region leaves in its result array: the row stored at the last point. -/
def G6_10 (c : Dev nD) : Buf (Elt F) ((c : Thread nD τ).loc main_v86_1) := (outsAt6 V c tL6.val tL6.isLt).2.1

theorem flushed6_10 (c : Dev nD) (t : Fin cfg6.N) (hf : (cfg6.win 10).flush t = true) :
    (dat6 V c).flushed 10 t = ((cfg6.win 10).blk t).view.read (Elt F) (G6_10 V c) := by
  have hN : cfg6.N = 10 := N_6
  have h1 : t.val = 9 := by have := (flush6_10 t).mp hf; have := t.isLt; omega
  obtain rfl : t = tL6 := Fin.ext (h1.trans tL6_val.symm)
  show (cfg6.win 10).cut (grid6.coords tL6) ((dat6 V c).after 10 tL6) = _
  rw [after6_10]
  have hz' : (fun a => win6_10.index tL6 a * main_v86_1.ty.shape.size a) = fun _ => 0 := funext fun a => by
    match a with
    | ⟨0, _⟩ => show win6_10.index tL6 0 * _ = 0; rw [(idx6_10 tL6).1, Nat.zero_mul]
    | ⟨1, _⟩ => show win6_10.index tL6 1 * _ = 0; rw [(idx6_10 tL6).2, Nat.zero_mul]
  exact (Memref.read_access_unit_zero (Elt F) main_v86_1 hz' (fun a => by rw [congrFun hz' a]; simp) (G6_10 V c)).symm

theorem final6_10 (c : Dev nD) : (dat6 V c).arrAt 10 cfg6.N = G6_10 V c :=
  (dat6 V c).arrAt_eq_of_cover 10 (G6_10 V c) (flushed6_10 V c) fun i =>
    ⟨tL6, (flush6_10 tL6).mpr (by rw [tL6_val]), by
      show i ∈ ((View.whole main_v86_1).slice (win6_10.rect tL6)).set
      rw [View.set_slice_whole, Rect.mem_set_unit]
      intro a
      have h0 : (i 0 : Nat) < 1 := (i 0).isLt
      have h1 : (i 1 : Nat) < 128 := (i 1).isLt
      match a with
      | ⟨0, _⟩ => show win6_10.index tL6 0 * win6_10.size 0 ≤ (i 0 : Nat) ∧ (i 0 : Nat) < win6_10.index tL6 0 * win6_10.size 0 + win6_10.xsize (grid6.coords tL6) 0
                  rw [(idx6_10 tL6).1, (xsz6_10 tL6).1]; omega
      | ⟨1, _⟩ => show win6_10.index tL6 1 * win6_10.size 1 ≤ (i 1 : Nat) ∧ (i 1 : Nat) < win6_10.index tL6 1 * win6_10.size 1 + win6_10.xsize (grid6.coords tL6) 1
                  rw [(idx6_10 tL6).2, (xsz6_10 tL6).2]; omega⟩

end Cert.KernelIdeal.Hand

end
-- ==== Proof.Pay6.lean ====
/-
  The payloads of pipeline 6's body (a statistics kernel) at the ideal values, read at an index: the tile
  quantity whose column statistics the kernel takes, the two running rows after a tile, the zero rows of the reset,
  and the mean, scale and shift the last point computes. A change of float format is the identity on the extended
  reals, a matrix product into a zero accumulator is the row-by-column sum, a lane reduction is a finite sum.
-/
import proofs.«180905_j29583734735286_1_alg».proof.Proof.Gen.KernelIdeal.Skeleton
import Idealize.ShloMosaic.Lib.ValueIdx
import Idealize.ShloMosaic.Lib.Pipeline.Value
import Idealize.ShloMosaic.PureOps.Ideal.Laws
import proofs.«180905_j29583734735286_1_alg».proof.Proof.LibDense
import proofs.«180905_j29583734735286_1_alg».proof.Proof.LibAxisSum
import proofs.«180905_j29583734735286_1_alg».proof.Proof.LibBiasRows

noncomputable section

namespace Cert.Proof.Pay6

open Idealize.ShloMosaic Idealize.ShloMosaic.ValueIdx Cert.KernelIdeal Cert.KernelIdeal.Gen
open scoped BigOperators

abbrev r0 (j : Fin 128) : S1x128.Idx := ix2 ⟨0, Nat.one_pos⟩ j
abbrev zW : EReal := Ideal.ofBits .f32 0x00000000#32

theorem inv_n : Named.named (F := Ideal) Cert.KernelIdeal.κ "inv_50000" (φ := .f32) 0x37A7C5AC#32
    = ((1 / 50000 : ℝ) : EReal) :=
  IdealRules.named_const.ideal_named_scalar _ _ _ _ rfl

/-- The tile quantity. -/
abbrev q (x0 : FVec Ideal S5000x128 .f32) (x1 : FVec Ideal S128x128 .bf16) (x2 : FVec Ideal S128x128 .bf16) (x3 : FVec Ideal S1x128 .f32) (x4 : FVec Ideal S1x128 .f32) (x5 : FVec Ideal S1x128 .f32) (x6 : FVec Ideal S1x128 .f32) : FVec Ideal S5000x128 .f32 := k6_pay8 x0 x1 x3 x4 x2 x5 x6

theorem q_apply (x0 : FVec Ideal S5000x128 .f32) (x1 : FVec Ideal S128x128 .bf16) (x2 : FVec Ideal S128x128 .bf16) (x3 : FVec Ideal S1x128 .f32) (x4 : FVec Ideal S1x128 .f32) (x5 : FVec Ideal S1x128 .f32) (x6 : FVec Ideal S1x128 .f32) (y : Fin 5000) (j : Fin 128) :
    q x0 x1 x2 x3 x4 x5 x6 (ix2 y j) = max ((∑ k : Fin 128, max ((∑ k' : Fin 128, x0 (ix2 y k') * x1 (ix2 k' k)) * x3 (r0 k) + x4 (r0 k)) zW * x2 (ix2 k j)) * x5 (r0 j) + x6 (r0 j)) zW := by
  unfold q k6_pay8
  simp only [shapeCast_self]
  show max (FloatOps.matmul (DotDims.plain 5000 128 128) none _ x2 (constant (F := Ideal) S5000x128 .f32 0x00000000#32) (ix2 y j)
      * broadcastTo S5000x128 x5 broadcasts_S1x128_S5000x128 (ix2 y j)
      + broadcastTo S5000x128 x6 broadcasts_S1x128_S5000x128 (ix2 y j)) zW = _
  rw [Cert.LibBiasRows.row_broadcast (n := 5000) (d := 128) x5, Cert.LibBiasRows.row_broadcast (n := 5000) (d := 128) x6]
  refine congrArg (fun z => max (z * x5 (r0 j) + x6 (r0 j)) zW) ?_
  refine (Cert.LibDense.matmul_plain (M := 5000) (K := 128) (N := 128) (φ₁ := .bf16) (φ₂ := .bf16) _ x2 (ix2 y j)).trans ?_
  refine Finset.sum_congr rfl fun k _ => congrArg (fun z => z * x2 (ix2 k j)) ?_
  show max (FloatOps.matmul (DotDims.plain 5000 128 128) none _ x1 (constant (F := Ideal) S5000x128 .f32 0x00000000#32) (ix2 y k)
      * broadcastTo S5000x128 x3 broadcasts_S1x128_S5000x128 (ix2 y k)
      + broadcastTo S5000x128 x4 broadcasts_S1x128_S5000x128 (ix2 y k)) zW = _
  rw [Cert.LibBiasRows.row_broadcast (n := 5000) (d := 128) x3, Cert.LibBiasRows.row_broadcast (n := 5000) (d := 128) x4, Cert.LibDense.matmul_plain (M := 5000) (K := 128) (N := 128)]
  rfl

theorem total_apply (x0 : FVec Ideal S5000x128 .f32) (x1 : FVec Ideal S128x128 .bf16) (x2 : FVec Ideal S128x128 .bf16) (x3 : FVec Ideal S1x128 .f32) (x4 : FVec Ideal S1x128 .f32) (x5 : FVec Ideal S1x128 .f32) (x6 : FVec Ideal S1x128 .f32) (old : FVec Ideal S1x128 .f32) (j : Fin 128) :
    (k6_pay1 old (k6_pay9 x0 x1 x3 x4 x2 x5 x6) : FVec Ideal S1x128 .f32) (r0 j) = old (r0 j) + ∑ y : Fin 5000, q x0 x1 x2 x3 x4 x5 x6 (ix2 y j) := by
  unfold k6_pay1 k6_pay9
  simp only [shapeCast_self]
  refine congrArg (fun z => old (r0 j) + z) ?_
  refine (Cert.LibBiasRows.row_of_vector _ _ j).trans ?_
  exact Cert.LibAxisSum.sum_first (n := 5000) (d := 128) _ _ _ _ _ j

theorem total_sq_apply (x0 : FVec Ideal S5000x128 .f32) (x1 : FVec Ideal S128x128 .bf16) (x2 : FVec Ideal S128x128 .bf16) (x3 : FVec Ideal S1x128 .f32) (x4 : FVec Ideal S1x128 .f32) (x5 : FVec Ideal S1x128 .f32) (x6 : FVec Ideal S1x128 .f32) (old : FVec Ideal S1x128 .f32) (j : Fin 128) :
    (k6_pay2 (k6_pay8 x0 x1 x3 x4 x2 x5 x6) old : FVec Ideal S1x128 .f32) (r0 j) = old (r0 j) + ∑ y : Fin 5000, q x0 x1 x2 x3 x4 x5 x6 (ix2 y j) * q x0 x1 x2 x3 x4 x5 x6 (ix2 y j) := by
  unfold k6_pay2
  simp only [shapeCast_self]
  refine congrArg (fun z => old (r0 j) + z) ?_
  refine (Cert.LibBiasRows.row_of_vector _ _ j).trans ?_
  exact Cert.LibAxisSum.sum_first (n := 5000) (d := 128) _ _ _ _ _ j

theorem zeroS (j : Fin 128) : (k6_pay6 (F := Ideal) : S1x128.Idx → EReal) (r0 j) = 0 := by
  unfold k6_pay6; rw [shapeCast_self]; exact Ideal.ofBits_zero_f32
theorem zeroQ (j : Fin 128) : (k6_pay7 (F := Ideal) : S1x128.Idx → EReal) (r0 j) = 0 := by
  unfold k6_pay7; rw [shapeCast_self]; exact Ideal.ofBits_zero_f32

theorem mean_apply (v27 : FVec Ideal S1x128 .f32) (j : Fin 128) :
    k6_pay3 (F := Ideal) v27 (r0 j) = v27 (r0 j) * ((1 / 50000 : ℝ) : EReal) := by
  unfold k6_pay3
  exact congrArg (fun z => v27 (r0 j) * z) inv_n

theorem scale_apply (v27 v30 v35 : FVec Ideal S1x128 .f32) (j : Fin 128) :
    k6_pay4 (F := Ideal) v27 v30 v35 (r0 j)
      = v35 (r0 j) * Ideal.rsqrt (v30 (r0 j) * ((1 / 50000 : ℝ) : EReal)
          - v27 (r0 j) * ((1 / 50000 : ℝ) : EReal) * (v27 (r0 j) * ((1 / 50000 : ℝ) : EReal))
          + Ideal.ofBits .f32 0x3727C5AC#32) := by
  unfold k6_pay4
  rw [shapeCast_self]
  show v35 (r0 j) * Ideal.rsqrt (v30 (r0 j) * Named.named (F := Ideal) Cert.KernelIdeal.κ "inv_50000" (φ := .f32) 0x37A7C5AC#32
      - k6_pay3 (F := Ideal) v27 (r0 j) * k6_pay3 (F := Ideal) v27 (r0 j) + Ideal.ofBits .f32 0x3727C5AC#32) = _
  rw [mean_apply, inv_n]

theorem shift_apply (v27 v30 v35 v41 : FVec Ideal S1x128 .f32) (j : Fin 128) :
    k6_pay5 (F := Ideal) v27 v30 v35 v41 (r0 j)
      = v41 (r0 j) - v27 (r0 j) * ((1 / 50000 : ℝ) : EReal) * k6_pay4 (F := Ideal) v27 v30 v35 (r0 j) := by
  unfold k6_pay5
  rw [shapeCast_self]
  show v41 (r0 j) - k6_pay3 (F := Ideal) v27 (r0 j) * k6_pay4 (F := Ideal) v27 v30 v35 (r0 j) = _
  rw [mean_apply]

end Cert.Proof.Pay6

end
-- ==== Proof.R6Sum.lean ====
/-
  Pipeline 6 (a statistics kernel), at the ideal values: what the region leaves in its two result arrays.
  The tile of x a point holds is rows 5000·t … 5000·t + 4999 of x; every other input block is its whole array at
  every point. The quantity whose statistics the kernel takes reads one row of x, so on a tile it is the whole
  array's quantity at the tile's rows; the running rows therefore end at its column totals over all 50000 rows
  (a running total over the ten tiles), and the stored scale and shift are the batch-norm formulas of those totals.
  Each result array is written back once, at the last point, whole.
-/
import proofs.«180905_j29583734735286_1_alg».proof.Proof.R6Val
import proofs.«180905_j29583734735286_1_alg».proof.Proof.R6Arr
import proofs.«180905_j29583734735286_1_alg».proof.Proof.Pay6
import proofs.«180905_j29583734735286_1_alg».proof.Proof.LibTiledTotals
import proofs.«180905_j29583734735286_1_alg».proof.Proof.Spec
import proofs.«180905_j29583734735286_1_alg».proof.Proof.ValCommon
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibBatchNorm (rowOf)
open scoped BigOperators

variable (V : (c : Dev nD) → (b : Ref sig .tc) → Buf (Elt Ideal) ((c : Thread nD τ).loc b))

abbrev r0_6 (j : Fin 128) : S1x128.Idx := ix2 ⟨0, Nat.one_pos⟩ j
theorem lt_N6 (t : Fin (9 + 1)) : t.val < cfg6.N := lt_of_lt_of_eq t.isLt N_6.symm

def in6_0 (c : Dev nD) (r : Fin 50000) (k : Fin 128) : EReal := (V c main_v59 : S50000x128.Idx → EReal) (ix2 r k)
theorem idx6_0 : ∀ t : Fin cfg6.N, win6_0.index t 0 = t.val ∧ win6_0.index t 1 = 0 := by
  intro t; rcases fin_N6 t with rfl | rfl | rfl | rfl | rfl | rfl | rfl | rfl | rfl | rfl <;> decide
theorem tile6_0 (c : Dev nD) (t : Fin cfg6.N) (y : Fin 5000) (k : Fin 128) (R : Fin 50000) (hR : R.val = t.val * 5000 + y.val) :
    (iblk6 V c 0 t : Vec Ideal S5000x128 .f32) (ix2 y k) = in6_0 V c R k := by
  unfold iblk6 in6_0
  rw [View.read_apply]
  show (V c main_v59 : S50000x128.Idx → EReal) _ = (V c main_v59 : S50000x128.Idx → EReal) _
  congr 1
  funext a
  apply Fin.ext
  match a with
  | ⟨0, _⟩ => show win6_0.index t 0 * 5000 + 1 * y.val = R.val; rw [(idx6_0 t).1, hR]; omega
  | ⟨1, _⟩ => show win6_0.index t 1 * 128 + 1 * k.val = k.val; rw [(idx6_0 t).2]; omega
theorem blk6_0 (c : Dev nD) (t : Fin (9 + 1)) (y : Fin 5000) (k : Fin 128) :
    (iblk6 V c 0 ⟨t.val, lt_N6 t⟩ : FVec Ideal S5000x128 .f32) (ix2 y k) = in6_0 V c (rowOf h50000 t y) k :=
  tile6_0 V c ⟨t.val, lt_N6 t⟩ y k (rowOf h50000 t y) rfl

def in6_1 (c : Dev nD) (k j : Fin 128) : EReal := (V c main_v62 : S128x128.Idx → EReal) (ix2 k j)
theorem idx6_1 : ∀ t : Fin cfg6.N, win6_1.index t 0 = 0 ∧ win6_1.index t 1 = 0 := by
  intro t; rcases fin_N6 t with rfl | rfl | rfl | rfl | rfl | rfl | rfl | rfl | rfl | rfl <;> decide
theorem res6_1 (c : Dev nD) (t : Fin cfg6.N) (k j : Fin 128) :
    (iblk6 V c 1 t : Vec Ideal S128x128 .bf16) (ix2 k j) = in6_1 V c k j := by
  unfold iblk6 in6_1
  rw [View.read_apply]
  show (V c main_v62 : S128x128.Idx → EReal) _ = (V c main_v62 : S128x128.Idx → EReal) _
  congr 1
  funext a
  apply Fin.ext
  match a with
  | ⟨0, _⟩ => show win6_1.index t 0 * 128 + 1 * k.val = k.val; rw [(idx6_1 t).1]; omega
  | ⟨1, _⟩ => show win6_1.index t 1 * 128 + 1 * j.val = j.val; rw [(idx6_1 t).2]; omega
theorem blk6_1 (c : Dev nD) (t : Fin (9 + 1)) (k j : Fin 128) :
    (iblk6 V c 1 ⟨t.val, lt_N6 t⟩ : FVec Ideal S128x128 .bf16) (ix2 k j) = in6_1 V c k j :=
  res6_1 V c ⟨t.val, lt_N6 t⟩ k j

def in6_2 (c : Dev nD) (k j : Fin 128) : EReal := (V c main_v65 : S128x128.Idx → EReal) (ix2 k j)
theorem idx6_2 : ∀ t : Fin cfg6.N, win6_2.index t 0 = 0 ∧ win6_2.index t 1 = 0 := by
  intro t; rcases fin_N6 t with rfl | rfl | rfl | rfl | rfl | rfl | rfl | rfl | rfl | rfl <;> decide
theorem res6_2 (c : Dev nD) (t : Fin cfg6.N) (k j : Fin 128) :
    (iblk6 V c 2 t : Vec Ideal S128x128 .bf16) (ix2 k j) = in6_2 V c k j := by
  unfold iblk6 in6_2
  rw [View.read_apply]
  show (V c main_v65 : S128x128.Idx → EReal) _ = (V c main_v65 : S128x128.Idx → EReal) _
  congr 1
  funext a
  apply Fin.ext
  match a with
  | ⟨0, _⟩ => show win6_2.index t 0 * 128 + 1 * k.val = k.val; rw [(idx6_2 t).1]; omega
  | ⟨1, _⟩ => show win6_2.index t 1 * 128 + 1 * j.val = j.val; rw [(idx6_2 t).2]; omega
theorem blk6_2 (c : Dev nD) (t : Fin (9 + 1)) (k j : Fin 128) :
    (iblk6 V c 2 ⟨t.val, lt_N6 t⟩ : FVec Ideal S128x128 .bf16) (ix2 k j) = in6_2 V c k j :=
  res6_2 V c ⟨t.val, lt_N6 t⟩ k j

def in6_3 (c : Dev nD) (j : Fin 128) : EReal := (V c main_v84_0 : S1x128.Idx → EReal) (ix2 ⟨0, Nat.one_pos⟩ j)
theorem idx6_3 : ∀ t : Fin cfg6.N, win6_3.index t 0 = 0 ∧ win6_3.index t 1 = 0 := by
  intro t; rcases fin_N6 t with rfl | rfl | rfl | rfl | rfl | rfl | rfl | rfl | rfl | rfl <;> decide
theorem res6_3 (c : Dev nD) (t : Fin cfg6.N) (j : Fin 128) :
    (iblk6 V c 3 t : Vec Ideal S1x128 .f32) (ix2 ⟨0, Nat.one_pos⟩ j) = in6_3 V c j := by
  unfold iblk6 in6_3
  rw [View.read_apply]
  show (V c main_v84_0 : S1x128.Idx → EReal) _ = (V c main_v84_0 : S1x128.Idx → EReal) _
  congr 1
  funext a
  apply Fin.ext
  match a with
  | ⟨0, _⟩ => show win6_3.index t 0 * 1 + 1 * 0 = 0; rw [(idx6_3 t).1]
  | ⟨1, _⟩ => show win6_3.index t 1 * 128 + 1 * j.val = j.val; rw [(idx6_3 t).2]; omega
theorem blk6_3 (c : Dev nD) (t : Fin (9 + 1)) (j : Fin 128) :
    (iblk6 V c 3 ⟨t.val, lt_N6 t⟩ : FVec Ideal S1x128 .f32) (ix2 ⟨0, Nat.one_pos⟩ j) = in6_3 V c j :=
  res6_3 V c ⟨t.val, lt_N6 t⟩ j

def in6_4 (c : Dev nD) (j : Fin 128) : EReal := (V c main_v84_1 : S1x128.Idx → EReal) (ix2 ⟨0, Nat.one_pos⟩ j)
theorem idx6_4 : ∀ t : Fin cfg6.N, win6_4.index t 0 = 0 ∧ win6_4.index t 1 = 0 := by
  intro t; rcases fin_N6 t with rfl | rfl | rfl | rfl | rfl | rfl | rfl | rfl | rfl | rfl <;> decide
theorem res6_4 (c : Dev nD) (t : Fin cfg6.N) (j : Fin 128) :
    (iblk6 V c 4 t : Vec Ideal S1x128 .f32) (ix2 ⟨0, Nat.one_pos⟩ j) = in6_4 V c j := by
  unfold iblk6 in6_4
  rw [View.read_apply]
  show (V c main_v84_1 : S1x128.Idx → EReal) _ = (V c main_v84_1 : S1x128.Idx → EReal) _
  congr 1
  funext a
  apply Fin.ext
  match a with
  | ⟨0, _⟩ => show win6_4.index t 0 * 1 + 1 * 0 = 0; rw [(idx6_4 t).1]
  | ⟨1, _⟩ => show win6_4.index t 1 * 128 + 1 * j.val = j.val; rw [(idx6_4 t).2]; omega
theorem blk6_4 (c : Dev nD) (t : Fin (9 + 1)) (j : Fin 128) :
    (iblk6 V c 4 ⟨t.val, lt_N6 t⟩ : FVec Ideal S1x128 .f32) (ix2 ⟨0, Nat.one_pos⟩ j) = in6_4 V c j :=
  res6_4 V c ⟨t.val, lt_N6 t⟩ j

def in6_5 (c : Dev nD) (j : Fin 128) : EReal := (V c main_v85_0 : S1x128.Idx → EReal) (ix2 ⟨0, Nat.one_pos⟩ j)
theorem idx6_5 : ∀ t : Fin cfg6.N, win6_5.index t 0 = 0 ∧ win6_5.index t 1 = 0 := by
  intro t; rcases fin_N6 t with rfl | rfl | rfl | rfl | rfl | rfl | rfl | rfl | rfl | rfl <;> decide
theorem res6_5 (c : Dev nD) (t : Fin cfg6.N) (j : Fin 128) :
    (iblk6 V c 5 t : Vec Ideal S1x128 .f32) (ix2 ⟨0, Nat.one_pos⟩ j) = in6_5 V c j := by
  unfold iblk6 in6_5
  rw [View.read_apply]
  show (V c main_v85_0 : S1x128.Idx → EReal) _ = (V c main_v85_0 : S1x128.Idx → EReal) _
  congr 1
  funext a
  apply Fin.ext
  match a with
  | ⟨0, _⟩ => show win6_5.index t 0 * 1 + 1 * 0 = 0; rw [(idx6_5 t).1]
  | ⟨1, _⟩ => show win6_5.index t 1 * 128 + 1 * j.val = j.val; rw [(idx6_5 t).2]; omega
theorem blk6_5 (c : Dev nD) (t : Fin (9 + 1)) (j : Fin 128) :
    (iblk6 V c 5 ⟨t.val, lt_N6 t⟩ : FVec Ideal S1x128 .f32) (ix2 ⟨0, Nat.one_pos⟩ j) = in6_5 V c j :=
  res6_5 V c ⟨t.val, lt_N6 t⟩ j

def in6_6 (c : Dev nD) (j : Fin 128) : EReal := (V c main_v85_1 : S1x128.Idx → EReal) (ix2 ⟨0, Nat.one_pos⟩ j)
theorem idx6_6 : ∀ t : Fin cfg6.N, win6_6.index t 0 = 0 ∧ win6_6.index t 1 = 0 := by
  intro t; rcases fin_N6 t with rfl | rfl | rfl | rfl | rfl | rfl | rfl | rfl | rfl | rfl <;> decide
theorem res6_6 (c : Dev nD) (t : Fin cfg6.N) (j : Fin 128) :
    (iblk6 V c 6 t : Vec Ideal S1x128 .f32) (ix2 ⟨0, Nat.one_pos⟩ j) = in6_6 V c j := by
  unfold iblk6 in6_6
  rw [View.read_apply]
  show (V c main_v85_1 : S1x128.Idx → EReal) _ = (V c main_v85_1 : S1x128.Idx → EReal) _
  congr 1
  funext a
  apply Fin.ext
  match a with
  | ⟨0, _⟩ => show win6_6.index t 0 * 1 + 1 * 0 = 0; rw [(idx6_6 t).1]
  | ⟨1, _⟩ => show win6_6.index t 1 * 128 + 1 * j.val = j.val; rw [(idx6_6 t).2]; omega
theorem blk6_6 (c : Dev nD) (t : Fin (9 + 1)) (j : Fin 128) :
    (iblk6 V c 6 ⟨t.val, lt_N6 t⟩ : FVec Ideal S1x128 .f32) (ix2 ⟨0, Nat.one_pos⟩ j) = in6_6 V c j :=
  res6_6 V c ⟨t.val, lt_N6 t⟩ j

def in6_7 (c : Dev nD) (j : Fin 128) : EReal := (V c main_v80 : S1x128.Idx → EReal) (ix2 ⟨0, Nat.one_pos⟩ j)
theorem idx6_7 : ∀ t : Fin cfg6.N, win6_7.index t 0 = 0 ∧ win6_7.index t 1 = 0 := by
  intro t; rcases fin_N6 t with rfl | rfl | rfl | rfl | rfl | rfl | rfl | rfl | rfl | rfl <;> decide
theorem res6_7 (c : Dev nD) (t : Fin cfg6.N) (j : Fin 128) :
    (iblk6 V c 7 t : Vec Ideal S1x128 .f32) (ix2 ⟨0, Nat.one_pos⟩ j) = in6_7 V c j := by
  unfold iblk6 in6_7
  rw [View.read_apply]
  show (V c main_v80 : S1x128.Idx → EReal) _ = (V c main_v80 : S1x128.Idx → EReal) _
  congr 1
  funext a
  apply Fin.ext
  match a with
  | ⟨0, _⟩ => show win6_7.index t 0 * 1 + 1 * 0 = 0; rw [(idx6_7 t).1]
  | ⟨1, _⟩ => show win6_7.index t 1 * 128 + 1 * j.val = j.val; rw [(idx6_7 t).2]; omega
theorem blk6_7 (c : Dev nD) (t : Fin (9 + 1)) (j : Fin 128) :
    (iblk6 V c 7 ⟨t.val, lt_N6 t⟩ : FVec Ideal S1x128 .f32) (ix2 ⟨0, Nat.one_pos⟩ j) = in6_7 V c j :=
  res6_7 V c ⟨t.val, lt_N6 t⟩ j

def in6_8 (c : Dev nD) (j : Fin 128) : EReal := (V c main_v83 : S1x128.Idx → EReal) (ix2 ⟨0, Nat.one_pos⟩ j)
theorem idx6_8 : ∀ t : Fin cfg6.N, win6_8.index t 0 = 0 ∧ win6_8.index t 1 = 0 := by
  intro t; rcases fin_N6 t with rfl | rfl | rfl | rfl | rfl | rfl | rfl | rfl | rfl | rfl <;> decide
theorem res6_8 (c : Dev nD) (t : Fin cfg6.N) (j : Fin 128) :
    (iblk6 V c 8 t : Vec Ideal S1x128 .f32) (ix2 ⟨0, Nat.one_pos⟩ j) = in6_8 V c j := by
  unfold iblk6 in6_8
  rw [View.read_apply]
  show (V c main_v83 : S1x128.Idx → EReal) _ = (V c main_v83 : S1x128.Idx → EReal) _
  congr 1
  funext a
  apply Fin.ext
  match a with
  | ⟨0, _⟩ => show win6_8.index t 0 * 1 + 1 * 0 = 0; rw [(idx6_8 t).1]
  | ⟨1, _⟩ => show win6_8.index t 1 * 128 + 1 * j.val = j.val; rw [(idx6_8 t).2]; omega
theorem blk6_8 (c : Dev nD) (t : Fin (9 + 1)) (j : Fin 128) :
    (iblk6 V c 8 ⟨t.val, lt_N6 t⟩ : FVec Ideal S1x128 .f32) (ix2 ⟨0, Nat.one_pos⟩ j) = in6_8 V c j :=
  res6_8 V c ⟨t.val, lt_N6 t⟩ j

/-- The quantity whose column statistics this kernel takes, over all rows. -/
abbrev GQ6 (c : Dev nD) : Fin 50000 → Fin 128 → EReal := Cert.Spec.relu zW (Cert.Spec.aff (Cert.Spec.lin (Cert.Spec.relu zW (Cert.Spec.aff (Cert.Spec.lin (in6_0 V c) (in6_1 V c)) (in6_3 V c) (in6_4 V c))) (in6_2 V c)) (in6_5 V c) (in6_6 V c))

theorem tile_q6 (c : Dev nD) (t : Fin (9 + 1)) (y : Fin 5000) (j : Fin 128) :
    Cert.Proof.Pay6.q (iblk6 V c 0 ⟨t.val, lt_N6 t⟩) (iblk6 V c 1 ⟨t.val, lt_N6 t⟩) (iblk6 V c 2 ⟨t.val, lt_N6 t⟩) (iblk6 V c 3 ⟨t.val, lt_N6 t⟩) (iblk6 V c 4 ⟨t.val, lt_N6 t⟩) (iblk6 V c 5 ⟨t.val, lt_N6 t⟩) (iblk6 V c 6 ⟨t.val, lt_N6 t⟩) (ix2 y j) = GQ6 V c (rowOf h50000 t y) j := by
  rw [Cert.Proof.Pay6.q_apply]
  simp only [blk6_0 V c t, blk6_1 V c t, blk6_2 V c t, blk6_3 V c t, blk6_4 V c t, blk6_5 V c t, blk6_6 V c t, Cert.Spec.lin, Cert.Spec.relu, Cert.Spec.aff]

def accS6 (c : Dev nD) (n : ℕ) (hn : n < cfg6.N) (j : Fin 128) : EReal := ((outsAt6 V c n hn).2.2.1 : S1x128.Idx → EReal) (r0_6 j)
def accQ6 (c : Dev nD) (n : ℕ) (hn : n < cfg6.N) (j : Fin 128) : EReal := ((outsAt6 V c n hn).2.2.2 : S1x128.Idx → EReal) (r0_6 j)

theorem accS6_zero (c : Dev nD) (j : Fin 128) : accS6 V c 0 (lt_N6 0) j = 0 + ∑ y : Fin 5000, GQ6 V c (rowOf h50000 0 y) j := by
  have e := outsAt6_A V c ⟨0, lt_N6 0⟩ rfl (c0_zero6 _) (nc1_zero6 _)
  unfold accS6
  rw [show outsAt6 V c 0 (lt_N6 0) = _ from e]
  dsimp only
  rw [pieceA6_S, Cert.Proof.Pay6.total_apply, Cert.Proof.Pay6.zeroS]
  exact congrArg (fun z => (0 : EReal) + z) (Finset.sum_congr rfl fun y _ => tile_q6 V c 0 y j)

theorem accQ6_zero (c : Dev nD) (j : Fin 128) : accQ6 V c 0 (lt_N6 0) j = 0 + ∑ y : Fin 5000, GQ6 V c (rowOf h50000 0 y) j * GQ6 V c (rowOf h50000 0 y) j := by
  have e := outsAt6_A V c ⟨0, lt_N6 0⟩ rfl (c0_zero6 _) (nc1_zero6 _)
  unfold accQ6
  rw [show outsAt6 V c 0 (lt_N6 0) = _ from e]
  dsimp only
  rw [pieceA6_Q, Cert.Proof.Pay6.total_sq_apply, Cert.Proof.Pay6.zeroQ]
  exact congrArg (fun z => (0 : EReal) + z) (Finset.sum_congr rfl fun y _ => congrArg₂ (· * ·) (tile_q6 V c 0 y j) (tile_q6 V c 0 y j))

theorem accS6_succ (c : Dev nD) (n : ℕ) (hn : n + 1 < 9 + 1) (j : Fin 128) :
    accS6 V c (n + 1) (lt_N6 ⟨n + 1, hn⟩) j = accS6 V c n (lt_N6 ⟨n, Nat.lt_of_succ_lt hn⟩) j + ∑ y : Fin 5000, GQ6 V c (rowOf h50000 ⟨n + 1, hn⟩ y) j := by
  have hz : (⟨n + 1, lt_N6 ⟨n + 1, hn⟩⟩ : Fin cfg6.N).val ≠ 0 := Nat.succ_ne_zero n
  have hc0 := nc0_succ6 n (lt_N6 ⟨n + 1, hn⟩)
  unfold accS6
  by_cases h1 : (n + 1) % 10 = 9
  · have hc1 : cond6_1 (grid6.coords ⟨n + 1, lt_N6 ⟨n + 1, hn⟩⟩) := (hcond6_1 _).mpr h1
    have e := outsAt6_C V c ⟨n + 1, lt_N6 ⟨n + 1, hn⟩⟩ hz h1 hc0 hc1
    rw [show outsAt6 V c (n + 1) (lt_N6 ⟨n + 1, hn⟩) = _ from e]
    dsimp only
    rw [pieceC6_S, Cert.Proof.Pay6.total_apply]
    exact congrArg₂ (· + ·) rfl (Finset.sum_congr rfl fun y _ => tile_q6 V c ⟨n + 1, hn⟩ y j)
  · have hc1 : ¬cond6_1 (grid6.coords ⟨n + 1, lt_N6 ⟨n + 1, hn⟩⟩) := fun h => h1 ((hcond6_1 _).mp h)
    have e := outsAt6_B V c ⟨n + 1, lt_N6 ⟨n + 1, hn⟩⟩ hz h1 hc0 hc1
    rw [show outsAt6 V c (n + 1) (lt_N6 ⟨n + 1, hn⟩) = _ from e]
    dsimp only
    rw [pieceB6_S, Cert.Proof.Pay6.total_apply]
    exact congrArg₂ (· + ·) rfl (Finset.sum_congr rfl fun y _ => tile_q6 V c ⟨n + 1, hn⟩ y j)

theorem accQ6_succ (c : Dev nD) (n : ℕ) (hn : n + 1 < 9 + 1) (j : Fin 128) :
    accQ6 V c (n + 1) (lt_N6 ⟨n + 1, hn⟩) j = accQ6 V c n (lt_N6 ⟨n, Nat.lt_of_succ_lt hn⟩) j + ∑ y : Fin 5000, GQ6 V c (rowOf h50000 ⟨n + 1, hn⟩ y) j * GQ6 V c (rowOf h50000 ⟨n + 1, hn⟩ y) j := by
  have hz : (⟨n + 1, lt_N6 ⟨n + 1, hn⟩⟩ : Fin cfg6.N).val ≠ 0 := Nat.succ_ne_zero n
  have hc0 := nc0_succ6 n (lt_N6 ⟨n + 1, hn⟩)
  unfold accQ6
  by_cases h1 : (n + 1) % 10 = 9
  · have hc1 : cond6_1 (grid6.coords ⟨n + 1, lt_N6 ⟨n + 1, hn⟩⟩) := (hcond6_1 _).mpr h1
    have e := outsAt6_C V c ⟨n + 1, lt_N6 ⟨n + 1, hn⟩⟩ hz h1 hc0 hc1
    rw [show outsAt6 V c (n + 1) (lt_N6 ⟨n + 1, hn⟩) = _ from e]
    dsimp only
    rw [pieceC6_Q, Cert.Proof.Pay6.total_sq_apply]
    exact congrArg₂ (· + ·) rfl (Finset.sum_congr rfl fun y _ => congrArg₂ (· * ·) (tile_q6 V c ⟨n + 1, hn⟩ y j) (tile_q6 V c ⟨n + 1, hn⟩ y j))
  · have hc1 : ¬cond6_1 (grid6.coords ⟨n + 1, lt_N6 ⟨n + 1, hn⟩⟩) := fun h => h1 ((hcond6_1 _).mp h)
    have e := outsAt6_B V c ⟨n + 1, lt_N6 ⟨n + 1, hn⟩⟩ hz h1 hc0 hc1
    rw [show outsAt6 V c (n + 1) (lt_N6 ⟨n + 1, hn⟩) = _ from e]
    dsimp only
    rw [pieceB6_Q, Cert.Proof.Pay6.total_sq_apply]
    exact congrArg₂ (· + ·) rfl (Finset.sum_congr rfl fun y _ => congrArg₂ (· * ·) (tile_q6 V c ⟨n + 1, hn⟩ y j) (tile_q6 V c ⟨n + 1, hn⟩ y j))

theorem totS6 (c : Dev nD) (j : Fin 128) : accS6 V c 9 (lt_N6 9) j = Cert.Spec.colS (GQ6 V c) j :=
  Cert.LibTiledTotals.tiled_total h50000 (GQ6 V c) (fun t j => ∑ y : Fin 5000, GQ6 V c (rowOf h50000 t y) j) (fun _ _ => rfl)
    (fun t j => accS6 V c t.val (lt_N6 t) j) (accS6_zero V c) (fun t j => accS6_succ V c t.val (Nat.succ_lt_succ t.isLt) j) j
theorem totQ6 (c : Dev nD) (j : Fin 128) : accQ6 V c 9 (lt_N6 9) j = Cert.Spec.colQ (GQ6 V c) j :=
  Cert.LibTiledTotals.tiled_total_sq h50000 (GQ6 V c) (fun t j => ∑ y : Fin 5000, GQ6 V c (rowOf h50000 t y) j * GQ6 V c (rowOf h50000 t y) j) (fun _ _ => rfl)
    (fun t j => accQ6 V c t.val (lt_N6 t) j) (accQ6_zero V c) (fun t j => accQ6_succ V c t.val (Nat.succ_lt_succ t.isLt) j) j
theorem totS6' (c : Dev nD) (t : Fin cfg6.N) (h9 : t.val = 9) (j : Fin 128) : accS6 V c t.val t.isLt j = Cert.Spec.colS (GQ6 V c) j := by
  obtain rfl : t = ⟨9, lt_N6 9⟩ := Fin.ext h9
  exact totS6 V c j
theorem totQ6' (c : Dev nD) (t : Fin cfg6.N) (h9 : t.val = 9) (j : Fin 128) : accQ6 V c t.val t.isLt j = Cert.Spec.colQ (GQ6 V c) j := by
  obtain rfl : t = ⟨9, lt_N6 9⟩ := Fin.ext h9
  exact totQ6 V c j

abbrev pS6 (c : Dev nD) (t : Fin cfg6.N) : Vec Ideal S1x128 .f32 := (outsAt6 V c (t.val - 1) (Nat.lt_of_le_of_lt (Nat.sub_le _ _) t.isLt)).2.2.1
abbrev pQ6 (c : Dev nD) (t : Fin cfg6.N) : Vec Ideal S1x128 .f32 := (outsAt6 V c (t.val - 1) (Nat.lt_of_le_of_lt (Nat.sub_le _ _) t.isLt)).2.2.2
abbrev S9_6 (c : Dev nD) (t : Fin cfg6.N) : Vec Ideal S1x128 .f32 := k6_pay1 (pS6 V c t) (k6_pay9 (iblk6 V c 0 t) (iblk6 V c 1 t) (iblk6 V c 3 t) (iblk6 V c 4 t) (iblk6 V c 2 t) (iblk6 V c 5 t) (iblk6 V c 6 t))
abbrev Q9_6 (c : Dev nD) (t : Fin cfg6.N) : Vec Ideal S1x128 .f32 := k6_pay2 (k6_pay8 (iblk6 V c 0 t) (iblk6 V c 1 t) (iblk6 V c 3 t) (iblk6 V c 4 t) (iblk6 V c 2 t) (iblk6 V c 5 t) (iblk6 V c 6 t)) (pQ6 V c t)

set_option maxHeartbeats 3200000 in
theorem last6 (c : Dev nD) (t : Fin cfg6.N) (h9 : t.val = 9) :
    outsAt6 V c t.val t.isLt = (k6_pay4 (S9_6 V c t) (Q9_6 V c t) (iblk6 V c 7 t), k6_pay5 (S9_6 V c t) (Q9_6 V c t) (iblk6 V c 7 t) (iblk6 V c 8 t), S9_6 V c t, Q9_6 V c t) := by
  have h9' : t.val % 10 = 9 := by rw [h9]
  have hz : t.val ≠ 0 := by rw [h9]; decide
  have hc0 : ¬cond6_0 (grid6.coords t) := fun h => by have := (hcond6_0 t).mp h; omega
  have hc1 : cond6_1 (grid6.coords t) := (hcond6_1 t).mpr h9'
  refine (outsAt6_C V c t hz h9' hc0 hc1).trans ?_
  rw [(pieceC6_1 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (pS6 V c t) (pQ6 V c t)), (pieceC6_2 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (pS6 V c t) (pQ6 V c t)), (pieceC6_S (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (pS6 V c t) (pQ6 V c t)), (pieceC6_Q (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6_0 (Memref.isWhole_whole _) scM6_1 (Memref.isWhole_whole _) hc0 hc1 (iblk6 V c 0 t) (iblk6 V c 1 t) (iblk6 V c 2 t) (iblk6 V c 3 t) (iblk6 V c 4 t) (iblk6 V c 5 t) (iblk6 V c 6 t) (iblk6 V c 7 t) (iblk6 V c 8 t) (pS6 V c t) (pQ6 V c t))]

theorem scale6_val (c : Dev nD) (t : Fin cfg6.N) (h9 : t.val = 9) (j : Fin 128) :
    ((outsAt6 V c t.val t.isLt).1 : S1x128.Idx → EReal) (r0_6 j) = Cert.Spec.scaleK (GQ6 V c) (in6_7 V c) cW epsW j := by
  have hS : (S9_6 V c t : S1x128.Idx → EReal) (r0_6 j) = Cert.Spec.colS (GQ6 V c) j := by
    rw [← totS6' V c t h9]; unfold accS6; rw [last6 V c t h9]
  have hQ : (Q9_6 V c t : S1x128.Idx → EReal) (r0_6 j) = Cert.Spec.colQ (GQ6 V c) j := by
    rw [← totQ6' V c t h9]; unfold accQ6; rw [last6 V c t h9]
  rw [last6 V c t h9]
  dsimp only
  rw [Cert.Proof.Pay6.scale_apply, hS, hQ, res6_7 V c t j]
  rfl

theorem shift6_val (c : Dev nD) (t : Fin cfg6.N) (h9 : t.val = 9) (j : Fin 128) :
    ((outsAt6 V c t.val t.isLt).2.1 : S1x128.Idx → EReal) (r0_6 j) = Cert.Spec.shiftK (GQ6 V c) (in6_7 V c) (in6_8 V c) cW epsW j := by
  have hS : (S9_6 V c t : S1x128.Idx → EReal) (r0_6 j) = Cert.Spec.colS (GQ6 V c) j := by
    rw [← totS6' V c t h9]; unfold accS6; rw [last6 V c t h9]
  have hsc := scale6_val V c t h9 j
  rw [last6 V c t h9] at hsc
  dsimp only at hsc
  rw [last6 V c t h9]
  dsimp only
  rw [Cert.Proof.Pay6.shift_apply, hsc, hS, res6_8 V c t j]
  rfl

/-- THE REGION'S VALUE: the two result arrays after the region are the batch norm's scale and shift rows. -/
theorem scaleArr6 (c : Dev nD) (j : Fin 128) :
    ((dat6 V c).arrAt 9 cfg6.N : S1x128.Idx → EReal) (r0_6 j) = Cert.Spec.scaleK (GQ6 V c) (in6_7 V c) cW epsW j := by
  rw [final6_9]; unfold G6_9
  exact scale6_val V c tL6 tL6_val j
theorem shiftArr6 (c : Dev nD) (j : Fin 128) :
    ((dat6 V c).arrAt 10 cfg6.N : S1x128.Idx → EReal) (r0_6 j) = Cert.Spec.shiftK (GQ6 V c) (in6_7 V c) (in6_8 V c) cW epsW j := by
  rw [final6_10]; unfold G6_10
  exact shift6_val V c tL6 tL6_val j

end Cert.KernelIdeal.Hand

end
-- ==== Proof.R7ValA.lean ====
/-
  The output kernel of a layer (pipeline 7): the one store of its body read back as the body's arithmetic.

  The body loads its nine whole input buffers, and stores one value into its whole output buffer; a buffer stored
  whole holds, afterwards, the stored value. So what the output buffer ends with is the last arithmetic step applied
  to the two intermediate values, each a function of the loaded inputs alone.
-/
import proofs.«180905_j29583734735286_1_alg».proof.Proof.R7
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F] [Named F]

private theorem hzv : (![0, 0] : Fin 2 → Nat) = fun _ => 0 := funext fun a => by fin_cases a <;> rfl

theorem piece7 (c : Dev nD) (i : grid7.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    rd7 (F := F) (kernelRun7 c i arg1 harg1 arg2 harg2 arg3 harg3 arg4 harg4 arg5 harg5 arg6 harg6 arg7 harg7 arg8 harg8 arg9 harg9 arg10 harg10 x0 x1 x2 x3 x4 x5 x6 x7 x8).1 = k7_pay1 (k7_pay2 x0 x1 x3 x4 x2 x5 x6 x7) (k7_pay3 x8) := by
  unfold rd7
  rw [View.read_writes_eq_canon _ _ _ (cover7 c i arg1 harg1 arg2 harg2 arg3 harg3 arg4 harg4 arg5 harg5 arg6 harg6 arg7 harg7 arg8 harg8 arg9 harg9 arg10 harg10 x0 x1 x2 x3 x4 x5 x6 x7 x8)]
  unfold kernelRun7
  dsimp only
  rw [View.canon_unit_zero hzv]
  unfold kernelRun7.sl.r kernelRun7.sl.r_1
  simp only [View.readAt_eq_ld, harg1.read_unread, harg2.read_unread, harg3.read_unread, harg4.read_unread, harg5.read_unread, harg6.read_unread, harg7.read_unread, harg8.read_unread, harg9.read_unread, View.ld_unit_zero (S := S5000x128) hzv, View.ld_unit_zero (S := S128x128) hzv, View.ld_unit_zero (S := S1x128) hzv]

end Cert.KernelIdeal.Hand

end
-- ==== Proof.R7ValB.lean ====
/-
  The output kernel of a layer (pipeline 7), value by value, at the ideal values: what its body stores, at row y
  and column j of the tile, is the layer's two dense stages, each scaled, shifted and rectified, and the third
  scale and shift, rectified — of the tile, the two weights and the six rows the point holds.
-/
import proofs.«180905_j29583734735286_1_alg».proof.Proof.Gen.KernelIdeal.Skeleton
import proofs.«180905_j29583734735286_1_alg».proof.Proof.R3ValNet

noncomputable section

namespace Cert.KernelIdeal.Hand

open Idealize.ShloMosaic Idealize.ShloMosaic.ValueIdx Cert.KernelIdeal Cert.KernelIdeal.Gen
open Cert.OutNet (zW r0)
open scoped BigOperators

/-- The stored value at an entry, written out. -/
theorem pay7_explicit (v0 : FVec Ideal S5000x128 .f32) (v3 : FVec Ideal S128x128 .bf16) (v6 v10 : FVec Ideal S1x128 .f32)
    (v17 : FVec Ideal S128x128 .bf16) (v20 v24 v30 v34 : FVec Ideal S1x128 .f32) (y : Fin 5000) (j : Fin 128) :
    k7_pay1 (F := Ideal) (k7_pay2 v0 v3 v6 v10 v17 v20 v24 v30) (k7_pay3 v34) (ix2 y j)
      = max (max ((∑ k : Fin 128, max ((∑ k' : Fin 128, v0 (ix2 y k') * v3 (ix2 k' k)) * v6 (r0 k) + v10 (r0 k)) zW * v17 (ix2 k j))
          * v20 (r0 j) + v24 (r0 j)) zW * v30 (r0 j) + v34 (r0 j)) zW := by
  unfold k7_pay1 k7_pay2 k7_pay3
  simp only [shapeCast_self]
  refine (Cert.OutNet.act_apply _ v30 v34 y j).trans ?_
  refine congrArg (fun z => max (z * v30 (r0 j) + v34 (r0 j)) zW) ?_
  refine (Cert.OutNet.act_apply _ v20 v24 y j).trans ?_
  refine congrArg (fun z => max (z * v20 (r0 j) + v24 (r0 j)) zW) ?_
  refine (Cert.OutNet.dense_apply _ v17 y j).trans ?_
  refine Finset.sum_congr rfl fun k _ => congrArg (fun z => z * v17 (ix2 k j)) ?_
  refine (Cert.OutNet.act_apply _ v6 v10 y k).trans ?_
  refine congrArg (fun z => max (z * v6 (r0 k) + v10 (r0 k)) zW) ?_
  exact Cert.OutNet.dense_apply v0 v3 y k

/-- The stored value at an entry, in the layer's vocabulary. -/
theorem pay7_apply (v0 : FVec Ideal S5000x128 .f32) (v3 : FVec Ideal S128x128 .bf16) (v6 v10 : FVec Ideal S1x128 .f32)
    (v17 : FVec Ideal S128x128 .bf16) (v20 v24 v30 v34 : FVec Ideal S1x128 .f32) (y : Fin 5000) (j : Fin 128) :
    k7_pay1 (F := Ideal) (k7_pay2 v0 v3 v6 v10 v17 v20 v24 v30) (k7_pay3 v34) (ix2 y j)
      = Cert.Spec.relu zW (Cert.OutNet.net zW (fun y k => v0 (ix2 y k)) (fun k j => v3 (ix2 k j)) (fun k j => v17 (ix2 k j))
          (fun j => v6 (r0 j)) (fun j => v10 (r0 j)) (fun j => v20 (r0 j)) (fun j => v24 (r0 j)) (fun j => v30 (r0 j)) (fun j => v34 (r0 j))) y j :=
  (pay7_explicit v0 v3 v6 v10 v17 v20 v24 v30 v34 y j).trans rfl

end Cert.KernelIdeal.Hand

end
-- ==== Proof.R7ValBlk.lean ====
/-
  The output kernel of a layer (pipeline 7): the blocks a grid point holds, read at an index.

  The tile of x at point t is rows 5000·t … 5000·t + 4999 of the array x; the two weights and the six batch-norm
  rows are the whole arrays at every point.
-/
import proofs.«180905_j29583734735286_1_alg».proof.Proof.R7
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (V : (c : Dev nD) → (b : Ref sig .tc) → Buf (Elt Ideal) ((c : Thread nD τ).loc b))

/-- x, the two weights and the six rows of pipeline 7 as the region finds them, as plain functions of indices. -/
def X7 (c : Dev nD) (r : Fin 50000) (k : Fin 128) : EReal := (V c main_v59 : S50000x128.Idx → EReal) (ix2 r k)
def Wa7 (c : Dev nD) (k j : Fin 128) : EReal := (V c main_v62 : S128x128.Idx → EReal) (ix2 k j)
def Wb7 (c : Dev nD) (k j : Fin 128) : EReal := (V c main_v65 : S128x128.Idx → EReal) (ix2 k j)
def sc7_1 (c : Dev nD) (j : Fin 128) : EReal := (V c main_v84_0 : S1x128.Idx → EReal) (ix2 ⟨0, Nat.one_pos⟩ j)
def sh7_1 (c : Dev nD) (j : Fin 128) : EReal := (V c main_v84_1 : S1x128.Idx → EReal) (ix2 ⟨0, Nat.one_pos⟩ j)
def sc7_2 (c : Dev nD) (j : Fin 128) : EReal := (V c main_v85_0 : S1x128.Idx → EReal) (ix2 ⟨0, Nat.one_pos⟩ j)
def sh7_2 (c : Dev nD) (j : Fin 128) : EReal := (V c main_v85_1 : S1x128.Idx → EReal) (ix2 ⟨0, Nat.one_pos⟩ j)
def sc7_3 (c : Dev nD) (j : Fin 128) : EReal := (V c main_v86_0 : S1x128.Idx → EReal) (ix2 ⟨0, Nat.one_pos⟩ j)
def sh7_3 (c : Dev nD) (j : Fin 128) : EReal := (V c main_v86_1 : S1x128.Idx → EReal) (ix2 ⟨0, Nat.one_pos⟩ j)

theorem idx7_0 : ∀ t : Fin cfg7.N, win7_0.index t 0 = t.val ∧ win7_0.index t 1 = 0 := by
  intro t; rcases fin_N7 t with rfl | rfl | rfl | rfl | rfl | rfl | rfl | rfl | rfl | rfl <;> decide
theorem idx7_1 : ∀ t : Fin cfg7.N, win7_1.index t 0 = 0 ∧ win7_1.index t 1 = 0 := by
  intro t; rcases fin_N7 t with rfl | rfl | rfl | rfl | rfl | rfl | rfl | rfl | rfl | rfl <;> decide
theorem idx7_2 : ∀ t : Fin cfg7.N, win7_2.index t 0 = 0 ∧ win7_2.index t 1 = 0 := by
  intro t; rcases fin_N7 t with rfl | rfl | rfl | rfl | rfl | rfl | rfl | rfl | rfl | rfl <;> decide
theorem idx7_3 : ∀ t : Fin cfg7.N, win7_3.index t 0 = 0 ∧ win7_3.index t 1 = 0 := by
  intro t; rcases fin_N7 t with rfl | rfl | rfl | rfl | rfl | rfl | rfl | rfl | rfl | rfl <;> decide
theorem idx7_4 : ∀ t : Fin cfg7.N, win7_4.index t 0 = 0 ∧ win7_4.index t 1 = 0 := by
  intro t; rcases fin_N7 t with rfl | rfl | rfl | rfl | rfl | rfl | rfl | rfl | rfl | rfl <;> decide
theorem idx7_5 : ∀ t : Fin cfg7.N, win7_5.index t 0 = 0 ∧ win7_5.index t 1 = 0 := by
  intro t; rcases fin_N7 t with rfl | rfl | rfl | rfl | rfl | rfl | rfl | rfl | rfl | rfl <;> decide
theorem idx7_6 : ∀ t : Fin cfg7.N, win7_6.index t 0 = 0 ∧ win7_6.index t 1 = 0 := by
  intro t; rcases fin_N7 t with rfl | rfl | rfl | rfl | rfl | rfl | rfl | rfl | rfl | rfl <;> decide
theorem idx7_7 : ∀ t : Fin cfg7.N, win7_7.index t 0 = 0 ∧ win7_7.index t 1 = 0 := by
  intro t; rcases fin_N7 t with rfl | rfl | rfl | rfl | rfl | rfl | rfl | rfl | rfl | rfl <;> decide
theorem idx7_8 : ∀ t : Fin cfg7.N, win7_8.index t 0 = 0 ∧ win7_8.index t 1 = 0 := by
  intro t; rcases fin_N7 t with rfl | rfl | rfl | rfl | rfl | rfl | rfl | rfl | rfl | rfl <;> decide
theorem idx7_9 : ∀ t : Fin cfg7.N, win7_9.index t 0 = t.val ∧ win7_9.index t 1 = 0 := by
  intro t; rcases fin_N7 t with rfl | rfl | rfl | rfl | rfl | rfl | rfl | rfl | rfl | rfl <;> decide
theorem xsz7_9 : ∀ t : Fin cfg7.N, win7_9.xsize (grid7.coords t) 0 = 5000 ∧ win7_9.xsize (grid7.coords t) 1 = 128 := by
  intro t; rcases fin_N7 t with rfl | rfl | rfl | rfl | rfl | rfl | rfl | rfl | rfl | rfl <;> decide +kernel

/-- The tile at point t is rows 5000 t … of x. -/
theorem tile7 (c : Dev nD) (t : Fin cfg7.N) (y : Fin 5000) (k : Fin 128) (R : Fin 50000) (hR : R.val = t.val * 5000 + y.val) :
    (iblk7 V c 0 t : Vec Ideal S5000x128 .f32) (ix2 y k) = X7 V c R k := by
  unfold iblk7 X7
  rw [View.read_apply]
  show (V c main_v59 : S50000x128.Idx → EReal) _ = (V c main_v59 : S50000x128.Idx → EReal) _
  congr 1
  funext a
  apply Fin.ext
  match a with
  | ⟨0, _⟩ => show win7_0.index t 0 * 5000 + 1 * y.val = R.val; rw [(idx7_0 t).1, hR]; omega
  | ⟨1, _⟩ => show win7_0.index t 1 * 128 + 1 * k.val = k.val; rw [(idx7_0 t).2]; omega

theorem res7_1 (c : Dev nD) (t : Fin cfg7.N) (k j : Fin 128) :
    (iblk7 V c 1 t : Vec Ideal S128x128 .bf16) (ix2 k j) = Wa7 V c k j := by
  unfold iblk7 Wa7
  rw [View.read_apply]
  show (V c main_v62 : S128x128.Idx → EReal) _ = (V c main_v62 : S128x128.Idx → EReal) _
  congr 1
  funext a
  apply Fin.ext
  match a with
  | ⟨0, _⟩ => show win7_1.index t 0 * 128 + 1 * k.val = k.val; rw [(idx7_1 t).1]; omega
  | ⟨1, _⟩ => show win7_1.index t 1 * 128 + 1 * j.val = j.val; rw [(idx7_1 t).2]; omega

theorem res7_2 (c : Dev nD) (t : Fin cfg7.N) (k j : Fin 128) :
    (iblk7 V c 2 t : Vec Ideal S128x128 .bf16) (ix2 k j) = Wb7 V c k j := by
  unfold iblk7 Wb7
  rw [View.read_apply]
  show (V c main_v65 : S128x128.Idx → EReal) _ = (V c main_v65 : S128x128.Idx → EReal) _
  congr 1
  funext a
  apply Fin.ext
  match a with
  | ⟨0, _⟩ => show win7_2.index t 0 * 128 + 1 * k.val = k.val; rw [(idx7_2 t).1]; omega
  | ⟨1, _⟩ => show win7_2.index t 1 * 128 + 1 * j.val = j.val; rw [(idx7_2 t).2]; omega

theorem res7_3 (c : Dev nD) (t : Fin cfg7.N) (j : Fin 128) :
    (iblk7 V c 3 t : Vec Ideal S1x128 .f32) (ix2 ⟨0, Nat.one_pos⟩ j) = sc7_1 V c j := by
  unfold iblk7 sc7_1
  rw [View.read_apply]
  show (V c main_v84_0 : S1x128.Idx → EReal) _ = (V c main_v84_0 : S1x128.Idx → EReal) _
  congr 1
  funext a
  apply Fin.ext
  match a with
  | ⟨0, _⟩ => show win7_3.index t 0 * 1 + 1 * 0 = 0; rw [(idx7_3 t).1]
  | ⟨1, _⟩ => show win7_3.index t 1 * 128 + 1 * j.val = j.val; rw [(idx7_3 t).2]; omega

theorem res7_4 (c : Dev nD) (t : Fin cfg7.N) (j : Fin 128) :
    (iblk7 V c 4 t : Vec Ideal S1x128 .f32) (ix2 ⟨0, Nat.one_pos⟩ j) = sh7_1 V c j := by
  unfold iblk7 sh7_1
  rw [View.read_apply]
  show (V c main_v84_1 : S1x128.Idx → EReal) _ = (V c main_v84_1 : S1x128.Idx → EReal) _
  congr 1
  funext a
  apply Fin.ext
  match a with
  | ⟨0, _⟩ => show win7_4.index t 0 * 1 + 1 * 0 = 0; rw [(idx7_4 t).1]
  | ⟨1, _⟩ => show win7_4.index t 1 * 128 + 1 * j.val = j.val; rw [(idx7_4 t).2]; omega

theorem res7_5 (c : Dev nD) (t : Fin cfg7.N) (j : Fin 128) :
    (iblk7 V c 5 t : Vec Ideal S1x128 .f32) (ix2 ⟨0, Nat.one_pos⟩ j) = sc7_2 V c j := by
  unfold iblk7 sc7_2
  rw [View.read_apply]
  show (V c main_v85_0 : S1x128.Idx → EReal) _ = (V c main_v85_0 : S1x128.Idx → EReal) _
  congr 1
  funext a
  apply Fin.ext
  match a with
  | ⟨0, _⟩ => show win7_5.index t 0 * 1 + 1 * 0 = 0; rw [(idx7_5 t).1]
  | ⟨1, _⟩ => show win7_5.index t 1 * 128 + 1 * j.val = j.val; rw [(idx7_5 t).2]; omega

theorem res7_6 (c : Dev nD) (t : Fin cfg7.N) (j : Fin 128) :
    (iblk7 V c 6 t : Vec Ideal S1x128 .f32) (ix2 ⟨0, Nat.one_pos⟩ j) = sh7_2 V c j := by
  unfold iblk7 sh7_2
  rw [View.read_apply]
  show (V c main_v85_1 : S1x128.Idx → EReal) _ = (V c main_v85_1 : S1x128.Idx → EReal) _
  congr 1
  funext a
  apply Fin.ext
  match a with
  | ⟨0, _⟩ => show win7_6.index t 0 * 1 + 1 * 0 = 0; rw [(idx7_6 t).1]
  | ⟨1, _⟩ => show win7_6.index t 1 * 128 + 1 * j.val = j.val; rw [(idx7_6 t).2]; omega

theorem res7_7 (c : Dev nD) (t : Fin cfg7.N) (j : Fin 128) :
    (iblk7 V c 7 t : Vec Ideal S1x128 .f32) (ix2 ⟨0, Nat.one_pos⟩ j) = sc7_3 V c j := by
  unfold iblk7 sc7_3
  rw [View.read_apply]
  show (V c main_v86_0 : S1x128.Idx → EReal) _ = (V c main_v86_0 : S1x128.Idx → EReal) _
  congr 1
  funext a
  apply Fin.ext
  match a with
  | ⟨0, _⟩ => show win7_7.index t 0 * 1 + 1 * 0 = 0; rw [(idx7_7 t).1]
  | ⟨1, _⟩ => show win7_7.index t 1 * 128 + 1 * j.val = j.val; rw [(idx7_7 t).2]; omega

theorem res7_8 (c : Dev nD) (t : Fin cfg7.N) (j : Fin 128) :
    (iblk7 V c 8 t : Vec Ideal S1x128 .f32) (ix2 ⟨0, Nat.one_pos⟩ j) = sh7_3 V c j := by
  unfold iblk7 sh7_3
  rw [View.read_apply]
  show (V c main_v86_1 : S1x128.Idx → EReal) _ = (V c main_v86_1 : S1x128.Idx → EReal) _
  congr 1
  funext a
  apply Fin.ext
  match a with
  | ⟨0, _⟩ => show win7_8.index t 0 * 1 + 1 * 0 = 0; rw [(idx7_8 t).1]
  | ⟨1, _⟩ => show win7_8.index t 1 * 128 + 1 * j.val = j.val; rw [(idx7_8 t).2]; omega

end Cert.KernelIdeal.Hand

end
-- ==== Proof.R7ValOut.lean ====
/-
  The output kernel of a layer (pipeline 7), at the ideal values: what the region leaves in its result array.

  At every grid point the body stores, into the output window's block, the layer's value on the point's tile: two
  dense stages, each scaled, shifted and rectified, and a third scale and shift, rectified. An entry of that value reads
  one row of the tile, and the tile at point t is rows 5000·t … of x, so the block stored at point t is rows 5000·t …
  of the layer's value on the whole array. Every point writes its block back and the ten blocks tile the [50000, 128]
  result array, so the array ends holding the layer's value on x, entry by entry.
-/
import proofs.«180905_j29583734735286_1_alg».proof.Proof.R7ValA
import proofs.«180905_j29583734735286_1_alg».proof.Proof.R7ValB
import proofs.«180905_j29583734735286_1_alg».proof.Proof.R7ValBlk
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

open Cert.OutNet (zW r0)

variable (V : (c : Dev nD) → (b : Ref sig .tc) → Buf (Elt Ideal) ((c : Thread nD τ).loc b))

/-- The layer's value on the whole array x, before the last rectifier. -/
def net7 (c : Dev nD) : Fin 50000 → Fin 128 → EReal :=
  Cert.OutNet.net zW (X7 V c) (Wa7 V c) (Wb7 V c) (sc7_1 V c) (sh7_1 V c) (sc7_2 V c) (sh7_2 V c) (sc7_3 V c) (sh7_3 V c)

/-- What the body leaves in the output buffer at point t, at row y and column j of the block: the layer's value at
    row 5000 t + y of the whole array. -/
theorem out7_apply (c : Dev nD) (t : Fin cfg7.N) (y : Fin 5000) (j : Fin 128) (R : Fin 50000) (J : Fin 128)
    (hR : R.val = t.val * 5000 + y.val) (hJ : J.val = j.val) :
    (out7 V c t : Vec Ideal S5000x128 .f32) (ix2 y j) = Cert.Spec.relu zW (net7 V c) R J := by
  obtain rfl : J = j := Fin.ext hJ
  unfold out7
  rw [piece7 (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (iblk7 V c 0 t) (iblk7 V c 1 t) (iblk7 V c 2 t) (iblk7 V c 3 t) (iblk7 V c 4 t) (iblk7 V c 5 t) (iblk7 V c 6 t) (iblk7 V c 7 t) (iblk7 V c 8 t)]
  refine (pay7_apply (iblk7 V c 0 t) (iblk7 V c 1 t) (iblk7 V c 3 t) (iblk7 V c 4 t) (iblk7 V c 2 t) (iblk7 V c 5 t) (iblk7 V c 6 t) (iblk7 V c 7 t) (iblk7 V c 8 t) y J).trans ?_
  unfold Cert.Spec.relu
  refine congrArg (fun z => max z zW) ?_
  unfold net7
  exact Cert.OutNet.net_congr zW _ (X7 V c) _ _ (Wa7 V c) (Wb7 V c) _ _ _ _ _ _ (sc7_1 V c) (sh7_1 V c) (sc7_2 V c) (sh7_2 V c) (sc7_3 V c) (sh7_3 V c) y R
    (fun k => tile7 V c t y k R hR) (fun k j => res7_1 V c t k j) (fun k j => res7_2 V c t k j)
    (fun j => res7_3 V c t j) (fun j => res7_4 V c t j) (fun j => res7_5 V c t j) (fun j => res7_6 V c t j)
    (fun j => res7_7 V c t j) (fun j => res7_8 V c t j) J

/-- What the region leaves in its result array: the layer's value on x. -/
def G7 (c : Dev nD) : Buf (Elt Ideal) ((c : Thread nD τ).loc main_v87) :=
  (fun i => Cert.Spec.relu zW (net7 V c) (i 0) (i 1) : S50000x128.Idx → EReal)

/-- What point t writes back is block t of that array. -/
theorem flushed7_9 (c : Dev nD) (t : Fin cfg7.N) (hf : (cfg7.win 9).flush t = true) :
    (dat7 V c).flushed 9 t = ((cfg7.win 9).blk t).view.read (Elt Ideal) (G7 V c) := by
  show (cfg7.win 9).cut (grid7.coords t) ((dat7 V c).after 9 t) = _
  rw [after7_9]
  funext x
  rw [View.read_apply]
  have hx0 : (x 0).val < 5000 := lt_of_lt_of_eq (x 0).isLt (xsz7_9 t).1
  have hx1 : (x 1).val < 128 := lt_of_lt_of_eq (x 1).isLt (xsz7_9 t).2
  have hinj : win7_9.xinj (grid7.coords t) x = ix2 (⟨(x 0).val, hx0⟩ : Fin 5000) (⟨(x 1).val, hx1⟩ : Fin 128) :=
    funext fun a => by
      match a with
      | ⟨0, _⟩ => rfl
      | ⟨1, _⟩ => rfl
  show (out7 V c t : Vec Ideal S5000x128 .f32) (win7_9.xinj (grid7.coords t) x) = G7 V c (((cfg7.win 9).blk t).view.emb x)
  rw [hinj]
  refine out7_apply V c t ⟨(x 0).val, hx0⟩ ⟨(x 1).val, hx1⟩ _ _ ?_ ?_
  · show win7_9.index t 0 * 5000 + 1 * (x 0).val = t.val * 5000 + (x 0).val
    rw [(idx7_9 t).1]; omega
  · show win7_9.index t 1 * 128 + 1 * (x 1).val = (x 1).val
    rw [(idx7_9 t).2]; omega

/-- So the result array ends holding the layer's value on x: the ten blocks tile it. -/
theorem final7_9 (c : Dev nD) : (dat7 V c).arrAt 9 cfg7.N = G7 V c :=
  (dat7 V c).arrAt_eq_of_cover 9 (G7 V c) (flushed7_9 V c) fun i => by
    have h0 : (i 0 : Nat) < 50000 := (i 0).isLt
    have h1 : (i 1 : Nat) < 128 := (i 1).isLt
    have hN : cfg7.N = 10 := N_7
    obtain ⟨T, hT⟩ : ∃ T : Fin cfg7.N, T.val = (i 0 : Nat) / 5000 := ⟨⟨(i 0 : Nat) / 5000, by omega⟩, rfl⟩
    refine ⟨T, flush7_9 T, ?_⟩
    show i ∈ ((View.whole main_v87).slice (win7_9.rect T)).set
    rw [View.set_slice_whole, Rect.mem_set_unit]
    intro a
    match a with
    | ⟨0, _⟩ => show win7_9.index T 0 * 5000 ≤ (i 0 : Nat) ∧ (i 0 : Nat) < win7_9.index T 0 * 5000 + win7_9.xsize (grid7.coords T) 0
                rw [(idx7_9 T).1, (xsz7_9 T).1]; omega
    | ⟨1, _⟩ => show win7_9.index T 1 * 128 ≤ (i 1 : Nat) ∧ (i 1 : Nat) < win7_9.index T 1 * 128 + win7_9.xsize (grid7.coords T) 1
                rw [(idx7_9 T).2, (xsz7_9 T).2]; omega

/-- The result array at an index, in the layer's vocabulary. -/
theorem out7_val (c : Dev nD) (r : Fin 50000) (j : Fin 128) :
    ((dat7 V c).arrAt 9 cfg7.N : S50000x128.Idx → EReal) (ValueIdx.ix2 r j)
      = Cert.Spec.relu zW (Cert.Spec.aff (Cert.Spec.relu zW (Cert.Spec.aff (Cert.Spec.lin (Cert.Spec.relu zW (Cert.Spec.aff (Cert.Spec.lin (X7 V c) (Wa7 V c)) (sc7_1 V c) (sh7_1 V c))) (Wb7 V c)) (sc7_2 V c) (sh7_2 V c))) (sc7_3 V c) (sh7_3 V c)) r j := by
  rw [final7_9]
  rfl

end Cert.KernelIdeal.Hand

end
-- ==== Proof.KChain1.lean ====
/-
  Layer 2 of the kernel program, at the ideal values: the array its output kernel leaves is the layer's value, in
  the kernel's form, on the arrays the layer's first kernel found.

  The layer runs four kernels in turn. Each of the first three leaves a scale row and a shift row (a batch norm's, from
  one-pass column statistics of the stage's quantity) and keeps every other array; the fourth leaves the output.
  Reading each kernel's inputs back through the kernels before it — an array no earlier kernel writes is the one the
  layer was entered with, a scale or shift row is the row its kernel left — turns the fourth kernel's value into the
  layer's closed form.
-/
import proofs.«180905_j29583734735286_1_alg».proof.Proof.Run
import proofs.«180905_j29583734735286_1_alg».proof.Proof.R4Sum
import proofs.«180905_j29583734735286_1_alg».proof.Proof.R5Sum
import proofs.«180905_j29583734735286_1_alg».proof.Proof.R6Sum
import proofs.«180905_j29583734735286_1_alg».proof.Proof.R7ValOut
import proofs.«180905_j29583734735286_1_alg».proof.Proof.ValCommon
import proofs.«180905_j29583734735286_1_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (m : (ℓ : Loc nD τ sig) → Buf (Elt Ideal) ℓ) (ρ : Dev nD → PrngReg)

/-- The layer's inputs as its first kernel finds them, as plain functions of indices. -/
abbrev cx1 (c : Dev nD) : Fin 50000 → Fin 128 → EReal := fun r k => (W6 m ρ c (Proc.devRef .tc main_v59) : S50000x128.Idx → EReal) (ix2 r k)
abbrev cw0_1 (c : Dev nD) : Fin 128 → Fin 128 → EReal := fun k j => (W6 m ρ c (Proc.devRef .tc main_v62) : S128x128.Idx → EReal) (ix2 k j)
abbrev cw1_1 (c : Dev nD) : Fin 128 → Fin 128 → EReal := fun k j => (W6 m ρ c (Proc.devRef .tc main_v65) : S128x128.Idx → EReal) (ix2 k j)
abbrev cg1_1 (c : Dev nD) : Fin 128 → EReal := fun j => (W6 m ρ c (Proc.devRef .tc main_v68) : S1x128.Idx → EReal) (ix2 ⟨0, Nat.one_pos⟩ j)
abbrev cb1_1 (c : Dev nD) : Fin 128 → EReal := fun j => (W6 m ρ c (Proc.devRef .tc main_v71) : S1x128.Idx → EReal) (ix2 ⟨0, Nat.one_pos⟩ j)
abbrev cg2_1 (c : Dev nD) : Fin 128 → EReal := fun j => (W6 m ρ c (Proc.devRef .tc main_v74) : S1x128.Idx → EReal) (ix2 ⟨0, Nat.one_pos⟩ j)
abbrev cb2_1 (c : Dev nD) : Fin 128 → EReal := fun j => (W6 m ρ c (Proc.devRef .tc main_v77) : S1x128.Idx → EReal) (ix2 ⟨0, Nat.one_pos⟩ j)
abbrev cg3_1 (c : Dev nD) : Fin 128 → EReal := fun j => (W6 m ρ c (Proc.devRef .tc main_v80) : S1x128.Idx → EReal) (ix2 ⟨0, Nat.one_pos⟩ j)
abbrev cb3_1 (c : Dev nD) : Fin 128 → EReal := fun j => (W6 m ρ c (Proc.devRef .tc main_v83) : S1x128.Idx → EReal) (ix2 ⟨0, Nat.one_pos⟩ j)

/-- The stages of the layer's closed form: each stage's quantity, its scale and shift rows, its rectified result. -/
abbrev cQ1_1 (c : Dev nD) : Fin 50000 → Fin 128 → EReal := Cert.Spec.lin (cx1 m ρ c) (cw0_1 m ρ c)
abbrev cS1_1 (c : Dev nD) : Fin 128 → EReal := Cert.Spec.scaleK (cQ1_1 m ρ c) (cg1_1 m ρ c) cW epsW
abbrev cH1_1 (c : Dev nD) : Fin 128 → EReal := Cert.Spec.shiftK (cQ1_1 m ρ c) (cg1_1 m ρ c) (cb1_1 m ρ c) cW epsW
abbrev cQ2_1 (c : Dev nD) : Fin 50000 → Fin 128 → EReal := Cert.Spec.lin (Cert.Spec.relu zW (Cert.Spec.aff (cQ1_1 m ρ c) (cS1_1 m ρ c) (cH1_1 m ρ c))) (cw1_1 m ρ c)
abbrev cS2_1 (c : Dev nD) : Fin 128 → EReal := Cert.Spec.scaleK (cQ2_1 m ρ c) (cg2_1 m ρ c) cW epsW
abbrev cH2_1 (c : Dev nD) : Fin 128 → EReal := Cert.Spec.shiftK (cQ2_1 m ρ c) (cg2_1 m ρ c) (cb2_1 m ρ c) cW epsW
abbrev cQ3_1 (c : Dev nD) : Fin 50000 → Fin 128 → EReal := Cert.Spec.relu zW (Cert.Spec.aff (cQ2_1 m ρ c) (cS2_1 m ρ c) (cH2_1 m ρ c))
abbrev cS3_1 (c : Dev nD) : Fin 128 → EReal := Cert.Spec.scaleK (cQ3_1 m ρ c) (cg3_1 m ρ c) cW epsW
abbrev cH3_1 (c : Dev nD) : Fin 128 → EReal := Cert.Spec.shiftK (cQ3_1 m ρ c) (cg3_1 m ρ c) (cb3_1 m ρ c) cW epsW

/-! ### Arrays a kernel does not write are kept -/
theorem kp1_1_x (c : Dev nD) : W7 m ρ c (Proc.devRef .tc main_v59) = W6 m ρ c (Proc.devRef .tc main_v59) :=
  ((W7_arr m ρ c 0).trans (((dat4 (V6 m ρ) c).arrAt_in 0 rfl _).trans (A_eq4 (V6 m ρ) c 0)))
theorem kp1_1_w0 (c : Dev nD) : W7 m ρ c (Proc.devRef .tc main_v62) = W6 m ρ c (Proc.devRef .tc main_v62) :=
  ((W7_arr m ρ c 1).trans (((dat4 (V6 m ρ) c).arrAt_in 1 rfl _).trans (A_eq4 (V6 m ρ) c 1)))
theorem kp1_1_w1 (c : Dev nD) : W7 m ρ c (Proc.devRef .tc main_v65) = W6 m ρ c (Proc.devRef .tc main_v65) :=
  (W7_of_ne m ρ c main_v65 (by decide))
theorem kp1_1_g2 (c : Dev nD) : W7 m ρ c (Proc.devRef .tc main_v74) = W6 m ρ c (Proc.devRef .tc main_v74) :=
  (W7_of_ne m ρ c main_v74 (by decide))
theorem kp1_1_b2 (c : Dev nD) : W7 m ρ c (Proc.devRef .tc main_v77) = W6 m ρ c (Proc.devRef .tc main_v77) :=
  (W7_of_ne m ρ c main_v77 (by decide))
theorem kp1_1_g3 (c : Dev nD) : W7 m ρ c (Proc.devRef .tc main_v80) = W6 m ρ c (Proc.devRef .tc main_v80) :=
  (W7_of_ne m ρ c main_v80 (by decide))
theorem kp1_1_b3 (c : Dev nD) : W7 m ρ c (Proc.devRef .tc main_v83) = W6 m ρ c (Proc.devRef .tc main_v83) :=
  (W7_of_ne m ρ c main_v83 (by decide))
theorem kp1_2_x (c : Dev nD) : W8 m ρ c (Proc.devRef .tc main_v59) = W6 m ρ c (Proc.devRef .tc main_v59) :=
  ((W8_arr m ρ c 0).trans (((dat5 (V7 m ρ) c).arrAt_in 0 rfl _).trans (A_eq5 (V7 m ρ) c 0))).trans (kp1_1_x m ρ c)
theorem kp1_2_w0 (c : Dev nD) : W8 m ρ c (Proc.devRef .tc main_v62) = W6 m ρ c (Proc.devRef .tc main_v62) :=
  ((W8_arr m ρ c 1).trans (((dat5 (V7 m ρ) c).arrAt_in 1 rfl _).trans (A_eq5 (V7 m ρ) c 1))).trans (kp1_1_w0 m ρ c)
theorem kp1_2_w1 (c : Dev nD) : W8 m ρ c (Proc.devRef .tc main_v65) = W6 m ρ c (Proc.devRef .tc main_v65) :=
  ((W8_arr m ρ c 2).trans (((dat5 (V7 m ρ) c).arrAt_in 2 rfl _).trans (A_eq5 (V7 m ρ) c 2))).trans (kp1_1_w1 m ρ c)
theorem kp1_2_g3 (c : Dev nD) : W8 m ρ c (Proc.devRef .tc main_v80) = W6 m ρ c (Proc.devRef .tc main_v80) :=
  (W8_of_ne m ρ c main_v80 (by decide)).trans (kp1_1_g3 m ρ c)
theorem kp1_2_b3 (c : Dev nD) : W8 m ρ c (Proc.devRef .tc main_v83) = W6 m ρ c (Proc.devRef .tc main_v83) :=
  (W8_of_ne m ρ c main_v83 (by decide)).trans (kp1_1_b3 m ρ c)
theorem kp1_2_s1 (c : Dev nD) : W8 m ρ c (Proc.devRef .tc main_v84_0) = W7 m ρ c (Proc.devRef .tc main_v84_0) :=
  ((W8_arr m ρ c 3).trans (((dat5 (V7 m ρ) c).arrAt_in 3 rfl _).trans (A_eq5 (V7 m ρ) c 3)))
theorem kp1_2_h1 (c : Dev nD) : W8 m ρ c (Proc.devRef .tc main_v84_1) = W7 m ρ c (Proc.devRef .tc main_v84_1) :=
  ((W8_arr m ρ c 4).trans (((dat5 (V7 m ρ) c).arrAt_in 4 rfl _).trans (A_eq5 (V7 m ρ) c 4)))
theorem kp1_3_x (c : Dev nD) : W9 m ρ c (Proc.devRef .tc main_v59) = W6 m ρ c (Proc.devRef .tc main_v59) :=
  ((W9_arr m ρ c 0).trans (((dat6 (V8 m ρ) c).arrAt_in 0 rfl _).trans (A_eq6 (V8 m ρ) c 0))).trans (kp1_2_x m ρ c)
theorem kp1_3_w0 (c : Dev nD) : W9 m ρ c (Proc.devRef .tc main_v62) = W6 m ρ c (Proc.devRef .tc main_v62) :=
  ((W9_arr m ρ c 1).trans (((dat6 (V8 m ρ) c).arrAt_in 1 rfl _).trans (A_eq6 (V8 m ρ) c 1))).trans (kp1_2_w0 m ρ c)
theorem kp1_3_w1 (c : Dev nD) : W9 m ρ c (Proc.devRef .tc main_v65) = W6 m ρ c (Proc.devRef .tc main_v65) :=
  ((W9_arr m ρ c 2).trans (((dat6 (V8 m ρ) c).arrAt_in 2 rfl _).trans (A_eq6 (V8 m ρ) c 2))).trans (kp1_2_w1 m ρ c)
theorem kp1_3_s1 (c : Dev nD) : W9 m ρ c (Proc.devRef .tc main_v84_0) = W7 m ρ c (Proc.devRef .tc main_v84_0) :=
  ((W9_arr m ρ c 3).trans (((dat6 (V8 m ρ) c).arrAt_in 3 rfl _).trans (A_eq6 (V8 m ρ) c 3))).trans (kp1_2_s1 m ρ c)
theorem kp1_3_h1 (c : Dev nD) : W9 m ρ c (Proc.devRef .tc main_v84_1) = W7 m ρ c (Proc.devRef .tc main_v84_1) :=
  ((W9_arr m ρ c 4).trans (((dat6 (V8 m ρ) c).arrAt_in 4 rfl _).trans (A_eq6 (V8 m ρ) c 4))).trans (kp1_2_h1 m ρ c)
theorem kp1_3_s2 (c : Dev nD) : W9 m ρ c (Proc.devRef .tc main_v85_0) = W8 m ρ c (Proc.devRef .tc main_v85_0) :=
  ((W9_arr m ρ c 5).trans (((dat6 (V8 m ρ) c).arrAt_in 5 rfl _).trans (A_eq6 (V8 m ρ) c 5)))
theorem kp1_3_h2 (c : Dev nD) : W9 m ρ c (Proc.devRef .tc main_v85_1) = W8 m ρ c (Proc.devRef .tc main_v85_1) :=
  ((W9_arr m ρ c 6).trans (((dat6 (V8 m ρ) c).arrAt_in 6 rfl _).trans (A_eq6 (V8 m ρ) c 6)))

/-! ### The first statistics kernel's two rows -/

theorem rowS1_1 (c : Dev nD) (j : Fin 128) :
    (W7 m ρ c (Proc.devRef .tc main_v84_0) : S1x128.Idx → EReal) (ix2 ⟨0, Nat.one_pos⟩ j) = cS1_1 m ρ c j :=
  (congrFun (W7_arr m ρ c 4) _).trans (scaleArr4 (V6 m ρ) c j)
theorem rowH1_1 (c : Dev nD) (j : Fin 128) :
    (W7 m ρ c (Proc.devRef .tc main_v84_1) : S1x128.Idx → EReal) (ix2 ⟨0, Nat.one_pos⟩ j) = cH1_1 m ρ c j :=
  (congrFun (W7_arr m ρ c 5) _).trans (shiftArr4 (V6 m ρ) c j)

/-! ### The second statistics kernel's inputs and its two rows -/

theorem i5_0 (c : Dev nD) : in5_0 (V7 m ρ) c = cx1 m ρ c := funext fun r => funext fun k => congrFun (kp1_1_x m ρ c) (ix2 r k)
theorem i5_1 (c : Dev nD) : in5_1 (V7 m ρ) c = cw0_1 m ρ c := funext fun k => funext fun j => congrFun (kp1_1_w0 m ρ c) (ix2 k j)
theorem i5_2 (c : Dev nD) : in5_2 (V7 m ρ) c = cw1_1 m ρ c := funext fun k => funext fun j => congrFun (kp1_1_w1 m ρ c) (ix2 k j)
theorem i5_3 (c : Dev nD) : in5_3 (V7 m ρ) c = cS1_1 m ρ c := funext fun j => rowS1_1 m ρ c j
theorem i5_4 (c : Dev nD) : in5_4 (V7 m ρ) c = cH1_1 m ρ c := funext fun j => rowH1_1 m ρ c j
theorem i5_5 (c : Dev nD) : in5_5 (V7 m ρ) c = cg2_1 m ρ c := funext fun j => congrFun (kp1_1_g2 m ρ c) (ix2 ⟨0, Nat.one_pos⟩ j)
theorem i5_6 (c : Dev nD) : in5_6 (V7 m ρ) c = cb2_1 m ρ c := funext fun j => congrFun (kp1_1_b2 m ρ c) (ix2 ⟨0, Nat.one_pos⟩ j)
theorem q5_eq (c : Dev nD) : GQ5 (V7 m ρ) c = cQ2_1 m ρ c := by
  show Cert.Spec.lin (Cert.Spec.relu zW (Cert.Spec.aff (Cert.Spec.lin (in5_0 (V7 m ρ) c) (in5_1 (V7 m ρ) c)) (in5_3 (V7 m ρ) c) (in5_4 (V7 m ρ) c))) (in5_2 (V7 m ρ) c) = _
  rw [i5_0, i5_1, i5_2, i5_3, i5_4]

theorem rowS2_1 (c : Dev nD) (j : Fin 128) :
    (W8 m ρ c (Proc.devRef .tc main_v85_0) : S1x128.Idx → EReal) (ix2 ⟨0, Nat.one_pos⟩ j) = cS2_1 m ρ c j := by
  refine (congrFun (W8_arr m ρ c 7) _).trans ((scaleArr5 (V7 m ρ) c j).trans ?_)
  rw [q5_eq, i5_5]
theorem rowH2_1 (c : Dev nD) (j : Fin 128) :
    (W8 m ρ c (Proc.devRef .tc main_v85_1) : S1x128.Idx → EReal) (ix2 ⟨0, Nat.one_pos⟩ j) = cH2_1 m ρ c j := by
  refine (congrFun (W8_arr m ρ c 8) _).trans ((shiftArr5 (V7 m ρ) c j).trans ?_)
  rw [q5_eq, i5_5, i5_6]

/-! ### The third statistics kernel's inputs and its two rows -/

theorem i6_0 (c : Dev nD) : in6_0 (V8 m ρ) c = cx1 m ρ c := funext fun r => funext fun k => congrFun (kp1_2_x m ρ c) (ix2 r k)
theorem i6_1 (c : Dev nD) : in6_1 (V8 m ρ) c = cw0_1 m ρ c := funext fun k => funext fun j => congrFun (kp1_2_w0 m ρ c) (ix2 k j)
theorem i6_2 (c : Dev nD) : in6_2 (V8 m ρ) c = cw1_1 m ρ c := funext fun k => funext fun j => congrFun (kp1_2_w1 m ρ c) (ix2 k j)
theorem i6_3 (c : Dev nD) : in6_3 (V8 m ρ) c = cS1_1 m ρ c := funext fun j => (congrFun (kp1_2_s1 m ρ c) _).trans (rowS1_1 m ρ c j)
theorem i6_4 (c : Dev nD) : in6_4 (V8 m ρ) c = cH1_1 m ρ c := funext fun j => (congrFun (kp1_2_h1 m ρ c) _).trans (rowH1_1 m ρ c j)
theorem i6_5 (c : Dev nD) : in6_5 (V8 m ρ) c = cS2_1 m ρ c := funext fun j => rowS2_1 m ρ c j
theorem i6_6 (c : Dev nD) : in6_6 (V8 m ρ) c = cH2_1 m ρ c := funext fun j => rowH2_1 m ρ c j
theorem i6_7 (c : Dev nD) : in6_7 (V8 m ρ) c = cg3_1 m ρ c := funext fun j => congrFun (kp1_2_g3 m ρ c) (ix2 ⟨0, Nat.one_pos⟩ j)
theorem i6_8 (c : Dev nD) : in6_8 (V8 m ρ) c = cb3_1 m ρ c := funext fun j => congrFun (kp1_2_b3 m ρ c) (ix2 ⟨0, Nat.one_pos⟩ j)
theorem q6_eq (c : Dev nD) : GQ6 (V8 m ρ) c = cQ3_1 m ρ c := by
  show Cert.Spec.relu zW (Cert.Spec.aff (Cert.Spec.lin (Cert.Spec.relu zW (Cert.Spec.aff (Cert.Spec.lin (in6_0 (V8 m ρ) c) (in6_1 (V8 m ρ) c)) (in6_3 (V8 m ρ) c) (in6_4 (V8 m ρ) c))) (in6_2 (V8 m ρ) c)) (in6_5 (V8 m ρ) c) (in6_6 (V8 m ρ) c)) = _
  rw [i6_0, i6_1, i6_2, i6_3, i6_4, i6_5, i6_6]

theorem rowS3_1 (c : Dev nD) (j : Fin 128) :
    (W9 m ρ c (Proc.devRef .tc main_v86_0) : S1x128.Idx → EReal) (ix2 ⟨0, Nat.one_pos⟩ j) = cS3_1 m ρ c j := by
  refine (congrFun (W9_arr m ρ c 9) _).trans ((scaleArr6 (V8 m ρ) c j).trans ?_)
  rw [q6_eq, i6_7]
theorem rowH3_1 (c : Dev nD) (j : Fin 128) :
    (W9 m ρ c (Proc.devRef .tc main_v86_1) : S1x128.Idx → EReal) (ix2 ⟨0, Nat.one_pos⟩ j) = cH3_1 m ρ c j := by
  refine (congrFun (W9_arr m ρ c 10) _).trans ((shiftArr6 (V8 m ρ) c j).trans ?_)
  rw [q6_eq, i6_7, i6_8]

/-! ### The output kernel's inputs, and the layer -/

theorem o7_x (c : Dev nD) : X7 (V9 m ρ) c = cx1 m ρ c := funext fun r => funext fun k => congrFun (kp1_3_x m ρ c) (ix2 r k)
theorem o7_w0 (c : Dev nD) : Wa7 (V9 m ρ) c = cw0_1 m ρ c := funext fun k => funext fun j => congrFun (kp1_3_w0 m ρ c) (ix2 k j)
theorem o7_w1 (c : Dev nD) : Wb7 (V9 m ρ) c = cw1_1 m ρ c := funext fun k => funext fun j => congrFun (kp1_3_w1 m ρ c) (ix2 k j)
theorem o7_s1 (c : Dev nD) : sc7_1 (V9 m ρ) c = cS1_1 m ρ c := funext fun j => (congrFun (kp1_3_s1 m ρ c) _).trans (rowS1_1 m ρ c j)
theorem o7_h1 (c : Dev nD) : sh7_1 (V9 m ρ) c = cH1_1 m ρ c := funext fun j => (congrFun (kp1_3_h1 m ρ c) _).trans (rowH1_1 m ρ c j)
theorem o7_s2 (c : Dev nD) : sc7_2 (V9 m ρ) c = cS2_1 m ρ c := funext fun j => (congrFun (kp1_3_s2 m ρ c) _).trans (rowS2_1 m ρ c j)
theorem o7_h2 (c : Dev nD) : sh7_2 (V9 m ρ) c = cH2_1 m ρ c := funext fun j => (congrFun (kp1_3_h2 m ρ c) _).trans (rowH2_1 m ρ c j)
theorem o7_s3 (c : Dev nD) : sc7_3 (V9 m ρ) c = cS3_1 m ρ c := funext fun j => rowS3_1 m ρ c j
theorem o7_h3 (c : Dev nD) : sh7_3 (V9 m ρ) c = cH3_1 m ρ c := funext fun j => rowH3_1 m ρ c j

/-- The layer's output array, entry by entry, is the layer's value in the kernel's form on the arrays the layer was
    entered with. -/
theorem layer1_val (c : Dev nD) (r : Fin 50000) (j : Fin 128) :
    (W10 (F := Ideal) m ρ c (Proc.devRef .tc main_v87) : S50000x128.Idx → EReal) (ValueIdx.ix2 r j)
      = Cert.Spec.layerK zW cW epsW true (fun r k => (W6 (F := Ideal) m ρ c (Proc.devRef .tc main_v59) : S50000x128.Idx → EReal) (ix2 r k))
          (fun k j => (W6 (F := Ideal) m ρ c (Proc.devRef .tc main_v62) : S128x128.Idx → EReal) (ix2 k j))
          (fun k j => (W6 (F := Ideal) m ρ c (Proc.devRef .tc main_v65) : S128x128.Idx → EReal) (ix2 k j))
          (fun j => (W6 (F := Ideal) m ρ c (Proc.devRef .tc main_v68) : S1x128.Idx → EReal) (ix2 ⟨0, Nat.one_pos⟩ j))
          (fun j => (W6 (F := Ideal) m ρ c (Proc.devRef .tc main_v71) : S1x128.Idx → EReal) (ix2 ⟨0, Nat.one_pos⟩ j))
          (fun j => (W6 (F := Ideal) m ρ c (Proc.devRef .tc main_v74) : S1x128.Idx → EReal) (ix2 ⟨0, Nat.one_pos⟩ j))
          (fun j => (W6 (F := Ideal) m ρ c (Proc.devRef .tc main_v77) : S1x128.Idx → EReal) (ix2 ⟨0, Nat.one_pos⟩ j))
          (fun j => (W6 (F := Ideal) m ρ c (Proc.devRef .tc main_v80) : S1x128.Idx → EReal) (ix2 ⟨0, Nat.one_pos⟩ j))
          (fun j => (W6 (F := Ideal) m ρ c (Proc.devRef .tc main_v83) : S1x128.Idx → EReal) (ix2 ⟨0, Nat.one_pos⟩ j)) r j := by
  refine (congrFun (W10_arr m ρ c 9) _).trans ((out7_val (V9 m ρ) c r j).trans ?_)
  rw [o7_x, o7_w0, o7_w1, o7_s1, o7_h1, o7_s2, o7_h2, o7_s3, o7_h3]
  rfl

end Cert.KernelIdeal.Hand

end
-- ==== Proof.R8Val.lean ====
/-
  Pipeline 8 (a statistics kernel): each case's stores read back as the body's arithmetic. A buffer stored whole
  holds the stored value, and a load of it after the store reads that value: after the first tile the running rows
  are the tile's totals added to the zero rows, after a later tile the totals added to what the tile before left,
  and at the last tile the scale and the shift are computed from the rows as this tile leaves them.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R8B
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2_8 : (![0, 0] : Fin 2 → Nat) = fun _ => 0 := funext fun a => by fin_cases a <;> rfl

theorem pieceA8_S (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond8_0 i) (hc1 : ¬cond8_1 i) (x0 : Vec F S5000x128 .f32) (x1 : Vec F S128x128 .bf16) (x2 : Vec F S1x128 .f32) (x3 : Vec F S1x128 .f32) :
    rd8 (F := F) (kernelRun8_A c i arg1 harg1 arg2 harg2 arg3 harg3 arg4 harg4 arg5 harg5 arg6 harg6 arg7 harg7 arg8 harg8 hc0 hc1 x0 x1 x2 x3).1 = k8_pay4 x0 x1 (k8_pay1 (F := F)) := by
  unfold rd8
  rw [View.read_writes_eq_canon _ _ _ (scoverA8_0 c i arg1 harg1 arg2 harg2 arg3 harg3 arg4 harg4 arg5 harg5 arg6 harg6 arg7 harg7 arg8 harg8 hc0 hc1 x0 x1 x2 x3)]
  unfold kernelRun8_A
  dsimp only
  try sl_unfold_words
  first | rw [View.canon_cons_unit_zero (S := S1x128) hz2_8] | rw [View.canon_unit_zero hz2_8]
  simp only [View.readCov_unit_zero (S := S1x128) _ hz2_8, View.readAt_eq_ld, harg1.read_unread, harg2.read_unread, harg3.read_unread, harg4.read_unread, harg5.read_unread, harg6.read_unread, harg7.read_unread, harg8.read_unread, View.ld_unit_zero (S := S5000x128) hz2_8, View.ld_unit_zero (S := S128x128) hz2_8, View.ld_unit_zero (S := S1x128) hz2_8]

theorem pieceA8_Q (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond8_0 i) (hc1 : ¬cond8_1 i) (x0 : Vec F S5000x128 .f32) (x1 : Vec F S128x128 .bf16) (x2 : Vec F S1x128 .f32) (x3 : Vec F S1x128 .f32) :
    rd8 (F := F) (kernelRun8_A c i arg1 harg1 arg2 harg2 arg3 harg3 arg4 harg4 arg5 harg5 arg6 harg6 arg7 harg7 arg8 harg8 hc0 hc1 x0 x1 x2 x3).2.1 = k8_pay5 x0 x1 (k8_pay2 (F := F)) := by
  unfold rd8
  rw [View.read_writes_eq_canon _ _ _ (scoverA8_1 c i arg1 harg1 arg2 harg2 arg3 harg3 arg4 harg4 arg5 harg5 arg6 harg6 arg7 harg7 arg8 harg8 hc0 hc1 x0 x1 x2 x3)]
  unfold kernelRun8_A
  dsimp only
  try sl_unfold_words
  first | rw [View.canon_cons_unit_zero (S := S1x128) hz2_8] | rw [View.canon_unit_zero hz2_8]
  simp only [View.readCov_unit_zero (S := S1x128) _ hz2_8, View.readAt_eq_ld, harg1.read_unread, harg2.read_unread, harg3.read_unread, harg4.read_unread, harg5.read_unread, harg6.read_unread, harg7.read_unread, harg8.read_unread, View.ld_unit_zero (S := S5000x128) hz2_8, View.ld_unit_zero (S := S128x128) hz2_8, View.ld_unit_zero (S := S1x128) hz2_8]

theorem pieceB8_S (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : ¬cond8_1 i) (x0 : Vec F S5000x128 .f32) (x1 : Vec F S128x128 .bf16) (x2 : Vec F S1x128 .f32) (x3 : Vec F S1x128 .f32) (xs0 xs1 : Vec F S1x128 .f32) :
    rd8 (F := F) (kernelRun8_B c i arg1 harg1 arg2 harg2 arg3 harg3 arg4 harg4 arg5 harg5 arg6 harg6 arg7 harg7 arg8 harg8 hc0 hc1 x0 x1 x2 x3 xs0 xs1).1 = k8_pay4 x0 x1 xs0 := by
  unfold rd8
  rw [View.read_writes_eq_canon _ _ _ (scoverB8_0 c i arg1 harg1 arg2 harg2 arg3 harg3 arg4 harg4 arg5 harg5 arg6 harg6 arg7 harg7 arg8 harg8 hc0 hc1 x0 x1 x2 x3 xs0 xs1)]
  unfold kernelRun8_B
  dsimp only
  try sl_unfold_words
  first | rw [View.canon_cons_unit_zero (S := S1x128) hz2_8] | rw [View.canon_unit_zero hz2_8]
  simp only [View.readCov_unit_zero (S := S1x128) _ hz2_8, View.readAt_eq_ld, harg1.read_unread, harg2.read_unread, harg3.read_unread, harg4.read_unread, harg5.read_unread, harg6.read_unread, harg7.read_unread, harg8.read_unread, View.ld_unit_zero (S := S5000x128) hz2_8, View.ld_unit_zero (S := S128x128) hz2_8, View.ld_unit_zero (S := S1x128) hz2_8]

theorem pieceB8_Q (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : ¬cond8_1 i) (x0 : Vec F S5000x128 .f32) (x1 : Vec F S128x128 .bf16) (x2 : Vec F S1x128 .f32) (x3 : Vec F S1x128 .f32) (xs0 xs1 : Vec F S1x128 .f32) :
    rd8 (F := F) (kernelRun8_B c i arg1 harg1 arg2 harg2 arg3 harg3 arg4 harg4 arg5 harg5 arg6 harg6 arg7 harg7 arg8 harg8 hc0 hc1 x0 x1 x2 x3 xs0 xs1).2.1 = k8_pay5 x0 x1 xs1 := by
  unfold rd8
  rw [View.read_writes_eq_canon _ _ _ (scoverB8_1 c i arg1 harg1 arg2 harg2 arg3 harg3 arg4 harg4 arg5 harg5 arg6 harg6 arg7 harg7 arg8 harg8 hc0 hc1 x0 x1 x2 x3 xs0 xs1)]
  unfold kernelRun8_B
  dsimp only
  try sl_unfold_words
  first | rw [View.canon_cons_unit_zero (S := S1x128) hz2_8] | rw [View.canon_unit_zero hz2_8]
  simp only [View.readCov_unit_zero (S := S1x128) _ hz2_8, View.readAt_eq_ld, harg1.read_unread, harg2.read_unread, harg3.read_unread, harg4.read_unread, harg5.read_unread, harg6.read_unread, harg7.read_unread, harg8.read_unread, View.ld_unit_zero (S := S5000x128) hz2_8, View.ld_unit_zero (S := S128x128) hz2_8, View.ld_unit_zero (S := S1x128) hz2_8]

theorem pieceC8_S (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : cond8_1 i) (x0 : Vec F S5000x128 .f32) (x1 : Vec F S128x128 .bf16) (x2 : Vec F S1x128 .f32) (x3 : Vec F S1x128 .f32) (xs0 xs1 : Vec F S1x128 .f32) :
    rd8 (F := F) (kernelRun8_C c i arg1 harg1 arg2 harg2 arg3 harg3 arg4 harg4 arg5 harg5 arg6 harg6 arg7 harg7 arg8 harg8 hc0 hc1 x0 x1 x2 x3 xs0 xs1).2.2.1 = k8_pay4 x0 x1 xs0 := by
  unfold rd8
  rw [View.read_writes_eq_canon _ _ _ (scoverC8_0 c i arg1 harg1 arg2 harg2 arg3 harg3 arg4 harg4 arg5 harg5 arg6 harg6 arg7 harg7 arg8 harg8 hc0 hc1 x0 x1 x2 x3 xs0 xs1)]
  unfold kernelRun8_C
  dsimp only
  try sl_unfold_words
  first | rw [View.canon_cons_unit_zero (S := S1x128) hz2_8] | rw [View.canon_unit_zero hz2_8]
  simp only [View.readCov_unit_zero (S := S1x128) _ hz2_8, View.readAt_eq_ld, harg1.read_unread, harg2.read_unread, harg3.read_unread, harg4.read_unread, harg5.read_unread, harg6.read_unread, harg7.read_unread, harg8.read_unread, View.ld_unit_zero (S := S5000x128) hz2_8, View.ld_unit_zero (S := S128x128) hz2_8, View.ld_unit_zero (S := S1x128) hz2_8]

theorem pieceC8_Q (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : cond8_1 i) (x0 : Vec F S5000x128 .f32) (x1 : Vec F S128x128 .bf16) (x2 : Vec F S1x128 .f32) (x3 : Vec F S1x128 .f32) (xs0 xs1 : Vec F S1x128 .f32) :
    rd8 (F := F) (kernelRun8_C c i arg1 harg1 arg2 harg2 arg3 harg3 arg4 harg4 arg5 harg5 arg6 harg6 arg7 harg7 arg8 harg8 hc0 hc1 x0 x1 x2 x3 xs0 xs1).2.2.2.1 = k8_pay5 x0 x1 xs1 := by
  unfold rd8
  rw [View.read_writes_eq_canon _ _ _ (scoverC8_1 c i arg1 harg1 arg2 harg2 arg3 harg3 arg4 harg4 arg5 harg5 arg6 harg6 arg7 harg7 arg8 harg8 hc0 hc1 x0 x1 x2 x3 xs0 xs1)]
  unfold kernelRun8_C
  dsimp only
  try sl_unfold_words
  first | rw [View.canon_cons_unit_zero (S := S1x128) hz2_8] | rw [View.canon_unit_zero hz2_8]
  simp only [View.readCov_unit_zero (S := S1x128) _ hz2_8, View.readAt_eq_ld, harg1.read_unread, harg2.read_unread, harg3.read_unread, harg4.read_unread, harg5.read_unread, harg6.read_unread, harg7.read_unread, harg8.read_unread, View.ld_unit_zero (S := S5000x128) hz2_8, View.ld_unit_zero (S := S128x128) hz2_8, View.ld_unit_zero (S := S1x128) hz2_8]

theorem pieceC8_1 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : cond8_1 i) (x0 : Vec F S5000x128 .f32) (x1 : Vec F S128x128 .bf16) (x2 : Vec F S1x128 .f32) (x3 : Vec F S1x128 .f32) (xs0 xs1 : Vec F S1x128 .f32) :
    rd8 (F := F) (kernelRun8_C c i arg1 harg1 arg2 harg2 arg3 harg3 arg4 harg4 arg5 harg5 arg6 harg6 arg7 harg7 arg8 harg8 hc0 hc1 x0 x1 x2 x3 xs0 xs1).1 = k8_pay7 (k8_pay4 x0 x1 xs0) (k8_pay5 x0 x1 xs1) x2 := by
  unfold rd8
  rw [View.read_writes_eq_canon _ _ _ (coverC8_1 c i arg1 harg1 arg2 harg2 arg3 harg3 arg4 harg4 arg5 harg5 arg6 harg6 arg7 harg7 arg8 harg8 hc0 hc1 x0 x1 x2 x3 xs0 xs1)]
  unfold kernelRun8_C
  dsimp only
  try sl_unfold_words
  first | rw [View.canon_cons_unit_zero (S := S1x128) hz2_8] | rw [View.canon_unit_zero hz2_8]
  simp only [View.readCov_unit_zero (S := S1x128) _ hz2_8, View.readAt_eq_ld, harg1.read_unread, harg2.read_unread, harg3.read_unread, harg4.read_unread, harg5.read_unread, harg6.read_unread, harg7.read_unread, harg8.read_unread, View.ld_unit_zero (S := S5000x128) hz2_8, View.ld_unit_zero (S := S128x128) hz2_8, View.ld_unit_zero (S := S1x128) hz2_8]

theorem pieceC8_2 (c : Dev nD) (i : grid8.Coords) (arg1 : Memref sig .tc .vmem S5000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i) (hc1 : cond8_1 i) (x0 : Vec F S5000x128 .f32) (x1 : Vec F S128x128 .bf16) (x2 : Vec F S1x128 .f32) (x3 : Vec F S1x128 .f32) (xs0 xs1 : Vec F S1x128 .f32) :
    rd8 (F := F) (kernelRun8_C c i arg1 harg1 arg2 harg2 arg3 harg3 arg4 harg4 arg5 harg5 arg6 harg6 arg7 harg7 arg8 harg8 hc0 hc1 x0 x1 x2 x3 xs0 xs1).2.1 = k8_pay8 (k8_pay4 x0 x1 xs0) (k8_pay5 x0 x1 xs1) x2 x3 := by
  unfold rd8
  rw [View.read_writes_eq_canon _ _ _ (coverC8_2 c i arg1 harg1 arg2 harg2 arg3 harg3 arg4 harg4 arg5 harg5 arg6 harg6 arg7 harg7 arg8 harg8 hc0 hc1 x0 x1 x2 x3 xs0 xs1)]
  unfold kernelRun8_C
  dsimp only
  try sl_unfold_words
  first | rw [View.canon_cons_unit_zero (S := S1x128) hz2_8] | rw [View.canon_unit_zero hz2_8]
  simp only [View.readCov_unit_zero (S := S1x128) _ hz2_8, View.readAt_eq_ld, harg1.read_unread, harg2.read_unread, harg3.read_unread, harg4.read_unread, harg5.read_unread, harg6.read_unread, harg7.read_unread, harg8.read_unread, View.ld_unit_zero (S := S5000x128) hz2_8, View.ld_unit_zero (S := S128x128) hz2_8, View.ld_unit_zero (S := S1x128) hz2_8]

end Cert.KernelIdeal.Hand

end
-- ==== Proof.R8Arr.lean ====
/-
  Pipeline 8: the two result arrays after the region. Each result window is written back once, at the last
  point, and its one block is the whole [1, 128] array; so the array ends holding the row the last point stored.
-/
import proofs.«180905_j29583734735286_1_alg».proof.Proof.R8B
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The last grid point. -/
def tL8 : Fin cfg8.N := ⟨9, lt_of_lt_of_eq (by decide) N_8.symm⟩
theorem tL8_val : tL8.val = 9 := rfl
attribute [irreducible] tL8

theorem idx8_4 : ∀ t : Fin cfg8.N, win8_4.index t 0 = 0 ∧ win8_4.index t 1 = 0 := by
  intro t; rcases fin_N8 t with rfl | rfl | rfl | rfl | rfl | rfl | rfl | rfl | rfl | rfl <;> decide
theorem xsz8_4 : ∀ t : Fin cfg8.N, win8_4.xsize (grid8.coords t) 0 = 1 ∧ win8_4.xsize (grid8.coords t) 1 = 128 := by
  intro t; rcases fin_N8 t with rfl | rfl | rfl | rfl | rfl | rfl | rfl | rfl | rfl | rfl <;> decide +kernel

/-- What the region leaves in its result array: the row stored at the last point. -/
def G8_4 (c : Dev nD) : Buf (Elt F) ((c : Thread nD τ).loc main_v126_0) := (outsAt8 V c tL8.val tL8.isLt).1

theorem flushed8_4 (c : Dev nD) (t : Fin cfg8.N) (hf : (cfg8.win 4).flush t = true) :
    (dat8 V c).flushed 4 t = ((cfg8.win 4).blk t).view.read (Elt F) (G8_4 V c) := by
  have hN : cfg8.N = 10 := N_8
  have h1 : t.val = 9 := by have := (flush8_4 t).mp hf; have := t.isLt; omega
  obtain rfl : t = tL8 := Fin.ext (h1.trans tL8_val.symm)
  show (cfg8.win 4).cut (grid8.coords tL8) ((dat8 V c).after 4 tL8) = _
  rw [after8_4]
  have hz' : (fun a => win8_4.index tL8 a * main_v126_0.ty.shape.size a) = fun _ => 0 := funext fun a => by
    match a with
    | ⟨0, _⟩ => show win8_4.index tL8 0 * _ = 0; rw [(idx8_4 tL8).1, Nat.zero_mul]
    | ⟨1, _⟩ => show win8_4.index tL8 1 * _ = 0; rw [(idx8_4 tL8).2, Nat.zero_mul]
  exact (Memref.read_access_unit_zero (Elt F) main_v126_0 hz' (fun a => by rw [congrFun hz' a]; simp) (G8_4 V c)).symm

theorem final8_4 (c : Dev nD) : (dat8 V c).arrAt 4 cfg8.N = G8_4 V c :=
  (dat8 V c).arrAt_eq_of_cover 4 (G8_4 V c) (flushed8_4 V c) fun i =>
    ⟨tL8, (flush8_4 tL8).mpr (by rw [tL8_val]), by
      show i ∈ ((View.whole main_v126_0).slice (win8_4.rect tL8)).set
      rw [View.set_slice_whole, Rect.mem_set_unit]
      intro a
      have h0 : (i 0 : Nat) < 1 := (i 0).isLt
      have h1 : (i 1 : Nat) < 128 := (i 1).isLt
      match a with
      | ⟨0, _⟩ => show win8_4.index tL8 0 * win8_4.size 0 ≤ (i 0 : Nat) ∧ (i 0 : Nat) < win8_4.index tL8 0 * win8_4.size 0 + win8_4.xsize (grid8.coords tL8) 0
                  rw [(idx8_4 tL8).1, (xsz8_4 tL8).1]; omega
      | ⟨1, _⟩ => show win8_4.index tL8 1 * win8_4.size 1 ≤ (i 1 : Nat) ∧ (i 1 : Nat) < win8_4.index tL8 1 * win8_4.size 1 + win8_4.xsize (grid8.coords tL8) 1
                  rw [(idx8_4 tL8).2, (xsz8_4 tL8).2]; omega⟩

theorem idx8_5 : ∀ t : Fin cfg8.N, win8_5.index t 0 = 0 ∧ win8_5.index t 1 = 0 := by
  intro t; rcases fin_N8 t with rfl | rfl | rfl | rfl | rfl | rfl | rfl | rfl | rfl | rfl <;> decide
theorem xsz8_5 : ∀ t : Fin cfg8.N, win8_5.xsize (grid8.coords t) 0 = 1 ∧ win8_5.xsize (grid8.coords t) 1 = 128 := by
  intro t; rcases fin_N8 t with rfl | rfl | rfl | rfl | rfl | rfl | rfl | rfl | rfl | rfl <;> decide +kernel

/-- What the region leaves in its result array: the row stored at the last point. -/
def G8_5 (c : Dev nD) : Buf (Elt F) ((c : Thread nD τ).loc main_v126_1) := (outsAt8 V c tL8.val tL8.isLt).2.1

theorem flushed8_5 (c : Dev nD) (t : Fin cfg8.N) (hf : (cfg8.win 5).flush t = true) :
    (dat8 V c).flushed 5 t = ((cfg8.win 5).blk t).view.read (Elt F) (G8_5 V c) := by
  have hN : cfg8.N = 10 := N_8
  have h1 : t.val = 9 := by have := (flush8_5 t).mp hf; have := t.isLt; omega
  obtain rfl : t = tL8 := Fin.ext (h1.trans tL8_val.symm)
  show (cfg8.win 5).cut (grid8.coords tL8) ((dat8 V c).after 5 tL8) = _
  rw [after8_5]
  have hz' : (fun a => win8_5.index tL8 a * main_v126_1.ty.shape.size a) = fun _ => 0 := funext fun a => by
    match a with
    | ⟨0, _⟩ => show win8_5.index tL8 0 * _ = 0; rw [(idx8_5 tL8).1, Nat.zero_mul]
    | ⟨1, _⟩ => show win8_5.index tL8 1 * _ = 0; rw [(idx8_5 tL8).2, Nat.zero_mul]
  exact (Memref.read_access_unit_zero (Elt F) main_v126_1 hz' (fun a => by rw [congrFun hz' a]; simp) (G8_5 V c)).symm

theorem final8_5 (c : Dev nD) : (dat8 V c).arrAt 5 cfg8.N = G8_5 V c :=
  (dat8 V c).arrAt_eq_of_cover 5 (G8_5 V c) (flushed8_5 V c) fun i =>
    ⟨tL8, (flush8_5 tL8).mpr (by rw [tL8_val]), by
      show i ∈ ((View.whole main_v126_1).slice (win8_5.rect tL8)).set
      rw [View.set_slice_whole, Rect.mem_set_unit]
      intro a
      have h0 : (i 0 : Nat) < 1 := (i 0).isLt
      have h1 : (i 1 : Nat) < 128 := (i 1).isLt
      match a with
      | ⟨0, _⟩ => show win8_5.index tL8 0 * win8_5.size 0 ≤ (i 0 : Nat) ∧ (i 0 : Nat) < win8_5.index tL8 0 * win8_5.size 0 + win8_5.xsize (grid8.coords tL8) 0
                  rw [(idx8_5 tL8).1, (xsz8_5 tL8).1]; omega
      | ⟨1, _⟩ => show win8_5.index tL8 1 * win8_5.size 1 ≤ (i 1 : Nat) ∧ (i 1 : Nat) < win8_5.index tL8 1 * win8_5.size 1 + win8_5.xsize (grid8.coords tL8) 1
                  rw [(idx8_5 tL8).2, (xsz8_5 tL8).2]; omega⟩

end Cert.KernelIdeal.Hand

end
-- ==== Proof.Pay8.lean ====
/-
  The payloads of pipeline 8's body (a statistics kernel) at the ideal values, read at an index: the tile
  quantity whose column statistics the kernel takes, the two running rows after a tile, the zero rows of the reset,
  and the mean, scale and shift the last point computes. A change of float format is the identity on the extended
  reals, a matrix product into a zero accumulator is the row-by-column sum, a lane reduction is a finite sum.
-/
import proofs.«180905_j29583734735286_1_alg».proof.Proof.Gen.KernelIdeal.Skeleton
import Idealize.ShloMosaic.Lib.ValueIdx
import Idealize.ShloMosaic.Lib.Pipeline.Value
import Idealize.ShloMosaic.PureOps.Ideal.Laws
import proofs.«180905_j29583734735286_1_alg».proof.Proof.LibDense
import proofs.«180905_j29583734735286_1_alg».proof.Proof.LibAxisSum
import proofs.«180905_j29583734735286_1_alg».proof.Proof.LibBiasRows

noncomputable section

namespace Cert.Proof.Pay8

open Idealize.ShloMosaic Idealize.ShloMosaic.ValueIdx Cert.KernelIdeal Cert.KernelIdeal.Gen
open scoped BigOperators

abbrev r0 (j : Fin 128) : S1x128.Idx := ix2 ⟨0, Nat.one_pos⟩ j
abbrev zW : EReal := Ideal.ofBits .f32 0x00000000#32

theorem inv_n : Named.named (F := Ideal) Cert.KernelIdeal.κ "inv_50000" (φ := .f32) 0x37A7C5AC#32
    = ((1 / 50000 : ℝ) : EReal) :=
  IdealRules.named_const.ideal_named_scalar _ _ _ _ rfl

/-- The tile quantity. -/
abbrev q (x0 : FVec Ideal S5000x128 .f32) (x1 : FVec Ideal S128x128 .bf16) : FVec Ideal S5000x128 .f32 := k8_pay3 x0 x1

theorem q_apply (x0 : FVec Ideal S5000x128 .f32) (x1 : FVec Ideal S128x128 .bf16) (y : Fin 5000) (j : Fin 128) :
    q x0 x1 (ix2 y j) = ∑ k : Fin 128, x0 (ix2 y k) * x1 (ix2 k j) := by
  unfold q k8_pay3
  simp only [shapeCast_self]
  exact Cert.LibDense.matmul_plain (M := 5000) (K := 128) (N := 128) (φ₁ := .bf16) (φ₂ := .bf16) _ x1 (ix2 y j)

theorem total_apply (x0 : FVec Ideal S5000x128 .f32) (x1 : FVec Ideal S128x128 .bf16) (old : FVec Ideal S1x128 .f32) (j : Fin 128) :
    (k8_pay4 x0 x1 old : FVec Ideal S1x128 .f32) (r0 j) = old (r0 j) + ∑ y : Fin 5000, q x0 x1 (ix2 y j) := by
  unfold k8_pay4
  simp only [shapeCast_self]
  refine congrArg (fun z => old (r0 j) + z) ?_
  refine (Cert.LibBiasRows.row_of_vector _ _ j).trans ?_
  exact Cert.LibAxisSum.sum_first (n := 5000) (d := 128) _ _ _ _ _ j

theorem total_sq_apply (x0 : FVec Ideal S5000x128 .f32) (x1 : FVec Ideal S128x128 .bf16) (old : FVec Ideal S1x128 .f32) (j : Fin 128) :
    (k8_pay5 x0 x1 old : FVec Ideal S1x128 .f32) (r0 j) = old (r0 j) + ∑ y : Fin 5000, q x0 x1 (ix2 y j) * q x0 x1 (ix2 y j) := by
  unfold k8_pay5
  simp only [shapeCast_self]
  refine congrArg (fun z => old (r0 j) + z) ?_
  refine (Cert.LibBiasRows.row_of_vector _ _ j).trans ?_
  exact Cert.LibAxisSum.sum_first (n := 5000) (d := 128) _ _ _ _ _ j

theorem zeroS (j : Fin 128) : (k8_pay1 (F := Ideal) : S1x128.Idx → EReal) (r0 j) = 0 := by
  unfold k8_pay1; rw [shapeCast_self]; exact Ideal.ofBits_zero_f32
theorem zeroQ (j : Fin 128) : (k8_pay2 (F := Ideal) : S1x128.Idx → EReal) (r0 j) = 0 := by
  unfold k8_pay2; rw [shapeCast_self]; exact Ideal.ofBits_zero_f32

theorem mean_apply (v27 : FVec Ideal S1x128 .f32) (j : Fin 128) :
    k8_pay6 (F := Ideal) v27 (r0 j) = v27 (r0 j) * ((1 / 50000 : ℝ) : EReal) := by
  unfold k8_pay6
  exact congrArg (fun z => v27 (r0 j) * z) inv_n

theorem scale_apply (v27 v30 v35 : FVec Ideal S1x128 .f32) (j : Fin 128) :
    k8_pay7 (F := Ideal) v27 v30 v35 (r0 j)
      = v35 (r0 j) * Ideal.rsqrt (v30 (r0 j) * ((1 / 50000 : ℝ) : EReal)
          - v27 (r0 j) * ((1 / 50000 : ℝ) : EReal) * (v27 (r0 j) * ((1 / 50000 : ℝ) : EReal))
          + Ideal.ofBits .f32 0x3727C5AC#32) := by
  unfold k8_pay7
  rw [shapeCast_self]
  show v35 (r0 j) * Ideal.rsqrt (v30 (r0 j) * Named.named (F := Ideal) Cert.KernelIdeal.κ "inv_50000" (φ := .f32) 0x37A7C5AC#32
      - k8_pay6 (F := Ideal) v27 (r0 j) * k8_pay6 (F := Ideal) v27 (r0 j) + Ideal.ofBits .f32 0x3727C5AC#32) = _
  rw [mean_apply, inv_n]

theorem shift_apply (v27 v30 v35 v41 : FVec Ideal S1x128 .f32) (j : Fin 128) :
    k8_pay8 (F := Ideal) v27 v30 v35 v41 (r0 j)
      = v41 (r0 j) - v27 (r0 j) * ((1 / 50000 : ℝ) : EReal) * k8_pay7 (F := Ideal) v27 v30 v35 (r0 j) := by
  unfold k8_pay8
  rw [shapeCast_self]
  show v41 (r0 j) - k8_pay6 (F := Ideal) v27 (r0 j) * k8_pay7 (F := Ideal) v27 v30 v35 (r0 j) = _
  rw [mean_apply]

end Cert.Proof.Pay8

end
-- ==== Proof.R8Sum.lean ====
/-
  Pipeline 8 (a statistics kernel), at the ideal values: what the region leaves in its two result arrays.
  The tile of x a point holds is rows 5000·t … 5000·t + 4999 of x; every other input block is its whole array at
  every point. The quantity whose statistics the kernel takes reads one row of x, so on a tile it is the whole
  array's quantity at the tile's rows; the running rows therefore end at its column totals over all 50000 rows
  (a running total over the ten tiles), and the stored scale and shift are the batch-norm formulas of those totals.
  Each result array is written back once, at the last point, whole.
-/
import proofs.«180905_j29583734735286_1_alg».proof.Proof.R8Val
import proofs.«180905_j29583734735286_1_alg».proof.Proof.R8Arr
import proofs.«180905_j29583734735286_1_alg».proof.Proof.Pay8
import proofs.«180905_j29583734735286_1_alg».proof.Proof.LibTiledTotals
import proofs.«180905_j29583734735286_1_alg».proof.Proof.Spec
import proofs.«180905_j29583734735286_1_alg».proof.Proof.ValCommon
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibBatchNorm (rowOf)
open scoped BigOperators

variable (V : (c : Dev nD) → (b : Ref sig .tc) → Buf (Elt Ideal) ((c : Thread nD τ).loc b))

abbrev r0_8 (j : Fin 128) : S1x128.Idx := ix2 ⟨0, Nat.one_pos⟩ j
theorem lt_N8 (t : Fin (9 + 1)) : t.val < cfg8.N := lt_of_lt_of_eq t.isLt N_8.symm

def in8_0 (c : Dev nD) (r : Fin 50000) (k : Fin 128) : EReal := (V c main_v101 : S50000x128.Idx → EReal) (ix2 r k)
theorem idx8_0 : ∀ t : Fin cfg8.N, win8_0.index t 0 = t.val ∧ win8_0.index t 1 = 0 := by
  intro t; rcases fin_N8 t with rfl | rfl | rfl | rfl | rfl | rfl | rfl | rfl | rfl | rfl <;> decide
theorem tile8_0 (c : Dev nD) (t : Fin cfg8.N) (y : Fin 5000) (k : Fin 128) (R : Fin 50000) (hR : R.val = t.val * 5000 + y.val) :
    (iblk8 V c 0 t : Vec Ideal S5000x128 .f32) (ix2 y k) = in8_0 V c R k := by
  unfold iblk8 in8_0
  rw [View.read_apply]
  show (V c main_v101 : S50000x128.Idx → EReal) _ = (V c main_v101 : S50000x128.Idx → EReal) _
  congr 1
  funext a
  apply Fin.ext
  match a with
  | ⟨0, _⟩ => show win8_0.index t 0 * 5000 + 1 * y.val = R.val; rw [(idx8_0 t).1, hR]; omega
  | ⟨1, _⟩ => show win8_0.index t 1 * 128 + 1 * k.val = k.val; rw [(idx8_0 t).2]; omega
theorem blk8_0 (c : Dev nD) (t : Fin (9 + 1)) (y : Fin 5000) (k : Fin 128) :
    (iblk8 V c 0 ⟨t.val, lt_N8 t⟩ : FVec Ideal S5000x128 .f32) (ix2 y k) = in8_0 V c (rowOf h50000 t y) k :=
  tile8_0 V c ⟨t.val, lt_N8 t⟩ y k (rowOf h50000 t y) rfl

def in8_1 (c : Dev nD) (k j : Fin 128) : EReal := (V c main_v104 : S128x128.Idx → EReal) (ix2 k j)
theorem idx8_1 : ∀ t : Fin cfg8.N, win8_1.index t 0 = 0 ∧ win8_1.index t 1 = 0 := by
  intro t; rcases fin_N8 t with rfl | rfl | rfl | rfl | rfl | rfl | rfl | rfl | rfl | rfl <;> decide
theorem res8_1 (c : Dev nD) (t : Fin cfg8.N) (k j : Fin 128) :
    (iblk8 V c 1 t : Vec Ideal S128x128 .bf16) (ix2 k j) = in8_1 V c k j := by
  unfold iblk8 in8_1
  rw [View.read_apply]
  show (V c main_v104 : S128x128.Idx → EReal) _ = (V c main_v104 : S128x128.Idx → EReal) _
  congr 1
  funext a
  apply Fin.ext
  match a with
  | ⟨0, _⟩ => show win8_1.index t 0 * 128 + 1 * k.val = k.val; rw [(idx8_1 t).1]; omega
  | ⟨1, _⟩ => show win8_1.index t 1 * 128 + 1 * j.val = j.val; rw [(idx8_1 t).2]; omega
theorem blk8_1 (c : Dev nD) (t : Fin (9 + 1)) (k j : Fin 128) :
    (iblk8 V c 1 ⟨t.val, lt_N8 t⟩ : FVec Ideal S128x128 .bf16) (ix2 k j) = in8_1 V c k j :=
  res8_1 V c ⟨t.val, lt_N8 t⟩ k j

def in8_2 (c : Dev nD) (j : Fin 128) : EReal := (V c main_v110 : S1x128.Idx → EReal) (ix2 ⟨0, Nat.one_pos⟩ j)
theorem idx8_2 : ∀ t : Fin cfg8.N, win8_2.index t 0 = 0 ∧ win8_2.index t 1 = 0 := by
  intro t; rcases fin_N8 t with rfl | rfl | rfl | rfl | rfl | rfl | rfl | rfl | rfl | rfl <;> decide
theorem res8_2 (c : Dev nD) (t : Fin cfg8.N) (j : Fin 128) :
    (iblk8 V c 2 t : Vec Ideal S1x128 .f32) (ix2 ⟨0, Nat.one_pos⟩ j) = in8_2 V c j := by
  unfold iblk8 in8_2
  rw [View.read_apply]
  show (V c main_v110 : S1x128.Idx → EReal) _ = (V c main_v110 : S1x128.Idx → EReal) _
  congr 1
  funext a
  apply Fin.ext
  match a with
  | ⟨0, _⟩ => show win8_2.index t 0 * 1 + 1 * 0 = 0; rw [(idx8_2 t).1]
  | ⟨1, _⟩ => show win8_2.index t 1 * 128 + 1 * j.val = j.val; rw [(idx8_2 t).2]; omega
theorem blk8_2 (c : Dev nD) (t : Fin (9 + 1)) (j : Fin 128) :
    (iblk8 V c 2 ⟨t.val, lt_N8 t⟩ : FVec Ideal S1x128 .f32) (ix2 ⟨0, Nat.one_pos⟩ j) = in8_2 V c j :=
  res8_2 V c ⟨t.val, lt_N8 t⟩ j

def in8_3 (c : Dev nD) (j : Fin 128) : EReal := (V c main_v113 : S1x128.Idx → EReal) (ix2 ⟨0, Nat.one_pos⟩ j)
theorem idx8_3 : ∀ t : Fin cfg8.N, win8_3.index t 0 = 0 ∧ win8_3.index t 1 = 0 := by
  intro t; rcases fin_N8 t with rfl | rfl | rfl | rfl | rfl | rfl | rfl | rfl | rfl | rfl <;> decide
theorem res8_3 (c : Dev nD) (t : Fin cfg8.N) (j : Fin 128) :
    (iblk8 V c 3 t : Vec Ideal S1x128 .f32) (ix2 ⟨0, Nat.one_pos⟩ j) = in8_3 V c j := by
  unfold iblk8 in8_3
  rw [View.read_apply]
  show (V c main_v113 : S1x128.Idx → EReal) _ = (V c main_v113 : S1x128.Idx → EReal) _
  congr 1
  funext a
  apply Fin.ext
  match a with
  | ⟨0, _⟩ => show win8_3.index t 0 * 1 + 1 * 0 = 0; rw [(idx8_3 t).1]
  | ⟨1, _⟩ => show win8_3.index t 1 * 128 + 1 * j.val = j.val; rw [(idx8_3 t).2]; omega
theorem blk8_3 (c : Dev nD) (t : Fin (9 + 1)) (j : Fin 128) :
    (iblk8 V c 3 ⟨t.val, lt_N8 t⟩ : FVec Ideal S1x128 .f32) (ix2 ⟨0, Nat.one_pos⟩ j) = in8_3 V c j :=
  res8_3 V c ⟨t.val, lt_N8 t⟩ j

/-- The quantity whose column statistics this kernel takes, over all rows. -/
abbrev GQ8 (c : Dev nD) : Fin 50000 → Fin 128 → EReal := Cert.Spec.lin (in8_0 V c) (in8_1 V c)

theorem tile_q8 (c : Dev nD) (t : Fin (9 + 1)) (y : Fin 5000) (j : Fin 128) :
    Cert.Proof.Pay8.q (iblk8 V c 0 ⟨t.val, lt_N8 t⟩) (iblk8 V c 1 ⟨t.val, lt_N8 t⟩) (ix2 y j) = GQ8 V c (rowOf h50000 t y) j := by
  rw [Cert.Proof.Pay8.q_apply]
  simp only [blk8_0 V c t, blk8_1 V c t, Cert.Spec.lin, Cert.Spec.relu, Cert.Spec.aff]

def accS8 (c : Dev nD) (n : ℕ) (hn : n < cfg8.N) (j : Fin 128) : EReal := ((outsAt8 V c n hn).2.2.1 : S1x128.Idx → EReal) (r0_8 j)
def accQ8 (c : Dev nD) (n : ℕ) (hn : n < cfg8.N) (j : Fin 128) : EReal := ((outsAt8 V c n hn).2.2.2 : S1x128.Idx → EReal) (r0_8 j)

theorem accS8_zero (c : Dev nD) (j : Fin 128) : accS8 V c 0 (lt_N8 0) j = 0 + ∑ y : Fin 5000, GQ8 V c (rowOf h50000 0 y) j := by
  have e := outsAt8_A V c ⟨0, lt_N8 0⟩ rfl (c0_zero8 _) (nc1_zero8 _)
  unfold accS8
  rw [show outsAt8 V c 0 (lt_N8 0) = _ from e]
  dsimp only
  rw [pieceA8_S, Cert.Proof.Pay8.total_apply, Cert.Proof.Pay8.zeroS]
  exact congrArg (fun z => (0 : EReal) + z) (Finset.sum_congr rfl fun y _ => tile_q8 V c 0 y j)

theorem accQ8_zero (c : Dev nD) (j : Fin 128) : accQ8 V c 0 (lt_N8 0) j = 0 + ∑ y : Fin 5000, GQ8 V c (rowOf h50000 0 y) j * GQ8 V c (rowOf h50000 0 y) j := by
  have e := outsAt8_A V c ⟨0, lt_N8 0⟩ rfl (c0_zero8 _) (nc1_zero8 _)
  unfold accQ8
  rw [show outsAt8 V c 0 (lt_N8 0) = _ from e]
  dsimp only
  rw [pieceA8_Q, Cert.Proof.Pay8.total_sq_apply, Cert.Proof.Pay8.zeroQ]
  exact congrArg (fun z => (0 : EReal) + z) (Finset.sum_congr rfl fun y _ => congrArg₂ (· * ·) (tile_q8 V c 0 y j) (tile_q8 V c 0 y j))

theorem accS8_succ (c : Dev nD) (n : ℕ) (hn : n + 1 < 9 + 1) (j : Fin 128) :
    accS8 V c (n + 1) (lt_N8 ⟨n + 1, hn⟩) j = accS8 V c n (lt_N8 ⟨n, Nat.lt_of_succ_lt hn⟩) j + ∑ y : Fin 5000, GQ8 V c (rowOf h50000 ⟨n + 1, hn⟩ y) j := by
  have hz : (⟨n + 1, lt_N8 ⟨n + 1, hn⟩⟩ : Fin cfg8.N).val ≠ 0 := Nat.succ_ne_zero n
  have hc0 := nc0_succ8 n (lt_N8 ⟨n + 1, hn⟩)
  unfold accS8
  by_cases h1 : (n + 1) % 10 = 9
  · have hc1 : cond8_1 (grid8.coords ⟨n + 1, lt_N8 ⟨n + 1, hn⟩⟩) := (hcond8_1 _).mpr h1
    have e := outsAt8_C V c ⟨n + 1, lt_N8 ⟨n + 1, hn⟩⟩ hz h1 hc0 hc1
    rw [show outsAt8 V c (n + 1) (lt_N8 ⟨n + 1, hn⟩) = _ from e]
    dsimp only
    rw [pieceC8_S, Cert.Proof.Pay8.total_apply]
    exact congrArg₂ (· + ·) rfl (Finset.sum_congr rfl fun y _ => tile_q8 V c ⟨n + 1, hn⟩ y j)
  · have hc1 : ¬cond8_1 (grid8.coords ⟨n + 1, lt_N8 ⟨n + 1, hn⟩⟩) := fun h => h1 ((hcond8_1 _).mp h)
    have e := outsAt8_B V c ⟨n + 1, lt_N8 ⟨n + 1, hn⟩⟩ hz h1 hc0 hc1
    rw [show outsAt8 V c (n + 1) (lt_N8 ⟨n + 1, hn⟩) = _ from e]
    dsimp only
    rw [pieceB8_S, Cert.Proof.Pay8.total_apply]
    exact congrArg₂ (· + ·) rfl (Finset.sum_congr rfl fun y _ => tile_q8 V c ⟨n + 1, hn⟩ y j)

theorem accQ8_succ (c : Dev nD) (n : ℕ) (hn : n + 1 < 9 + 1) (j : Fin 128) :
    accQ8 V c (n + 1) (lt_N8 ⟨n + 1, hn⟩) j = accQ8 V c n (lt_N8 ⟨n, Nat.lt_of_succ_lt hn⟩) j + ∑ y : Fin 5000, GQ8 V c (rowOf h50000 ⟨n + 1, hn⟩ y) j * GQ8 V c (rowOf h50000 ⟨n + 1, hn⟩ y) j := by
  have hz : (⟨n + 1, lt_N8 ⟨n + 1, hn⟩⟩ : Fin cfg8.N).val ≠ 0 := Nat.succ_ne_zero n
  have hc0 := nc0_succ8 n (lt_N8 ⟨n + 1, hn⟩)
  unfold accQ8
  by_cases h1 : (n + 1) % 10 = 9
  · have hc1 : cond8_1 (grid8.coords ⟨n + 1, lt_N8 ⟨n + 1, hn⟩⟩) := (hcond8_1 _).mpr h1
    have e := outsAt8_C V c ⟨n + 1, lt_N8 ⟨n + 1, hn⟩⟩ hz h1 hc0 hc1
    rw [show outsAt8 V c (n + 1) (lt_N8 ⟨n + 1, hn⟩) = _ from e]
    dsimp only
    rw [pieceC8_Q, Cert.Proof.Pay8.total_sq_apply]
    exact congrArg₂ (· + ·) rfl (Finset.sum_congr rfl fun y _ => congrArg₂ (· * ·) (tile_q8 V c ⟨n + 1, hn⟩ y j) (tile_q8 V c ⟨n + 1, hn⟩ y j))
  · have hc1 : ¬cond8_1 (grid8.coords ⟨n + 1, lt_N8 ⟨n + 1, hn⟩⟩) := fun h => h1 ((hcond8_1 _).mp h)
    have e := outsAt8_B V c ⟨n + 1, lt_N8 ⟨n + 1, hn⟩⟩ hz h1 hc0 hc1
    rw [show outsAt8 V c (n + 1) (lt_N8 ⟨n + 1, hn⟩) = _ from e]
    dsimp only
    rw [pieceB8_Q, Cert.Proof.Pay8.total_sq_apply]
    exact congrArg₂ (· + ·) rfl (Finset.sum_congr rfl fun y _ => congrArg₂ (· * ·) (tile_q8 V c ⟨n + 1, hn⟩ y j) (tile_q8 V c ⟨n + 1, hn⟩ y j))

theorem totS8 (c : Dev nD) (j : Fin 128) : accS8 V c 9 (lt_N8 9) j = Cert.Spec.colS (GQ8 V c) j :=
  Cert.LibTiledTotals.tiled_total h50000 (GQ8 V c) (fun t j => ∑ y : Fin 5000, GQ8 V c (rowOf h50000 t y) j) (fun _ _ => rfl)
    (fun t j => accS8 V c t.val (lt_N8 t) j) (accS8_zero V c) (fun t j => accS8_succ V c t.val (Nat.succ_lt_succ t.isLt) j) j
theorem totQ8 (c : Dev nD) (j : Fin 128) : accQ8 V c 9 (lt_N8 9) j = Cert.Spec.colQ (GQ8 V c) j :=
  Cert.LibTiledTotals.tiled_total_sq h50000 (GQ8 V c) (fun t j => ∑ y : Fin 5000, GQ8 V c (rowOf h50000 t y) j * GQ8 V c (rowOf h50000 t y) j) (fun _ _ => rfl)
    (fun t j => accQ8 V c t.val (lt_N8 t) j) (accQ8_zero V c) (fun t j => accQ8_succ V c t.val (Nat.succ_lt_succ t.isLt) j) j
theorem totS8' (c : Dev nD) (t : Fin cfg8.N) (h9 : t.val = 9) (j : Fin 128) : accS8 V c t.val t.isLt j = Cert.Spec.colS (GQ8 V c) j := by
  obtain rfl : t = ⟨9, lt_N8 9⟩ := Fin.ext h9
  exact totS8 V c j
theorem totQ8' (c : Dev nD) (t : Fin cfg8.N) (h9 : t.val = 9) (j : Fin 128) : accQ8 V c t.val t.isLt j = Cert.Spec.colQ (GQ8 V c) j := by
  obtain rfl : t = ⟨9, lt_N8 9⟩ := Fin.ext h9
  exact totQ8 V c j

abbrev pS8 (c : Dev nD) (t : Fin cfg8.N) : Vec Ideal S1x128 .f32 := (outsAt8 V c (t.val - 1) (Nat.lt_of_le_of_lt (Nat.sub_le _ _) t.isLt)).2.2.1
abbrev pQ8 (c : Dev nD) (t : Fin cfg8.N) : Vec Ideal S1x128 .f32 := (outsAt8 V c (t.val - 1) (Nat.lt_of_le_of_lt (Nat.sub_le _ _) t.isLt)).2.2.2
abbrev S9_8 (c : Dev nD) (t : Fin cfg8.N) : Vec Ideal S1x128 .f32 := k8_pay4 (iblk8 V c 0 t) (iblk8 V c 1 t) (pS8 V c t)
abbrev Q9_8 (c : Dev nD) (t : Fin cfg8.N) : Vec Ideal S1x128 .f32 := k8_pay5 (iblk8 V c 0 t) (iblk8 V c 1 t) (pQ8 V c t)

set_option maxHeartbeats 3200000 in
theorem last8 (c : Dev nD) (t : Fin cfg8.N) (h9 : t.val = 9) :
    outsAt8 V c t.val t.isLt = (k8_pay7 (S9_8 V c t) (Q9_8 V c t) (iblk8 V c 2 t), k8_pay8 (S9_8 V c t) (Q9_8 V c t) (iblk8 V c 2 t) (iblk8 V c 3 t), S9_8 V c t, Q9_8 V c t) := by
  have h9' : t.val % 10 = 9 := by rw [h9]
  have hz : t.val ≠ 0 := by rw [h9]; decide
  have hc0 : ¬cond8_0 (grid8.coords t) := fun h => by have := (hcond8_0 t).mp h; omega
  have hc1 : cond8_1 (grid8.coords t) := (hcond8_1 t).mpr h9'
  refine (outsAt8_C V c t hz h9' hc0 hc1).trans ?_
  rw [(pieceC8_1 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (pS8 V c t) (pQ8 V c t)), (pieceC8_2 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (pS8 V c t) (pQ8 V c t)), (pieceC8_S (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (pS8 V c t) (pQ8 V c t)), (pieceC8_Q (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) hc0 hc1 (iblk8 V c 0 t) (iblk8 V c 1 t) (iblk8 V c 2 t) (iblk8 V c 3 t) (pS8 V c t) (pQ8 V c t))]

theorem scale8_val (c : Dev nD) (t : Fin cfg8.N) (h9 : t.val = 9) (j : Fin 128) :
    ((outsAt8 V c t.val t.isLt).1 : S1x128.Idx → EReal) (r0_8 j) = Cert.Spec.scaleK (GQ8 V c) (in8_2 V c) cW epsW j := by
  have hS : (S9_8 V c t : S1x128.Idx → EReal) (r0_8 j) = Cert.Spec.colS (GQ8 V c) j := by
    rw [← totS8' V c t h9]; unfold accS8; rw [last8 V c t h9]
  have hQ : (Q9_8 V c t : S1x128.Idx → EReal) (r0_8 j) = Cert.Spec.colQ (GQ8 V c) j := by
    rw [← totQ8' V c t h9]; unfold accQ8; rw [last8 V c t h9]
  rw [last8 V c t h9]
  dsimp only
  rw [Cert.Proof.Pay8.scale_apply, hS, hQ, res8_2 V c t j]
  rfl

theorem shift8_val (c : Dev nD) (t : Fin cfg8.N) (h9 : t.val = 9) (j : Fin 128) :
    ((outsAt8 V c t.val t.isLt).2.1 : S1x128.Idx → EReal) (r0_8 j) = Cert.Spec.shiftK (GQ8 V c) (in8_2 V c) (in8_3 V c) cW epsW j := by
  have hS : (S9_8 V c t : S1x128.Idx → EReal) (r0_8 j) = Cert.Spec.colS (GQ8 V c) j := by
    rw [← totS8' V c t h9]; unfold accS8; rw [last8 V c t h9]
  have hsc := scale8_val V c t h9 j
  rw [last8 V c t h9] at hsc
  dsimp only at hsc
  rw [last8 V c t h9]
  dsimp only
  rw [Cert.Proof.Pay8.shift_apply, hsc, hS, res8_3 V c t j]
  rfl

/-- THE REGION'S VALUE: the two result arrays after the region are the batch norm's scale and shift rows. -/
theorem scaleArr8 (c : Dev nD) (j : Fin 128) :
    ((dat8 V c).arrAt 4 cfg8.N : S1x128.Idx → EReal) (r0_8 j) = Cert.Spec.scaleK (GQ8 V c) (in8_2 V c) cW epsW j := by
  rw [final8_4]; unfold G8_4
  exact scale8_val V c tL8 tL8_val j
theorem shiftArr8 (c : Dev nD) (j : Fin 128) :
    ((dat8 V c).arrAt 5 cfg8.N : S1x128.Idx → EReal) (r0_8 j) = Cert.Spec.shiftK (GQ8 V c) (in8_2 V c) (in8_3 V c) cW epsW j := by
  rw [final8_5]; unfold G8_5
  exact shift8_val V c tL8 tL8_val j

end Cert.KernelIdeal.Hand

end
-- ==== Proof.R9Val.lean ====
/-
  Pipeline 9 (a statistics kernel): each case's stores read back as the body's arithmetic. A buffer stored whole
  holds the stored value, and a load of it after the store reads that value: after the first tile the running rows
  are the tile's totals added to the zero rows, after a later tile the totals added to what the tile before left,
  and at the last tile the scale and the shift are computed from the rows as this tile leaves them.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R9B
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2_9 : (![0, 0] : Fin 2 → Nat) = fun _ => 0 := funext fun a => by fin_cases a <;> rfl

theorem pieceA9_S (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond9_0 i) (hc1 : ¬cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) :
    rd9 (F := F) (kernelRun9_A c i arg1 harg1 arg2 harg2 arg3 harg3 arg4 harg4 arg5 harg5 arg6 harg6 arg7 harg7 arg8 harg8 arg9 harg9 arg10 harg10 arg11 harg11 hc0 hc1 x0 x1 x2 x3 x4 x5 x6).1 = k9_pay8 x0 x1 x3 x4 x2 (k9_pay5 (F := F)) := by
  unfold rd9
  rw [View.read_writes_eq_canon _ _ _ (scoverA9_0 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun9_A
  dsimp only
  try sl_unfold_words
  first | rw [View.canon_cons_unit_zero (S := S1x128) hz2_9] | rw [View.canon_unit_zero hz2_9]
  simp only [View.readCov_unit_zero (S := S1x128) _ hz2_9, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_9, View.ld_unit_zero (S := S128x128) hz2_9, View.ld_unit_zero (S := S1x128) hz2_9]

theorem pieceA9_Q (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond9_0 i) (hc1 : ¬cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) :
    rd9 (F := F) (kernelRun9_A c i arg1 harg1 arg2 harg2 arg3 harg3 arg4 harg4 arg5 harg5 arg6 harg6 arg7 harg7 arg8 harg8 arg9 harg9 arg10 harg10 arg11 harg11 hc0 hc1 x0 x1 x2 x3 x4 x5 x6).2.1 = k9_pay1 (k9_pay6 (F := F)) (k9_pay9 x0 x1 x3 x4 x2) := by
  unfold rd9
  rw [View.read_writes_eq_canon _ _ _ (scoverA9_1 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun9_A
  dsimp only
  try sl_unfold_words
  first | rw [View.canon_cons_unit_zero (S := S1x128) hz2_9] | rw [View.canon_unit_zero hz2_9]
  simp only [View.readCov_unit_zero (S := S1x128) _ hz2_9, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_9, View.ld_unit_zero (S := S128x128) hz2_9, View.ld_unit_zero (S := S1x128) hz2_9]

theorem pieceB9_S (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : ¬cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd9 (F := F) (kernelRun9_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 = k9_pay8 x0 x1 x3 x4 x2 xs0 := by
  unfold rd9
  rw [View.read_writes_eq_canon _ _ _ (scoverB9_0 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun9_B
  dsimp only
  try sl_unfold_words
  first | rw [View.canon_cons_unit_zero (S := S1x128) hz2_9] | rw [View.canon_unit_zero hz2_9]
  simp only [View.readCov_unit_zero (S := S1x128) _ hz2_9, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_9, View.ld_unit_zero (S := S128x128) hz2_9, View.ld_unit_zero (S := S1x128) hz2_9]

theorem pieceB9_Q (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : ¬cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd9 (F := F) (kernelRun9_B c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 = k9_pay1 xs1 (k9_pay9 x0 x1 x3 x4 x2) := by
  unfold rd9
  rw [View.read_writes_eq_canon _ _ _ (scoverB9_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun9_B
  dsimp only
  try sl_unfold_words
  first | rw [View.canon_cons_unit_zero (S := S1x128) hz2_9] | rw [View.canon_unit_zero hz2_9]
  simp only [View.readCov_unit_zero (S := S1x128) _ hz2_9, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_9, View.ld_unit_zero (S := S128x128) hz2_9, View.ld_unit_zero (S := S1x128) hz2_9]

theorem pieceC9_S (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd9 (F := F) (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.1 = k9_pay8 x0 x1 x3 x4 x2 xs0 := by
  unfold rd9
  rw [View.read_writes_eq_canon _ _ _ (scoverC9_0 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun9_C
  dsimp only
  try sl_unfold_words
  first | rw [View.canon_cons_unit_zero (S := S1x128) hz2_9] | rw [View.canon_unit_zero hz2_9]
  simp only [View.readCov_unit_zero (S := S1x128) _ hz2_9, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_9, View.ld_unit_zero (S := S128x128) hz2_9, View.ld_unit_zero (S := S1x128) hz2_9]

theorem pieceC9_Q (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd9 (F := F) (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.2.2.1 = k9_pay1 xs1 (k9_pay9 x0 x1 x3 x4 x2) := by
  unfold rd9
  rw [View.read_writes_eq_canon _ _ _ (scoverC9_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun9_C
  dsimp only
  try sl_unfold_words
  first | rw [View.canon_cons_unit_zero (S := S1x128) hz2_9] | rw [View.canon_unit_zero hz2_9]
  simp only [View.readCov_unit_zero (S := S1x128) _ hz2_9, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_9, View.ld_unit_zero (S := S128x128) hz2_9, View.ld_unit_zero (S := S1x128) hz2_9]

theorem pieceC9_1 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd9 (F := F) (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).1 = k9_pay3 (k9_pay8 x0 x1 x3 x4 x2 xs0) (k9_pay1 xs1 (k9_pay9 x0 x1 x3 x4 x2)) x5 := by
  unfold rd9
  rw [View.read_writes_eq_canon _ _ _ (coverC9_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun9_C
  dsimp only
  try sl_unfold_words
  first | rw [View.canon_cons_unit_zero (S := S1x128) hz2_9] | rw [View.canon_unit_zero hz2_9]
  simp only [View.readCov_unit_zero (S := S1x128) _ hz2_9, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_9, View.ld_unit_zero (S := S128x128) hz2_9, View.ld_unit_zero (S := S1x128) hz2_9]

theorem pieceC9_2 (c : Dev nD) (i : grid9.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond9_0 i) (hc1 : cond9_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (xs0 xs1 : Vec F S1x128 .f32) :
    rd9 (F := F) (kernelRun9_C c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1).2.1 = k9_pay4 (k9_pay8 x0 x1 x3 x4 x2 xs0) (k9_pay1 xs1 (k9_pay9 x0 x1 x3 x4 x2)) x5 x6 := by
  unfold rd9
  rw [View.read_writes_eq_canon _ _ _ (coverC9_2 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun9_C
  dsimp only
  try sl_unfold_words
  first | rw [View.canon_cons_unit_zero (S := S1x128) hz2_9] | rw [View.canon_unit_zero hz2_9]
  simp only [View.readCov_unit_zero (S := S1x128) _ hz2_9, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S5000x128) hz2_9, View.ld_unit_zero (S := S128x128) hz2_9, View.ld_unit_zero (S := S1x128) hz2_9]

end Cert.KernelIdeal.Hand

end
-- ==== Proof.R9Arr.lean ====
/-
  Pipeline 9: the two result arrays after the region. Each result window is written back once, at the last
  point, and its one block is the whole [1, 128] array; so the array ends holding the row the last point stored.
-/
import proofs.«180905_j29583734735286_1_alg».proof.Proof.R9B
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The last grid point. -/
def tL9 : Fin cfg9.N := ⟨9, lt_of_lt_of_eq (by decide) N_9.symm⟩
theorem tL9_val : tL9.val = 9 := rfl
attribute [irreducible] tL9

theorem idx9_7 : ∀ t : Fin cfg9.N, win9_7.index t 0 = 0 ∧ win9_7.index t 1 = 0 := by
  intro t; rcases fin_N9 t with rfl | rfl | rfl | rfl | rfl | rfl | rfl | rfl | rfl | rfl <;> decide
theorem xsz9_7 : ∀ t : Fin cfg9.N, win9_7.xsize (grid9.coords t) 0 = 1 ∧ win9_7.xsize (grid9.coords t) 1 = 128 := by
  intro t; rcases fin_N9 t with rfl | rfl | rfl | rfl | rfl | rfl | rfl | rfl | rfl | rfl <;> decide +kernel

/-- What the region leaves in its result array: the row stored at the last point. -/
def G9_7 (c : Dev nD) : Buf (Elt F) ((c : Thread nD τ).loc main_v127_0) := (outsAt9 V c tL9.val tL9.isLt).1

theorem flushed9_7 (c : Dev nD) (t : Fin cfg9.N) (hf : (cfg9.win 7).flush t = true) :
    (dat9 V c).flushed 7 t = ((cfg9.win 7).blk t).view.read (Elt F) (G9_7 V c) := by
  have hN : cfg9.N = 10 := N_9
  have h1 : t.val = 9 := by have := (flush9_7 t).mp hf; have := t.isLt; omega
  obtain rfl : t = tL9 := Fin.ext (h1.trans tL9_val.symm)
  show (cfg9.win 7).cut (grid9.coords tL9) ((dat9 V c).after 7 tL9) = _
  rw [after9_7]
  have hz' : (fun a => win9_7.index tL9 a * main_v127_0.ty.shape.size a) = fun _ => 0 := funext fun a => by
    match a with
    | ⟨0, _⟩ => show win9_7.index tL9 0 * _ = 0; rw [(idx9_7 tL9).1, Nat.zero_mul]
    | ⟨1, _⟩ => show win9_7.index tL9 1 * _ = 0; rw [(idx9_7 tL9).2, Nat.zero_mul]
  exact (Memref.read_access_unit_zero (Elt F) main_v127_0 hz' (fun a => by rw [congrFun hz' a]; simp) (G9_7 V c)).symm

theorem final9_7 (c : Dev nD) : (dat9 V c).arrAt 7 cfg9.N = G9_7 V c :=
  (dat9 V c).arrAt_eq_of_cover 7 (G9_7 V c) (flushed9_7 V c) fun i =>
    ⟨tL9, (flush9_7 tL9).mpr (by rw [tL9_val]), by
      show i ∈ ((View.whole main_v127_0).slice (win9_7.rect tL9)).set
      rw [View.set_slice_whole, Rect.mem_set_unit]
      intro a
      have h0 : (i 0 : Nat) < 1 := (i 0).isLt
      have h1 : (i 1 : Nat) < 128 := (i 1).isLt
      match a with
      | ⟨0, _⟩ => show win9_7.index tL9 0 * win9_7.size 0 ≤ (i 0 : Nat) ∧ (i 0 : Nat) < win9_7.index tL9 0 * win9_7.size 0 + win9_7.xsize (grid9.coords tL9) 0
                  rw [(idx9_7 tL9).1, (xsz9_7 tL9).1]; omega
      | ⟨1, _⟩ => show win9_7.index tL9 1 * win9_7.size 1 ≤ (i 1 : Nat) ∧ (i 1 : Nat) < win9_7.index tL9 1 * win9_7.size 1 + win9_7.xsize (grid9.coords tL9) 1
                  rw [(idx9_7 tL9).2, (xsz9_7 tL9).2]; omega⟩

theorem idx9_8 : ∀ t : Fin cfg9.N, win9_8.index t 0 = 0 ∧ win9_8.index t 1 = 0 := by
  intro t; rcases fin_N9 t with rfl | rfl | rfl | rfl | rfl | rfl | rfl | rfl | rfl | rfl <;> decide
theorem xsz9_8 : ∀ t : Fin cfg9.N, win9_8.xsize (grid9.coords t) 0 = 1 ∧ win9_8.xsize (grid9.coords t) 1 = 128 := by
  intro t; rcases fin_N9 t with rfl | rfl | rfl | rfl | rfl | rfl | rfl | rfl | rfl | rfl <;> decide +kernel

/-- What the region leaves in its result array: the row stored at the last point. -/
def G9_8 (c : Dev nD) : Buf (Elt F) ((c : Thread nD τ).loc main_v127_1) := (outsAt9 V c tL9.val tL9.isLt).2.1

theorem flushed9_8 (c : Dev nD) (t : Fin cfg9.N) (hf : (cfg9.win 8).flush t = true) :
    (dat9 V c).flushed 8 t = ((cfg9.win 8).blk t).view.read (Elt F) (G9_8 V c) := by
  have hN : cfg9.N = 10 := N_9
  have h1 : t.val = 9 := by have := (flush9_8 t).mp hf; have := t.isLt; omega
  obtain rfl : t = tL9 := Fin.ext (h1.trans tL9_val.symm)
  show (cfg9.win 8).cut (grid9.coords tL9) ((dat9 V c).after 8 tL9) = _
  rw [after9_8]
  have hz' : (fun a => win9_8.index tL9 a * main_v127_1.ty.shape.size a) = fun _ => 0 := funext fun a => by
    match a with
    | ⟨0, _⟩ => show win9_8.index tL9 0 * _ = 0; rw [(idx9_8 tL9).1, Nat.zero_mul]
    | ⟨1, _⟩ => show win9_8.index tL9 1 * _ = 0; rw [(idx9_8 tL9).2, Nat.zero_mul]
  exact (Memref.read_access_unit_zero (Elt F) main_v127_1 hz' (fun a => by rw [congrFun hz' a]; simp) (G9_8 V c)).symm

theorem final9_8 (c : Dev nD) : (dat9 V c).arrAt 8 cfg9.N = G9_8 V c :=
  (dat9 V c).arrAt_eq_of_cover 8 (G9_8 V c) (flushed9_8 V c) fun i =>
    ⟨tL9, (flush9_8 tL9).mpr (by rw [tL9_val]), by
      show i ∈ ((View.whole main_v127_1).slice (win9_8.rect tL9)).set
      rw [View.set_slice_whole, Rect.mem_set_unit]
      intro a
      have h0 : (i 0 : Nat) < 1 := (i 0).isLt
      have h1 : (i 1 : Nat) < 128 := (i 1).isLt
      match a with
      | ⟨0, _⟩ => show win9_8.index tL9 0 * win9_8.size 0 ≤ (i 0 : Nat) ∧ (i 0 : Nat) < win9_8.index tL9 0 * win9_8.size 0 + win9_8.xsize (grid9.coords tL9) 0
                  rw [(idx9_8 tL9).1, (xsz9_8 tL9).1]; omega
      | ⟨1, _⟩ => show win9_8.index tL9 1 * win9_8.size 1 ≤ (i 1 : Nat) ∧ (i 1 : Nat) < win9_8.index tL9 1 * win9_8.size 1 + win9_8.xsize (grid9.coords tL9) 1
                  rw [(idx9_8 tL9).2, (xsz9_8 tL9).2]; omega⟩

end Cert.KernelIdeal.Hand

end
-- ==== Proof.Pay9.lean ====
/-
  The payloads of pipeline 9's body (a statistics kernel) at the ideal values, read at an index: the tile
  quantity whose column statistics the kernel takes, the two running rows after a tile, the zero rows of the reset,
  and the mean, scale and shift the last point computes. A change of float format is the identity on the extended
  reals, a matrix product into a zero accumulator is the row-by-column sum, a lane reduction is a finite sum.
-/
import proofs.«180905_j29583734735286_1_alg».proof.Proof.Gen.KernelIdeal.Skeleton
import Idealize.ShloMosaic.Lib.ValueIdx
import Idealize.ShloMosaic.Lib.Pipeline.Value
import Idealize.ShloMosaic.PureOps.Ideal.Laws
import proofs.«180905_j29583734735286_1_alg».proof.Proof.LibDense
import proofs.«180905_j29583734735286_1_alg».proof.Proof.LibAxisSum
import proofs.«180905_j29583734735286_1_alg».proof.Proof.LibBiasRows

noncomputable section

namespace Cert.Proof.Pay9

open Idealize.ShloMosaic Idealize.ShloMosaic.ValueIdx Cert.KernelIdeal Cert.KernelIdeal.Gen
open scoped BigOperators

abbrev r0 (j : Fin 128) : S1x128.Idx := ix2 ⟨0, Nat.one_pos⟩ j
abbrev zW : EReal := Ideal.ofBits .f32 0x00000000#32

theorem inv_n : Named.named (F := Ideal) Cert.KernelIdeal.κ "inv_50000" (φ := .f32) 0x37A7C5AC#32
    = ((1 / 50000 : ℝ) : EReal) :=
  IdealRules.named_const.ideal_named_scalar _ _ _ _ rfl

/-- The tile quantity. -/
abbrev q (x0 : FVec Ideal S5000x128 .f32) (x1 : FVec Ideal S128x128 .bf16) (x2 : FVec Ideal S128x128 .bf16) (x3 : FVec Ideal S1x128 .f32) (x4 : FVec Ideal S1x128 .f32) : FVec Ideal S5000x128 .f32 := k9_pay7 x0 x1 x3 x4 x2

theorem q_apply (x0 : FVec Ideal S5000x128 .f32) (x1 : FVec Ideal S128x128 .bf16) (x2 : FVec Ideal S128x128 .bf16) (x3 : FVec Ideal S1x128 .f32) (x4 : FVec Ideal S1x128 .f32) (y : Fin 5000) (j : Fin 128) :
    q x0 x1 x2 x3 x4 (ix2 y j) = ∑ k : Fin 128, max ((∑ k' : Fin 128, x0 (ix2 y k') * x1 (ix2 k' k)) * x3 (r0 k) + x4 (r0 k)) zW * x2 (ix2 k j) := by
  unfold q k9_pay7
  simp only [shapeCast_self]
  refine (Cert.LibDense.matmul_plain (M := 5000) (K := 128) (N := 128) (φ₁ := .bf16) (φ₂ := .bf16) _ x2 (ix2 y j)).trans ?_
  refine Finset.sum_congr rfl fun k _ => congrArg (fun z => z * x2 (ix2 k j)) ?_
  show max (FloatOps.matmul (DotDims.plain 5000 128 128) none _ x1 (constant (F := Ideal) S5000x128 .f32 0x00000000#32) (ix2 y k)
      * broadcastTo S5000x128 x3 broadcasts_S1x128_S5000x128 (ix2 y k)
      + broadcastTo S5000x128 x4 broadcasts_S1x128_S5000x128 (ix2 y k)) zW = _
  rw [Cert.LibBiasRows.row_broadcast (n := 5000) (d := 128) x3, Cert.LibBiasRows.row_broadcast (n := 5000) (d := 128) x4, Cert.LibDense.matmul_plain (M := 5000) (K := 128) (N := 128)]
  rfl

theorem total_apply (x0 : FVec Ideal S5000x128 .f32) (x1 : FVec Ideal S128x128 .bf16) (x2 : FVec Ideal S128x128 .bf16) (x3 : FVec Ideal S1x128 .f32) (x4 : FVec Ideal S1x128 .f32) (old : FVec Ideal S1x128 .f32) (j : Fin 128) :
    (k9_pay8 x0 x1 x3 x4 x2 old : FVec Ideal S1x128 .f32) (r0 j) = old (r0 j) + ∑ y : Fin 5000, q x0 x1 x2 x3 x4 (ix2 y j) := by
  unfold k9_pay8
  simp only [shapeCast_self]
  refine congrArg (fun z => old (r0 j) + z) ?_
  refine (Cert.LibBiasRows.row_of_vector _ _ j).trans ?_
  exact Cert.LibAxisSum.sum_first (n := 5000) (d := 128) _ _ _ _ _ j

theorem total_sq_apply (x0 : FVec Ideal S5000x128 .f32) (x1 : FVec Ideal S128x128 .bf16) (x2 : FVec Ideal S128x128 .bf16) (x3 : FVec Ideal S1x128 .f32) (x4 : FVec Ideal S1x128 .f32) (old : FVec Ideal S1x128 .f32) (j : Fin 128) :
    (k9_pay1 old (k9_pay9 x0 x1 x3 x4 x2) : FVec Ideal S1x128 .f32) (r0 j) = old (r0 j) + ∑ y : Fin 5000, q x0 x1 x2 x3 x4 (ix2 y j) * q x0 x1 x2 x3 x4 (ix2 y j) := by
  unfold k9_pay1 k9_pay9
  simp only [shapeCast_self]
  refine congrArg (fun z => old (r0 j) + z) ?_
  refine (Cert.LibBiasRows.row_of_vector _ _ j).trans ?_
  exact Cert.LibAxisSum.sum_first (n := 5000) (d := 128) _ _ _ _ _ j

theorem zeroS (j : Fin 128) : (k9_pay5 (F := Ideal) : S1x128.Idx → EReal) (r0 j) = 0 := by
  unfold k9_pay5; rw [shapeCast_self]; exact Ideal.ofBits_zero_f32
theorem zeroQ (j : Fin 128) : (k9_pay6 (F := Ideal) : S1x128.Idx → EReal) (r0 j) = 0 := by
  unfold k9_pay6; rw [shapeCast_self]; exact Ideal.ofBits_zero_f32

theorem mean_apply (v27 : FVec Ideal S1x128 .f32) (j : Fin 128) :
    k9_pay2 (F := Ideal) v27 (r0 j) = v27 (r0 j) * ((1 / 50000 : ℝ) : EReal) := by
  unfold k9_pay2
  exact congrArg (fun z => v27 (r0 j) * z) inv_n

theorem scale_apply (v27 v30 v35 : FVec Ideal S1x128 .f32) (j : Fin 128) :
    k9_pay3 (F := Ideal) v27 v30 v35 (r0 j)
      = v35 (r0 j) * Ideal.rsqrt (v30 (r0 j) * ((1 / 50000 : ℝ) : EReal)
          - v27 (r0 j) * ((1 / 50000 : ℝ) : EReal) * (v27 (r0 j) * ((1 / 50000 : ℝ) : EReal))
          + Ideal.ofBits .f32 0x3727C5AC#32) := by
  unfold k9_pay3
  rw [shapeCast_self]
  show v35 (r0 j) * Ideal.rsqrt (v30 (r0 j) * Named.named (F := Ideal) Cert.KernelIdeal.κ "inv_50000" (φ := .f32) 0x37A7C5AC#32
      - k9_pay2 (F := Ideal) v27 (r0 j) * k9_pay2 (F := Ideal) v27 (r0 j) + Ideal.ofBits .f32 0x3727C5AC#32) = _
  rw [mean_apply, inv_n]

theorem shift_apply (v27 v30 v35 v41 : FVec Ideal S1x128 .f32) (j : Fin 128) :
    k9_pay4 (F := Ideal) v27 v30 v35 v41 (r0 j)
      = v41 (r0 j) - v27 (r0 j) * ((1 / 50000 : ℝ) : EReal) * k9_pay3 (F := Ideal) v27 v30 v35 (r0 j) := by
  unfold k9_pay4
  rw [shapeCast_self]
  show v41 (r0 j) - k9_pay2 (F := Ideal) v27 (r0 j) * k9_pay3 (F := Ideal) v27 v30 v35 (r0 j) = _
  rw [mean_apply]

end Cert.Proof.Pay9

end
-- ==== Proof.R9Sum.lean ====
/-
  Pipeline 9 (a statistics kernel), at the ideal values: what the region leaves in its two result arrays.
  The tile of x a point holds is rows 5000·t … 5000·t + 4999 of x; every other input block is its whole array at
  every point. The quantity whose statistics the kernel takes reads one row of x, so on a tile it is the whole
  array's quantity at the tile's rows; the running rows therefore end at its column totals over all 50000 rows
  (a running total over the ten tiles), and the stored scale and shift are the batch-norm formulas of those totals.
  Each result array is written back once, at the last point, whole.
-/
import proofs.«180905_j29583734735286_1_alg».proof.Proof.R9Val
import proofs.«180905_j29583734735286_1_alg».proof.Proof.R9Arr
import proofs.«180905_j29583734735286_1_alg».proof.Proof.Pay9
import proofs.«180905_j29583734735286_1_alg».proof.Proof.LibTiledTotals
import proofs.«180905_j29583734735286_1_alg».proof.Proof.Spec
import proofs.«180905_j29583734735286_1_alg».proof.Proof.ValCommon
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibBatchNorm (rowOf)
open scoped BigOperators

variable (V : (c : Dev nD) → (b : Ref sig .tc) → Buf (Elt Ideal) ((c : Thread nD τ).loc b))

abbrev r0_9 (j : Fin 128) : S1x128.Idx := ix2 ⟨0, Nat.one_pos⟩ j
theorem lt_N9 (t : Fin (9 + 1)) : t.val < cfg9.N := lt_of_lt_of_eq t.isLt N_9.symm

def in9_0 (c : Dev nD) (r : Fin 50000) (k : Fin 128) : EReal := (V c main_v101 : S50000x128.Idx → EReal) (ix2 r k)
theorem idx9_0 : ∀ t : Fin cfg9.N, win9_0.index t 0 = t.val ∧ win9_0.index t 1 = 0 := by
  intro t; rcases fin_N9 t with rfl | rfl | rfl | rfl | rfl | rfl | rfl | rfl | rfl | rfl <;> decide
theorem tile9_0 (c : Dev nD) (t : Fin cfg9.N) (y : Fin 5000) (k : Fin 128) (R : Fin 50000) (hR : R.val = t.val * 5000 + y.val) :
    (iblk9 V c 0 t : Vec Ideal S5000x128 .f32) (ix2 y k) = in9_0 V c R k := by
  unfold iblk9 in9_0
  rw [View.read_apply]
  show (V c main_v101 : S50000x128.Idx → EReal) _ = (V c main_v101 : S50000x128.Idx → EReal) _
  congr 1
  funext a
  apply Fin.ext
  match a with
  | ⟨0, _⟩ => show win9_0.index t 0 * 5000 + 1 * y.val = R.val; rw [(idx9_0 t).1, hR]; omega
  | ⟨1, _⟩ => show win9_0.index t 1 * 128 + 1 * k.val = k.val; rw [(idx9_0 t).2]; omega
theorem blk9_0 (c : Dev nD) (t : Fin (9 + 1)) (y : Fin 5000) (k : Fin 128) :
    (iblk9 V c 0 ⟨t.val, lt_N9 t⟩ : FVec Ideal S5000x128 .f32) (ix2 y k) = in9_0 V c (rowOf h50000 t y) k :=
  tile9_0 V c ⟨t.val, lt_N9 t⟩ y k (rowOf h50000 t y) rfl

def in9_1 (c : Dev nD) (k j : Fin 128) : EReal := (V c main_v104 : S128x128.Idx → EReal) (ix2 k j)
theorem idx9_1 : ∀ t : Fin cfg9.N, win9_1.index t 0 = 0 ∧ win9_1.index t 1 = 0 := by
  intro t; rcases fin_N9 t with rfl | rfl | rfl | rfl | rfl | rfl | rfl | rfl | rfl | rfl <;> decide
theorem res9_1 (c : Dev nD) (t : Fin cfg9.N) (k j : Fin 128) :
    (iblk9 V c 1 t : Vec Ideal S128x128 .bf16) (ix2 k j) = in9_1 V c k j := by
  unfold iblk9 in9_1
  rw [View.read_apply]
  show (V c main_v104 : S128x128.Idx → EReal) _ = (V c main_v104 : S128x128.Idx → EReal) _
  congr 1
  funext a
  apply Fin.ext
  match a with
  | ⟨0, _⟩ => show win9_1.index t 0 * 128 + 1 * k.val = k.val; rw [(idx9_1 t).1]; omega
  | ⟨1, _⟩ => show win9_1.index t 1 * 128 + 1 * j.val = j.val; rw [(idx9_1 t).2]; omega
theorem blk9_1 (c : Dev nD) (t : Fin (9 + 1)) (k j : Fin 128) :
    (iblk9 V c 1 ⟨t.val, lt_N9 t⟩ : FVec Ideal S128x128 .bf16) (ix2 k j) = in9_1 V c k j :=
  res9_1 V c ⟨t.val, lt_N9 t⟩ k j

def in9_2 (c : Dev nD) (k j : Fin 128) : EReal := (V c main_v107 : S128x128.Idx → EReal) (ix2 k j)
theorem idx9_2 : ∀ t : Fin cfg9.N, win9_2.index t 0 = 0 ∧ win9_2.index t 1 = 0 := by
  intro t; rcases fin_N9 t with rfl | rfl | rfl | rfl | rfl | rfl | rfl | rfl | rfl | rfl <;> decide
theorem res9_2 (c : Dev nD) (t : Fin cfg9.N) (k j : Fin 128) :
    (iblk9 V c 2 t : Vec Ideal S128x128 .bf16) (ix2 k j) = in9_2 V c k j := by
  unfold iblk9 in9_2
  rw [View.read_apply]
  show (V c main_v107 : S128x128.Idx → EReal) _ = (V c main_v107 : S128x128.Idx → EReal) _
  congr 1
  funext a
  apply Fin.ext
  match a with
  | ⟨0, _⟩ => show win9_2.index t 0 * 128 + 1 * k.val = k.val; rw [(idx9_2 t).1]; omega
  | ⟨1, _⟩ => show win9_2.index t 1 * 128 + 1 * j.val = j.val; rw [(idx9_2 t).2]; omega
theorem blk9_2 (c : Dev nD) (t : Fin (9 + 1)) (k j : Fin 128) :
    (iblk9 V c 2 ⟨t.val, lt_N9 t⟩ : FVec Ideal S128x128 .bf16) (ix2 k j) = in9_2 V c k j :=
  res9_2 V c ⟨t.val, lt_N9 t⟩ k j

def in9_3 (c : Dev nD) (j : Fin 128) : EReal := (V c main_v126_0 : S1x128.Idx → EReal) (ix2 ⟨0, Nat.one_pos⟩ j)
theorem idx9_3 : ∀ t : Fin cfg9.N, win9_3.index t 0 = 0 ∧ win9_3.index t 1 = 0 := by
  intro t; rcases fin_N9 t with rfl | rfl | rfl | rfl | rfl | rfl | rfl | rfl | rfl | rfl <;> decide
theorem res9_3 (c : Dev nD) (t : Fin cfg9.N) (j : Fin 128) :
    (iblk9 V c 3 t : Vec Ideal S1x128 .f32) (ix2 ⟨0, Nat.one_pos⟩ j) = in9_3 V c j := by
  unfold iblk9 in9_3
  rw [View.read_apply]
  show (V c main_v126_0 : S1x128.Idx → EReal) _ = (V c main_v126_0 : S1x128.Idx → EReal) _
  congr 1
  funext a
  apply Fin.ext
  match a with
  | ⟨0, _⟩ => show win9_3.index t 0 * 1 + 1 * 0 = 0; rw [(idx9_3 t).1]
  | ⟨1, _⟩ => show win9_3.index t 1 * 128 + 1 * j.val = j.val; rw [(idx9_3 t).2]; omega
theorem blk9_3 (c : Dev nD) (t : Fin (9 + 1)) (j : Fin 128) :
    (iblk9 V c 3 ⟨t.val, lt_N9 t⟩ : FVec Ideal S1x128 .f32) (ix2 ⟨0, Nat.one_pos⟩ j) = in9_3 V c j :=
  res9_3 V c ⟨t.val, lt_N9 t⟩ j

def in9_4 (c : Dev nD) (j : Fin 128) : EReal := (V c main_v126_1 : S1x128.Idx → EReal) (ix2 ⟨0, Nat.one_pos⟩ j)
theorem idx9_4 : ∀ t : Fin cfg9.N, win9_4.index t 0 = 0 ∧ win9_4.index t 1 = 0 := by
  intro t; rcases fin_N9 t with rfl | rfl | rfl | rfl | rfl | rfl | rfl | rfl | rfl | rfl <;> decide
theorem res9_4 (c : Dev nD) (t : Fin cfg9.N) (j : Fin 128) :
    (iblk9 V c 4 t : Vec Ideal S1x128 .f32) (ix2 ⟨0, Nat.one_pos⟩ j) = in9_4 V c j := by
  unfold iblk9 in9_4
  rw [View.read_apply]
  show (V c main_v126_1 : S1x128.Idx → EReal) _ = (V c main_v126_1 : S1x128.Idx → EReal) _
  congr 1
  funext a
  apply Fin.ext
  match a with
  | ⟨0, _⟩ => show win9_4.index t 0 * 1 + 1 * 0 = 0; rw [(idx9_4 t).1]
  | ⟨1, _⟩ => show win9_4.index t 1 * 128 + 1 * j.val = j.val; rw [(idx9_4 t).2]; omega
theorem blk9_4 (c : Dev nD) (t : Fin (9 + 1)) (j : Fin 128) :
    (iblk9 V c 4 ⟨t.val, lt_N9 t⟩ : FVec Ideal S1x128 .f32) (ix2 ⟨0, Nat.one_pos⟩ j) = in9_4 V c j :=
  res9_4 V c ⟨t.val, lt_N9 t⟩ j

def in9_5 (c : Dev nD) (j : Fin 128) : EReal := (V c main_v116 : S1x128.Idx → EReal) (ix2 ⟨0, Nat.one_pos⟩ j)
theorem idx9_5 : ∀ t : Fin cfg9.N, win9_5.index t 0 = 0 ∧ win9_5.index t 1 = 0 := by
  intro t; rcases fin_N9 t with rfl | rfl | rfl | rfl | rfl | rfl | rfl | rfl | rfl | rfl <;> decide
theorem res9_5 (c : Dev nD) (t : Fin cfg9.N) (j : Fin 128) :
    (iblk9 V c 5 t : Vec Ideal S1x128 .f32) (ix2 ⟨0, Nat.one_pos⟩ j) = in9_5 V c j := by
  unfold iblk9 in9_5
  rw [View.read_apply]
  show (V c main_v116 : S1x128.Idx → EReal) _ = (V c main_v116 : S1x128.Idx → EReal) _
  congr 1
  funext a
  apply Fin.ext
  match a with
  | ⟨0, _⟩ => show win9_5.index t 0 * 1 + 1 * 0 = 0; rw [(idx9_5 t).1]
  | ⟨1, _⟩ => show win9_5.index t 1 * 128 + 1 * j.val = j.val; rw [(idx9_5 t).2]; omega
theorem blk9_5 (c : Dev nD) (t : Fin (9 + 1)) (j : Fin 128) :
    (iblk9 V c 5 ⟨t.val, lt_N9 t⟩ : FVec Ideal S1x128 .f32) (ix2 ⟨0, Nat.one_pos⟩ j) = in9_5 V c j :=
  res9_5 V c ⟨t.val, lt_N9 t⟩ j

def in9_6 (c : Dev nD) (j : Fin 128) : EReal := (V c main_v119 : S1x128.Idx → EReal) (ix2 ⟨0, Nat.one_pos⟩ j)
theorem idx9_6 : ∀ t : Fin cfg9.N, win9_6.index t 0 = 0 ∧ win9_6.index t 1 = 0 := by
  intro t; rcases fin_N9 t with rfl | rfl | rfl | rfl | rfl | rfl | rfl | rfl | rfl | rfl <;> decide
theorem res9_6 (c : Dev nD) (t : Fin cfg9.N) (j : Fin 128) :
    (iblk9 V c 6 t : Vec Ideal S1x128 .f32) (ix2 ⟨0, Nat.one_pos⟩ j) = in9_6 V c j := by
  unfold iblk9 in9_6
  rw [View.read_apply]
  show (V c main_v119 : S1x128.Idx → EReal) _ = (V c main_v119 : S1x128.Idx → EReal) _
  congr 1
  funext a
  apply Fin.ext
  match a with
  | ⟨0, _⟩ => show win9_6.index t 0 * 1 + 1 * 0 = 0; rw [(idx9_6 t).1]
  | ⟨1, _⟩ => show win9_6.index t 1 * 128 + 1 * j.val = j.val; rw [(idx9_6 t).2]; omega
theorem blk9_6 (c : Dev nD) (t : Fin (9 + 1)) (j : Fin 128) :
    (iblk9 V c 6 ⟨t.val, lt_N9 t⟩ : FVec Ideal S1x128 .f32) (ix2 ⟨0, Nat.one_pos⟩ j) = in9_6 V c j :=
  res9_6 V c ⟨t.val, lt_N9 t⟩ j

/-- The quantity whose column statistics this kernel takes, over all rows. -/
abbrev GQ9 (c : Dev nD) : Fin 50000 → Fin 128 → EReal := Cert.Spec.lin (Cert.Spec.relu zW (Cert.Spec.aff (Cert.Spec.lin (in9_0 V c) (in9_1 V c)) (in9_3 V c) (in9_4 V c))) (in9_2 V c)

theorem tile_q9 (c : Dev nD) (t : Fin (9 + 1)) (y : Fin 5000) (j : Fin 128) :
    Cert.Proof.Pay9.q (iblk9 V c 0 ⟨t.val, lt_N9 t⟩) (iblk9 V c 1 ⟨t.val, lt_N9 t⟩) (iblk9 V c 2 ⟨t.val, lt_N9 t⟩) (iblk9 V c 3 ⟨t.val, lt_N9 t⟩) (iblk9 V c 4 ⟨t.val, lt_N9 t⟩) (ix2 y j) = GQ9 V c (rowOf h50000 t y) j := by
  rw [Cert.Proof.Pay9.q_apply]
  simp only [blk9_0 V c t, blk9_1 V c t, blk9_2 V c t, blk9_3 V c t, blk9_4 V c t, Cert.Spec.lin, Cert.Spec.relu, Cert.Spec.aff]

def accS9 (c : Dev nD) (n : ℕ) (hn : n < cfg9.N) (j : Fin 128) : EReal := ((outsAt9 V c n hn).2.2.1 : S1x128.Idx → EReal) (r0_9 j)
def accQ9 (c : Dev nD) (n : ℕ) (hn : n < cfg9.N) (j : Fin 128) : EReal := ((outsAt9 V c n hn).2.2.2 : S1x128.Idx → EReal) (r0_9 j)

theorem accS9_zero (c : Dev nD) (j : Fin 128) : accS9 V c 0 (lt_N9 0) j = 0 + ∑ y : Fin 5000, GQ9 V c (rowOf h50000 0 y) j := by
  have e := outsAt9_A V c ⟨0, lt_N9 0⟩ rfl (c0_zero9 _) (nc1_zero9 _)
  unfold accS9
  rw [show outsAt9 V c 0 (lt_N9 0) = _ from e]
  dsimp only
  rw [pieceA9_S, Cert.Proof.Pay9.total_apply, Cert.Proof.Pay9.zeroS]
  exact congrArg (fun z => (0 : EReal) + z) (Finset.sum_congr rfl fun y _ => tile_q9 V c 0 y j)

theorem accQ9_zero (c : Dev nD) (j : Fin 128) : accQ9 V c 0 (lt_N9 0) j = 0 + ∑ y : Fin 5000, GQ9 V c (rowOf h50000 0 y) j * GQ9 V c (rowOf h50000 0 y) j := by
  have e := outsAt9_A V c ⟨0, lt_N9 0⟩ rfl (c0_zero9 _) (nc1_zero9 _)
  unfold accQ9
  rw [show outsAt9 V c 0 (lt_N9 0) = _ from e]
  dsimp only
  rw [pieceA9_Q, Cert.Proof.Pay9.total_sq_apply, Cert.Proof.Pay9.zeroQ]
  exact congrArg (fun z => (0 : EReal) + z) (Finset.sum_congr rfl fun y _ => congrArg₂ (· * ·) (tile_q9 V c 0 y j) (tile_q9 V c 0 y j))

theorem accS9_succ (c : Dev nD) (n : ℕ) (hn : n + 1 < 9 + 1) (j : Fin 128) :
    accS9 V c (n + 1) (lt_N9 ⟨n + 1, hn⟩) j = accS9 V c n (lt_N9 ⟨n, Nat.lt_of_succ_lt hn⟩) j + ∑ y : Fin 5000, GQ9 V c (rowOf h50000 ⟨n + 1, hn⟩ y) j := by
  have hz : (⟨n + 1, lt_N9 ⟨n + 1, hn⟩⟩ : Fin cfg9.N).val ≠ 0 := Nat.succ_ne_zero n
  have hc0 := nc0_succ9 n (lt_N9 ⟨n + 1, hn⟩)
  unfold accS9
  by_cases h1 : (n + 1) % 10 = 9
  · have hc1 : cond9_1 (grid9.coords ⟨n + 1, lt_N9 ⟨n + 1, hn⟩⟩) := (hcond9_1 _).mpr h1
    have e := outsAt9_C V c ⟨n + 1, lt_N9 ⟨n + 1, hn⟩⟩ hz h1 hc0 hc1
    rw [show outsAt9 V c (n + 1) (lt_N9 ⟨n + 1, hn⟩) = _ from e]
    dsimp only
    rw [pieceC9_S, Cert.Proof.Pay9.total_apply]
    exact congrArg₂ (· + ·) rfl (Finset.sum_congr rfl fun y _ => tile_q9 V c ⟨n + 1, hn⟩ y j)
  · have hc1 : ¬cond9_1 (grid9.coords ⟨n + 1, lt_N9 ⟨n + 1, hn⟩⟩) := fun h => h1 ((hcond9_1 _).mp h)
    have e := outsAt9_B V c ⟨n + 1, lt_N9 ⟨n + 1, hn⟩⟩ hz h1 hc0 hc1
    rw [show outsAt9 V c (n + 1) (lt_N9 ⟨n + 1, hn⟩) = _ from e]
    dsimp only
    rw [pieceB9_S, Cert.Proof.Pay9.total_apply]
    exact congrArg₂ (· + ·) rfl (Finset.sum_congr rfl fun y _ => tile_q9 V c ⟨n + 1, hn⟩ y j)

theorem accQ9_succ (c : Dev nD) (n : ℕ) (hn : n + 1 < 9 + 1) (j : Fin 128) :
    accQ9 V c (n + 1) (lt_N9 ⟨n + 1, hn⟩) j = accQ9 V c n (lt_N9 ⟨n, Nat.lt_of_succ_lt hn⟩) j + ∑ y : Fin 5000, GQ9 V c (rowOf h50000 ⟨n + 1, hn⟩ y) j * GQ9 V c (rowOf h50000 ⟨n + 1, hn⟩ y) j := by
  have hz : (⟨n + 1, lt_N9 ⟨n + 1, hn⟩⟩ : Fin cfg9.N).val ≠ 0 := Nat.succ_ne_zero n
  have hc0 := nc0_succ9 n (lt_N9 ⟨n + 1, hn⟩)
  unfold accQ9
  by_cases h1 : (n + 1) % 10 = 9
  · have hc1 : cond9_1 (grid9.coords ⟨n + 1, lt_N9 ⟨n + 1, hn⟩⟩) := (hcond9_1 _).mpr h1
    have e := outsAt9_C V c ⟨n + 1, lt_N9 ⟨n + 1, hn⟩⟩ hz h1 hc0 hc1
    rw [show outsAt9 V c (n + 1) (lt_N9 ⟨n + 1, hn⟩) = _ from e]
    dsimp only
    rw [pieceC9_Q, Cert.Proof.Pay9.total_sq_apply]
    exact congrArg₂ (· + ·) rfl (Finset.sum_congr rfl fun y _ => congrArg₂ (· * ·) (tile_q9 V c ⟨n + 1, hn⟩ y j) (tile_q9 V c ⟨n + 1, hn⟩ y j))
  · have hc1 : ¬cond9_1 (grid9.coords ⟨n + 1, lt_N9 ⟨n + 1, hn⟩⟩) := fun h => h1 ((hcond9_1 _).mp h)
    have e := outsAt9_B V c ⟨n + 1, lt_N9 ⟨n + 1, hn⟩⟩ hz h1 hc0 hc1
    rw [show outsAt9 V c (n + 1) (lt_N9 ⟨n + 1, hn⟩) = _ from e]
    dsimp only
    rw [pieceB9_Q, Cert.Proof.Pay9.total_sq_apply]
    exact congrArg₂ (· + ·) rfl (Finset.sum_congr rfl fun y _ => congrArg₂ (· * ·) (tile_q9 V c ⟨n + 1, hn⟩ y j) (tile_q9 V c ⟨n + 1, hn⟩ y j))

theorem totS9 (c : Dev nD) (j : Fin 128) : accS9 V c 9 (lt_N9 9) j = Cert.Spec.colS (GQ9 V c) j :=
  Cert.LibTiledTotals.tiled_total h50000 (GQ9 V c) (fun t j => ∑ y : Fin 5000, GQ9 V c (rowOf h50000 t y) j) (fun _ _ => rfl)
    (fun t j => accS9 V c t.val (lt_N9 t) j) (accS9_zero V c) (fun t j => accS9_succ V c t.val (Nat.succ_lt_succ t.isLt) j) j
theorem totQ9 (c : Dev nD) (j : Fin 128) : accQ9 V c 9 (lt_N9 9) j = Cert.Spec.colQ (GQ9 V c) j :=
  Cert.LibTiledTotals.tiled_total_sq h50000 (GQ9 V c) (fun t j => ∑ y : Fin 5000, GQ9 V c (rowOf h50000 t y) j * GQ9 V c (rowOf h50000 t y) j) (fun _ _ => rfl)
    (fun t j => accQ9 V c t.val (lt_N9 t) j) (accQ9_zero V c) (fun t j => accQ9_succ V c t.val (Nat.succ_lt_succ t.isLt) j) j
theorem totS9' (c : Dev nD) (t : Fin cfg9.N) (h9 : t.val = 9) (j : Fin 128) : accS9 V c t.val t.isLt j = Cert.Spec.colS (GQ9 V c) j := by
  obtain rfl : t = ⟨9, lt_N9 9⟩ := Fin.ext h9
  exact totS9 V c j
theorem totQ9' (c : Dev nD) (t : Fin cfg9.N) (h9 : t.val = 9) (j : Fin 128) : accQ9 V c t.val t.isLt j = Cert.Spec.colQ (GQ9 V c) j := by
  obtain rfl : t = ⟨9, lt_N9 9⟩ := Fin.ext h9
  exact totQ9 V c j

abbrev pS9 (c : Dev nD) (t : Fin cfg9.N) : Vec Ideal S1x128 .f32 := (outsAt9 V c (t.val - 1) (Nat.lt_of_le_of_lt (Nat.sub_le _ _) t.isLt)).2.2.1
abbrev pQ9 (c : Dev nD) (t : Fin cfg9.N) : Vec Ideal S1x128 .f32 := (outsAt9 V c (t.val - 1) (Nat.lt_of_le_of_lt (Nat.sub_le _ _) t.isLt)).2.2.2
abbrev S9_9 (c : Dev nD) (t : Fin cfg9.N) : Vec Ideal S1x128 .f32 := k9_pay8 (iblk9 V c 0 t) (iblk9 V c 1 t) (iblk9 V c 3 t) (iblk9 V c 4 t) (iblk9 V c 2 t) (pS9 V c t)
abbrev Q9_9 (c : Dev nD) (t : Fin cfg9.N) : Vec Ideal S1x128 .f32 := k9_pay1 (pQ9 V c t) (k9_pay9 (iblk9 V c 0 t) (iblk9 V c 1 t) (iblk9 V c 3 t) (iblk9 V c 4 t) (iblk9 V c 2 t))

set_option maxHeartbeats 3200000 in
theorem last9 (c : Dev nD) (t : Fin cfg9.N) (h9 : t.val = 9) :
    outsAt9 V c t.val t.isLt = (k9_pay3 (S9_9 V c t) (Q9_9 V c t) (iblk9 V c 5 t), k9_pay4 (S9_9 V c t) (Q9_9 V c t) (iblk9 V c 5 t) (iblk9 V c 6 t), S9_9 V c t, Q9_9 V c t) := by
  have h9' : t.val % 10 = 9 := by rw [h9]
  have hz : t.val ≠ 0 := by rw [h9]; decide
  have hc0 : ¬cond9_0 (grid9.coords t) := fun h => by have := (hcond9_0 t).mp h; omega
  have hc1 : cond9_1 (grid9.coords t) := (hcond9_1 t).mpr h9'
  refine (outsAt9_C V c t hz h9' hc0 hc1).trans ?_
  rw [(pieceC9_1 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (pS9 V c t) (pQ9 V c t)), (pieceC9_2 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (pS9 V c t) (pQ9 V c t)), (pieceC9_S (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (pS9 V c t) (pQ9 V c t)), (pieceC9_Q (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) scM9_0 (Memref.isWhole_whole _) scM9_1 (Memref.isWhole_whole _) hc0 hc1 (iblk9 V c 0 t) (iblk9 V c 1 t) (iblk9 V c 2 t) (iblk9 V c 3 t) (iblk9 V c 4 t) (iblk9 V c 5 t) (iblk9 V c 6 t) (pS9 V c t) (pQ9 V c t))]

theorem scale9_val (c : Dev nD) (t : Fin cfg9.N) (h9 : t.val = 9) (j : Fin 128) :
    ((outsAt9 V c t.val t.isLt).1 : S1x128.Idx → EReal) (r0_9 j) = Cert.Spec.scaleK (GQ9 V c) (in9_5 V c) cW epsW j := by
  have hS : (S9_9 V c t : S1x128.Idx → EReal) (r0_9 j) = Cert.Spec.colS (GQ9 V c) j := by
    rw [← totS9' V c t h9]; unfold accS9; rw [last9 V c t h9]
  have hQ : (Q9_9 V c t : S1x128.Idx → EReal) (r0_9 j) = Cert.Spec.colQ (GQ9 V c) j := by
    rw [← totQ9' V c t h9]; unfold accQ9; rw [last9 V c t h9]
  rw [last9 V c t h9]
  dsimp only
  rw [Cert.Proof.Pay9.scale_apply, hS, hQ, res9_5 V c t j]
  rfl

theorem shift9_val (c : Dev nD) (t : Fin cfg9.N) (h9 : t.val = 9) (j : Fin 128) :
    ((outsAt9 V c t.val t.isLt).2.1 : S1x128.Idx → EReal) (r0_9 j) = Cert.Spec.shiftK (GQ9 V c) (in9_5 V c) (in9_6 V c) cW epsW j := by
  have hS : (S9_9 V c t : S1x128.Idx → EReal) (r0_9 j) = Cert.Spec.colS (GQ9 V c) j := by
    rw [← totS9' V c t h9]; unfold accS9; rw [last9 V c t h9]
  have hsc := scale9_val V c t h9 j
  rw [last9 V c t h9] at hsc
  dsimp only at hsc
  rw [last9 V c t h9]
  dsimp only
  rw [Cert.Proof.Pay9.shift_apply, hsc, hS, res9_6 V c t j]
  rfl

/-- THE REGION'S VALUE: the two result arrays after the region are the batch norm's scale and shift rows. -/
theorem scaleArr9 (c : Dev nD) (j : Fin 128) :
    ((dat9 V c).arrAt 7 cfg9.N : S1x128.Idx → EReal) (r0_9 j) = Cert.Spec.scaleK (GQ9 V c) (in9_5 V c) cW epsW j := by
  rw [final9_7]; unfold G9_7
  exact scale9_val V c tL9 tL9_val j
theorem shiftArr9 (c : Dev nD) (j : Fin 128) :
    ((dat9 V c).arrAt 8 cfg9.N : S1x128.Idx → EReal) (r0_9 j) = Cert.Spec.shiftK (GQ9 V c) (in9_5 V c) (in9_6 V c) cW epsW j := by
  rw [final9_8]; unfold G9_8
  exact shift9_val V c tL9 tL9_val j

end Cert.KernelIdeal.Hand

end
-- ==== Proof.R10Val.lean ====
/-
  Pipeline 10 (a statistics kernel): each case's stores read back as the body's arithmetic. A buffer stored whole
  holds the stored value, and a load of it after the store reads that value: after the first tile the running rows
  are the tile's totals added to the zero rows, after a later tile the totals added to what the tile before left,
  and at the last tile the scale and the shift are computed from the rows as this tile leaves them.
-/
import proofs.«180905_j29583734735286_1_alg».proof.Proof.Gen.KernelIdeal.Launch
import proofs.«180905_j29583734735286_1_alg».proof.Proof.Gen.KernelIdeal.Skeleton
import proofs.«180905_j29583734735286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180905_j29583734735286_1_alg».proof.Proof.R10B
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2_10 : (![0, 0] : Fin 2 → Nat) = fun _ => 0 := funext fun a => by fin_cases a <;> rfl

theorem pieceA10_S (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond10_0 i) (hc1 : ¬cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    rd10 (F := F) (kernelRun10_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 = k10_pay1 (k10_pay6 (F := F)) (k10_pay9 x0 x1 x3 x4 x2 x5 x6) := by
  unfold rd10
  rw [View.read_writes_eq_canon _ _ _ (scoverA10_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun10_A
  dsimp only
  try sl_unfold_words
  first | rw [View.canon_cons_unit_zero (S := S1x128) hz2_10] | rw [View.canon_unit_zero hz2_10]
  simp only [View.readCov_unit_zero (S := S1x128) _ hz2_10, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_10, View.ld_unit_zero (S := S128x128) hz2_10, View.ld_unit_zero (S := S1x128) hz2_10]

theorem pieceA10_Q (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond10_0 i) (hc1 : ¬cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    rd10 (F := F) (kernelRun10_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 = k10_pay2 (k10_pay8 x0 x1 x3 x4 x2 x5 x6) (k10_pay7 (F := F)) := by
  unfold rd10
  rw [View.read_writes_eq_canon _ _ _ (scoverA10_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun10_A
  dsimp only
  try sl_unfold_words
  first | rw [View.canon_cons_unit_zero (S := S1x128) hz2_10] | rw [View.canon_unit_zero hz2_10]
  simp only [View.readCov_unit_zero (S := S1x128) _ hz2_10, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_10, View.ld_unit_zero (S := S128x128) hz2_10, View.ld_unit_zero (S := S1x128) hz2_10]

theorem pieceB10_S (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : ¬cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd10 (F := F) (kernelRun10_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 = k10_pay1 xs0 (k10_pay9 x0 x1 x3 x4 x2 x5 x6) := by
  unfold rd10
  rw [View.read_writes_eq_canon _ _ _ (scoverB10_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun10_B
  dsimp only
  try sl_unfold_words
  first | rw [View.canon_cons_unit_zero (S := S1x128) hz2_10] | rw [View.canon_unit_zero hz2_10]
  simp only [View.readCov_unit_zero (S := S1x128) _ hz2_10, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_10, View.ld_unit_zero (S := S128x128) hz2_10, View.ld_unit_zero (S := S1x128) hz2_10]

theorem pieceB10_Q (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : ¬cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd10 (F := F) (kernelRun10_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 = k10_pay2 (k10_pay8 x0 x1 x3 x4 x2 x5 x6) xs1 := by
  unfold rd10
  rw [View.read_writes_eq_canon _ _ _ (scoverB10_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun10_B
  dsimp only
  try sl_unfold_words
  first | rw [View.canon_cons_unit_zero (S := S1x128) hz2_10] | rw [View.canon_unit_zero hz2_10]
  simp only [View.readCov_unit_zero (S := S1x128) _ hz2_10, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_10, View.ld_unit_zero (S := S128x128) hz2_10, View.ld_unit_zero (S := S1x128) hz2_10]

theorem pieceC10_S (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd10 (F := F) (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1 = k10_pay1 xs0 (k10_pay9 x0 x1 x3 x4 x2 x5 x6) := by
  unfold rd10
  rw [View.read_writes_eq_canon _ _ _ (scoverC10_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun10_C
  dsimp only
  try sl_unfold_words
  first | rw [View.canon_cons_unit_zero (S := S1x128) hz2_10] | rw [View.canon_unit_zero hz2_10]
  simp only [View.readCov_unit_zero (S := S1x128) _ hz2_10, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_10, View.ld_unit_zero (S := S128x128) hz2_10, View.ld_unit_zero (S := S1x128) hz2_10]

theorem pieceC10_Q (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd10 (F := F) (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1 = k10_pay2 (k10_pay8 x0 x1 x3 x4 x2 x5 x6) xs1 := by
  unfold rd10
  rw [View.read_writes_eq_canon _ _ _ (scoverC10_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun10_C
  dsimp only
  try sl_unfold_words
  first | rw [View.canon_cons_unit_zero (S := S1x128) hz2_10] | rw [View.canon_unit_zero hz2_10]
  simp only [View.readCov_unit_zero (S := S1x128) _ hz2_10, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_10, View.ld_unit_zero (S := S128x128) hz2_10, View.ld_unit_zero (S := S1x128) hz2_10]

theorem pieceC10_1 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd10 (F := F) (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 = k10_pay4 (k10_pay1 xs0 (k10_pay9 x0 x1 x3 x4 x2 x5 x6)) (k10_pay2 (k10_pay8 x0 x1 x3 x4 x2 x5 x6) xs1) x7 := by
  unfold rd10
  rw [View.read_writes_eq_canon _ _ _ (coverC10_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun10_C
  dsimp only
  try sl_unfold_words
  first | rw [View.canon_cons_unit_zero (S := S1x128) hz2_10] | rw [View.canon_unit_zero hz2_10]
  simp only [View.readCov_unit_zero (S := S1x128) _ hz2_10, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_10, View.ld_unit_zero (S := S128x128) hz2_10, View.ld_unit_zero (S := S1x128) hz2_10]

theorem pieceC10_2 (c : Dev nD) (i : grid10.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond10_0 i) (hc1 : cond10_1 i) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) (xs0 xs1 : Vec F S1x128 .f32) :
    rd10 (F := F) (kernelRun10_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 = k10_pay5 (k10_pay1 xs0 (k10_pay9 x0 x1 x3 x4 x2 x5 x6)) (k10_pay2 (k10_pay8 x0 x1 x3 x4 x2 x5 x6) xs1) x7 x8 := by
  unfold rd10
  rw [View.read_writes_eq_canon _ _ _ (coverC10_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun10_C
  dsimp only
  try sl_unfold_words
  first | rw [View.canon_cons_unit_zero (S := S1x128) hz2_10] | rw [View.canon_unit_zero hz2_10]
  simp only [View.readCov_unit_zero (S := S1x128) _ hz2_10, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S5000x128) hz2_10, View.ld_unit_zero (S := S128x128) hz2_10, View.ld_unit_zero (S := S1x128) hz2_10]

end Cert.KernelIdeal.Hand

end
-- ==== Proof.R10Arr.lean ====
/-
  Pipeline 10: the two result arrays after the region. Each result window is written back once, at the last
  point, and its one block is the whole [1, 128] array; so the array ends holding the row the last point stored.
-/
import proofs.«180905_j29583734735286_1_alg».proof.Proof.R10B
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The last grid point. -/
def tL10 : Fin cfg10.N := ⟨9, lt_of_lt_of_eq (by decide) N_10.symm⟩
theorem tL10_val : tL10.val = 9 := rfl
attribute [irreducible] tL10

theorem idx10_9 : ∀ t : Fin cfg10.N, win10_9.index t 0 = 0 ∧ win10_9.index t 1 = 0 := by
  intro t; rcases fin_N10 t with rfl | rfl | rfl | rfl | rfl | rfl | rfl | rfl | rfl | rfl <;> decide
theorem xsz10_9 : ∀ t : Fin cfg10.N, win10_9.xsize (grid10.coords t) 0 = 1 ∧ win10_9.xsize (grid10.coords t) 1 = 128 := by
  intro t; rcases fin_N10 t with rfl | rfl | rfl | rfl | rfl | rfl | rfl | rfl | rfl | rfl <;> decide +kernel

/-- What the region leaves in its result array: the row stored at the last point. -/
def G10_9 (c : Dev nD) : Buf (Elt F) ((c : Thread nD τ).loc main_v128_0) := (outsAt10 V c tL10.val tL10.isLt).1

theorem flushed10_9 (c : Dev nD) (t : Fin cfg10.N) (hf : (cfg10.win 9).flush t = true) :
    (dat10 V c).flushed 9 t = ((cfg10.win 9).blk t).view.read (Elt F) (G10_9 V c) := by
  have hN : cfg10.N = 10 := N_10
  have h1 : t.val = 9 := by have := (flush10_9 t).mp hf; have := t.isLt; omega
  obtain rfl : t = tL10 := Fin.ext (h1.trans tL10_val.symm)
  show (cfg10.win 9).cut (grid10.coords tL10) ((dat10 V c).after 9 tL10) = _
  rw [after10_9]
  have hz' : (fun a => win10_9.index tL10 a * main_v128_0.ty.shape.size a) = fun _ => 0 := funext fun a => by
    match a with
    | ⟨0, _⟩ => show win10_9.index tL10 0 * _ = 0; rw [(idx10_9 tL10).1, Nat.zero_mul]
    | ⟨1, _⟩ => show win10_9.index tL10 1 * _ = 0; rw [(idx10_9 tL10).2, Nat.zero_mul]
  exact (Memref.read_access_unit_zero (Elt F) main_v128_0 hz' (fun a => by rw [congrFun hz' a]; simp) (G10_9 V c)).symm

theorem final10_9 (c : Dev nD) : (dat10 V c).arrAt 9 cfg10.N = G10_9 V c :=
  (dat10 V c).arrAt_eq_of_cover 9 (G10_9 V c) (flushed10_9 V c) fun i =>
    ⟨tL10, (flush10_9 tL10).mpr (by rw [tL10_val]), by
      show i ∈ ((View.whole main_v128_0).slice (win10_9.rect tL10)).set
      rw [View.set_slice_whole, Rect.mem_set_unit]
      intro a
      have h0 : (i 0 : Nat) < 1 := (i 0).isLt
      have h1 : (i 1 : Nat) < 128 := (i 1).isLt
      match a with
      | ⟨0, _⟩ => show win10_9.index tL10 0 * win10_9.size 0 ≤ (i 0 : Nat) ∧ (i 0 : Nat) < win10_9.index tL10 0 * win10_9.size 0 + win10_9.xsize (grid10.coords tL10) 0
                  rw [(idx10_9 tL10).1, (xsz10_9 tL10).1]; omega
      | ⟨1, _⟩ => show win10_9.index tL10 1 * win10_9.size 1 ≤ (i 1 : Nat) ∧ (i 1 : Nat) < win10_9.index tL10 1 * win10_9.size 1 + win10_9.xsize (grid10.coords tL10) 1
                  rw [(idx10_9 tL10).2, (xsz10_9 tL10).2]; omega⟩

theorem idx10_10 : ∀ t : Fin cfg10.N, win10_10.index t 0 = 0 ∧ win10_10.index t 1 = 0 := by
  intro t; rcases fin_N10 t with rfl | rfl | rfl | rfl | rfl | rfl | rfl | rfl | rfl | rfl <;> decide
theorem xsz10_10 : ∀ t : Fin cfg10.N, win10_10.xsize (grid10.coords t) 0 = 1 ∧ win10_10.xsize (grid10.coords t) 1 = 128 := by
  intro t; rcases fin_N10 t with rfl | rfl | rfl | rfl | rfl | rfl | rfl | rfl | rfl | rfl <;> decide +kernel

/-- What the region leaves in its result array: the row stored at the last point. -/
def G10_10 (c : Dev nD) : Buf (Elt F) ((c : Thread nD τ).loc main_v128_1) := (outsAt10 V c tL10.val tL10.isLt).2.1

theorem flushed10_10 (c : Dev nD) (t : Fin cfg10.N) (hf : (cfg10.win 10).flush t = true) :
    (dat10 V c).flushed 10 t = ((cfg10.win 10).blk t).view.read (Elt F) (G10_10 V c) := by
  have hN : cfg10.N = 10 := N_10
  have h1 : t.val = 9 := by have := (flush10_10 t).mp hf; have := t.isLt; omega
  obtain rfl : t = tL10 := Fin.ext (h1.trans tL10_val.symm)
  show (cfg10.win 10).cut (grid10.coords tL10) ((dat10 V c).after 10 tL10) = _
  rw [after10_10]
  have hz' : (fun a => win10_10.index tL10 a * main_v128_1.ty.shape.size a) = fun _ => 0 := funext fun a => by
    match a with
    | ⟨0, _⟩ => show win10_10.index tL10 0 * _ = 0; rw [(idx10_10 tL10).1, Nat.zero_mul]
    | ⟨1, _⟩ => show win10_10.index tL10 1 * _ = 0; rw [(idx10_10 tL10).2, Nat.zero_mul]
  exact (Memref.read_access_unit_zero (Elt F) main_v128_1 hz' (fun a => by rw [congrFun hz' a]; simp) (G10_10 V c)).symm

theorem final10_10 (c : Dev nD) : (dat10 V c).arrAt 10 cfg10.N = G10_10 V c :=
  (dat10 V c).arrAt_eq_of_cover 10 (G10_10 V c) (flushed10_10 V c) fun i =>
    ⟨tL10, (flush10_10 tL10).mpr (by rw [tL10_val]), by
      show i ∈ ((View.whole main_v128_1).slice (win10_10.rect tL10)).set
      rw [View.set_slice_whole, Rect.mem_set_unit]
      intro a
      have h0 : (i 0 : Nat) < 1 := (i 0).isLt
      have h1 : (i 1 : Nat) < 128 := (i 1).isLt
      match a with
      | ⟨0, _⟩ => show win10_10.index tL10 0 * win10_10.size 0 ≤ (i 0 : Nat) ∧ (i 0 : Nat) < win10_10.index tL10 0 * win10_10.size 0 + win10_10.xsize (grid10.coords tL10) 0
                  rw [(idx10_10 tL10).1, (xsz10_10 tL10).1]; omega
      | ⟨1, _⟩ => show win10_10.index tL10 1 * win10_10.size 1 ≤ (i 1 : Nat) ∧ (i 1 : Nat) < win10_10.index tL10 1 * win10_10.size 1 + win10_10.xsize (grid10.coords tL10) 1
                  rw [(idx10_10 tL10).2, (xsz10_10 tL10).2]; omega⟩

end Cert.KernelIdeal.Hand

end
-- ==== Proof.Pay10.lean ====
/-
  The payloads of pipeline 10's body (a statistics kernel) at the ideal values, read at an index: the tile
  quantity whose column statistics the kernel takes, the two running rows after a tile, the zero rows of the reset,
  and the mean, scale and shift the last point computes. A change of float format is the identity on the extended
  reals, a matrix product into a zero accumulator is the row-by-column sum, a lane reduction is a finite sum.
-/
import proofs.«180905_j29583734735286_1_alg».proof.Proof.Gen.KernelIdeal.Skeleton
import Idealize.ShloMosaic.Lib.ValueIdx
import Idealize.ShloMosaic.Lib.Pipeline.Value
import Idealize.ShloMosaic.PureOps.Ideal.Laws
import proofs.«180905_j29583734735286_1_alg».proof.Proof.LibDense
import proofs.«180905_j29583734735286_1_alg».proof.Proof.LibAxisSum
import proofs.«180905_j29583734735286_1_alg».proof.Proof.LibBiasRows

noncomputable section

namespace Cert.Proof.Pay10

open Idealize.ShloMosaic Idealize.ShloMosaic.ValueIdx Cert.KernelIdeal Cert.KernelIdeal.Gen
open scoped BigOperators

abbrev r0 (j : Fin 128) : S1x128.Idx := ix2 ⟨0, Nat.one_pos⟩ j
abbrev zW : EReal := Ideal.ofBits .f32 0x00000000#32

theorem inv_n : Named.named (F := Ideal) Cert.KernelIdeal.κ "inv_50000" (φ := .f32) 0x37A7C5AC#32
    = ((1 / 50000 : ℝ) : EReal) :=
  IdealRules.named_const.ideal_named_scalar _ _ _ _ rfl

/-- The tile quantity. -/
abbrev q (x0 : FVec Ideal S5000x128 .f32) (x1 : FVec Ideal S128x128 .bf16) (x2 : FVec Ideal S128x128 .bf16) (x3 : FVec Ideal S1x128 .f32) (x4 : FVec Ideal S1x128 .f32) (x5 : FVec Ideal S1x128 .f32) (x6 : FVec Ideal S1x128 .f32) : FVec Ideal S5000x128 .f32 := k10_pay8 x0 x1 x3 x4 x2 x5 x6

theorem q_apply (x0 : FVec Ideal S5000x128 .f32) (x1 : FVec Ideal S128x128 .bf16) (x2 : FVec Ideal S128x128 .bf16) (x3 : FVec Ideal S1x128 .f32) (x4 : FVec Ideal S1x128 .f32) (x5 : FVec Ideal S1x128 .f32) (x6 : FVec Ideal S1x128 .f32) (y : Fin 5000) (j : Fin 128) :
    q x0 x1 x2 x3 x4 x5 x6 (ix2 y j) = max ((∑ k : Fin 128, max ((∑ k' : Fin 128, x0 (ix2 y k') * x1 (ix2 k' k)) * x3 (r0 k) + x4 (r0 k)) zW * x2 (ix2 k j)) * x5 (r0 j) + x6 (r0 j)) zW := by
  unfold q k10_pay8
  simp only [shapeCast_self]
  show max (FloatOps.matmul (DotDims.plain 5000 128 128) none _ x2 (constant (F := Ideal) S5000x128 .f32 0x00000000#32) (ix2 y j)
      * broadcastTo S5000x128 x5 broadcasts_S1x128_S5000x128 (ix2 y j)
      + broadcastTo S5000x128 x6 broadcasts_S1x128_S5000x128 (ix2 y j)) zW = _
  rw [Cert.LibBiasRows.row_broadcast (n := 5000) (d := 128) x5, Cert.LibBiasRows.row_broadcast (n := 5000) (d := 128) x6]
  refine congrArg (fun z => max (z * x5 (r0 j) + x6 (r0 j)) zW) ?_
  refine (Cert.LibDense.matmul_plain (M := 5000) (K := 128) (N := 128) (φ₁ := .bf16) (φ₂ := .bf16) _ x2 (ix2 y j)).trans ?_
  refine Finset.sum_congr rfl fun k _ => congrArg (fun z => z * x2 (ix2 k j)) ?_
  show max (FloatOps.matmul (DotDims.plain 5000 128 128) none _ x1 (constant (F := Ideal) S5000x128 .f32 0x00000000#32) (ix2 y k)
      * broadcastTo S5000x128 x3 broadcasts_S1x128_S5000x128 (ix2 y k)
      + broadcastTo S5000x128 x4 broadcasts_S1x128_S5000x128 (ix2 y k)) zW = _
  rw [Cert.LibBiasRows.row_broadcast (n := 5000) (d := 128) x3, Cert.LibBiasRows.row_broadcast (n := 5000) (d := 128) x4, Cert.LibDense.matmul_plain (M := 5000) (K := 128) (N := 128)]
  rfl

theorem total_apply (x0 : FVec Ideal S5000x128 .f32) (x1 : FVec Ideal S128x128 .bf16) (x2 : FVec Ideal S128x128 .bf16) (x3 : FVec Ideal S1x128 .f32) (x4 : FVec Ideal S1x128 .f32) (x5 : FVec Ideal S1x128 .f32) (x6 : FVec Ideal S1x128 .f32) (old : FVec Ideal S1x128 .f32) (j : Fin 128) :
    (k10_pay1 old (k10_pay9 x0 x1 x3 x4 x2 x5 x6) : FVec Ideal S1x128 .f32) (r0 j) = old (r0 j) + ∑ y : Fin 5000, q x0 x1 x2 x3 x4 x5 x6 (ix2 y j) := by
  unfold k10_pay1 k10_pay9
  simp only [shapeCast_self]
  refine congrArg (fun z => old (r0 j) + z) ?_
  refine (Cert.LibBiasRows.row_of_vector _ _ j).trans ?_
  exact Cert.LibAxisSum.sum_first (n := 5000) (d := 128) _ _ _ _ _ j

theorem total_sq_apply (x0 : FVec Ideal S5000x128 .f32) (x1 : FVec Ideal S128x128 .bf16) (x2 : FVec Ideal S128x128 .bf16) (x3 : FVec Ideal S1x128 .f32) (x4 : FVec Ideal S1x128 .f32) (x5 : FVec Ideal S1x128 .f32) (x6 : FVec Ideal S1x128 .f32) (old : FVec Ideal S1x128 .f32) (j : Fin 128) :
    (k10_pay2 (k10_pay8 x0 x1 x3 x4 x2 x5 x6) old : FVec Ideal S1x128 .f32) (r0 j) = old (r0 j) + ∑ y : Fin 5000, q x0 x1 x2 x3 x4 x5 x6 (ix2 y j) * q x0 x1 x2 x3 x4 x5 x6 (ix2 y j) := by
  unfold k10_pay2
  simp only [shapeCast_self]
  refine congrArg (fun z => old (r0 j) + z) ?_
  refine (Cert.LibBiasRows.row_of_vector _ _ j).trans ?_
  exact Cert.LibAxisSum.sum_first (n := 5000) (d := 128) _ _ _ _ _ j

theorem zeroS (j : Fin 128) : (k10_pay6 (F := Ideal) : S1x128.Idx → EReal) (r0 j) = 0 := by
  unfold k10_pay6; rw [shapeCast_self]; exact Ideal.ofBits_zero_f32
theorem zeroQ (j : Fin 128) : (k10_pay7 (F := Ideal) : S1x128.Idx → EReal) (r0 j) = 0 := by
  unfold k10_pay7; rw [shapeCast_self]; exact Ideal.ofBits_zero_f32

theorem mean_apply (v27 : FVec Ideal S1x128 .f32) (j : Fin 128) :
    k10_pay3 (F := Ideal) v27 (r0 j) = v27 (r0 j) * ((1 / 50000 : ℝ) : EReal) := by
  unfold k10_pay3
  exact congrArg (fun z => v27 (r0 j) * z) inv_n

theorem scale_apply (v27 v30 v35 : FVec Ideal S1x128 .f32) (j : Fin 128) :
    k10_pay4 (F := Ideal) v27 v30 v35 (r0 j)
      = v35 (r0 j) * Ideal.rsqrt (v30 (r0 j) * ((1 / 50000 : ℝ) : EReal)
          - v27 (r0 j) * ((1 / 50000 : ℝ) : EReal) * (v27 (r0 j) * ((1 / 50000 : ℝ) : EReal))
          + Ideal.ofBits .f32 0x3727C5AC#32) := by
  unfold k10_pay4
  rw [shapeCast_self]
  show v35 (r0 j) * Ideal.rsqrt (v30 (r0 j) * Named.named (F := Ideal) Cert.KernelIdeal.κ "inv_50000" (φ := .f32) 0x37A7C5AC#32
      - k10_pay3 (F := Ideal) v27 (r0 j) * k10_pay3 (F := Ideal) v27 (r0 j) + Ideal.ofBits .f32 0x3727C5AC#32) = _
  rw [mean_apply, inv_n]

theorem shift_apply (v27 v30 v35 v41 : FVec Ideal S1x128 .f32) (j : Fin 128) :
    k10_pay5 (F := Ideal) v27 v30 v35 v41 (r0 j)
      = v41 (r0 j) - v27 (r0 j) * ((1 / 50000 : ℝ) : EReal) * k10_pay4 (F := Ideal) v27 v30 v35 (r0 j) := by
  unfold k10_pay5
  rw [shapeCast_self]
  show v41 (r0 j) - k10_pay3 (F := Ideal) v27 (r0 j) * k10_pay4 (F := Ideal) v27 v30 v35 (r0 j) = _
  rw [mean_apply]

end Cert.Proof.Pay10

end
-- ==== Proof.R10Sum.lean ====
/-
  Pipeline 10 (a statistics kernel), at the ideal values: what the region leaves in its two result arrays.
  The tile of x a point holds is rows 5000·t … 5000·t + 4999 of x; every other input block is its whole array at
  every point. The quantity whose statistics the kernel takes reads one row of x, so on a tile it is the whole
  array's quantity at the tile's rows; the running rows therefore end at its column totals over all 50000 rows
  (a running total over the ten tiles), and the stored scale and shift are the batch-norm formulas of those totals.
  Each result array is written back once, at the last point, whole.
-/
import proofs.«180905_j29583734735286_1_alg».proof.Proof.R10Val
import proofs.«180905_j29583734735286_1_alg».proof.Proof.R10Arr
import proofs.«180905_j29583734735286_1_alg».proof.Proof.Pay10
import proofs.«180905_j29583734735286_1_alg».proof.Proof.LibTiledTotals
import proofs.«180905_j29583734735286_1_alg».proof.Proof.Spec
import proofs.«180905_j29583734735286_1_alg».proof.Proof.ValCommon
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibBatchNorm (rowOf)
open scoped BigOperators

variable (V : (c : Dev nD) → (b : Ref sig .tc) → Buf (Elt Ideal) ((c : Thread nD τ).loc b))

abbrev r0_10 (j : Fin 128) : S1x128.Idx := ix2 ⟨0, Nat.one_pos⟩ j
theorem lt_N10 (t : Fin (9 + 1)) : t.val < cfg10.N := lt_of_lt_of_eq t.isLt N_10.symm

def in10_0 (c : Dev nD) (r : Fin 50000) (k : Fin 128) : EReal := (V c main_v101 : S50000x128.Idx → EReal) (ix2 r k)
theorem idx10_0 : ∀ t : Fin cfg10.N, win10_0.index t 0 = t.val ∧ win10_0.index t 1 = 0 := by
  intro t; rcases fin_N10 t with rfl | rfl | rfl | rfl | rfl | rfl | rfl | rfl | rfl | rfl <;> decide
theorem tile10_0 (c : Dev nD) (t : Fin cfg10.N) (y : Fin 5000) (k : Fin 128) (R : Fin 50000) (hR : R.val = t.val * 5000 + y.val) :
    (iblk10 V c 0 t : Vec Ideal S5000x128 .f32) (ix2 y k) = in10_0 V c R k := by
  unfold iblk10 in10_0
  rw [View.read_apply]
  show (V c main_v101 : S50000x128.Idx → EReal) _ = (V c main_v101 : S50000x128.Idx → EReal) _
  congr 1
  funext a
  apply Fin.ext
  match a with
  | ⟨0, _⟩ => show win10_0.index t 0 * 5000 + 1 * y.val = R.val; rw [(idx10_0 t).1, hR]; omega
  | ⟨1, _⟩ => show win10_0.index t 1 * 128 + 1 * k.val = k.val; rw [(idx10_0 t).2]; omega
theorem blk10_0 (c : Dev nD) (t : Fin (9 + 1)) (y : Fin 5000) (k : Fin 128) :
    (iblk10 V c 0 ⟨t.val, lt_N10 t⟩ : FVec Ideal S5000x128 .f32) (ix2 y k) = in10_0 V c (rowOf h50000 t y) k :=
  tile10_0 V c ⟨t.val, lt_N10 t⟩ y k (rowOf h50000 t y) rfl

def in10_1 (c : Dev nD) (k j : Fin 128) : EReal := (V c main_v104 : S128x128.Idx → EReal) (ix2 k j)
theorem idx10_1 : ∀ t : Fin cfg10.N, win10_1.index t 0 = 0 ∧ win10_1.index t 1 = 0 := by
  intro t; rcases fin_N10 t with rfl | rfl | rfl | rfl | rfl | rfl | rfl | rfl | rfl | rfl <;> decide
theorem res10_1 (c : Dev nD) (t : Fin cfg10.N) (k j : Fin 128) :
    (iblk10 V c 1 t : Vec Ideal S128x128 .bf16) (ix2 k j) = in10_1 V c k j := by
  unfold iblk10 in10_1
  rw [View.read_apply]
  show (V c main_v104 : S128x128.Idx → EReal) _ = (V c main_v104 : S128x128.Idx → EReal) _
  congr 1
  funext a
  apply Fin.ext
  match a with
  | ⟨0, _⟩ => show win10_1.index t 0 * 128 + 1 * k.val = k.val; rw [(idx10_1 t).1]; omega
  | ⟨1, _⟩ => show win10_1.index t 1 * 128 + 1 * j.val = j.val; rw [(idx10_1 t).2]; omega
theorem blk10_1 (c : Dev nD) (t : Fin (9 + 1)) (k j : Fin 128) :
    (iblk10 V c 1 ⟨t.val, lt_N10 t⟩ : FVec Ideal S128x128 .bf16) (ix2 k j) = in10_1 V c k j :=
  res10_1 V c ⟨t.val, lt_N10 t⟩ k j

def in10_2 (c : Dev nD) (k j : Fin 128) : EReal := (V c main_v107 : S128x128.Idx → EReal) (ix2 k j)
theorem idx10_2 : ∀ t : Fin cfg10.N, win10_2.index t 0 = 0 ∧ win10_2.index t 1 = 0 := by
  intro t; rcases fin_N10 t with rfl | rfl | rfl | rfl | rfl | rfl | rfl | rfl | rfl | rfl <;> decide
theorem res10_2 (c : Dev nD) (t : Fin cfg10.N) (k j : Fin 128) :
    (iblk10 V c 2 t : Vec Ideal S128x128 .bf16) (ix2 k j) = in10_2 V c k j := by
  unfold iblk10 in10_2
  rw [View.read_apply]
  show (V c main_v107 : S128x128.Idx → EReal) _ = (V c main_v107 : S128x128.Idx → EReal) _
  congr 1
  funext a
  apply Fin.ext
  match a with
  | ⟨0, _⟩ => show win10_2.index t 0 * 128 + 1 * k.val = k.val; rw [(idx10_2 t).1]; omega
  | ⟨1, _⟩ => show win10_2.index t 1 * 128 + 1 * j.val = j.val; rw [(idx10_2 t).2]; omega
theorem blk10_2 (c : Dev nD) (t : Fin (9 + 1)) (k j : Fin 128) :
    (iblk10 V c 2 ⟨t.val, lt_N10 t⟩ : FVec Ideal S128x128 .bf16) (ix2 k j) = in10_2 V c k j :=
  res10_2 V c ⟨t.val, lt_N10 t⟩ k j

def in10_3 (c : Dev nD) (j : Fin 128) : EReal := (V c main_v126_0 : S1x128.Idx → EReal) (ix2 ⟨0, Nat.one_pos⟩ j)
theorem idx10_3 : ∀ t : Fin cfg10.N, win10_3.index t 0 = 0 ∧ win10_3.index t 1 = 0 := by
  intro t; rcases fin_N10 t with rfl | rfl | rfl | rfl | rfl | rfl | rfl | rfl | rfl | rfl <;> decide
theorem res10_3 (c : Dev nD) (t : Fin cfg10.N) (j : Fin 128) :
    (iblk10 V c 3 t : Vec Ideal S1x128 .f32) (ix2 ⟨0, Nat.one_pos⟩ j) = in10_3 V c j := by
  unfold iblk10 in10_3
  rw [View.read_apply]
  show (V c main_v126_0 : S1x128.Idx → EReal) _ = (V c main_v126_0 : S1x128.Idx → EReal) _
  congr 1
  funext a
  apply Fin.ext
  match a with
  | ⟨0, _⟩ => show win10_3.index t 0 * 1 + 1 * 0 = 0; rw [(idx10_3 t).1]
  | ⟨1, _⟩ => show win10_3.index t 1 * 128 + 1 * j.val = j.val; rw [(idx10_3 t).2]; omega
theorem blk10_3 (c : Dev nD) (t : Fin (9 + 1)) (j : Fin 128) :
    (iblk10 V c 3 ⟨t.val, lt_N10 t⟩ : FVec Ideal S1x128 .f32) (ix2 ⟨0, Nat.one_pos⟩ j) = in10_3 V c j :=
  res10_3 V c ⟨t.val, lt_N10 t⟩ j

def in10_4 (c : Dev nD) (j : Fin 128) : EReal := (V c main_v126_1 : S1x128.Idx → EReal) (ix2 ⟨0, Nat.one_pos⟩ j)
theorem idx10_4 : ∀ t : Fin cfg10.N, win10_4.index t 0 = 0 ∧ win10_4.index t 1 = 0 := by
  intro t; rcases fin_N10 t with rfl | rfl | rfl | rfl | rfl | rfl | rfl | rfl | rfl | rfl <;> decide
theorem res10_4 (c : Dev nD) (t : Fin cfg10.N) (j : Fin 128) :
    (iblk10 V c 4 t : Vec Ideal S1x128 .f32) (ix2 ⟨0, Nat.one_pos⟩ j) = in10_4 V c j := by
  unfold iblk10 in10_4
  rw [View.read_apply]
  show (V c main_v126_1 : S1x128.Idx → EReal) _ = (V c main_v126_1 : S1x128.Idx → EReal) _
  congr 1
  funext a
  apply Fin.ext
  match a with
  | ⟨0, _⟩ => show win10_4.index t 0 * 1 + 1 * 0 = 0; rw [(idx10_4 t).1]
  | ⟨1, _⟩ => show win10_4.index t 1 * 128 + 1 * j.val = j.val; rw [(idx10_4 t).2]; omega
theorem blk10_4 (c : Dev nD) (t : Fin (9 + 1)) (j : Fin 128) :
    (iblk10 V c 4 ⟨t.val, lt_N10 t⟩ : FVec Ideal S1x128 .f32) (ix2 ⟨0, Nat.one_pos⟩ j) = in10_4 V c j :=
  res10_4 V c ⟨t.val, lt_N10 t⟩ j

def in10_5 (c : Dev nD) (j : Fin 128) : EReal := (V c main_v127_0 : S1x128.Idx → EReal) (ix2 ⟨0, Nat.one_pos⟩ j)
theorem idx10_5 : ∀ t : Fin cfg10.N, win10_5.index t 0 = 0 ∧ win10_5.index t 1 = 0 := by
  intro t; rcases fin_N10 t with rfl | rfl | rfl | rfl | rfl | rfl | rfl | rfl | rfl | rfl <;> decide
theorem res10_5 (c : Dev nD) (t : Fin cfg10.N) (j : Fin 128) :
    (iblk10 V c 5 t : Vec Ideal S1x128 .f32) (ix2 ⟨0, Nat.one_pos⟩ j) = in10_5 V c j := by
  unfold iblk10 in10_5
  rw [View.read_apply]
  show (V c main_v127_0 : S1x128.Idx → EReal) _ = (V c main_v127_0 : S1x128.Idx → EReal) _
  congr 1
  funext a
  apply Fin.ext
  match a with
  | ⟨0, _⟩ => show win10_5.index t 0 * 1 + 1 * 0 = 0; rw [(idx10_5 t).1]
  | ⟨1, _⟩ => show win10_5.index t 1 * 128 + 1 * j.val = j.val; rw [(idx10_5 t).2]; omega
theorem blk10_5 (c : Dev nD) (t : Fin (9 + 1)) (j : Fin 128) :
    (iblk10 V c 5 ⟨t.val, lt_N10 t⟩ : FVec Ideal S1x128 .f32) (ix2 ⟨0, Nat.one_pos⟩ j) = in10_5 V c j :=
  res10_5 V c ⟨t.val, lt_N10 t⟩ j

def in10_6 (c : Dev nD) (j : Fin 128) : EReal := (V c main_v127_1 : S1x128.Idx → EReal) (ix2 ⟨0, Nat.one_pos⟩ j)
theorem idx10_6 : ∀ t : Fin cfg10.N, win10_6.index t 0 = 0 ∧ win10_6.index t 1 = 0 := by
  intro t; rcases fin_N10 t with rfl | rfl | rfl | rfl | rfl | rfl | rfl | rfl | rfl | rfl <;> decide
theorem res10_6 (c : Dev nD) (t : Fin cfg10.N) (j : Fin 128) :
    (iblk10 V c 6 t : Vec Ideal S1x128 .f32) (ix2 ⟨0, Nat.one_pos⟩ j) = in10_6 V c j := by
  unfold iblk10 in10_6
  rw [View.read_apply]
  show (V c main_v127_1 : S1x128.Idx → EReal) _ = (V c main_v127_1 : S1x128.Idx → EReal) _
  congr 1
  funext a
  apply Fin.ext
  match a with
  | ⟨0, _⟩ => show win10_6.index t 0 * 1 + 1 * 0 = 0; rw [(idx10_6 t).1]
  | ⟨1, _⟩ => show win10_6.index t 1 * 128 + 1 * j.val = j.val; rw [(idx10_6 t).2]; omega
theorem blk10_6 (c : Dev nD) (t : Fin (9 + 1)) (j : Fin 128) :
    (iblk10 V c 6 ⟨t.val, lt_N10 t⟩ : FVec Ideal S1x128 .f32) (ix2 ⟨0, Nat.one_pos⟩ j) = in10_6 V c j :=
  res10_6 V c ⟨t.val, lt_N10 t⟩ j

def in10_7 (c : Dev nD) (j : Fin 128) : EReal := (V c main_v122 : S1x128.Idx → EReal) (ix2 ⟨0, Nat.one_pos⟩ j)
theorem idx10_7 : ∀ t : Fin cfg10.N, win10_7.index t 0 = 0 ∧ win10_7.index t 1 = 0 := by
  intro t; rcases fin_N10 t with rfl | rfl | rfl | rfl | rfl | rfl | rfl | rfl | rfl | rfl <;> decide
theorem res10_7 (c : Dev nD) (t : Fin cfg10.N) (j : Fin 128) :
    (iblk10 V c 7 t : Vec Ideal S1x128 .f32) (ix2 ⟨0, Nat.one_pos⟩ j) = in10_7 V c j := by
  unfold iblk10 in10_7
  rw [View.read_apply]
  show (V c main_v122 : S1x128.Idx → EReal) _ = (V c main_v122 : S1x128.Idx → EReal) _
  congr 1
  funext a
  apply Fin.ext
  match a with
  | ⟨0, _⟩ => show win10_7.index t 0 * 1 + 1 * 0 = 0; rw [(idx10_7 t).1]
  | ⟨1, _⟩ => show win10_7.index t 1 * 128 + 1 * j.val = j.val; rw [(idx10_7 t).2]; omega
theorem blk10_7 (c : Dev nD) (t : Fin (9 + 1)) (j : Fin 128) :
    (iblk10 V c 7 ⟨t.val, lt_N10 t⟩ : FVec Ideal S1x128 .f32) (ix2 ⟨0, Nat.one_pos⟩ j) = in10_7 V c j :=
  res10_7 V c ⟨t.val, lt_N10 t⟩ j

def in10_8 (c : Dev nD) (j : Fin 128) : EReal := (V c main_v125 : S1x128.Idx → EReal) (ix2 ⟨0, Nat.one_pos⟩ j)
theorem idx10_8 : ∀ t : Fin cfg10.N, win10_8.index t 0 = 0 ∧ win10_8.index t 1 = 0 := by
  intro t; rcases fin_N10 t with rfl | rfl | rfl | rfl | rfl | rfl | rfl | rfl | rfl | rfl <;> decide
theorem res10_8 (c : Dev nD) (t : Fin cfg10.N) (j : Fin 128) :
    (iblk10 V c 8 t : Vec Ideal S1x128 .f32) (ix2 ⟨0, Nat.one_pos⟩ j) = in10_8 V c j := by
  unfold iblk10 in10_8
  rw [View.read_apply]
  show (V c main_v125 : S1x128.Idx → EReal) _ = (V c main_v125 : S1x128.Idx → EReal) _
  congr 1
  funext a
  apply Fin.ext
  match a with
  | ⟨0, _⟩ => show win10_8.index t 0 * 1 + 1 * 0 = 0; rw [(idx10_8 t).1]
  | ⟨1, _⟩ => show win10_8.index t 1 * 128 + 1 * j.val = j.val; rw [(idx10_8 t).2]; omega
theorem blk10_8 (c : Dev nD) (t : Fin (9 + 1)) (j : Fin 128) :
    (iblk10 V c 8 ⟨t.val, lt_N10 t⟩ : FVec Ideal S1x128 .f32) (ix2 ⟨0, Nat.one_pos⟩ j) = in10_8 V c j :=
  res10_8 V c ⟨t.val, lt_N10 t⟩ j

/-- The quantity whose column statistics this kernel takes, over all rows. -/
abbrev GQ10 (c : Dev nD) : Fin 50000 → Fin 128 → EReal := Cert.Spec.relu zW (Cert.Spec.aff (Cert.Spec.lin (Cert.Spec.relu zW (Cert.Spec.aff (Cert.Spec.lin (in10_0 V c) (in10_1 V c)) (in10_3 V c) (in10_4 V c))) (in10_2 V c)) (in10_5 V c) (in10_6 V c))

theorem tile_q10 (c : Dev nD) (t : Fin (9 + 1)) (y : Fin 5000) (j : Fin 128) :
    Cert.Proof.Pay10.q (iblk10 V c 0 ⟨t.val, lt_N10 t⟩) (iblk10 V c 1 ⟨t.val, lt_N10 t⟩) (iblk10 V c 2 ⟨t.val, lt_N10 t⟩) (iblk10 V c 3 ⟨t.val, lt_N10 t⟩) (iblk10 V c 4 ⟨t.val, lt_N10 t⟩) (iblk10 V c 5 ⟨t.val, lt_N10 t⟩) (iblk10 V c 6 ⟨t.val, lt_N10 t⟩) (ix2 y j) = GQ10 V c (rowOf h50000 t y) j := by
  rw [Cert.Proof.Pay10.q_apply]
  simp only [blk10_0 V c t, blk10_1 V c t, blk10_2 V c t, blk10_3 V c t, blk10_4 V c t, blk10_5 V c t, blk10_6 V c t, Cert.Spec.lin, Cert.Spec.relu, Cert.Spec.aff]

def accS10 (c : Dev nD) (n : ℕ) (hn : n < cfg10.N) (j : Fin 128) : EReal := ((outsAt10 V c n hn).2.2.1 : S1x128.Idx → EReal) (r0_10 j)
def accQ10 (c : Dev nD) (n : ℕ) (hn : n < cfg10.N) (j : Fin 128) : EReal := ((outsAt10 V c n hn).2.2.2 : S1x128.Idx → EReal) (r0_10 j)

theorem accS10_zero (c : Dev nD) (j : Fin 128) : accS10 V c 0 (lt_N10 0) j = 0 + ∑ y : Fin 5000, GQ10 V c (rowOf h50000 0 y) j := by
  have e := outsAt10_A V c ⟨0, lt_N10 0⟩ rfl (c0_zero10 _) (nc1_zero10 _)
  unfold accS10
  rw [show outsAt10 V c 0 (lt_N10 0) = _ from e]
  dsimp only
  rw [pieceA10_S, Cert.Proof.Pay10.total_apply, Cert.Proof.Pay10.zeroS]
  exact congrArg (fun z => (0 : EReal) + z) (Finset.sum_congr rfl fun y _ => tile_q10 V c 0 y j)

theorem accQ10_zero (c : Dev nD) (j : Fin 128) : accQ10 V c 0 (lt_N10 0) j = 0 + ∑ y : Fin 5000, GQ10 V c (rowOf h50000 0 y) j * GQ10 V c (rowOf h50000 0 y) j := by
  have e := outsAt10_A V c ⟨0, lt_N10 0⟩ rfl (c0_zero10 _) (nc1_zero10 _)
  unfold accQ10
  rw [show outsAt10 V c 0 (lt_N10 0) = _ from e]
  dsimp only
  rw [pieceA10_Q, Cert.Proof.Pay10.total_sq_apply, Cert.Proof.Pay10.zeroQ]
  exact congrArg (fun z => (0 : EReal) + z) (Finset.sum_congr rfl fun y _ => congrArg₂ (· * ·) (tile_q10 V c 0 y j) (tile_q10 V c 0 y j))

theorem accS10_succ (c : Dev nD) (n : ℕ) (hn : n + 1 < 9 + 1) (j : Fin 128) :
    accS10 V c (n + 1) (lt_N10 ⟨n + 1, hn⟩) j = accS10 V c n (lt_N10 ⟨n, Nat.lt_of_succ_lt hn⟩) j + ∑ y : Fin 5000, GQ10 V c (rowOf h50000 ⟨n + 1, hn⟩ y) j := by
  have hz : (⟨n + 1, lt_N10 ⟨n + 1, hn⟩⟩ : Fin cfg10.N).val ≠ 0 := Nat.succ_ne_zero n
  have hc0 := nc0_succ10 n (lt_N10 ⟨n + 1, hn⟩)
  unfold accS10
  by_cases h1 : (n + 1) % 10 = 9
  · have hc1 : cond10_1 (grid10.coords ⟨n + 1, lt_N10 ⟨n + 1, hn⟩⟩) := (hcond10_1 _).mpr h1
    have e := outsAt10_C V c ⟨n + 1, lt_N10 ⟨n + 1, hn⟩⟩ hz h1 hc0 hc1
    rw [show outsAt10 V c (n + 1) (lt_N10 ⟨n + 1, hn⟩) = _ from e]
    dsimp only
    rw [pieceC10_S, Cert.Proof.Pay10.total_apply]
    exact congrArg₂ (· + ·) rfl (Finset.sum_congr rfl fun y _ => tile_q10 V c ⟨n + 1, hn⟩ y j)
  · have hc1 : ¬cond10_1 (grid10.coords ⟨n + 1, lt_N10 ⟨n + 1, hn⟩⟩) := fun h => h1 ((hcond10_1 _).mp h)
    have e := outsAt10_B V c ⟨n + 1, lt_N10 ⟨n + 1, hn⟩⟩ hz h1 hc0 hc1
    rw [show outsAt10 V c (n + 1) (lt_N10 ⟨n + 1, hn⟩) = _ from e]
    dsimp only
    rw [pieceB10_S, Cert.Proof.Pay10.total_apply]
    exact congrArg₂ (· + ·) rfl (Finset.sum_congr rfl fun y _ => tile_q10 V c ⟨n + 1, hn⟩ y j)

theorem accQ10_succ (c : Dev nD) (n : ℕ) (hn : n + 1 < 9 + 1) (j : Fin 128) :
    accQ10 V c (n + 1) (lt_N10 ⟨n + 1, hn⟩) j = accQ10 V c n (lt_N10 ⟨n, Nat.lt_of_succ_lt hn⟩) j + ∑ y : Fin 5000, GQ10 V c (rowOf h50000 ⟨n + 1, hn⟩ y) j * GQ10 V c (rowOf h50000 ⟨n + 1, hn⟩ y) j := by
  have hz : (⟨n + 1, lt_N10 ⟨n + 1, hn⟩⟩ : Fin cfg10.N).val ≠ 0 := Nat.succ_ne_zero n
  have hc0 := nc0_succ10 n (lt_N10 ⟨n + 1, hn⟩)
  unfold accQ10
  by_cases h1 : (n + 1) % 10 = 9
  · have hc1 : cond10_1 (grid10.coords ⟨n + 1, lt_N10 ⟨n + 1, hn⟩⟩) := (hcond10_1 _).mpr h1
    have e := outsAt10_C V c ⟨n + 1, lt_N10 ⟨n + 1, hn⟩⟩ hz h1 hc0 hc1
    rw [show outsAt10 V c (n + 1) (lt_N10 ⟨n + 1, hn⟩) = _ from e]
    dsimp only
    rw [pieceC10_Q, Cert.Proof.Pay10.total_sq_apply]
    exact congrArg₂ (· + ·) rfl (Finset.sum_congr rfl fun y _ => congrArg₂ (· * ·) (tile_q10 V c ⟨n + 1, hn⟩ y j) (tile_q10 V c ⟨n + 1, hn⟩ y j))
  · have hc1 : ¬cond10_1 (grid10.coords ⟨n + 1, lt_N10 ⟨n + 1, hn⟩⟩) := fun h => h1 ((hcond10_1 _).mp h)
    have e := outsAt10_B V c ⟨n + 1, lt_N10 ⟨n + 1, hn⟩⟩ hz h1 hc0 hc1
    rw [show outsAt10 V c (n + 1) (lt_N10 ⟨n + 1, hn⟩) = _ from e]
    dsimp only
    rw [pieceB10_Q, Cert.Proof.Pay10.total_sq_apply]
    exact congrArg₂ (· + ·) rfl (Finset.sum_congr rfl fun y _ => congrArg₂ (· * ·) (tile_q10 V c ⟨n + 1, hn⟩ y j) (tile_q10 V c ⟨n + 1, hn⟩ y j))

theorem totS10 (c : Dev nD) (j : Fin 128) : accS10 V c 9 (lt_N10 9) j = Cert.Spec.colS (GQ10 V c) j :=
  Cert.LibTiledTotals.tiled_total h50000 (GQ10 V c) (fun t j => ∑ y : Fin 5000, GQ10 V c (rowOf h50000 t y) j) (fun _ _ => rfl)
    (fun t j => accS10 V c t.val (lt_N10 t) j) (accS10_zero V c) (fun t j => accS10_succ V c t.val (Nat.succ_lt_succ t.isLt) j) j
theorem totQ10 (c : Dev nD) (j : Fin 128) : accQ10 V c 9 (lt_N10 9) j = Cert.Spec.colQ (GQ10 V c) j :=
  Cert.LibTiledTotals.tiled_total_sq h50000 (GQ10 V c) (fun t j => ∑ y : Fin 5000, GQ10 V c (rowOf h50000 t y) j * GQ10 V c (rowOf h50000 t y) j) (fun _ _ => rfl)
    (fun t j => accQ10 V c t.val (lt_N10 t) j) (accQ10_zero V c) (fun t j => accQ10_succ V c t.val (Nat.succ_lt_succ t.isLt) j) j
theorem totS10' (c : Dev nD) (t : Fin cfg10.N) (h9 : t.val = 9) (j : Fin 128) : accS10 V c t.val t.isLt j = Cert.Spec.colS (GQ10 V c) j := by
  obtain rfl : t = ⟨9, lt_N10 9⟩ := Fin.ext h9
  exact totS10 V c j
theorem totQ10' (c : Dev nD) (t : Fin cfg10.N) (h9 : t.val = 9) (j : Fin 128) : accQ10 V c t.val t.isLt j = Cert.Spec.colQ (GQ10 V c) j := by
  obtain rfl : t = ⟨9, lt_N10 9⟩ := Fin.ext h9
  exact totQ10 V c j

abbrev pS10 (c : Dev nD) (t : Fin cfg10.N) : Vec Ideal S1x128 .f32 := (outsAt10 V c (t.val - 1) (Nat.lt_of_le_of_lt (Nat.sub_le _ _) t.isLt)).2.2.1
abbrev pQ10 (c : Dev nD) (t : Fin cfg10.N) : Vec Ideal S1x128 .f32 := (outsAt10 V c (t.val - 1) (Nat.lt_of_le_of_lt (Nat.sub_le _ _) t.isLt)).2.2.2
abbrev S9_10 (c : Dev nD) (t : Fin cfg10.N) : Vec Ideal S1x128 .f32 := k10_pay1 (pS10 V c t) (k10_pay9 (iblk10 V c 0 t) (iblk10 V c 1 t) (iblk10 V c 3 t) (iblk10 V c 4 t) (iblk10 V c 2 t) (iblk10 V c 5 t) (iblk10 V c 6 t))
abbrev Q9_10 (c : Dev nD) (t : Fin cfg10.N) : Vec Ideal S1x128 .f32 := k10_pay2 (k10_pay8 (iblk10 V c 0 t) (iblk10 V c 1 t) (iblk10 V c 3 t) (iblk10 V c 4 t) (iblk10 V c 2 t) (iblk10 V c 5 t) (iblk10 V c 6 t)) (pQ10 V c t)

set_option maxHeartbeats 3200000 in
theorem last10 (c : Dev nD) (t : Fin cfg10.N) (h9 : t.val = 9) :
    outsAt10 V c t.val t.isLt = (k10_pay4 (S9_10 V c t) (Q9_10 V c t) (iblk10 V c 7 t), k10_pay5 (S9_10 V c t) (Q9_10 V c t) (iblk10 V c 7 t) (iblk10 V c 8 t), S9_10 V c t, Q9_10 V c t) := by
  have h9' : t.val % 10 = 9 := by rw [h9]
  have hz : t.val ≠ 0 := by rw [h9]; decide
  have hc0 : ¬cond10_0 (grid10.coords t) := fun h => by have := (hcond10_0 t).mp h; omega
  have hc1 : cond10_1 (grid10.coords t) := (hcond10_1 t).mpr h9'
  refine (outsAt10_C V c t hz h9' hc0 hc1).trans ?_
  rw [(pieceC10_1 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (pS10 V c t) (pQ10 V c t)), (pieceC10_2 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (pS10 V c t) (pQ10 V c t)), (pieceC10_S (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (pS10 V c t) (pQ10 V c t)), (pieceC10_Q (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) scM10_0 (Memref.isWhole_whole _) scM10_1 (Memref.isWhole_whole _) hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (pS10 V c t) (pQ10 V c t))]

theorem scale10_val (c : Dev nD) (t : Fin cfg10.N) (h9 : t.val = 9) (j : Fin 128) :
    ((outsAt10 V c t.val t.isLt).1 : S1x128.Idx → EReal) (r0_10 j) = Cert.Spec.scaleK (GQ10 V c) (in10_7 V c) cW epsW j := by
  have hS : (S9_10 V c t : S1x128.Idx → EReal) (r0_10 j) = Cert.Spec.colS (GQ10 V c) j := by
    rw [← totS10' V c t h9]; unfold accS10; rw [last10 V c t h9]
  have hQ : (Q9_10 V c t : S1x128.Idx → EReal) (r0_10 j) = Cert.Spec.colQ (GQ10 V c) j := by
    rw [← totQ10' V c t h9]; unfold accQ10; rw [last10 V c t h9]
  rw [last10 V c t h9]
  dsimp only
  rw [Cert.Proof.Pay10.scale_apply, hS, hQ, res10_7 V c t j]
  rfl

theorem shift10_val (c : Dev nD) (t : Fin cfg10.N) (h9 : t.val = 9) (j : Fin 128) :
    ((outsAt10 V c t.val t.isLt).2.1 : S1x128.Idx → EReal) (r0_10 j) = Cert.Spec.shiftK (GQ10 V c) (in10_7 V c) (in10_8 V c) cW epsW j := by
  have hS : (S9_10 V c t : S1x128.Idx → EReal) (r0_10 j) = Cert.Spec.colS (GQ10 V c) j := by
    rw [← totS10' V c t h9]; unfold accS10; rw [last10 V c t h9]
  have hsc := scale10_val V c t h9 j
  rw [last10 V c t h9] at hsc
  dsimp only at hsc
  rw [last10 V c t h9]
  dsimp only
  rw [Cert.Proof.Pay10.shift_apply, hsc, hS, res10_8 V c t j]
  rfl

/-- THE REGION'S VALUE: the two result arrays after the region are the batch norm's scale and shift rows. -/
theorem scaleArr10 (c : Dev nD) (j : Fin 128) :
    ((dat10 V c).arrAt 9 cfg10.N : S1x128.Idx → EReal) (r0_10 j) = Cert.Spec.scaleK (GQ10 V c) (in10_7 V c) cW epsW j := by
  rw [final10_9]; unfold G10_9
  exact scale10_val V c tL10 tL10_val j
theorem shiftArr10 (c : Dev nD) (j : Fin 128) :
    ((dat10 V c).arrAt 10 cfg10.N : S1x128.Idx → EReal) (r0_10 j) = Cert.Spec.shiftK (GQ10 V c) (in10_7 V c) (in10_8 V c) cW epsW j := by
  rw [final10_10]; unfold G10_10
  exact shift10_val V c tL10 tL10_val j

end Cert.KernelIdeal.Hand

end
-- ==== Proof.R11ValA.lean ====
/-
  The output kernel of a layer (pipeline 11): the one store of its body read back as the body's arithmetic.

  The body loads its nine whole input buffers, and stores one value into its whole output buffer; a buffer stored
  whole holds, afterwards, the stored value. So what the output buffer ends with is the last arithmetic step applied
  to the two intermediate values, each a function of the loaded inputs alone.
-/
import proofs.«180905_j29583734735286_1_alg».proof.Proof.R11
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F] [Named F]

private theorem hzv : (![0, 0] : Fin 2 → Nat) = fun _ => 0 := funext fun a => by fin_cases a <;> rfl

theorem piece11 (c : Dev nD) (i : grid11.Coords) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole) (x0 : Vec F S5000x128 .f32) (x1 : Vec F S128x128 .bf16) (x2 : Vec F S128x128 .bf16) (x3 : Vec F S1x128 .f32) (x4 : Vec F S1x128 .f32) (x5 : Vec F S1x128 .f32) (x6 : Vec F S1x128 .f32) (x7 : Vec F S1x128 .f32) (x8 : Vec F S1x128 .f32) :
    rd11 (F := F) (kernelRun11 c i arg1 harg1 arg2 harg2 arg3 harg3 arg4 harg4 arg5 harg5 arg6 harg6 arg7 harg7 arg8 harg8 arg9 harg9 arg10 harg10 x0 x1 x2 x3 x4 x5 x6 x7 x8).1 = k11_pay1 (k11_pay2 x0 x1 x3 x4 x2 x5 x6 x7) (k11_pay3 x8) := by
  unfold rd11
  rw [View.read_writes_eq_canon _ _ _ (cover11 c i arg1 harg1 arg2 harg2 arg3 harg3 arg4 harg4 arg5 harg5 arg6 harg6 arg7 harg7 arg8 harg8 arg9 harg9 arg10 harg10 x0 x1 x2 x3 x4 x5 x6 x7 x8)]
  unfold kernelRun11
  dsimp only
  rw [View.canon_unit_zero hzv]
  unfold kernelRun11.sl.r kernelRun11.sl.r_1
  simp only [View.readAt_eq_ld, harg1.read_unread, harg2.read_unread, harg3.read_unread, harg4.read_unread, harg5.read_unread, harg6.read_unread, harg7.read_unread, harg8.read_unread, harg9.read_unread, View.ld_unit_zero (S := S5000x128) hzv, View.ld_unit_zero (S := S128x128) hzv, View.ld_unit_zero (S := S1x128) hzv]

end Cert.KernelIdeal.Hand

end
-- ==== Proof.R11ValB.lean ====
/-
  The output kernel of a layer (pipeline 11), value by value, at the ideal values: what its body stores, at row y
  and column j of the tile, is the layer's two dense stages, each scaled, shifted and rectified, and the third
  scale and shift (the last layer has no rectifier after it) — of the tile, the two weights and the six rows the point holds.
-/
import proofs.«180905_j29583734735286_1_alg».proof.Proof.Gen.KernelIdeal.Skeleton
import proofs.«180905_j29583734735286_1_alg».proof.Proof.R3ValNet

noncomputable section

namespace Cert.KernelIdeal.Hand

open Idealize.ShloMosaic Idealize.ShloMosaic.ValueIdx Cert.KernelIdeal Cert.KernelIdeal.Gen
open Cert.OutNet (zW r0)
open scoped BigOperators

/-- The stored value at an entry, written out. -/
theorem pay11_explicit (v0 : FVec Ideal S5000x128 .f32) (v3 : FVec Ideal S128x128 .bf16) (v6 v10 : FVec Ideal S1x128 .f32)
    (v17 : FVec Ideal S128x128 .bf16) (v20 v24 v30 v34 : FVec Ideal S1x128 .f32) (y : Fin 5000) (j : Fin 128) :
    k11_pay1 (F := Ideal) (k11_pay2 v0 v3 v6 v10 v17 v20 v24 v30) (k11_pay3 v34) (ix2 y j)
      = (max ((∑ k : Fin 128, max ((∑ k' : Fin 128, v0 (ix2 y k') * v3 (ix2 k' k)) * v6 (r0 k) + v10 (r0 k)) zW * v17 (ix2 k j))
          * v20 (r0 j) + v24 (r0 j)) zW * v30 (r0 j) + v34 (r0 j)) := by
  unfold k11_pay1 k11_pay2 k11_pay3
  simp only [shapeCast_self]
  refine (Cert.OutNet.aff_apply _ v30 v34 y j).trans ?_
  refine congrArg (fun z => z * v30 (r0 j) + v34 (r0 j)) ?_
  refine (Cert.OutNet.act_apply _ v20 v24 y j).trans ?_
  refine congrArg (fun z => max (z * v20 (r0 j) + v24 (r0 j)) zW) ?_
  refine (Cert.OutNet.dense_apply _ v17 y j).trans ?_
  refine Finset.sum_congr rfl fun k _ => congrArg (fun z => z * v17 (ix2 k j)) ?_
  refine (Cert.OutNet.act_apply _ v6 v10 y k).trans ?_
  refine congrArg (fun z => max (z * v6 (r0 k) + v10 (r0 k)) zW) ?_
  exact Cert.OutNet.dense_apply v0 v3 y k

/-- The stored value at an entry, in the layer's vocabulary. -/
theorem pay11_apply (v0 : FVec Ideal S5000x128 .f32) (v3 : FVec Ideal S128x128 .bf16) (v6 v10 : FVec Ideal S1x128 .f32)
    (v17 : FVec Ideal S128x128 .bf16) (v20 v24 v30 v34 : FVec Ideal S1x128 .f32) (y : Fin 5000) (j : Fin 128) :
    k11_pay1 (F := Ideal) (k11_pay2 v0 v3 v6 v10 v17 v20 v24 v30) (k11_pay3 v34) (ix2 y j)
      = (Cert.OutNet.net zW (fun y k => v0 (ix2 y k)) (fun k j => v3 (ix2 k j)) (fun k j => v17 (ix2 k j))
          (fun j => v6 (r0 j)) (fun j => v10 (r0 j)) (fun j => v20 (r0 j)) (fun j => v24 (r0 j)) (fun j => v30 (r0 j)) (fun j => v34 (r0 j))) y j :=
  (pay11_explicit v0 v3 v6 v10 v17 v20 v24 v30 v34 y j).trans rfl

end Cert.KernelIdeal.Hand

end
-- ==== Proof.R11ValBlk.lean ====
/-
  The output kernel of a layer (pipeline 11): the blocks a grid point holds, read at an index.

  The tile of x at point t is rows 5000·t … 5000·t + 4999 of the array x; the two weights and the six batch-norm
  rows are the whole arrays at every point.
-/
import proofs.«180905_j29583734735286_1_alg».proof.Proof.R11
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (V : (c : Dev nD) → (b : Ref sig .tc) → Buf (Elt Ideal) ((c : Thread nD τ).loc b))

/-- x, the two weights and the six rows of pipeline 11 as the region finds them, as plain functions of indices. -/
def X11 (c : Dev nD) (r : Fin 50000) (k : Fin 128) : EReal := (V c main_v101 : S50000x128.Idx → EReal) (ix2 r k)
def Wa11 (c : Dev nD) (k j : Fin 128) : EReal := (V c main_v104 : S128x128.Idx → EReal) (ix2 k j)
def Wb11 (c : Dev nD) (k j : Fin 128) : EReal := (V c main_v107 : S128x128.Idx → EReal) (ix2 k j)
def sc11_1 (c : Dev nD) (j : Fin 128) : EReal := (V c main_v126_0 : S1x128.Idx → EReal) (ix2 ⟨0, Nat.one_pos⟩ j)
def sh11_1 (c : Dev nD) (j : Fin 128) : EReal := (V c main_v126_1 : S1x128.Idx → EReal) (ix2 ⟨0, Nat.one_pos⟩ j)
def sc11_2 (c : Dev nD) (j : Fin 128) : EReal := (V c main_v127_0 : S1x128.Idx → EReal) (ix2 ⟨0, Nat.one_pos⟩ j)
def sh11_2 (c : Dev nD) (j : Fin 128) : EReal := (V c main_v127_1 : S1x128.Idx → EReal) (ix2 ⟨0, Nat.one_pos⟩ j)
def sc11_3 (c : Dev nD) (j : Fin 128) : EReal := (V c main_v128_0 : S1x128.Idx → EReal) (ix2 ⟨0, Nat.one_pos⟩ j)
def sh11_3 (c : Dev nD) (j : Fin 128) : EReal := (V c main_v128_1 : S1x128.Idx → EReal) (ix2 ⟨0, Nat.one_pos⟩ j)

theorem idx11_0 : ∀ t : Fin cfg11.N, win11_0.index t 0 = t.val ∧ win11_0.index t 1 = 0 := by
  intro t; rcases fin_N11 t with rfl | rfl | rfl | rfl | rfl | rfl | rfl | rfl | rfl | rfl <;> decide
theorem idx11_1 : ∀ t : Fin cfg11.N, win11_1.index t 0 = 0 ∧ win11_1.index t 1 = 0 := by
  intro t; rcases fin_N11 t with rfl | rfl | rfl | rfl | rfl | rfl | rfl | rfl | rfl | rfl <;> decide
theorem idx11_2 : ∀ t : Fin cfg11.N, win11_2.index t 0 = 0 ∧ win11_2.index t 1 = 0 := by
  intro t; rcases fin_N11 t with rfl | rfl | rfl | rfl | rfl | rfl | rfl | rfl | rfl | rfl <;> decide
theorem idx11_3 : ∀ t : Fin cfg11.N, win11_3.index t 0 = 0 ∧ win11_3.index t 1 = 0 := by
  intro t; rcases fin_N11 t with rfl | rfl | rfl | rfl | rfl | rfl | rfl | rfl | rfl | rfl <;> decide
theorem idx11_4 : ∀ t : Fin cfg11.N, win11_4.index t 0 = 0 ∧ win11_4.index t 1 = 0 := by
  intro t; rcases fin_N11 t with rfl | rfl | rfl | rfl | rfl | rfl | rfl | rfl | rfl | rfl <;> decide
theorem idx11_5 : ∀ t : Fin cfg11.N, win11_5.index t 0 = 0 ∧ win11_5.index t 1 = 0 := by
  intro t; rcases fin_N11 t with rfl | rfl | rfl | rfl | rfl | rfl | rfl | rfl | rfl | rfl <;> decide
theorem idx11_6 : ∀ t : Fin cfg11.N, win11_6.index t 0 = 0 ∧ win11_6.index t 1 = 0 := by
  intro t; rcases fin_N11 t with rfl | rfl | rfl | rfl | rfl | rfl | rfl | rfl | rfl | rfl <;> decide
theorem idx11_7 : ∀ t : Fin cfg11.N, win11_7.index t 0 = 0 ∧ win11_7.index t 1 = 0 := by
  intro t; rcases fin_N11 t with rfl | rfl | rfl | rfl | rfl | rfl | rfl | rfl | rfl | rfl <;> decide
theorem idx11_8 : ∀ t : Fin cfg11.N, win11_8.index t 0 = 0 ∧ win11_8.index t 1 = 0 := by
  intro t; rcases fin_N11 t with rfl | rfl | rfl | rfl | rfl | rfl | rfl | rfl | rfl | rfl <;> decide
theorem idx11_9 : ∀ t : Fin cfg11.N, win11_9.index t 0 = t.val ∧ win11_9.index t 1 = 0 := by
  intro t; rcases fin_N11 t with rfl | rfl | rfl | rfl | rfl | rfl | rfl | rfl | rfl | rfl <;> decide
theorem xsz11_9 : ∀ t : Fin cfg11.N, win11_9.xsize (grid11.coords t) 0 = 5000 ∧ win11_9.xsize (grid11.coords t) 1 = 128 := by
  intro t; rcases fin_N11 t with rfl | rfl | rfl | rfl | rfl | rfl | rfl | rfl | rfl | rfl <;> decide +kernel

/-- The tile at point t is rows 5000 t … of x. -/
theorem tile11 (c : Dev nD) (t : Fin cfg11.N) (y : Fin 5000) (k : Fin 128) (R : Fin 50000) (hR : R.val = t.val * 5000 + y.val) :
    (iblk11 V c 0 t : Vec Ideal S5000x128 .f32) (ix2 y k) = X11 V c R k := by
  unfold iblk11 X11
  rw [View.read_apply]
  show (V c main_v101 : S50000x128.Idx → EReal) _ = (V c main_v101 : S50000x128.Idx → EReal) _
  congr 1
  funext a
  apply Fin.ext
  match a with
  | ⟨0, _⟩ => show win11_0.index t 0 * 5000 + 1 * y.val = R.val; rw [(idx11_0 t).1, hR]; omega
  | ⟨1, _⟩ => show win11_0.index t 1 * 128 + 1 * k.val = k.val; rw [(idx11_0 t).2]; omega

theorem res11_1 (c : Dev nD) (t : Fin cfg11.N) (k j : Fin 128) :
    (iblk11 V c 1 t : Vec Ideal S128x128 .bf16) (ix2 k j) = Wa11 V c k j := by
  unfold iblk11 Wa11
  rw [View.read_apply]
  show (V c main_v104 : S128x128.Idx → EReal) _ = (V c main_v104 : S128x128.Idx → EReal) _
  congr 1
  funext a
  apply Fin.ext
  match a with
  | ⟨0, _⟩ => show win11_1.index t 0 * 128 + 1 * k.val = k.val; rw [(idx11_1 t).1]; omega
  | ⟨1, _⟩ => show win11_1.index t 1 * 128 + 1 * j.val = j.val; rw [(idx11_1 t).2]; omega

theorem res11_2 (c : Dev nD) (t : Fin cfg11.N) (k j : Fin 128) :
    (iblk11 V c 2 t : Vec Ideal S128x128 .bf16) (ix2 k j) = Wb11 V c k j := by
  unfold iblk11 Wb11
  rw [View.read_apply]
  show (V c main_v107 : S128x128.Idx → EReal) _ = (V c main_v107 : S128x128.Idx → EReal) _
  congr 1
  funext a
  apply Fin.ext
  match a with
  | ⟨0, _⟩ => show win11_2.index t 0 * 128 + 1 * k.val = k.val; rw [(idx11_2 t).1]; omega
  | ⟨1, _⟩ => show win11_2.index t 1 * 128 + 1 * j.val = j.val; rw [(idx11_2 t).2]; omega

theorem res11_3 (c : Dev nD) (t : Fin cfg11.N) (j : Fin 128) :
    (iblk11 V c 3 t : Vec Ideal S1x128 .f32) (ix2 ⟨0, Nat.one_pos⟩ j) = sc11_1 V c j := by
  unfold iblk11 sc11_1
  rw [View.read_apply]
  show (V c main_v126_0 : S1x128.Idx → EReal) _ = (V c main_v126_0 : S1x128.Idx → EReal) _
  congr 1
  funext a
  apply Fin.ext
  match a with
  | ⟨0, _⟩ => show win11_3.index t 0 * 1 + 1 * 0 = 0; rw [(idx11_3 t).1]
  | ⟨1, _⟩ => show win11_3.index t 1 * 128 + 1 * j.val = j.val; rw [(idx11_3 t).2]; omega

theorem res11_4 (c : Dev nD) (t : Fin cfg11.N) (j : Fin 128) :
    (iblk11 V c 4 t : Vec Ideal S1x128 .f32) (ix2 ⟨0, Nat.one_pos⟩ j) = sh11_1 V c j := by
  unfold iblk11 sh11_1
  rw [View.read_apply]
  show (V c main_v126_1 : S1x128.Idx → EReal) _ = (V c main_v126_1 : S1x128.Idx → EReal) _
  congr 1
  funext a
  apply Fin.ext
  match a with
  | ⟨0, _⟩ => show win11_4.index t 0 * 1 + 1 * 0 = 0; rw [(idx11_4 t).1]
  | ⟨1, _⟩ => show win11_4.index t 1 * 128 + 1 * j.val = j.val; rw [(idx11_4 t).2]; omega

theorem res11_5 (c : Dev nD) (t : Fin cfg11.N) (j : Fin 128) :
    (iblk11 V c 5 t : Vec Ideal S1x128 .f32) (ix2 ⟨0, Nat.one_pos⟩ j) = sc11_2 V c j := by
  unfold iblk11 sc11_2
  rw [View.read_apply]
  show (V c main_v127_0 : S1x128.Idx → EReal) _ = (V c main_v127_0 : S1x128.Idx → EReal) _
  congr 1
  funext a
  apply Fin.ext
  match a with
  | ⟨0, _⟩ => show win11_5.index t 0 * 1 + 1 * 0 = 0; rw [(idx11_5 t).1]
  | ⟨1, _⟩ => show win11_5.index t 1 * 128 + 1 * j.val = j.val; rw [(idx11_5 t).2]; omega

theorem res11_6 (c : Dev nD) (t : Fin cfg11.N) (j : Fin 128) :
    (iblk11 V c 6 t : Vec Ideal S1x128 .f32) (ix2 ⟨0, Nat.one_pos⟩ j) = sh11_2 V c j := by
  unfold iblk11 sh11_2
  rw [View.read_apply]
  show (V c main_v127_1 : S1x128.Idx → EReal) _ = (V c main_v127_1 : S1x128.Idx → EReal) _
  congr 1
  funext a
  apply Fin.ext
  match a with
  | ⟨0, _⟩ => show win11_6.index t 0 * 1 + 1 * 0 = 0; rw [(idx11_6 t).1]
  | ⟨1, _⟩ => show win11_6.index t 1 * 128 + 1 * j.val = j.val; rw [(idx11_6 t).2]; omega

theorem res11_7 (c : Dev nD) (t : Fin cfg11.N) (j : Fin 128) :
    (iblk11 V c 7 t : Vec Ideal S1x128 .f32) (ix2 ⟨0, Nat.one_pos⟩ j) = sc11_3 V c j := by
  unfold iblk11 sc11_3
  rw [View.read_apply]
  show (V c main_v128_0 : S1x128.Idx → EReal) _ = (V c main_v128_0 : S1x128.Idx → EReal) _
  congr 1
  funext a
  apply Fin.ext
  match a with
  | ⟨0, _⟩ => show win11_7.index t 0 * 1 + 1 * 0 = 0; rw [(idx11_7 t).1]
  | ⟨1, _⟩ => show win11_7.index t 1 * 128 + 1 * j.val = j.val; rw [(idx11_7 t).2]; omega

theorem res11_8 (c : Dev nD) (t : Fin cfg11.N) (j : Fin 128) :
    (iblk11 V c 8 t : Vec Ideal S1x128 .f32) (ix2 ⟨0, Nat.one_pos⟩ j) = sh11_3 V c j := by
  unfold iblk11 sh11_3
  rw [View.read_apply]
  show (V c main_v128_1 : S1x128.Idx → EReal) _ = (V c main_v128_1 : S1x128.Idx → EReal) _
  congr 1
  funext a
  apply Fin.ext
  match a with
  | ⟨0, _⟩ => show win11_8.index t 0 * 1 + 1 * 0 = 0; rw [(idx11_8 t).1]
  | ⟨1, _⟩ => show win11_8.index t 1 * 128 + 1 * j.val = j.val; rw [(idx11_8 t).2]; omega

end Cert.KernelIdeal.Hand

end
-- ==== Proof.R11ValOut.lean ====
/-
  The output kernel of a layer (pipeline 11), at the ideal values: what the region leaves in its result array.

  At every grid point the body stores, into the output window's block, the layer's value on the point's tile: two
  dense stages, each scaled, shifted and rectified, and a third scale and shift. An entry of that value reads
  one row of the tile, and the tile at point t is rows 5000·t … of x, so the block stored at point t is rows 5000·t …
  of the layer's value on the whole array. Every point writes its block back and the ten blocks tile the [50000, 128]
  result array, so the array ends holding the layer's value on x, entry by entry.
-/
import proofs.«180905_j29583734735286_1_alg».proof.Proof.R11ValA
import proofs.«180905_j29583734735286_1_alg».proof.Proof.R11ValB
import proofs.«180905_j29583734735286_1_alg».proof.Proof.R11ValBlk
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

open Cert.OutNet (zW r0)

variable (V : (c : Dev nD) → (b : Ref sig .tc) → Buf (Elt Ideal) ((c : Thread nD τ).loc b))

/-- The layer's value on the whole array x, before the last rectifier. -/
def net11 (c : Dev nD) : Fin 50000 → Fin 128 → EReal :=
  Cert.OutNet.net zW (X11 V c) (Wa11 V c) (Wb11 V c) (sc11_1 V c) (sh11_1 V c) (sc11_2 V c) (sh11_2 V c) (sc11_3 V c) (sh11_3 V c)

/-- What the body leaves in the output buffer at point t, at row y and column j of the block: the layer's value at
    row 5000 t + y of the whole array. -/
theorem out11_apply (c : Dev nD) (t : Fin cfg11.N) (y : Fin 5000) (j : Fin 128) (R : Fin 50000) (J : Fin 128)
    (hR : R.val = t.val * 5000 + y.val) (hJ : J.val = j.val) :
    (out11 V c t : Vec Ideal S5000x128 .f32) (ix2 y j) = (net11 V c) R J := by
  obtain rfl : J = j := Fin.ext hJ
  unfold out11
  rw [piece11 (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (iblk11 V c 0 t) (iblk11 V c 1 t) (iblk11 V c 2 t) (iblk11 V c 3 t) (iblk11 V c 4 t) (iblk11 V c 5 t) (iblk11 V c 6 t) (iblk11 V c 7 t) (iblk11 V c 8 t)]
  refine (pay11_apply (iblk11 V c 0 t) (iblk11 V c 1 t) (iblk11 V c 3 t) (iblk11 V c 4 t) (iblk11 V c 2 t) (iblk11 V c 5 t) (iblk11 V c 6 t) (iblk11 V c 7 t) (iblk11 V c 8 t) y J).trans ?_
  show Cert.OutNet.net _ _ _ _ _ _ _ _ _ _ y J = net11 V c R J
  unfold net11
  exact Cert.OutNet.net_congr zW _ (X11 V c) _ _ (Wa11 V c) (Wb11 V c) _ _ _ _ _ _ (sc11_1 V c) (sh11_1 V c) (sc11_2 V c) (sh11_2 V c) (sc11_3 V c) (sh11_3 V c) y R
    (fun k => tile11 V c t y k R hR) (fun k j => res11_1 V c t k j) (fun k j => res11_2 V c t k j)
    (fun j => res11_3 V c t j) (fun j => res11_4 V c t j) (fun j => res11_5 V c t j) (fun j => res11_6 V c t j)
    (fun j => res11_7 V c t j) (fun j => res11_8 V c t j) J

/-- What the region leaves in its result array: the layer's value on x. -/
def G11 (c : Dev nD) : Buf (Elt Ideal) ((c : Thread nD τ).loc main_v129) :=
  (fun i => (net11 V c) (i 0) (i 1) : S50000x128.Idx → EReal)

/-- What point t writes back is block t of that array. -/
theorem flushed11_9 (c : Dev nD) (t : Fin cfg11.N) (hf : (cfg11.win 9).flush t = true) :
    (dat11 V c).flushed 9 t = ((cfg11.win 9).blk t).view.read (Elt Ideal) (G11 V c) := by
  show (cfg11.win 9).cut (grid11.coords t) ((dat11 V c).after 9 t) = _
  rw [after11_9]
  funext x
  rw [View.read_apply]
  have hx0 : (x 0).val < 5000 := lt_of_lt_of_eq (x 0).isLt (xsz11_9 t).1
  have hx1 : (x 1).val < 128 := lt_of_lt_of_eq (x 1).isLt (xsz11_9 t).2
  have hinj : win11_9.xinj (grid11.coords t) x = ix2 (⟨(x 0).val, hx0⟩ : Fin 5000) (⟨(x 1).val, hx1⟩ : Fin 128) :=
    funext fun a => by
      match a with
      | ⟨0, _⟩ => rfl
      | ⟨1, _⟩ => rfl
  show (out11 V c t : Vec Ideal S5000x128 .f32) (win11_9.xinj (grid11.coords t) x) = G11 V c (((cfg11.win 9).blk t).view.emb x)
  rw [hinj]
  refine out11_apply V c t ⟨(x 0).val, hx0⟩ ⟨(x 1).val, hx1⟩ _ _ ?_ ?_
  · show win11_9.index t 0 * 5000 + 1 * (x 0).val = t.val * 5000 + (x 0).val
    rw [(idx11_9 t).1]; omega
  · show win11_9.index t 1 * 128 + 1 * (x 1).val = (x 1).val
    rw [(idx11_9 t).2]; omega

/-- So the result array ends holding the layer's value on x: the ten blocks tile it. -/
theorem final11_9 (c : Dev nD) : (dat11 V c).arrAt 9 cfg11.N = G11 V c :=
  (dat11 V c).arrAt_eq_of_cover 9 (G11 V c) (flushed11_9 V c) fun i => by
    have h0 : (i 0 : Nat) < 50000 := (i 0).isLt
    have h1 : (i 1 : Nat) < 128 := (i 1).isLt
    have hN : cfg11.N = 10 := N_11
    obtain ⟨T, hT⟩ : ∃ T : Fin cfg11.N, T.val = (i 0 : Nat) / 5000 := ⟨⟨(i 0 : Nat) / 5000, by omega⟩, rfl⟩
    refine ⟨T, flush11_9 T, ?_⟩
    show i ∈ ((View.whole main_v129).slice (win11_9.rect T)).set
    rw [View.set_slice_whole, Rect.mem_set_unit]
    intro a
    match a with
    | ⟨0, _⟩ => show win11_9.index T 0 * 5000 ≤ (i 0 : Nat) ∧ (i 0 : Nat) < win11_9.index T 0 * 5000 + win11_9.xsize (grid11.coords T) 0
                rw [(idx11_9 T).1, (xsz11_9 T).1]; omega
    | ⟨1, _⟩ => show win11_9.index T 1 * 128 ≤ (i 1 : Nat) ∧ (i 1 : Nat) < win11_9.index T 1 * 128 + win11_9.xsize (grid11.coords T) 1
                rw [(idx11_9 T).2, (xsz11_9 T).2]; omega

/-- The result array at an index, in the layer's vocabulary. -/
theorem out11_val (c : Dev nD) (r : Fin 50000) (j : Fin 128) :
    ((dat11 V c).arrAt 9 cfg11.N : S50000x128.Idx → EReal) (ValueIdx.ix2 r j)
      = (Cert.Spec.aff (Cert.Spec.relu zW (Cert.Spec.aff (Cert.Spec.lin (Cert.Spec.relu zW (Cert.Spec.aff (Cert.Spec.lin (X11 V c) (Wa11 V c)) (sc11_1 V c) (sh11_1 V c))) (Wb11 V c)) (sc11_2 V c) (sh11_2 V c))) (sc11_3 V c) (sh11_3 V c)) r j := by
  rw [final11_9]
  rfl

end Cert.KernelIdeal.Hand

end
-- ==== Proof.KChain2.lean ====
/-
  Layer 3 of the kernel program, at the ideal values: the array its output kernel leaves is the layer's value, in
  the kernel's form, on the arrays the layer's first kernel found.

  The layer runs four kernels in turn. Each of the first three leaves a scale row and a shift row (a batch norm's, from
  one-pass column statistics of the stage's quantity) and keeps every other array; the fourth leaves the output.
  Reading each kernel's inputs back through the kernels before it — an array no earlier kernel writes is the one the
  layer was entered with, a scale or shift row is the row its kernel left — turns the fourth kernel's value into the
  layer's closed form.
-/
import proofs.«180905_j29583734735286_1_alg».proof.Proof.Run
import proofs.«180905_j29583734735286_1_alg».proof.Proof.R8Sum
import proofs.«180905_j29583734735286_1_alg».proof.Proof.R9Sum
import proofs.«180905_j29583734735286_1_alg».proof.Proof.R10Sum
import proofs.«180905_j29583734735286_1_alg».proof.Proof.R11ValOut
import proofs.«180905_j29583734735286_1_alg».proof.Proof.ValCommon
import proofs.«180905_j29583734735286_1_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (m : (ℓ : Loc nD τ sig) → Buf (Elt Ideal) ℓ) (ρ : Dev nD → PrngReg)

/-- The layer's inputs as its first kernel finds them, as plain functions of indices. -/
abbrev cx2 (c : Dev nD) : Fin 50000 → Fin 128 → EReal := fun r k => (W11 m ρ c (Proc.devRef .tc main_v101) : S50000x128.Idx → EReal) (ix2 r k)
abbrev cw0_2 (c : Dev nD) : Fin 128 → Fin 128 → EReal := fun k j => (W11 m ρ c (Proc.devRef .tc main_v104) : S128x128.Idx → EReal) (ix2 k j)
abbrev cw1_2 (c : Dev nD) : Fin 128 → Fin 128 → EReal := fun k j => (W11 m ρ c (Proc.devRef .tc main_v107) : S128x128.Idx → EReal) (ix2 k j)
abbrev cg1_2 (c : Dev nD) : Fin 128 → EReal := fun j => (W11 m ρ c (Proc.devRef .tc main_v110) : S1x128.Idx → EReal) (ix2 ⟨0, Nat.one_pos⟩ j)
abbrev cb1_2 (c : Dev nD) : Fin 128 → EReal := fun j => (W11 m ρ c (Proc.devRef .tc main_v113) : S1x128.Idx → EReal) (ix2 ⟨0, Nat.one_pos⟩ j)
abbrev cg2_2 (c : Dev nD) : Fin 128 → EReal := fun j => (W11 m ρ c (Proc.devRef .tc main_v116) : S1x128.Idx → EReal) (ix2 ⟨0, Nat.one_pos⟩ j)
abbrev cb2_2 (c : Dev nD) : Fin 128 → EReal := fun j => (W11 m ρ c (Proc.devRef .tc main_v119) : S1x128.Idx → EReal) (ix2 ⟨0, Nat.one_pos⟩ j)
abbrev cg3_2 (c : Dev nD) : Fin 128 → EReal := fun j => (W11 m ρ c (Proc.devRef .tc main_v122) : S1x128.Idx → EReal) (ix2 ⟨0, Nat.one_pos⟩ j)
abbrev cb3_2 (c : Dev nD) : Fin 128 → EReal := fun j => (W11 m ρ c (Proc.devRef .tc main_v125) : S1x128.Idx → EReal) (ix2 ⟨0, Nat.one_pos⟩ j)

/-- The stages of the layer's closed form: each stage's quantity, its scale and shift rows, its rectified result. -/
abbrev cQ1_2 (c : Dev nD) : Fin 50000 → Fin 128 → EReal := Cert.Spec.lin (cx2 m ρ c) (cw0_2 m ρ c)
abbrev cS1_2 (c : Dev nD) : Fin 128 → EReal := Cert.Spec.scaleK (cQ1_2 m ρ c) (cg1_2 m ρ c) cW epsW
abbrev cH1_2 (c : Dev nD) : Fin 128 → EReal := Cert.Spec.shiftK (cQ1_2 m ρ c) (cg1_2 m ρ c) (cb1_2 m ρ c) cW epsW
abbrev cQ2_2 (c : Dev nD) : Fin 50000 → Fin 128 → EReal := Cert.Spec.lin (Cert.Spec.relu zW (Cert.Spec.aff (cQ1_2 m ρ c) (cS1_2 m ρ c) (cH1_2 m ρ c))) (cw1_2 m ρ c)
abbrev cS2_2 (c : Dev nD) : Fin 128 → EReal := Cert.Spec.scaleK (cQ2_2 m ρ c) (cg2_2 m ρ c) cW epsW
abbrev cH2_2 (c : Dev nD) : Fin 128 → EReal := Cert.Spec.shiftK (cQ2_2 m ρ c) (cg2_2 m ρ c) (cb2_2 m ρ c) cW epsW
abbrev cQ3_2 (c : Dev nD) : Fin 50000 → Fin 128 → EReal := Cert.Spec.relu zW (Cert.Spec.aff (cQ2_2 m ρ c) (cS2_2 m ρ c) (cH2_2 m ρ c))
abbrev cS3_2 (c : Dev nD) : Fin 128 → EReal := Cert.Spec.scaleK (cQ3_2 m ρ c) (cg3_2 m ρ c) cW epsW
abbrev cH3_2 (c : Dev nD) : Fin 128 → EReal := Cert.Spec.shiftK (cQ3_2 m ρ c) (cg3_2 m ρ c) (cb3_2 m ρ c) cW epsW

/-! ### Arrays a kernel does not write are kept -/
theorem kp2_1_x (c : Dev nD) : W12 m ρ c (Proc.devRef .tc main_v101) = W11 m ρ c (Proc.devRef .tc main_v101) :=
  ((W12_arr m ρ c 0).trans (((dat8 (V11 m ρ) c).arrAt_in 0 rfl _).trans (A_eq8 (V11 m ρ) c 0)))
theorem kp2_1_w0 (c : Dev nD) : W12 m ρ c (Proc.devRef .tc main_v104) = W11 m ρ c (Proc.devRef .tc main_v104) :=
  ((W12_arr m ρ c 1).trans (((dat8 (V11 m ρ) c).arrAt_in 1 rfl _).trans (A_eq8 (V11 m ρ) c 1)))
theorem kp2_1_w1 (c : Dev nD) : W12 m ρ c (Proc.devRef .tc main_v107) = W11 m ρ c (Proc.devRef .tc main_v107) :=
  (W12_of_ne m ρ c main_v107 (by decide))
theorem kp2_1_g2 (c : Dev nD) : W12 m ρ c (Proc.devRef .tc main_v116) = W11 m ρ c (Proc.devRef .tc main_v116) :=
  (W12_of_ne m ρ c main_v116 (by decide))
theorem kp2_1_b2 (c : Dev nD) : W12 m ρ c (Proc.devRef .tc main_v119) = W11 m ρ c (Proc.devRef .tc main_v119) :=
  (W12_of_ne m ρ c main_v119 (by decide))
theorem kp2_1_g3 (c : Dev nD) : W12 m ρ c (Proc.devRef .tc main_v122) = W11 m ρ c (Proc.devRef .tc main_v122) :=
  (W12_of_ne m ρ c main_v122 (by decide))
theorem kp2_1_b3 (c : Dev nD) : W12 m ρ c (Proc.devRef .tc main_v125) = W11 m ρ c (Proc.devRef .tc main_v125) :=
  (W12_of_ne m ρ c main_v125 (by decide))
theorem kp2_2_x (c : Dev nD) : W13 m ρ c (Proc.devRef .tc main_v101) = W11 m ρ c (Proc.devRef .tc main_v101) :=
  ((W13_arr m ρ c 0).trans (((dat9 (V12 m ρ) c).arrAt_in 0 rfl _).trans (A_eq9 (V12 m ρ) c 0))).trans (kp2_1_x m ρ c)
theorem kp2_2_w0 (c : Dev nD) : W13 m ρ c (Proc.devRef .tc main_v104) = W11 m ρ c (Proc.devRef .tc main_v104) :=
  ((W13_arr m ρ c 1).trans (((dat9 (V12 m ρ) c).arrAt_in 1 rfl _).trans (A_eq9 (V12 m ρ) c 1))).trans (kp2_1_w0 m ρ c)
theorem kp2_2_w1 (c : Dev nD) : W13 m ρ c (Proc.devRef .tc main_v107) = W11 m ρ c (Proc.devRef .tc main_v107) :=
  ((W13_arr m ρ c 2).trans (((dat9 (V12 m ρ) c).arrAt_in 2 rfl _).trans (A_eq9 (V12 m ρ) c 2))).trans (kp2_1_w1 m ρ c)
theorem kp2_2_g3 (c : Dev nD) : W13 m ρ c (Proc.devRef .tc main_v122) = W11 m ρ c (Proc.devRef .tc main_v122) :=
  (W13_of_ne m ρ c main_v122 (by decide)).trans (kp2_1_g3 m ρ c)
theorem kp2_2_b3 (c : Dev nD) : W13 m ρ c (Proc.devRef .tc main_v125) = W11 m ρ c (Proc.devRef .tc main_v125) :=
  (W13_of_ne m ρ c main_v125 (by decide)).trans (kp2_1_b3 m ρ c)
theorem kp2_2_s1 (c : Dev nD) : W13 m ρ c (Proc.devRef .tc main_v126_0) = W12 m ρ c (Proc.devRef .tc main_v126_0) :=
  ((W13_arr m ρ c 3).trans (((dat9 (V12 m ρ) c).arrAt_in 3 rfl _).trans (A_eq9 (V12 m ρ) c 3)))
theorem kp2_2_h1 (c : Dev nD) : W13 m ρ c (Proc.devRef .tc main_v126_1) = W12 m ρ c (Proc.devRef .tc main_v126_1) :=
  ((W13_arr m ρ c 4).trans (((dat9 (V12 m ρ) c).arrAt_in 4 rfl _).trans (A_eq9 (V12 m ρ) c 4)))
theorem kp2_3_x (c : Dev nD) : W14 m ρ c (Proc.devRef .tc main_v101) = W11 m ρ c (Proc.devRef .tc main_v101) :=
  ((W14_arr m ρ c 0).trans (((dat10 (V13 m ρ) c).arrAt_in 0 rfl _).trans (A_eq10 (V13 m ρ) c 0))).trans (kp2_2_x m ρ c)
theorem kp2_3_w0 (c : Dev nD) : W14 m ρ c (Proc.devRef .tc main_v104) = W11 m ρ c (Proc.devRef .tc main_v104) :=
  ((W14_arr m ρ c 1).trans (((dat10 (V13 m ρ) c).arrAt_in 1 rfl _).trans (A_eq10 (V13 m ρ) c 1))).trans (kp2_2_w0 m ρ c)
theorem kp2_3_w1 (c : Dev nD) : W14 m ρ c (Proc.devRef .tc main_v107) = W11 m ρ c (Proc.devRef .tc main_v107) :=
  ((W14_arr m ρ c 2).trans (((dat10 (V13 m ρ) c).arrAt_in 2 rfl _).trans (A_eq10 (V13 m ρ) c 2))).trans (kp2_2_w1 m ρ c)
theorem kp2_3_s1 (c : Dev nD) : W14 m ρ c (Proc.devRef .tc main_v126_0) = W12 m ρ c (Proc.devRef .tc main_v126_0) :=
  ((W14_arr m ρ c 3).trans (((dat10 (V13 m ρ) c).arrAt_in 3 rfl _).trans (A_eq10 (V13 m ρ) c 3))).trans (kp2_2_s1 m ρ c)
theorem kp2_3_h1 (c : Dev nD) : W14 m ρ c (Proc.devRef .tc main_v126_1) = W12 m ρ c (Proc.devRef .tc main_v126_1) :=
  ((W14_arr m ρ c 4).trans (((dat10 (V13 m ρ) c).arrAt_in 4 rfl _).trans (A_eq10 (V13 m ρ) c 4))).trans (kp2_2_h1 m ρ c)
theorem kp2_3_s2 (c : Dev nD) : W14 m ρ c (Proc.devRef .tc main_v127_0) = W13 m ρ c (Proc.devRef .tc main_v127_0) :=
  ((W14_arr m ρ c 5).trans (((dat10 (V13 m ρ) c).arrAt_in 5 rfl _).trans (A_eq10 (V13 m ρ) c 5)))
theorem kp2_3_h2 (c : Dev nD) : W14 m ρ c (Proc.devRef .tc main_v127_1) = W13 m ρ c (Proc.devRef .tc main_v127_1) :=
  ((W14_arr m ρ c 6).trans (((dat10 (V13 m ρ) c).arrAt_in 6 rfl _).trans (A_eq10 (V13 m ρ) c 6)))

/-! ### The first statistics kernel's two rows -/

theorem rowS1_2 (c : Dev nD) (j : Fin 128) :
    (W12 m ρ c (Proc.devRef .tc main_v126_0) : S1x128.Idx → EReal) (ix2 ⟨0, Nat.one_pos⟩ j) = cS1_2 m ρ c j :=
  (congrFun (W12_arr m ρ c 4) _).trans (scaleArr8 (V11 m ρ) c j)
theorem rowH1_2 (c : Dev nD) (j : Fin 128) :
    (W12 m ρ c (Proc.devRef .tc main_v126_1) : S1x128.Idx → EReal) (ix2 ⟨0, Nat.one_pos⟩ j) = cH1_2 m ρ c j :=
  (congrFun (W12_arr m ρ c 5) _).trans (shiftArr8 (V11 m ρ) c j)

/-! ### The second statistics kernel's inputs and its two rows -/

theorem i9_0 (c : Dev nD) : in9_0 (V12 m ρ) c = cx2 m ρ c := funext fun r => funext fun k => congrFun (kp2_1_x m ρ c) (ix2 r k)
theorem i9_1 (c : Dev nD) : in9_1 (V12 m ρ) c = cw0_2 m ρ c := funext fun k => funext fun j => congrFun (kp2_1_w0 m ρ c) (ix2 k j)
theorem i9_2 (c : Dev nD) : in9_2 (V12 m ρ) c = cw1_2 m ρ c := funext fun k => funext fun j => congrFun (kp2_1_w1 m ρ c) (ix2 k j)
theorem i9_3 (c : Dev nD) : in9_3 (V12 m ρ) c = cS1_2 m ρ c := funext fun j => rowS1_2 m ρ c j
theorem i9_4 (c : Dev nD) : in9_4 (V12 m ρ) c = cH1_2 m ρ c := funext fun j => rowH1_2 m ρ c j
theorem i9_5 (c : Dev nD) : in9_5 (V12 m ρ) c = cg2_2 m ρ c := funext fun j => congrFun (kp2_1_g2 m ρ c) (ix2 ⟨0, Nat.one_pos⟩ j)
theorem i9_6 (c : Dev nD) : in9_6 (V12 m ρ) c = cb2_2 m ρ c := funext fun j => congrFun (kp2_1_b2 m ρ c) (ix2 ⟨0, Nat.one_pos⟩ j)
theorem q9_eq (c : Dev nD) : GQ9 (V12 m ρ) c = cQ2_2 m ρ c := by
  show Cert.Spec.lin (Cert.Spec.relu zW (Cert.Spec.aff (Cert.Spec.lin (in9_0 (V12 m ρ) c) (in9_1 (V12 m ρ) c)) (in9_3 (V12 m ρ) c) (in9_4 (V12 m ρ) c))) (in9_2 (V12 m ρ) c) = _
  rw [i9_0, i9_1, i9_2, i9_3, i9_4]

theorem rowS2_2 (c : Dev nD) (j : Fin 128) :
    (W13 m ρ c (Proc.devRef .tc main_v127_0) : S1x128.Idx → EReal) (ix2 ⟨0, Nat.one_pos⟩ j) = cS2_2 m ρ c j := by
  refine (congrFun (W13_arr m ρ c 7) _).trans ((scaleArr9 (V12 m ρ) c j).trans ?_)
  rw [q9_eq, i9_5]
theorem rowH2_2 (c : Dev nD) (j : Fin 128) :
    (W13 m ρ c (Proc.devRef .tc main_v127_1) : S1x128.Idx → EReal) (ix2 ⟨0, Nat.one_pos⟩ j) = cH2_2 m ρ c j := by
  refine (congrFun (W13_arr m ρ c 8) _).trans ((shiftArr9 (V12 m ρ) c j).trans ?_)
  rw [q9_eq, i9_5, i9_6]

/-! ### The third statistics kernel's inputs and its two rows -/

theorem i10_0 (c : Dev nD) : in10_0 (V13 m ρ) c = cx2 m ρ c := funext fun r => funext fun k => congrFun (kp2_2_x m ρ c) (ix2 r k)
theorem i10_1 (c : Dev nD) : in10_1 (V13 m ρ) c = cw0_2 m ρ c := funext fun k => funext fun j => congrFun (kp2_2_w0 m ρ c) (ix2 k j)
theorem i10_2 (c : Dev nD) : in10_2 (V13 m ρ) c = cw1_2 m ρ c := funext fun k => funext fun j => congrFun (kp2_2_w1 m ρ c) (ix2 k j)
theorem i10_3 (c : Dev nD) : in10_3 (V13 m ρ) c = cS1_2 m ρ c := funext fun j => (congrFun (kp2_2_s1 m ρ c) _).trans (rowS1_2 m ρ c j)
theorem i10_4 (c : Dev nD) : in10_4 (V13 m ρ) c = cH1_2 m ρ c := funext fun j => (congrFun (kp2_2_h1 m ρ c) _).trans (rowH1_2 m ρ c j)
theorem i10_5 (c : Dev nD) : in10_5 (V13 m ρ) c = cS2_2 m ρ c := funext fun j => rowS2_2 m ρ c j
theorem i10_6 (c : Dev nD) : in10_6 (V13 m ρ) c = cH2_2 m ρ c := funext fun j => rowH2_2 m ρ c j
theorem i10_7 (c : Dev nD) : in10_7 (V13 m ρ) c = cg3_2 m ρ c := funext fun j => congrFun (kp2_2_g3 m ρ c) (ix2 ⟨0, Nat.one_pos⟩ j)
theorem i10_8 (c : Dev nD) : in10_8 (V13 m ρ) c = cb3_2 m ρ c := funext fun j => congrFun (kp2_2_b3 m ρ c) (ix2 ⟨0, Nat.one_pos⟩ j)
theorem q10_eq (c : Dev nD) : GQ10 (V13 m ρ) c = cQ3_2 m ρ c := by
  show Cert.Spec.relu zW (Cert.Spec.aff (Cert.Spec.lin (Cert.Spec.relu zW (Cert.Spec.aff (Cert.Spec.lin (in10_0 (V13 m ρ) c) (in10_1 (V13 m ρ) c)) (in10_3 (V13 m ρ) c) (in10_4 (V13 m ρ) c))) (in10_2 (V13 m ρ) c)) (in10_5 (V13 m ρ) c) (in10_6 (V13 m ρ) c)) = _
  rw [i10_0, i10_1, i10_2, i10_3, i10_4, i10_5, i10_6]

theorem rowS3_2 (c : Dev nD) (j : Fin 128) :
    (W14 m ρ c (Proc.devRef .tc main_v128_0) : S1x128.Idx → EReal) (ix2 ⟨0, Nat.one_pos⟩ j) = cS3_2 m ρ c j := by
  refine (congrFun (W14_arr m ρ c 9) _).trans ((scaleArr10 (V13 m ρ) c j).trans ?_)
  rw [q10_eq, i10_7]
theorem rowH3_2 (c : Dev nD) (j : Fin 128) :
    (W14 m ρ c (Proc.devRef .tc main_v128_1) : S1x128.Idx → EReal) (ix2 ⟨0, Nat.one_pos⟩ j) = cH3_2 m ρ c j := by
  refine (congrFun (W14_arr m ρ c 10) _).trans ((shiftArr10 (V13 m ρ) c j).trans ?_)
  rw [q10_eq, i10_7, i10_8]

/-! ### The output kernel's inputs, and the layer -/

theorem o11_x (c : Dev nD) : X11 (V14 m ρ) c = cx2 m ρ c := funext fun r => funext fun k => congrFun (kp2_3_x m ρ c) (ix2 r k)
theorem o11_w0 (c : Dev nD) : Wa11 (V14 m ρ) c = cw0_2 m ρ c := funext fun k => funext fun j => congrFun (kp2_3_w0 m ρ c) (ix2 k j)
theorem o11_w1 (c : Dev nD) : Wb11 (V14 m ρ) c = cw1_2 m ρ c := funext fun k => funext fun j => congrFun (kp2_3_w1 m ρ c) (ix2 k j)
theorem o11_s1 (c : Dev nD) : sc11_1 (V14 m ρ) c = cS1_2 m ρ c := funext fun j => (congrFun (kp2_3_s1 m ρ c) _).trans (rowS1_2 m ρ c j)
theorem o11_h1 (c : Dev nD) : sh11_1 (V14 m ρ) c = cH1_2 m ρ c := funext fun j => (congrFun (kp2_3_h1 m ρ c) _).trans (rowH1_2 m ρ c j)
theorem o11_s2 (c : Dev nD) : sc11_2 (V14 m ρ) c = cS2_2 m ρ c := funext fun j => (congrFun (kp2_3_s2 m ρ c) _).trans (rowS2_2 m ρ c j)
theorem o11_h2 (c : Dev nD) : sh11_2 (V14 m ρ) c = cH2_2 m ρ c := funext fun j => (congrFun (kp2_3_h2 m ρ c) _).trans (rowH2_2 m ρ c j)
theorem o11_s3 (c : Dev nD) : sc11_3 (V14 m ρ) c = cS3_2 m ρ c := funext fun j => rowS3_2 m ρ c j
theorem o11_h3 (c : Dev nD) : sh11_3 (V14 m ρ) c = cH3_2 m ρ c := funext fun j => rowH3_2 m ρ c j

/-- The layer's output array, entry by entry, is the layer's value in the kernel's form on the arrays the layer was
    entered with. -/
theorem layer2_val (c : Dev nD) (r : Fin 50000) (j : Fin 128) :
    (W15 (F := Ideal) m ρ c (Proc.devRef .tc main_v129) : S50000x128.Idx → EReal) (ValueIdx.ix2 r j)
      = Cert.Spec.layerK zW cW epsW false (fun r k => (W11 (F := Ideal) m ρ c (Proc.devRef .tc main_v101) : S50000x128.Idx → EReal) (ix2 r k))
          (fun k j => (W11 (F := Ideal) m ρ c (Proc.devRef .tc main_v104) : S128x128.Idx → EReal) (ix2 k j))
          (fun k j => (W11 (F := Ideal) m ρ c (Proc.devRef .tc main_v107) : S128x128.Idx → EReal) (ix2 k j))
          (fun j => (W11 (F := Ideal) m ρ c (Proc.devRef .tc main_v110) : S1x128.Idx → EReal) (ix2 ⟨0, Nat.one_pos⟩ j))
          (fun j => (W11 (F := Ideal) m ρ c (Proc.devRef .tc main_v113) : S1x128.Idx → EReal) (ix2 ⟨0, Nat.one_pos⟩ j))
          (fun j => (W11 (F := Ideal) m ρ c (Proc.devRef .tc main_v116) : S1x128.Idx → EReal) (ix2 ⟨0, Nat.one_pos⟩ j))
          (fun j => (W11 (F := Ideal) m ρ c (Proc.devRef .tc main_v119) : S1x128.Idx → EReal) (ix2 ⟨0, Nat.one_pos⟩ j))
          (fun j => (W11 (F := Ideal) m ρ c (Proc.devRef .tc main_v122) : S1x128.Idx → EReal) (ix2 ⟨0, Nat.one_pos⟩ j))
          (fun j => (W11 (F := Ideal) m ρ c (Proc.devRef .tc main_v125) : S1x128.Idx → EReal) (ix2 ⟨0, Nat.one_pos⟩ j)) r j := by
  refine (congrFun (W15_arr m ρ c 9) _).trans ((out11_val (V14 m ρ) c r j).trans ?_)
  rw [o11_x, o11_w0, o11_w1, o11_s1, o11_h1, o11_s2, o11_h2, o11_s3, o11_h3]
  rfl

end Cert.KernelIdeal.Hand

end
-- ==== Proof.KNet.lean ====
/-
  The kernel program as the network. Each layer's output array is the layer's value, in the kernel's form, on the
  arrays the host stretch before the layer left; those arrays are the layer's input x = h + agg h and the layer's
  slice of the parameters; so, the three layers chained, the result array holds the network of the launch arrays.
-/
import proofs.«180905_j29583734735286_1_alg».proof.Proof.KNetDefs
import proofs.«180905_j29583734735286_1_alg».proof.Proof.KChain0
import proofs.«180905_j29583734735286_1_alg».proof.Proof.KChain1
import proofs.«180905_j29583734735286_1_alg».proof.Proof.KChain2

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The result array, entry by entry, is the network (the kernel's form) of the launch arrays. -/
theorem kernel_net (c : Dev nD) (r : Fin 50000) (j : Fin 128) :
    (W15 (F := Ideal) m ρ c (Proc.devRef .tc main_v129) : S50000x128.Idx → EReal) (ix2 r j)
      = Cert.Net.netK zW cW epsW (aggK m ρ c) (paramsK m ρ c) (h0K m ρ c) r j :=
  kernel_net_of m ρ c (layer0_val m ρ c) (layer1_val m ρ c) (layer2_val m ρ c) r j

end Cert.KernelIdeal.Hand

end
-- ==== Proof.Algebraic.lean ====
/-
  The value conjunct: at the ideal instance, from memories that agree on the arguments and satisfy the precondition,
  both programs run to the end, leave their arguments as launched, and end with equal result arrays.

  The kernel's result array is the network in the kernel's form (one-pass statistics, scale and shift) of the launch
  arrays; the reference's is the network in the reference's form (centred, two-pass variance) of its launch arrays,
  which are the kernel's by the agreement. The precondition makes every float input a real, the neighbourhood
  aggregation keeps reals real, the count word is 50000 = the number of rows, the epsilon word is a positive real and
  the zero word is 0: so the network bridge applies and the two forms agree.
-/
import proofs.«180905_j29583734735286_1_alg».proof.Defs
import proofs.«180905_j29583734735286_1_alg».proof.Proof.Gen.KernelIdeal
import proofs.«180905_j29583734735286_1_alg».proof.Proof.Gen.ReferenceIdeal
import proofs.«180905_j29583734735286_1_alg».proof.Proof.Gen.Pre_finite_inputs
import proofs.«180905_j29583734735286_1_alg».proof.Proof.Run
import proofs.«180905_j29583734735286_1_alg».proof.Proof.RefNet
import proofs.«180905_j29583734735286_1_alg».proof.Proof.PreReal
import proofs.«180905_j29583734735286_1_alg».proof.Proof.RealAgg
import proofs.«180905_j29583734735286_1_alg».proof.Proof.KNetDefs
import proofs.«180905_j29583734735286_1_alg».proof.Proof.KNet
import proofs.«180905_j29583734735286_1_alg».proof.Proof.Net

set_option maxRecDepth 16384

noncomputable section

namespace Cert.Proof.Alg

open Idealize.ShloMosaic Idealize.ShloMosaic.TcCoe Idealize.SL.Sem Cert.LibBatchNorm
open Cert.ReferenceIdeal (S50000x128 S2x600000 S600000 S3x128x128 S3x128)

/-- the parameters read off eight arrays -/
def paramsOf (a3 a4 : S3x128x128.Idx → EReal) (a5 a6 a7 a8 a9 a10 : S3x128.Idx → EReal) : Cert.Net.Params 128 where
  W0 := fun l k j => a3 (ValueIdx.ix3 l k j)
  W1 := fun l k j => a4 (ValueIdx.ix3 l k j)
  g1 := fun l j => a5 (ValueIdx.ix2 l j)
  b1 := fun l j => a6 (ValueIdx.ix2 l j)
  g2 := fun l j => a7 (ValueIdx.ix2 l j)
  b2 := fun l j => a8 (ValueIdx.ix2 l j)
  g3 := fun l j => a9 (ValueIdx.ix2 l j)
  b3 := fun l j => a10 (ValueIdx.ix2 l j)

/-- the aggregation over an edge table and edge weights -/
def aggOf (a1 : S2x600000.Idx → BitVec 32) (a2 : S600000.Idx → EReal) (h : Fin 50000 → Fin 128 → EReal)
    (r : Fin 50000) (k : Fin 128) : EReal :=
  Cert.Agg.agg a1 a2 (fun i => h (i 0) (i 1)) (ValueIdx.ix2 r k)

/-- THE TWO FORMS OF THE NETWORK AGREE on real arrays, with the programs' own words for zero, the count and epsilon. -/
theorem net_eq (a0 : S50000x128.Idx → EReal) (a1 : S2x600000.Idx → BitVec 32) (a2 : S600000.Idx → EReal)
    (a3 a4 : S3x128x128.Idx → EReal) (a5 a6 a7 a8 a9 a10 : S3x128.Idx → EReal)
    (h0 : ∀ i, IsReal (a0 i)) (h2 : ∀ i, IsReal (a2 i)) (h3 : ∀ i, IsReal (a3 i)) (h4 : ∀ i, IsReal (a4 i))
    (h5 : ∀ i, IsReal (a5 i)) (h6 : ∀ i, IsReal (a6 i)) (h7 : ∀ i, IsReal (a7 i)) (h8 : ∀ i, IsReal (a8 i))
    (h9 : ∀ i, IsReal (a9 i)) (h10 : ∀ i, IsReal (a10 i)) :
    Cert.Net.netK (Ideal.ofBits .f32 0x00000000#32) ((1 / 50000 : ℝ) : EReal) (Ideal.ofBits .f32 0x3727C5AC#32)
        (aggOf a1 a2) (paramsOf a3 a4 a5 a6 a7 a8 a9 a10) (fun r k => a0 (ValueIdx.ix2 r k))
      = Cert.Net.netR (Ideal.ofBits .f32 0x00000000#32) (Ideal.ofBits .f32 0x47435000#32) (Ideal.ofBits .f32 0x3727C5AC#32)
        (aggOf a1 a2) (paramsOf a3 a4 a5 a6 a7 a8 a9 a10) (fun r k => a0 (ValueIdx.ix2 r k)) := by
  obtain ⟨e, he, hE⟩ := Cert.LibBatchNorm.ofBits_eps_pos
  have hc : (Ideal.ofBits .f32 0x47435000#32 : EReal) = ((50000 : ℝ) : EReal) := Cert.ReferenceIdeal.Hand.cNW_eq
  rw [Ideal.ofBits_zero_f32, hE, hc]
  exact Cert.Net.netK_eq_netR (n := 50000) (d := 128) (aggOf a1 a2)
    (fun h hh r k => Cert.Agg.agg_real a1 a2 (fun i => h (i 0) (i 1)) h2 (fun i => hh (i 0) (i 1)) (ValueIdx.ix2 r k))
    (paramsOf a3 a4 a5 a6 a7 a8 a9 a10)
    ⟨fun l k j => h3 _, fun l k j => h4 _, fun l j => h5 _, fun l j => h6 _, fun l j => h7 _, fun l j => h8 _,
      fun l j => h9 _, fun l j => h10 _⟩
    (fun r k => a0 (ValueIdx.ix2 r k)) (fun r k => h0 _) 50000 (by norm_num) (by norm_num) e he

/-- the same with the reference's arrays named apart from the kernel's, equal one by one -/
theorem net_eq' (a0 a0' : S50000x128.Idx → EReal) (a1 a1' : S2x600000.Idx → BitVec 32) (a2 a2' : S600000.Idx → EReal)
    (a3 a3' a4 a4' : S3x128x128.Idx → EReal) (a5 a5' a6 a6' a7 a7' a8 a8' a9 a9' a10 a10' : S3x128.Idx → EReal)
    (e0 : a0' = a0) (e1 : a1' = a1) (e2 : a2' = a2) (e3 : a3' = a3) (e4 : a4' = a4) (e5 : a5' = a5) (e6 : a6' = a6)
    (e7 : a7' = a7) (e8 : a8' = a8) (e9 : a9' = a9) (e10 : a10' = a10)
    (h0 : ∀ i, IsReal (a0 i)) (h2 : ∀ i, IsReal (a2 i)) (h3 : ∀ i, IsReal (a3 i)) (h4 : ∀ i, IsReal (a4 i))
    (h5 : ∀ i, IsReal (a5 i)) (h6 : ∀ i, IsReal (a6 i)) (h7 : ∀ i, IsReal (a7 i)) (h8 : ∀ i, IsReal (a8 i))
    (h9 : ∀ i, IsReal (a9 i)) (h10 : ∀ i, IsReal (a10 i)) (r : Fin 50000) (j : Fin 128) :
    Cert.Net.netR (Ideal.ofBits .f32 0x00000000#32) (Ideal.ofBits .f32 0x47435000#32) (Ideal.ofBits .f32 0x3727C5AC#32)
        (aggOf a1' a2') (paramsOf a3' a4' a5' a6' a7' a8' a9' a10') (fun r k => a0' (ValueIdx.ix2 r k)) r j
      = Cert.Net.netK (Ideal.ofBits .f32 0x00000000#32) ((1 / 50000 : ℝ) : EReal) (Ideal.ofBits .f32 0x3727C5AC#32)
        (aggOf a1 a2) (paramsOf a3 a4 a5 a6 a7 a8 a9 a10) (fun r k => a0 (ValueIdx.ix2 r k)) r j := by
  subst e0 e1 e2 e3 e4 e5 e6 e7 e8 e9 e10
  rw [net_eq a0' a1' a2' a3' a4' a5' a6' a7' a8' a9' a10' h0 h2 h3 h4 h5 h6 h7 h8 h9 h10]

open Cert.KernelIdeal.Hand in
/-- THE VALUE CONJUNCT, given the kernel's result array as the network of the launch arrays. -/
theorem algebraic_of
    (hk : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD)
      (r : Fin 50000) (j : Fin 128),
      (W15 (F := Ideal) m ρ c (Proc.devRef .tc Cert.KernelIdeal.main_v129) : Cert.KernelIdeal.S50000x128.Idx → EReal) (ValueIdx.ix2 r j)
        = Cert.Net.netK zW cW epsW (aggK m ρ c) (paramsK m ρ c) (h0K m ρ c) r j) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => W15 (F := Ideal) m ρ c (Proc.devRef .tc Cert.KernelIdeal.main_v129), ?_, ?_⟩
  · exact (θ_run Cert.KernelIdeal.defs _ _).mono (fun r h c =>
      ⟨h c _ (mem_uc Cert.KernelIdeal.main_v129 (by decide)),
       (h c _ (mem_uc Cert.KernelIdeal.main_arg0 (by decide))).trans (W15_main_arg0 m ρ c),
       (h c _ (mem_uc Cert.KernelIdeal.main_arg1 (by decide))).trans (W15_main_arg1 m ρ c),
       (h c _ (mem_uc Cert.KernelIdeal.main_arg2 (by decide))).trans (W15_main_arg2 m ρ c),
       (h c _ (mem_uc Cert.KernelIdeal.main_arg3 (by decide))).trans (W15_main_arg3 m ρ c),
       (h c _ (mem_uc Cert.KernelIdeal.main_arg4 (by decide))).trans (W15_main_arg4 m ρ c),
       (h c _ (mem_uc Cert.KernelIdeal.main_arg5 (by decide))).trans (W15_main_arg5 m ρ c),
       (h c _ (mem_uc Cert.KernelIdeal.main_arg6 (by decide))).trans (W15_main_arg6 m ρ c),
       (h c _ (mem_uc Cert.KernelIdeal.main_arg7 (by decide))).trans (W15_main_arg7 m ρ c),
       (h c _ (mem_uc Cert.KernelIdeal.main_arg8 (by decide))).trans (W15_main_arg8 m ρ c),
       (h c _ (mem_uc Cert.KernelIdeal.main_arg9 (by decide))).trans (W15_main_arg9 m ρ c),
       (h c _ (mem_uc Cert.KernelIdeal.main_arg10 (by decide))).trans (W15_main_arg10 m ρ c)⟩)
      (Cert.KernelIdeal.Hand.run_all (F := Ideal) m ρ)
  · have value : ∀ c : Dev Cert.ReferenceIdeal.nD,
        StableHlo.after (Cert.ReferenceIdeal.Hand.ops (F := Ideal)) (StableHlo.launchContents m' c) (Cert.ReferenceIdeal.main_v278 : DevRef Cert.ReferenceIdeal.τ Cert.ReferenceIdeal.sig)
          = W15 (F := Ideal) m ρ c (Proc.devRef .tc Cert.KernelIdeal.main_v129) := fun c => by
      obtain ⟨e0, e1, e2, e3, e4, e5, e6, e7, e8, e9, e10⟩ := hagree c
      obtain ⟨h0, h2, h3, h4, h5, h6, h7, h8, h9, h10⟩ := Cert.Proof.PreReal.pre_real _ _ _ _ _ _ _ _ _ _ _ (hpre c)
      funext i
      obtain ⟨r, j, rfl⟩ : ∃ (r : Fin 50000) (j : Fin 128), i = ValueIdx.ix2 r j := ⟨i 0, i 1, ValueIdx.eq_ix2 i⟩
      rw [Cert.ReferenceIdeal.Hand.ref_net, hk]
      exact net_eq' (m ((c.tc : Thread Cert.KernelIdeal.nD Cert.KernelIdeal.τ).loc Cert.KernelIdeal.main_arg0)) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg1)) (m' ((c.tc : Thread Cert.ReferenceIdeal.nD Cert.ReferenceIdeal.τ).loc Cert.ReferenceIdeal.main_arg1))
        (m ((c.tc : Thread Cert.KernelIdeal.nD Cert.KernelIdeal.τ).loc Cert.KernelIdeal.main_arg2)) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg3)) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg4)) (m' ((c.tc : Thread Cert.ReferenceIdeal.nD Cert.ReferenceIdeal.τ).loc Cert.ReferenceIdeal.main_arg4))
        (m ((c.tc : Thread Cert.KernelIdeal.nD Cert.KernelIdeal.τ).loc Cert.KernelIdeal.main_arg5)) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg6)) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg7)) (m' ((c.tc : Thread Cert.ReferenceIdeal.nD Cert.ReferenceIdeal.τ).loc Cert.ReferenceIdeal.main_arg7))
        (m ((c.tc : Thread Cert.KernelIdeal.nD Cert.KernelIdeal.τ).loc Cert.KernelIdeal.main_arg8)) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg9)) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg10)) (m' ((c.tc : Thread Cert.ReferenceIdeal.nD Cert.ReferenceIdeal.τ).loc Cert.ReferenceIdeal.main_arg10))
        e0 e1 e2 e3 e4 e5 e6 e7 e8 e9 e10 h0 h2 h3 h4 h5 h6 h7 h8 h9 h10 r j
    exact (θ_run Cert.ReferenceIdeal.defs _ _).mono (fun r h c =>
      ⟨(h c Cert.ReferenceIdeal.main_v278).trans (value c),
       (h c Cert.ReferenceIdeal.main_arg0).trans (Cert.ReferenceIdeal.Hand.keep_arg0 _),
       (h c Cert.ReferenceIdeal.main_arg1).trans (Cert.ReferenceIdeal.Hand.keep_arg1 _),
       (h c Cert.ReferenceIdeal.main_arg2).trans (Cert.ReferenceIdeal.Hand.keep_arg2 _),
       (h c Cert.ReferenceIdeal.main_arg3).trans (Cert.ReferenceIdeal.Hand.keep_arg3 _),
       (h c Cert.ReferenceIdeal.main_arg4).trans (Cert.ReferenceIdeal.Hand.keep_arg4 _),
       (h c Cert.ReferenceIdeal.main_arg5).trans (Cert.ReferenceIdeal.Hand.keep_arg5 _),
       (h c Cert.ReferenceIdeal.main_arg6).trans (Cert.ReferenceIdeal.Hand.keep_arg6 _),
       (h c Cert.ReferenceIdeal.main_arg7).trans (Cert.ReferenceIdeal.Hand.keep_arg7 _),
       (h c Cert.ReferenceIdeal.main_arg8).trans (Cert.ReferenceIdeal.Hand.keep_arg8 _),
       (h c Cert.ReferenceIdeal.main_arg9).trans (Cert.ReferenceIdeal.Hand.keep_arg9 _),
       (h c Cert.ReferenceIdeal.main_arg10).trans (Cert.ReferenceIdeal.Hand.keep_arg10 _)⟩)
      (Cert.ReferenceIdeal.Hand.run_main (F := Ideal) m' ρ')

/-- THE VALUE CONJUNCT. -/
theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) :=
  algebraic_of Cert.KernelIdeal.Hand.kernel_net

end Cert.Proof.Alg

end
-- ==== Proof.lean ====
/-
  The claim for the three-layer graph-isomorphism network: on finite inputs the tiled kernel program and the
  plain reference compute the same [50000, 128] array on the extended reals.

  Per layer both programs form x = h + segment_sum(h[src] * w, dst) with the same host operations, then
  lin1 = x · W0, relu(bn1(lin1)), lin2 = (that) · W1, relu(bn2(lin2)), bn3 of that, and a rectifier except on the
  last layer.  The reference's batch norm is (v - mean) * rsqrt(var + eps) * g + b with the two-pass variance
  (the mean of the squared deviations over the 50000 rows); the kernel's is v * scale + shift with
  scale = g * rsqrt(E[v^2] - mean^2 + eps), shift = b - mean * scale, the column totals of v and v^2
  accumulated over ten tiles of 5000 rows.  On real entries the two agree: E[v^2] - mean^2 is the two-pass
  variance, it is nonnegative so var + eps > 0 and rsqrt is a positive real, and v*s + (b - mean*s) =
  (v - mean)*s + b needs the cancellation of reals, which is where finiteness of the inputs is used.  The
  kernel's 1/50000 is read as the exact rational (the ledger, Proof/Ledger.lean); eps is the same f32 word on
  both sides; the matrix products agree at the ideal values because a change of float format is the identity.

  The three frames (each program runs to its end, faults nowhere and leaves its arguments as launched) are
  Proof/KRun.lean, Proof/Run.lean and Proof/RefFrame.lean; the ledger is Proof/Ledger.lean; the value equation
  is Proof/Algebraic.lean: the kernel program is Net.netK of its arguments (Proof/KNet.lean: per layer the
  three statistics regions leave the scale and shift rows of Spec.lean, the fourth region the layer's output),
  the reference is Net.netR of its arguments (Proof/RefNet.lean), and on the real inputs the precondition
  grants the two forms of the network agree (Proof/Net.lean).
-/
import proofs.«180905_j29583734735286_1_alg».proof.Defs
import proofs.«180905_j29583734735286_1_alg».proof.Proof.Gen.Kernel
import proofs.«180905_j29583734735286_1_alg».proof.Proof.Gen.Kernel.Skeleton
import proofs.«180905_j29583734735286_1_alg».proof.Proof.Gen.Kernel.Launch
import proofs.«180905_j29583734735286_1_alg».proof.Proof.Gen.Kernel.Regions
import proofs.«180905_j29583734735286_1_alg».proof.Proof.Gen.Kernel.Points
import proofs.«180905_j29583734735286_1_alg».proof.Proof.Gen.KernelIdeal
import proofs.«180905_j29583734735286_1_alg».proof.Proof.Gen.KernelIdeal.Skeleton
import proofs.«180905_j29583734735286_1_alg».proof.Proof.Gen.KernelIdeal.Launch
import proofs.«180905_j29583734735286_1_alg».proof.Proof.Gen.KernelIdeal.Regions
import proofs.«180905_j29583734735286_1_alg».proof.Proof.Gen.KernelIdeal.Points
import proofs.«180905_j29583734735286_1_alg».proof.Proof.Gen.ReferenceIdeal
import proofs.«180905_j29583734735286_1_alg».proof.Proof.Gen.Pre_finite_inputs
import proofs.«180905_j29583734735286_1_alg».proof.Proof.Ledger
import proofs.«180905_j29583734735286_1_alg».proof.Proof.Run
import proofs.«180905_j29583734735286_1_alg».proof.Proof.KRun
import proofs.«180905_j29583734735286_1_alg».proof.Proof.RefFrame
import proofs.«180905_j29583734735286_1_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨?_, ?_, ?_, Cert.Proof.Ledger.preserves, ?algebraic⟩
  · exact fun m ρ _ => Cert.Kernel.Hand.frame (F := Bits) m ρ
  · exact fun m ρ _ => Cert.KernelIdeal.Hand.frame (F := Ideal) m ρ
  · exact fun m ρ _ => Cert.ReferenceIdeal.Hand.frame (F := Ideal) m ρ
  · exact Cert.Proof.Alg.algebraic⟩

end Cert.Proof

end
